-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1375) = v0 c
          ∧ r.2.mem ((c.tc : Thread Cert.ReferenceIdeal.nD Cert.ReferenceIdeal.τ).loc Cert.ReferenceIdeal.main_v1031) = v1 c
          ∧ r.2.mem ((c.tc : Thread Cert.ReferenceIdeal.nD Cert.ReferenceIdeal.τ).loc Cert.ReferenceIdeal.main_v687) = v2 c
          ∧ r.2.mem ((c.tc : Thread Cert.ReferenceIdeal.nD Cert.ReferenceIdeal.τ).loc Cert.ReferenceIdeal.main_v343) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x112x112 : Shape := ⟨4, ![8, 64, 112, 112]⟩
abbrev S8x128x56x56 : Shape := ⟨4, ![8, 128, 56, 56]⟩
abbrev S8x256x28x28 : Shape := ⟨4, ![8, 256, 28, 28]⟩
abbrev S8x512x14x14 : Shape := ⟨4, ![8, 512, 14, 14]⟩
abbrev S_ : Shape := ⟨0, ![]⟩

class Facts : Prop where
  bcast_S_S8x64x112x112 : S_.BroadcastsInDim S8x64x112x112 (![] : Fin 0 → Fin S8x64x112x112.rank)
  reducesTo_S8x64x112x112_S_d0_1_2_3 : S8x64x112x112.ReducesTo [0, 1, 2, 3] S_
  h_S_ : 0 < S_.numel
  bcast_S_S8x128x56x56 : S_.BroadcastsInDim S8x128x56x56 (![] : Fin 0 → Fin S8x128x56x56.rank)
  reducesTo_S8x128x56x56_S_d0_1_2_3 : S8x128x56x56.ReducesTo [0, 1, 2, 3] S_
  bcast_S_S8x256x28x28 : S_.BroadcastsInDim S8x256x28x28 (![] : Fin 0 → Fin S8x256x28x28.rank)
  reducesTo_S8x256x28x28_S_d0_1_2_3 : S8x256x28x28.ReducesTo [0, 1, 2, 3] S_
  bcast_S_S8x512x14x14 : S_.BroadcastsInDim S8x512x14x14 (![] : Fin 0 → Fin S8x512x14x14.rank)
  reducesTo_S8x512x14x14_S_d0_1_2_3 : S8x512x14x14.ReducesTo [0, 1, 2, 3] S_

variable [Facts]

def fn_part2 {F : FTy → Type} [FloatOps F] (main_arg7 : FVec F S8x512x14x14 .f32) (main_v33 : IVec S_ 1) : IVec S_ 1 :=
  let main_v34 : FVec F S8x512x14x14 .f32 := Host.absf main_arg7
  let main_cst_12 : FVec F S_ .f32 := constant S_ .f32 0x7F800000#32
  let main_v35 : FVec F S8x512x14x14 .f32 := broadcastInDim S8x512x14x14 ![] bcast_S_S8x512x14x14 main_cst_12
  let main_v36 : IVec S8x512x14x14 1 := cmpf .olt main_v34 main_v35
  let main_c_13 : IVec S_ 1 := constantI S_ 1 1#1
  let main_v37 : IVec S_ 1 := (fun x v => Host.reduce IntOp.andi x v reducesTo_S8x512x14x14_S_d0_1_2_3 h_S_) main_v36 main_c_13
  let main_v38 : IVec S_ 1 := andi main_v33 main_v37
  main_v38

def fn_part1 {F : FTy → Type} [FloatOps F] (main_arg4 : FVec F S8x64x112x112 .f32) (main_arg5 : FVec F S8x128x56x56 .f32) (main_arg6 : FVec F S8x256x28x28 .f32) (main_arg7 : FVec F S8x512x14x14 .f32) (main_v13 : IVec S_ 1) (main_v16 : IVec S8x512x14x14 1) : IVec S_ 1 :=
  let main_c_5 : IVec S_ 1 := constantI S_ 1 1#1
  let main_v17 : IVec S_ 1 := (fun x v => Host.reduce IntOp.andi x v reducesTo_S8x512x14x14_S_d0_1_2_3 h_S_) main_v16 main_c_5
  let main_v18 : IVec S_ 1 := andi main_v13 main_v17
  let main_v19 : FVec F S8x64x112x112 .f32 := Host.absf main_arg4
  let main_cst_6 : FVec F S_ .f32 := constant S_ .f32 0x7F800000#32
  let main_v20 : FVec F S8x64x112x112 .f32 := broadcastInDim S8x64x112x112 ![] bcast_S_S8x64x112x112 main_cst_6
  let main_v21 : IVec S8x64x112x112 1 := cmpf .olt main_v19 main_v20
  let main_c_7 : IVec S_ 1 := constantI S_ 1 1#1
  let main_v22 : IVec S_ 1 := (fun x v => Host.reduce IntOp.andi x v reducesTo_S8x64x112x112_S_d0_1_2_3 h_S_) main_v21 main_c_7
  let main_v23 : IVec S_ 1 := andi main_v18 main_v22
  let main_v24 : FVec F S8x128x56x56 .f32 := Host.absf main_arg5
  let main_cst_8 : FVec F S_ .f32 := constant S_ .f32 0x7F800000#32
  let main_v25 : FVec F S8x128x56x56 .f32 := broadcastInDim S8x128x56x56 ![] bcast_S_S8x128x56x56 main_cst_8
  let main_v26 : IVec S8x128x56x56 1 := cmpf .olt main_v24 main_v25
  let main_c_9 : IVec S_ 1 := constantI S_ 1 1#1
  let main_v27 : IVec S_ 1 := (fun x v => Host.reduce IntOp.andi x v reducesTo_S8x128x56x56_S_d0_1_2_3 h_S_) main_v26 main_c_9
  let main_v28 : IVec S_ 1 := andi main_v23 main_v27
  let main_v29 : FVec F S8x256x28x28 .f32 := Host.absf main_arg6
  let main_cst_10 : FVec F S_ .f32 := constant S_ .f32 0x7F800000#32
  let main_v30 : FVec F S8x256x28x28 .f32 := broadcastInDim S8x256x28x28 ![] bcast_S_S8x256x28x28 main_cst_10
  let main_v31 : IVec S8x256x28x28 1 := cmpf .olt main_v29 main_v30
  let main_c_11 : IVec S_ 1 := constantI S_ 1 1#1
  let main_v32 : IVec S_ 1 := (fun x v => Host.reduce IntOp.andi x v reducesTo_S8x256x28x28_S_d0_1_2_3 h_S_) main_v31 main_c_11
  let main_v33 : IVec S_ 1 := andi main_v28 main_v32
  fn_part2 (F := F) main_arg7 main_v33

def fn {F : FTy → Type} [FloatOps F] (main_arg0 : FVec F S8x64x112x112 .f32) (main_arg1 : FVec F S8x128x56x56 .f32) (main_arg2 : FVec F S8x256x28x28 .f32) (main_arg3 : FVec F S8x512x14x14 .f32) (main_arg4 : FVec F S8x64x112x112 .f32) (main_arg5 : FVec F S8x128x56x56 .f32) (main_arg6 : FVec F S8x256x28x28 .f32) (main_arg7 : FVec F S8x512x14x14 .f32) : IVec S_ 1 :=
  let main_v0 : FVec F S8x64x112x112 .f32 := Host.absf main_arg0
  let main_cst : FVec F S_ .f32 := constant S_ .f32 0x7F800000#32
  let main_v1 : FVec F S8x64x112x112 .f32 := broadcastInDim S8x64x112x112 ![] bcast_S_S8x64x112x112 main_cst
  let main_v2 : IVec S8x64x112x112 1 := cmpf .olt main_v0 main_v1
  let main_c : IVec S_ 1 := constantI S_ 1 1#1
  let main_v3 : IVec S_ 1 := (fun x v => Host.reduce IntOp.andi x v reducesTo_S8x64x112x112_S_d0_1_2_3 h_S_) main_v2 main_c
  let main_v4 : FVec F S8x128x56x56 .f32 := Host.absf main_arg1
  let main_cst_0 : FVec F S_ .f32 := constant S_ .f32 0x7F800000#32
  let main_v5 : FVec F S8x128x56x56 .f32 := broadcastInDim S8x128x56x56 ![] bcast_S_S8x128x56x56 main_cst_0
  let main_v6 : IVec S8x128x56x56 1 := cmpf .olt main_v4 main_v5
  let main_c_1 : IVec S_ 1 := constantI S_ 1 1#1
  let main_v7 : IVec S_ 1 := (fun x v => Host.reduce IntOp.andi x v reducesTo_S8x128x56x56_S_d0_1_2_3 h_S_) main_v6 main_c_1
  let main_v8 : IVec S_ 1 := andi main_v3 main_v7
  let main_v9 : FVec F S8x256x28x28 .f32 := Host.absf main_arg2
  let main_cst_2 : FVec F S_ .f32 := constant S_ .f32 0x7F800000#32
  let main_v10 : FVec F S8x256x28x28 .f32 := broadcastInDim S8x256x28x28 ![] bcast_S_S8x256x28x28 main_cst_2
  let main_v11 : IVec S8x256x28x28 1 := cmpf .olt main_v9 main_v10
  let main_c_3 : IVec S_ 1 := constantI S_ 1 1#1
  let main_v12 : IVec S_ 1 := (fun x v => Host.reduce IntOp.andi x v reducesTo_S8x256x28x28_S_d0_1_2_3 h_S_) main_v11 main_c_3
  let main_v13 : IVec S_ 1 := andi main_v8 main_v12
  let main_v14 : FVec F S8x512x14x14 .f32 := Host.absf main_arg3
  let main_cst_4 : FVec F S_ .f32 := constant S_ .f32 0x7F800000#32
  let main_v15 : FVec F S8x512x14x14 .f32 := broadcastInDim S8x512x14x14 ![] bcast_S_S8x512x14x14 main_cst_4
  let main_v16 : IVec S8x512x14x14 1 := cmpf .olt main_v14 main_v15
  fn_part1 (F := F) main_arg4 main_arg5 main_arg6 main_arg7 main_v13 main_v16
-- ==== Kernel.lean ====
abbrev S8x64x112x112 : Shape := ⟨4, ![8, 64, 112, 112]⟩
abbrev S8x128x56x56 : Shape := ⟨4, ![8, 128, 56, 56]⟩
abbrev S8x256x28x28 : Shape := ⟨4, ![8, 256, 28, 28]⟩
abbrev S8x512x14x14 : Shape := ⟨4, ![8, 512, 14, 14]⟩
abbrev S8x81x112x112 : Shape := ⟨4, ![8, 81, 112, 112]⟩
abbrev S1x64x112x112 : Shape := ⟨4, ![1, 64, 112, 112]⟩
abbrev S1x81x112x112 : Shape := ⟨4, ![1, 81, 112, 112]⟩
abbrev S64x120x120 : Shape := ⟨3, ![64, 120, 120]⟩
abbrev S64x112x112 : Shape := ⟨3, ![64, 112, 112]⟩
abbrev S64x112x120 : Shape := ⟨3, ![64, 112, 120]⟩
abbrev S112x112 : Shape := ⟨2, ![112, 112]⟩
abbrev S1x1x112x112 : Shape := ⟨4, ![1, 1, 112, 112]⟩
abbrev S8x9x9x112x112 : Shape := ⟨5, ![8, 9, 9, 112, 112]⟩
abbrev S8x81x56x56 : Shape := ⟨4, ![8, 81, 56, 56]⟩
abbrev S1x128x56x56 : Shape := ⟨4, ![1, 128, 56, 56]⟩
abbrev S1x81x56x56 : Shape := ⟨4, ![1, 81, 56, 56]⟩
abbrev S128x64x64 : Shape := ⟨3, ![128, 64, 64]⟩
abbrev S128x56x56 : Shape := ⟨3, ![128, 56, 56]⟩
abbrev S128x56x64 : Shape := ⟨3, ![128, 56, 64]⟩
abbrev S56x56 : Shape := ⟨2, ![56, 56]⟩
abbrev S1x1x56x56 : Shape := ⟨4, ![1, 1, 56, 56]⟩
abbrev S8x9x9x56x56 : Shape := ⟨5, ![8, 9, 9, 56, 56]⟩
abbrev S8x81x28x28 : Shape := ⟨4, ![8, 81, 28, 28]⟩
abbrev S1x256x28x28 : Shape := ⟨4, ![1, 256, 28, 28]⟩
abbrev S1x81x28x28 : Shape := ⟨4, ![1, 81, 28, 28]⟩
abbrev S256x36x36 : Shape := ⟨3, ![256, 36, 36]⟩
abbrev S256x28x28 : Shape := ⟨3, ![256, 28, 28]⟩
abbrev S256x28x36 : Shape := ⟨3, ![256, 28, 36]⟩
abbrev S28x28 : Shape := ⟨2, ![28, 28]⟩
abbrev S1x1x28x28 : Shape := ⟨4, ![1, 1, 28, 28]⟩
abbrev S8x9x9x28x28 : Shape := ⟨5, ![8, 9, 9, 28, 28]⟩
abbrev S8x81x14x14 : Shape := ⟨4, ![8, 81, 14, 14]⟩
abbrev S1x512x14x14 : Shape := ⟨4, ![1, 512, 14, 14]⟩
abbrev S1x81x14x14 : Shape := ⟨4, ![1, 81, 14, 14]⟩
abbrev S512x22x22 : Shape := ⟨3, ![512, 22, 22]⟩
abbrev S512x14x14 : Shape := ⟨3, ![512, 14, 14]⟩
abbrev S512x14x22 : Shape := ⟨3, ![512, 14, 22]⟩
abbrev S14x14 : Shape := ⟨2, ![14, 14]⟩
abbrev S1x1x14x14 : Shape := ⟨4, ![1, 1, 14, 14]⟩
abbrev S8x9x9x14x14 : Shape := ⟨5, ![8, 9, 9, 14, 14]⟩

abbrev nBuf : Space → Nat
  | .hbm => 16
  | .vmem => 28
  | .smem => 0
  | _ => 0

abbrev bufTy : (tb : Table) → Fin (tcTables nBuf tb) → BufTy
  | .hbm, ⟨0, _⟩ => ⟨S8x64x112x112, .f32⟩
  | .hbm, ⟨1, _⟩ => ⟨S8x128x56x56, .f32⟩
  | .hbm, ⟨2, _⟩ => ⟨S8x256x28x28, .f32⟩
  | .hbm, ⟨3, _⟩ => ⟨S8x512x14x14, .f32⟩
  | .hbm, ⟨4, _⟩ => ⟨S8x64x112x112, .f32⟩
  | .hbm, ⟨5, _⟩ => ⟨S8x128x56x56, .f32⟩
  | .hbm, ⟨6, _⟩ => ⟨S8x256x28x28, .f32⟩
  | .hbm, ⟨7, _⟩ => ⟨S8x512x14x14, .f32⟩
  | .hbm, ⟨8, _⟩ => ⟨S8x81x112x112, .f32⟩
  | .hbm, ⟨9, _⟩ => ⟨S8x9x9x112x112, .f32⟩
  | .hbm, ⟨10, _⟩ => ⟨S8x81x56x56, .f32⟩
  | .hbm, ⟨11, _⟩ => ⟨S8x9x9x56x56, .f32⟩
  | .hbm, ⟨12, _⟩ => ⟨S8x81x28x28, .f32⟩
  | .hbm, ⟨13, _⟩ => ⟨S8x9x9x28x28, .f32⟩
  | .hbm, ⟨14, _⟩ => ⟨S8x81x14x14, .f32⟩
  | .hbm, ⟨15, _⟩ => ⟨S8x9x9x14x14, .f32⟩
  | .local _ .vmem, ⟨0, _⟩ => ⟨S1x64x112x112, .f32⟩
  | .local _ .vmem, ⟨1, _⟩ => ⟨S1x64x112x112, .f32⟩
  | .local _ .vmem, ⟨2, _⟩ => ⟨S1x64x112x112, .f32⟩
  | .local _ .vmem, ⟨3, _⟩ => ⟨S1x64x112x112, .f32⟩
  | .local _ .vmem, ⟨4, _⟩ => ⟨S1x81x112x112, .f32⟩
  | .local _ .vmem, ⟨5, _⟩ => ⟨S1x81x112x112, .f32⟩
  | .local _ .vmem, ⟨6, _⟩ => ⟨S64x120x120, .f32⟩
  | .local _ .vmem, ⟨7, _⟩ => ⟨S1x128x56x56, .f32⟩
  | .local _ .vmem, ⟨8, _⟩ => ⟨S1x128x56x56, .f32⟩
  | .local _ .vmem, ⟨9, _⟩ => ⟨S1x128x56x56, .f32⟩
  | .local _ .vmem, ⟨10, _⟩ => ⟨S1x128x56x56, .f32⟩
  | .local _ .vmem, ⟨11, _⟩ => ⟨S1x81x56x56, .f32⟩
  | .local _ .vmem, ⟨12, _⟩ => ⟨S1x81x56x56, .f32⟩
  | .local _ .vmem, ⟨13, _⟩ => ⟨S128x64x64, .f32⟩
  | .local _ .vmem, ⟨14, _⟩ => ⟨S1x256x28x28, .f32⟩
  | .local _ .vmem, ⟨15, _⟩ => ⟨S1x256x28x28, .f32⟩
  | .local _ .vmem, ⟨16, _⟩ => ⟨S1x256x28x28, .f32⟩
  | .local _ .vmem, ⟨17, _⟩ => ⟨S1x256x28x28, .f32⟩
  | .local _ .vmem, ⟨18, _⟩ => ⟨S1x81x28x28, .f32⟩
  | .local _ .vmem, ⟨19, _⟩ => ⟨S1x81x28x28, .f32⟩
  | .local _ .vmem, ⟨20, _⟩ => ⟨S256x36x36, .f32⟩
  | .local _ .vmem, ⟨21, _⟩ => ⟨S1x512x14x14, .f32⟩
  | .local _ .vmem, ⟨22, _⟩ => ⟨S1x512x14x14, .f32⟩
  | .local _ .vmem, ⟨23, _⟩ => ⟨S1x512x14x14, .f32⟩
  | .local _ .vmem, ⟨24, _⟩ => ⟨S1x512x14x14, .f32⟩
  | .local _ .vmem, ⟨25, _⟩ => ⟨S1x81x14x14, .f32⟩
  | .local _ .vmem, ⟨26, _⟩ => ⟨S1x81x14x14, .f32⟩
  | .local _ .vmem, ⟨27, _⟩ => ⟨S512x22x22, .f32⟩
  | _, _ => ⟨S8x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x81x112x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x56x56 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x81x56x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x256x28x28 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x28x28 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x81x28x28 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x512x14x14 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x14x14 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x81x14x14 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S64x120x120_S64x120x120_0_0_0 : ∀ a, (![0, 0, 0] : Fin 3 → Nat) a + S64x120x120.size a ≤ S64x120x120.size a
  h_S64x120x120 : 0 < S64x120x120.numel
  shapeCasts_S64x120x120_S64x120x120 : S64x120x120.ShapeCasts S64x120x120
  inb_S1x64x112x112_S1x64x112x112_0_0_0_0 : ∀ a, (![0, 0, 0, 0] : Fin 4 → Nat) a + S1x64x112x112.size a ≤ S1x64x112x112.size a
  h_S1x64x112x112 : 0 < S1x64x112x112.numel
  shapeCasts_S1x64x112x112_S64x112x112 : S1x64x112x112.ShapeCasts S64x112x112
  inb_S64x120x120_S64x112x112_0_4_4 : ∀ a, (![0, 4, 4] : Fin 3 → Nat) a + S64x112x112.size a ≤ S64x120x120.size a
  h_S64x112x112 : 0 < S64x112x112.numel
  shapeCasts_S64x112x112_S64x112x112 : S64x112x112.ShapeCasts S64x112x112
  inb_S64x120x120_S64x112x120_0_0_0 : ∀ a, (![0, 0, 0] : Fin 3 → Nat) a + S64x112x120.size a ≤ S64x120x120.size a
  h_S64x112x120 : 0 < S64x112x120.numel
  slices_S64x112x120_o0_0_0_S64x112x112 : S64x112x120.Slices ![0, 0, 0] S64x112x112
  reduces_S64x112x112_S112x112 : S64x112x112.Reduces [0] S112x112
  inb_S1x81x112x112_S1x1x112x112_0_0_0_0 : ∀ a, (![0, 0, 0, 0] : Fin 4 → Nat) a + S1x1x112x112.size a ≤ S1x81x112x112.size a
  h_S1x1x112x112 : 0 < S1x1x112x112.numel
  shapeCasts_S1x1x112x112_S112x112 : S1x1x112x112.ShapeCasts S112x112
  shapeCasts_S112x112_S1x1x112x112 : S112x112.ShapeCasts S1x1x112x112
  slices_S64x112x120_o0_0_1_S64x112x112 : S64x112x120.Slices ![0, 0, 1] S64x112x112
  inb_S1x81x112x112_S1x1x112x112_0_1_0_0 : ∀ a, (![0, 1, 0, 0] : Fin 4 → Nat) a + S1x1x112x112.size a ≤ S1x81x112x112.size a
  slices_S64x112x120_o0_0_2_S64x112x112 : S64x112x120.Slices ![0, 0, 2] S64x112x112
  inb_S1x81x112x112_S1x1x112x112_0_2_0_0 : ∀ a, (![0, 2, 0, 0] : Fin 4 → Nat) a + S1x1x112x112.size a ≤ S1x81x112x112.size a
  slices_S64x112x120_o0_0_3_S64x112x112 : S64x112x120.Slices ![0, 0, 3] S64x112x112
  inb_S1x81x112x112_S1x1x112x112_0_3_0_0 : ∀ a, (![0, 3, 0, 0] : Fin 4 → Nat) a + S1x1x112x112.size a ≤ S1x81x112x112.size a
  slices_S64x112x120_o0_0_4_S64x112x112 : S64x112x120.Slices ![0, 0, 4] S64x112x112
  inb_S1x81x112x112_S1x1x112x112_0_4_0_0 : ∀ a, (![0, 4, 0, 0] : Fin 4 → Nat) a + S1x1x112x112.size a ≤ S1x81x112x112.size a
  slices_S64x112x120_o0_0_5_S64x112x112 : S64x112x120.Slices ![0, 0, 5] S64x112x112
  inb_S1x81x112x112_S1x1x112x112_0_5_0_0 : ∀ a, (![0, 5, 0, 0] : Fin 4 → Nat) a + S1x1x112x112.size a ≤ S1x81x112x112.size a
  slices_S64x112x120_o0_0_6_S64x112x112 : S64x112x120.Slices ![0, 0, 6] S64x112x112
  inb_S1x81x112x112_S1x1x112x112_0_6_0_0 : ∀ a, (![0, 6, 0, 0] : Fin 4 → Nat) a + S1x1x112x112.size a ≤ S1x81x112x112.size a
  slices_S64x112x120_o0_0_7_S64x112x112 : S64x112x120.Slices ![0, 0, 7] S64x112x112
  inb_S1x81x112x112_S1x1x112x112_0_7_0_0 : ∀ a, (![0, 7, 0, 0] : Fin 4 → Nat) a + S1x1x112x112.size a ≤ S1x81x112x112.size a
  slices_S64x112x120_o0_0_8_S64x112x112 : S64x112x120.Slices ![0, 0, 8] S64x112x112
  inb_S1x81x112x112_S1x1x112x112_0_8_0_0 : ∀ a, (![0, 8, 0, 0] : Fin 4 → Nat) a + S1x1x112x112.size a ≤ S1x81x112x112.size a
  inb_S64x120x120_S64x112x120_0_1_0 : ∀ a, (![0, 1, 0] : Fin 3 → Nat) a + S64x112x120.size a ≤ S64x120x120.size a
  inb_S1x81x112x112_S1x1x112x112_0_9_0_0 : ∀ a, (![0, 9, 0, 0] : Fin 4 → Nat) a + S1x1x112x112.size a ≤ S1x81x112x112.size a
  inb_S1x81x112x112_S1x1x112x112_0_10_0_0 : ∀ a, (![0, 10, 0, 0] : Fin 4 → Nat) a + S1x1x112x112.size a ≤ S1x81x112x112.size a
  inb_S1x81x112x112_S1x1x112x112_0_11_0_0 : ∀ a, (![0, 11, 0, 0] : Fin 4 → Nat) a + S1x1x112x112.size a ≤ S1x81x112x112.size a
  inb_S1x81x112x112_S1x1x112x112_0_12_0_0 : ∀ a, (![0, 12, 0, 0] : Fin 4 → Nat) a + S1x1x112x112.size a ≤ S1x81x112x112.size a
  inb_S1x81x112x112_S1x1x112x112_0_13_0_0 : ∀ a, (![0, 13, 0, 0] : Fin 4 → Nat) a + S1x1x112x112.size a ≤ S1x81x112x112.size a
  inb_S1x81x112x112_S1x1x112x112_0_14_0_0 : ∀ a, (![0, 14, 0, 0] : Fin 4 → Nat) a + S1x1x112x112.size a ≤ S1x81x112x112.size a
  inb_S1x81x112x112_S1x1x112x112_0_15_0_0 : ∀ a, (![0, 15, 0, 0] : Fin 4 → Nat) a + S1x1x112x112.size a ≤ S1x81x112x112.size a
  inb_S1x81x112x112_S1x1x112x112_0_16_0_0 : ∀ a, (![0, 16, 0, 0] : Fin 4 → Nat) a + S1x1x112x112.size a ≤ S1x81x112x112.size a
  inb_S1x81x112x112_S1x1x112x112_0_17_0_0 : ∀ a, (![0, 17, 0, 0] : Fin 4 → Nat) a + S1x1x112x112.size a ≤ S1x81x112x112.size a
  inb_S64x120x120_S64x112x120_0_2_0 : ∀ a, (![0, 2, 0] : Fin 3 → Nat) a + S64x112x120.size a ≤ S64x120x120.size a
  inb_S1x81x112x112_S1x1x112x112_0_18_0_0 : ∀ a, (![0, 18, 0, 0] : Fin 4 → Nat) a + S1x1x112x112.size a ≤ S1x81x112x112.size a
  inb_S1x81x112x112_S1x1x112x112_0_19_0_0 : ∀ a, (![0, 19, 0, 0] : Fin 4 → Nat) a + S1x1x112x112.size a ≤ S1x81x112x112.size a
  inb_S1x81x112x112_S1x1x112x112_0_20_0_0 : ∀ a, (![0, 20, 0, 0] : Fin 4 → Nat) a + S1x1x112x112.size a ≤ S1x81x112x112.size a
  inb_S1x81x112x112_S1x1x112x112_0_21_0_0 : ∀ a, (![0, 21, 0, 0] : Fin 4 → Nat) a + S1x1x112x112.size a ≤ S1x81x112x112.size a
  inb_S1x81x112x112_S1x1x112x112_0_22_0_0 : ∀ a, (![0, 22, 0, 0] : Fin 4 → Nat) a + S1x1x112x112.size a ≤ S1x81x112x112.size a
  inb_S1x81x112x112_S1x1x112x112_0_23_0_0 : ∀ a, (![0, 23, 0, 0] : Fin 4 → Nat) a + S1x1x112x112.size a ≤ S1x81x112x112.size a
  inb_S1x81x112x112_S1x1x112x112_0_24_0_0 : ∀ a, (![0, 24, 0, 0] : Fin 4 → Nat) a + S1x1x112x112.size a ≤ S1x81x112x112.size a
  inb_S1x81x112x112_S1x1x112x112_0_25_0_0 : ∀ a, (![0, 25, 0, 0] : Fin 4 → Nat) a + S1x1x112x112.size a ≤ S1x81x112x112.size a
  inb_S1x81x112x112_S1x1x112x112_0_26_0_0 : ∀ a, (![0, 26, 0, 0] : Fin 4 → Nat) a + S1x1x112x112.size a ≤ S1x81x112x112.size a
  inb_S64x120x120_S64x112x120_0_3_0 : ∀ a, (![0, 3, 0] : Fin 3 → Nat) a + S64x112x120.size a ≤ S64x120x120.size a
  inb_S1x81x112x112_S1x1x112x112_0_27_0_0 : ∀ a, (![0, 27, 0, 0] : Fin 4 → Nat) a + S1x1x112x112.size a ≤ S1x81x112x112.size a
  inb_S1x81x112x112_S1x1x112x112_0_28_0_0 : ∀ a, (![0, 28, 0, 0] : Fin 4 → Nat) a + S1x1x112x112.size a ≤ S1x81x112x112.size a
  inb_S1x81x112x112_S1x1x112x112_0_29_0_0 : ∀ a, (![0, 29, 0, 0] : Fin 4 → Nat) a + S1x1x112x112.size a ≤ S1x81x112x112.size a
  inb_S1x81x112x112_S1x1x112x112_0_30_0_0 : ∀ a, (![0, 30, 0, 0] : Fin 4 → Nat) a + S1x1x112x112.size a ≤ S1x81x112x112.size a
  inb_S1x81x112x112_S1x1x112x112_0_31_0_0 : ∀ a, (![0, 31, 0, 0] : Fin 4 → Nat) a + S1x1x112x112.size a ≤ S1x81x112x112.size a
  inb_S1x81x112x112_S1x1x112x112_0_32_0_0 : ∀ a, (![0, 32, 0, 0] : Fin 4 → Nat) a + S1x1x112x112.size a ≤ S1x81x112x112.size a
  inb_S1x81x112x112_S1x1x112x112_0_33_0_0 : ∀ a, (![0, 33, 0, 0] : Fin 4 → Nat) a + S1x1x112x112.size a ≤ S1x81x112x112.size a
  inb_S1x81x112x112_S1x1x112x112_0_34_0_0 : ∀ a, (![0, 34, 0, 0] : Fin 4 → Nat) a + S1x1x112x112.size a ≤ S1x81x112x112.size a
  inb_S1x81x112x112_S1x1x112x112_0_35_0_0 : ∀ a, (![0, 35, 0, 0] : Fin 4 → Nat) a + S1x1x112x112.size a ≤ S1x81x112x112.size a
  inb_S64x120x120_S64x112x120_0_4_0 : ∀ a, (![0, 4, 0] : Fin 3 → Nat) a + S64x112x120.size a ≤ S64x120x120.size a
  inb_S1x81x112x112_S1x1x112x112_0_36_0_0 : ∀ a, (![0, 36, 0, 0] : Fin 4 → Nat) a + S1x1x112x112.size a ≤ S1x81x112x112.size a
  inb_S1x81x112x112_S1x1x112x112_0_37_0_0 : ∀ a, (![0, 37, 0, 0] : Fin 4 → Nat) a + S1x1x112x112.size a ≤ S1x81x112x112.size a
  inb_S1x81x112x112_S1x1x112x112_0_38_0_0 : ∀ a, (![0, 38, 0, 0] : Fin 4 → Nat) a + S1x1x112x112.size a ≤ S1x81x112x112.size a
  inb_S1x81x112x112_S1x1x112x112_0_39_0_0 : ∀ a, (![0, 39, 0, 0] : Fin 4 → Nat) a + S1x1x112x112.size a ≤ S1x81x112x112.size a
  inb_S1x81x112x112_S1x1x112x112_0_40_0_0 : ∀ a, (![0, 40, 0, 0] : Fin 4 → Nat) a + S1x1x112x112.size a ≤ S1x81x112x112.size a
  inb_S1x81x112x112_S1x1x112x112_0_41_0_0 : ∀ a, (![0, 41, 0, 0] : Fin 4 → Nat) a + S1x1x112x112.size a ≤ S1x81x112x112.size a
  inb_S1x81x112x112_S1x1x112x112_0_42_0_0 : ∀ a, (![0, 42, 0, 0] : Fin 4 → Nat) a + S1x1x112x112.size a ≤ S1x81x112x112.size a
  inb_S1x81x112x112_S1x1x112x112_0_43_0_0 : ∀ a, (![0, 43, 0, 0] : Fin 4 → Nat) a + S1x1x112x112.size a ≤ S1x81x112x112.size a
  inb_S1x81x112x112_S1x1x112x112_0_44_0_0 : ∀ a, (![0, 44, 0, 0] : Fin 4 → Nat) a + S1x1x112x112.size a ≤ S1x81x112x112.size a
  inb_S64x120x120_S64x112x120_0_5_0 : ∀ a, (![0, 5, 0] : Fin 3 → Nat) a + S64x112x120.size a ≤ S64x120x120.size a
  inb_S1x81x112x112_S1x1x112x112_0_45_0_0 : ∀ a, (![0, 45, 0, 0] : Fin 4 → Nat) a + S1x1x112x112.size a ≤ S1x81x112x112.size a
  inb_S1x81x112x112_S1x1x112x112_0_46_0_0 : ∀ a, (![0, 46, 0, 0] : Fin 4 → Nat) a + S1x1x112x112.size a ≤ S1x81x112x112.size a
  inb_S1x81x112x112_S1x1x112x112_0_47_0_0 : ∀ a, (![0, 47, 0, 0] : Fin 4 → Nat) a + S1x1x112x112.size a ≤ S1x81x112x112.size a
  inb_S1x81x112x112_S1x1x112x112_0_48_0_0 : ∀ a, (![0, 48, 0, 0] : Fin 4 → Nat) a + S1x1x112x112.size a ≤ S1x81x112x112.size a
  inb_S1x81x112x112_S1x1x112x112_0_49_0_0 : ∀ a, (![0, 49, 0, 0] : Fin 4 → Nat) a + S1x1x112x112.size a ≤ S1x81x112x112.size a
  inb_S1x81x112x112_S1x1x112x112_0_50_0_0 : ∀ a, (![0, 50, 0, 0] : Fin 4 → Nat) a + S1x1x112x112.size a ≤ S1x81x112x112.size a
  inb_S1x81x112x112_S1x1x112x112_0_51_0_0 : ∀ a, (![0, 51, 0, 0] : Fin 4 → Nat) a + S1x1x112x112.size a ≤ S1x81x112x112.size a
  inb_S1x81x112x112_S1x1x112x112_0_52_0_0 : ∀ a, (![0, 52, 0, 0] : Fin 4 → Nat) a + S1x1x112x112.size a ≤ S1x81x112x112.size a
  inb_S1x81x112x112_S1x1x112x112_0_53_0_0 : ∀ a, (![0, 53, 0, 0] : Fin 4 → Nat) a + S1x1x112x112.size a ≤ S1x81x112x112.size a
  inb_S64x120x120_S64x112x120_0_6_0 : ∀ a, (![0, 6, 0] : Fin 3 → Nat) a + S64x112x120.size a ≤ S64x120x120.size a
  inb_S1x81x112x112_S1x1x112x112_0_54_0_0 : ∀ a, (![0, 54, 0, 0] : Fin 4 → Nat) a + S1x1x112x112.size a ≤ S1x81x112x112.size a
  inb_S1x81x112x112_S1x1x112x112_0_55_0_0 : ∀ a, (![0, 55, 0, 0] : Fin 4 → Nat) a + S1x1x112x112.size a ≤ S1x81x112x112.size a
  inb_S1x81x112x112_S1x1x112x112_0_56_0_0 : ∀ a, (![0, 56, 0, 0] : Fin 4 → Nat) a + S1x1x112x112.size a ≤ S1x81x112x112.size a
  inb_S1x81x112x112_S1x1x112x112_0_57_0_0 : ∀ a, (![0, 57, 0, 0] : Fin 4 → Nat) a + S1x1x112x112.size a ≤ S1x81x112x112.size a
  inb_S1x81x112x112_S1x1x112x112_0_58_0_0 : ∀ a, (![0, 58, 0, 0] : Fin 4 → Nat) a + S1x1x112x112.size a ≤ S1x81x112x112.size a
  inb_S1x81x112x112_S1x1x112x112_0_59_0_0 : ∀ a, (![0, 59, 0, 0] : Fin 4 → Nat) a + S1x1x112x112.size a ≤ S1x81x112x112.size a
  inb_S1x81x112x112_S1x1x112x112_0_60_0_0 : ∀ a, (![0, 60, 0, 0] : Fin 4 → Nat) a + S1x1x112x112.size a ≤ S1x81x112x112.size a
  inb_S1x81x112x112_S1x1x112x112_0_61_0_0 : ∀ a, (![0, 61, 0, 0] : Fin 4 → Nat) a + S1x1x112x112.size a ≤ S1x81x112x112.size a
  inb_S1x81x112x112_S1x1x112x112_0_62_0_0 : ∀ a, (![0, 62, 0, 0] : Fin 4 → Nat) a + S1x1x112x112.size a ≤ S1x81x112x112.size a
  inb_S64x120x120_S64x112x120_0_7_0 : ∀ a, (![0, 7, 0] : Fin 3 → Nat) a + S64x112x120.size a ≤ S64x120x120.size a
  inb_S1x81x112x112_S1x1x112x112_0_63_0_0 : ∀ a, (![0, 63, 0, 0] : Fin 4 → Nat) a + S1x1x112x112.size a ≤ S1x81x112x112.size a
  inb_S1x81x112x112_S1x1x112x112_0_64_0_0 : ∀ a, (![0, 64, 0, 0] : Fin 4 → Nat) a + S1x1x112x112.size a ≤ S1x81x112x112.size a
  inb_S1x81x112x112_S1x1x112x112_0_65_0_0 : ∀ a, (![0, 65, 0, 0] : Fin 4 → Nat) a + S1x1x112x112.size a ≤ S1x81x112x112.size a
  inb_S1x81x112x112_S1x1x112x112_0_66_0_0 : ∀ a, (![0, 66, 0, 0] : Fin 4 → Nat) a + S1x1x112x112.size a ≤ S1x81x112x112.size a
  inb_S1x81x112x112_S1x1x112x112_0_67_0_0 : ∀ a, (![0, 67, 0, 0] : Fin 4 → Nat) a + S1x1x112x112.size a ≤ S1x81x112x112.size a
  inb_S1x81x112x112_S1x1x112x112_0_68_0_0 : ∀ a, (![0, 68, 0, 0] : Fin 4 → Nat) a + S1x1x112x112.size a ≤ S1x81x112x112.size a
  inb_S1x81x112x112_S1x1x112x112_0_69_0_0 : ∀ a, (![0, 69, 0, 0] : Fin 4 → Nat) a + S1x1x112x112.size a ≤ S1x81x112x112.size a
  inb_S1x81x112x112_S1x1x112x112_0_70_0_0 : ∀ a, (![0, 70, 0, 0] : Fin 4 → Nat) a + S1x1x112x112.size a ≤ S1x81x112x112.size a
  inb_S1x81x112x112_S1x1x112x112_0_71_0_0 : ∀ a, (![0, 71, 0, 0] : Fin 4 → Nat) a + S1x1x112x112.size a ≤ S1x81x112x112.size a
  inb_S64x120x120_S64x112x120_0_8_0 : ∀ a, (![0, 8, 0] : Fin 3 → Nat) a + S64x112x120.size a ≤ S64x120x120.size a
  inb_S1x81x112x112_S1x1x112x112_0_72_0_0 : ∀ a, (![0, 72, 0, 0] : Fin 4 → Nat) a + S1x1x112x112.size a ≤ S1x81x112x112.size a
  inb_S1x81x112x112_S1x1x112x112_0_73_0_0 : ∀ a, (![0, 73, 0, 0] : Fin 4 → Nat) a + S1x1x112x112.size a ≤ S1x81x112x112.size a
  inb_S1x81x112x112_S1x1x112x112_0_74_0_0 : ∀ a, (![0, 74, 0, 0] : Fin 4 → Nat) a + S1x1x112x112.size a ≤ S1x81x112x112.size a
  inb_S1x81x112x112_S1x1x112x112_0_75_0_0 : ∀ a, (![0, 75, 0, 0] : Fin 4 → Nat) a + S1x1x112x112.size a ≤ S1x81x112x112.size a
  inb_S1x81x112x112_S1x1x112x112_0_76_0_0 : ∀ a, (![0, 76, 0, 0] : Fin 4 → Nat) a + S1x1x112x112.size a ≤ S1x81x112x112.size a
  inb_S1x81x112x112_S1x1x112x112_0_77_0_0 : ∀ a, (![0, 77, 0, 0] : Fin 4 → Nat) a + S1x1x112x112.size a ≤ S1x81x112x112.size a
  inb_S1x81x112x112_S1x1x112x112_0_78_0_0 : ∀ a, (![0, 78, 0, 0] : Fin 4 → Nat) a + S1x1x112x112.size a ≤ S1x81x112x112.size a
  inb_S1x81x112x112_S1x1x112x112_0_79_0_0 : ∀ a, (![0, 79, 0, 0] : Fin 4 → Nat) a + S1x1x112x112.size a ≤ S1x81x112x112.size a
  inb_S1x81x112x112_S1x1x112x112_0_80_0_0 : ∀ a, (![0, 80, 0, 0] : Fin 4 → Nat) a + S1x1x112x112.size a ≤ S1x81x112x112.size a
  shapeCasts_S8x81x112x112_S8x9x9x112x112 : S8x81x112x112.ShapeCasts S8x9x9x112x112
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  inb_S1x128x56x56_S1x128x56x56_0_0_0_0 : ∀ a, (![0, 0, 0, 0] : Fin 4 → Nat) a + S1x128x56x56.size a ≤ S1x128x56x56.size a
  h_S1x128x56x56 : 0 < S1x128x56x56.numel
  shapeCasts_S1x128x56x56_S128x56x56 : S1x128x56x56.ShapeCasts S128x56x56
  inb_S128x64x64_S128x56x56_0_4_4 : ∀ a, (![0, 4, 4] : Fin 3 → Nat) a + S128x56x56.size a ≤ S128x64x64.size a
  h_S128x56x56 : 0 < S128x56x56.numel
  shapeCasts_S128x56x56_S128x56x56 : S128x56x56.ShapeCasts S128x56x56
  inb_S128x64x64_S128x56x64_0_0_0 : ∀ a, (![0, 0, 0] : Fin 3 → Nat) a + S128x56x64.size a ≤ S128x64x64.size a
  h_S128x56x64 : 0 < S128x56x64.numel
  slices_S128x56x64_o0_0_0_S128x56x56 : S128x56x64.Slices ![0, 0, 0] S128x56x56
  reduces_S128x56x56_S56x56 : S128x56x56.Reduces [0] S56x56
  inb_S1x81x56x56_S1x1x56x56_0_0_0_0 : ∀ a, (![0, 0, 0, 0] : Fin 4 → Nat) a + S1x1x56x56.size a ≤ S1x81x56x56.size a
  h_S1x1x56x56 : 0 < S1x1x56x56.numel
  shapeCasts_S1x1x56x56_S56x56 : S1x1x56x56.ShapeCasts S56x56
  shapeCasts_S56x56_S1x1x56x56 : S56x56.ShapeCasts S1x1x56x56
  slices_S128x56x64_o0_0_1_S128x56x56 : S128x56x64.Slices ![0, 0, 1] S128x56x56
  inb_S1x81x56x56_S1x1x56x56_0_1_0_0 : ∀ a, (![0, 1, 0, 0] : Fin 4 → Nat) a + S1x1x56x56.size a ≤ S1x81x56x56.size a
  slices_S128x56x64_o0_0_2_S128x56x56 : S128x56x64.Slices ![0, 0, 2] S128x56x56
  inb_S1x81x56x56_S1x1x56x56_0_2_0_0 : ∀ a, (![0, 2, 0, 0] : Fin 4 → Nat) a + S1x1x56x56.size a ≤ S1x81x56x56.size a
  slices_S128x56x64_o0_0_3_S128x56x56 : S128x56x64.Slices ![0, 0, 3] S128x56x56
  inb_S1x81x56x56_S1x1x56x56_0_3_0_0 : ∀ a, (![0, 3, 0, 0] : Fin 4 → Nat) a + S1x1x56x56.size a ≤ S1x81x56x56.size a
  slices_S128x56x64_o0_0_4_S128x56x56 : S128x56x64.Slices ![0, 0, 4] S128x56x56
  inb_S1x81x56x56_S1x1x56x56_0_4_0_0 : ∀ a, (![0, 4, 0, 0] : Fin 4 → Nat) a + S1x1x56x56.size a ≤ S1x81x56x56.size a
  slices_S128x56x64_o0_0_5_S128x56x56 : S128x56x64.Slices ![0, 0, 5] S128x56x56
  inb_S1x81x56x56_S1x1x56x56_0_5_0_0 : ∀ a, (![0, 5, 0, 0] : Fin 4 → Nat) a + S1x1x56x56.size a ≤ S1x81x56x56.size a
  slices_S128x56x64_o0_0_6_S128x56x56 : S128x56x64.Slices ![0, 0, 6] S128x56x56
  inb_S1x81x56x56_S1x1x56x56_0_6_0_0 : ∀ a, (![0, 6, 0, 0] : Fin 4 → Nat) a + S1x1x56x56.size a ≤ S1x81x56x56.size a
  slices_S128x56x64_o0_0_7_S128x56x56 : S128x56x64.Slices ![0, 0, 7] S128x56x56
  inb_S1x81x56x56_S1x1x56x56_0_7_0_0 : ∀ a, (![0, 7, 0, 0] : Fin 4 → Nat) a + S1x1x56x56.size a ≤ S1x81x56x56.size a
  slices_S128x56x64_o0_0_8_S128x56x56 : S128x56x64.Slices ![0, 0, 8] S128x56x56
  inb_S1x81x56x56_S1x1x56x56_0_8_0_0 : ∀ a, (![0, 8, 0, 0] : Fin 4 → Nat) a + S1x1x56x56.size a ≤ S1x81x56x56.size a
  inb_S128x64x64_S128x56x64_0_1_0 : ∀ a, (![0, 1, 0] : Fin 3 → Nat) a + S128x56x64.size a ≤ S128x64x64.size a
  inb_S1x81x56x56_S1x1x56x56_0_9_0_0 : ∀ a, (![0, 9, 0, 0] : Fin 4 → Nat) a + S1x1x56x56.size a ≤ S1x81x56x56.size a
  inb_S1x81x56x56_S1x1x56x56_0_10_0_0 : ∀ a, (![0, 10, 0, 0] : Fin 4 → Nat) a + S1x1x56x56.size a ≤ S1x81x56x56.size a
  inb_S1x81x56x56_S1x1x56x56_0_11_0_0 : ∀ a, (![0, 11, 0, 0] : Fin 4 → Nat) a + S1x1x56x56.size a ≤ S1x81x56x56.size a
  inb_S1x81x56x56_S1x1x56x56_0_12_0_0 : ∀ a, (![0, 12, 0, 0] : Fin 4 → Nat) a + S1x1x56x56.size a ≤ S1x81x56x56.size a
  inb_S1x81x56x56_S1x1x56x56_0_13_0_0 : ∀ a, (![0, 13, 0, 0] : Fin 4 → Nat) a + S1x1x56x56.size a ≤ S1x81x56x56.size a
  inb_S1x81x56x56_S1x1x56x56_0_14_0_0 : ∀ a, (![0, 14, 0, 0] : Fin 4 → Nat) a + S1x1x56x56.size a ≤ S1x81x56x56.size a
  inb_S1x81x56x56_S1x1x56x56_0_15_0_0 : ∀ a, (![0, 15, 0, 0] : Fin 4 → Nat) a + S1x1x56x56.size a ≤ S1x81x56x56.size a
  inb_S1x81x56x56_S1x1x56x56_0_16_0_0 : ∀ a, (![0, 16, 0, 0] : Fin 4 → Nat) a + S1x1x56x56.size a ≤ S1x81x56x56.size a
  inb_S1x81x56x56_S1x1x56x56_0_17_0_0 : ∀ a, (![0, 17, 0, 0] : Fin 4 → Nat) a + S1x1x56x56.size a ≤ S1x81x56x56.size a
  inb_S128x64x64_S128x56x64_0_2_0 : ∀ a, (![0, 2, 0] : Fin 3 → Nat) a + S128x56x64.size a ≤ S128x64x64.size a
  inb_S1x81x56x56_S1x1x56x56_0_18_0_0 : ∀ a, (![0, 18, 0, 0] : Fin 4 → Nat) a + S1x1x56x56.size a ≤ S1x81x56x56.size a
  inb_S1x81x56x56_S1x1x56x56_0_19_0_0 : ∀ a, (![0, 19, 0, 0] : Fin 4 → Nat) a + S1x1x56x56.size a ≤ S1x81x56x56.size a
  inb_S1x81x56x56_S1x1x56x56_0_20_0_0 : ∀ a, (![0, 20, 0, 0] : Fin 4 → Nat) a + S1x1x56x56.size a ≤ S1x81x56x56.size a
  inb_S1x81x56x56_S1x1x56x56_0_21_0_0 : ∀ a, (![0, 21, 0, 0] : Fin 4 → Nat) a + S1x1x56x56.size a ≤ S1x81x56x56.size a
  inb_S1x81x56x56_S1x1x56x56_0_22_0_0 : ∀ a, (![0, 22, 0, 0] : Fin 4 → Nat) a + S1x1x56x56.size a ≤ S1x81x56x56.size a
  inb_S1x81x56x56_S1x1x56x56_0_23_0_0 : ∀ a, (![0, 23, 0, 0] : Fin 4 → Nat) a + S1x1x56x56.size a ≤ S1x81x56x56.size a
  inb_S1x81x56x56_S1x1x56x56_0_24_0_0 : ∀ a, (![0, 24, 0, 0] : Fin 4 → Nat) a + S1x1x56x56.size a ≤ S1x81x56x56.size a
  inb_S1x81x56x56_S1x1x56x56_0_25_0_0 : ∀ a, (![0, 25, 0, 0] : Fin 4 → Nat) a + S1x1x56x56.size a ≤ S1x81x56x56.size a
  inb_S1x81x56x56_S1x1x56x56_0_26_0_0 : ∀ a, (![0, 26, 0, 0] : Fin 4 → Nat) a + S1x1x56x56.size a ≤ S1x81x56x56.size a
  inb_S128x64x64_S128x56x64_0_3_0 : ∀ a, (![0, 3, 0] : Fin 3 → Nat) a + S128x56x64.size a ≤ S128x64x64.size a
  inb_S1x81x56x56_S1x1x56x56_0_27_0_0 : ∀ a, (![0, 27, 0, 0] : Fin 4 → Nat) a + S1x1x56x56.size a ≤ S1x81x56x56.size a
  inb_S1x81x56x56_S1x1x56x56_0_28_0_0 : ∀ a, (![0, 28, 0, 0] : Fin 4 → Nat) a + S1x1x56x56.size a ≤ S1x81x56x56.size a
  inb_S1x81x56x56_S1x1x56x56_0_29_0_0 : ∀ a, (![0, 29, 0, 0] : Fin 4 → Nat) a + S1x1x56x56.size a ≤ S1x81x56x56.size a
  inb_S1x81x56x56_S1x1x56x56_0_30_0_0 : ∀ a, (![0, 30, 0, 0] : Fin 4 → Nat) a + S1x1x56x56.size a ≤ S1x81x56x56.size a
  inb_S1x81x56x56_S1x1x56x56_0_31_0_0 : ∀ a, (![0, 31, 0, 0] : Fin 4 → Nat) a + S1x1x56x56.size a ≤ S1x81x56x56.size a
  inb_S1x81x56x56_S1x1x56x56_0_32_0_0 : ∀ a, (![0, 32, 0, 0] : Fin 4 → Nat) a + S1x1x56x56.size a ≤ S1x81x56x56.size a
  inb_S1x81x56x56_S1x1x56x56_0_33_0_0 : ∀ a, (![0, 33, 0, 0] : Fin 4 → Nat) a + S1x1x56x56.size a ≤ S1x81x56x56.size a
  inb_S1x81x56x56_S1x1x56x56_0_34_0_0 : ∀ a, (![0, 34, 0, 0] : Fin 4 → Nat) a + S1x1x56x56.size a ≤ S1x81x56x56.size a
  inb_S1x81x56x56_S1x1x56x56_0_35_0_0 : ∀ a, (![0, 35, 0, 0] : Fin 4 → Nat) a + S1x1x56x56.size a ≤ S1x81x56x56.size a
  inb_S128x64x64_S128x56x64_0_4_0 : ∀ a, (![0, 4, 0] : Fin 3 → Nat) a + S128x56x64.size a ≤ S128x64x64.size a
  inb_S1x81x56x56_S1x1x56x56_0_36_0_0 : ∀ a, (![0, 36, 0, 0] : Fin 4 → Nat) a + S1x1x56x56.size a ≤ S1x81x56x56.size a
  inb_S1x81x56x56_S1x1x56x56_0_37_0_0 : ∀ a, (![0, 37, 0, 0] : Fin 4 → Nat) a + S1x1x56x56.size a ≤ S1x81x56x56.size a
  inb_S1x81x56x56_S1x1x56x56_0_38_0_0 : ∀ a, (![0, 38, 0, 0] : Fin 4 → Nat) a + S1x1x56x56.size a ≤ S1x81x56x56.size a
  inb_S1x81x56x56_S1x1x56x56_0_39_0_0 : ∀ a, (![0, 39, 0, 0] : Fin 4 → Nat) a + S1x1x56x56.size a ≤ S1x81x56x56.size a
  inb_S1x81x56x56_S1x1x56x56_0_40_0_0 : ∀ a, (![0, 40, 0, 0] : Fin 4 → Nat) a + S1x1x56x56.size a ≤ S1x81x56x56.size a
  inb_S1x81x56x56_S1x1x56x56_0_41_0_0 : ∀ a, (![0, 41, 0, 0] : Fin 4 → Nat) a + S1x1x56x56.size a ≤ S1x81x56x56.size a
  inb_S1x81x56x56_S1x1x56x56_0_42_0_0 : ∀ a, (![0, 42, 0, 0] : Fin 4 → Nat) a + S1x1x56x56.size a ≤ S1x81x56x56.size a
  inb_S1x81x56x56_S1x1x56x56_0_43_0_0 : ∀ a, (![0, 43, 0, 0] : Fin 4 → Nat) a + S1x1x56x56.size a ≤ S1x81x56x56.size a
  inb_S1x81x56x56_S1x1x56x56_0_44_0_0 : ∀ a, (![0, 44, 0, 0] : Fin 4 → Nat) a + S1x1x56x56.size a ≤ S1x81x56x56.size a
  inb_S128x64x64_S128x56x64_0_5_0 : ∀ a, (![0, 5, 0] : Fin 3 → Nat) a + S128x56x64.size a ≤ S128x64x64.size a
  inb_S1x81x56x56_S1x1x56x56_0_45_0_0 : ∀ a, (![0, 45, 0, 0] : Fin 4 → Nat) a + S1x1x56x56.size a ≤ S1x81x56x56.size a
  inb_S1x81x56x56_S1x1x56x56_0_46_0_0 : ∀ a, (![0, 46, 0, 0] : Fin 4 → Nat) a + S1x1x56x56.size a ≤ S1x81x56x56.size a
  inb_S1x81x56x56_S1x1x56x56_0_47_0_0 : ∀ a, (![0, 47, 0, 0] : Fin 4 → Nat) a + S1x1x56x56.size a ≤ S1x81x56x56.size a
  inb_S1x81x56x56_S1x1x56x56_0_48_0_0 : ∀ a, (![0, 48, 0, 0] : Fin 4 → Nat) a + S1x1x56x56.size a ≤ S1x81x56x56.size a
  inb_S1x81x56x56_S1x1x56x56_0_49_0_0 : ∀ a, (![0, 49, 0, 0] : Fin 4 → Nat) a + S1x1x56x56.size a ≤ S1x81x56x56.size a
  inb_S1x81x56x56_S1x1x56x56_0_50_0_0 : ∀ a, (![0, 50, 0, 0] : Fin 4 → Nat) a + S1x1x56x56.size a ≤ S1x81x56x56.size a
  inb_S1x81x56x56_S1x1x56x56_0_51_0_0 : ∀ a, (![0, 51, 0, 0] : Fin 4 → Nat) a + S1x1x56x56.size a ≤ S1x81x56x56.size a
  inb_S1x81x56x56_S1x1x56x56_0_52_0_0 : ∀ a, (![0, 52, 0, 0] : Fin 4 → Nat) a + S1x1x56x56.size a ≤ S1x81x56x56.size a
  inb_S1x81x56x56_S1x1x56x56_0_53_0_0 : ∀ a, (![0, 53, 0, 0] : Fin 4 → Nat) a + S1x1x56x56.size a ≤ S1x81x56x56.size a
  inb_S128x64x64_S128x56x64_0_6_0 : ∀ a, (![0, 6, 0] : Fin 3 → Nat) a + S128x56x64.size a ≤ S128x64x64.size a
  inb_S1x81x56x56_S1x1x56x56_0_54_0_0 : ∀ a, (![0, 54, 0, 0] : Fin 4 → Nat) a + S1x1x56x56.size a ≤ S1x81x56x56.size a
  inb_S1x81x56x56_S1x1x56x56_0_55_0_0 : ∀ a, (![0, 55, 0, 0] : Fin 4 → Nat) a + S1x1x56x56.size a ≤ S1x81x56x56.size a
  inb_S1x81x56x56_S1x1x56x56_0_56_0_0 : ∀ a, (![0, 56, 0, 0] : Fin 4 → Nat) a + S1x1x56x56.size a ≤ S1x81x56x56.size a
  inb_S1x81x56x56_S1x1x56x56_0_57_0_0 : ∀ a, (![0, 57, 0, 0] : Fin 4 → Nat) a + S1x1x56x56.size a ≤ S1x81x56x56.size a
  inb_S1x81x56x56_S1x1x56x56_0_58_0_0 : ∀ a, (![0, 58, 0, 0] : Fin 4 → Nat) a + S1x1x56x56.size a ≤ S1x81x56x56.size a
  inb_S1x81x56x56_S1x1x56x56_0_59_0_0 : ∀ a, (![0, 59, 0, 0] : Fin 4 → Nat) a + S1x1x56x56.size a ≤ S1x81x56x56.size a
  inb_S1x81x56x56_S1x1x56x56_0_60_0_0 : ∀ a, (![0, 60, 0, 0] : Fin 4 → Nat) a + S1x1x56x56.size a ≤ S1x81x56x56.size a
  inb_S1x81x56x56_S1x1x56x56_0_61_0_0 : ∀ a, (![0, 61, 0, 0] : Fin 4 → Nat) a + S1x1x56x56.size a ≤ S1x81x56x56.size a
  inb_S1x81x56x56_S1x1x56x56_0_62_0_0 : ∀ a, (![0, 62, 0, 0] : Fin 4 → Nat) a + S1x1x56x56.size a ≤ S1x81x56x56.size a
  inb_S128x64x64_S128x56x64_0_7_0 : ∀ a, (![0, 7, 0] : Fin 3 → Nat) a + S128x56x64.size a ≤ S128x64x64.size a
  inb_S1x81x56x56_S1x1x56x56_0_63_0_0 : ∀ a, (![0, 63, 0, 0] : Fin 4 → Nat) a + S1x1x56x56.size a ≤ S1x81x56x56.size a
  inb_S1x81x56x56_S1x1x56x56_0_64_0_0 : ∀ a, (![0, 64, 0, 0] : Fin 4 → Nat) a + S1x1x56x56.size a ≤ S1x81x56x56.size a
  inb_S1x81x56x56_S1x1x56x56_0_65_0_0 : ∀ a, (![0, 65, 0, 0] : Fin 4 → Nat) a + S1x1x56x56.size a ≤ S1x81x56x56.size a
  inb_S1x81x56x56_S1x1x56x56_0_66_0_0 : ∀ a, (![0, 66, 0, 0] : Fin 4 → Nat) a + S1x1x56x56.size a ≤ S1x81x56x56.size a
  inb_S1x81x56x56_S1x1x56x56_0_67_0_0 : ∀ a, (![0, 67, 0, 0] : Fin 4 → Nat) a + S1x1x56x56.size a ≤ S1x81x56x56.size a
  inb_S1x81x56x56_S1x1x56x56_0_68_0_0 : ∀ a, (![0, 68, 0, 0] : Fin 4 → Nat) a + S1x1x56x56.size a ≤ S1x81x56x56.size a
  inb_S1x81x56x56_S1x1x56x56_0_69_0_0 : ∀ a, (![0, 69, 0, 0] : Fin 4 → Nat) a + S1x1x56x56.size a ≤ S1x81x56x56.size a
  inb_S1x81x56x56_S1x1x56x56_0_70_0_0 : ∀ a, (![0, 70, 0, 0] : Fin 4 → Nat) a + S1x1x56x56.size a ≤ S1x81x56x56.size a
  inb_S1x81x56x56_S1x1x56x56_0_71_0_0 : ∀ a, (![0, 71, 0, 0] : Fin 4 → Nat) a + S1x1x56x56.size a ≤ S1x81x56x56.size a
  inb_S128x64x64_S128x56x64_0_8_0 : ∀ a, (![0, 8, 0] : Fin 3 → Nat) a + S128x56x64.size a ≤ S128x64x64.size a
  inb_S1x81x56x56_S1x1x56x56_0_72_0_0 : ∀ a, (![0, 72, 0, 0] : Fin 4 → Nat) a + S1x1x56x56.size a ≤ S1x81x56x56.size a
  inb_S1x81x56x56_S1x1x56x56_0_73_0_0 : ∀ a, (![0, 73, 0, 0] : Fin 4 → Nat) a + S1x1x56x56.size a ≤ S1x81x56x56.size a
  inb_S1x81x56x56_S1x1x56x56_0_74_0_0 : ∀ a, (![0, 74, 0, 0] : Fin 4 → Nat) a + S1x1x56x56.size a ≤ S1x81x56x56.size a
  inb_S1x81x56x56_S1x1x56x56_0_75_0_0 : ∀ a, (![0, 75, 0, 0] : Fin 4 → Nat) a + S1x1x56x56.size a ≤ S1x81x56x56.size a
  inb_S1x81x56x56_S1x1x56x56_0_76_0_0 : ∀ a, (![0, 76, 0, 0] : Fin 4 → Nat) a + S1x1x56x56.size a ≤ S1x81x56x56.size a
  inb_S1x81x56x56_S1x1x56x56_0_77_0_0 : ∀ a, (![0, 77, 0, 0] : Fin 4 → Nat) a + S1x1x56x56.size a ≤ S1x81x56x56.size a
  inb_S1x81x56x56_S1x1x56x56_0_78_0_0 : ∀ a, (![0, 78, 0, 0] : Fin 4 → Nat) a + S1x1x56x56.size a ≤ S1x81x56x56.size a
  inb_S1x81x56x56_S1x1x56x56_0_79_0_0 : ∀ a, (![0, 79, 0, 0] : Fin 4 → Nat) a + S1x1x56x56.size a ≤ S1x81x56x56.size a
  inb_S1x81x56x56_S1x1x56x56_0_80_0_0 : ∀ a, (![0, 80, 0, 0] : Fin 4 → Nat) a + S1x1x56x56.size a ≤ S1x81x56x56.size a
  shapeCasts_S8x81x56x56_S8x9x9x56x56 : S8x81x56x56.ShapeCasts S8x9x9x56x56
  inb_S256x36x36_S256x36x36_0_0_0 : ∀ a, (![0, 0, 0] : Fin 3 → Nat) a + S256x36x36.size a ≤ S256x36x36.size a
  h_S256x36x36 : 0 < S256x36x36.numel
  shapeCasts_S256x36x36_S256x36x36 : S256x36x36.ShapeCasts S256x36x36
  inb_S1x256x28x28_S1x256x28x28_0_0_0_0 : ∀ a, (![0, 0, 0, 0] : Fin 4 → Nat) a + S1x256x28x28.size a ≤ S1x256x28x28.size a
  h_S1x256x28x28 : 0 < S1x256x28x28.numel
  shapeCasts_S1x256x28x28_S256x28x28 : S1x256x28x28.ShapeCasts S256x28x28
  inb_S256x36x36_S256x28x28_0_4_4 : ∀ a, (![0, 4, 4] : Fin 3 → Nat) a + S256x28x28.size a ≤ S256x36x36.size a
  h_S256x28x28 : 0 < S256x28x28.numel
  shapeCasts_S256x28x28_S256x28x28 : S256x28x28.ShapeCasts S256x28x28
  inb_S256x36x36_S256x28x36_0_0_0 : ∀ a, (![0, 0, 0] : Fin 3 → Nat) a + S256x28x36.size a ≤ S256x36x36.size a
  h_S256x28x36 : 0 < S256x28x36.numel
  slices_S256x28x36_o0_0_0_S256x28x28 : S256x28x36.Slices ![0, 0, 0] S256x28x28
  reduces_S256x28x28_S28x28 : S256x28x28.Reduces [0] S28x28
  inb_S1x81x28x28_S1x1x28x28_0_0_0_0 : ∀ a, (![0, 0, 0, 0] : Fin 4 → Nat) a + S1x1x28x28.size a ≤ S1x81x28x28.size a
  h_S1x1x28x28 : 0 < S1x1x28x28.numel
  shapeCasts_S1x1x28x28_S28x28 : S1x1x28x28.ShapeCasts S28x28
  shapeCasts_S28x28_S1x1x28x28 : S28x28.ShapeCasts S1x1x28x28
  slices_S256x28x36_o0_0_1_S256x28x28 : S256x28x36.Slices ![0, 0, 1] S256x28x28
  inb_S1x81x28x28_S1x1x28x28_0_1_0_0 : ∀ a, (![0, 1, 0, 0] : Fin 4 → Nat) a + S1x1x28x28.size a ≤ S1x81x28x28.size a
  slices_S256x28x36_o0_0_2_S256x28x28 : S256x28x36.Slices ![0, 0, 2] S256x28x28
  inb_S1x81x28x28_S1x1x28x28_0_2_0_0 : ∀ a, (![0, 2, 0, 0] : Fin 4 → Nat) a + S1x1x28x28.size a ≤ S1x81x28x28.size a
  slices_S256x28x36_o0_0_3_S256x28x28 : S256x28x36.Slices ![0, 0, 3] S256x28x28
  inb_S1x81x28x28_S1x1x28x28_0_3_0_0 : ∀ a, (![0, 3, 0, 0] : Fin 4 → Nat) a + S1x1x28x28.size a ≤ S1x81x28x28.size a
  slices_S256x28x36_o0_0_4_S256x28x28 : S256x28x36.Slices ![0, 0, 4] S256x28x28
  inb_S1x81x28x28_S1x1x28x28_0_4_0_0 : ∀ a, (![0, 4, 0, 0] : Fin 4 → Nat) a + S1x1x28x28.size a ≤ S1x81x28x28.size a
  slices_S256x28x36_o0_0_5_S256x28x28 : S256x28x36.Slices ![0, 0, 5] S256x28x28
  inb_S1x81x28x28_S1x1x28x28_0_5_0_0 : ∀ a, (![0, 5, 0, 0] : Fin 4 → Nat) a + S1x1x28x28.size a ≤ S1x81x28x28.size a
  slices_S256x28x36_o0_0_6_S256x28x28 : S256x28x36.Slices ![0, 0, 6] S256x28x28
  inb_S1x81x28x28_S1x1x28x28_0_6_0_0 : ∀ a, (![0, 6, 0, 0] : Fin 4 → Nat) a + S1x1x28x28.size a ≤ S1x81x28x28.size a
  slices_S256x28x36_o0_0_7_S256x28x28 : S256x28x36.Slices ![0, 0, 7] S256x28x28
  inb_S1x81x28x28_S1x1x28x28_0_7_0_0 : ∀ a, (![0, 7, 0, 0] : Fin 4 → Nat) a + S1x1x28x28.size a ≤ S1x81x28x28.size a
  slices_S256x28x36_o0_0_8_S256x28x28 : S256x28x36.Slices ![0, 0, 8] S256x28x28
  inb_S1x81x28x28_S1x1x28x28_0_8_0_0 : ∀ a, (![0, 8, 0, 0] : Fin 4 → Nat) a + S1x1x28x28.size a ≤ S1x81x28x28.size a
  inb_S256x36x36_S256x28x36_0_1_0 : ∀ a, (![0, 1, 0] : Fin 3 → Nat) a + S256x28x36.size a ≤ S256x36x36.size a
  inb_S1x81x28x28_S1x1x28x28_0_9_0_0 : ∀ a, (![0, 9, 0, 0] : Fin 4 → Nat) a + S1x1x28x28.size a ≤ S1x81x28x28.size a
  inb_S1x81x28x28_S1x1x28x28_0_10_0_0 : ∀ a, (![0, 10, 0, 0] : Fin 4 → Nat) a + S1x1x28x28.size a ≤ S1x81x28x28.size a
  inb_S1x81x28x28_S1x1x28x28_0_11_0_0 : ∀ a, (![0, 11, 0, 0] : Fin 4 → Nat) a + S1x1x28x28.size a ≤ S1x81x28x28.size a
  inb_S1x81x28x28_S1x1x28x28_0_12_0_0 : ∀ a, (![0, 12, 0, 0] : Fin 4 → Nat) a + S1x1x28x28.size a ≤ S1x81x28x28.size a
  inb_S1x81x28x28_S1x1x28x28_0_13_0_0 : ∀ a, (![0, 13, 0, 0] : Fin 4 → Nat) a + S1x1x28x28.size a ≤ S1x81x28x28.size a
  inb_S1x81x28x28_S1x1x28x28_0_14_0_0 : ∀ a, (![0, 14, 0, 0] : Fin 4 → Nat) a + S1x1x28x28.size a ≤ S1x81x28x28.size a
  inb_S1x81x28x28_S1x1x28x28_0_15_0_0 : ∀ a, (![0, 15, 0, 0] : Fin 4 → Nat) a + S1x1x28x28.size a ≤ S1x81x28x28.size a
  inb_S1x81x28x28_S1x1x28x28_0_16_0_0 : ∀ a, (![0, 16, 0, 0] : Fin 4 → Nat) a + S1x1x28x28.size a ≤ S1x81x28x28.size a
  inb_S1x81x28x28_S1x1x28x28_0_17_0_0 : ∀ a, (![0, 17, 0, 0] : Fin 4 → Nat) a + S1x1x28x28.size a ≤ S1x81x28x28.size a
  inb_S256x36x36_S256x28x36_0_2_0 : ∀ a, (![0, 2, 0] : Fin 3 → Nat) a + S256x28x36.size a ≤ S256x36x36.size a
  inb_S1x81x28x28_S1x1x28x28_0_18_0_0 : ∀ a, (![0, 18, 0, 0] : Fin 4 → Nat) a + S1x1x28x28.size a ≤ S1x81x28x28.size a
  inb_S1x81x28x28_S1x1x28x28_0_19_0_0 : ∀ a, (![0, 19, 0, 0] : Fin 4 → Nat) a + S1x1x28x28.size a ≤ S1x81x28x28.size a
  inb_S1x81x28x28_S1x1x28x28_0_20_0_0 : ∀ a, (![0, 20, 0, 0] : Fin 4 → Nat) a + S1x1x28x28.size a ≤ S1x81x28x28.size a
  inb_S1x81x28x28_S1x1x28x28_0_21_0_0 : ∀ a, (![0, 21, 0, 0] : Fin 4 → Nat) a + S1x1x28x28.size a ≤ S1x81x28x28.size a
  inb_S1x81x28x28_S1x1x28x28_0_22_0_0 : ∀ a, (![0, 22, 0, 0] : Fin 4 → Nat) a + S1x1x28x28.size a ≤ S1x81x28x28.size a
  inb_S1x81x28x28_S1x1x28x28_0_23_0_0 : ∀ a, (![0, 23, 0, 0] : Fin 4 → Nat) a + S1x1x28x28.size a ≤ S1x81x28x28.size a
  inb_S1x81x28x28_S1x1x28x28_0_24_0_0 : ∀ a, (![0, 24, 0, 0] : Fin 4 → Nat) a + S1x1x28x28.size a ≤ S1x81x28x28.size a
  inb_S1x81x28x28_S1x1x28x28_0_25_0_0 : ∀ a, (![0, 25, 0, 0] : Fin 4 → Nat) a + S1x1x28x28.size a ≤ S1x81x28x28.size a
  inb_S1x81x28x28_S1x1x28x28_0_26_0_0 : ∀ a, (![0, 26, 0, 0] : Fin 4 → Nat) a + S1x1x28x28.size a ≤ S1x81x28x28.size a
  inb_S256x36x36_S256x28x36_0_3_0 : ∀ a, (![0, 3, 0] : Fin 3 → Nat) a + S256x28x36.size a ≤ S256x36x36.size a
  inb_S1x81x28x28_S1x1x28x28_0_27_0_0 : ∀ a, (![0, 27, 0, 0] : Fin 4 → Nat) a + S1x1x28x28.size a ≤ S1x81x28x28.size a
  inb_S1x81x28x28_S1x1x28x28_0_28_0_0 : ∀ a, (![0, 28, 0, 0] : Fin 4 → Nat) a + S1x1x28x28.size a ≤ S1x81x28x28.size a
  inb_S1x81x28x28_S1x1x28x28_0_29_0_0 : ∀ a, (![0, 29, 0, 0] : Fin 4 → Nat) a + S1x1x28x28.size a ≤ S1x81x28x28.size a
  inb_S1x81x28x28_S1x1x28x28_0_30_0_0 : ∀ a, (![0, 30, 0, 0] : Fin 4 → Nat) a + S1x1x28x28.size a ≤ S1x81x28x28.size a
  inb_S1x81x28x28_S1x1x28x28_0_31_0_0 : ∀ a, (![0, 31, 0, 0] : Fin 4 → Nat) a + S1x1x28x28.size a ≤ S1x81x28x28.size a
  inb_S1x81x28x28_S1x1x28x28_0_32_0_0 : ∀ a, (![0, 32, 0, 0] : Fin 4 → Nat) a + S1x1x28x28.size a ≤ S1x81x28x28.size a
  inb_S1x81x28x28_S1x1x28x28_0_33_0_0 : ∀ a, (![0, 33, 0, 0] : Fin 4 → Nat) a + S1x1x28x28.size a ≤ S1x81x28x28.size a
  inb_S1x81x28x28_S1x1x28x28_0_34_0_0 : ∀ a, (![0, 34, 0, 0] : Fin 4 → Nat) a + S1x1x28x28.size a ≤ S1x81x28x28.size a
  inb_S1x81x28x28_S1x1x28x28_0_35_0_0 : ∀ a, (![0, 35, 0, 0] : Fin 4 → Nat) a + S1x1x28x28.size a ≤ S1x81x28x28.size a
  inb_S256x36x36_S256x28x36_0_4_0 : ∀ a, (![0, 4, 0] : Fin 3 → Nat) a + S256x28x36.size a ≤ S256x36x36.size a
  inb_S1x81x28x28_S1x1x28x28_0_36_0_0 : ∀ a, (![0, 36, 0, 0] : Fin 4 → Nat) a + S1x1x28x28.size a ≤ S1x81x28x28.size a
  inb_S1x81x28x28_S1x1x28x28_0_37_0_0 : ∀ a, (![0, 37, 0, 0] : Fin 4 → Nat) a + S1x1x28x28.size a ≤ S1x81x28x28.size a
  inb_S1x81x28x28_S1x1x28x28_0_38_0_0 : ∀ a, (![0, 38, 0, 0] : Fin 4 → Nat) a + S1x1x28x28.size a ≤ S1x81x28x28.size a
  inb_S1x81x28x28_S1x1x28x28_0_39_0_0 : ∀ a, (![0, 39, 0, 0] : Fin 4 → Nat) a + S1x1x28x28.size a ≤ S1x81x28x28.size a
  inb_S1x81x28x28_S1x1x28x28_0_40_0_0 : ∀ a, (![0, 40, 0, 0] : Fin 4 → Nat) a + S1x1x28x28.size a ≤ S1x81x28x28.size a
  inb_S1x81x28x28_S1x1x28x28_0_41_0_0 : ∀ a, (![0, 41, 0, 0] : Fin 4 → Nat) a + S1x1x28x28.size a ≤ S1x81x28x28.size a
  inb_S1x81x28x28_S1x1x28x28_0_42_0_0 : ∀ a, (![0, 42, 0, 0] : Fin 4 → Nat) a + S1x1x28x28.size a ≤ S1x81x28x28.size a
  inb_S1x81x28x28_S1x1x28x28_0_43_0_0 : ∀ a, (![0, 43, 0, 0] : Fin 4 → Nat) a + S1x1x28x28.size a ≤ S1x81x28x28.size a
  inb_S1x81x28x28_S1x1x28x28_0_44_0_0 : ∀ a, (![0, 44, 0, 0] : Fin 4 → Nat) a + S1x1x28x28.size a ≤ S1x81x28x28.size a
  inb_S256x36x36_S256x28x36_0_5_0 : ∀ a, (![0, 5, 0] : Fin 3 → Nat) a + S256x28x36.size a ≤ S256x36x36.size a
  inb_S1x81x28x28_S1x1x28x28_0_45_0_0 : ∀ a, (![0, 45, 0, 0] : Fin 4 → Nat) a + S1x1x28x28.size a ≤ S1x81x28x28.size a
  inb_S1x81x28x28_S1x1x28x28_0_46_0_0 : ∀ a, (![0, 46, 0, 0] : Fin 4 → Nat) a + S1x1x28x28.size a ≤ S1x81x28x28.size a
  inb_S1x81x28x28_S1x1x28x28_0_47_0_0 : ∀ a, (![0, 47, 0, 0] : Fin 4 → Nat) a + S1x1x28x28.size a ≤ S1x81x28x28.size a
  inb_S1x81x28x28_S1x1x28x28_0_48_0_0 : ∀ a, (![0, 48, 0, 0] : Fin 4 → Nat) a + S1x1x28x28.size a ≤ S1x81x28x28.size a
  inb_S1x81x28x28_S1x1x28x28_0_49_0_0 : ∀ a, (![0, 49, 0, 0] : Fin 4 → Nat) a + S1x1x28x28.size a ≤ S1x81x28x28.size a
  inb_S1x81x28x28_S1x1x28x28_0_50_0_0 : ∀ a, (![0, 50, 0, 0] : Fin 4 → Nat) a + S1x1x28x28.size a ≤ S1x81x28x28.size a
  inb_S1x81x28x28_S1x1x28x28_0_51_0_0 : ∀ a, (![0, 51, 0, 0] : Fin 4 → Nat) a + S1x1x28x28.size a ≤ S1x81x28x28.size a
  inb_S1x81x28x28_S1x1x28x28_0_52_0_0 : ∀ a, (![0, 52, 0, 0] : Fin 4 → Nat) a + S1x1x28x28.size a ≤ S1x81x28x28.size a
  inb_S1x81x28x28_S1x1x28x28_0_53_0_0 : ∀ a, (![0, 53, 0, 0] : Fin 4 → Nat) a + S1x1x28x28.size a ≤ S1x81x28x28.size a
  inb_S256x36x36_S256x28x36_0_6_0 : ∀ a, (![0, 6, 0] : Fin 3 → Nat) a + S256x28x36.size a ≤ S256x36x36.size a
  inb_S1x81x28x28_S1x1x28x28_0_54_0_0 : ∀ a, (![0, 54, 0, 0] : Fin 4 → Nat) a + S1x1x28x28.size a ≤ S1x81x28x28.size a
  inb_S1x81x28x28_S1x1x28x28_0_55_0_0 : ∀ a, (![0, 55, 0, 0] : Fin 4 → Nat) a + S1x1x28x28.size a ≤ S1x81x28x28.size a
  inb_S1x81x28x28_S1x1x28x28_0_56_0_0 : ∀ a, (![0, 56, 0, 0] : Fin 4 → Nat) a + S1x1x28x28.size a ≤ S1x81x28x28.size a
  inb_S1x81x28x28_S1x1x28x28_0_57_0_0 : ∀ a, (![0, 57, 0, 0] : Fin 4 → Nat) a + S1x1x28x28.size a ≤ S1x81x28x28.size a
  inb_S1x81x28x28_S1x1x28x28_0_58_0_0 : ∀ a, (![0, 58, 0, 0] : Fin 4 → Nat) a + S1x1x28x28.size a ≤ S1x81x28x28.size a
  inb_S1x81x28x28_S1x1x28x28_0_59_0_0 : ∀ a, (![0, 59, 0, 0] : Fin 4 → Nat) a + S1x1x28x28.size a ≤ S1x81x28x28.size a
  inb_S1x81x28x28_S1x1x28x28_0_60_0_0 : ∀ a, (![0, 60, 0, 0] : Fin 4 → Nat) a + S1x1x28x28.size a ≤ S1x81x28x28.size a
  inb_S1x81x28x28_S1x1x28x28_0_61_0_0 : ∀ a, (![0, 61, 0, 0] : Fin 4 → Nat) a + S1x1x28x28.size a ≤ S1x81x28x28.size a
  inb_S1x81x28x28_S1x1x28x28_0_62_0_0 : ∀ a, (![0, 62, 0, 0] : Fin 4 → Nat) a + S1x1x28x28.size a ≤ S1x81x28x28.size a
  inb_S256x36x36_S256x28x36_0_7_0 : ∀ a, (![0, 7, 0] : Fin 3 → Nat) a + S256x28x36.size a ≤ S256x36x36.size a
  inb_S1x81x28x28_S1x1x28x28_0_63_0_0 : ∀ a, (![0, 63, 0, 0] : Fin 4 → Nat) a + S1x1x28x28.size a ≤ S1x81x28x28.size a
  inb_S1x81x28x28_S1x1x28x28_0_64_0_0 : ∀ a, (![0, 64, 0, 0] : Fin 4 → Nat) a + S1x1x28x28.size a ≤ S1x81x28x28.size a
  inb_S1x81x28x28_S1x1x28x28_0_65_0_0 : ∀ a, (![0, 65, 0, 0] : Fin 4 → Nat) a + S1x1x28x28.size a ≤ S1x81x28x28.size a
  inb_S1x81x28x28_S1x1x28x28_0_66_0_0 : ∀ a, (![0, 66, 0, 0] : Fin 4 → Nat) a + S1x1x28x28.size a ≤ S1x81x28x28.size a
  inb_S1x81x28x28_S1x1x28x28_0_67_0_0 : ∀ a, (![0, 67, 0, 0] : Fin 4 → Nat) a + S1x1x28x28.size a ≤ S1x81x28x28.size a
  inb_S1x81x28x28_S1x1x28x28_0_68_0_0 : ∀ a, (![0, 68, 0, 0] : Fin 4 → Nat) a + S1x1x28x28.size a ≤ S1x81x28x28.size a
  inb_S1x81x28x28_S1x1x28x28_0_69_0_0 : ∀ a, (![0, 69, 0, 0] : Fin 4 → Nat) a + S1x1x28x28.size a ≤ S1x81x28x28.size a
  inb_S1x81x28x28_S1x1x28x28_0_70_0_0 : ∀ a, (![0, 70, 0, 0] : Fin 4 → Nat) a + S1x1x28x28.size a ≤ S1x81x28x28.size a
  inb_S1x81x28x28_S1x1x28x28_0_71_0_0 : ∀ a, (![0, 71, 0, 0] : Fin 4 → Nat) a + S1x1x28x28.size a ≤ S1x81x28x28.size a
  inb_S256x36x36_S256x28x36_0_8_0 : ∀ a, (![0, 8, 0] : Fin 3 → Nat) a + S256x28x36.size a ≤ S256x36x36.size a
  inb_S1x81x28x28_S1x1x28x28_0_72_0_0 : ∀ a, (![0, 72, 0, 0] : Fin 4 → Nat) a + S1x1x28x28.size a ≤ S1x81x28x28.size a
  inb_S1x81x28x28_S1x1x28x28_0_73_0_0 : ∀ a, (![0, 73, 0, 0] : Fin 4 → Nat) a + S1x1x28x28.size a ≤ S1x81x28x28.size a
  inb_S1x81x28x28_S1x1x28x28_0_74_0_0 : ∀ a, (![0, 74, 0, 0] : Fin 4 → Nat) a + S1x1x28x28.size a ≤ S1x81x28x28.size a
  inb_S1x81x28x28_S1x1x28x28_0_75_0_0 : ∀ a, (![0, 75, 0, 0] : Fin 4 → Nat) a + S1x1x28x28.size a ≤ S1x81x28x28.size a
  inb_S1x81x28x28_S1x1x28x28_0_76_0_0 : ∀ a, (![0, 76, 0, 0] : Fin 4 → Nat) a + S1x1x28x28.size a ≤ S1x81x28x28.size a
  inb_S1x81x28x28_S1x1x28x28_0_77_0_0 : ∀ a, (![0, 77, 0, 0] : Fin 4 → Nat) a + S1x1x28x28.size a ≤ S1x81x28x28.size a
  inb_S1x81x28x28_S1x1x28x28_0_78_0_0 : ∀ a, (![0, 78, 0, 0] : Fin 4 → Nat) a + S1x1x28x28.size a ≤ S1x81x28x28.size a
  inb_S1x81x28x28_S1x1x28x28_0_79_0_0 : ∀ a, (![0, 79, 0, 0] : Fin 4 → Nat) a + S1x1x28x28.size a ≤ S1x81x28x28.size a
  inb_S1x81x28x28_S1x1x28x28_0_80_0_0 : ∀ a, (![0, 80, 0, 0] : Fin 4 → Nat) a + S1x1x28x28.size a ≤ S1x81x28x28.size a
  shapeCasts_S8x81x28x28_S8x9x9x28x28 : S8x81x28x28.ShapeCasts S8x9x9x28x28
  inb_S512x22x22_S512x22x22_0_0_0 : ∀ a, (![0, 0, 0] : Fin 3 → Nat) a + S512x22x22.size a ≤ S512x22x22.size a
  h_S512x22x22 : 0 < S512x22x22.numel
  shapeCasts_S512x22x22_S512x22x22 : S512x22x22.ShapeCasts S512x22x22
  inb_S1x512x14x14_S1x512x14x14_0_0_0_0 : ∀ a, (![0, 0, 0, 0] : Fin 4 → Nat) a + S1x512x14x14.size a ≤ S1x512x14x14.size a
  h_S1x512x14x14 : 0 < S1x512x14x14.numel
  shapeCasts_S1x512x14x14_S512x14x14 : S1x512x14x14.ShapeCasts S512x14x14
  inb_S512x22x22_S512x14x14_0_4_4 : ∀ a, (![0, 4, 4] : Fin 3 → Nat) a + S512x14x14.size a ≤ S512x22x22.size a
  h_S512x14x14 : 0 < S512x14x14.numel
  shapeCasts_S512x14x14_S512x14x14 : S512x14x14.ShapeCasts S512x14x14
  inb_S512x22x22_S512x14x22_0_0_0 : ∀ a, (![0, 0, 0] : Fin 3 → Nat) a + S512x14x22.size a ≤ S512x22x22.size a
  h_S512x14x22 : 0 < S512x14x22.numel
  slices_S512x14x22_o0_0_0_S512x14x14 : S512x14x22.Slices ![0, 0, 0] S512x14x14
  reduces_S512x14x14_S14x14 : S512x14x14.Reduces [0] S14x14
  inb_S1x81x14x14_S1x1x14x14_0_0_0_0 : ∀ a, (![0, 0, 0, 0] : Fin 4 → Nat) a + S1x1x14x14.size a ≤ S1x81x14x14.size a
  h_S1x1x14x14 : 0 < S1x1x14x14.numel
  shapeCasts_S1x1x14x14_S14x14 : S1x1x14x14.ShapeCasts S14x14
  shapeCasts_S14x14_S1x1x14x14 : S14x14.ShapeCasts S1x1x14x14
  slices_S512x14x22_o0_0_1_S512x14x14 : S512x14x22.Slices ![0, 0, 1] S512x14x14
  inb_S1x81x14x14_S1x1x14x14_0_1_0_0 : ∀ a, (![0, 1, 0, 0] : Fin 4 → Nat) a + S1x1x14x14.size a ≤ S1x81x14x14.size a
  slices_S512x14x22_o0_0_2_S512x14x14 : S512x14x22.Slices ![0, 0, 2] S512x14x14
  inb_S1x81x14x14_S1x1x14x14_0_2_0_0 : ∀ a, (![0, 2, 0, 0] : Fin 4 → Nat) a + S1x1x14x14.size a ≤ S1x81x14x14.size a
  slices_S512x14x22_o0_0_3_S512x14x14 : S512x14x22.Slices ![0, 0, 3] S512x14x14
  inb_S1x81x14x14_S1x1x14x14_0_3_0_0 : ∀ a, (![0, 3, 0, 0] : Fin 4 → Nat) a + S1x1x14x14.size a ≤ S1x81x14x14.size a
  slices_S512x14x22_o0_0_4_S512x14x14 : S512x14x22.Slices ![0, 0, 4] S512x14x14
  inb_S1x81x14x14_S1x1x14x14_0_4_0_0 : ∀ a, (![0, 4, 0, 0] : Fin 4 → Nat) a + S1x1x14x14.size a ≤ S1x81x14x14.size a
  slices_S512x14x22_o0_0_5_S512x14x14 : S512x14x22.Slices ![0, 0, 5] S512x14x14
  inb_S1x81x14x14_S1x1x14x14_0_5_0_0 : ∀ a, (![0, 5, 0, 0] : Fin 4 → Nat) a + S1x1x14x14.size a ≤ S1x81x14x14.size a
  slices_S512x14x22_o0_0_6_S512x14x14 : S512x14x22.Slices ![0, 0, 6] S512x14x14
  inb_S1x81x14x14_S1x1x14x14_0_6_0_0 : ∀ a, (![0, 6, 0, 0] : Fin 4 → Nat) a + S1x1x14x14.size a ≤ S1x81x14x14.size a
  slices_S512x14x22_o0_0_7_S512x14x14 : S512x14x22.Slices ![0, 0, 7] S512x14x14
  inb_S1x81x14x14_S1x1x14x14_0_7_0_0 : ∀ a, (![0, 7, 0, 0] : Fin 4 → Nat) a + S1x1x14x14.size a ≤ S1x81x14x14.size a
  slices_S512x14x22_o0_0_8_S512x14x14 : S512x14x22.Slices ![0, 0, 8] S512x14x14
  inb_S1x81x14x14_S1x1x14x14_0_8_0_0 : ∀ a, (![0, 8, 0, 0] : Fin 4 → Nat) a + S1x1x14x14.size a ≤ S1x81x14x14.size a
  inb_S512x22x22_S512x14x22_0_1_0 : ∀ a, (![0, 1, 0] : Fin 3 → Nat) a + S512x14x22.size a ≤ S512x22x22.size a
  inb_S1x81x14x14_S1x1x14x14_0_9_0_0 : ∀ a, (![0, 9, 0, 0] : Fin 4 → Nat) a + S1x1x14x14.size a ≤ S1x81x14x14.size a
  inb_S1x81x14x14_S1x1x14x14_0_10_0_0 : ∀ a, (![0, 10, 0, 0] : Fin 4 → Nat) a + S1x1x14x14.size a ≤ S1x81x14x14.size a
  inb_S1x81x14x14_S1x1x14x14_0_11_0_0 : ∀ a, (![0, 11, 0, 0] : Fin 4 → Nat) a + S1x1x14x14.size a ≤ S1x81x14x14.size a
  inb_S1x81x14x14_S1x1x14x14_0_12_0_0 : ∀ a, (![0, 12, 0, 0] : Fin 4 → Nat) a + S1x1x14x14.size a ≤ S1x81x14x14.size a
  inb_S1x81x14x14_S1x1x14x14_0_13_0_0 : ∀ a, (![0, 13, 0, 0] : Fin 4 → Nat) a + S1x1x14x14.size a ≤ S1x81x14x14.size a
  inb_S1x81x14x14_S1x1x14x14_0_14_0_0 : ∀ a, (![0, 14, 0, 0] : Fin 4 → Nat) a + S1x1x14x14.size a ≤ S1x81x14x14.size a
  inb_S1x81x14x14_S1x1x14x14_0_15_0_0 : ∀ a, (![0, 15, 0, 0] : Fin 4 → Nat) a + S1x1x14x14.size a ≤ S1x81x14x14.size a
  inb_S1x81x14x14_S1x1x14x14_0_16_0_0 : ∀ a, (![0, 16, 0, 0] : Fin 4 → Nat) a + S1x1x14x14.size a ≤ S1x81x14x14.size a
  inb_S1x81x14x14_S1x1x14x14_0_17_0_0 : ∀ a, (![0, 17, 0, 0] : Fin 4 → Nat) a + S1x1x14x14.size a ≤ S1x81x14x14.size a
  inb_S512x22x22_S512x14x22_0_2_0 : ∀ a, (![0, 2, 0] : Fin 3 → Nat) a + S512x14x22.size a ≤ S512x22x22.size a
  inb_S1x81x14x14_S1x1x14x14_0_18_0_0 : ∀ a, (![0, 18, 0, 0] : Fin 4 → Nat) a + S1x1x14x14.size a ≤ S1x81x14x14.size a
  inb_S1x81x14x14_S1x1x14x14_0_19_0_0 : ∀ a, (![0, 19, 0, 0] : Fin 4 → Nat) a + S1x1x14x14.size a ≤ S1x81x14x14.size a
  inb_S1x81x14x14_S1x1x14x14_0_20_0_0 : ∀ a, (![0, 20, 0, 0] : Fin 4 → Nat) a + S1x1x14x14.size a ≤ S1x81x14x14.size a
  inb_S1x81x14x14_S1x1x14x14_0_21_0_0 : ∀ a, (![0, 21, 0, 0] : Fin 4 → Nat) a + S1x1x14x14.size a ≤ S1x81x14x14.size a
  inb_S1x81x14x14_S1x1x14x14_0_22_0_0 : ∀ a, (![0, 22, 0, 0] : Fin 4 → Nat) a + S1x1x14x14.size a ≤ S1x81x14x14.size a
  inb_S1x81x14x14_S1x1x14x14_0_23_0_0 : ∀ a, (![0, 23, 0, 0] : Fin 4 → Nat) a + S1x1x14x14.size a ≤ S1x81x14x14.size a
  inb_S1x81x14x14_S1x1x14x14_0_24_0_0 : ∀ a, (![0, 24, 0, 0] : Fin 4 → Nat) a + S1x1x14x14.size a ≤ S1x81x14x14.size a
  inb_S1x81x14x14_S1x1x14x14_0_25_0_0 : ∀ a, (![0, 25, 0, 0] : Fin 4 → Nat) a + S1x1x14x14.size a ≤ S1x81x14x14.size a
  inb_S1x81x14x14_S1x1x14x14_0_26_0_0 : ∀ a, (![0, 26, 0, 0] : Fin 4 → Nat) a + S1x1x14x14.size a ≤ S1x81x14x14.size a
  inb_S512x22x22_S512x14x22_0_3_0 : ∀ a, (![0, 3, 0] : Fin 3 → Nat) a + S512x14x22.size a ≤ S512x22x22.size a
  inb_S1x81x14x14_S1x1x14x14_0_27_0_0 : ∀ a, (![0, 27, 0, 0] : Fin 4 → Nat) a + S1x1x14x14.size a ≤ S1x81x14x14.size a
  inb_S1x81x14x14_S1x1x14x14_0_28_0_0 : ∀ a, (![0, 28, 0, 0] : Fin 4 → Nat) a + S1x1x14x14.size a ≤ S1x81x14x14.size a
  inb_S1x81x14x14_S1x1x14x14_0_29_0_0 : ∀ a, (![0, 29, 0, 0] : Fin 4 → Nat) a + S1x1x14x14.size a ≤ S1x81x14x14.size a
  inb_S1x81x14x14_S1x1x14x14_0_30_0_0 : ∀ a, (![0, 30, 0, 0] : Fin 4 → Nat) a + S1x1x14x14.size a ≤ S1x81x14x14.size a
  inb_S1x81x14x14_S1x1x14x14_0_31_0_0 : ∀ a, (![0, 31, 0, 0] : Fin 4 → Nat) a + S1x1x14x14.size a ≤ S1x81x14x14.size a
  inb_S1x81x14x14_S1x1x14x14_0_32_0_0 : ∀ a, (![0, 32, 0, 0] : Fin 4 → Nat) a + S1x1x14x14.size a ≤ S1x81x14x14.size a
  inb_S1x81x14x14_S1x1x14x14_0_33_0_0 : ∀ a, (![0, 33, 0, 0] : Fin 4 → Nat) a + S1x1x14x14.size a ≤ S1x81x14x14.size a
  inb_S1x81x14x14_S1x1x14x14_0_34_0_0 : ∀ a, (![0, 34, 0, 0] : Fin 4 → Nat) a + S1x1x14x14.size a ≤ S1x81x14x14.size a
  inb_S1x81x14x14_S1x1x14x14_0_35_0_0 : ∀ a, (![0, 35, 0, 0] : Fin 4 → Nat) a + S1x1x14x14.size a ≤ S1x81x14x14.size a
  inb_S512x22x22_S512x14x22_0_4_0 : ∀ a, (![0, 4, 0] : Fin 3 → Nat) a + S512x14x22.size a ≤ S512x22x22.size a
  inb_S1x81x14x14_S1x1x14x14_0_36_0_0 : ∀ a, (![0, 36, 0, 0] : Fin 4 → Nat) a + S1x1x14x14.size a ≤ S1x81x14x14.size a
  inb_S1x81x14x14_S1x1x14x14_0_37_0_0 : ∀ a, (![0, 37, 0, 0] : Fin 4 → Nat) a + S1x1x14x14.size a ≤ S1x81x14x14.size a
  inb_S1x81x14x14_S1x1x14x14_0_38_0_0 : ∀ a, (![0, 38, 0, 0] : Fin 4 → Nat) a + S1x1x14x14.size a ≤ S1x81x14x14.size a
  inb_S1x81x14x14_S1x1x14x14_0_39_0_0 : ∀ a, (![0, 39, 0, 0] : Fin 4 → Nat) a + S1x1x14x14.size a ≤ S1x81x14x14.size a
  inb_S1x81x14x14_S1x1x14x14_0_40_0_0 : ∀ a, (![0, 40, 0, 0] : Fin 4 → Nat) a + S1x1x14x14.size a ≤ S1x81x14x14.size a
  inb_S1x81x14x14_S1x1x14x14_0_41_0_0 : ∀ a, (![0, 41, 0, 0] : Fin 4 → Nat) a + S1x1x14x14.size a ≤ S1x81x14x14.size a
  inb_S1x81x14x14_S1x1x14x14_0_42_0_0 : ∀ a, (![0, 42, 0, 0] : Fin 4 → Nat) a + S1x1x14x14.size a ≤ S1x81x14x14.size a
  inb_S1x81x14x14_S1x1x14x14_0_43_0_0 : ∀ a, (![0, 43, 0, 0] : Fin 4 → Nat) a + S1x1x14x14.size a ≤ S1x81x14x14.size a
  inb_S1x81x14x14_S1x1x14x14_0_44_0_0 : ∀ a, (![0, 44, 0, 0] : Fin 4 → Nat) a + S1x1x14x14.size a ≤ S1x81x14x14.size a
  inb_S512x22x22_S512x14x22_0_5_0 : ∀ a, (![0, 5, 0] : Fin 3 → Nat) a + S512x14x22.size a ≤ S512x22x22.size a
  inb_S1x81x14x14_S1x1x14x14_0_45_0_0 : ∀ a, (![0, 45, 0, 0] : Fin 4 → Nat) a + S1x1x14x14.size a ≤ S1x81x14x14.size a
  inb_S1x81x14x14_S1x1x14x14_0_46_0_0 : ∀ a, (![0, 46, 0, 0] : Fin 4 → Nat) a + S1x1x14x14.size a ≤ S1x81x14x14.size a
  inb_S1x81x14x14_S1x1x14x14_0_47_0_0 : ∀ a, (![0, 47, 0, 0] : Fin 4 → Nat) a + S1x1x14x14.size a ≤ S1x81x14x14.size a
  inb_S1x81x14x14_S1x1x14x14_0_48_0_0 : ∀ a, (![0, 48, 0, 0] : Fin 4 → Nat) a + S1x1x14x14.size a ≤ S1x81x14x14.size a
  inb_S1x81x14x14_S1x1x14x14_0_49_0_0 : ∀ a, (![0, 49, 0, 0] : Fin 4 → Nat) a + S1x1x14x14.size a ≤ S1x81x14x14.size a
  inb_S1x81x14x14_S1x1x14x14_0_50_0_0 : ∀ a, (![0, 50, 0, 0] : Fin 4 → Nat) a + S1x1x14x14.size a ≤ S1x81x14x14.size a
  inb_S1x81x14x14_S1x1x14x14_0_51_0_0 : ∀ a, (![0, 51, 0, 0] : Fin 4 → Nat) a + S1x1x14x14.size a ≤ S1x81x14x14.size a
  inb_S1x81x14x14_S1x1x14x14_0_52_0_0 : ∀ a, (![0, 52, 0, 0] : Fin 4 → Nat) a + S1x1x14x14.size a ≤ S1x81x14x14.size a
  inb_S1x81x14x14_S1x1x14x14_0_53_0_0 : ∀ a, (![0, 53, 0, 0] : Fin 4 → Nat) a + S1x1x14x14.size a ≤ S1x81x14x14.size a
  inb_S512x22x22_S512x14x22_0_6_0 : ∀ a, (![0, 6, 0] : Fin 3 → Nat) a + S512x14x22.size a ≤ S512x22x22.size a
  inb_S1x81x14x14_S1x1x14x14_0_54_0_0 : ∀ a, (![0, 54, 0, 0] : Fin 4 → Nat) a + S1x1x14x14.size a ≤ S1x81x14x14.size a
  inb_S1x81x14x14_S1x1x14x14_0_55_0_0 : ∀ a, (![0, 55, 0, 0] : Fin 4 → Nat) a + S1x1x14x14.size a ≤ S1x81x14x14.size a
  inb_S1x81x14x14_S1x1x14x14_0_56_0_0 : ∀ a, (![0, 56, 0, 0] : Fin 4 → Nat) a + S1x1x14x14.size a ≤ S1x81x14x14.size a
  inb_S1x81x14x14_S1x1x14x14_0_57_0_0 : ∀ a, (![0, 57, 0, 0] : Fin 4 → Nat) a + S1x1x14x14.size a ≤ S1x81x14x14.size a
  inb_S1x81x14x14_S1x1x14x14_0_58_0_0 : ∀ a, (![0, 58, 0, 0] : Fin 4 → Nat) a + S1x1x14x14.size a ≤ S1x81x14x14.size a
  inb_S1x81x14x14_S1x1x14x14_0_59_0_0 : ∀ a, (![0, 59, 0, 0] : Fin 4 → Nat) a + S1x1x14x14.size a ≤ S1x81x14x14.size a
  inb_S1x81x14x14_S1x1x14x14_0_60_0_0 : ∀ a, (![0, 60, 0, 0] : Fin 4 → Nat) a + S1x1x14x14.size a ≤ S1x81x14x14.size a
  inb_S1x81x14x14_S1x1x14x14_0_61_0_0 : ∀ a, (![0, 61, 0, 0] : Fin 4 → Nat) a + S1x1x14x14.size a ≤ S1x81x14x14.size a
  inb_S1x81x14x14_S1x1x14x14_0_62_0_0 : ∀ a, (![0, 62, 0, 0] : Fin 4 → Nat) a + S1x1x14x14.size a ≤ S1x81x14x14.size a
  inb_S512x22x22_S512x14x22_0_7_0 : ∀ a, (![0, 7, 0] : Fin 3 → Nat) a + S512x14x22.size a ≤ S512x22x22.size a
  inb_S1x81x14x14_S1x1x14x14_0_63_0_0 : ∀ a, (![0, 63, 0, 0] : Fin 4 → Nat) a + S1x1x14x14.size a ≤ S1x81x14x14.size a
  inb_S1x81x14x14_S1x1x14x14_0_64_0_0 : ∀ a, (![0, 64, 0, 0] : Fin 4 → Nat) a + S1x1x14x14.size a ≤ S1x81x14x14.size a
  inb_S1x81x14x14_S1x1x14x14_0_65_0_0 : ∀ a, (![0, 65, 0, 0] : Fin 4 → Nat) a + S1x1x14x14.size a ≤ S1x81x14x14.size a
  inb_S1x81x14x14_S1x1x14x14_0_66_0_0 : ∀ a, (![0, 66, 0, 0] : Fin 4 → Nat) a + S1x1x14x14.size a ≤ S1x81x14x14.size a
  inb_S1x81x14x14_S1x1x14x14_0_67_0_0 : ∀ a, (![0, 67, 0, 0] : Fin 4 → Nat) a + S1x1x14x14.size a ≤ S1x81x14x14.size a
  inb_S1x81x14x14_S1x1x14x14_0_68_0_0 : ∀ a, (![0, 68, 0, 0] : Fin 4 → Nat) a + S1x1x14x14.size a ≤ S1x81x14x14.size a
  inb_S1x81x14x14_S1x1x14x14_0_69_0_0 : ∀ a, (![0, 69, 0, 0] : Fin 4 → Nat) a + S1x1x14x14.size a ≤ S1x81x14x14.size a
  inb_S1x81x14x14_S1x1x14x14_0_70_0_0 : ∀ a, (![0, 70, 0, 0] : Fin 4 → Nat) a + S1x1x14x14.size a ≤ S1x81x14x14.size a
  inb_S1x81x14x14_S1x1x14x14_0_71_0_0 : ∀ a, (![0, 71, 0, 0] : Fin 4 → Nat) a + S1x1x14x14.size a ≤ S1x81x14x14.size a
  inb_S512x22x22_S512x14x22_0_8_0 : ∀ a, (![0, 8, 0] : Fin 3 → Nat) a + S512x14x22.size a ≤ S512x22x22.size a
  inb_S1x81x14x14_S1x1x14x14_0_72_0_0 : ∀ a, (![0, 72, 0, 0] : Fin 4 → Nat) a + S1x1x14x14.size a ≤ S1x81x14x14.size a
  inb_S1x81x14x14_S1x1x14x14_0_73_0_0 : ∀ a, (![0, 73, 0, 0] : Fin 4 → Nat) a + S1x1x14x14.size a ≤ S1x81x14x14.size a
  inb_S1x81x14x14_S1x1x14x14_0_74_0_0 : ∀ a, (![0, 74, 0, 0] : Fin 4 → Nat) a + S1x1x14x14.size a ≤ S1x81x14x14.size a
  inb_S1x81x14x14_S1x1x14x14_0_75_0_0 : ∀ a, (![0, 75, 0, 0] : Fin 4 → Nat) a + S1x1x14x14.size a ≤ S1x81x14x14.size a
  inb_S1x81x14x14_S1x1x14x14_0_76_0_0 : ∀ a, (![0, 76, 0, 0] : Fin 4 → Nat) a + S1x1x14x14.size a ≤ S1x81x14x14.size a
  inb_S1x81x14x14_S1x1x14x14_0_77_0_0 : ∀ a, (![0, 77, 0, 0] : Fin 4 → Nat) a + S1x1x14x14.size a ≤ S1x81x14x14.size a
  inb_S1x81x14x14_S1x1x14x14_0_78_0_0 : ∀ a, (![0, 78, 0, 0] : Fin 4 → Nat) a + S1x1x14x14.size a ≤ S1x81x14x14.size a
  inb_S1x81x14x14_S1x1x14x14_0_79_0_0 : ∀ a, (![0, 79, 0, 0] : Fin 4 → Nat) a + S1x1x14x14.size a ≤ S1x81x14x14.size a
  inb_S1x81x14x14_S1x1x14x14_0_80_0_0 : ∀ a, (![0, 80, 0, 0] : Fin 4 → Nat) a + S1x1x14x14.size a ≤ S1x81x14x14.size a
  shapeCasts_S8x81x14x14_S8x9x9x14x14 : S8x81x14x14.ShapeCasts S8x9x9x14x14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x112x112.size a ≤ S8x64x112x112.size a
  hwx0_0 : ∀ i : grid0.Coords, EltTy.bits .f32 = 32 ∨ (Rect.block (s := S8x64x112x112) S1x64x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x112x112.size a ≤ S8x64x112x112.size a
  hwx0_1 : ∀ i : grid0.Coords, EltTy.bits .f32 = 32 ∨ (Rect.block (s := S8x64x112x112) S1x64x112x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x81x112x112.size a ≤ S8x81x112x112.size a
  hwx0_2 : ∀ i : grid0.Coords, EltTy.bits .f32 = 32 ∨ (Rect.block (s := S8x81x112x112) S1x81x112x112.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x56x56.size a ≤ S8x128x56x56.size a
  hwx1_0 : ∀ i : grid1.Coords, EltTy.bits .f32 = 32 ∨ (Rect.block (s := S8x128x56x56) S1x128x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x56x56.size a ≤ S8x128x56x56.size a
  hwx1_1 : ∀ i : grid1.Coords, EltTy.bits .f32 = 32 ∨ (Rect.block (s := S8x128x56x56) S1x128x56x56.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x81x56x56.size a ≤ S8x81x56x56.size a
  hwx1_2 : ∀ i : grid1.Coords, EltTy.bits .f32 = 32 ∨ (Rect.block (s := S8x81x56x56) S1x81x56x56.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x28x28.size a ≤ S8x256x28x28.size a
  hwx2_0 : ∀ i : grid2.Coords, EltTy.bits .f32 = 32 ∨ (Rect.block (s := S8x256x28x28) S1x256x28x28.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x28x28.size a ≤ S8x256x28x28.size a
  hwx2_1 : ∀ i : grid2.Coords, EltTy.bits .f32 = 32 ∨ (Rect.block (s := S8x256x28x28) S1x256x28x28.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x81x28x28.size a ≤ S8x81x28x28.size a
  hwx2_2 : ∀ i : grid2.Coords, EltTy.bits .f32 = 32 ∨ (Rect.block (s := S8x81x28x28) S1x81x28x28.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x14x14.size a ≤ S8x512x14x14.size a
  hwx3_0 : ∀ i : grid3.Coords, EltTy.bits .f32 = 32 ∨ (Rect.block (s := S8x512x14x14) S1x512x14x14.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x14x14.size a ≤ S8x512x14x14.size a
  hwx3_1 : ∀ i : grid3.Coords, EltTy.bits .f32 = 32 ∨ (Rect.block (s := S8x512x14x14) S1x512x14x14.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x81x14x14.size a ≤ S8x81x14x14.size a
  hwx3_2 : ∀ i : grid3.Coords, EltTy.bits .f32 = 32 ∨ (Rect.block (s := S8x81x14x14) S1x81x14x14.size (cc3_transform_2 i) (hinb3_2 i)).WholeWords (EltTy.packing .f32)

variable [Facts₀]

abbrev win0_0 : Pipeline.Window sig grid0 :=
  Pipeline.Window.ofSpec (Memref.whole main_arg0) S1x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64x112x112.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x81x112x112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x128x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x128x56x56.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x81x56x56.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1x256x28x28.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1x256x28x28.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x81x28x28.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S1x512x14x14.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1x512x14x14.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x81x14x14.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8x64x112x112 : Shape := ⟨4, ![8, 64, 112, 112]⟩
abbrev S8x128x56x56 : Shape := ⟨4, ![8, 128, 56, 56]⟩
abbrev S8x256x28x28 : Shape := ⟨4, ![8, 256, 28, 28]⟩
abbrev S8x512x14x14 : Shape := ⟨4, ![8, 512, 14, 14]⟩
abbrev S_ : Shape := ⟨0, ![]⟩
abbrev S8x64x120x120 : Shape := ⟨4, ![8, 64, 120, 120]⟩
abbrev S8x112x112 : Shape := ⟨3, ![8, 112, 112]⟩
abbrev S8x1x112x112 : Shape := ⟨4, ![8, 1, 112, 112]⟩
abbrev S8x9x112x112 : Shape := ⟨4, ![8, 9, 112, 112]⟩
abbrev S8x1x9x112x112 : Shape := ⟨5, ![8, 1, 9, 112, 112]⟩
abbrev S8x9x9x112x112 : Shape := ⟨5, ![8, 9, 9, 112, 112]⟩
abbrev S8x128x64x64 : Shape := ⟨4, ![8, 128, 64, 64]⟩
abbrev S8x56x56 : Shape := ⟨3, ![8, 56, 56]⟩
abbrev S8x1x56x56 : Shape := ⟨4, ![8, 1, 56, 56]⟩
abbrev S8x9x56x56 : Shape := ⟨4, ![8, 9, 56, 56]⟩
abbrev S8x1x9x56x56 : Shape := ⟨5, ![8, 1, 9, 56, 56]⟩
abbrev S8x9x9x56x56 : Shape := ⟨5, ![8, 9, 9, 56, 56]⟩
abbrev S8x256x36x36 : Shape := ⟨4, ![8, 256, 36, 36]⟩
abbrev S8x28x28 : Shape := ⟨3, ![8, 28, 28]⟩
abbrev S8x1x28x28 : Shape := ⟨4, ![8, 1, 28, 28]⟩
abbrev S8x9x28x28 : Shape := ⟨4, ![8, 9, 28, 28]⟩
abbrev S8x1x9x28x28 : Shape := ⟨5, ![8, 1, 9, 28, 28]⟩
abbrev S8x9x9x28x28 : Shape := ⟨5, ![8, 9, 9, 28, 28]⟩
abbrev S8x512x22x22 : Shape := ⟨4, ![8, 512, 22, 22]⟩
abbrev S8x14x14 : Shape := ⟨3, ![8, 14, 14]⟩
abbrev S8x1x14x14 : Shape := ⟨4, ![8, 1, 14, 14]⟩
abbrev S8x9x14x14 : Shape := ⟨4, ![8, 9, 14, 14]⟩
abbrev S8x1x9x14x14 : Shape := ⟨5, ![8, 1, 9, 14, 14]⟩
abbrev S8x9x9x14x14 : Shape := ⟨5, ![8, 9, 9, 14, 14]⟩

abbrev nBuf : Space → Nat
  | .hbm => 1716
  | .vmem => 0
  | .smem => 0
  | _ => 0

abbrev hbmTy0_0 (i : Nat) : BufTy := match i % 128 with
  | 0 => ⟨S8x64x112x112, .f32⟩
  | 1 => ⟨S8x128x56x56, .f32⟩
  | 2 => ⟨S8x256x28x28, .f32⟩
  | 3 => ⟨S8x512x14x14, .f32⟩
  | 4 => ⟨S8x64x112x112, .f32⟩
  | 5 => ⟨S8x128x56x56, .f32⟩
  | 6 => ⟨S8x256x28x28, .f32⟩
  | 7 => ⟨S8x512x14x14, .f32⟩
  | 8 => ⟨S_, .i32⟩
  | 9 => ⟨S_, .f32⟩
  | 10 => ⟨S8x64x120x120, .f32⟩
  | 11 => ⟨S8x64x112x112, .f32⟩
  | 12 => ⟨S8x64x112x112, .f32⟩
  | 13 => ⟨S_, .f32⟩
  | 14 => ⟨S8x112x112, .f32⟩
  | 15 => ⟨S8x64x112x112, .f32⟩
  | 16 => ⟨S8x64x112x112, .f32⟩
  | 17 => ⟨S_, .f32⟩
  | 18 => ⟨S8x112x112, .f32⟩
  | 19 => ⟨S8x64x112x112, .f32⟩
  | 20 => ⟨S8x64x112x112, .f32⟩
  | 21 => ⟨S_, .f32⟩
  | 22 => ⟨S8x112x112, .f32⟩
  | 23 => ⟨S8x64x112x112, .f32⟩
  | 24 => ⟨S8x64x112x112, .f32⟩
  | 25 => ⟨S_, .f32⟩
  | 26 => ⟨S8x112x112, .f32⟩
  | 27 => ⟨S8x64x112x112, .f32⟩
  | 28 => ⟨S8x64x112x112, .f32⟩
  | 29 => ⟨S_, .f32⟩
  | 30 => ⟨S8x112x112, .f32⟩
  | 31 => ⟨S8x64x112x112, .f32⟩
  | 32 => ⟨S8x64x112x112, .f32⟩
  | 33 => ⟨S_, .f32⟩
  | 34 => ⟨S8x112x112, .f32⟩
  | 35 => ⟨S8x64x112x112, .f32⟩
  | 36 => ⟨S8x64x112x112, .f32⟩
  | 37 => ⟨S_, .f32⟩
  | 38 => ⟨S8x112x112, .f32⟩
  | 39 => ⟨S8x64x112x112, .f32⟩
  | 40 => ⟨S8x64x112x112, .f32⟩
  | 41 => ⟨S_, .f32⟩
  | 42 => ⟨S8x112x112, .f32⟩
  | 43 => ⟨S8x64x112x112, .f32⟩
  | 44 => ⟨S8x64x112x112, .f32⟩
  | 45 => ⟨S_, .f32⟩
  | 46 => ⟨S8x112x112, .f32⟩
  | 47 => ⟨S8x1x112x112, .f32⟩
  | 48 => ⟨S8x1x112x112, .f32⟩
  | 49 => ⟨S8x1x112x112, .f32⟩
  | 50 => ⟨S8x1x112x112, .f32⟩
  | 51 => ⟨S8x1x112x112, .f32⟩
  | 52 => ⟨S8x1x112x112, .f32⟩
  | 53 => ⟨S8x1x112x112, .f32⟩
  | 54 => ⟨S8x1x112x112, .f32⟩
  | 55 => ⟨S8x1x112x112, .f32⟩
  | 56 => ⟨S8x9x112x112, .f32⟩
  | 57 => ⟨S8x64x112x112, .f32⟩
  | 58 => ⟨S8x64x112x112, .f32⟩
  | 59 => ⟨S_, .f32⟩
  | 60 => ⟨S8x112x112, .f32⟩
  | 61 => ⟨S8x64x112x112, .f32⟩
  | 62 => ⟨S8x64x112x112, .f32⟩
  | 63 => ⟨S_, .f32⟩
  | 64 => ⟨S8x112x112, .f32⟩
  | 65 => ⟨S8x64x112x112, .f32⟩
  | 66 => ⟨S8x64x112x112, .f32⟩
  | 67 => ⟨S_, .f32⟩
  | 68 => ⟨S8x112x112, .f32⟩
  | 69 => ⟨S8x64x112x112, .f32⟩
  | 70 => ⟨S8x64x112x112, .f32⟩
  | 71 => ⟨S_, .f32⟩
  | 72 => ⟨S8x112x112, .f32⟩
  | 73 => ⟨S8x64x112x112, .f32⟩
  | 74 => ⟨S8x64x112x112, .f32⟩
  | 75 => ⟨S_, .f32⟩
  | 76 => ⟨S8x112x112, .f32⟩
  | 77 => ⟨S8x64x112x112, .f32⟩
  | 78 => ⟨S8x64x112x112, .f32⟩
  | 79 => ⟨S_, .f32⟩
  | 80 => ⟨S8x112x112, .f32⟩
  | 81 => ⟨S8x64x112x112, .f32⟩
  | 82 => ⟨S8x64x112x112, .f32⟩
  | 83 => ⟨S_, .f32⟩
  | 84 => ⟨S8x112x112, .f32⟩
  | 85 => ⟨S8x64x112x112, .f32⟩
  | 86 => ⟨S8x64x112x112, .f32⟩
  | 87 => ⟨S_, .f32⟩
  | 88 => ⟨S8x112x112, .f32⟩
  | 89 => ⟨S8x64x112x112, .f32⟩
  | 90 => ⟨S8x64x112x112, .f32⟩
  | 91 => ⟨S_, .f32⟩
  | 92 => ⟨S8x112x112, .f32⟩
  | 93 => ⟨S8x1x112x112, .f32⟩
  | 94 => ⟨S8x1x112x112, .f32⟩
  | 95 => ⟨S8x1x112x112, .f32⟩
  | 96 => ⟨S8x1x112x112, .f32⟩
  | 97 => ⟨S8x1x112x112, .f32⟩
  | 98 => ⟨S8x1x112x112, .f32⟩
  | 99 => ⟨S8x1x112x112, .f32⟩
  | 100 => ⟨S8x1x112x112, .f32⟩
  | 101 => ⟨S8x1x112x112, .f32⟩
  | 102 => ⟨S8x9x112x112, .f32⟩
  | 103 => ⟨S8x64x112x112, .f32⟩
  | 104 => ⟨S8x64x112x112, .f32⟩
  | 105 => ⟨S_, .f32⟩
  | 106 => ⟨S8x112x112, .f32⟩
  | 107 => ⟨S8x64x112x112, .f32⟩
  | 108 => ⟨S8x64x112x112, .f32⟩
  | 109 => ⟨S_, .f32⟩
  | 110 => ⟨S8x112x112, .f32⟩
  | 111 => ⟨S8x64x112x112, .f32⟩
  | 112 => ⟨S8x64x112x112, .f32⟩
  | 113 => ⟨S_, .f32⟩
  | 114 => ⟨S8x112x112, .f32⟩
  | 115 => ⟨S8x64x112x112, .f32⟩
  | 116 => ⟨S8x64x112x112, .f32⟩
  | 117 => ⟨S_, .f32⟩
  | 118 => ⟨S8x112x112, .f32⟩
  | 119 => ⟨S8x64x112x112, .f32⟩
  | 120 => ⟨S8x64x112x112, .f32⟩
  | 121 => ⟨S_, .f32⟩
  | 122 => ⟨S8x112x112, .f32⟩
  | 123 => ⟨S8x64x112x112, .f32⟩
  | 124 => ⟨S8x64x112x112, .f32⟩
  | 125 => ⟨S_, .f32⟩
  | 126 => ⟨S8x112x112, .f32⟩
  | 127 => ⟨S8x64x112x112, .f32⟩
  | _ => ⟨S8x64x112x112, .f32⟩

abbrev hbmTy0_1 (i : Nat) : BufTy := match i % 128 with
  | 0 => ⟨S8x64x112x112, .f32⟩
  | 1 => ⟨S_, .f32⟩
  | 2 => ⟨S8x112x112, .f32⟩
  | 3 => ⟨S8x64x112x112, .f32⟩
  | 4 => ⟨S8x64x112x112, .f32⟩
  | 5 => ⟨S_, .f32⟩
  | 6 => ⟨S8x112x112, .f32⟩
  | 7 => ⟨S8x64x112x112, .f32⟩
  | 8 => ⟨S8x64x112x112, .f32⟩
  | 9 => ⟨S_, .f32⟩
  | 10 => ⟨S8x112x112, .f32⟩
  | 11 => ⟨S8x1x112x112, .f32⟩
  | 12 => ⟨S8x1x112x112, .f32⟩
  | 13 => ⟨S8x1x112x112, .f32⟩
  | 14 => ⟨S8x1x112x112, .f32⟩
  | 15 => ⟨S8x1x112x112, .f32⟩
  | 16 => ⟨S8x1x112x112, .f32⟩
  | 17 => ⟨S8x1x112x112, .f32⟩
  | 18 => ⟨S8x1x112x112, .f32⟩
  | 19 => ⟨S8x1x112x112, .f32⟩
  | 20 => ⟨S8x9x112x112, .f32⟩
  | 21 => ⟨S8x64x112x112, .f32⟩
  | 22 => ⟨S8x64x112x112, .f32⟩
  | 23 => ⟨S_, .f32⟩
  | 24 => ⟨S8x112x112, .f32⟩
  | 25 => ⟨S8x64x112x112, .f32⟩
  | 26 => ⟨S8x64x112x112, .f32⟩
  | 27 => ⟨S_, .f32⟩
  | 28 => ⟨S8x112x112, .f32⟩
  | 29 => ⟨S8x64x112x112, .f32⟩
  | 30 => ⟨S8x64x112x112, .f32⟩
  | 31 => ⟨S_, .f32⟩
  | 32 => ⟨S8x112x112, .f32⟩
  | 33 => ⟨S8x64x112x112, .f32⟩
  | 34 => ⟨S8x64x112x112, .f32⟩
  | 35 => ⟨S_, .f32⟩
  | 36 => ⟨S8x112x112, .f32⟩
  | 37 => ⟨S8x64x112x112, .f32⟩
  | 38 => ⟨S8x64x112x112, .f32⟩
  | 39 => ⟨S_, .f32⟩
  | 40 => ⟨S8x112x112, .f32⟩
  | 41 => ⟨S8x64x112x112, .f32⟩
  | 42 => ⟨S8x64x112x112, .f32⟩
  | 43 => ⟨S_, .f32⟩
  | 44 => ⟨S8x112x112, .f32⟩
  | 45 => ⟨S8x64x112x112, .f32⟩
  | 46 => ⟨S8x64x112x112, .f32⟩
  | 47 => ⟨S_, .f32⟩
  | 48 => ⟨S8x112x112, .f32⟩
  | 49 => ⟨S8x64x112x112, .f32⟩
  | 50 => ⟨S8x64x112x112, .f32⟩
  | 51 => ⟨S_, .f32⟩
  | 52 => ⟨S8x112x112, .f32⟩
  | 53 => ⟨S8x64x112x112, .f32⟩
  | 54 => ⟨S8x64x112x112, .f32⟩
  | 55 => ⟨S_, .f32⟩
  | 56 => ⟨S8x112x112, .f32⟩
  | 57 => ⟨S8x1x112x112, .f32⟩
  | 58 => ⟨S8x1x112x112, .f32⟩
  | 59 => ⟨S8x1x112x112, .f32⟩
  | 60 => ⟨S8x1x112x112, .f32⟩
  | 61 => ⟨S8x1x112x112, .f32⟩
  | 62 => ⟨S8x1x112x112, .f32⟩
  | 63 => ⟨S8x1x112x112, .f32⟩
  | 64 => ⟨S8x1x112x112, .f32⟩
  | 65 => ⟨S8x1x112x112, .f32⟩
  | 66 => ⟨S8x9x112x112, .f32⟩
  | 67 => ⟨S8x64x112x112, .f32⟩
  | 68 => ⟨S8x64x112x112, .f32⟩
  | 69 => ⟨S_, .f32⟩
  | 70 => ⟨S8x112x112, .f32⟩
  | 71 => ⟨S8x64x112x112, .f32⟩
  | 72 => ⟨S8x64x112x112, .f32⟩
  | 73 => ⟨S_, .f32⟩
  | 74 => ⟨S8x112x112, .f32⟩
  | 75 => ⟨S8x64x112x112, .f32⟩
  | 76 => ⟨S8x64x112x112, .f32⟩
  | 77 => ⟨S_, .f32⟩
  | 78 => ⟨S8x112x112, .f32⟩
  | 79 => ⟨S8x64x112x112, .f32⟩
  | 80 => ⟨S8x64x112x112, .f32⟩
  | 81 => ⟨S_, .f32⟩
  | 82 => ⟨S8x112x112, .f32⟩
  | 83 => ⟨S8x64x112x112, .f32⟩
  | 84 => ⟨S8x64x112x112, .f32⟩
  | 85 => ⟨S_, .f32⟩
  | 86 => ⟨S8x112x112, .f32⟩
  | 87 => ⟨S8x64x112x112, .f32⟩
  | 88 => ⟨S8x64x112x112, .f32⟩
  | 89 => ⟨S_, .f32⟩
  | 90 => ⟨S8x112x112, .f32⟩
  | 91 => ⟨S8x64x112x112, .f32⟩
  | 92 => ⟨S8x64x112x112, .f32⟩
  | 93 => ⟨S_, .f32⟩
  | 94 => ⟨S8x112x112, .f32⟩
  | 95 => ⟨S8x64x112x112, .f32⟩
  | 96 => ⟨S8x64x112x112, .f32⟩
  | 97 => ⟨S_, .f32⟩
  | 98 => ⟨S8x112x112, .f32⟩
  | 99 => ⟨S8x64x112x112, .f32⟩
  | 100 => ⟨S8x64x112x112, .f32⟩
  | 101 => ⟨S_, .f32⟩
  | 102 => ⟨S8x112x112, .f32⟩
  | 103 => ⟨S8x1x112x112, .f32⟩
  | 104 => ⟨S8x1x112x112, .f32⟩
  | 105 => ⟨S8x1x112x112, .f32⟩
  | 106 => ⟨S8x1x112x112, .f32⟩
  | 107 => ⟨S8x1x112x112, .f32⟩
  | 108 => ⟨S8x1x112x112, .f32⟩
  | 109 => ⟨S8x1x112x112, .f32⟩
  | 110 => ⟨S8x1x112x112, .f32⟩
  | 111 => ⟨S8x1x112x112, .f32⟩
  | 112 => ⟨S8x9x112x112, .f32⟩
  | 113 => ⟨S8x64x112x112, .f32⟩
  | 114 => ⟨S8x64x112x112, .f32⟩
  | 115 => ⟨S_, .f32⟩
  | 116 => ⟨S8x112x112, .f32⟩
  | 117 => ⟨S8x64x112x112, .f32⟩
  | 118 => ⟨S8x64x112x112, .f32⟩
  | 119 => ⟨S_, .f32⟩
  | 120 => ⟨S8x112x112, .f32⟩
  | 121 => ⟨S8x64x112x112, .f32⟩
  | 122 => ⟨S8x64x112x112, .f32⟩
  | 123 => ⟨S_, .f32⟩
  | 124 => ⟨S8x112x112, .f32⟩
  | 125 => ⟨S8x64x112x112, .f32⟩
  | 126 => ⟨S8x64x112x112, .f32⟩
  | 127 => ⟨S_, .f32⟩
  | _ => ⟨S8x64x112x112, .f32⟩

abbrev hbmTy0_2 (i : Nat) : BufTy := match i % 128 with
  | 0 => ⟨S8x112x112, .f32⟩
  | 1 => ⟨S8x64x112x112, .f32⟩
  | 2 => ⟨S8x64x112x112, .f32⟩
  | 3 => ⟨S_, .f32⟩
  | 4 => ⟨S8x112x112, .f32⟩
  | 5 => ⟨S8x64x112x112, .f32⟩
  | 6 => ⟨S8x64x112x112, .f32⟩
  | 7 => ⟨S_, .f32⟩
  | 8 => ⟨S8x112x112, .f32⟩
  | 9 => ⟨S8x64x112x112, .f32⟩
  | 10 => ⟨S8x64x112x112, .f32⟩
  | 11 => ⟨S_, .f32⟩
  | 12 => ⟨S8x112x112, .f32⟩
  | 13 => ⟨S8x64x112x112, .f32⟩
  | 14 => ⟨S8x64x112x112, .f32⟩
  | 15 => ⟨S_, .f32⟩
  | 16 => ⟨S8x112x112, .f32⟩
  | 17 => ⟨S8x64x112x112, .f32⟩
  | 18 => ⟨S8x64x112x112, .f32⟩
  | 19 => ⟨S_, .f32⟩
  | 20 => ⟨S8x112x112, .f32⟩
  | 21 => ⟨S8x1x112x112, .f32⟩
  | 22 => ⟨S8x1x112x112, .f32⟩
  | 23 => ⟨S8x1x112x112, .f32⟩
  | 24 => ⟨S8x1x112x112, .f32⟩
  | 25 => ⟨S8x1x112x112, .f32⟩
  | 26 => ⟨S8x1x112x112, .f32⟩
  | 27 => ⟨S8x1x112x112, .f32⟩
  | 28 => ⟨S8x1x112x112, .f32⟩
  | 29 => ⟨S8x1x112x112, .f32⟩
  | 30 => ⟨S8x9x112x112, .f32⟩
  | 31 => ⟨S8x64x112x112, .f32⟩
  | 32 => ⟨S8x64x112x112, .f32⟩
  | 33 => ⟨S_, .f32⟩
  | 34 => ⟨S8x112x112, .f32⟩
  | 35 => ⟨S8x64x112x112, .f32⟩
  | 36 => ⟨S8x64x112x112, .f32⟩
  | 37 => ⟨S_, .f32⟩
  | 38 => ⟨S8x112x112, .f32⟩
  | 39 => ⟨S8x64x112x112, .f32⟩
  | 40 => ⟨S8x64x112x112, .f32⟩
  | 41 => ⟨S_, .f32⟩
  | 42 => ⟨S8x112x112, .f32⟩
  | 43 => ⟨S8x64x112x112, .f32⟩
  | 44 => ⟨S8x64x112x112, .f32⟩
  | 45 => ⟨S_, .f32⟩
  | 46 => ⟨S8x112x112, .f32⟩
  | 47 => ⟨S8x64x112x112, .f32⟩
  | 48 => ⟨S8x64x112x112, .f32⟩
  | 49 => ⟨S_, .f32⟩
  | 50 => ⟨S8x112x112, .f32⟩
  | 51 => ⟨S8x64x112x112, .f32⟩
  | 52 => ⟨S8x64x112x112, .f32⟩
  | 53 => ⟨S_, .f32⟩
  | 54 => ⟨S8x112x112, .f32⟩
  | 55 => ⟨S8x64x112x112, .f32⟩
  | 56 => ⟨S8x64x112x112, .f32⟩
  | 57 => ⟨S_, .f32⟩
  | 58 => ⟨S8x112x112, .f32⟩
  | 59 => ⟨S8x64x112x112, .f32⟩
  | 60 => ⟨S8x64x112x112, .f32⟩
  | 61 => ⟨S_, .f32⟩
  | 62 => ⟨S8x112x112, .f32⟩
  | 63 => ⟨S8x64x112x112, .f32⟩
  | 64 => ⟨S8x64x112x112, .f32⟩
  | 65 => ⟨S_, .f32⟩
  | 66 => ⟨S8x112x112, .f32⟩
  | 67 => ⟨S8x1x112x112, .f32⟩
  | 68 => ⟨S8x1x112x112, .f32⟩
  | 69 => ⟨S8x1x112x112, .f32⟩
  | 70 => ⟨S8x1x112x112, .f32⟩
  | 71 => ⟨S8x1x112x112, .f32⟩
  | 72 => ⟨S8x1x112x112, .f32⟩
  | 73 => ⟨S8x1x112x112, .f32⟩
  | 74 => ⟨S8x1x112x112, .f32⟩
  | 75 => ⟨S8x1x112x112, .f32⟩
  | 76 => ⟨S8x9x112x112, .f32⟩
  | 77 => ⟨S8x64x112x112, .f32⟩
  | 78 => ⟨S8x64x112x112, .f32⟩
  | 79 => ⟨S_, .f32⟩
  | 80 => ⟨S8x112x112, .f32⟩
  | 81 => ⟨S8x64x112x112, .f32⟩
  | 82 => ⟨S8x64x112x112, .f32⟩
  | 83 => ⟨S_, .f32⟩
  | 84 => ⟨S8x112x112, .f32⟩
  | 85 => ⟨S8x64x112x112, .f32⟩
  | 86 => ⟨S8x64x112x112, .f32⟩
  | 87 => ⟨S_, .f32⟩
  | 88 => ⟨S8x112x112, .f32⟩
  | 89 => ⟨S8x64x112x112, .f32⟩
  | 90 => ⟨S8x64x112x112, .f32⟩
  | 91 => ⟨S_, .f32⟩
  | 92 => ⟨S8x112x112, .f32⟩
  | 93 => ⟨S8x64x112x112, .f32⟩
  | 94 => ⟨S8x64x112x112, .f32⟩
  | 95 => ⟨S_, .f32⟩
  | 96 => ⟨S8x112x112, .f32⟩
  | 97 => ⟨S8x64x112x112, .f32⟩
  | 98 => ⟨S8x64x112x112, .f32⟩
  | 99 => ⟨S_, .f32⟩
  | 100 => ⟨S8x112x112, .f32⟩
  | 101 => ⟨S8x64x112x112, .f32⟩
  | 102 => ⟨S8x64x112x112, .f32⟩
  | 103 => ⟨S_, .f32⟩
  | 104 => ⟨S8x112x112, .f32⟩
  | 105 => ⟨S8x64x112x112, .f32⟩
  | 106 => ⟨S8x64x112x112, .f32⟩
  | 107 => ⟨S_, .f32⟩
  | 108 => ⟨S8x112x112, .f32⟩
  | 109 => ⟨S8x64x112x112, .f32⟩
  | 110 => ⟨S8x64x112x112, .f32⟩
  | 111 => ⟨S_, .f32⟩
  | 112 => ⟨S8x112x112, .f32⟩
  | 113 => ⟨S8x1x112x112, .f32⟩
  | 114 => ⟨S8x1x112x112, .f32⟩
  | 115 => ⟨S8x1x112x112, .f32⟩
  | 116 => ⟨S8x1x112x112, .f32⟩
  | 117 => ⟨S8x1x112x112, .f32⟩
  | 118 => ⟨S8x1x112x112, .f32⟩
  | 119 => ⟨S8x1x112x112, .f32⟩
  | 120 => ⟨S8x1x112x112, .f32⟩
  | 121 => ⟨S8x1x112x112, .f32⟩
  | 122 => ⟨S8x9x112x112, .f32⟩
  | 123 => ⟨S8x64x112x112, .f32⟩
  | 124 => ⟨S8x64x112x112, .f32⟩
  | 125 => ⟨S_, .f32⟩
  | 126 => ⟨S8x112x112, .f32⟩
  | 127 => ⟨S8x64x112x112, .f32⟩
  | _ => ⟨S8x64x112x112, .f32⟩

abbrev hbmTy0_3 (i : Nat) : BufTy := match i % 128 with
  | 0 => ⟨S8x64x112x112, .f32⟩
  | 1 => ⟨S_, .f32⟩
  | 2 => ⟨S8x112x112, .f32⟩
  | 3 => ⟨S8x64x112x112, .f32⟩
  | 4 => ⟨S8x64x112x112, .f32⟩
  | 5 => ⟨S_, .f32⟩
  | 6 => ⟨S8x112x112, .f32⟩
  | 7 => ⟨S8x64x112x112, .f32⟩
  | 8 => ⟨S8x64x112x112, .f32⟩
  | 9 => ⟨S_, .f32⟩
  | 10 => ⟨S8x112x112, .f32⟩
  | 11 => ⟨S8x64x112x112, .f32⟩
  | 12 => ⟨S8x64x112x112, .f32⟩
  | 13 => ⟨S_, .f32⟩
  | 14 => ⟨S8x112x112, .f32⟩
  | 15 => ⟨S8x64x112x112, .f32⟩
  | 16 => ⟨S8x64x112x112, .f32⟩
  | 17 => ⟨S_, .f32⟩
  | 18 => ⟨S8x112x112, .f32⟩
  | 19 => ⟨S8x64x112x112, .f32⟩
  | 20 => ⟨S8x64x112x112, .f32⟩
  | 21 => ⟨S_, .f32⟩
  | 22 => ⟨S8x112x112, .f32⟩
  | 23 => ⟨S8x64x112x112, .f32⟩
  | 24 => ⟨S8x64x112x112, .f32⟩
  | 25 => ⟨S_, .f32⟩
  | 26 => ⟨S8x112x112, .f32⟩
  | 27 => ⟨S8x64x112x112, .f32⟩
  | 28 => ⟨S8x64x112x112, .f32⟩
  | 29 => ⟨S_, .f32⟩
  | 30 => ⟨S8x112x112, .f32⟩
  | 31 => ⟨S8x1x112x112, .f32⟩
  | 32 => ⟨S8x1x112x112, .f32⟩
  | 33 => ⟨S8x1x112x112, .f32⟩
  | 34 => ⟨S8x1x112x112, .f32⟩
  | 35 => ⟨S8x1x112x112, .f32⟩
  | 36 => ⟨S8x1x112x112, .f32⟩
  | 37 => ⟨S8x1x112x112, .f32⟩
  | 38 => ⟨S8x1x112x112, .f32⟩
  | 39 => ⟨S8x1x112x112, .f32⟩
  | 40 => ⟨S8x9x112x112, .f32⟩
  | 41 => ⟨S8x1x9x112x112, .f32⟩
  | 42 => ⟨S8x1x9x112x112, .f32⟩
  | 43 => ⟨S8x1x9x112x112, .f32⟩
  | 44 => ⟨S8x1x9x112x112, .f32⟩
  | 45 => ⟨S8x1x9x112x112, .f32⟩
  | 46 => ⟨S8x1x9x112x112, .f32⟩
  | 47 => ⟨S8x1x9x112x112, .f32⟩
  | 48 => ⟨S8x1x9x112x112, .f32⟩
  | 49 => ⟨S8x1x9x112x112, .f32⟩
  | 50 => ⟨S8x9x9x112x112, .f32⟩
  | 51 => ⟨S_, .i32⟩
  | 52 => ⟨S_, .f32⟩
  | 53 => ⟨S8x128x64x64, .f32⟩
  | 54 => ⟨S8x128x56x56, .f32⟩
  | 55 => ⟨S8x128x56x56, .f32⟩
  | 56 => ⟨S_, .f32⟩
  | 57 => ⟨S8x56x56, .f32⟩
  | 58 => ⟨S8x128x56x56, .f32⟩
  | 59 => ⟨S8x128x56x56, .f32⟩
  | 60 => ⟨S_, .f32⟩
  | 61 => ⟨S8x56x56, .f32⟩
  | 62 => ⟨S8x128x56x56, .f32⟩
  | 63 => ⟨S8x128x56x56, .f32⟩
  | 64 => ⟨S_, .f32⟩
  | 65 => ⟨S8x56x56, .f32⟩
  | 66 => ⟨S8x128x56x56, .f32⟩
  | 67 => ⟨S8x128x56x56, .f32⟩
  | 68 => ⟨S_, .f32⟩
  | 69 => ⟨S8x56x56, .f32⟩
  | 70 => ⟨S8x128x56x56, .f32⟩
  | 71 => ⟨S8x128x56x56, .f32⟩
  | 72 => ⟨S_, .f32⟩
  | 73 => ⟨S8x56x56, .f32⟩
  | 74 => ⟨S8x128x56x56, .f32⟩
  | 75 => ⟨S8x128x56x56, .f32⟩
  | 76 => ⟨S_, .f32⟩
  | 77 => ⟨S8x56x56, .f32⟩
  | 78 => ⟨S8x128x56x56, .f32⟩
  | 79 => ⟨S8x128x56x56, .f32⟩
  | 80 => ⟨S_, .f32⟩
  | 81 => ⟨S8x56x56, .f32⟩
  | 82 => ⟨S8x128x56x56, .f32⟩
  | 83 => ⟨S8x128x56x56, .f32⟩
  | 84 => ⟨S_, .f32⟩
  | 85 => ⟨S8x56x56, .f32⟩
  | 86 => ⟨S8x128x56x56, .f32⟩
  | 87 => ⟨S8x128x56x56, .f32⟩
  | 88 => ⟨S_, .f32⟩
  | 89 => ⟨S8x56x56, .f32⟩
  | 90 => ⟨S8x1x56x56, .f32⟩
  | 91 => ⟨S8x1x56x56, .f32⟩
  | 92 => ⟨S8x1x56x56, .f32⟩
  | 93 => ⟨S8x1x56x56, .f32⟩
  | 94 => ⟨S8x1x56x56, .f32⟩
  | 95 => ⟨S8x1x56x56, .f32⟩
  | 96 => ⟨S8x1x56x56, .f32⟩
  | 97 => ⟨S8x1x56x56, .f32⟩
  | 98 => ⟨S8x1x56x56, .f32⟩
  | 99 => ⟨S8x9x56x56, .f32⟩
  | 100 => ⟨S8x128x56x56, .f32⟩
  | 101 => ⟨S8x128x56x56, .f32⟩
  | 102 => ⟨S_, .f32⟩
  | 103 => ⟨S8x56x56, .f32⟩
  | 104 => ⟨S8x128x56x56, .f32⟩
  | 105 => ⟨S8x128x56x56, .f32⟩
  | 106 => ⟨S_, .f32⟩
  | 107 => ⟨S8x56x56, .f32⟩
  | 108 => ⟨S8x128x56x56, .f32⟩
  | 109 => ⟨S8x128x56x56, .f32⟩
  | 110 => ⟨S_, .f32⟩
  | 111 => ⟨S8x56x56, .f32⟩
  | 112 => ⟨S8x128x56x56, .f32⟩
  | 113 => ⟨S8x128x56x56, .f32⟩
  | 114 => ⟨S_, .f32⟩
  | 115 => ⟨S8x56x56, .f32⟩
  | 116 => ⟨S8x128x56x56, .f32⟩
  | 117 => ⟨S8x128x56x56, .f32⟩
  | 118 => ⟨S_, .f32⟩
  | 119 => ⟨S8x56x56, .f32⟩
  | 120 => ⟨S8x128x56x56, .f32⟩
  | 121 => ⟨S8x128x56x56, .f32⟩
  | 122 => ⟨S_, .f32⟩
  | 123 => ⟨S8x56x56, .f32⟩
  | 124 => ⟨S8x128x56x56, .f32⟩
  | 125 => ⟨S8x128x56x56, .f32⟩
  | 126 => ⟨S_, .f32⟩
  | 127 => ⟨S8x56x56, .f32⟩
  | _ => ⟨S8x64x112x112, .f32⟩

abbrev hbmTy0_4 (i : Nat) : BufTy := match i % 128 with
  | 0 => ⟨S8x128x56x56, .f32⟩
  | 1 => ⟨S8x128x56x56, .f32⟩
  | 2 => ⟨S_, .f32⟩
  | 3 => ⟨S8x56x56, .f32⟩
  | 4 => ⟨S8x128x56x56, .f32⟩
  | 5 => ⟨S8x128x56x56, .f32⟩
  | 6 => ⟨S_, .f32⟩
  | 7 => ⟨S8x56x56, .f32⟩
  | 8 => ⟨S8x1x56x56, .f32⟩
  | 9 => ⟨S8x1x56x56, .f32⟩
  | 10 => ⟨S8x1x56x56, .f32⟩
  | 11 => ⟨S8x1x56x56, .f32⟩
  | 12 => ⟨S8x1x56x56, .f32⟩
  | 13 => ⟨S8x1x56x56, .f32⟩
  | 14 => ⟨S8x1x56x56, .f32⟩
  | 15 => ⟨S8x1x56x56, .f32⟩
  | 16 => ⟨S8x1x56x56, .f32⟩
  | 17 => ⟨S8x9x56x56, .f32⟩
  | 18 => ⟨S8x128x56x56, .f32⟩
  | 19 => ⟨S8x128x56x56, .f32⟩
  | 20 => ⟨S_, .f32⟩
  | 21 => ⟨S8x56x56, .f32⟩
  | 22 => ⟨S8x128x56x56, .f32⟩
  | 23 => ⟨S8x128x56x56, .f32⟩
  | 24 => ⟨S_, .f32⟩
  | 25 => ⟨S8x56x56, .f32⟩
  | 26 => ⟨S8x128x56x56, .f32⟩
  | 27 => ⟨S8x128x56x56, .f32⟩
  | 28 => ⟨S_, .f32⟩
  | 29 => ⟨S8x56x56, .f32⟩
  | 30 => ⟨S8x128x56x56, .f32⟩
  | 31 => ⟨S8x128x56x56, .f32⟩
  | 32 => ⟨S_, .f32⟩
  | 33 => ⟨S8x56x56, .f32⟩
  | 34 => ⟨S8x128x56x56, .f32⟩
  | 35 => ⟨S8x128x56x56, .f32⟩
  | 36 => ⟨S_, .f32⟩
  | 37 => ⟨S8x56x56, .f32⟩
  | 38 => ⟨S8x128x56x56, .f32⟩
  | 39 => ⟨S8x128x56x56, .f32⟩
  | 40 => ⟨S_, .f32⟩
  | 41 => ⟨S8x56x56, .f32⟩
  | 42 => ⟨S8x128x56x56, .f32⟩
  | 43 => ⟨S8x128x56x56, .f32⟩
  | 44 => ⟨S_, .f32⟩
  | 45 => ⟨S8x56x56, .f32⟩
  | 46 => ⟨S8x128x56x56, .f32⟩
  | 47 => ⟨S8x128x56x56, .f32⟩
  | 48 => ⟨S_, .f32⟩
  | 49 => ⟨S8x56x56, .f32⟩
  | 50 => ⟨S8x128x56x56, .f32⟩
  | 51 => ⟨S8x128x56x56, .f32⟩
  | 52 => ⟨S_, .f32⟩
  | 53 => ⟨S8x56x56, .f32⟩
  | 54 => ⟨S8x1x56x56, .f32⟩
  | 55 => ⟨S8x1x56x56, .f32⟩
  | 56 => ⟨S8x1x56x56, .f32⟩
  | 57 => ⟨S8x1x56x56, .f32⟩
  | 58 => ⟨S8x1x56x56, .f32⟩
  | 59 => ⟨S8x1x56x56, .f32⟩
  | 60 => ⟨S8x1x56x56, .f32⟩
  | 61 => ⟨S8x1x56x56, .f32⟩
  | 62 => ⟨S8x1x56x56, .f32⟩
  | 63 => ⟨S8x9x56x56, .f32⟩
  | 64 => ⟨S8x128x56x56, .f32⟩
  | 65 => ⟨S8x128x56x56, .f32⟩
  | 66 => ⟨S_, .f32⟩
  | 67 => ⟨S8x56x56, .f32⟩
  | 68 => ⟨S8x128x56x56, .f32⟩
  | 69 => ⟨S8x128x56x56, .f32⟩
  | 70 => ⟨S_, .f32⟩
  | 71 => ⟨S8x56x56, .f32⟩
  | 72 => ⟨S8x128x56x56, .f32⟩
  | 73 => ⟨S8x128x56x56, .f32⟩
  | 74 => ⟨S_, .f32⟩
  | 75 => ⟨S8x56x56, .f32⟩
  | 76 => ⟨S8x128x56x56, .f32⟩
  | 77 => ⟨S8x128x56x56, .f32⟩
  | 78 => ⟨S_, .f32⟩
  | 79 => ⟨S8x56x56, .f32⟩
  | 80 => ⟨S8x128x56x56, .f32⟩
  | 81 => ⟨S8x128x56x56, .f32⟩
  | 82 => ⟨S_, .f32⟩
  | 83 => ⟨S8x56x56, .f32⟩
  | 84 => ⟨S8x128x56x56, .f32⟩
  | 85 => ⟨S8x128x56x56, .f32⟩
  | 86 => ⟨S_, .f32⟩
  | 87 => ⟨S8x56x56, .f32⟩
  | 88 => ⟨S8x128x56x56, .f32⟩
  | 89 => ⟨S8x128x56x56, .f32⟩
  | 90 => ⟨S_, .f32⟩
  | 91 => ⟨S8x56x56, .f32⟩
  | 92 => ⟨S8x128x56x56, .f32⟩
  | 93 => ⟨S8x128x56x56, .f32⟩
  | 94 => ⟨S_, .f32⟩
  | 95 => ⟨S8x56x56, .f32⟩
  | 96 => ⟨S8x128x56x56, .f32⟩
  | 97 => ⟨S8x128x56x56, .f32⟩
  | 98 => ⟨S_, .f32⟩
  | 99 => ⟨S8x56x56, .f32⟩
  | 100 => ⟨S8x1x56x56, .f32⟩
  | 101 => ⟨S8x1x56x56, .f32⟩
  | 102 => ⟨S8x1x56x56, .f32⟩
  | 103 => ⟨S8x1x56x56, .f32⟩
  | 104 => ⟨S8x1x56x56, .f32⟩
  | 105 => ⟨S8x1x56x56, .f32⟩
  | 106 => ⟨S8x1x56x56, .f32⟩
  | 107 => ⟨S8x1x56x56, .f32⟩
  | 108 => ⟨S8x1x56x56, .f32⟩
  | 109 => ⟨S8x9x56x56, .f32⟩
  | 110 => ⟨S8x128x56x56, .f32⟩
  | 111 => ⟨S8x128x56x56, .f32⟩
  | 112 => ⟨S_, .f32⟩
  | 113 => ⟨S8x56x56, .f32⟩
  | 114 => ⟨S8x128x56x56, .f32⟩
  | 115 => ⟨S8x128x56x56, .f32⟩
  | 116 => ⟨S_, .f32⟩
  | 117 => ⟨S8x56x56, .f32⟩
  | 118 => ⟨S8x128x56x56, .f32⟩
  | 119 => ⟨S8x128x56x56, .f32⟩
  | 120 => ⟨S_, .f32⟩
  | 121 => ⟨S8x56x56, .f32⟩
  | 122 => ⟨S8x128x56x56, .f32⟩
  | 123 => ⟨S8x128x56x56, .f32⟩
  | 124 => ⟨S_, .f32⟩
  | 125 => ⟨S8x56x56, .f32⟩
  | 126 => ⟨S8x128x56x56, .f32⟩
  | 127 => ⟨S8x128x56x56, .f32⟩
  | _ => ⟨S8x64x112x112, .f32⟩

abbrev hbmTy0_5 (i : Nat) : BufTy := match i % 128 with
  | 0 => ⟨S_, .f32⟩
  | 1 => ⟨S8x56x56, .f32⟩
  | 2 => ⟨S8x128x56x56, .f32⟩
  | 3 => ⟨S8x128x56x56, .f32⟩
  | 4 => ⟨S_, .f32⟩
  | 5 => ⟨S8x56x56, .f32⟩
  | 6 => ⟨S8x128x56x56, .f32⟩
  | 7 => ⟨S8x128x56x56, .f32⟩
  | 8 => ⟨S_, .f32⟩
  | 9 => ⟨S8x56x56, .f32⟩
  | 10 => ⟨S8x128x56x56, .f32⟩
  | 11 => ⟨S8x128x56x56, .f32⟩
  | 12 => ⟨S_, .f32⟩
  | 13 => ⟨S8x56x56, .f32⟩
  | 14 => ⟨S8x128x56x56, .f32⟩
  | 15 => ⟨S8x128x56x56, .f32⟩
  | 16 => ⟨S_, .f32⟩
  | 17 => ⟨S8x56x56, .f32⟩
  | 18 => ⟨S8x1x56x56, .f32⟩
  | 19 => ⟨S8x1x56x56, .f32⟩
  | 20 => ⟨S8x1x56x56, .f32⟩
  | 21 => ⟨S8x1x56x56, .f32⟩
  | 22 => ⟨S8x1x56x56, .f32⟩
  | 23 => ⟨S8x1x56x56, .f32⟩
  | 24 => ⟨S8x1x56x56, .f32⟩
  | 25 => ⟨S8x1x56x56, .f32⟩
  | 26 => ⟨S8x1x56x56, .f32⟩
  | 27 => ⟨S8x9x56x56, .f32⟩
  | 28 => ⟨S8x128x56x56, .f32⟩
  | 29 => ⟨S8x128x56x56, .f32⟩
  | 30 => ⟨S_, .f32⟩
  | 31 => ⟨S8x56x56, .f32⟩
  | 32 => ⟨S8x128x56x56, .f32⟩
  | 33 => ⟨S8x128x56x56, .f32⟩
  | 34 => ⟨S_, .f32⟩
  | 35 => ⟨S8x56x56, .f32⟩
  | 36 => ⟨S8x128x56x56, .f32⟩
  | 37 => ⟨S8x128x56x56, .f32⟩
  | 38 => ⟨S_, .f32⟩
  | 39 => ⟨S8x56x56, .f32⟩
  | 40 => ⟨S8x128x56x56, .f32⟩
  | 41 => ⟨S8x128x56x56, .f32⟩
  | 42 => ⟨S_, .f32⟩
  | 43 => ⟨S8x56x56, .f32⟩
  | 44 => ⟨S8x128x56x56, .f32⟩
  | 45 => ⟨S8x128x56x56, .f32⟩
  | 46 => ⟨S_, .f32⟩
  | 47 => ⟨S8x56x56, .f32⟩
  | 48 => ⟨S8x128x56x56, .f32⟩
  | 49 => ⟨S8x128x56x56, .f32⟩
  | 50 => ⟨S_, .f32⟩
  | 51 => ⟨S8x56x56, .f32⟩
  | 52 => ⟨S8x128x56x56, .f32⟩
  | 53 => ⟨S8x128x56x56, .f32⟩
  | 54 => ⟨S_, .f32⟩
  | 55 => ⟨S8x56x56, .f32⟩
  | 56 => ⟨S8x128x56x56, .f32⟩
  | 57 => ⟨S8x128x56x56, .f32⟩
  | 58 => ⟨S_, .f32⟩
  | 59 => ⟨S8x56x56, .f32⟩
  | 60 => ⟨S8x128x56x56, .f32⟩
  | 61 => ⟨S8x128x56x56, .f32⟩
  | 62 => ⟨S_, .f32⟩
  | 63 => ⟨S8x56x56, .f32⟩
  | 64 => ⟨S8x1x56x56, .f32⟩
  | 65 => ⟨S8x1x56x56, .f32⟩
  | 66 => ⟨S8x1x56x56, .f32⟩
  | 67 => ⟨S8x1x56x56, .f32⟩
  | 68 => ⟨S8x1x56x56, .f32⟩
  | 69 => ⟨S8x1x56x56, .f32⟩
  | 70 => ⟨S8x1x56x56, .f32⟩
  | 71 => ⟨S8x1x56x56, .f32⟩
  | 72 => ⟨S8x1x56x56, .f32⟩
  | 73 => ⟨S8x9x56x56, .f32⟩
  | 74 => ⟨S8x128x56x56, .f32⟩
  | 75 => ⟨S8x128x56x56, .f32⟩
  | 76 => ⟨S_, .f32⟩
  | 77 => ⟨S8x56x56, .f32⟩
  | 78 => ⟨S8x128x56x56, .f32⟩
  | 79 => ⟨S8x128x56x56, .f32⟩
  | 80 => ⟨S_, .f32⟩
  | 81 => ⟨S8x56x56, .f32⟩
  | 82 => ⟨S8x128x56x56, .f32⟩
  | 83 => ⟨S8x128x56x56, .f32⟩
  | 84 => ⟨S_, .f32⟩
  | 85 => ⟨S8x56x56, .f32⟩
  | 86 => ⟨S8x128x56x56, .f32⟩
  | 87 => ⟨S8x128x56x56, .f32⟩
  | 88 => ⟨S_, .f32⟩
  | 89 => ⟨S8x56x56, .f32⟩
  | 90 => ⟨S8x128x56x56, .f32⟩
  | 91 => ⟨S8x128x56x56, .f32⟩
  | 92 => ⟨S_, .f32⟩
  | 93 => ⟨S8x56x56, .f32⟩
  | 94 => ⟨S8x128x56x56, .f32⟩
  | 95 => ⟨S8x128x56x56, .f32⟩
  | 96 => ⟨S_, .f32⟩
  | 97 => ⟨S8x56x56, .f32⟩
  | 98 => ⟨S8x128x56x56, .f32⟩
  | 99 => ⟨S8x128x56x56, .f32⟩
  | 100 => ⟨S_, .f32⟩
  | 101 => ⟨S8x56x56, .f32⟩
  | 102 => ⟨S8x128x56x56, .f32⟩
  | 103 => ⟨S8x128x56x56, .f32⟩
  | 104 => ⟨S_, .f32⟩
  | 105 => ⟨S8x56x56, .f32⟩
  | 106 => ⟨S8x128x56x56, .f32⟩
  | 107 => ⟨S8x128x56x56, .f32⟩
  | 108 => ⟨S_, .f32⟩
  | 109 => ⟨S8x56x56, .f32⟩
  | 110 => ⟨S8x1x56x56, .f32⟩
  | 111 => ⟨S8x1x56x56, .f32⟩
  | 112 => ⟨S8x1x56x56, .f32⟩
  | 113 => ⟨S8x1x56x56, .f32⟩
  | 114 => ⟨S8x1x56x56, .f32⟩
  | 115 => ⟨S8x1x56x56, .f32⟩
  | 116 => ⟨S8x1x56x56, .f32⟩
  | 117 => ⟨S8x1x56x56, .f32⟩
  | 118 => ⟨S8x1x56x56, .f32⟩
  | 119 => ⟨S8x9x56x56, .f32⟩
  | 120 => ⟨S8x128x56x56, .f32⟩
  | 121 => ⟨S8x128x56x56, .f32⟩
  | 122 => ⟨S_, .f32⟩
  | 123 => ⟨S8x56x56, .f32⟩
  | 124 => ⟨S8x128x56x56, .f32⟩
  | 125 => ⟨S8x128x56x56, .f32⟩
  | 126 => ⟨S_, .f32⟩
  | 127 => ⟨S8x56x56, .f32⟩
  | _ => ⟨S8x64x112x112, .f32⟩

abbrev hbmTy0_6 (i : Nat) : BufTy := match i % 128 with
  | 0 => ⟨S8x128x56x56, .f32⟩
  | 1 => ⟨S8x128x56x56, .f32⟩
  | 2 => ⟨S_, .f32⟩
  | 3 => ⟨S8x56x56, .f32⟩
  | 4 => ⟨S8x128x56x56, .f32⟩
  | 5 => ⟨S8x128x56x56, .f32⟩
  | 6 => ⟨S_, .f32⟩
  | 7 => ⟨S8x56x56, .f32⟩
  | 8 => ⟨S8x128x56x56, .f32⟩
  | 9 => ⟨S8x128x56x56, .f32⟩
  | 10 => ⟨S_, .f32⟩
  | 11 => ⟨S8x56x56, .f32⟩
  | 12 => ⟨S8x128x56x56, .f32⟩
  | 13 => ⟨S8x128x56x56, .f32⟩
  | 14 => ⟨S_, .f32⟩
  | 15 => ⟨S8x56x56, .f32⟩
  | 16 => ⟨S8x128x56x56, .f32⟩
  | 17 => ⟨S8x128x56x56, .f32⟩
  | 18 => ⟨S_, .f32⟩
  | 19 => ⟨S8x56x56, .f32⟩
  | 20 => ⟨S8x128x56x56, .f32⟩
  | 21 => ⟨S8x128x56x56, .f32⟩
  | 22 => ⟨S_, .f32⟩
  | 23 => ⟨S8x56x56, .f32⟩
  | 24 => ⟨S8x128x56x56, .f32⟩
  | 25 => ⟨S8x128x56x56, .f32⟩
  | 26 => ⟨S_, .f32⟩
  | 27 => ⟨S8x56x56, .f32⟩
  | 28 => ⟨S8x1x56x56, .f32⟩
  | 29 => ⟨S8x1x56x56, .f32⟩
  | 30 => ⟨S8x1x56x56, .f32⟩
  | 31 => ⟨S8x1x56x56, .f32⟩
  | 32 => ⟨S8x1x56x56, .f32⟩
  | 33 => ⟨S8x1x56x56, .f32⟩
  | 34 => ⟨S8x1x56x56, .f32⟩
  | 35 => ⟨S8x1x56x56, .f32⟩
  | 36 => ⟨S8x1x56x56, .f32⟩
  | 37 => ⟨S8x9x56x56, .f32⟩
  | 38 => ⟨S8x128x56x56, .f32⟩
  | 39 => ⟨S8x128x56x56, .f32⟩
  | 40 => ⟨S_, .f32⟩
  | 41 => ⟨S8x56x56, .f32⟩
  | 42 => ⟨S8x128x56x56, .f32⟩
  | 43 => ⟨S8x128x56x56, .f32⟩
  | 44 => ⟨S_, .f32⟩
  | 45 => ⟨S8x56x56, .f32⟩
  | 46 => ⟨S8x128x56x56, .f32⟩
  | 47 => ⟨S8x128x56x56, .f32⟩
  | 48 => ⟨S_, .f32⟩
  | 49 => ⟨S8x56x56, .f32⟩
  | 50 => ⟨S8x128x56x56, .f32⟩
  | 51 => ⟨S8x128x56x56, .f32⟩
  | 52 => ⟨S_, .f32⟩
  | 53 => ⟨S8x56x56, .f32⟩
  | 54 => ⟨S8x128x56x56, .f32⟩
  | 55 => ⟨S8x128x56x56, .f32⟩
  | 56 => ⟨S_, .f32⟩
  | 57 => ⟨S8x56x56, .f32⟩
  | 58 => ⟨S8x128x56x56, .f32⟩
  | 59 => ⟨S8x128x56x56, .f32⟩
  | 60 => ⟨S_, .f32⟩
  | 61 => ⟨S8x56x56, .f32⟩
  | 62 => ⟨S8x128x56x56, .f32⟩
  | 63 => ⟨S8x128x56x56, .f32⟩
  | 64 => ⟨S_, .f32⟩
  | 65 => ⟨S8x56x56, .f32⟩
  | 66 => ⟨S8x128x56x56, .f32⟩
  | 67 => ⟨S8x128x56x56, .f32⟩
  | 68 => ⟨S_, .f32⟩
  | 69 => ⟨S8x56x56, .f32⟩
  | 70 => ⟨S8x128x56x56, .f32⟩
  | 71 => ⟨S8x128x56x56, .f32⟩
  | 72 => ⟨S_, .f32⟩
  | 73 => ⟨S8x56x56, .f32⟩
  | 74 => ⟨S8x1x56x56, .f32⟩
  | 75 => ⟨S8x1x56x56, .f32⟩
  | 76 => ⟨S8x1x56x56, .f32⟩
  | 77 => ⟨S8x1x56x56, .f32⟩
  | 78 => ⟨S8x1x56x56, .f32⟩
  | 79 => ⟨S8x1x56x56, .f32⟩
  | 80 => ⟨S8x1x56x56, .f32⟩
  | 81 => ⟨S8x1x56x56, .f32⟩
  | 82 => ⟨S8x1x56x56, .f32⟩
  | 83 => ⟨S8x9x56x56, .f32⟩
  | 84 => ⟨S8x1x9x56x56, .f32⟩
  | 85 => ⟨S8x1x9x56x56, .f32⟩
  | 86 => ⟨S8x1x9x56x56, .f32⟩
  | 87 => ⟨S8x1x9x56x56, .f32⟩
  | 88 => ⟨S8x1x9x56x56, .f32⟩
  | 89 => ⟨S8x1x9x56x56, .f32⟩
  | 90 => ⟨S8x1x9x56x56, .f32⟩
  | 91 => ⟨S8x1x9x56x56, .f32⟩
  | 92 => ⟨S8x1x9x56x56, .f32⟩
  | 93 => ⟨S8x9x9x56x56, .f32⟩
  | 94 => ⟨S_, .i32⟩
  | 95 => ⟨S_, .f32⟩
  | 96 => ⟨S8x256x36x36, .f32⟩
  | 97 => ⟨S8x256x28x28, .f32⟩
  | 98 => ⟨S8x256x28x28, .f32⟩
  | 99 => ⟨S_, .f32⟩
  | 100 => ⟨S8x28x28, .f32⟩
  | 101 => ⟨S8x256x28x28, .f32⟩
  | 102 => ⟨S8x256x28x28, .f32⟩
  | 103 => ⟨S_, .f32⟩
  | 104 => ⟨S8x28x28, .f32⟩
  | 105 => ⟨S8x256x28x28, .f32⟩
  | 106 => ⟨S8x256x28x28, .f32⟩
  | 107 => ⟨S_, .f32⟩
  | 108 => ⟨S8x28x28, .f32⟩
  | 109 => ⟨S8x256x28x28, .f32⟩
  | 110 => ⟨S8x256x28x28, .f32⟩
  | 111 => ⟨S_, .f32⟩
  | 112 => ⟨S8x28x28, .f32⟩
  | 113 => ⟨S8x256x28x28, .f32⟩
  | 114 => ⟨S8x256x28x28, .f32⟩
  | 115 => ⟨S_, .f32⟩
  | 116 => ⟨S8x28x28, .f32⟩
  | 117 => ⟨S8x256x28x28, .f32⟩
  | 118 => ⟨S8x256x28x28, .f32⟩
  | 119 => ⟨S_, .f32⟩
  | 120 => ⟨S8x28x28, .f32⟩
  | 121 => ⟨S8x256x28x28, .f32⟩
  | 122 => ⟨S8x256x28x28, .f32⟩
  | 123 => ⟨S_, .f32⟩
  | 124 => ⟨S8x28x28, .f32⟩
  | 125 => ⟨S8x256x28x28, .f32⟩
  | 126 => ⟨S8x256x28x28, .f32⟩
  | 127 => ⟨S_, .f32⟩
  | _ => ⟨S8x64x112x112, .f32⟩

abbrev hbmTy0_7 (i : Nat) : BufTy := match i % 128 with
  | 0 => ⟨S8x28x28, .f32⟩
  | 1 => ⟨S8x256x28x28, .f32⟩
  | 2 => ⟨S8x256x28x28, .f32⟩
  | 3 => ⟨S_, .f32⟩
  | 4 => ⟨S8x28x28, .f32⟩
  | 5 => ⟨S8x1x28x28, .f32⟩
  | 6 => ⟨S8x1x28x28, .f32⟩
  | 7 => ⟨S8x1x28x28, .f32⟩
  | 8 => ⟨S8x1x28x28, .f32⟩
  | 9 => ⟨S8x1x28x28, .f32⟩
  | 10 => ⟨S8x1x28x28, .f32⟩
  | 11 => ⟨S8x1x28x28, .f32⟩
  | 12 => ⟨S8x1x28x28, .f32⟩
  | 13 => ⟨S8x1x28x28, .f32⟩
  | 14 => ⟨S8x9x28x28, .f32⟩
  | 15 => ⟨S8x256x28x28, .f32⟩
  | 16 => ⟨S8x256x28x28, .f32⟩
  | 17 => ⟨S_, .f32⟩
  | 18 => ⟨S8x28x28, .f32⟩
  | 19 => ⟨S8x256x28x28, .f32⟩
  | 20 => ⟨S8x256x28x28, .f32⟩
  | 21 => ⟨S_, .f32⟩
  | 22 => ⟨S8x28x28, .f32⟩
  | 23 => ⟨S8x256x28x28, .f32⟩
  | 24 => ⟨S8x256x28x28, .f32⟩
  | 25 => ⟨S_, .f32⟩
  | 26 => ⟨S8x28x28, .f32⟩
  | 27 => ⟨S8x256x28x28, .f32⟩
  | 28 => ⟨S8x256x28x28, .f32⟩
  | 29 => ⟨S_, .f32⟩
  | 30 => ⟨S8x28x28, .f32⟩
  | 31 => ⟨S8x256x28x28, .f32⟩
  | 32 => ⟨S8x256x28x28, .f32⟩
  | 33 => ⟨S_, .f32⟩
  | 34 => ⟨S8x28x28, .f32⟩
  | 35 => ⟨S8x256x28x28, .f32⟩
  | 36 => ⟨S8x256x28x28, .f32⟩
  | 37 => ⟨S_, .f32⟩
  | 38 => ⟨S8x28x28, .f32⟩
  | 39 => ⟨S8x256x28x28, .f32⟩
  | 40 => ⟨S8x256x28x28, .f32⟩
  | 41 => ⟨S_, .f32⟩
  | 42 => ⟨S8x28x28, .f32⟩
  | 43 => ⟨S8x256x28x28, .f32⟩
  | 44 => ⟨S8x256x28x28, .f32⟩
  | 45 => ⟨S_, .f32⟩
  | 46 => ⟨S8x28x28, .f32⟩
  | 47 => ⟨S8x256x28x28, .f32⟩
  | 48 => ⟨S8x256x28x28, .f32⟩
  | 49 => ⟨S_, .f32⟩
  | 50 => ⟨S8x28x28, .f32⟩
  | 51 => ⟨S8x1x28x28, .f32⟩
  | 52 => ⟨S8x1x28x28, .f32⟩
  | 53 => ⟨S8x1x28x28, .f32⟩
  | 54 => ⟨S8x1x28x28, .f32⟩
  | 55 => ⟨S8x1x28x28, .f32⟩
  | 56 => ⟨S8x1x28x28, .f32⟩
  | 57 => ⟨S8x1x28x28, .f32⟩
  | 58 => ⟨S8x1x28x28, .f32⟩
  | 59 => ⟨S8x1x28x28, .f32⟩
  | 60 => ⟨S8x9x28x28, .f32⟩
  | 61 => ⟨S8x256x28x28, .f32⟩
  | 62 => ⟨S8x256x28x28, .f32⟩
  | 63 => ⟨S_, .f32⟩
  | 64 => ⟨S8x28x28, .f32⟩
  | 65 => ⟨S8x256x28x28, .f32⟩
  | 66 => ⟨S8x256x28x28, .f32⟩
  | 67 => ⟨S_, .f32⟩
  | 68 => ⟨S8x28x28, .f32⟩
  | 69 => ⟨S8x256x28x28, .f32⟩
  | 70 => ⟨S8x256x28x28, .f32⟩
  | 71 => ⟨S_, .f32⟩
  | 72 => ⟨S8x28x28, .f32⟩
  | 73 => ⟨S8x256x28x28, .f32⟩
  | 74 => ⟨S8x256x28x28, .f32⟩
  | 75 => ⟨S_, .f32⟩
  | 76 => ⟨S8x28x28, .f32⟩
  | 77 => ⟨S8x256x28x28, .f32⟩
  | 78 => ⟨S8x256x28x28, .f32⟩
  | 79 => ⟨S_, .f32⟩
  | 80 => ⟨S8x28x28, .f32⟩
  | 81 => ⟨S8x256x28x28, .f32⟩
  | 82 => ⟨S8x256x28x28, .f32⟩
  | 83 => ⟨S_, .f32⟩
  | 84 => ⟨S8x28x28, .f32⟩
  | 85 => ⟨S8x256x28x28, .f32⟩
  | 86 => ⟨S8x256x28x28, .f32⟩
  | 87 => ⟨S_, .f32⟩
  | 88 => ⟨S8x28x28, .f32⟩
  | 89 => ⟨S8x256x28x28, .f32⟩
  | 90 => ⟨S8x256x28x28, .f32⟩
  | 91 => ⟨S_, .f32⟩
  | 92 => ⟨S8x28x28, .f32⟩
  | 93 => ⟨S8x256x28x28, .f32⟩
  | 94 => ⟨S8x256x28x28, .f32⟩
  | 95 => ⟨S_, .f32⟩
  | 96 => ⟨S8x28x28, .f32⟩
  | 97 => ⟨S8x1x28x28, .f32⟩
  | 98 => ⟨S8x1x28x28, .f32⟩
  | 99 => ⟨S8x1x28x28, .f32⟩
  | 100 => ⟨S8x1x28x28, .f32⟩
  | 101 => ⟨S8x1x28x28, .f32⟩
  | 102 => ⟨S8x1x28x28, .f32⟩
  | 103 => ⟨S8x1x28x28, .f32⟩
  | 104 => ⟨S8x1x28x28, .f32⟩
  | 105 => ⟨S8x1x28x28, .f32⟩
  | 106 => ⟨S8x9x28x28, .f32⟩
  | 107 => ⟨S8x256x28x28, .f32⟩
  | 108 => ⟨S8x256x28x28, .f32⟩
  | 109 => ⟨S_, .f32⟩
  | 110 => ⟨S8x28x28, .f32⟩
  | 111 => ⟨S8x256x28x28, .f32⟩
  | 112 => ⟨S8x256x28x28, .f32⟩
  | 113 => ⟨S_, .f32⟩
  | 114 => ⟨S8x28x28, .f32⟩
  | 115 => ⟨S8x256x28x28, .f32⟩
  | 116 => ⟨S8x256x28x28, .f32⟩
  | 117 => ⟨S_, .f32⟩
  | 118 => ⟨S8x28x28, .f32⟩
  | 119 => ⟨S8x256x28x28, .f32⟩
  | 120 => ⟨S8x256x28x28, .f32⟩
  | 121 => ⟨S_, .f32⟩
  | 122 => ⟨S8x28x28, .f32⟩
  | 123 => ⟨S8x256x28x28, .f32⟩
  | 124 => ⟨S8x256x28x28, .f32⟩
  | 125 => ⟨S_, .f32⟩
  | 126 => ⟨S8x28x28, .f32⟩
  | 127 => ⟨S8x256x28x28, .f32⟩
  | _ => ⟨S8x64x112x112, .f32⟩

abbrev hbmTy0_8 (i : Nat) : BufTy := match i % 128 with
  | 0 => ⟨S8x256x28x28, .f32⟩
  | 1 => ⟨S_, .f32⟩
  | 2 => ⟨S8x28x28, .f32⟩
  | 3 => ⟨S8x256x28x28, .f32⟩
  | 4 => ⟨S8x256x28x28, .f32⟩
  | 5 => ⟨S_, .f32⟩
  | 6 => ⟨S8x28x28, .f32⟩
  | 7 => ⟨S8x256x28x28, .f32⟩
  | 8 => ⟨S8x256x28x28, .f32⟩
  | 9 => ⟨S_, .f32⟩
  | 10 => ⟨S8x28x28, .f32⟩
  | 11 => ⟨S8x256x28x28, .f32⟩
  | 12 => ⟨S8x256x28x28, .f32⟩
  | 13 => ⟨S_, .f32⟩
  | 14 => ⟨S8x28x28, .f32⟩
  | 15 => ⟨S8x1x28x28, .f32⟩
  | 16 => ⟨S8x1x28x28, .f32⟩
  | 17 => ⟨S8x1x28x28, .f32⟩
  | 18 => ⟨S8x1x28x28, .f32⟩
  | 19 => ⟨S8x1x28x28, .f32⟩
  | 20 => ⟨S8x1x28x28, .f32⟩
  | 21 => ⟨S8x1x28x28, .f32⟩
  | 22 => ⟨S8x1x28x28, .f32⟩
  | 23 => ⟨S8x1x28x28, .f32⟩
  | 24 => ⟨S8x9x28x28, .f32⟩
  | 25 => ⟨S8x256x28x28, .f32⟩
  | 26 => ⟨S8x256x28x28, .f32⟩
  | 27 => ⟨S_, .f32⟩
  | 28 => ⟨S8x28x28, .f32⟩
  | 29 => ⟨S8x256x28x28, .f32⟩
  | 30 => ⟨S8x256x28x28, .f32⟩
  | 31 => ⟨S_, .f32⟩
  | 32 => ⟨S8x28x28, .f32⟩
  | 33 => ⟨S8x256x28x28, .f32⟩
  | 34 => ⟨S8x256x28x28, .f32⟩
  | 35 => ⟨S_, .f32⟩
  | 36 => ⟨S8x28x28, .f32⟩
  | 37 => ⟨S8x256x28x28, .f32⟩
  | 38 => ⟨S8x256x28x28, .f32⟩
  | 39 => ⟨S_, .f32⟩
  | 40 => ⟨S8x28x28, .f32⟩
  | 41 => ⟨S8x256x28x28, .f32⟩
  | 42 => ⟨S8x256x28x28, .f32⟩
  | 43 => ⟨S_, .f32⟩
  | 44 => ⟨S8x28x28, .f32⟩
  | 45 => ⟨S8x256x28x28, .f32⟩
  | 46 => ⟨S8x256x28x28, .f32⟩
  | 47 => ⟨S_, .f32⟩
  | 48 => ⟨S8x28x28, .f32⟩
  | 49 => ⟨S8x256x28x28, .f32⟩
  | 50 => ⟨S8x256x28x28, .f32⟩
  | 51 => ⟨S_, .f32⟩
  | 52 => ⟨S8x28x28, .f32⟩
  | 53 => ⟨S8x256x28x28, .f32⟩
  | 54 => ⟨S8x256x28x28, .f32⟩
  | 55 => ⟨S_, .f32⟩
  | 56 => ⟨S8x28x28, .f32⟩
  | 57 => ⟨S8x256x28x28, .f32⟩
  | 58 => ⟨S8x256x28x28, .f32⟩
  | 59 => ⟨S_, .f32⟩
  | 60 => ⟨S8x28x28, .f32⟩
  | 61 => ⟨S8x1x28x28, .f32⟩
  | 62 => ⟨S8x1x28x28, .f32⟩
  | 63 => ⟨S8x1x28x28, .f32⟩
  | 64 => ⟨S8x1x28x28, .f32⟩
  | 65 => ⟨S8x1x28x28, .f32⟩
  | 66 => ⟨S8x1x28x28, .f32⟩
  | 67 => ⟨S8x1x28x28, .f32⟩
  | 68 => ⟨S8x1x28x28, .f32⟩
  | 69 => ⟨S8x1x28x28, .f32⟩
  | 70 => ⟨S8x9x28x28, .f32⟩
  | 71 => ⟨S8x256x28x28, .f32⟩
  | 72 => ⟨S8x256x28x28, .f32⟩
  | 73 => ⟨S_, .f32⟩
  | 74 => ⟨S8x28x28, .f32⟩
  | 75 => ⟨S8x256x28x28, .f32⟩
  | 76 => ⟨S8x256x28x28, .f32⟩
  | 77 => ⟨S_, .f32⟩
  | 78 => ⟨S8x28x28, .f32⟩
  | 79 => ⟨S8x256x28x28, .f32⟩
  | 80 => ⟨S8x256x28x28, .f32⟩
  | 81 => ⟨S_, .f32⟩
  | 82 => ⟨S8x28x28, .f32⟩
  | 83 => ⟨S8x256x28x28, .f32⟩
  | 84 => ⟨S8x256x28x28, .f32⟩
  | 85 => ⟨S_, .f32⟩
  | 86 => ⟨S8x28x28, .f32⟩
  | 87 => ⟨S8x256x28x28, .f32⟩
  | 88 => ⟨S8x256x28x28, .f32⟩
  | 89 => ⟨S_, .f32⟩
  | 90 => ⟨S8x28x28, .f32⟩
  | 91 => ⟨S8x256x28x28, .f32⟩
  | 92 => ⟨S8x256x28x28, .f32⟩
  | 93 => ⟨S_, .f32⟩
  | 94 => ⟨S8x28x28, .f32⟩
  | 95 => ⟨S8x256x28x28, .f32⟩
  | 96 => ⟨S8x256x28x28, .f32⟩
  | 97 => ⟨S_, .f32⟩
  | 98 => ⟨S8x28x28, .f32⟩
  | 99 => ⟨S8x256x28x28, .f32⟩
  | 100 => ⟨S8x256x28x28, .f32⟩
  | 101 => ⟨S_, .f32⟩
  | 102 => ⟨S8x28x28, .f32⟩
  | 103 => ⟨S8x256x28x28, .f32⟩
  | 104 => ⟨S8x256x28x28, .f32⟩
  | 105 => ⟨S_, .f32⟩
  | 106 => ⟨S8x28x28, .f32⟩
  | 107 => ⟨S8x1x28x28, .f32⟩
  | 108 => ⟨S8x1x28x28, .f32⟩
  | 109 => ⟨S8x1x28x28, .f32⟩
  | 110 => ⟨S8x1x28x28, .f32⟩
  | 111 => ⟨S8x1x28x28, .f32⟩
  | 112 => ⟨S8x1x28x28, .f32⟩
  | 113 => ⟨S8x1x28x28, .f32⟩
  | 114 => ⟨S8x1x28x28, .f32⟩
  | 115 => ⟨S8x1x28x28, .f32⟩
  | 116 => ⟨S8x9x28x28, .f32⟩
  | 117 => ⟨S8x256x28x28, .f32⟩
  | 118 => ⟨S8x256x28x28, .f32⟩
  | 119 => ⟨S_, .f32⟩
  | 120 => ⟨S8x28x28, .f32⟩
  | 121 => ⟨S8x256x28x28, .f32⟩
  | 122 => ⟨S8x256x28x28, .f32⟩
  | 123 => ⟨S_, .f32⟩
  | 124 => ⟨S8x28x28, .f32⟩
  | 125 => ⟨S8x256x28x28, .f32⟩
  | 126 => ⟨S8x256x28x28, .f32⟩
  | 127 => ⟨S_, .f32⟩
  | _ => ⟨S8x64x112x112, .f32⟩

abbrev hbmTy0_9 (i : Nat) : BufTy := match i % 128 with
  | 0 => ⟨S8x28x28, .f32⟩
  | 1 => ⟨S8x256x28x28, .f32⟩
  | 2 => ⟨S8x256x28x28, .f32⟩
  | 3 => ⟨S_, .f32⟩
  | 4 => ⟨S8x28x28, .f32⟩
  | 5 => ⟨S8x256x28x28, .f32⟩
  | 6 => ⟨S8x256x28x28, .f32⟩
  | 7 => ⟨S_, .f32⟩
  | 8 => ⟨S8x28x28, .f32⟩
  | 9 => ⟨S8x256x28x28, .f32⟩
  | 10 => ⟨S8x256x28x28, .f32⟩
  | 11 => ⟨S_, .f32⟩
  | 12 => ⟨S8x28x28, .f32⟩
  | 13 => ⟨S8x256x28x28, .f32⟩
  | 14 => ⟨S8x256x28x28, .f32⟩
  | 15 => ⟨S_, .f32⟩
  | 16 => ⟨S8x28x28, .f32⟩
  | 17 => ⟨S8x256x28x28, .f32⟩
  | 18 => ⟨S8x256x28x28, .f32⟩
  | 19 => ⟨S_, .f32⟩
  | 20 => ⟨S8x28x28, .f32⟩
  | 21 => ⟨S8x256x28x28, .f32⟩
  | 22 => ⟨S8x256x28x28, .f32⟩
  | 23 => ⟨S_, .f32⟩
  | 24 => ⟨S8x28x28, .f32⟩
  | 25 => ⟨S8x1x28x28, .f32⟩
  | 26 => ⟨S8x1x28x28, .f32⟩
  | 27 => ⟨S8x1x28x28, .f32⟩
  | 28 => ⟨S8x1x28x28, .f32⟩
  | 29 => ⟨S8x1x28x28, .f32⟩
  | 30 => ⟨S8x1x28x28, .f32⟩
  | 31 => ⟨S8x1x28x28, .f32⟩
  | 32 => ⟨S8x1x28x28, .f32⟩
  | 33 => ⟨S8x1x28x28, .f32⟩
  | 34 => ⟨S8x9x28x28, .f32⟩
  | 35 => ⟨S8x256x28x28, .f32⟩
  | 36 => ⟨S8x256x28x28, .f32⟩
  | 37 => ⟨S_, .f32⟩
  | 38 => ⟨S8x28x28, .f32⟩
  | 39 => ⟨S8x256x28x28, .f32⟩
  | 40 => ⟨S8x256x28x28, .f32⟩
  | 41 => ⟨S_, .f32⟩
  | 42 => ⟨S8x28x28, .f32⟩
  | 43 => ⟨S8x256x28x28, .f32⟩
  | 44 => ⟨S8x256x28x28, .f32⟩
  | 45 => ⟨S_, .f32⟩
  | 46 => ⟨S8x28x28, .f32⟩
  | 47 => ⟨S8x256x28x28, .f32⟩
  | 48 => ⟨S8x256x28x28, .f32⟩
  | 49 => ⟨S_, .f32⟩
  | 50 => ⟨S8x28x28, .f32⟩
  | 51 => ⟨S8x256x28x28, .f32⟩
  | 52 => ⟨S8x256x28x28, .f32⟩
  | 53 => ⟨S_, .f32⟩
  | 54 => ⟨S8x28x28, .f32⟩
  | 55 => ⟨S8x256x28x28, .f32⟩
  | 56 => ⟨S8x256x28x28, .f32⟩
  | 57 => ⟨S_, .f32⟩
  | 58 => ⟨S8x28x28, .f32⟩
  | 59 => ⟨S8x256x28x28, .f32⟩
  | 60 => ⟨S8x256x28x28, .f32⟩
  | 61 => ⟨S_, .f32⟩
  | 62 => ⟨S8x28x28, .f32⟩
  | 63 => ⟨S8x256x28x28, .f32⟩
  | 64 => ⟨S8x256x28x28, .f32⟩
  | 65 => ⟨S_, .f32⟩
  | 66 => ⟨S8x28x28, .f32⟩
  | 67 => ⟨S8x256x28x28, .f32⟩
  | 68 => ⟨S8x256x28x28, .f32⟩
  | 69 => ⟨S_, .f32⟩
  | 70 => ⟨S8x28x28, .f32⟩
  | 71 => ⟨S8x1x28x28, .f32⟩
  | 72 => ⟨S8x1x28x28, .f32⟩
  | 73 => ⟨S8x1x28x28, .f32⟩
  | 74 => ⟨S8x1x28x28, .f32⟩
  | 75 => ⟨S8x1x28x28, .f32⟩
  | 76 => ⟨S8x1x28x28, .f32⟩
  | 77 => ⟨S8x1x28x28, .f32⟩
  | 78 => ⟨S8x1x28x28, .f32⟩
  | 79 => ⟨S8x1x28x28, .f32⟩
  | 80 => ⟨S8x9x28x28, .f32⟩
  | 81 => ⟨S8x256x28x28, .f32⟩
  | 82 => ⟨S8x256x28x28, .f32⟩
  | 83 => ⟨S_, .f32⟩
  | 84 => ⟨S8x28x28, .f32⟩
  | 85 => ⟨S8x256x28x28, .f32⟩
  | 86 => ⟨S8x256x28x28, .f32⟩
  | 87 => ⟨S_, .f32⟩
  | 88 => ⟨S8x28x28, .f32⟩
  | 89 => ⟨S8x256x28x28, .f32⟩
  | 90 => ⟨S8x256x28x28, .f32⟩
  | 91 => ⟨S_, .f32⟩
  | 92 => ⟨S8x28x28, .f32⟩
  | 93 => ⟨S8x256x28x28, .f32⟩
  | 94 => ⟨S8x256x28x28, .f32⟩
  | 95 => ⟨S_, .f32⟩
  | 96 => ⟨S8x28x28, .f32⟩
  | 97 => ⟨S8x256x28x28, .f32⟩
  | 98 => ⟨S8x256x28x28, .f32⟩
  | 99 => ⟨S_, .f32⟩
  | 100 => ⟨S8x28x28, .f32⟩
  | 101 => ⟨S8x256x28x28, .f32⟩
  | 102 => ⟨S8x256x28x28, .f32⟩
  | 103 => ⟨S_, .f32⟩
  | 104 => ⟨S8x28x28, .f32⟩
  | 105 => ⟨S8x256x28x28, .f32⟩
  | 106 => ⟨S8x256x28x28, .f32⟩
  | 107 => ⟨S_, .f32⟩
  | 108 => ⟨S8x28x28, .f32⟩
  | 109 => ⟨S8x256x28x28, .f32⟩
  | 110 => ⟨S8x256x28x28, .f32⟩
  | 111 => ⟨S_, .f32⟩
  | 112 => ⟨S8x28x28, .f32⟩
  | 113 => ⟨S8x256x28x28, .f32⟩
  | 114 => ⟨S8x256x28x28, .f32⟩
  | 115 => ⟨S_, .f32⟩
  | 116 => ⟨S8x28x28, .f32⟩
  | 117 => ⟨S8x1x28x28, .f32⟩
  | 118 => ⟨S8x1x28x28, .f32⟩
  | 119 => ⟨S8x1x28x28, .f32⟩
  | 120 => ⟨S8x1x28x28, .f32⟩
  | 121 => ⟨S8x1x28x28, .f32⟩
  | 122 => ⟨S8x1x28x28, .f32⟩
  | 123 => ⟨S8x1x28x28, .f32⟩
  | 124 => ⟨S8x1x28x28, .f32⟩
  | 125 => ⟨S8x1x28x28, .f32⟩
  | 126 => ⟨S8x9x28x28, .f32⟩
  | 127 => ⟨S8x1x9x28x28, .f32⟩
  | _ => ⟨S8x64x112x112, .f32⟩

abbrev hbmTy0_10 (i : Nat) : BufTy := match i % 128 with
  | 0 => ⟨S8x1x9x28x28, .f32⟩
  | 1 => ⟨S8x1x9x28x28, .f32⟩
  | 2 => ⟨S8x1x9x28x28, .f32⟩
  | 3 => ⟨S8x1x9x28x28, .f32⟩
  | 4 => ⟨S8x1x9x28x28, .f32⟩
  | 5 => ⟨S8x1x9x28x28, .f32⟩
  | 6 => ⟨S8x1x9x28x28, .f32⟩
  | 7 => ⟨S8x1x9x28x28, .f32⟩
  | 8 => ⟨S8x9x9x28x28, .f32⟩
  | 9 => ⟨S_, .i32⟩
  | 10 => ⟨S_, .f32⟩
  | 11 => ⟨S8x512x22x22, .f32⟩
  | 12 => ⟨S8x512x14x14, .f32⟩
  | 13 => ⟨S8x512x14x14, .f32⟩
  | 14 => ⟨S_, .f32⟩
  | 15 => ⟨S8x14x14, .f32⟩
  | 16 => ⟨S8x512x14x14, .f32⟩
  | 17 => ⟨S8x512x14x14, .f32⟩
  | 18 => ⟨S_, .f32⟩
  | 19 => ⟨S8x14x14, .f32⟩
  | 20 => ⟨S8x512x14x14, .f32⟩
  | 21 => ⟨S8x512x14x14, .f32⟩
  | 22 => ⟨S_, .f32⟩
  | 23 => ⟨S8x14x14, .f32⟩
  | 24 => ⟨S8x512x14x14, .f32⟩
  | 25 => ⟨S8x512x14x14, .f32⟩
  | 26 => ⟨S_, .f32⟩
  | 27 => ⟨S8x14x14, .f32⟩
  | 28 => ⟨S8x512x14x14, .f32⟩
  | 29 => ⟨S8x512x14x14, .f32⟩
  | 30 => ⟨S_, .f32⟩
  | 31 => ⟨S8x14x14, .f32⟩
  | 32 => ⟨S8x512x14x14, .f32⟩
  | 33 => ⟨S8x512x14x14, .f32⟩
  | 34 => ⟨S_, .f32⟩
  | 35 => ⟨S8x14x14, .f32⟩
  | 36 => ⟨S8x512x14x14, .f32⟩
  | 37 => ⟨S8x512x14x14, .f32⟩
  | 38 => ⟨S_, .f32⟩
  | 39 => ⟨S8x14x14, .f32⟩
  | 40 => ⟨S8x512x14x14, .f32⟩
  | 41 => ⟨S8x512x14x14, .f32⟩
  | 42 => ⟨S_, .f32⟩
  | 43 => ⟨S8x14x14, .f32⟩
  | 44 => ⟨S8x512x14x14, .f32⟩
  | 45 => ⟨S8x512x14x14, .f32⟩
  | 46 => ⟨S_, .f32⟩
  | 47 => ⟨S8x14x14, .f32⟩
  | 48 => ⟨S8x1x14x14, .f32⟩
  | 49 => ⟨S8x1x14x14, .f32⟩
  | 50 => ⟨S8x1x14x14, .f32⟩
  | 51 => ⟨S8x1x14x14, .f32⟩
  | 52 => ⟨S8x1x14x14, .f32⟩
  | 53 => ⟨S8x1x14x14, .f32⟩
  | 54 => ⟨S8x1x14x14, .f32⟩
  | 55 => ⟨S8x1x14x14, .f32⟩
  | 56 => ⟨S8x1x14x14, .f32⟩
  | 57 => ⟨S8x9x14x14, .f32⟩
  | 58 => ⟨S8x512x14x14, .f32⟩
  | 59 => ⟨S8x512x14x14, .f32⟩
  | 60 => ⟨S_, .f32⟩
  | 61 => ⟨S8x14x14, .f32⟩
  | 62 => ⟨S8x512x14x14, .f32⟩
  | 63 => ⟨S8x512x14x14, .f32⟩
  | 64 => ⟨S_, .f32⟩
  | 65 => ⟨S8x14x14, .f32⟩
  | 66 => ⟨S8x512x14x14, .f32⟩
  | 67 => ⟨S8x512x14x14, .f32⟩
  | 68 => ⟨S_, .f32⟩
  | 69 => ⟨S8x14x14, .f32⟩
  | 70 => ⟨S8x512x14x14, .f32⟩
  | 71 => ⟨S8x512x14x14, .f32⟩
  | 72 => ⟨S_, .f32⟩
  | 73 => ⟨S8x14x14, .f32⟩
  | 74 => ⟨S8x512x14x14, .f32⟩
  | 75 => ⟨S8x512x14x14, .f32⟩
  | 76 => ⟨S_, .f32⟩
  | 77 => ⟨S8x14x14, .f32⟩
  | 78 => ⟨S8x512x14x14, .f32⟩
  | 79 => ⟨S8x512x14x14, .f32⟩
  | 80 => ⟨S_, .f32⟩
  | 81 => ⟨S8x14x14, .f32⟩
  | 82 => ⟨S8x512x14x14, .f32⟩
  | 83 => ⟨S8x512x14x14, .f32⟩
  | 84 => ⟨S_, .f32⟩
  | 85 => ⟨S8x14x14, .f32⟩
  | 86 => ⟨S8x512x14x14, .f32⟩
  | 87 => ⟨S8x512x14x14, .f32⟩
  | 88 => ⟨S_, .f32⟩
  | 89 => ⟨S8x14x14, .f32⟩
  | 90 => ⟨S8x512x14x14, .f32⟩
  | 91 => ⟨S8x512x14x14, .f32⟩
  | 92 => ⟨S_, .f32⟩
  | 93 => ⟨S8x14x14, .f32⟩
  | 94 => ⟨S8x1x14x14, .f32⟩
  | 95 => ⟨S8x1x14x14, .f32⟩
  | 96 => ⟨S8x1x14x14, .f32⟩
  | 97 => ⟨S8x1x14x14, .f32⟩
  | 98 => ⟨S8x1x14x14, .f32⟩
  | 99 => ⟨S8x1x14x14, .f32⟩
  | 100 => ⟨S8x1x14x14, .f32⟩
  | 101 => ⟨S8x1x14x14, .f32⟩
  | 102 => ⟨S8x1x14x14, .f32⟩
  | 103 => ⟨S8x9x14x14, .f32⟩
  | 104 => ⟨S8x512x14x14, .f32⟩
  | 105 => ⟨S8x512x14x14, .f32⟩
  | 106 => ⟨S_, .f32⟩
  | 107 => ⟨S8x14x14, .f32⟩
  | 108 => ⟨S8x512x14x14, .f32⟩
  | 109 => ⟨S8x512x14x14, .f32⟩
  | 110 => ⟨S_, .f32⟩
  | 111 => ⟨S8x14x14, .f32⟩
  | 112 => ⟨S8x512x14x14, .f32⟩
  | 113 => ⟨S8x512x14x14, .f32⟩
  | 114 => ⟨S_, .f32⟩
  | 115 => ⟨S8x14x14, .f32⟩
  | 116 => ⟨S8x512x14x14, .f32⟩
  | 117 => ⟨S8x512x14x14, .f32⟩
  | 118 => ⟨S_, .f32⟩
  | 119 => ⟨S8x14x14, .f32⟩
  | 120 => ⟨S8x512x14x14, .f32⟩
  | 121 => ⟨S8x512x14x14, .f32⟩
  | 122 => ⟨S_, .f32⟩
  | 123 => ⟨S8x14x14, .f32⟩
  | 124 => ⟨S8x512x14x14, .f32⟩
  | 125 => ⟨S8x512x14x14, .f32⟩
  | 126 => ⟨S_, .f32⟩
  | 127 => ⟨S8x14x14, .f32⟩
  | _ => ⟨S8x64x112x112, .f32⟩

abbrev hbmTy0_11 (i : Nat) : BufTy := match i % 128 with
  | 0 => ⟨S8x512x14x14, .f32⟩
  | 1 => ⟨S8x512x14x14, .f32⟩
  | 2 => ⟨S_, .f32⟩
  | 3 => ⟨S8x14x14, .f32⟩
  | 4 => ⟨S8x512x14x14, .f32⟩
  | 5 => ⟨S8x512x14x14, .f32⟩
  | 6 => ⟨S_, .f32⟩
  | 7 => ⟨S8x14x14, .f32⟩
  | 8 => ⟨S8x512x14x14, .f32⟩
  | 9 => ⟨S8x512x14x14, .f32⟩
  | 10 => ⟨S_, .f32⟩
  | 11 => ⟨S8x14x14, .f32⟩
  | 12 => ⟨S8x1x14x14, .f32⟩
  | 13 => ⟨S8x1x14x14, .f32⟩
  | 14 => ⟨S8x1x14x14, .f32⟩
  | 15 => ⟨S8x1x14x14, .f32⟩
  | 16 => ⟨S8x1x14x14, .f32⟩
  | 17 => ⟨S8x1x14x14, .f32⟩
  | 18 => ⟨S8x1x14x14, .f32⟩
  | 19 => ⟨S8x1x14x14, .f32⟩
  | 20 => ⟨S8x1x14x14, .f32⟩
  | 21 => ⟨S8x9x14x14, .f32⟩
  | 22 => ⟨S8x512x14x14, .f32⟩
  | 23 => ⟨S8x512x14x14, .f32⟩
  | 24 => ⟨S_, .f32⟩
  | 25 => ⟨S8x14x14, .f32⟩
  | 26 => ⟨S8x512x14x14, .f32⟩
  | 27 => ⟨S8x512x14x14, .f32⟩
  | 28 => ⟨S_, .f32⟩
  | 29 => ⟨S8x14x14, .f32⟩
  | 30 => ⟨S8x512x14x14, .f32⟩
  | 31 => ⟨S8x512x14x14, .f32⟩
  | 32 => ⟨S_, .f32⟩
  | 33 => ⟨S8x14x14, .f32⟩
  | 34 => ⟨S8x512x14x14, .f32⟩
  | 35 => ⟨S8x512x14x14, .f32⟩
  | 36 => ⟨S_, .f32⟩
  | 37 => ⟨S8x14x14, .f32⟩
  | 38 => ⟨S8x512x14x14, .f32⟩
  | 39 => ⟨S8x512x14x14, .f32⟩
  | 40 => ⟨S_, .f32⟩
  | 41 => ⟨S8x14x14, .f32⟩
  | 42 => ⟨S8x512x14x14, .f32⟩
  | 43 => ⟨S8x512x14x14, .f32⟩
  | 44 => ⟨S_, .f32⟩
  | 45 => ⟨S8x14x14, .f32⟩
  | 46 => ⟨S8x512x14x14, .f32⟩
  | 47 => ⟨S8x512x14x14, .f32⟩
  | 48 => ⟨S_, .f32⟩
  | 49 => ⟨S8x14x14, .f32⟩
  | 50 => ⟨S8x512x14x14, .f32⟩
  | 51 => ⟨S8x512x14x14, .f32⟩
  | 52 => ⟨S_, .f32⟩
  | 53 => ⟨S8x14x14, .f32⟩
  | 54 => ⟨S8x512x14x14, .f32⟩
  | 55 => ⟨S8x512x14x14, .f32⟩
  | 56 => ⟨S_, .f32⟩
  | 57 => ⟨S8x14x14, .f32⟩
  | 58 => ⟨S8x1x14x14, .f32⟩
  | 59 => ⟨S8x1x14x14, .f32⟩
  | 60 => ⟨S8x1x14x14, .f32⟩
  | 61 => ⟨S8x1x14x14, .f32⟩
  | 62 => ⟨S8x1x14x14, .f32⟩
  | 63 => ⟨S8x1x14x14, .f32⟩
  | 64 => ⟨S8x1x14x14, .f32⟩
  | 65 => ⟨S8x1x14x14, .f32⟩
  | 66 => ⟨S8x1x14x14, .f32⟩
  | 67 => ⟨S8x9x14x14, .f32⟩
  | 68 => ⟨S8x512x14x14, .f32⟩
  | 69 => ⟨S8x512x14x14, .f32⟩
  | 70 => ⟨S_, .f32⟩
  | 71 => ⟨S8x14x14, .f32⟩
  | 72 => ⟨S8x512x14x14, .f32⟩
  | 73 => ⟨S8x512x14x14, .f32⟩
  | 74 => ⟨S_, .f32⟩
  | 75 => ⟨S8x14x14, .f32⟩
  | 76 => ⟨S8x512x14x14, .f32⟩
  | 77 => ⟨S8x512x14x14, .f32⟩
  | 78 => ⟨S_, .f32⟩
  | 79 => ⟨S8x14x14, .f32⟩
  | 80 => ⟨S8x512x14x14, .f32⟩
  | 81 => ⟨S8x512x14x14, .f32⟩
  | 82 => ⟨S_, .f32⟩
  | 83 => ⟨S8x14x14, .f32⟩
  | 84 => ⟨S8x512x14x14, .f32⟩
  | 85 => ⟨S8x512x14x14, .f32⟩
  | 86 => ⟨S_, .f32⟩
  | 87 => ⟨S8x14x14, .f32⟩
  | 88 => ⟨S8x512x14x14, .f32⟩
  | 89 => ⟨S8x512x14x14, .f32⟩
  | 90 => ⟨S_, .f32⟩
  | 91 => ⟨S8x14x14, .f32⟩
  | 92 => ⟨S8x512x14x14, .f32⟩
  | 93 => ⟨S8x512x14x14, .f32⟩
  | 94 => ⟨S_, .f32⟩
  | 95 => ⟨S8x14x14, .f32⟩
  | 96 => ⟨S8x512x14x14, .f32⟩
  | 97 => ⟨S8x512x14x14, .f32⟩
  | 98 => ⟨S_, .f32⟩
  | 99 => ⟨S8x14x14, .f32⟩
  | 100 => ⟨S8x512x14x14, .f32⟩
  | 101 => ⟨S8x512x14x14, .f32⟩
  | 102 => ⟨S_, .f32⟩
  | 103 => ⟨S8x14x14, .f32⟩
  | 104 => ⟨S8x1x14x14, .f32⟩
  | 105 => ⟨S8x1x14x14, .f32⟩
  | 106 => ⟨S8x1x14x14, .f32⟩
  | 107 => ⟨S8x1x14x14, .f32⟩
  | 108 => ⟨S8x1x14x14, .f32⟩
  | 109 => ⟨S8x1x14x14, .f32⟩
  | 110 => ⟨S8x1x14x14, .f32⟩
  | 111 => ⟨S8x1x14x14, .f32⟩
  | 112 => ⟨S8x1x14x14, .f32⟩
  | 113 => ⟨S8x9x14x14, .f32⟩
  | 114 => ⟨S8x512x14x14, .f32⟩
  | 115 => ⟨S8x512x14x14, .f32⟩
  | 116 => ⟨S_, .f32⟩
  | 117 => ⟨S8x14x14, .f32⟩
  | 118 => ⟨S8x512x14x14, .f32⟩
  | 119 => ⟨S8x512x14x14, .f32⟩
  | 120 => ⟨S_, .f32⟩
  | 121 => ⟨S8x14x14, .f32⟩
  | 122 => ⟨S8x512x14x14, .f32⟩
  | 123 => ⟨S8x512x14x14, .f32⟩
  | 124 => ⟨S_, .f32⟩
  | 125 => ⟨S8x14x14, .f32⟩
  | 126 => ⟨S8x512x14x14, .f32⟩
  | 127 => ⟨S8x512x14x14, .f32⟩
  | _ => ⟨S8x64x112x112, .f32⟩

abbrev hbmTy0_12 (i : Nat) : BufTy := match i % 128 with
  | 0 => ⟨S_, .f32⟩
  | 1 => ⟨S8x14x14, .f32⟩
  | 2 => ⟨S8x512x14x14, .f32⟩
  | 3 => ⟨S8x512x14x14, .f32⟩
  | 4 => ⟨S_, .f32⟩
  | 5 => ⟨S8x14x14, .f32⟩
  | 6 => ⟨S8x512x14x14, .f32⟩
  | 7 => ⟨S8x512x14x14, .f32⟩
  | 8 => ⟨S_, .f32⟩
  | 9 => ⟨S8x14x14, .f32⟩
  | 10 => ⟨S8x512x14x14, .f32⟩
  | 11 => ⟨S8x512x14x14, .f32⟩
  | 12 => ⟨S_, .f32⟩
  | 13 => ⟨S8x14x14, .f32⟩
  | 14 => ⟨S8x512x14x14, .f32⟩
  | 15 => ⟨S8x512x14x14, .f32⟩
  | 16 => ⟨S_, .f32⟩
  | 17 => ⟨S8x14x14, .f32⟩
  | 18 => ⟨S8x512x14x14, .f32⟩
  | 19 => ⟨S8x512x14x14, .f32⟩
  | 20 => ⟨S_, .f32⟩
  | 21 => ⟨S8x14x14, .f32⟩
  | 22 => ⟨S8x1x14x14, .f32⟩
  | 23 => ⟨S8x1x14x14, .f32⟩
  | 24 => ⟨S8x1x14x14, .f32⟩
  | 25 => ⟨S8x1x14x14, .f32⟩
  | 26 => ⟨S8x1x14x14, .f32⟩
  | 27 => ⟨S8x1x14x14, .f32⟩
  | 28 => ⟨S8x1x14x14, .f32⟩
  | 29 => ⟨S8x1x14x14, .f32⟩
  | 30 => ⟨S8x1x14x14, .f32⟩
  | 31 => ⟨S8x9x14x14, .f32⟩
  | 32 => ⟨S8x512x14x14, .f32⟩
  | 33 => ⟨S8x512x14x14, .f32⟩
  | 34 => ⟨S_, .f32⟩
  | 35 => ⟨S8x14x14, .f32⟩
  | 36 => ⟨S8x512x14x14, .f32⟩
  | 37 => ⟨S8x512x14x14, .f32⟩
  | 38 => ⟨S_, .f32⟩
  | 39 => ⟨S8x14x14, .f32⟩
  | 40 => ⟨S8x512x14x14, .f32⟩
  | 41 => ⟨S8x512x14x14, .f32⟩
  | 42 => ⟨S_, .f32⟩
  | 43 => ⟨S8x14x14, .f32⟩
  | 44 => ⟨S8x512x14x14, .f32⟩
  | 45 => ⟨S8x512x14x14, .f32⟩
  | 46 => ⟨S_, .f32⟩
  | 47 => ⟨S8x14x14, .f32⟩
  | 48 => ⟨S8x512x14x14, .f32⟩
  | 49 => ⟨S8x512x14x14, .f32⟩
  | 50 => ⟨S_, .f32⟩
  | 51 => ⟨S8x14x14, .f32⟩
  | 52 => ⟨S8x512x14x14, .f32⟩
  | 53 => ⟨S8x512x14x14, .f32⟩
  | 54 => ⟨S_, .f32⟩
  | 55 => ⟨S8x14x14, .f32⟩
  | 56 => ⟨S8x512x14x14, .f32⟩
  | 57 => ⟨S8x512x14x14, .f32⟩
  | 58 => ⟨S_, .f32⟩
  | 59 => ⟨S8x14x14, .f32⟩
  | 60 => ⟨S8x512x14x14, .f32⟩
  | 61 => ⟨S8x512x14x14, .f32⟩
  | 62 => ⟨S_, .f32⟩
  | 63 => ⟨S8x14x14, .f32⟩
  | 64 => ⟨S8x512x14x14, .f32⟩
  | 65 => ⟨S8x512x14x14, .f32⟩
  | 66 => ⟨S_, .f32⟩
  | 67 => ⟨S8x14x14, .f32⟩
  | 68 => ⟨S8x1x14x14, .f32⟩
  | 69 => ⟨S8x1x14x14, .f32⟩
  | 70 => ⟨S8x1x14x14, .f32⟩
  | 71 => ⟨S8x1x14x14, .f32⟩
  | 72 => ⟨S8x1x14x14, .f32⟩
  | 73 => ⟨S8x1x14x14, .f32⟩
  | 74 => ⟨S8x1x14x14, .f32⟩
  | 75 => ⟨S8x1x14x14, .f32⟩
  | 76 => ⟨S8x1x14x14, .f32⟩
  | 77 => ⟨S8x9x14x14, .f32⟩
  | 78 => ⟨S8x512x14x14, .f32⟩
  | 79 => ⟨S8x512x14x14, .f32⟩
  | 80 => ⟨S_, .f32⟩
  | 81 => ⟨S8x14x14, .f32⟩
  | 82 => ⟨S8x512x14x14, .f32⟩
  | 83 => ⟨S8x512x14x14, .f32⟩
  | 84 => ⟨S_, .f32⟩
  | 85 => ⟨S8x14x14, .f32⟩
  | 86 => ⟨S8x512x14x14, .f32⟩
  | 87 => ⟨S8x512x14x14, .f32⟩
  | 88 => ⟨S_, .f32⟩
  | 89 => ⟨S8x14x14, .f32⟩
  | 90 => ⟨S8x512x14x14, .f32⟩
  | 91 => ⟨S8x512x14x14, .f32⟩
  | 92 => ⟨S_, .f32⟩
  | 93 => ⟨S8x14x14, .f32⟩
  | 94 => ⟨S8x512x14x14, .f32⟩
  | 95 => ⟨S8x512x14x14, .f32⟩
  | 96 => ⟨S_, .f32⟩
  | 97 => ⟨S8x14x14, .f32⟩
  | 98 => ⟨S8x512x14x14, .f32⟩
  | 99 => ⟨S8x512x14x14, .f32⟩
  | 100 => ⟨S_, .f32⟩
  | 101 => ⟨S8x14x14, .f32⟩
  | 102 => ⟨S8x512x14x14, .f32⟩
  | 103 => ⟨S8x512x14x14, .f32⟩
  | 104 => ⟨S_, .f32⟩
  | 105 => ⟨S8x14x14, .f32⟩
  | 106 => ⟨S8x512x14x14, .f32⟩
  | 107 => ⟨S8x512x14x14, .f32⟩
  | 108 => ⟨S_, .f32⟩
  | 109 => ⟨S8x14x14, .f32⟩
  | 110 => ⟨S8x512x14x14, .f32⟩
  | 111 => ⟨S8x512x14x14, .f32⟩
  | 112 => ⟨S_, .f32⟩
  | 113 => ⟨S8x14x14, .f32⟩
  | 114 => ⟨S8x1x14x14, .f32⟩
  | 115 => ⟨S8x1x14x14, .f32⟩
  | 116 => ⟨S8x1x14x14, .f32⟩
  | 117 => ⟨S8x1x14x14, .f32⟩
  | 118 => ⟨S8x1x14x14, .f32⟩
  | 119 => ⟨S8x1x14x14, .f32⟩
  | 120 => ⟨S8x1x14x14, .f32⟩
  | 121 => ⟨S8x1x14x14, .f32⟩
  | 122 => ⟨S8x1x14x14, .f32⟩
  | 123 => ⟨S8x9x14x14, .f32⟩
  | 124 => ⟨S8x512x14x14, .f32⟩
  | 125 => ⟨S8x512x14x14, .f32⟩
  | 126 => ⟨S_, .f32⟩
  | 127 => ⟨S8x14x14, .f32⟩
  | _ => ⟨S8x64x112x112, .f32⟩

abbrev hbmTy0_13 (i : Nat) : BufTy := match i % 128 with
  | 0 => ⟨S8x512x14x14, .f32⟩
  | 1 => ⟨S8x512x14x14, .f32⟩
  | 2 => ⟨S_, .f32⟩
  | 3 => ⟨S8x14x14, .f32⟩
  | 4 => ⟨S8x512x14x14, .f32⟩
  | 5 => ⟨S8x512x14x14, .f32⟩
  | 6 => ⟨S_, .f32⟩
  | 7 => ⟨S8x14x14, .f32⟩
  | 8 => ⟨S8x512x14x14, .f32⟩
  | 9 => ⟨S8x512x14x14, .f32⟩
  | 10 => ⟨S_, .f32⟩
  | 11 => ⟨S8x14x14, .f32⟩
  | 12 => ⟨S8x512x14x14, .f32⟩
  | 13 => ⟨S8x512x14x14, .f32⟩
  | 14 => ⟨S_, .f32⟩
  | 15 => ⟨S8x14x14, .f32⟩
  | 16 => ⟨S8x512x14x14, .f32⟩
  | 17 => ⟨S8x512x14x14, .f32⟩
  | 18 => ⟨S_, .f32⟩
  | 19 => ⟨S8x14x14, .f32⟩
  | 20 => ⟨S8x512x14x14, .f32⟩
  | 21 => ⟨S8x512x14x14, .f32⟩
  | 22 => ⟨S_, .f32⟩
  | 23 => ⟨S8x14x14, .f32⟩
  | 24 => ⟨S8x512x14x14, .f32⟩
  | 25 => ⟨S8x512x14x14, .f32⟩
  | 26 => ⟨S_, .f32⟩
  | 27 => ⟨S8x14x14, .f32⟩
  | 28 => ⟨S8x512x14x14, .f32⟩
  | 29 => ⟨S8x512x14x14, .f32⟩
  | 30 => ⟨S_, .f32⟩
  | 31 => ⟨S8x14x14, .f32⟩
  | 32 => ⟨S8x1x14x14, .f32⟩
  | 33 => ⟨S8x1x14x14, .f32⟩
  | 34 => ⟨S8x1x14x14, .f32⟩
  | 35 => ⟨S8x1x14x14, .f32⟩
  | 36 => ⟨S8x1x14x14, .f32⟩
  | 37 => ⟨S8x1x14x14, .f32⟩
  | 38 => ⟨S8x1x14x14, .f32⟩
  | 39 => ⟨S8x1x14x14, .f32⟩
  | 40 => ⟨S8x1x14x14, .f32⟩
  | 41 => ⟨S8x9x14x14, .f32⟩
  | 42 => ⟨S8x1x9x14x14, .f32⟩
  | 43 => ⟨S8x1x9x14x14, .f32⟩
  | 44 => ⟨S8x1x9x14x14, .f32⟩
  | 45 => ⟨S8x1x9x14x14, .f32⟩
  | 46 => ⟨S8x1x9x14x14, .f32⟩
  | 47 => ⟨S8x1x9x14x14, .f32⟩
  | 48 => ⟨S8x1x9x14x14, .f32⟩
  | 49 => ⟨S8x1x9x14x14, .f32⟩
  | 50 => ⟨S8x1x9x14x14, .f32⟩
  | 51 => ⟨S8x9x9x14x14, .f32⟩
  | _ => ⟨S8x64x112x112, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S8x64x112x112, .f32⟩

abbrev bufTy : (tb : Table) → Fin (tcTables nBuf tb) → BufTy
  | .hbm, ⟨i, _⟩ => hbmTy i
  | _, _ => ⟨S8x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_21 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_22 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_26 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_27 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_28 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_29 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_30 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_31 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_32 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_33 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_34 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_35 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_36 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_37 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_38 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_39 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_40 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_41 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_42 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_43 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_44 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_cst_45 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_46 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_47 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_cst_48 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_cst_49 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_50 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_51 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_52 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_cst_53 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_54 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_cst_55 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_cst_56 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_cst_57 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_cst_58 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_cst_59 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_cst_60 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_cst_61 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_cst_62 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_cst_63 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_cst_64 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_65 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_cst_66 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_cst_67 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_cst_68 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_cst_69 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_cst_70 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_cst_71 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_cst_72 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_cst_73 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_cst_74 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_cst_75 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_cst_76 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_cst_77 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_cst_78 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_cst_79 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_c_80 : Ref sig .tc := ⟨.hbm, 435, rfl⟩
abbrev main_call1_v0 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_cst_81 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_cst_82 : Ref sig .tc := ⟨.hbm, 444, rfl⟩
abbrev main_v350 : Ref sig .tc := ⟨.hbm, 445, rfl⟩
abbrev main_v351 : Ref sig .tc := ⟨.hbm, 446, rfl⟩
abbrev main_v352 : Ref sig .tc := ⟨.hbm, 447, rfl⟩
abbrev main_cst_83 : Ref sig .tc := ⟨.hbm, 448, rfl⟩
abbrev main_v353 : Ref sig .tc := ⟨.hbm, 449, rfl⟩
abbrev main_v354 : Ref sig .tc := ⟨.hbm, 450, rfl⟩
abbrev main_v355 : Ref sig .tc := ⟨.hbm, 451, rfl⟩
abbrev main_cst_84 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_cst_85 : Ref sig .tc := ⟨.hbm, 456, rfl⟩
abbrev main_v359 : Ref sig .tc := ⟨.hbm, 457, rfl⟩
abbrev main_v360 : Ref sig .tc := ⟨.hbm, 458, rfl⟩
abbrev main_v361 : Ref sig .tc := ⟨.hbm, 459, rfl⟩
abbrev main_cst_86 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_cst_87 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_cst_88 : Ref sig .tc := ⟨.hbm, 468, rfl⟩
abbrev main_v368 : Ref sig .tc := ⟨.hbm, 469, rfl⟩
abbrev main_v369 : Ref sig .tc := ⟨.hbm, 470, rfl⟩
abbrev main_v370 : Ref sig .tc := ⟨.hbm, 471, rfl⟩
abbrev main_cst_89 : Ref sig .tc := ⟨.hbm, 472, rfl⟩
abbrev main_v371 : Ref sig .tc := ⟨.hbm, 473, rfl⟩
abbrev main_v372 : Ref sig .tc := ⟨.hbm, 474, rfl⟩
abbrev main_v373 : Ref sig .tc := ⟨.hbm, 475, rfl⟩
abbrev main_v374 : Ref sig .tc := ⟨.hbm, 476, rfl⟩
abbrev main_v375 : Ref sig .tc := ⟨.hbm, 477, rfl⟩
abbrev main_v376 : Ref sig .tc := ⟨.hbm, 478, rfl⟩
abbrev main_v377 : Ref sig .tc := ⟨.hbm, 479, rfl⟩
abbrev main_v378 : Ref sig .tc := ⟨.hbm, 480, rfl⟩
abbrev main_v379 : Ref sig .tc := ⟨.hbm, 481, rfl⟩
abbrev main_v380 : Ref sig .tc := ⟨.hbm, 482, rfl⟩
abbrev main_v381 : Ref sig .tc := ⟨.hbm, 483, rfl⟩
abbrev main_v382 : Ref sig .tc := ⟨.hbm, 484, rfl⟩
abbrev main_v383 : Ref sig .tc := ⟨.hbm, 485, rfl⟩
abbrev main_cst_90 : Ref sig .tc := ⟨.hbm, 486, rfl⟩
abbrev main_v384 : Ref sig .tc := ⟨.hbm, 487, rfl⟩
abbrev main_v385 : Ref sig .tc := ⟨.hbm, 488, rfl⟩
abbrev main_v386 : Ref sig .tc := ⟨.hbm, 489, rfl⟩
abbrev main_cst_91 : Ref sig .tc := ⟨.hbm, 490, rfl⟩
abbrev main_v387 : Ref sig .tc := ⟨.hbm, 491, rfl⟩
abbrev main_v388 : Ref sig .tc := ⟨.hbm, 492, rfl⟩
abbrev main_v389 : Ref sig .tc := ⟨.hbm, 493, rfl⟩
abbrev main_cst_92 : Ref sig .tc := ⟨.hbm, 494, rfl⟩
abbrev main_v390 : Ref sig .tc := ⟨.hbm, 495, rfl⟩
abbrev main_v391 : Ref sig .tc := ⟨.hbm, 496, rfl⟩
abbrev main_v392 : Ref sig .tc := ⟨.hbm, 497, rfl⟩
abbrev main_cst_93 : Ref sig .tc := ⟨.hbm, 498, rfl⟩
abbrev main_v393 : Ref sig .tc := ⟨.hbm, 499, rfl⟩
abbrev main_v394 : Ref sig .tc := ⟨.hbm, 500, rfl⟩
abbrev main_v395 : Ref sig .tc := ⟨.hbm, 501, rfl⟩
abbrev main_cst_94 : Ref sig .tc := ⟨.hbm, 502, rfl⟩
abbrev main_v396 : Ref sig .tc := ⟨.hbm, 503, rfl⟩
abbrev main_v397 : Ref sig .tc := ⟨.hbm, 504, rfl⟩
abbrev main_v398 : Ref sig .tc := ⟨.hbm, 505, rfl⟩
abbrev main_cst_95 : Ref sig .tc := ⟨.hbm, 506, rfl⟩
abbrev main_v399 : Ref sig .tc := ⟨.hbm, 507, rfl⟩
abbrev main_v400 : Ref sig .tc := ⟨.hbm, 508, rfl⟩
abbrev main_v401 : Ref sig .tc := ⟨.hbm, 509, rfl⟩
abbrev main_cst_96 : Ref sig .tc := ⟨.hbm, 510, rfl⟩
abbrev main_v402 : Ref sig .tc := ⟨.hbm, 511, rfl⟩
abbrev main_v403 : Ref sig .tc := ⟨.hbm, 512, rfl⟩
abbrev main_v404 : Ref sig .tc := ⟨.hbm, 513, rfl⟩
abbrev main_cst_97 : Ref sig .tc := ⟨.hbm, 514, rfl⟩
abbrev main_v405 : Ref sig .tc := ⟨.hbm, 515, rfl⟩
abbrev main_v406 : Ref sig .tc := ⟨.hbm, 516, rfl⟩
abbrev main_v407 : Ref sig .tc := ⟨.hbm, 517, rfl⟩
abbrev main_cst_98 : Ref sig .tc := ⟨.hbm, 518, rfl⟩
abbrev main_v408 : Ref sig .tc := ⟨.hbm, 519, rfl⟩
abbrev main_v409 : Ref sig .tc := ⟨.hbm, 520, rfl⟩
abbrev main_v410 : Ref sig .tc := ⟨.hbm, 521, rfl⟩
abbrev main_v411 : Ref sig .tc := ⟨.hbm, 522, rfl⟩
abbrev main_v412 : Ref sig .tc := ⟨.hbm, 523, rfl⟩
abbrev main_v413 : Ref sig .tc := ⟨.hbm, 524, rfl⟩
abbrev main_v414 : Ref sig .tc := ⟨.hbm, 525, rfl⟩
abbrev main_v415 : Ref sig .tc := ⟨.hbm, 526, rfl⟩
abbrev main_v416 : Ref sig .tc := ⟨.hbm, 527, rfl⟩
abbrev main_v417 : Ref sig .tc := ⟨.hbm, 528, rfl⟩
abbrev main_v418 : Ref sig .tc := ⟨.hbm, 529, rfl⟩
abbrev main_v419 : Ref sig .tc := ⟨.hbm, 530, rfl⟩
abbrev main_v420 : Ref sig .tc := ⟨.hbm, 531, rfl⟩
abbrev main_cst_99 : Ref sig .tc := ⟨.hbm, 532, rfl⟩
abbrev main_v421 : Ref sig .tc := ⟨.hbm, 533, rfl⟩
abbrev main_v422 : Ref sig .tc := ⟨.hbm, 534, rfl⟩
abbrev main_v423 : Ref sig .tc := ⟨.hbm, 535, rfl⟩
abbrev main_cst_100 : Ref sig .tc := ⟨.hbm, 536, rfl⟩
abbrev main_v424 : Ref sig .tc := ⟨.hbm, 537, rfl⟩
abbrev main_v425 : Ref sig .tc := ⟨.hbm, 538, rfl⟩
abbrev main_v426 : Ref sig .tc := ⟨.hbm, 539, rfl⟩
abbrev main_cst_101 : Ref sig .tc := ⟨.hbm, 540, rfl⟩
abbrev main_v427 : Ref sig .tc := ⟨.hbm, 541, rfl⟩
abbrev main_v428 : Ref sig .tc := ⟨.hbm, 542, rfl⟩
abbrev main_v429 : Ref sig .tc := ⟨.hbm, 543, rfl⟩
abbrev main_cst_102 : Ref sig .tc := ⟨.hbm, 544, rfl⟩
abbrev main_v430 : Ref sig .tc := ⟨.hbm, 545, rfl⟩
abbrev main_v431 : Ref sig .tc := ⟨.hbm, 546, rfl⟩
abbrev main_v432 : Ref sig .tc := ⟨.hbm, 547, rfl⟩
abbrev main_cst_103 : Ref sig .tc := ⟨.hbm, 548, rfl⟩
abbrev main_v433 : Ref sig .tc := ⟨.hbm, 549, rfl⟩
abbrev main_v434 : Ref sig .tc := ⟨.hbm, 550, rfl⟩
abbrev main_v435 : Ref sig .tc := ⟨.hbm, 551, rfl⟩
abbrev main_cst_104 : Ref sig .tc := ⟨.hbm, 552, rfl⟩
abbrev main_v436 : Ref sig .tc := ⟨.hbm, 553, rfl⟩
abbrev main_v437 : Ref sig .tc := ⟨.hbm, 554, rfl⟩
abbrev main_v438 : Ref sig .tc := ⟨.hbm, 555, rfl⟩
abbrev main_cst_105 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_cst_106 : Ref sig .tc := ⟨.hbm, 560, rfl⟩
abbrev main_v442 : Ref sig .tc := ⟨.hbm, 561, rfl⟩
abbrev main_v443 : Ref sig .tc := ⟨.hbm, 562, rfl⟩
abbrev main_v444 : Ref sig .tc := ⟨.hbm, 563, rfl⟩
abbrev main_cst_107 : Ref sig .tc := ⟨.hbm, 564, rfl⟩
abbrev main_v445 : Ref sig .tc := ⟨.hbm, 565, rfl⟩
abbrev main_v446 : Ref sig .tc := ⟨.hbm, 566, rfl⟩
abbrev main_v447 : Ref sig .tc := ⟨.hbm, 567, rfl⟩
abbrev main_v448 : Ref sig .tc := ⟨.hbm, 568, rfl⟩
abbrev main_v449 : Ref sig .tc := ⟨.hbm, 569, rfl⟩
abbrev main_v450 : Ref sig .tc := ⟨.hbm, 570, rfl⟩
abbrev main_v451 : Ref sig .tc := ⟨.hbm, 571, rfl⟩
abbrev main_v452 : Ref sig .tc := ⟨.hbm, 572, rfl⟩
abbrev main_v453 : Ref sig .tc := ⟨.hbm, 573, rfl⟩
abbrev main_v454 : Ref sig .tc := ⟨.hbm, 574, rfl⟩
abbrev main_v455 : Ref sig .tc := ⟨.hbm, 575, rfl⟩
abbrev main_v456 : Ref sig .tc := ⟨.hbm, 576, rfl⟩
abbrev main_v457 : Ref sig .tc := ⟨.hbm, 577, rfl⟩
abbrev main_cst_108 : Ref sig .tc := ⟨.hbm, 578, rfl⟩
abbrev main_v458 : Ref sig .tc := ⟨.hbm, 579, rfl⟩
abbrev main_v459 : Ref sig .tc := ⟨.hbm, 580, rfl⟩
abbrev main_v460 : Ref sig .tc := ⟨.hbm, 581, rfl⟩
abbrev main_cst_109 : Ref sig .tc := ⟨.hbm, 582, rfl⟩
abbrev main_v461 : Ref sig .tc := ⟨.hbm, 583, rfl⟩
abbrev main_v462 : Ref sig .tc := ⟨.hbm, 584, rfl⟩
abbrev main_v463 : Ref sig .tc := ⟨.hbm, 585, rfl⟩
abbrev main_cst_110 : Ref sig .tc := ⟨.hbm, 586, rfl⟩
abbrev main_v464 : Ref sig .tc := ⟨.hbm, 587, rfl⟩
abbrev main_v465 : Ref sig .tc := ⟨.hbm, 588, rfl⟩
abbrev main_v466 : Ref sig .tc := ⟨.hbm, 589, rfl⟩
abbrev main_cst_111 : Ref sig .tc := ⟨.hbm, 590, rfl⟩
abbrev main_v467 : Ref sig .tc := ⟨.hbm, 591, rfl⟩
abbrev main_v468 : Ref sig .tc := ⟨.hbm, 592, rfl⟩
abbrev main_v469 : Ref sig .tc := ⟨.hbm, 593, rfl⟩
abbrev main_cst_112 : Ref sig .tc := ⟨.hbm, 594, rfl⟩
abbrev main_v470 : Ref sig .tc := ⟨.hbm, 595, rfl⟩
abbrev main_v471 : Ref sig .tc := ⟨.hbm, 596, rfl⟩
abbrev main_v472 : Ref sig .tc := ⟨.hbm, 597, rfl⟩
abbrev main_cst_113 : Ref sig .tc := ⟨.hbm, 598, rfl⟩
abbrev main_v473 : Ref sig .tc := ⟨.hbm, 599, rfl⟩
abbrev main_v474 : Ref sig .tc := ⟨.hbm, 600, rfl⟩
abbrev main_v475 : Ref sig .tc := ⟨.hbm, 601, rfl⟩
abbrev main_cst_114 : Ref sig .tc := ⟨.hbm, 602, rfl⟩
abbrev main_v476 : Ref sig .tc := ⟨.hbm, 603, rfl⟩
abbrev main_v477 : Ref sig .tc := ⟨.hbm, 604, rfl⟩
abbrev main_v478 : Ref sig .tc := ⟨.hbm, 605, rfl⟩
abbrev main_cst_115 : Ref sig .tc := ⟨.hbm, 606, rfl⟩
abbrev main_v479 : Ref sig .tc := ⟨.hbm, 607, rfl⟩
abbrev main_v480 : Ref sig .tc := ⟨.hbm, 608, rfl⟩
abbrev main_v481 : Ref sig .tc := ⟨.hbm, 609, rfl⟩
abbrev main_cst_116 : Ref sig .tc := ⟨.hbm, 610, rfl⟩
abbrev main_v482 : Ref sig .tc := ⟨.hbm, 611, rfl⟩
abbrev main_v483 : Ref sig .tc := ⟨.hbm, 612, rfl⟩
abbrev main_v484 : Ref sig .tc := ⟨.hbm, 613, rfl⟩
abbrev main_v485 : Ref sig .tc := ⟨.hbm, 614, rfl⟩
abbrev main_v486 : Ref sig .tc := ⟨.hbm, 615, rfl⟩
abbrev main_v487 : Ref sig .tc := ⟨.hbm, 616, rfl⟩
abbrev main_v488 : Ref sig .tc := ⟨.hbm, 617, rfl⟩
abbrev main_v489 : Ref sig .tc := ⟨.hbm, 618, rfl⟩
abbrev main_v490 : Ref sig .tc := ⟨.hbm, 619, rfl⟩
abbrev main_v491 : Ref sig .tc := ⟨.hbm, 620, rfl⟩
abbrev main_v492 : Ref sig .tc := ⟨.hbm, 621, rfl⟩
abbrev main_v493 : Ref sig .tc := ⟨.hbm, 622, rfl⟩
abbrev main_v494 : Ref sig .tc := ⟨.hbm, 623, rfl⟩
abbrev main_cst_117 : Ref sig .tc := ⟨.hbm, 624, rfl⟩
abbrev main_v495 : Ref sig .tc := ⟨.hbm, 625, rfl⟩
abbrev main_v496 : Ref sig .tc := ⟨.hbm, 626, rfl⟩
abbrev main_v497 : Ref sig .tc := ⟨.hbm, 627, rfl⟩
abbrev main_cst_118 : Ref sig .tc := ⟨.hbm, 628, rfl⟩
abbrev main_v498 : Ref sig .tc := ⟨.hbm, 629, rfl⟩
abbrev main_v499 : Ref sig .tc := ⟨.hbm, 630, rfl⟩
abbrev main_v500 : Ref sig .tc := ⟨.hbm, 631, rfl⟩
abbrev main_cst_119 : Ref sig .tc := ⟨.hbm, 632, rfl⟩
abbrev main_v501 : Ref sig .tc := ⟨.hbm, 633, rfl⟩
abbrev main_v502 : Ref sig .tc := ⟨.hbm, 634, rfl⟩
abbrev main_v503 : Ref sig .tc := ⟨.hbm, 635, rfl⟩
abbrev main_cst_120 : Ref sig .tc := ⟨.hbm, 636, rfl⟩
abbrev main_v504 : Ref sig .tc := ⟨.hbm, 637, rfl⟩
abbrev main_v505 : Ref sig .tc := ⟨.hbm, 638, rfl⟩
abbrev main_v506 : Ref sig .tc := ⟨.hbm, 639, rfl⟩
abbrev main_cst_121 : Ref sig .tc := ⟨.hbm, 640, rfl⟩
abbrev main_v507 : Ref sig .tc := ⟨.hbm, 641, rfl⟩
abbrev main_v508 : Ref sig .tc := ⟨.hbm, 642, rfl⟩
abbrev main_v509 : Ref sig .tc := ⟨.hbm, 643, rfl⟩
abbrev main_cst_122 : Ref sig .tc := ⟨.hbm, 644, rfl⟩
abbrev main_v510 : Ref sig .tc := ⟨.hbm, 645, rfl⟩
abbrev main_v511 : Ref sig .tc := ⟨.hbm, 646, rfl⟩
abbrev main_v512 : Ref sig .tc := ⟨.hbm, 647, rfl⟩
abbrev main_cst_123 : Ref sig .tc := ⟨.hbm, 648, rfl⟩
abbrev main_v513 : Ref sig .tc := ⟨.hbm, 649, rfl⟩
abbrev main_v514 : Ref sig .tc := ⟨.hbm, 650, rfl⟩
abbrev main_v515 : Ref sig .tc := ⟨.hbm, 651, rfl⟩
abbrev main_cst_124 : Ref sig .tc := ⟨.hbm, 652, rfl⟩
abbrev main_v516 : Ref sig .tc := ⟨.hbm, 653, rfl⟩
abbrev main_v517 : Ref sig .tc := ⟨.hbm, 654, rfl⟩
abbrev main_v518 : Ref sig .tc := ⟨.hbm, 655, rfl⟩
abbrev main_cst_125 : Ref sig .tc := ⟨.hbm, 656, rfl⟩
abbrev main_v519 : Ref sig .tc := ⟨.hbm, 657, rfl⟩
abbrev main_v520 : Ref sig .tc := ⟨.hbm, 658, rfl⟩
abbrev main_v521 : Ref sig .tc := ⟨.hbm, 659, rfl⟩
abbrev main_v522 : Ref sig .tc := ⟨.hbm, 660, rfl⟩
abbrev main_v523 : Ref sig .tc := ⟨.hbm, 661, rfl⟩
abbrev main_v524 : Ref sig .tc := ⟨.hbm, 662, rfl⟩
abbrev main_v525 : Ref sig .tc := ⟨.hbm, 663, rfl⟩
abbrev main_v526 : Ref sig .tc := ⟨.hbm, 664, rfl⟩
abbrev main_v527 : Ref sig .tc := ⟨.hbm, 665, rfl⟩
abbrev main_v528 : Ref sig .tc := ⟨.hbm, 666, rfl⟩
abbrev main_v529 : Ref sig .tc := ⟨.hbm, 667, rfl⟩
abbrev main_v530 : Ref sig .tc := ⟨.hbm, 668, rfl⟩
abbrev main_v531 : Ref sig .tc := ⟨.hbm, 669, rfl⟩
abbrev main_cst_126 : Ref sig .tc := ⟨.hbm, 670, rfl⟩
abbrev main_v532 : Ref sig .tc := ⟨.hbm, 671, rfl⟩
abbrev main_v533 : Ref sig .tc := ⟨.hbm, 672, rfl⟩
abbrev main_v534 : Ref sig .tc := ⟨.hbm, 673, rfl⟩
abbrev main_cst_127 : Ref sig .tc := ⟨.hbm, 674, rfl⟩
abbrev main_v535 : Ref sig .tc := ⟨.hbm, 675, rfl⟩
abbrev main_v536 : Ref sig .tc := ⟨.hbm, 676, rfl⟩
abbrev main_v537 : Ref sig .tc := ⟨.hbm, 677, rfl⟩
abbrev main_cst_128 : Ref sig .tc := ⟨.hbm, 678, rfl⟩
abbrev main_v538 : Ref sig .tc := ⟨.hbm, 679, rfl⟩
abbrev main_v539 : Ref sig .tc := ⟨.hbm, 680, rfl⟩
abbrev main_v540 : Ref sig .tc := ⟨.hbm, 681, rfl⟩
abbrev main_cst_129 : Ref sig .tc := ⟨.hbm, 682, rfl⟩
abbrev main_v541 : Ref sig .tc := ⟨.hbm, 683, rfl⟩
abbrev main_v542 : Ref sig .tc := ⟨.hbm, 684, rfl⟩
abbrev main_v543 : Ref sig .tc := ⟨.hbm, 685, rfl⟩
abbrev main_cst_130 : Ref sig .tc := ⟨.hbm, 686, rfl⟩
abbrev main_v544 : Ref sig .tc := ⟨.hbm, 687, rfl⟩
abbrev main_v545 : Ref sig .tc := ⟨.hbm, 688, rfl⟩
abbrev main_v546 : Ref sig .tc := ⟨.hbm, 689, rfl⟩
abbrev main_cst_131 : Ref sig .tc := ⟨.hbm, 690, rfl⟩
abbrev main_v547 : Ref sig .tc := ⟨.hbm, 691, rfl⟩
abbrev main_v548 : Ref sig .tc := ⟨.hbm, 692, rfl⟩
abbrev main_v549 : Ref sig .tc := ⟨.hbm, 693, rfl⟩
abbrev main_cst_132 : Ref sig .tc := ⟨.hbm, 694, rfl⟩
abbrev main_v550 : Ref sig .tc := ⟨.hbm, 695, rfl⟩
abbrev main_v551 : Ref sig .tc := ⟨.hbm, 696, rfl⟩
abbrev main_v552 : Ref sig .tc := ⟨.hbm, 697, rfl⟩
abbrev main_cst_133 : Ref sig .tc := ⟨.hbm, 698, rfl⟩
abbrev main_v553 : Ref sig .tc := ⟨.hbm, 699, rfl⟩
abbrev main_v554 : Ref sig .tc := ⟨.hbm, 700, rfl⟩
abbrev main_v555 : Ref sig .tc := ⟨.hbm, 701, rfl⟩
abbrev main_cst_134 : Ref sig .tc := ⟨.hbm, 702, rfl⟩
abbrev main_v556 : Ref sig .tc := ⟨.hbm, 703, rfl⟩
abbrev main_v557 : Ref sig .tc := ⟨.hbm, 704, rfl⟩
abbrev main_v558 : Ref sig .tc := ⟨.hbm, 705, rfl⟩
abbrev main_v559 : Ref sig .tc := ⟨.hbm, 706, rfl⟩
abbrev main_v560 : Ref sig .tc := ⟨.hbm, 707, rfl⟩
abbrev main_v561 : Ref sig .tc := ⟨.hbm, 708, rfl⟩
abbrev main_v562 : Ref sig .tc := ⟨.hbm, 709, rfl⟩
abbrev main_v563 : Ref sig .tc := ⟨.hbm, 710, rfl⟩
abbrev main_v564 : Ref sig .tc := ⟨.hbm, 711, rfl⟩
abbrev main_v565 : Ref sig .tc := ⟨.hbm, 712, rfl⟩
abbrev main_v566 : Ref sig .tc := ⟨.hbm, 713, rfl⟩
abbrev main_v567 : Ref sig .tc := ⟨.hbm, 714, rfl⟩
abbrev main_v568 : Ref sig .tc := ⟨.hbm, 715, rfl⟩
abbrev main_cst_135 : Ref sig .tc := ⟨.hbm, 716, rfl⟩
abbrev main_v569 : Ref sig .tc := ⟨.hbm, 717, rfl⟩
abbrev main_v570 : Ref sig .tc := ⟨.hbm, 718, rfl⟩
abbrev main_v571 : Ref sig .tc := ⟨.hbm, 719, rfl⟩
abbrev main_cst_136 : Ref sig .tc := ⟨.hbm, 720, rfl⟩
abbrev main_v572 : Ref sig .tc := ⟨.hbm, 721, rfl⟩
abbrev main_v573 : Ref sig .tc := ⟨.hbm, 722, rfl⟩
abbrev main_v574 : Ref sig .tc := ⟨.hbm, 723, rfl⟩
abbrev main_cst_137 : Ref sig .tc := ⟨.hbm, 724, rfl⟩
abbrev main_v575 : Ref sig .tc := ⟨.hbm, 725, rfl⟩
abbrev main_v576 : Ref sig .tc := ⟨.hbm, 726, rfl⟩
abbrev main_v577 : Ref sig .tc := ⟨.hbm, 727, rfl⟩
abbrev main_cst_138 : Ref sig .tc := ⟨.hbm, 728, rfl⟩
abbrev main_v578 : Ref sig .tc := ⟨.hbm, 729, rfl⟩
abbrev main_v579 : Ref sig .tc := ⟨.hbm, 730, rfl⟩
abbrev main_v580 : Ref sig .tc := ⟨.hbm, 731, rfl⟩
abbrev main_cst_139 : Ref sig .tc := ⟨.hbm, 732, rfl⟩
abbrev main_v581 : Ref sig .tc := ⟨.hbm, 733, rfl⟩
abbrev main_v582 : Ref sig .tc := ⟨.hbm, 734, rfl⟩
abbrev main_v583 : Ref sig .tc := ⟨.hbm, 735, rfl⟩
abbrev main_cst_140 : Ref sig .tc := ⟨.hbm, 736, rfl⟩
abbrev main_v584 : Ref sig .tc := ⟨.hbm, 737, rfl⟩
abbrev main_v585 : Ref sig .tc := ⟨.hbm, 738, rfl⟩
abbrev main_v586 : Ref sig .tc := ⟨.hbm, 739, rfl⟩
abbrev main_cst_141 : Ref sig .tc := ⟨.hbm, 740, rfl⟩
abbrev main_v587 : Ref sig .tc := ⟨.hbm, 741, rfl⟩
abbrev main_v588 : Ref sig .tc := ⟨.hbm, 742, rfl⟩
abbrev main_v589 : Ref sig .tc := ⟨.hbm, 743, rfl⟩
abbrev main_cst_142 : Ref sig .tc := ⟨.hbm, 744, rfl⟩
abbrev main_v590 : Ref sig .tc := ⟨.hbm, 745, rfl⟩
abbrev main_v591 : Ref sig .tc := ⟨.hbm, 746, rfl⟩
abbrev main_v592 : Ref sig .tc := ⟨.hbm, 747, rfl⟩
abbrev main_cst_143 : Ref sig .tc := ⟨.hbm, 748, rfl⟩
abbrev main_v593 : Ref sig .tc := ⟨.hbm, 749, rfl⟩
abbrev main_v594 : Ref sig .tc := ⟨.hbm, 750, rfl⟩
abbrev main_v595 : Ref sig .tc := ⟨.hbm, 751, rfl⟩
abbrev main_v596 : Ref sig .tc := ⟨.hbm, 752, rfl⟩
abbrev main_v597 : Ref sig .tc := ⟨.hbm, 753, rfl⟩
abbrev main_v598 : Ref sig .tc := ⟨.hbm, 754, rfl⟩
abbrev main_v599 : Ref sig .tc := ⟨.hbm, 755, rfl⟩
abbrev main_v600 : Ref sig .tc := ⟨.hbm, 756, rfl⟩
abbrev main_v601 : Ref sig .tc := ⟨.hbm, 757, rfl⟩
abbrev main_v602 : Ref sig .tc := ⟨.hbm, 758, rfl⟩
abbrev main_v603 : Ref sig .tc := ⟨.hbm, 759, rfl⟩
abbrev main_v604 : Ref sig .tc := ⟨.hbm, 760, rfl⟩
abbrev main_v605 : Ref sig .tc := ⟨.hbm, 761, rfl⟩
abbrev main_cst_144 : Ref sig .tc := ⟨.hbm, 762, rfl⟩
abbrev main_v606 : Ref sig .tc := ⟨.hbm, 763, rfl⟩
abbrev main_v607 : Ref sig .tc := ⟨.hbm, 764, rfl⟩
abbrev main_v608 : Ref sig .tc := ⟨.hbm, 765, rfl⟩
abbrev main_cst_145 : Ref sig .tc := ⟨.hbm, 766, rfl⟩
abbrev main_v609 : Ref sig .tc := ⟨.hbm, 767, rfl⟩
abbrev main_v610 : Ref sig .tc := ⟨.hbm, 768, rfl⟩
abbrev main_v611 : Ref sig .tc := ⟨.hbm, 769, rfl⟩
abbrev main_cst_146 : Ref sig .tc := ⟨.hbm, 770, rfl⟩
abbrev main_v612 : Ref sig .tc := ⟨.hbm, 771, rfl⟩
abbrev main_v613 : Ref sig .tc := ⟨.hbm, 772, rfl⟩
abbrev main_v614 : Ref sig .tc := ⟨.hbm, 773, rfl⟩
abbrev main_cst_147 : Ref sig .tc := ⟨.hbm, 774, rfl⟩
abbrev main_v615 : Ref sig .tc := ⟨.hbm, 775, rfl⟩
abbrev main_v616 : Ref sig .tc := ⟨.hbm, 776, rfl⟩
abbrev main_v617 : Ref sig .tc := ⟨.hbm, 777, rfl⟩
abbrev main_cst_148 : Ref sig .tc := ⟨.hbm, 778, rfl⟩
abbrev main_v618 : Ref sig .tc := ⟨.hbm, 779, rfl⟩
abbrev main_v619 : Ref sig .tc := ⟨.hbm, 780, rfl⟩
abbrev main_v620 : Ref sig .tc := ⟨.hbm, 781, rfl⟩
abbrev main_cst_149 : Ref sig .tc := ⟨.hbm, 782, rfl⟩
abbrev main_v621 : Ref sig .tc := ⟨.hbm, 783, rfl⟩
abbrev main_v622 : Ref sig .tc := ⟨.hbm, 784, rfl⟩
abbrev main_v623 : Ref sig .tc := ⟨.hbm, 785, rfl⟩
abbrev main_cst_150 : Ref sig .tc := ⟨.hbm, 786, rfl⟩
abbrev main_v624 : Ref sig .tc := ⟨.hbm, 787, rfl⟩
abbrev main_v625 : Ref sig .tc := ⟨.hbm, 788, rfl⟩
abbrev main_v626 : Ref sig .tc := ⟨.hbm, 789, rfl⟩
abbrev main_cst_151 : Ref sig .tc := ⟨.hbm, 790, rfl⟩
abbrev main_v627 : Ref sig .tc := ⟨.hbm, 791, rfl⟩
abbrev main_v628 : Ref sig .tc := ⟨.hbm, 792, rfl⟩
abbrev main_v629 : Ref sig .tc := ⟨.hbm, 793, rfl⟩
abbrev main_cst_152 : Ref sig .tc := ⟨.hbm, 794, rfl⟩
abbrev main_v630 : Ref sig .tc := ⟨.hbm, 795, rfl⟩
abbrev main_v631 : Ref sig .tc := ⟨.hbm, 796, rfl⟩
abbrev main_v632 : Ref sig .tc := ⟨.hbm, 797, rfl⟩
abbrev main_v633 : Ref sig .tc := ⟨.hbm, 798, rfl⟩
abbrev main_v634 : Ref sig .tc := ⟨.hbm, 799, rfl⟩
abbrev main_v635 : Ref sig .tc := ⟨.hbm, 800, rfl⟩
abbrev main_v636 : Ref sig .tc := ⟨.hbm, 801, rfl⟩
abbrev main_v637 : Ref sig .tc := ⟨.hbm, 802, rfl⟩
abbrev main_v638 : Ref sig .tc := ⟨.hbm, 803, rfl⟩
abbrev main_v639 : Ref sig .tc := ⟨.hbm, 804, rfl⟩
abbrev main_v640 : Ref sig .tc := ⟨.hbm, 805, rfl⟩
abbrev main_v641 : Ref sig .tc := ⟨.hbm, 806, rfl⟩
abbrev main_v642 : Ref sig .tc := ⟨.hbm, 807, rfl⟩
abbrev main_cst_153 : Ref sig .tc := ⟨.hbm, 808, rfl⟩
abbrev main_v643 : Ref sig .tc := ⟨.hbm, 809, rfl⟩
abbrev main_v644 : Ref sig .tc := ⟨.hbm, 810, rfl⟩
abbrev main_v645 : Ref sig .tc := ⟨.hbm, 811, rfl⟩
abbrev main_cst_154 : Ref sig .tc := ⟨.hbm, 812, rfl⟩
abbrev main_v646 : Ref sig .tc := ⟨.hbm, 813, rfl⟩
abbrev main_v647 : Ref sig .tc := ⟨.hbm, 814, rfl⟩
abbrev main_v648 : Ref sig .tc := ⟨.hbm, 815, rfl⟩
abbrev main_cst_155 : Ref sig .tc := ⟨.hbm, 816, rfl⟩
abbrev main_v649 : Ref sig .tc := ⟨.hbm, 817, rfl⟩
abbrev main_v650 : Ref sig .tc := ⟨.hbm, 818, rfl⟩
abbrev main_v651 : Ref sig .tc := ⟨.hbm, 819, rfl⟩
abbrev main_cst_156 : Ref sig .tc := ⟨.hbm, 820, rfl⟩
abbrev main_v652 : Ref sig .tc := ⟨.hbm, 821, rfl⟩
abbrev main_v653 : Ref sig .tc := ⟨.hbm, 822, rfl⟩
abbrev main_v654 : Ref sig .tc := ⟨.hbm, 823, rfl⟩
abbrev main_cst_157 : Ref sig .tc := ⟨.hbm, 824, rfl⟩
abbrev main_v655 : Ref sig .tc := ⟨.hbm, 825, rfl⟩
abbrev main_v656 : Ref sig .tc := ⟨.hbm, 826, rfl⟩
abbrev main_v657 : Ref sig .tc := ⟨.hbm, 827, rfl⟩
abbrev main_cst_158 : Ref sig .tc := ⟨.hbm, 828, rfl⟩
abbrev main_v658 : Ref sig .tc := ⟨.hbm, 829, rfl⟩
abbrev main_v659 : Ref sig .tc := ⟨.hbm, 830, rfl⟩
abbrev main_v660 : Ref sig .tc := ⟨.hbm, 831, rfl⟩
abbrev main_cst_159 : Ref sig .tc := ⟨.hbm, 832, rfl⟩
abbrev main_v661 : Ref sig .tc := ⟨.hbm, 833, rfl⟩
abbrev main_v662 : Ref sig .tc := ⟨.hbm, 834, rfl⟩
abbrev main_v663 : Ref sig .tc := ⟨.hbm, 835, rfl⟩
abbrev main_cst_160 : Ref sig .tc := ⟨.hbm, 836, rfl⟩
abbrev main_v664 : Ref sig .tc := ⟨.hbm, 837, rfl⟩
abbrev main_v665 : Ref sig .tc := ⟨.hbm, 838, rfl⟩
abbrev main_v666 : Ref sig .tc := ⟨.hbm, 839, rfl⟩
abbrev main_cst_161 : Ref sig .tc := ⟨.hbm, 840, rfl⟩
abbrev main_v667 : Ref sig .tc := ⟨.hbm, 841, rfl⟩
abbrev main_v668 : Ref sig .tc := ⟨.hbm, 842, rfl⟩
abbrev main_v669 : Ref sig .tc := ⟨.hbm, 843, rfl⟩
abbrev main_v670 : Ref sig .tc := ⟨.hbm, 844, rfl⟩
abbrev main_v671 : Ref sig .tc := ⟨.hbm, 845, rfl⟩
abbrev main_v672 : Ref sig .tc := ⟨.hbm, 846, rfl⟩
abbrev main_v673 : Ref sig .tc := ⟨.hbm, 847, rfl⟩
abbrev main_v674 : Ref sig .tc := ⟨.hbm, 848, rfl⟩
abbrev main_v675 : Ref sig .tc := ⟨.hbm, 849, rfl⟩
abbrev main_v676 : Ref sig .tc := ⟨.hbm, 850, rfl⟩
abbrev main_v677 : Ref sig .tc := ⟨.hbm, 851, rfl⟩
abbrev main_v678 : Ref sig .tc := ⟨.hbm, 852, rfl⟩
abbrev main_v679 : Ref sig .tc := ⟨.hbm, 853, rfl⟩
abbrev main_v680 : Ref sig .tc := ⟨.hbm, 854, rfl⟩
abbrev main_v681 : Ref sig .tc := ⟨.hbm, 855, rfl⟩
abbrev main_v682 : Ref sig .tc := ⟨.hbm, 856, rfl⟩
abbrev main_v683 : Ref sig .tc := ⟨.hbm, 857, rfl⟩
abbrev main_v684 : Ref sig .tc := ⟨.hbm, 858, rfl⟩
abbrev main_v685 : Ref sig .tc := ⟨.hbm, 859, rfl⟩
abbrev main_v686 : Ref sig .tc := ⟨.hbm, 860, rfl⟩
abbrev main_v687 : Ref sig .tc := ⟨.hbm, 861, rfl⟩
abbrev main_c_162 : Ref sig .tc := ⟨.hbm, 862, rfl⟩
abbrev main_call2_v0 : Ref sig .tc := ⟨.hbm, 863, rfl⟩
abbrev main_v688 : Ref sig .tc := ⟨.hbm, 864, rfl⟩
abbrev main_v689 : Ref sig .tc := ⟨.hbm, 865, rfl⟩
abbrev main_v690 : Ref sig .tc := ⟨.hbm, 866, rfl⟩
abbrev main_cst_163 : Ref sig .tc := ⟨.hbm, 867, rfl⟩
abbrev main_v691 : Ref sig .tc := ⟨.hbm, 868, rfl⟩
abbrev main_v692 : Ref sig .tc := ⟨.hbm, 869, rfl⟩
abbrev main_v693 : Ref sig .tc := ⟨.hbm, 870, rfl⟩
abbrev main_cst_164 : Ref sig .tc := ⟨.hbm, 871, rfl⟩
abbrev main_v694 : Ref sig .tc := ⟨.hbm, 872, rfl⟩
abbrev main_v695 : Ref sig .tc := ⟨.hbm, 873, rfl⟩
abbrev main_v696 : Ref sig .tc := ⟨.hbm, 874, rfl⟩
abbrev main_cst_165 : Ref sig .tc := ⟨.hbm, 875, rfl⟩
abbrev main_v697 : Ref sig .tc := ⟨.hbm, 876, rfl⟩
abbrev main_v698 : Ref sig .tc := ⟨.hbm, 877, rfl⟩
abbrev main_v699 : Ref sig .tc := ⟨.hbm, 878, rfl⟩
abbrev main_cst_166 : Ref sig .tc := ⟨.hbm, 879, rfl⟩
abbrev main_v700 : Ref sig .tc := ⟨.hbm, 880, rfl⟩
abbrev main_v701 : Ref sig .tc := ⟨.hbm, 881, rfl⟩
abbrev main_v702 : Ref sig .tc := ⟨.hbm, 882, rfl⟩
abbrev main_cst_167 : Ref sig .tc := ⟨.hbm, 883, rfl⟩
abbrev main_v703 : Ref sig .tc := ⟨.hbm, 884, rfl⟩
abbrev main_v704 : Ref sig .tc := ⟨.hbm, 885, rfl⟩
abbrev main_v705 : Ref sig .tc := ⟨.hbm, 886, rfl⟩
abbrev main_cst_168 : Ref sig .tc := ⟨.hbm, 887, rfl⟩
abbrev main_v706 : Ref sig .tc := ⟨.hbm, 888, rfl⟩
abbrev main_v707 : Ref sig .tc := ⟨.hbm, 889, rfl⟩
abbrev main_v708 : Ref sig .tc := ⟨.hbm, 890, rfl⟩
abbrev main_cst_169 : Ref sig .tc := ⟨.hbm, 891, rfl⟩
abbrev main_v709 : Ref sig .tc := ⟨.hbm, 892, rfl⟩
abbrev main_v710 : Ref sig .tc := ⟨.hbm, 893, rfl⟩
abbrev main_v711 : Ref sig .tc := ⟨.hbm, 894, rfl⟩
abbrev main_cst_170 : Ref sig .tc := ⟨.hbm, 895, rfl⟩
abbrev main_v712 : Ref sig .tc := ⟨.hbm, 896, rfl⟩
abbrev main_v713 : Ref sig .tc := ⟨.hbm, 897, rfl⟩
abbrev main_v714 : Ref sig .tc := ⟨.hbm, 898, rfl⟩
abbrev main_cst_171 : Ref sig .tc := ⟨.hbm, 899, rfl⟩
abbrev main_v715 : Ref sig .tc := ⟨.hbm, 900, rfl⟩
abbrev main_v716 : Ref sig .tc := ⟨.hbm, 901, rfl⟩
abbrev main_v717 : Ref sig .tc := ⟨.hbm, 902, rfl⟩
abbrev main_v718 : Ref sig .tc := ⟨.hbm, 903, rfl⟩
abbrev main_v719 : Ref sig .tc := ⟨.hbm, 904, rfl⟩
abbrev main_v720 : Ref sig .tc := ⟨.hbm, 905, rfl⟩
abbrev main_v721 : Ref sig .tc := ⟨.hbm, 906, rfl⟩
abbrev main_v722 : Ref sig .tc := ⟨.hbm, 907, rfl⟩
abbrev main_v723 : Ref sig .tc := ⟨.hbm, 908, rfl⟩
abbrev main_v724 : Ref sig .tc := ⟨.hbm, 909, rfl⟩
abbrev main_v725 : Ref sig .tc := ⟨.hbm, 910, rfl⟩
abbrev main_v726 : Ref sig .tc := ⟨.hbm, 911, rfl⟩
abbrev main_v727 : Ref sig .tc := ⟨.hbm, 912, rfl⟩
abbrev main_cst_172 : Ref sig .tc := ⟨.hbm, 913, rfl⟩
abbrev main_v728 : Ref sig .tc := ⟨.hbm, 914, rfl⟩
abbrev main_v729 : Ref sig .tc := ⟨.hbm, 915, rfl⟩
abbrev main_v730 : Ref sig .tc := ⟨.hbm, 916, rfl⟩
abbrev main_cst_173 : Ref sig .tc := ⟨.hbm, 917, rfl⟩
abbrev main_v731 : Ref sig .tc := ⟨.hbm, 918, rfl⟩
abbrev main_v732 : Ref sig .tc := ⟨.hbm, 919, rfl⟩
abbrev main_v733 : Ref sig .tc := ⟨.hbm, 920, rfl⟩
abbrev main_cst_174 : Ref sig .tc := ⟨.hbm, 921, rfl⟩
abbrev main_v734 : Ref sig .tc := ⟨.hbm, 922, rfl⟩
abbrev main_v735 : Ref sig .tc := ⟨.hbm, 923, rfl⟩
abbrev main_v736 : Ref sig .tc := ⟨.hbm, 924, rfl⟩
abbrev main_cst_175 : Ref sig .tc := ⟨.hbm, 925, rfl⟩
abbrev main_v737 : Ref sig .tc := ⟨.hbm, 926, rfl⟩
abbrev main_v738 : Ref sig .tc := ⟨.hbm, 927, rfl⟩
abbrev main_v739 : Ref sig .tc := ⟨.hbm, 928, rfl⟩
abbrev main_cst_176 : Ref sig .tc := ⟨.hbm, 929, rfl⟩
abbrev main_v740 : Ref sig .tc := ⟨.hbm, 930, rfl⟩
abbrev main_v741 : Ref sig .tc := ⟨.hbm, 931, rfl⟩
abbrev main_v742 : Ref sig .tc := ⟨.hbm, 932, rfl⟩
abbrev main_cst_177 : Ref sig .tc := ⟨.hbm, 933, rfl⟩
abbrev main_v743 : Ref sig .tc := ⟨.hbm, 934, rfl⟩
abbrev main_v744 : Ref sig .tc := ⟨.hbm, 935, rfl⟩
abbrev main_v745 : Ref sig .tc := ⟨.hbm, 936, rfl⟩
abbrev main_cst_178 : Ref sig .tc := ⟨.hbm, 937, rfl⟩
abbrev main_v746 : Ref sig .tc := ⟨.hbm, 938, rfl⟩
abbrev main_v747 : Ref sig .tc := ⟨.hbm, 939, rfl⟩
abbrev main_v748 : Ref sig .tc := ⟨.hbm, 940, rfl⟩
abbrev main_cst_179 : Ref sig .tc := ⟨.hbm, 941, rfl⟩
abbrev main_v749 : Ref sig .tc := ⟨.hbm, 942, rfl⟩
abbrev main_v750 : Ref sig .tc := ⟨.hbm, 943, rfl⟩
abbrev main_v751 : Ref sig .tc := ⟨.hbm, 944, rfl⟩
abbrev main_cst_180 : Ref sig .tc := ⟨.hbm, 945, rfl⟩
abbrev main_v752 : Ref sig .tc := ⟨.hbm, 946, rfl⟩
abbrev main_v753 : Ref sig .tc := ⟨.hbm, 947, rfl⟩
abbrev main_v754 : Ref sig .tc := ⟨.hbm, 948, rfl⟩
abbrev main_v755 : Ref sig .tc := ⟨.hbm, 949, rfl⟩
abbrev main_v756 : Ref sig .tc := ⟨.hbm, 950, rfl⟩
abbrev main_v757 : Ref sig .tc := ⟨.hbm, 951, rfl⟩
abbrev main_v758 : Ref sig .tc := ⟨.hbm, 952, rfl⟩
abbrev main_v759 : Ref sig .tc := ⟨.hbm, 953, rfl⟩
abbrev main_v760 : Ref sig .tc := ⟨.hbm, 954, rfl⟩
abbrev main_v761 : Ref sig .tc := ⟨.hbm, 955, rfl⟩
abbrev main_v762 : Ref sig .tc := ⟨.hbm, 956, rfl⟩
abbrev main_v763 : Ref sig .tc := ⟨.hbm, 957, rfl⟩
abbrev main_v764 : Ref sig .tc := ⟨.hbm, 958, rfl⟩
abbrev main_cst_181 : Ref sig .tc := ⟨.hbm, 959, rfl⟩
abbrev main_v765 : Ref sig .tc := ⟨.hbm, 960, rfl⟩
abbrev main_v766 : Ref sig .tc := ⟨.hbm, 961, rfl⟩
abbrev main_v767 : Ref sig .tc := ⟨.hbm, 962, rfl⟩
abbrev main_cst_182 : Ref sig .tc := ⟨.hbm, 963, rfl⟩
abbrev main_v768 : Ref sig .tc := ⟨.hbm, 964, rfl⟩
abbrev main_v769 : Ref sig .tc := ⟨.hbm, 965, rfl⟩
abbrev main_v770 : Ref sig .tc := ⟨.hbm, 966, rfl⟩
abbrev main_cst_183 : Ref sig .tc := ⟨.hbm, 967, rfl⟩
abbrev main_v771 : Ref sig .tc := ⟨.hbm, 968, rfl⟩
abbrev main_v772 : Ref sig .tc := ⟨.hbm, 969, rfl⟩
abbrev main_v773 : Ref sig .tc := ⟨.hbm, 970, rfl⟩
abbrev main_cst_184 : Ref sig .tc := ⟨.hbm, 971, rfl⟩
abbrev main_v774 : Ref sig .tc := ⟨.hbm, 972, rfl⟩
abbrev main_v775 : Ref sig .tc := ⟨.hbm, 973, rfl⟩
abbrev main_v776 : Ref sig .tc := ⟨.hbm, 974, rfl⟩
abbrev main_cst_185 : Ref sig .tc := ⟨.hbm, 975, rfl⟩
abbrev main_v777 : Ref sig .tc := ⟨.hbm, 976, rfl⟩
abbrev main_v778 : Ref sig .tc := ⟨.hbm, 977, rfl⟩
abbrev main_v779 : Ref sig .tc := ⟨.hbm, 978, rfl⟩
abbrev main_cst_186 : Ref sig .tc := ⟨.hbm, 979, rfl⟩
abbrev main_v780 : Ref sig .tc := ⟨.hbm, 980, rfl⟩
abbrev main_v781 : Ref sig .tc := ⟨.hbm, 981, rfl⟩
abbrev main_v782 : Ref sig .tc := ⟨.hbm, 982, rfl⟩
abbrev main_cst_187 : Ref sig .tc := ⟨.hbm, 983, rfl⟩
abbrev main_v783 : Ref sig .tc := ⟨.hbm, 984, rfl⟩
abbrev main_v784 : Ref sig .tc := ⟨.hbm, 985, rfl⟩
abbrev main_v785 : Ref sig .tc := ⟨.hbm, 986, rfl⟩
abbrev main_cst_188 : Ref sig .tc := ⟨.hbm, 987, rfl⟩
abbrev main_v786 : Ref sig .tc := ⟨.hbm, 988, rfl⟩
abbrev main_v787 : Ref sig .tc := ⟨.hbm, 989, rfl⟩
abbrev main_v788 : Ref sig .tc := ⟨.hbm, 990, rfl⟩
abbrev main_cst_189 : Ref sig .tc := ⟨.hbm, 991, rfl⟩
abbrev main_v789 : Ref sig .tc := ⟨.hbm, 992, rfl⟩
abbrev main_v790 : Ref sig .tc := ⟨.hbm, 993, rfl⟩
abbrev main_v791 : Ref sig .tc := ⟨.hbm, 994, rfl⟩
abbrev main_v792 : Ref sig .tc := ⟨.hbm, 995, rfl⟩
abbrev main_v793 : Ref sig .tc := ⟨.hbm, 996, rfl⟩
abbrev main_v794 : Ref sig .tc := ⟨.hbm, 997, rfl⟩
abbrev main_v795 : Ref sig .tc := ⟨.hbm, 998, rfl⟩
abbrev main_v796 : Ref sig .tc := ⟨.hbm, 999, rfl⟩
abbrev main_v797 : Ref sig .tc := ⟨.hbm, 1000, rfl⟩
abbrev main_v798 : Ref sig .tc := ⟨.hbm, 1001, rfl⟩
abbrev main_v799 : Ref sig .tc := ⟨.hbm, 1002, rfl⟩
abbrev main_v800 : Ref sig .tc := ⟨.hbm, 1003, rfl⟩
abbrev main_v801 : Ref sig .tc := ⟨.hbm, 1004, rfl⟩
abbrev main_cst_190 : Ref sig .tc := ⟨.hbm, 1005, rfl⟩
abbrev main_v802 : Ref sig .tc := ⟨.hbm, 1006, rfl⟩
abbrev main_v803 : Ref sig .tc := ⟨.hbm, 1007, rfl⟩
abbrev main_v804 : Ref sig .tc := ⟨.hbm, 1008, rfl⟩
abbrev main_cst_191 : Ref sig .tc := ⟨.hbm, 1009, rfl⟩
abbrev main_v805 : Ref sig .tc := ⟨.hbm, 1010, rfl⟩
abbrev main_v806 : Ref sig .tc := ⟨.hbm, 1011, rfl⟩
abbrev main_v807 : Ref sig .tc := ⟨.hbm, 1012, rfl⟩
abbrev main_cst_192 : Ref sig .tc := ⟨.hbm, 1013, rfl⟩
abbrev main_v808 : Ref sig .tc := ⟨.hbm, 1014, rfl⟩
abbrev main_v809 : Ref sig .tc := ⟨.hbm, 1015, rfl⟩
abbrev main_v810 : Ref sig .tc := ⟨.hbm, 1016, rfl⟩
abbrev main_cst_193 : Ref sig .tc := ⟨.hbm, 1017, rfl⟩
abbrev main_v811 : Ref sig .tc := ⟨.hbm, 1018, rfl⟩
abbrev main_v812 : Ref sig .tc := ⟨.hbm, 1019, rfl⟩
abbrev main_v813 : Ref sig .tc := ⟨.hbm, 1020, rfl⟩
abbrev main_cst_194 : Ref sig .tc := ⟨.hbm, 1021, rfl⟩
abbrev main_v814 : Ref sig .tc := ⟨.hbm, 1022, rfl⟩
abbrev main_v815 : Ref sig .tc := ⟨.hbm, 1023, rfl⟩
abbrev main_v816 : Ref sig .tc := ⟨.hbm, 1024, rfl⟩
abbrev main_cst_195 : Ref sig .tc := ⟨.hbm, 1025, rfl⟩
abbrev main_v817 : Ref sig .tc := ⟨.hbm, 1026, rfl⟩
abbrev main_v818 : Ref sig .tc := ⟨.hbm, 1027, rfl⟩
abbrev main_v819 : Ref sig .tc := ⟨.hbm, 1028, rfl⟩
abbrev main_cst_196 : Ref sig .tc := ⟨.hbm, 1029, rfl⟩
abbrev main_v820 : Ref sig .tc := ⟨.hbm, 1030, rfl⟩
abbrev main_v821 : Ref sig .tc := ⟨.hbm, 1031, rfl⟩
abbrev main_v822 : Ref sig .tc := ⟨.hbm, 1032, rfl⟩
abbrev main_cst_197 : Ref sig .tc := ⟨.hbm, 1033, rfl⟩
abbrev main_v823 : Ref sig .tc := ⟨.hbm, 1034, rfl⟩
abbrev main_v824 : Ref sig .tc := ⟨.hbm, 1035, rfl⟩
abbrev main_v825 : Ref sig .tc := ⟨.hbm, 1036, rfl⟩
abbrev main_cst_198 : Ref sig .tc := ⟨.hbm, 1037, rfl⟩
abbrev main_v826 : Ref sig .tc := ⟨.hbm, 1038, rfl⟩
abbrev main_v827 : Ref sig .tc := ⟨.hbm, 1039, rfl⟩
abbrev main_v828 : Ref sig .tc := ⟨.hbm, 1040, rfl⟩
abbrev main_v829 : Ref sig .tc := ⟨.hbm, 1041, rfl⟩
abbrev main_v830 : Ref sig .tc := ⟨.hbm, 1042, rfl⟩
abbrev main_v831 : Ref sig .tc := ⟨.hbm, 1043, rfl⟩
abbrev main_v832 : Ref sig .tc := ⟨.hbm, 1044, rfl⟩
abbrev main_v833 : Ref sig .tc := ⟨.hbm, 1045, rfl⟩
abbrev main_v834 : Ref sig .tc := ⟨.hbm, 1046, rfl⟩
abbrev main_v835 : Ref sig .tc := ⟨.hbm, 1047, rfl⟩
abbrev main_v836 : Ref sig .tc := ⟨.hbm, 1048, rfl⟩
abbrev main_v837 : Ref sig .tc := ⟨.hbm, 1049, rfl⟩
abbrev main_v838 : Ref sig .tc := ⟨.hbm, 1050, rfl⟩
abbrev main_cst_199 : Ref sig .tc := ⟨.hbm, 1051, rfl⟩
abbrev main_v839 : Ref sig .tc := ⟨.hbm, 1052, rfl⟩
abbrev main_v840 : Ref sig .tc := ⟨.hbm, 1053, rfl⟩
abbrev main_v841 : Ref sig .tc := ⟨.hbm, 1054, rfl⟩
abbrev main_cst_200 : Ref sig .tc := ⟨.hbm, 1055, rfl⟩
abbrev main_v842 : Ref sig .tc := ⟨.hbm, 1056, rfl⟩
abbrev main_v843 : Ref sig .tc := ⟨.hbm, 1057, rfl⟩
abbrev main_v844 : Ref sig .tc := ⟨.hbm, 1058, rfl⟩
abbrev main_cst_201 : Ref sig .tc := ⟨.hbm, 1059, rfl⟩
abbrev main_v845 : Ref sig .tc := ⟨.hbm, 1060, rfl⟩
abbrev main_v846 : Ref sig .tc := ⟨.hbm, 1061, rfl⟩
abbrev main_v847 : Ref sig .tc := ⟨.hbm, 1062, rfl⟩
abbrev main_cst_202 : Ref sig .tc := ⟨.hbm, 1063, rfl⟩
abbrev main_v848 : Ref sig .tc := ⟨.hbm, 1064, rfl⟩
abbrev main_v849 : Ref sig .tc := ⟨.hbm, 1065, rfl⟩
abbrev main_v850 : Ref sig .tc := ⟨.hbm, 1066, rfl⟩
abbrev main_cst_203 : Ref sig .tc := ⟨.hbm, 1067, rfl⟩
abbrev main_v851 : Ref sig .tc := ⟨.hbm, 1068, rfl⟩
abbrev main_v852 : Ref sig .tc := ⟨.hbm, 1069, rfl⟩
abbrev main_v853 : Ref sig .tc := ⟨.hbm, 1070, rfl⟩
abbrev main_cst_204 : Ref sig .tc := ⟨.hbm, 1071, rfl⟩
abbrev main_v854 : Ref sig .tc := ⟨.hbm, 1072, rfl⟩
abbrev main_v855 : Ref sig .tc := ⟨.hbm, 1073, rfl⟩
abbrev main_v856 : Ref sig .tc := ⟨.hbm, 1074, rfl⟩
abbrev main_cst_205 : Ref sig .tc := ⟨.hbm, 1075, rfl⟩
abbrev main_v857 : Ref sig .tc := ⟨.hbm, 1076, rfl⟩
abbrev main_v858 : Ref sig .tc := ⟨.hbm, 1077, rfl⟩
abbrev main_v859 : Ref sig .tc := ⟨.hbm, 1078, rfl⟩
abbrev main_cst_206 : Ref sig .tc := ⟨.hbm, 1079, rfl⟩
abbrev main_v860 : Ref sig .tc := ⟨.hbm, 1080, rfl⟩
abbrev main_v861 : Ref sig .tc := ⟨.hbm, 1081, rfl⟩
abbrev main_v862 : Ref sig .tc := ⟨.hbm, 1082, rfl⟩
abbrev main_cst_207 : Ref sig .tc := ⟨.hbm, 1083, rfl⟩
abbrev main_v863 : Ref sig .tc := ⟨.hbm, 1084, rfl⟩
abbrev main_v864 : Ref sig .tc := ⟨.hbm, 1085, rfl⟩
abbrev main_v865 : Ref sig .tc := ⟨.hbm, 1086, rfl⟩
abbrev main_v866 : Ref sig .tc := ⟨.hbm, 1087, rfl⟩
abbrev main_v867 : Ref sig .tc := ⟨.hbm, 1088, rfl⟩
abbrev main_v868 : Ref sig .tc := ⟨.hbm, 1089, rfl⟩
abbrev main_v869 : Ref sig .tc := ⟨.hbm, 1090, rfl⟩
abbrev main_v870 : Ref sig .tc := ⟨.hbm, 1091, rfl⟩
abbrev main_v871 : Ref sig .tc := ⟨.hbm, 1092, rfl⟩
abbrev main_v872 : Ref sig .tc := ⟨.hbm, 1093, rfl⟩
abbrev main_v873 : Ref sig .tc := ⟨.hbm, 1094, rfl⟩
abbrev main_v874 : Ref sig .tc := ⟨.hbm, 1095, rfl⟩
abbrev main_v875 : Ref sig .tc := ⟨.hbm, 1096, rfl⟩
abbrev main_cst_208 : Ref sig .tc := ⟨.hbm, 1097, rfl⟩
abbrev main_v876 : Ref sig .tc := ⟨.hbm, 1098, rfl⟩
abbrev main_v877 : Ref sig .tc := ⟨.hbm, 1099, rfl⟩
abbrev main_v878 : Ref sig .tc := ⟨.hbm, 1100, rfl⟩
abbrev main_cst_209 : Ref sig .tc := ⟨.hbm, 1101, rfl⟩
abbrev main_v879 : Ref sig .tc := ⟨.hbm, 1102, rfl⟩
abbrev main_v880 : Ref sig .tc := ⟨.hbm, 1103, rfl⟩
abbrev main_v881 : Ref sig .tc := ⟨.hbm, 1104, rfl⟩
abbrev main_cst_210 : Ref sig .tc := ⟨.hbm, 1105, rfl⟩
abbrev main_v882 : Ref sig .tc := ⟨.hbm, 1106, rfl⟩
abbrev main_v883 : Ref sig .tc := ⟨.hbm, 1107, rfl⟩
abbrev main_v884 : Ref sig .tc := ⟨.hbm, 1108, rfl⟩
abbrev main_cst_211 : Ref sig .tc := ⟨.hbm, 1109, rfl⟩
abbrev main_v885 : Ref sig .tc := ⟨.hbm, 1110, rfl⟩
abbrev main_v886 : Ref sig .tc := ⟨.hbm, 1111, rfl⟩
abbrev main_v887 : Ref sig .tc := ⟨.hbm, 1112, rfl⟩
abbrev main_cst_212 : Ref sig .tc := ⟨.hbm, 1113, rfl⟩
abbrev main_v888 : Ref sig .tc := ⟨.hbm, 1114, rfl⟩
abbrev main_v889 : Ref sig .tc := ⟨.hbm, 1115, rfl⟩
abbrev main_v890 : Ref sig .tc := ⟨.hbm, 1116, rfl⟩
abbrev main_cst_213 : Ref sig .tc := ⟨.hbm, 1117, rfl⟩
abbrev main_v891 : Ref sig .tc := ⟨.hbm, 1118, rfl⟩
abbrev main_v892 : Ref sig .tc := ⟨.hbm, 1119, rfl⟩
abbrev main_v893 : Ref sig .tc := ⟨.hbm, 1120, rfl⟩
abbrev main_cst_214 : Ref sig .tc := ⟨.hbm, 1121, rfl⟩
abbrev main_v894 : Ref sig .tc := ⟨.hbm, 1122, rfl⟩
abbrev main_v895 : Ref sig .tc := ⟨.hbm, 1123, rfl⟩
abbrev main_v896 : Ref sig .tc := ⟨.hbm, 1124, rfl⟩
abbrev main_cst_215 : Ref sig .tc := ⟨.hbm, 1125, rfl⟩
abbrev main_v897 : Ref sig .tc := ⟨.hbm, 1126, rfl⟩
abbrev main_v898 : Ref sig .tc := ⟨.hbm, 1127, rfl⟩
abbrev main_v899 : Ref sig .tc := ⟨.hbm, 1128, rfl⟩
abbrev main_cst_216 : Ref sig .tc := ⟨.hbm, 1129, rfl⟩
abbrev main_v900 : Ref sig .tc := ⟨.hbm, 1130, rfl⟩
abbrev main_v901 : Ref sig .tc := ⟨.hbm, 1131, rfl⟩
abbrev main_v902 : Ref sig .tc := ⟨.hbm, 1132, rfl⟩
abbrev main_v903 : Ref sig .tc := ⟨.hbm, 1133, rfl⟩
abbrev main_v904 : Ref sig .tc := ⟨.hbm, 1134, rfl⟩
abbrev main_v905 : Ref sig .tc := ⟨.hbm, 1135, rfl⟩
abbrev main_v906 : Ref sig .tc := ⟨.hbm, 1136, rfl⟩
abbrev main_v907 : Ref sig .tc := ⟨.hbm, 1137, rfl⟩
abbrev main_v908 : Ref sig .tc := ⟨.hbm, 1138, rfl⟩
abbrev main_v909 : Ref sig .tc := ⟨.hbm, 1139, rfl⟩
abbrev main_v910 : Ref sig .tc := ⟨.hbm, 1140, rfl⟩
abbrev main_v911 : Ref sig .tc := ⟨.hbm, 1141, rfl⟩
abbrev main_v912 : Ref sig .tc := ⟨.hbm, 1142, rfl⟩
abbrev main_cst_217 : Ref sig .tc := ⟨.hbm, 1143, rfl⟩
abbrev main_v913 : Ref sig .tc := ⟨.hbm, 1144, rfl⟩
abbrev main_v914 : Ref sig .tc := ⟨.hbm, 1145, rfl⟩
abbrev main_v915 : Ref sig .tc := ⟨.hbm, 1146, rfl⟩
abbrev main_cst_218 : Ref sig .tc := ⟨.hbm, 1147, rfl⟩
abbrev main_v916 : Ref sig .tc := ⟨.hbm, 1148, rfl⟩
abbrev main_v917 : Ref sig .tc := ⟨.hbm, 1149, rfl⟩
abbrev main_v918 : Ref sig .tc := ⟨.hbm, 1150, rfl⟩
abbrev main_cst_219 : Ref sig .tc := ⟨.hbm, 1151, rfl⟩
abbrev main_v919 : Ref sig .tc := ⟨.hbm, 1152, rfl⟩
abbrev main_v920 : Ref sig .tc := ⟨.hbm, 1153, rfl⟩
abbrev main_v921 : Ref sig .tc := ⟨.hbm, 1154, rfl⟩
abbrev main_cst_220 : Ref sig .tc := ⟨.hbm, 1155, rfl⟩
abbrev main_v922 : Ref sig .tc := ⟨.hbm, 1156, rfl⟩
abbrev main_v923 : Ref sig .tc := ⟨.hbm, 1157, rfl⟩
abbrev main_v924 : Ref sig .tc := ⟨.hbm, 1158, rfl⟩
abbrev main_cst_221 : Ref sig .tc := ⟨.hbm, 1159, rfl⟩
abbrev main_v925 : Ref sig .tc := ⟨.hbm, 1160, rfl⟩
abbrev main_v926 : Ref sig .tc := ⟨.hbm, 1161, rfl⟩
abbrev main_v927 : Ref sig .tc := ⟨.hbm, 1162, rfl⟩
abbrev main_cst_222 : Ref sig .tc := ⟨.hbm, 1163, rfl⟩
abbrev main_v928 : Ref sig .tc := ⟨.hbm, 1164, rfl⟩
abbrev main_v929 : Ref sig .tc := ⟨.hbm, 1165, rfl⟩
abbrev main_v930 : Ref sig .tc := ⟨.hbm, 1166, rfl⟩
abbrev main_cst_223 : Ref sig .tc := ⟨.hbm, 1167, rfl⟩
abbrev main_v931 : Ref sig .tc := ⟨.hbm, 1168, rfl⟩
abbrev main_v932 : Ref sig .tc := ⟨.hbm, 1169, rfl⟩
abbrev main_v933 : Ref sig .tc := ⟨.hbm, 1170, rfl⟩
abbrev main_cst_224 : Ref sig .tc := ⟨.hbm, 1171, rfl⟩
abbrev main_v934 : Ref sig .tc := ⟨.hbm, 1172, rfl⟩
abbrev main_v935 : Ref sig .tc := ⟨.hbm, 1173, rfl⟩
abbrev main_v936 : Ref sig .tc := ⟨.hbm, 1174, rfl⟩
abbrev main_cst_225 : Ref sig .tc := ⟨.hbm, 1175, rfl⟩
abbrev main_v937 : Ref sig .tc := ⟨.hbm, 1176, rfl⟩
abbrev main_v938 : Ref sig .tc := ⟨.hbm, 1177, rfl⟩
abbrev main_v939 : Ref sig .tc := ⟨.hbm, 1178, rfl⟩
abbrev main_v940 : Ref sig .tc := ⟨.hbm, 1179, rfl⟩
abbrev main_v941 : Ref sig .tc := ⟨.hbm, 1180, rfl⟩
abbrev main_v942 : Ref sig .tc := ⟨.hbm, 1181, rfl⟩
abbrev main_v943 : Ref sig .tc := ⟨.hbm, 1182, rfl⟩
abbrev main_v944 : Ref sig .tc := ⟨.hbm, 1183, rfl⟩
abbrev main_v945 : Ref sig .tc := ⟨.hbm, 1184, rfl⟩
abbrev main_v946 : Ref sig .tc := ⟨.hbm, 1185, rfl⟩
abbrev main_v947 : Ref sig .tc := ⟨.hbm, 1186, rfl⟩
abbrev main_v948 : Ref sig .tc := ⟨.hbm, 1187, rfl⟩
abbrev main_v949 : Ref sig .tc := ⟨.hbm, 1188, rfl⟩
abbrev main_cst_226 : Ref sig .tc := ⟨.hbm, 1189, rfl⟩
abbrev main_v950 : Ref sig .tc := ⟨.hbm, 1190, rfl⟩
abbrev main_v951 : Ref sig .tc := ⟨.hbm, 1191, rfl⟩
abbrev main_v952 : Ref sig .tc := ⟨.hbm, 1192, rfl⟩
abbrev main_cst_227 : Ref sig .tc := ⟨.hbm, 1193, rfl⟩
abbrev main_v953 : Ref sig .tc := ⟨.hbm, 1194, rfl⟩
abbrev main_v954 : Ref sig .tc := ⟨.hbm, 1195, rfl⟩
abbrev main_v955 : Ref sig .tc := ⟨.hbm, 1196, rfl⟩
abbrev main_cst_228 : Ref sig .tc := ⟨.hbm, 1197, rfl⟩
abbrev main_v956 : Ref sig .tc := ⟨.hbm, 1198, rfl⟩
abbrev main_v957 : Ref sig .tc := ⟨.hbm, 1199, rfl⟩
abbrev main_v958 : Ref sig .tc := ⟨.hbm, 1200, rfl⟩
abbrev main_cst_229 : Ref sig .tc := ⟨.hbm, 1201, rfl⟩
abbrev main_v959 : Ref sig .tc := ⟨.hbm, 1202, rfl⟩
abbrev main_v960 : Ref sig .tc := ⟨.hbm, 1203, rfl⟩
abbrev main_v961 : Ref sig .tc := ⟨.hbm, 1204, rfl⟩
abbrev main_cst_230 : Ref sig .tc := ⟨.hbm, 1205, rfl⟩
abbrev main_v962 : Ref sig .tc := ⟨.hbm, 1206, rfl⟩
abbrev main_v963 : Ref sig .tc := ⟨.hbm, 1207, rfl⟩
abbrev main_v964 : Ref sig .tc := ⟨.hbm, 1208, rfl⟩
abbrev main_cst_231 : Ref sig .tc := ⟨.hbm, 1209, rfl⟩
abbrev main_v965 : Ref sig .tc := ⟨.hbm, 1210, rfl⟩
abbrev main_v966 : Ref sig .tc := ⟨.hbm, 1211, rfl⟩
abbrev main_v967 : Ref sig .tc := ⟨.hbm, 1212, rfl⟩
abbrev main_cst_232 : Ref sig .tc := ⟨.hbm, 1213, rfl⟩
abbrev main_v968 : Ref sig .tc := ⟨.hbm, 1214, rfl⟩
abbrev main_v969 : Ref sig .tc := ⟨.hbm, 1215, rfl⟩
abbrev main_v970 : Ref sig .tc := ⟨.hbm, 1216, rfl⟩
abbrev main_cst_233 : Ref sig .tc := ⟨.hbm, 1217, rfl⟩
abbrev main_v971 : Ref sig .tc := ⟨.hbm, 1218, rfl⟩
abbrev main_v972 : Ref sig .tc := ⟨.hbm, 1219, rfl⟩
abbrev main_v973 : Ref sig .tc := ⟨.hbm, 1220, rfl⟩
abbrev main_cst_234 : Ref sig .tc := ⟨.hbm, 1221, rfl⟩
abbrev main_v974 : Ref sig .tc := ⟨.hbm, 1222, rfl⟩
abbrev main_v975 : Ref sig .tc := ⟨.hbm, 1223, rfl⟩
abbrev main_v976 : Ref sig .tc := ⟨.hbm, 1224, rfl⟩
abbrev main_v977 : Ref sig .tc := ⟨.hbm, 1225, rfl⟩
abbrev main_v978 : Ref sig .tc := ⟨.hbm, 1226, rfl⟩
abbrev main_v979 : Ref sig .tc := ⟨.hbm, 1227, rfl⟩
abbrev main_v980 : Ref sig .tc := ⟨.hbm, 1228, rfl⟩
abbrev main_v981 : Ref sig .tc := ⟨.hbm, 1229, rfl⟩
abbrev main_v982 : Ref sig .tc := ⟨.hbm, 1230, rfl⟩
abbrev main_v983 : Ref sig .tc := ⟨.hbm, 1231, rfl⟩
abbrev main_v984 : Ref sig .tc := ⟨.hbm, 1232, rfl⟩
abbrev main_v985 : Ref sig .tc := ⟨.hbm, 1233, rfl⟩
abbrev main_v986 : Ref sig .tc := ⟨.hbm, 1234, rfl⟩
abbrev main_cst_235 : Ref sig .tc := ⟨.hbm, 1235, rfl⟩
abbrev main_v987 : Ref sig .tc := ⟨.hbm, 1236, rfl⟩
abbrev main_v988 : Ref sig .tc := ⟨.hbm, 1237, rfl⟩
abbrev main_v989 : Ref sig .tc := ⟨.hbm, 1238, rfl⟩
abbrev main_cst_236 : Ref sig .tc := ⟨.hbm, 1239, rfl⟩
abbrev main_v990 : Ref sig .tc := ⟨.hbm, 1240, rfl⟩
abbrev main_v991 : Ref sig .tc := ⟨.hbm, 1241, rfl⟩
abbrev main_v992 : Ref sig .tc := ⟨.hbm, 1242, rfl⟩
abbrev main_cst_237 : Ref sig .tc := ⟨.hbm, 1243, rfl⟩
abbrev main_v993 : Ref sig .tc := ⟨.hbm, 1244, rfl⟩
abbrev main_v994 : Ref sig .tc := ⟨.hbm, 1245, rfl⟩
abbrev main_v995 : Ref sig .tc := ⟨.hbm, 1246, rfl⟩
abbrev main_cst_238 : Ref sig .tc := ⟨.hbm, 1247, rfl⟩
abbrev main_v996 : Ref sig .tc := ⟨.hbm, 1248, rfl⟩
abbrev main_v997 : Ref sig .tc := ⟨.hbm, 1249, rfl⟩
abbrev main_v998 : Ref sig .tc := ⟨.hbm, 1250, rfl⟩
abbrev main_cst_239 : Ref sig .tc := ⟨.hbm, 1251, rfl⟩
abbrev main_v999 : Ref sig .tc := ⟨.hbm, 1252, rfl⟩
abbrev main_v1000 : Ref sig .tc := ⟨.hbm, 1253, rfl⟩
abbrev main_v1001 : Ref sig .tc := ⟨.hbm, 1254, rfl⟩
abbrev main_cst_240 : Ref sig .tc := ⟨.hbm, 1255, rfl⟩
abbrev main_v1002 : Ref sig .tc := ⟨.hbm, 1256, rfl⟩
abbrev main_v1003 : Ref sig .tc := ⟨.hbm, 1257, rfl⟩
abbrev main_v1004 : Ref sig .tc := ⟨.hbm, 1258, rfl⟩
abbrev main_cst_241 : Ref sig .tc := ⟨.hbm, 1259, rfl⟩
abbrev main_v1005 : Ref sig .tc := ⟨.hbm, 1260, rfl⟩
abbrev main_v1006 : Ref sig .tc := ⟨.hbm, 1261, rfl⟩
abbrev main_v1007 : Ref sig .tc := ⟨.hbm, 1262, rfl⟩
abbrev main_cst_242 : Ref sig .tc := ⟨.hbm, 1263, rfl⟩
abbrev main_v1008 : Ref sig .tc := ⟨.hbm, 1264, rfl⟩
abbrev main_v1009 : Ref sig .tc := ⟨.hbm, 1265, rfl⟩
abbrev main_v1010 : Ref sig .tc := ⟨.hbm, 1266, rfl⟩
abbrev main_cst_243 : Ref sig .tc := ⟨.hbm, 1267, rfl⟩
abbrev main_v1011 : Ref sig .tc := ⟨.hbm, 1268, rfl⟩
abbrev main_v1012 : Ref sig .tc := ⟨.hbm, 1269, rfl⟩
abbrev main_v1013 : Ref sig .tc := ⟨.hbm, 1270, rfl⟩
abbrev main_v1014 : Ref sig .tc := ⟨.hbm, 1271, rfl⟩
abbrev main_v1015 : Ref sig .tc := ⟨.hbm, 1272, rfl⟩
abbrev main_v1016 : Ref sig .tc := ⟨.hbm, 1273, rfl⟩
abbrev main_v1017 : Ref sig .tc := ⟨.hbm, 1274, rfl⟩
abbrev main_v1018 : Ref sig .tc := ⟨.hbm, 1275, rfl⟩
abbrev main_v1019 : Ref sig .tc := ⟨.hbm, 1276, rfl⟩
abbrev main_v1020 : Ref sig .tc := ⟨.hbm, 1277, rfl⟩
abbrev main_v1021 : Ref sig .tc := ⟨.hbm, 1278, rfl⟩
abbrev main_v1022 : Ref sig .tc := ⟨.hbm, 1279, rfl⟩
abbrev main_v1023 : Ref sig .tc := ⟨.hbm, 1280, rfl⟩
abbrev main_v1024 : Ref sig .tc := ⟨.hbm, 1281, rfl⟩
abbrev main_v1025 : Ref sig .tc := ⟨.hbm, 1282, rfl⟩
abbrev main_v1026 : Ref sig .tc := ⟨.hbm, 1283, rfl⟩
abbrev main_v1027 : Ref sig .tc := ⟨.hbm, 1284, rfl⟩
abbrev main_v1028 : Ref sig .tc := ⟨.hbm, 1285, rfl⟩
abbrev main_v1029 : Ref sig .tc := ⟨.hbm, 1286, rfl⟩
abbrev main_v1030 : Ref sig .tc := ⟨.hbm, 1287, rfl⟩
abbrev main_v1031 : Ref sig .tc := ⟨.hbm, 1288, rfl⟩
abbrev main_c_244 : Ref sig .tc := ⟨.hbm, 1289, rfl⟩
abbrev main_call3_v0 : Ref sig .tc := ⟨.hbm, 1290, rfl⟩
abbrev main_v1032 : Ref sig .tc := ⟨.hbm, 1291, rfl⟩
abbrev main_v1033 : Ref sig .tc := ⟨.hbm, 1292, rfl⟩
abbrev main_v1034 : Ref sig .tc := ⟨.hbm, 1293, rfl⟩
abbrev main_cst_245 : Ref sig .tc := ⟨.hbm, 1294, rfl⟩
abbrev main_v1035 : Ref sig .tc := ⟨.hbm, 1295, rfl⟩
abbrev main_v1036 : Ref sig .tc := ⟨.hbm, 1296, rfl⟩
abbrev main_v1037 : Ref sig .tc := ⟨.hbm, 1297, rfl⟩
abbrev main_cst_246 : Ref sig .tc := ⟨.hbm, 1298, rfl⟩
abbrev main_v1038 : Ref sig .tc := ⟨.hbm, 1299, rfl⟩
abbrev main_v1039 : Ref sig .tc := ⟨.hbm, 1300, rfl⟩
abbrev main_v1040 : Ref sig .tc := ⟨.hbm, 1301, rfl⟩
abbrev main_cst_247 : Ref sig .tc := ⟨.hbm, 1302, rfl⟩
abbrev main_v1041 : Ref sig .tc := ⟨.hbm, 1303, rfl⟩
abbrev main_v1042 : Ref sig .tc := ⟨.hbm, 1304, rfl⟩
abbrev main_v1043 : Ref sig .tc := ⟨.hbm, 1305, rfl⟩
abbrev main_cst_248 : Ref sig .tc := ⟨.hbm, 1306, rfl⟩
abbrev main_v1044 : Ref sig .tc := ⟨.hbm, 1307, rfl⟩
abbrev main_v1045 : Ref sig .tc := ⟨.hbm, 1308, rfl⟩
abbrev main_v1046 : Ref sig .tc := ⟨.hbm, 1309, rfl⟩
abbrev main_cst_249 : Ref sig .tc := ⟨.hbm, 1310, rfl⟩
abbrev main_v1047 : Ref sig .tc := ⟨.hbm, 1311, rfl⟩
abbrev main_v1048 : Ref sig .tc := ⟨.hbm, 1312, rfl⟩
abbrev main_v1049 : Ref sig .tc := ⟨.hbm, 1313, rfl⟩
abbrev main_cst_250 : Ref sig .tc := ⟨.hbm, 1314, rfl⟩
abbrev main_v1050 : Ref sig .tc := ⟨.hbm, 1315, rfl⟩
abbrev main_v1051 : Ref sig .tc := ⟨.hbm, 1316, rfl⟩
abbrev main_v1052 : Ref sig .tc := ⟨.hbm, 1317, rfl⟩
abbrev main_cst_251 : Ref sig .tc := ⟨.hbm, 1318, rfl⟩
abbrev main_v1053 : Ref sig .tc := ⟨.hbm, 1319, rfl⟩
abbrev main_v1054 : Ref sig .tc := ⟨.hbm, 1320, rfl⟩
abbrev main_v1055 : Ref sig .tc := ⟨.hbm, 1321, rfl⟩
abbrev main_cst_252 : Ref sig .tc := ⟨.hbm, 1322, rfl⟩
abbrev main_v1056 : Ref sig .tc := ⟨.hbm, 1323, rfl⟩
abbrev main_v1057 : Ref sig .tc := ⟨.hbm, 1324, rfl⟩
abbrev main_v1058 : Ref sig .tc := ⟨.hbm, 1325, rfl⟩
abbrev main_cst_253 : Ref sig .tc := ⟨.hbm, 1326, rfl⟩
abbrev main_v1059 : Ref sig .tc := ⟨.hbm, 1327, rfl⟩
abbrev main_v1060 : Ref sig .tc := ⟨.hbm, 1328, rfl⟩
abbrev main_v1061 : Ref sig .tc := ⟨.hbm, 1329, rfl⟩
abbrev main_v1062 : Ref sig .tc := ⟨.hbm, 1330, rfl⟩
abbrev main_v1063 : Ref sig .tc := ⟨.hbm, 1331, rfl⟩
abbrev main_v1064 : Ref sig .tc := ⟨.hbm, 1332, rfl⟩
abbrev main_v1065 : Ref sig .tc := ⟨.hbm, 1333, rfl⟩
abbrev main_v1066 : Ref sig .tc := ⟨.hbm, 1334, rfl⟩
abbrev main_v1067 : Ref sig .tc := ⟨.hbm, 1335, rfl⟩
abbrev main_v1068 : Ref sig .tc := ⟨.hbm, 1336, rfl⟩
abbrev main_v1069 : Ref sig .tc := ⟨.hbm, 1337, rfl⟩
abbrev main_v1070 : Ref sig .tc := ⟨.hbm, 1338, rfl⟩
abbrev main_v1071 : Ref sig .tc := ⟨.hbm, 1339, rfl⟩
abbrev main_cst_254 : Ref sig .tc := ⟨.hbm, 1340, rfl⟩
abbrev main_v1072 : Ref sig .tc := ⟨.hbm, 1341, rfl⟩
abbrev main_v1073 : Ref sig .tc := ⟨.hbm, 1342, rfl⟩
abbrev main_v1074 : Ref sig .tc := ⟨.hbm, 1343, rfl⟩
abbrev main_cst_255 : Ref sig .tc := ⟨.hbm, 1344, rfl⟩
abbrev main_v1075 : Ref sig .tc := ⟨.hbm, 1345, rfl⟩
abbrev main_v1076 : Ref sig .tc := ⟨.hbm, 1346, rfl⟩
abbrev main_v1077 : Ref sig .tc := ⟨.hbm, 1347, rfl⟩
abbrev main_cst_256 : Ref sig .tc := ⟨.hbm, 1348, rfl⟩
abbrev main_v1078 : Ref sig .tc := ⟨.hbm, 1349, rfl⟩
abbrev main_v1079 : Ref sig .tc := ⟨.hbm, 1350, rfl⟩
abbrev main_v1080 : Ref sig .tc := ⟨.hbm, 1351, rfl⟩
abbrev main_cst_257 : Ref sig .tc := ⟨.hbm, 1352, rfl⟩
abbrev main_v1081 : Ref sig .tc := ⟨.hbm, 1353, rfl⟩
abbrev main_v1082 : Ref sig .tc := ⟨.hbm, 1354, rfl⟩
abbrev main_v1083 : Ref sig .tc := ⟨.hbm, 1355, rfl⟩
abbrev main_cst_258 : Ref sig .tc := ⟨.hbm, 1356, rfl⟩
abbrev main_v1084 : Ref sig .tc := ⟨.hbm, 1357, rfl⟩
abbrev main_v1085 : Ref sig .tc := ⟨.hbm, 1358, rfl⟩
abbrev main_v1086 : Ref sig .tc := ⟨.hbm, 1359, rfl⟩
abbrev main_cst_259 : Ref sig .tc := ⟨.hbm, 1360, rfl⟩
abbrev main_v1087 : Ref sig .tc := ⟨.hbm, 1361, rfl⟩
abbrev main_v1088 : Ref sig .tc := ⟨.hbm, 1362, rfl⟩
abbrev main_v1089 : Ref sig .tc := ⟨.hbm, 1363, rfl⟩
abbrev main_cst_260 : Ref sig .tc := ⟨.hbm, 1364, rfl⟩
abbrev main_v1090 : Ref sig .tc := ⟨.hbm, 1365, rfl⟩
abbrev main_v1091 : Ref sig .tc := ⟨.hbm, 1366, rfl⟩
abbrev main_v1092 : Ref sig .tc := ⟨.hbm, 1367, rfl⟩
abbrev main_cst_261 : Ref sig .tc := ⟨.hbm, 1368, rfl⟩
abbrev main_v1093 : Ref sig .tc := ⟨.hbm, 1369, rfl⟩
abbrev main_v1094 : Ref sig .tc := ⟨.hbm, 1370, rfl⟩
abbrev main_v1095 : Ref sig .tc := ⟨.hbm, 1371, rfl⟩
abbrev main_cst_262 : Ref sig .tc := ⟨.hbm, 1372, rfl⟩
abbrev main_v1096 : Ref sig .tc := ⟨.hbm, 1373, rfl⟩
abbrev main_v1097 : Ref sig .tc := ⟨.hbm, 1374, rfl⟩
abbrev main_v1098 : Ref sig .tc := ⟨.hbm, 1375, rfl⟩
abbrev main_v1099 : Ref sig .tc := ⟨.hbm, 1376, rfl⟩
abbrev main_v1100 : Ref sig .tc := ⟨.hbm, 1377, rfl⟩
abbrev main_v1101 : Ref sig .tc := ⟨.hbm, 1378, rfl⟩
abbrev main_v1102 : Ref sig .tc := ⟨.hbm, 1379, rfl⟩
abbrev main_v1103 : Ref sig .tc := ⟨.hbm, 1380, rfl⟩
abbrev main_v1104 : Ref sig .tc := ⟨.hbm, 1381, rfl⟩
abbrev main_v1105 : Ref sig .tc := ⟨.hbm, 1382, rfl⟩
abbrev main_v1106 : Ref sig .tc := ⟨.hbm, 1383, rfl⟩
abbrev main_v1107 : Ref sig .tc := ⟨.hbm, 1384, rfl⟩
abbrev main_v1108 : Ref sig .tc := ⟨.hbm, 1385, rfl⟩
abbrev main_cst_263 : Ref sig .tc := ⟨.hbm, 1386, rfl⟩
abbrev main_v1109 : Ref sig .tc := ⟨.hbm, 1387, rfl⟩
abbrev main_v1110 : Ref sig .tc := ⟨.hbm, 1388, rfl⟩
abbrev main_v1111 : Ref sig .tc := ⟨.hbm, 1389, rfl⟩
abbrev main_cst_264 : Ref sig .tc := ⟨.hbm, 1390, rfl⟩
abbrev main_v1112 : Ref sig .tc := ⟨.hbm, 1391, rfl⟩
abbrev main_v1113 : Ref sig .tc := ⟨.hbm, 1392, rfl⟩
abbrev main_v1114 : Ref sig .tc := ⟨.hbm, 1393, rfl⟩
abbrev main_cst_265 : Ref sig .tc := ⟨.hbm, 1394, rfl⟩
abbrev main_v1115 : Ref sig .tc := ⟨.hbm, 1395, rfl⟩
abbrev main_v1116 : Ref sig .tc := ⟨.hbm, 1396, rfl⟩
abbrev main_v1117 : Ref sig .tc := ⟨.hbm, 1397, rfl⟩
abbrev main_cst_266 : Ref sig .tc := ⟨.hbm, 1398, rfl⟩
abbrev main_v1118 : Ref sig .tc := ⟨.hbm, 1399, rfl⟩
abbrev main_v1119 : Ref sig .tc := ⟨.hbm, 1400, rfl⟩
abbrev main_v1120 : Ref sig .tc := ⟨.hbm, 1401, rfl⟩
abbrev main_cst_267 : Ref sig .tc := ⟨.hbm, 1402, rfl⟩
abbrev main_v1121 : Ref sig .tc := ⟨.hbm, 1403, rfl⟩
abbrev main_v1122 : Ref sig .tc := ⟨.hbm, 1404, rfl⟩
abbrev main_v1123 : Ref sig .tc := ⟨.hbm, 1405, rfl⟩
abbrev main_cst_268 : Ref sig .tc := ⟨.hbm, 1406, rfl⟩
abbrev main_v1124 : Ref sig .tc := ⟨.hbm, 1407, rfl⟩
abbrev main_v1125 : Ref sig .tc := ⟨.hbm, 1408, rfl⟩
abbrev main_v1126 : Ref sig .tc := ⟨.hbm, 1409, rfl⟩
abbrev main_cst_269 : Ref sig .tc := ⟨.hbm, 1410, rfl⟩
abbrev main_v1127 : Ref sig .tc := ⟨.hbm, 1411, rfl⟩
abbrev main_v1128 : Ref sig .tc := ⟨.hbm, 1412, rfl⟩
abbrev main_v1129 : Ref sig .tc := ⟨.hbm, 1413, rfl⟩
abbrev main_cst_270 : Ref sig .tc := ⟨.hbm, 1414, rfl⟩
abbrev main_v1130 : Ref sig .tc := ⟨.hbm, 1415, rfl⟩
abbrev main_v1131 : Ref sig .tc := ⟨.hbm, 1416, rfl⟩
abbrev main_v1132 : Ref sig .tc := ⟨.hbm, 1417, rfl⟩
abbrev main_cst_271 : Ref sig .tc := ⟨.hbm, 1418, rfl⟩
abbrev main_v1133 : Ref sig .tc := ⟨.hbm, 1419, rfl⟩
abbrev main_v1134 : Ref sig .tc := ⟨.hbm, 1420, rfl⟩
abbrev main_v1135 : Ref sig .tc := ⟨.hbm, 1421, rfl⟩
abbrev main_v1136 : Ref sig .tc := ⟨.hbm, 1422, rfl⟩
abbrev main_v1137 : Ref sig .tc := ⟨.hbm, 1423, rfl⟩
abbrev main_v1138 : Ref sig .tc := ⟨.hbm, 1424, rfl⟩
abbrev main_v1139 : Ref sig .tc := ⟨.hbm, 1425, rfl⟩
abbrev main_v1140 : Ref sig .tc := ⟨.hbm, 1426, rfl⟩
abbrev main_v1141 : Ref sig .tc := ⟨.hbm, 1427, rfl⟩
abbrev main_v1142 : Ref sig .tc := ⟨.hbm, 1428, rfl⟩
abbrev main_v1143 : Ref sig .tc := ⟨.hbm, 1429, rfl⟩
abbrev main_v1144 : Ref sig .tc := ⟨.hbm, 1430, rfl⟩
abbrev main_v1145 : Ref sig .tc := ⟨.hbm, 1431, rfl⟩
abbrev main_cst_272 : Ref sig .tc := ⟨.hbm, 1432, rfl⟩
abbrev main_v1146 : Ref sig .tc := ⟨.hbm, 1433, rfl⟩
abbrev main_v1147 : Ref sig .tc := ⟨.hbm, 1434, rfl⟩
abbrev main_v1148 : Ref sig .tc := ⟨.hbm, 1435, rfl⟩
abbrev main_cst_273 : Ref sig .tc := ⟨.hbm, 1436, rfl⟩
abbrev main_v1149 : Ref sig .tc := ⟨.hbm, 1437, rfl⟩
abbrev main_v1150 : Ref sig .tc := ⟨.hbm, 1438, rfl⟩
abbrev main_v1151 : Ref sig .tc := ⟨.hbm, 1439, rfl⟩
abbrev main_cst_274 : Ref sig .tc := ⟨.hbm, 1440, rfl⟩
abbrev main_v1152 : Ref sig .tc := ⟨.hbm, 1441, rfl⟩
abbrev main_v1153 : Ref sig .tc := ⟨.hbm, 1442, rfl⟩
abbrev main_v1154 : Ref sig .tc := ⟨.hbm, 1443, rfl⟩
abbrev main_cst_275 : Ref sig .tc := ⟨.hbm, 1444, rfl⟩
abbrev main_v1155 : Ref sig .tc := ⟨.hbm, 1445, rfl⟩
abbrev main_v1156 : Ref sig .tc := ⟨.hbm, 1446, rfl⟩
abbrev main_v1157 : Ref sig .tc := ⟨.hbm, 1447, rfl⟩
abbrev main_cst_276 : Ref sig .tc := ⟨.hbm, 1448, rfl⟩
abbrev main_v1158 : Ref sig .tc := ⟨.hbm, 1449, rfl⟩
abbrev main_v1159 : Ref sig .tc := ⟨.hbm, 1450, rfl⟩
abbrev main_v1160 : Ref sig .tc := ⟨.hbm, 1451, rfl⟩
abbrev main_cst_277 : Ref sig .tc := ⟨.hbm, 1452, rfl⟩
abbrev main_v1161 : Ref sig .tc := ⟨.hbm, 1453, rfl⟩
abbrev main_v1162 : Ref sig .tc := ⟨.hbm, 1454, rfl⟩
abbrev main_v1163 : Ref sig .tc := ⟨.hbm, 1455, rfl⟩
abbrev main_cst_278 : Ref sig .tc := ⟨.hbm, 1456, rfl⟩
abbrev main_v1164 : Ref sig .tc := ⟨.hbm, 1457, rfl⟩
abbrev main_v1165 : Ref sig .tc := ⟨.hbm, 1458, rfl⟩
abbrev main_v1166 : Ref sig .tc := ⟨.hbm, 1459, rfl⟩
abbrev main_cst_279 : Ref sig .tc := ⟨.hbm, 1460, rfl⟩
abbrev main_v1167 : Ref sig .tc := ⟨.hbm, 1461, rfl⟩
abbrev main_v1168 : Ref sig .tc := ⟨.hbm, 1462, rfl⟩
abbrev main_v1169 : Ref sig .tc := ⟨.hbm, 1463, rfl⟩
abbrev main_cst_280 : Ref sig .tc := ⟨.hbm, 1464, rfl⟩
abbrev main_v1170 : Ref sig .tc := ⟨.hbm, 1465, rfl⟩
abbrev main_v1171 : Ref sig .tc := ⟨.hbm, 1466, rfl⟩
abbrev main_v1172 : Ref sig .tc := ⟨.hbm, 1467, rfl⟩
abbrev main_v1173 : Ref sig .tc := ⟨.hbm, 1468, rfl⟩
abbrev main_v1174 : Ref sig .tc := ⟨.hbm, 1469, rfl⟩
abbrev main_v1175 : Ref sig .tc := ⟨.hbm, 1470, rfl⟩
abbrev main_v1176 : Ref sig .tc := ⟨.hbm, 1471, rfl⟩
abbrev main_v1177 : Ref sig .tc := ⟨.hbm, 1472, rfl⟩
abbrev main_v1178 : Ref sig .tc := ⟨.hbm, 1473, rfl⟩
abbrev main_v1179 : Ref sig .tc := ⟨.hbm, 1474, rfl⟩
abbrev main_v1180 : Ref sig .tc := ⟨.hbm, 1475, rfl⟩
abbrev main_v1181 : Ref sig .tc := ⟨.hbm, 1476, rfl⟩
abbrev main_v1182 : Ref sig .tc := ⟨.hbm, 1477, rfl⟩
abbrev main_cst_281 : Ref sig .tc := ⟨.hbm, 1478, rfl⟩
abbrev main_v1183 : Ref sig .tc := ⟨.hbm, 1479, rfl⟩
abbrev main_v1184 : Ref sig .tc := ⟨.hbm, 1480, rfl⟩
abbrev main_v1185 : Ref sig .tc := ⟨.hbm, 1481, rfl⟩
abbrev main_cst_282 : Ref sig .tc := ⟨.hbm, 1482, rfl⟩
abbrev main_v1186 : Ref sig .tc := ⟨.hbm, 1483, rfl⟩
abbrev main_v1187 : Ref sig .tc := ⟨.hbm, 1484, rfl⟩
abbrev main_v1188 : Ref sig .tc := ⟨.hbm, 1485, rfl⟩
abbrev main_cst_283 : Ref sig .tc := ⟨.hbm, 1486, rfl⟩
abbrev main_v1189 : Ref sig .tc := ⟨.hbm, 1487, rfl⟩
abbrev main_v1190 : Ref sig .tc := ⟨.hbm, 1488, rfl⟩
abbrev main_v1191 : Ref sig .tc := ⟨.hbm, 1489, rfl⟩
abbrev main_cst_284 : Ref sig .tc := ⟨.hbm, 1490, rfl⟩
abbrev main_v1192 : Ref sig .tc := ⟨.hbm, 1491, rfl⟩
abbrev main_v1193 : Ref sig .tc := ⟨.hbm, 1492, rfl⟩
abbrev main_v1194 : Ref sig .tc := ⟨.hbm, 1493, rfl⟩
abbrev main_cst_285 : Ref sig .tc := ⟨.hbm, 1494, rfl⟩
abbrev main_v1195 : Ref sig .tc := ⟨.hbm, 1495, rfl⟩
abbrev main_v1196 : Ref sig .tc := ⟨.hbm, 1496, rfl⟩
abbrev main_v1197 : Ref sig .tc := ⟨.hbm, 1497, rfl⟩
abbrev main_cst_286 : Ref sig .tc := ⟨.hbm, 1498, rfl⟩
abbrev main_v1198 : Ref sig .tc := ⟨.hbm, 1499, rfl⟩
abbrev main_v1199 : Ref sig .tc := ⟨.hbm, 1500, rfl⟩
abbrev main_v1200 : Ref sig .tc := ⟨.hbm, 1501, rfl⟩
abbrev main_cst_287 : Ref sig .tc := ⟨.hbm, 1502, rfl⟩
abbrev main_v1201 : Ref sig .tc := ⟨.hbm, 1503, rfl⟩
abbrev main_v1202 : Ref sig .tc := ⟨.hbm, 1504, rfl⟩
abbrev main_v1203 : Ref sig .tc := ⟨.hbm, 1505, rfl⟩
abbrev main_cst_288 : Ref sig .tc := ⟨.hbm, 1506, rfl⟩
abbrev main_v1204 : Ref sig .tc := ⟨.hbm, 1507, rfl⟩
abbrev main_v1205 : Ref sig .tc := ⟨.hbm, 1508, rfl⟩
abbrev main_v1206 : Ref sig .tc := ⟨.hbm, 1509, rfl⟩
abbrev main_cst_289 : Ref sig .tc := ⟨.hbm, 1510, rfl⟩
abbrev main_v1207 : Ref sig .tc := ⟨.hbm, 1511, rfl⟩
abbrev main_v1208 : Ref sig .tc := ⟨.hbm, 1512, rfl⟩
abbrev main_v1209 : Ref sig .tc := ⟨.hbm, 1513, rfl⟩
abbrev main_v1210 : Ref sig .tc := ⟨.hbm, 1514, rfl⟩
abbrev main_v1211 : Ref sig .tc := ⟨.hbm, 1515, rfl⟩
abbrev main_v1212 : Ref sig .tc := ⟨.hbm, 1516, rfl⟩
abbrev main_v1213 : Ref sig .tc := ⟨.hbm, 1517, rfl⟩
abbrev main_v1214 : Ref sig .tc := ⟨.hbm, 1518, rfl⟩
abbrev main_v1215 : Ref sig .tc := ⟨.hbm, 1519, rfl⟩
abbrev main_v1216 : Ref sig .tc := ⟨.hbm, 1520, rfl⟩
abbrev main_v1217 : Ref sig .tc := ⟨.hbm, 1521, rfl⟩
abbrev main_v1218 : Ref sig .tc := ⟨.hbm, 1522, rfl⟩
abbrev main_v1219 : Ref sig .tc := ⟨.hbm, 1523, rfl⟩
abbrev main_cst_290 : Ref sig .tc := ⟨.hbm, 1524, rfl⟩
abbrev main_v1220 : Ref sig .tc := ⟨.hbm, 1525, rfl⟩
abbrev main_v1221 : Ref sig .tc := ⟨.hbm, 1526, rfl⟩
abbrev main_v1222 : Ref sig .tc := ⟨.hbm, 1527, rfl⟩
abbrev main_cst_291 : Ref sig .tc := ⟨.hbm, 1528, rfl⟩
abbrev main_v1223 : Ref sig .tc := ⟨.hbm, 1529, rfl⟩
abbrev main_v1224 : Ref sig .tc := ⟨.hbm, 1530, rfl⟩
abbrev main_v1225 : Ref sig .tc := ⟨.hbm, 1531, rfl⟩
abbrev main_cst_292 : Ref sig .tc := ⟨.hbm, 1532, rfl⟩
abbrev main_v1226 : Ref sig .tc := ⟨.hbm, 1533, rfl⟩
abbrev main_v1227 : Ref sig .tc := ⟨.hbm, 1534, rfl⟩
abbrev main_v1228 : Ref sig .tc := ⟨.hbm, 1535, rfl⟩
abbrev main_cst_293 : Ref sig .tc := ⟨.hbm, 1536, rfl⟩
abbrev main_v1229 : Ref sig .tc := ⟨.hbm, 1537, rfl⟩
abbrev main_v1230 : Ref sig .tc := ⟨.hbm, 1538, rfl⟩
abbrev main_v1231 : Ref sig .tc := ⟨.hbm, 1539, rfl⟩
abbrev main_cst_294 : Ref sig .tc := ⟨.hbm, 1540, rfl⟩
abbrev main_v1232 : Ref sig .tc := ⟨.hbm, 1541, rfl⟩
abbrev main_v1233 : Ref sig .tc := ⟨.hbm, 1542, rfl⟩
abbrev main_v1234 : Ref sig .tc := ⟨.hbm, 1543, rfl⟩
abbrev main_cst_295 : Ref sig .tc := ⟨.hbm, 1544, rfl⟩
abbrev main_v1235 : Ref sig .tc := ⟨.hbm, 1545, rfl⟩
abbrev main_v1236 : Ref sig .tc := ⟨.hbm, 1546, rfl⟩
abbrev main_v1237 : Ref sig .tc := ⟨.hbm, 1547, rfl⟩
abbrev main_cst_296 : Ref sig .tc := ⟨.hbm, 1548, rfl⟩
abbrev main_v1238 : Ref sig .tc := ⟨.hbm, 1549, rfl⟩
abbrev main_v1239 : Ref sig .tc := ⟨.hbm, 1550, rfl⟩
abbrev main_v1240 : Ref sig .tc := ⟨.hbm, 1551, rfl⟩
abbrev main_cst_297 : Ref sig .tc := ⟨.hbm, 1552, rfl⟩
abbrev main_v1241 : Ref sig .tc := ⟨.hbm, 1553, rfl⟩
abbrev main_v1242 : Ref sig .tc := ⟨.hbm, 1554, rfl⟩
abbrev main_v1243 : Ref sig .tc := ⟨.hbm, 1555, rfl⟩
abbrev main_cst_298 : Ref sig .tc := ⟨.hbm, 1556, rfl⟩
abbrev main_v1244 : Ref sig .tc := ⟨.hbm, 1557, rfl⟩
abbrev main_v1245 : Ref sig .tc := ⟨.hbm, 1558, rfl⟩
abbrev main_v1246 : Ref sig .tc := ⟨.hbm, 1559, rfl⟩
abbrev main_v1247 : Ref sig .tc := ⟨.hbm, 1560, rfl⟩
abbrev main_v1248 : Ref sig .tc := ⟨.hbm, 1561, rfl⟩
abbrev main_v1249 : Ref sig .tc := ⟨.hbm, 1562, rfl⟩
abbrev main_v1250 : Ref sig .tc := ⟨.hbm, 1563, rfl⟩
abbrev main_v1251 : Ref sig .tc := ⟨.hbm, 1564, rfl⟩
abbrev main_v1252 : Ref sig .tc := ⟨.hbm, 1565, rfl⟩
abbrev main_v1253 : Ref sig .tc := ⟨.hbm, 1566, rfl⟩
abbrev main_v1254 : Ref sig .tc := ⟨.hbm, 1567, rfl⟩
abbrev main_v1255 : Ref sig .tc := ⟨.hbm, 1568, rfl⟩
abbrev main_v1256 : Ref sig .tc := ⟨.hbm, 1569, rfl⟩
abbrev main_cst_299 : Ref sig .tc := ⟨.hbm, 1570, rfl⟩
abbrev main_v1257 : Ref sig .tc := ⟨.hbm, 1571, rfl⟩
abbrev main_v1258 : Ref sig .tc := ⟨.hbm, 1572, rfl⟩
abbrev main_v1259 : Ref sig .tc := ⟨.hbm, 1573, rfl⟩
abbrev main_cst_300 : Ref sig .tc := ⟨.hbm, 1574, rfl⟩
abbrev main_v1260 : Ref sig .tc := ⟨.hbm, 1575, rfl⟩
abbrev main_v1261 : Ref sig .tc := ⟨.hbm, 1576, rfl⟩
abbrev main_v1262 : Ref sig .tc := ⟨.hbm, 1577, rfl⟩
abbrev main_cst_301 : Ref sig .tc := ⟨.hbm, 1578, rfl⟩
abbrev main_v1263 : Ref sig .tc := ⟨.hbm, 1579, rfl⟩
abbrev main_v1264 : Ref sig .tc := ⟨.hbm, 1580, rfl⟩
abbrev main_v1265 : Ref sig .tc := ⟨.hbm, 1581, rfl⟩
abbrev main_cst_302 : Ref sig .tc := ⟨.hbm, 1582, rfl⟩
abbrev main_v1266 : Ref sig .tc := ⟨.hbm, 1583, rfl⟩
abbrev main_v1267 : Ref sig .tc := ⟨.hbm, 1584, rfl⟩
abbrev main_v1268 : Ref sig .tc := ⟨.hbm, 1585, rfl⟩
abbrev main_cst_303 : Ref sig .tc := ⟨.hbm, 1586, rfl⟩
abbrev main_v1269 : Ref sig .tc := ⟨.hbm, 1587, rfl⟩
abbrev main_v1270 : Ref sig .tc := ⟨.hbm, 1588, rfl⟩
abbrev main_v1271 : Ref sig .tc := ⟨.hbm, 1589, rfl⟩
abbrev main_cst_304 : Ref sig .tc := ⟨.hbm, 1590, rfl⟩
abbrev main_v1272 : Ref sig .tc := ⟨.hbm, 1591, rfl⟩
abbrev main_v1273 : Ref sig .tc := ⟨.hbm, 1592, rfl⟩
abbrev main_v1274 : Ref sig .tc := ⟨.hbm, 1593, rfl⟩
abbrev main_cst_305 : Ref sig .tc := ⟨.hbm, 1594, rfl⟩
abbrev main_v1275 : Ref sig .tc := ⟨.hbm, 1595, rfl⟩
abbrev main_v1276 : Ref sig .tc := ⟨.hbm, 1596, rfl⟩
abbrev main_v1277 : Ref sig .tc := ⟨.hbm, 1597, rfl⟩
abbrev main_cst_306 : Ref sig .tc := ⟨.hbm, 1598, rfl⟩
abbrev main_v1278 : Ref sig .tc := ⟨.hbm, 1599, rfl⟩
abbrev main_v1279 : Ref sig .tc := ⟨.hbm, 1600, rfl⟩
abbrev main_v1280 : Ref sig .tc := ⟨.hbm, 1601, rfl⟩
abbrev main_cst_307 : Ref sig .tc := ⟨.hbm, 1602, rfl⟩
abbrev main_v1281 : Ref sig .tc := ⟨.hbm, 1603, rfl⟩
abbrev main_v1282 : Ref sig .tc := ⟨.hbm, 1604, rfl⟩
abbrev main_v1283 : Ref sig .tc := ⟨.hbm, 1605, rfl⟩
abbrev main_v1284 : Ref sig .tc := ⟨.hbm, 1606, rfl⟩
abbrev main_v1285 : Ref sig .tc := ⟨.hbm, 1607, rfl⟩
abbrev main_v1286 : Ref sig .tc := ⟨.hbm, 1608, rfl⟩
abbrev main_v1287 : Ref sig .tc := ⟨.hbm, 1609, rfl⟩
abbrev main_v1288 : Ref sig .tc := ⟨.hbm, 1610, rfl⟩
abbrev main_v1289 : Ref sig .tc := ⟨.hbm, 1611, rfl⟩
abbrev main_v1290 : Ref sig .tc := ⟨.hbm, 1612, rfl⟩
abbrev main_v1291 : Ref sig .tc := ⟨.hbm, 1613, rfl⟩
abbrev main_v1292 : Ref sig .tc := ⟨.hbm, 1614, rfl⟩
abbrev main_v1293 : Ref sig .tc := ⟨.hbm, 1615, rfl⟩
abbrev main_cst_308 : Ref sig .tc := ⟨.hbm, 1616, rfl⟩
abbrev main_v1294 : Ref sig .tc := ⟨.hbm, 1617, rfl⟩
abbrev main_v1295 : Ref sig .tc := ⟨.hbm, 1618, rfl⟩
abbrev main_v1296 : Ref sig .tc := ⟨.hbm, 1619, rfl⟩
abbrev main_cst_309 : Ref sig .tc := ⟨.hbm, 1620, rfl⟩
abbrev main_v1297 : Ref sig .tc := ⟨.hbm, 1621, rfl⟩
abbrev main_v1298 : Ref sig .tc := ⟨.hbm, 1622, rfl⟩
abbrev main_v1299 : Ref sig .tc := ⟨.hbm, 1623, rfl⟩
abbrev main_cst_310 : Ref sig .tc := ⟨.hbm, 1624, rfl⟩
abbrev main_v1300 : Ref sig .tc := ⟨.hbm, 1625, rfl⟩
abbrev main_v1301 : Ref sig .tc := ⟨.hbm, 1626, rfl⟩
abbrev main_v1302 : Ref sig .tc := ⟨.hbm, 1627, rfl⟩
abbrev main_cst_311 : Ref sig .tc := ⟨.hbm, 1628, rfl⟩
abbrev main_v1303 : Ref sig .tc := ⟨.hbm, 1629, rfl⟩
abbrev main_v1304 : Ref sig .tc := ⟨.hbm, 1630, rfl⟩
abbrev main_v1305 : Ref sig .tc := ⟨.hbm, 1631, rfl⟩
abbrev main_cst_312 : Ref sig .tc := ⟨.hbm, 1632, rfl⟩
abbrev main_v1306 : Ref sig .tc := ⟨.hbm, 1633, rfl⟩
abbrev main_v1307 : Ref sig .tc := ⟨.hbm, 1634, rfl⟩
abbrev main_v1308 : Ref sig .tc := ⟨.hbm, 1635, rfl⟩
abbrev main_cst_313 : Ref sig .tc := ⟨.hbm, 1636, rfl⟩
abbrev main_v1309 : Ref sig .tc := ⟨.hbm, 1637, rfl⟩
abbrev main_v1310 : Ref sig .tc := ⟨.hbm, 1638, rfl⟩
abbrev main_v1311 : Ref sig .tc := ⟨.hbm, 1639, rfl⟩
abbrev main_cst_314 : Ref sig .tc := ⟨.hbm, 1640, rfl⟩
abbrev main_v1312 : Ref sig .tc := ⟨.hbm, 1641, rfl⟩
abbrev main_v1313 : Ref sig .tc := ⟨.hbm, 1642, rfl⟩
abbrev main_v1314 : Ref sig .tc := ⟨.hbm, 1643, rfl⟩
abbrev main_cst_315 : Ref sig .tc := ⟨.hbm, 1644, rfl⟩
abbrev main_v1315 : Ref sig .tc := ⟨.hbm, 1645, rfl⟩
abbrev main_v1316 : Ref sig .tc := ⟨.hbm, 1646, rfl⟩
abbrev main_v1317 : Ref sig .tc := ⟨.hbm, 1647, rfl⟩
abbrev main_cst_316 : Ref sig .tc := ⟨.hbm, 1648, rfl⟩
abbrev main_v1318 : Ref sig .tc := ⟨.hbm, 1649, rfl⟩
abbrev main_v1319 : Ref sig .tc := ⟨.hbm, 1650, rfl⟩
abbrev main_v1320 : Ref sig .tc := ⟨.hbm, 1651, rfl⟩
abbrev main_v1321 : Ref sig .tc := ⟨.hbm, 1652, rfl⟩
abbrev main_v1322 : Ref sig .tc := ⟨.hbm, 1653, rfl⟩
abbrev main_v1323 : Ref sig .tc := ⟨.hbm, 1654, rfl⟩
abbrev main_v1324 : Ref sig .tc := ⟨.hbm, 1655, rfl⟩
abbrev main_v1325 : Ref sig .tc := ⟨.hbm, 1656, rfl⟩
abbrev main_v1326 : Ref sig .tc := ⟨.hbm, 1657, rfl⟩
abbrev main_v1327 : Ref sig .tc := ⟨.hbm, 1658, rfl⟩
abbrev main_v1328 : Ref sig .tc := ⟨.hbm, 1659, rfl⟩
abbrev main_v1329 : Ref sig .tc := ⟨.hbm, 1660, rfl⟩
abbrev main_v1330 : Ref sig .tc := ⟨.hbm, 1661, rfl⟩
abbrev main_cst_317 : Ref sig .tc := ⟨.hbm, 1662, rfl⟩
abbrev main_v1331 : Ref sig .tc := ⟨.hbm, 1663, rfl⟩
abbrev main_v1332 : Ref sig .tc := ⟨.hbm, 1664, rfl⟩
abbrev main_v1333 : Ref sig .tc := ⟨.hbm, 1665, rfl⟩
abbrev main_cst_318 : Ref sig .tc := ⟨.hbm, 1666, rfl⟩
abbrev main_v1334 : Ref sig .tc := ⟨.hbm, 1667, rfl⟩
abbrev main_v1335 : Ref sig .tc := ⟨.hbm, 1668, rfl⟩
abbrev main_v1336 : Ref sig .tc := ⟨.hbm, 1669, rfl⟩
abbrev main_cst_319 : Ref sig .tc := ⟨.hbm, 1670, rfl⟩
abbrev main_v1337 : Ref sig .tc := ⟨.hbm, 1671, rfl⟩
abbrev main_v1338 : Ref sig .tc := ⟨.hbm, 1672, rfl⟩
abbrev main_v1339 : Ref sig .tc := ⟨.hbm, 1673, rfl⟩
abbrev main_cst_320 : Ref sig .tc := ⟨.hbm, 1674, rfl⟩
abbrev main_v1340 : Ref sig .tc := ⟨.hbm, 1675, rfl⟩
abbrev main_v1341 : Ref sig .tc := ⟨.hbm, 1676, rfl⟩
abbrev main_v1342 : Ref sig .tc := ⟨.hbm, 1677, rfl⟩
abbrev main_cst_321 : Ref sig .tc := ⟨.hbm, 1678, rfl⟩
abbrev main_v1343 : Ref sig .tc := ⟨.hbm, 1679, rfl⟩
abbrev main_v1344 : Ref sig .tc := ⟨.hbm, 1680, rfl⟩
abbrev main_v1345 : Ref sig .tc := ⟨.hbm, 1681, rfl⟩
abbrev main_cst_322 : Ref sig .tc := ⟨.hbm, 1682, rfl⟩
abbrev main_v1346 : Ref sig .tc := ⟨.hbm, 1683, rfl⟩
abbrev main_v1347 : Ref sig .tc := ⟨.hbm, 1684, rfl⟩
abbrev main_v1348 : Ref sig .tc := ⟨.hbm, 1685, rfl⟩
abbrev main_cst_323 : Ref sig .tc := ⟨.hbm, 1686, rfl⟩
abbrev main_v1349 : Ref sig .tc := ⟨.hbm, 1687, rfl⟩
abbrev main_v1350 : Ref sig .tc := ⟨.hbm, 1688, rfl⟩
abbrev main_v1351 : Ref sig .tc := ⟨.hbm, 1689, rfl⟩
abbrev main_cst_324 : Ref sig .tc := ⟨.hbm, 1690, rfl⟩
abbrev main_v1352 : Ref sig .tc := ⟨.hbm, 1691, rfl⟩
abbrev main_v1353 : Ref sig .tc := ⟨.hbm, 1692, rfl⟩
abbrev main_v1354 : Ref sig .tc := ⟨.hbm, 1693, rfl⟩
abbrev main_cst_325 : Ref sig .tc := ⟨.hbm, 1694, rfl⟩
abbrev main_v1355 : Ref sig .tc := ⟨.hbm, 1695, rfl⟩
abbrev main_v1356 : Ref sig .tc := ⟨.hbm, 1696, rfl⟩
abbrev main_v1357 : Ref sig .tc := ⟨.hbm, 1697, rfl⟩
abbrev main_v1358 : Ref sig .tc := ⟨.hbm, 1698, rfl⟩
abbrev main_v1359 : Ref sig .tc := ⟨.hbm, 1699, rfl⟩
abbrev main_v1360 : Ref sig .tc := ⟨.hbm, 1700, rfl⟩
abbrev main_v1361 : Ref sig .tc := ⟨.hbm, 1701, rfl⟩
abbrev main_v1362 : Ref sig .tc := ⟨.hbm, 1702, rfl⟩
abbrev main_v1363 : Ref sig .tc := ⟨.hbm, 1703, rfl⟩
abbrev main_v1364 : Ref sig .tc := ⟨.hbm, 1704, rfl⟩
abbrev main_v1365 : Ref sig .tc := ⟨.hbm, 1705, rfl⟩
abbrev main_v1366 : Ref sig .tc := ⟨.hbm, 1706, rfl⟩
abbrev main_v1367 : Ref sig .tc := ⟨.hbm, 1707, rfl⟩
abbrev main_v1368 : Ref sig .tc := ⟨.hbm, 1708, rfl⟩
abbrev main_v1369 : Ref sig .tc := ⟨.hbm, 1709, rfl⟩
abbrev main_v1370 : Ref sig .tc := ⟨.hbm, 1710, rfl⟩
abbrev main_v1371 : Ref sig .tc := ⟨.hbm, 1711, rfl⟩
abbrev main_v1372 : Ref sig .tc := ⟨.hbm, 1712, rfl⟩
abbrev main_v1373 : Ref sig .tc := ⟨.hbm, 1713, rfl⟩
abbrev main_v1374 : Ref sig .tc := ⟨.hbm, 1714, rfl⟩
abbrev main_v1375 : Ref sig .tc := ⟨.hbm, 1715, rfl⟩

abbrev nD : Nat := 1
abbrev τ : Topo := Topo.v7x

variable {F : FTy → Type} [FloatOps F]

class Facts₀ : Prop where
  pads_S8x64x112x112_S8x64x120x120_000_000_440_440 : S8x64x112x112.Pads (![0, 0, 4, 4] : Fin 4 → Nat) ![0, 0, 4, 4] ![0, 0, 0, 0] S8x64x120x120
  h_S_ : 0 < S_.numel
  slices_S8x64x120x120_S8x64x112x112_0_0_0_0 : S8x64x120x120.Slices ![0, 0, 0, 0] S8x64x112x112
  reducesTo_S8x64x112x112_S8x112x112_d1 : S8x64x112x112.ReducesTo [1] S8x112x112
  slices_S8x64x120x120_S8x64x112x112_0_0_0_1 : S8x64x120x120.Slices ![0, 0, 0, 1] S8x64x112x112
  slices_S8x64x120x120_S8x64x112x112_0_0_0_2 : S8x64x120x120.Slices ![0, 0, 0, 2] S8x64x112x112
  slices_S8x64x120x120_S8x64x112x112_0_0_0_3 : S8x64x120x120.Slices ![0, 0, 0, 3] S8x64x112x112
  slices_S8x64x120x120_S8x64x112x112_0_0_0_4 : S8x64x120x120.Slices ![0, 0, 0, 4] S8x64x112x112
  slices_S8x64x120x120_S8x64x112x112_0_0_0_5 : S8x64x120x120.Slices ![0, 0, 0, 5] S8x64x112x112
  slices_S8x64x120x120_S8x64x112x112_0_0_0_6 : S8x64x120x120.Slices ![0, 0, 0, 6] S8x64x112x112
  slices_S8x64x120x120_S8x64x112x112_0_0_0_7 : S8x64x120x120.Slices ![0, 0, 0, 7] S8x64x112x112
  slices_S8x64x120x120_S8x64x112x112_0_0_0_8 : S8x64x120x120.Slices ![0, 0, 0, 8] S8x64x112x112
  bcast_S8x112x112_S8x1x112x112_0_2_3 : S8x112x112.BroadcastsInDim S8x1x112x112 (![0, 2, 3] : Fin 3 → Fin S8x1x112x112.rank)
  concatenates_S8x1x112x112_S8x1x112x112_S8x1x112x112_S8x1x112x112_S8x1x112x112_S8x1x112x112_S8x1x112x112_S8x1x112x112_S8x1x112x112_S8x9x112x112_d1 : Shape.Concatenates [S8x1x112x112, S8x1x112x112, S8x1x112x112, S8x1x112x112, S8x1x112x112, S8x1x112x112, S8x1x112x112, S8x1x112x112, S8x1x112x112] S8x9x112x112 1
  slices_S8x64x120x120_S8x64x112x112_0_0_1_0 : S8x64x120x120.Slices ![0, 0, 1, 0] S8x64x112x112
  slices_S8x64x120x120_S8x64x112x112_0_0_1_1 : S8x64x120x120.Slices ![0, 0, 1, 1] S8x64x112x112
  slices_S8x64x120x120_S8x64x112x112_0_0_1_2 : S8x64x120x120.Slices ![0, 0, 1, 2] S8x64x112x112
  slices_S8x64x120x120_S8x64x112x112_0_0_1_3 : S8x64x120x120.Slices ![0, 0, 1, 3] S8x64x112x112
  slices_S8x64x120x120_S8x64x112x112_0_0_1_4 : S8x64x120x120.Slices ![0, 0, 1, 4] S8x64x112x112
  slices_S8x64x120x120_S8x64x112x112_0_0_1_5 : S8x64x120x120.Slices ![0, 0, 1, 5] S8x64x112x112
  slices_S8x64x120x120_S8x64x112x112_0_0_1_6 : S8x64x120x120.Slices ![0, 0, 1, 6] S8x64x112x112
  slices_S8x64x120x120_S8x64x112x112_0_0_1_7 : S8x64x120x120.Slices ![0, 0, 1, 7] S8x64x112x112
  slices_S8x64x120x120_S8x64x112x112_0_0_1_8 : S8x64x120x120.Slices ![0, 0, 1, 8] S8x64x112x112
  slices_S8x64x120x120_S8x64x112x112_0_0_2_0 : S8x64x120x120.Slices ![0, 0, 2, 0] S8x64x112x112
  slices_S8x64x120x120_S8x64x112x112_0_0_2_1 : S8x64x120x120.Slices ![0, 0, 2, 1] S8x64x112x112
  slices_S8x64x120x120_S8x64x112x112_0_0_2_2 : S8x64x120x120.Slices ![0, 0, 2, 2] S8x64x112x112
  slices_S8x64x120x120_S8x64x112x112_0_0_2_3 : S8x64x120x120.Slices ![0, 0, 2, 3] S8x64x112x112
  slices_S8x64x120x120_S8x64x112x112_0_0_2_4 : S8x64x120x120.Slices ![0, 0, 2, 4] S8x64x112x112
  slices_S8x64x120x120_S8x64x112x112_0_0_2_5 : S8x64x120x120.Slices ![0, 0, 2, 5] S8x64x112x112
  slices_S8x64x120x120_S8x64x112x112_0_0_2_6 : S8x64x120x120.Slices ![0, 0, 2, 6] S8x64x112x112
  slices_S8x64x120x120_S8x64x112x112_0_0_2_7 : S8x64x120x120.Slices ![0, 0, 2, 7] S8x64x112x112
  slices_S8x64x120x120_S8x64x112x112_0_0_2_8 : S8x64x120x120.Slices ![0, 0, 2, 8] S8x64x112x112
  slices_S8x64x120x120_S8x64x112x112_0_0_3_0 : S8x64x120x120.Slices ![0, 0, 3, 0] S8x64x112x112
  slices_S8x64x120x120_S8x64x112x112_0_0_3_1 : S8x64x120x120.Slices ![0, 0, 3, 1] S8x64x112x112
  slices_S8x64x120x120_S8x64x112x112_0_0_3_2 : S8x64x120x120.Slices ![0, 0, 3, 2] S8x64x112x112
  slices_S8x64x120x120_S8x64x112x112_0_0_3_3 : S8x64x120x120.Slices ![0, 0, 3, 3] S8x64x112x112
  slices_S8x64x120x120_S8x64x112x112_0_0_3_4 : S8x64x120x120.Slices ![0, 0, 3, 4] S8x64x112x112
  slices_S8x64x120x120_S8x64x112x112_0_0_3_5 : S8x64x120x120.Slices ![0, 0, 3, 5] S8x64x112x112
  slices_S8x64x120x120_S8x64x112x112_0_0_3_6 : S8x64x120x120.Slices ![0, 0, 3, 6] S8x64x112x112
  slices_S8x64x120x120_S8x64x112x112_0_0_3_7 : S8x64x120x120.Slices ![0, 0, 3, 7] S8x64x112x112
  slices_S8x64x120x120_S8x64x112x112_0_0_3_8 : S8x64x120x120.Slices ![0, 0, 3, 8] S8x64x112x112
  slices_S8x64x120x120_S8x64x112x112_0_0_4_0 : S8x64x120x120.Slices ![0, 0, 4, 0] S8x64x112x112
  slices_S8x64x120x120_S8x64x112x112_0_0_4_1 : S8x64x120x120.Slices ![0, 0, 4, 1] S8x64x112x112
  slices_S8x64x120x120_S8x64x112x112_0_0_4_2 : S8x64x120x120.Slices ![0, 0, 4, 2] S8x64x112x112
  slices_S8x64x120x120_S8x64x112x112_0_0_4_3 : S8x64x120x120.Slices ![0, 0, 4, 3] S8x64x112x112
  slices_S8x64x120x120_S8x64x112x112_0_0_4_4 : S8x64x120x120.Slices ![0, 0, 4, 4] S8x64x112x112
  slices_S8x64x120x120_S8x64x112x112_0_0_4_5 : S8x64x120x120.Slices ![0, 0, 4, 5] S8x64x112x112
  slices_S8x64x120x120_S8x64x112x112_0_0_4_6 : S8x64x120x120.Slices ![0, 0, 4, 6] S8x64x112x112
  slices_S8x64x120x120_S8x64x112x112_0_0_4_7 : S8x64x120x120.Slices ![0, 0, 4, 7] S8x64x112x112
  slices_S8x64x120x120_S8x64x112x112_0_0_4_8 : S8x64x120x120.Slices ![0, 0, 4, 8] S8x64x112x112
  slices_S8x64x120x120_S8x64x112x112_0_0_5_0 : S8x64x120x120.Slices ![0, 0, 5, 0] S8x64x112x112
  slices_S8x64x120x120_S8x64x112x112_0_0_5_1 : S8x64x120x120.Slices ![0, 0, 5, 1] S8x64x112x112
  slices_S8x64x120x120_S8x64x112x112_0_0_5_2 : S8x64x120x120.Slices ![0, 0, 5, 2] S8x64x112x112
  slices_S8x64x120x120_S8x64x112x112_0_0_5_3 : S8x64x120x120.Slices ![0, 0, 5, 3] S8x64x112x112
  slices_S8x64x120x120_S8x64x112x112_0_0_5_4 : S8x64x120x120.Slices ![0, 0, 5, 4] S8x64x112x112
  slices_S8x64x120x120_S8x64x112x112_0_0_5_5 : S8x64x120x120.Slices ![0, 0, 5, 5] S8x64x112x112
  slices_S8x64x120x120_S8x64x112x112_0_0_5_6 : S8x64x120x120.Slices ![0, 0, 5, 6] S8x64x112x112
  slices_S8x64x120x120_S8x64x112x112_0_0_5_7 : S8x64x120x120.Slices ![0, 0, 5, 7] S8x64x112x112
  slices_S8x64x120x120_S8x64x112x112_0_0_5_8 : S8x64x120x120.Slices ![0, 0, 5, 8] S8x64x112x112
  slices_S8x64x120x120_S8x64x112x112_0_0_6_0 : S8x64x120x120.Slices ![0, 0, 6, 0] S8x64x112x112
  slices_S8x64x120x120_S8x64x112x112_0_0_6_1 : S8x64x120x120.Slices ![0, 0, 6, 1] S8x64x112x112
  slices_S8x64x120x120_S8x64x112x112_0_0_6_2 : S8x64x120x120.Slices ![0, 0, 6, 2] S8x64x112x112
  slices_S8x64x120x120_S8x64x112x112_0_0_6_3 : S8x64x120x120.Slices ![0, 0, 6, 3] S8x64x112x112
  slices_S8x64x120x120_S8x64x112x112_0_0_6_4 : S8x64x120x120.Slices ![0, 0, 6, 4] S8x64x112x112
  slices_S8x64x120x120_S8x64x112x112_0_0_6_5 : S8x64x120x120.Slices ![0, 0, 6, 5] S8x64x112x112
  slices_S8x64x120x120_S8x64x112x112_0_0_6_6 : S8x64x120x120.Slices ![0, 0, 6, 6] S8x64x112x112
  slices_S8x64x120x120_S8x64x112x112_0_0_6_7 : S8x64x120x120.Slices ![0, 0, 6, 7] S8x64x112x112
  slices_S8x64x120x120_S8x64x112x112_0_0_6_8 : S8x64x120x120.Slices ![0, 0, 6, 8] S8x64x112x112
  slices_S8x64x120x120_S8x64x112x112_0_0_7_0 : S8x64x120x120.Slices ![0, 0, 7, 0] S8x64x112x112
  slices_S8x64x120x120_S8x64x112x112_0_0_7_1 : S8x64x120x120.Slices ![0, 0, 7, 1] S8x64x112x112
  slices_S8x64x120x120_S8x64x112x112_0_0_7_2 : S8x64x120x120.Slices ![0, 0, 7, 2] S8x64x112x112
  slices_S8x64x120x120_S8x64x112x112_0_0_7_3 : S8x64x120x120.Slices ![0, 0, 7, 3] S8x64x112x112
  slices_S8x64x120x120_S8x64x112x112_0_0_7_4 : S8x64x120x120.Slices ![0, 0, 7, 4] S8x64x112x112
  slices_S8x64x120x120_S8x64x112x112_0_0_7_5 : S8x64x120x120.Slices ![0, 0, 7, 5] S8x64x112x112
  slices_S8x64x120x120_S8x64x112x112_0_0_7_6 : S8x64x120x120.Slices ![0, 0, 7, 6] S8x64x112x112
  slices_S8x64x120x120_S8x64x112x112_0_0_7_7 : S8x64x120x120.Slices ![0, 0, 7, 7] S8x64x112x112
  slices_S8x64x120x120_S8x64x112x112_0_0_7_8 : S8x64x120x120.Slices ![0, 0, 7, 8] S8x64x112x112
  slices_S8x64x120x120_S8x64x112x112_0_0_8_0 : S8x64x120x120.Slices ![0, 0, 8, 0] S8x64x112x112
  slices_S8x64x120x120_S8x64x112x112_0_0_8_1 : S8x64x120x120.Slices ![0, 0, 8, 1] S8x64x112x112
  slices_S8x64x120x120_S8x64x112x112_0_0_8_2 : S8x64x120x120.Slices ![0, 0, 8, 2] S8x64x112x112
  slices_S8x64x120x120_S8x64x112x112_0_0_8_3 : S8x64x120x120.Slices ![0, 0, 8, 3] S8x64x112x112
  slices_S8x64x120x120_S8x64x112x112_0_0_8_4 : S8x64x120x120.Slices ![0, 0, 8, 4] S8x64x112x112
  slices_S8x64x120x120_S8x64x112x112_0_0_8_5 : S8x64x120x120.Slices ![0, 0, 8, 5] S8x64x112x112
  slices_S8x64x120x120_S8x64x112x112_0_0_8_6 : S8x64x120x120.Slices ![0, 0, 8, 6] S8x64x112x112
  slices_S8x64x120x120_S8x64x112x112_0_0_8_7 : S8x64x120x120.Slices ![0, 0, 8, 7] S8x64x112x112
  slices_S8x64x120x120_S8x64x112x112_0_0_8_8 : S8x64x120x120.Slices ![0, 0, 8, 8] S8x64x112x112
  bcast_S8x9x112x112_S8x1x9x112x112_0_2_3_4 : S8x9x112x112.BroadcastsInDim S8x1x9x112x112 (![0, 2, 3, 4] : Fin 4 → Fin S8x1x9x112x112.rank)
  concatenates_S8x1x9x112x112_S8x1x9x112x112_S8x1x9x112x112_S8x1x9x112x112_S8x1x9x112x112_S8x1x9x112x112_S8x1x9x112x112_S8x1x9x112x112_S8x1x9x112x112_S8x9x9x112x112_d1 : Shape.Concatenates [S8x1x9x112x112, S8x1x9x112x112, S8x1x9x112x112, S8x1x9x112x112, S8x1x9x112x112, S8x1x9x112x112, S8x1x9x112x112, S8x1x9x112x112, S8x1x9x112x112] S8x9x9x112x112 1
  pads_S8x128x56x56_S8x128x64x64_000_000_440_440 : S8x128x56x56.Pads (![0, 0, 4, 4] : Fin 4 → Nat) ![0, 0, 4, 4] ![0, 0, 0, 0] S8x128x64x64
  slices_S8x128x64x64_S8x128x56x56_0_0_0_0 : S8x128x64x64.Slices ![0, 0, 0, 0] S8x128x56x56
  reducesTo_S8x128x56x56_S8x56x56_d1 : S8x128x56x56.ReducesTo [1] S8x56x56
  slices_S8x128x64x64_S8x128x56x56_0_0_0_1 : S8x128x64x64.Slices ![0, 0, 0, 1] S8x128x56x56
  slices_S8x128x64x64_S8x128x56x56_0_0_0_2 : S8x128x64x64.Slices ![0, 0, 0, 2] S8x128x56x56
  slices_S8x128x64x64_S8x128x56x56_0_0_0_3 : S8x128x64x64.Slices ![0, 0, 0, 3] S8x128x56x56
  slices_S8x128x64x64_S8x128x56x56_0_0_0_4 : S8x128x64x64.Slices ![0, 0, 0, 4] S8x128x56x56
  slices_S8x128x64x64_S8x128x56x56_0_0_0_5 : S8x128x64x64.Slices ![0, 0, 0, 5] S8x128x56x56
  slices_S8x128x64x64_S8x128x56x56_0_0_0_6 : S8x128x64x64.Slices ![0, 0, 0, 6] S8x128x56x56
  slices_S8x128x64x64_S8x128x56x56_0_0_0_7 : S8x128x64x64.Slices ![0, 0, 0, 7] S8x128x56x56
  slices_S8x128x64x64_S8x128x56x56_0_0_0_8 : S8x128x64x64.Slices ![0, 0, 0, 8] S8x128x56x56
  bcast_S8x56x56_S8x1x56x56_0_2_3 : S8x56x56.BroadcastsInDim S8x1x56x56 (![0, 2, 3] : Fin 3 → Fin S8x1x56x56.rank)
  concatenates_S8x1x56x56_S8x1x56x56_S8x1x56x56_S8x1x56x56_S8x1x56x56_S8x1x56x56_S8x1x56x56_S8x1x56x56_S8x1x56x56_S8x9x56x56_d1 : Shape.Concatenates [S8x1x56x56, S8x1x56x56, S8x1x56x56, S8x1x56x56, S8x1x56x56, S8x1x56x56, S8x1x56x56, S8x1x56x56, S8x1x56x56] S8x9x56x56 1
  slices_S8x128x64x64_S8x128x56x56_0_0_1_0 : S8x128x64x64.Slices ![0, 0, 1, 0] S8x128x56x56
  slices_S8x128x64x64_S8x128x56x56_0_0_1_1 : S8x128x64x64.Slices ![0, 0, 1, 1] S8x128x56x56
  slices_S8x128x64x64_S8x128x56x56_0_0_1_2 : S8x128x64x64.Slices ![0, 0, 1, 2] S8x128x56x56
  slices_S8x128x64x64_S8x128x56x56_0_0_1_3 : S8x128x64x64.Slices ![0, 0, 1, 3] S8x128x56x56
  slices_S8x128x64x64_S8x128x56x56_0_0_1_4 : S8x128x64x64.Slices ![0, 0, 1, 4] S8x128x56x56
  slices_S8x128x64x64_S8x128x56x56_0_0_1_5 : S8x128x64x64.Slices ![0, 0, 1, 5] S8x128x56x56
  slices_S8x128x64x64_S8x128x56x56_0_0_1_6 : S8x128x64x64.Slices ![0, 0, 1, 6] S8x128x56x56
  slices_S8x128x64x64_S8x128x56x56_0_0_1_7 : S8x128x64x64.Slices ![0, 0, 1, 7] S8x128x56x56
  slices_S8x128x64x64_S8x128x56x56_0_0_1_8 : S8x128x64x64.Slices ![0, 0, 1, 8] S8x128x56x56
  slices_S8x128x64x64_S8x128x56x56_0_0_2_0 : S8x128x64x64.Slices ![0, 0, 2, 0] S8x128x56x56
  slices_S8x128x64x64_S8x128x56x56_0_0_2_1 : S8x128x64x64.Slices ![0, 0, 2, 1] S8x128x56x56
  slices_S8x128x64x64_S8x128x56x56_0_0_2_2 : S8x128x64x64.Slices ![0, 0, 2, 2] S8x128x56x56
  slices_S8x128x64x64_S8x128x56x56_0_0_2_3 : S8x128x64x64.Slices ![0, 0, 2, 3] S8x128x56x56
  slices_S8x128x64x64_S8x128x56x56_0_0_2_4 : S8x128x64x64.Slices ![0, 0, 2, 4] S8x128x56x56
  slices_S8x128x64x64_S8x128x56x56_0_0_2_5 : S8x128x64x64.Slices ![0, 0, 2, 5] S8x128x56x56
  slices_S8x128x64x64_S8x128x56x56_0_0_2_6 : S8x128x64x64.Slices ![0, 0, 2, 6] S8x128x56x56
  slices_S8x128x64x64_S8x128x56x56_0_0_2_7 : S8x128x64x64.Slices ![0, 0, 2, 7] S8x128x56x56
  slices_S8x128x64x64_S8x128x56x56_0_0_2_8 : S8x128x64x64.Slices ![0, 0, 2, 8] S8x128x56x56
  slices_S8x128x64x64_S8x128x56x56_0_0_3_0 : S8x128x64x64.Slices ![0, 0, 3, 0] S8x128x56x56
  slices_S8x128x64x64_S8x128x56x56_0_0_3_1 : S8x128x64x64.Slices ![0, 0, 3, 1] S8x128x56x56
  slices_S8x128x64x64_S8x128x56x56_0_0_3_2 : S8x128x64x64.Slices ![0, 0, 3, 2] S8x128x56x56
  slices_S8x128x64x64_S8x128x56x56_0_0_3_3 : S8x128x64x64.Slices ![0, 0, 3, 3] S8x128x56x56
  slices_S8x128x64x64_S8x128x56x56_0_0_3_4 : S8x128x64x64.Slices ![0, 0, 3, 4] S8x128x56x56
  slices_S8x128x64x64_S8x128x56x56_0_0_3_5 : S8x128x64x64.Slices ![0, 0, 3, 5] S8x128x56x56
  slices_S8x128x64x64_S8x128x56x56_0_0_3_6 : S8x128x64x64.Slices ![0, 0, 3, 6] S8x128x56x56
  slices_S8x128x64x64_S8x128x56x56_0_0_3_7 : S8x128x64x64.Slices ![0, 0, 3, 7] S8x128x56x56
  slices_S8x128x64x64_S8x128x56x56_0_0_3_8 : S8x128x64x64.Slices ![0, 0, 3, 8] S8x128x56x56
  slices_S8x128x64x64_S8x128x56x56_0_0_4_0 : S8x128x64x64.Slices ![0, 0, 4, 0] S8x128x56x56
  slices_S8x128x64x64_S8x128x56x56_0_0_4_1 : S8x128x64x64.Slices ![0, 0, 4, 1] S8x128x56x56
  slices_S8x128x64x64_S8x128x56x56_0_0_4_2 : S8x128x64x64.Slices ![0, 0, 4, 2] S8x128x56x56
  slices_S8x128x64x64_S8x128x56x56_0_0_4_3 : S8x128x64x64.Slices ![0, 0, 4, 3] S8x128x56x56
  slices_S8x128x64x64_S8x128x56x56_0_0_4_4 : S8x128x64x64.Slices ![0, 0, 4, 4] S8x128x56x56
  slices_S8x128x64x64_S8x128x56x56_0_0_4_5 : S8x128x64x64.Slices ![0, 0, 4, 5] S8x128x56x56
  slices_S8x128x64x64_S8x128x56x56_0_0_4_6 : S8x128x64x64.Slices ![0, 0, 4, 6] S8x128x56x56
  slices_S8x128x64x64_S8x128x56x56_0_0_4_7 : S8x128x64x64.Slices ![0, 0, 4, 7] S8x128x56x56
  slices_S8x128x64x64_S8x128x56x56_0_0_4_8 : S8x128x64x64.Slices ![0, 0, 4, 8] S8x128x56x56
  slices_S8x128x64x64_S8x128x56x56_0_0_5_0 : S8x128x64x64.Slices ![0, 0, 5, 0] S8x128x56x56
  slices_S8x128x64x64_S8x128x56x56_0_0_5_1 : S8x128x64x64.Slices ![0, 0, 5, 1] S8x128x56x56
  slices_S8x128x64x64_S8x128x56x56_0_0_5_2 : S8x128x64x64.Slices ![0, 0, 5, 2] S8x128x56x56
  slices_S8x128x64x64_S8x128x56x56_0_0_5_3 : S8x128x64x64.Slices ![0, 0, 5, 3] S8x128x56x56
  slices_S8x128x64x64_S8x128x56x56_0_0_5_4 : S8x128x64x64.Slices ![0, 0, 5, 4] S8x128x56x56
  slices_S8x128x64x64_S8x128x56x56_0_0_5_5 : S8x128x64x64.Slices ![0, 0, 5, 5] S8x128x56x56
  slices_S8x128x64x64_S8x128x56x56_0_0_5_6 : S8x128x64x64.Slices ![0, 0, 5, 6] S8x128x56x56
  slices_S8x128x64x64_S8x128x56x56_0_0_5_7 : S8x128x64x64.Slices ![0, 0, 5, 7] S8x128x56x56
  slices_S8x128x64x64_S8x128x56x56_0_0_5_8 : S8x128x64x64.Slices ![0, 0, 5, 8] S8x128x56x56
  slices_S8x128x64x64_S8x128x56x56_0_0_6_0 : S8x128x64x64.Slices ![0, 0, 6, 0] S8x128x56x56
  slices_S8x128x64x64_S8x128x56x56_0_0_6_1 : S8x128x64x64.Slices ![0, 0, 6, 1] S8x128x56x56
  slices_S8x128x64x64_S8x128x56x56_0_0_6_2 : S8x128x64x64.Slices ![0, 0, 6, 2] S8x128x56x56
  slices_S8x128x64x64_S8x128x56x56_0_0_6_3 : S8x128x64x64.Slices ![0, 0, 6, 3] S8x128x56x56
  slices_S8x128x64x64_S8x128x56x56_0_0_6_4 : S8x128x64x64.Slices ![0, 0, 6, 4] S8x128x56x56
  slices_S8x128x64x64_S8x128x56x56_0_0_6_5 : S8x128x64x64.Slices ![0, 0, 6, 5] S8x128x56x56
  slices_S8x128x64x64_S8x128x56x56_0_0_6_6 : S8x128x64x64.Slices ![0, 0, 6, 6] S8x128x56x56
  slices_S8x128x64x64_S8x128x56x56_0_0_6_7 : S8x128x64x64.Slices ![0, 0, 6, 7] S8x128x56x56
  slices_S8x128x64x64_S8x128x56x56_0_0_6_8 : S8x128x64x64.Slices ![0, 0, 6, 8] S8x128x56x56
  slices_S8x128x64x64_S8x128x56x56_0_0_7_0 : S8x128x64x64.Slices ![0, 0, 7, 0] S8x128x56x56
  slices_S8x128x64x64_S8x128x56x56_0_0_7_1 : S8x128x64x64.Slices ![0, 0, 7, 1] S8x128x56x56
  slices_S8x128x64x64_S8x128x56x56_0_0_7_2 : S8x128x64x64.Slices ![0, 0, 7, 2] S8x128x56x56
  slices_S8x128x64x64_S8x128x56x56_0_0_7_3 : S8x128x64x64.Slices ![0, 0, 7, 3] S8x128x56x56
  slices_S8x128x64x64_S8x128x56x56_0_0_7_4 : S8x128x64x64.Slices ![0, 0, 7, 4] S8x128x56x56
  slices_S8x128x64x64_S8x128x56x56_0_0_7_5 : S8x128x64x64.Slices ![0, 0, 7, 5] S8x128x56x56
  slices_S8x128x64x64_S8x128x56x56_0_0_7_6 : S8x128x64x64.Slices ![0, 0, 7, 6] S8x128x56x56
  slices_S8x128x64x64_S8x128x56x56_0_0_7_7 : S8x128x64x64.Slices ![0, 0, 7, 7] S8x128x56x56
  slices_S8x128x64x64_S8x128x56x56_0_0_7_8 : S8x128x64x64.Slices ![0, 0, 7, 8] S8x128x56x56
  slices_S8x128x64x64_S8x128x56x56_0_0_8_0 : S8x128x64x64.Slices ![0, 0, 8, 0] S8x128x56x56
  slices_S8x128x64x64_S8x128x56x56_0_0_8_1 : S8x128x64x64.Slices ![0, 0, 8, 1] S8x128x56x56
  slices_S8x128x64x64_S8x128x56x56_0_0_8_2 : S8x128x64x64.Slices ![0, 0, 8, 2] S8x128x56x56
  slices_S8x128x64x64_S8x128x56x56_0_0_8_3 : S8x128x64x64.Slices ![0, 0, 8, 3] S8x128x56x56
  slices_S8x128x64x64_S8x128x56x56_0_0_8_4 : S8x128x64x64.Slices ![0, 0, 8, 4] S8x128x56x56
  slices_S8x128x64x64_S8x128x56x56_0_0_8_5 : S8x128x64x64.Slices ![0, 0, 8, 5] S8x128x56x56
  slices_S8x128x64x64_S8x128x56x56_0_0_8_6 : S8x128x64x64.Slices ![0, 0, 8, 6] S8x128x56x56
  slices_S8x128x64x64_S8x128x56x56_0_0_8_7 : S8x128x64x64.Slices ![0, 0, 8, 7] S8x128x56x56
  slices_S8x128x64x64_S8x128x56x56_0_0_8_8 : S8x128x64x64.Slices ![0, 0, 8, 8] S8x128x56x56
  bcast_S8x9x56x56_S8x1x9x56x56_0_2_3_4 : S8x9x56x56.BroadcastsInDim S8x1x9x56x56 (![0, 2, 3, 4] : Fin 4 → Fin S8x1x9x56x56.rank)
  concatenates_S8x1x9x56x56_S8x1x9x56x56_S8x1x9x56x56_S8x1x9x56x56_S8x1x9x56x56_S8x1x9x56x56_S8x1x9x56x56_S8x1x9x56x56_S8x1x9x56x56_S8x9x9x56x56_d1 : Shape.Concatenates [S8x1x9x56x56, S8x1x9x56x56, S8x1x9x56x56, S8x1x9x56x56, S8x1x9x56x56, S8x1x9x56x56, S8x1x9x56x56, S8x1x9x56x56, S8x1x9x56x56] S8x9x9x56x56 1
  pads_S8x256x28x28_S8x256x36x36_000_000_440_440 : S8x256x28x28.Pads (![0, 0, 4, 4] : Fin 4 → Nat) ![0, 0, 4, 4] ![0, 0, 0, 0] S8x256x36x36
  slices_S8x256x36x36_S8x256x28x28_0_0_0_0 : S8x256x36x36.Slices ![0, 0, 0, 0] S8x256x28x28
  reducesTo_S8x256x28x28_S8x28x28_d1 : S8x256x28x28.ReducesTo [1] S8x28x28
  slices_S8x256x36x36_S8x256x28x28_0_0_0_1 : S8x256x36x36.Slices ![0, 0, 0, 1] S8x256x28x28
  slices_S8x256x36x36_S8x256x28x28_0_0_0_2 : S8x256x36x36.Slices ![0, 0, 0, 2] S8x256x28x28
  slices_S8x256x36x36_S8x256x28x28_0_0_0_3 : S8x256x36x36.Slices ![0, 0, 0, 3] S8x256x28x28
  slices_S8x256x36x36_S8x256x28x28_0_0_0_4 : S8x256x36x36.Slices ![0, 0, 0, 4] S8x256x28x28
  slices_S8x256x36x36_S8x256x28x28_0_0_0_5 : S8x256x36x36.Slices ![0, 0, 0, 5] S8x256x28x28
  slices_S8x256x36x36_S8x256x28x28_0_0_0_6 : S8x256x36x36.Slices ![0, 0, 0, 6] S8x256x28x28
  slices_S8x256x36x36_S8x256x28x28_0_0_0_7 : S8x256x36x36.Slices ![0, 0, 0, 7] S8x256x28x28
  slices_S8x256x36x36_S8x256x28x28_0_0_0_8 : S8x256x36x36.Slices ![0, 0, 0, 8] S8x256x28x28
  bcast_S8x28x28_S8x1x28x28_0_2_3 : S8x28x28.BroadcastsInDim S8x1x28x28 (![0, 2, 3] : Fin 3 → Fin S8x1x28x28.rank)
  concatenates_S8x1x28x28_S8x1x28x28_S8x1x28x28_S8x1x28x28_S8x1x28x28_S8x1x28x28_S8x1x28x28_S8x1x28x28_S8x1x28x28_S8x9x28x28_d1 : Shape.Concatenates [S8x1x28x28, S8x1x28x28, S8x1x28x28, S8x1x28x28, S8x1x28x28, S8x1x28x28, S8x1x28x28, S8x1x28x28, S8x1x28x28] S8x9x28x28 1
  slices_S8x256x36x36_S8x256x28x28_0_0_1_0 : S8x256x36x36.Slices ![0, 0, 1, 0] S8x256x28x28
  slices_S8x256x36x36_S8x256x28x28_0_0_1_1 : S8x256x36x36.Slices ![0, 0, 1, 1] S8x256x28x28
  slices_S8x256x36x36_S8x256x28x28_0_0_1_2 : S8x256x36x36.Slices ![0, 0, 1, 2] S8x256x28x28
  slices_S8x256x36x36_S8x256x28x28_0_0_1_3 : S8x256x36x36.Slices ![0, 0, 1, 3] S8x256x28x28
  slices_S8x256x36x36_S8x256x28x28_0_0_1_4 : S8x256x36x36.Slices ![0, 0, 1, 4] S8x256x28x28
  slices_S8x256x36x36_S8x256x28x28_0_0_1_5 : S8x256x36x36.Slices ![0, 0, 1, 5] S8x256x28x28
  slices_S8x256x36x36_S8x256x28x28_0_0_1_6 : S8x256x36x36.Slices ![0, 0, 1, 6] S8x256x28x28
  slices_S8x256x36x36_S8x256x28x28_0_0_1_7 : S8x256x36x36.Slices ![0, 0, 1, 7] S8x256x28x28
  slices_S8x256x36x36_S8x256x28x28_0_0_1_8 : S8x256x36x36.Slices ![0, 0, 1, 8] S8x256x28x28
  slices_S8x256x36x36_S8x256x28x28_0_0_2_0 : S8x256x36x36.Slices ![0, 0, 2, 0] S8x256x28x28
  slices_S8x256x36x36_S8x256x28x28_0_0_2_1 : S8x256x36x36.Slices ![0, 0, 2, 1] S8x256x28x28
  slices_S8x256x36x36_S8x256x28x28_0_0_2_2 : S8x256x36x36.Slices ![0, 0, 2, 2] S8x256x28x28
  slices_S8x256x36x36_S8x256x28x28_0_0_2_3 : S8x256x36x36.Slices ![0, 0, 2, 3] S8x256x28x28
  slices_S8x256x36x36_S8x256x28x28_0_0_2_4 : S8x256x36x36.Slices ![0, 0, 2, 4] S8x256x28x28
  slices_S8x256x36x36_S8x256x28x28_0_0_2_5 : S8x256x36x36.Slices ![0, 0, 2, 5] S8x256x28x28
  slices_S8x256x36x36_S8x256x28x28_0_0_2_6 : S8x256x36x36.Slices ![0, 0, 2, 6] S8x256x28x28
  slices_S8x256x36x36_S8x256x28x28_0_0_2_7 : S8x256x36x36.Slices ![0, 0, 2, 7] S8x256x28x28
  slices_S8x256x36x36_S8x256x28x28_0_0_2_8 : S8x256x36x36.Slices ![0, 0, 2, 8] S8x256x28x28
  slices_S8x256x36x36_S8x256x28x28_0_0_3_0 : S8x256x36x36.Slices ![0, 0, 3, 0] S8x256x28x28
  slices_S8x256x36x36_S8x256x28x28_0_0_3_1 : S8x256x36x36.Slices ![0, 0, 3, 1] S8x256x28x28
  slices_S8x256x36x36_S8x256x28x28_0_0_3_2 : S8x256x36x36.Slices ![0, 0, 3, 2] S8x256x28x28
  slices_S8x256x36x36_S8x256x28x28_0_0_3_3 : S8x256x36x36.Slices ![0, 0, 3, 3] S8x256x28x28
  slices_S8x256x36x36_S8x256x28x28_0_0_3_4 : S8x256x36x36.Slices ![0, 0, 3, 4] S8x256x28x28
  slices_S8x256x36x36_S8x256x28x28_0_0_3_5 : S8x256x36x36.Slices ![0, 0, 3, 5] S8x256x28x28
  slices_S8x256x36x36_S8x256x28x28_0_0_3_6 : S8x256x36x36.Slices ![0, 0, 3, 6] S8x256x28x28
  slices_S8x256x36x36_S8x256x28x28_0_0_3_7 : S8x256x36x36.Slices ![0, 0, 3, 7] S8x256x28x28
  slices_S8x256x36x36_S8x256x28x28_0_0_3_8 : S8x256x36x36.Slices ![0, 0, 3, 8] S8x256x28x28
  slices_S8x256x36x36_S8x256x28x28_0_0_4_0 : S8x256x36x36.Slices ![0, 0, 4, 0] S8x256x28x28
  slices_S8x256x36x36_S8x256x28x28_0_0_4_1 : S8x256x36x36.Slices ![0, 0, 4, 1] S8x256x28x28
  slices_S8x256x36x36_S8x256x28x28_0_0_4_2 : S8x256x36x36.Slices ![0, 0, 4, 2] S8x256x28x28
  slices_S8x256x36x36_S8x256x28x28_0_0_4_3 : S8x256x36x36.Slices ![0, 0, 4, 3] S8x256x28x28
  slices_S8x256x36x36_S8x256x28x28_0_0_4_4 : S8x256x36x36.Slices ![0, 0, 4, 4] S8x256x28x28
  slices_S8x256x36x36_S8x256x28x28_0_0_4_5 : S8x256x36x36.Slices ![0, 0, 4, 5] S8x256x28x28
  slices_S8x256x36x36_S8x256x28x28_0_0_4_6 : S8x256x36x36.Slices ![0, 0, 4, 6] S8x256x28x28
  slices_S8x256x36x36_S8x256x28x28_0_0_4_7 : S8x256x36x36.Slices ![0, 0, 4, 7] S8x256x28x28
  slices_S8x256x36x36_S8x256x28x28_0_0_4_8 : S8x256x36x36.Slices ![0, 0, 4, 8] S8x256x28x28
  slices_S8x256x36x36_S8x256x28x28_0_0_5_0 : S8x256x36x36.Slices ![0, 0, 5, 0] S8x256x28x28
  slices_S8x256x36x36_S8x256x28x28_0_0_5_1 : S8x256x36x36.Slices ![0, 0, 5, 1] S8x256x28x28
  slices_S8x256x36x36_S8x256x28x28_0_0_5_2 : S8x256x36x36.Slices ![0, 0, 5, 2] S8x256x28x28
  slices_S8x256x36x36_S8x256x28x28_0_0_5_3 : S8x256x36x36.Slices ![0, 0, 5, 3] S8x256x28x28
  slices_S8x256x36x36_S8x256x28x28_0_0_5_4 : S8x256x36x36.Slices ![0, 0, 5, 4] S8x256x28x28
  slices_S8x256x36x36_S8x256x28x28_0_0_5_5 : S8x256x36x36.Slices ![0, 0, 5, 5] S8x256x28x28
  slices_S8x256x36x36_S8x256x28x28_0_0_5_6 : S8x256x36x36.Slices ![0, 0, 5, 6] S8x256x28x28
  slices_S8x256x36x36_S8x256x28x28_0_0_5_7 : S8x256x36x36.Slices ![0, 0, 5, 7] S8x256x28x28
  slices_S8x256x36x36_S8x256x28x28_0_0_5_8 : S8x256x36x36.Slices ![0, 0, 5, 8] S8x256x28x28
  slices_S8x256x36x36_S8x256x28x28_0_0_6_0 : S8x256x36x36.Slices ![0, 0, 6, 0] S8x256x28x28
  slices_S8x256x36x36_S8x256x28x28_0_0_6_1 : S8x256x36x36.Slices ![0, 0, 6, 1] S8x256x28x28
  slices_S8x256x36x36_S8x256x28x28_0_0_6_2 : S8x256x36x36.Slices ![0, 0, 6, 2] S8x256x28x28
  slices_S8x256x36x36_S8x256x28x28_0_0_6_3 : S8x256x36x36.Slices ![0, 0, 6, 3] S8x256x28x28
  slices_S8x256x36x36_S8x256x28x28_0_0_6_4 : S8x256x36x36.Slices ![0, 0, 6, 4] S8x256x28x28
  slices_S8x256x36x36_S8x256x28x28_0_0_6_5 : S8x256x36x36.Slices ![0, 0, 6, 5] S8x256x28x28
  slices_S8x256x36x36_S8x256x28x28_0_0_6_6 : S8x256x36x36.Slices ![0, 0, 6, 6] S8x256x28x28
  slices_S8x256x36x36_S8x256x28x28_0_0_6_7 : S8x256x36x36.Slices ![0, 0, 6, 7] S8x256x28x28
  slices_S8x256x36x36_S8x256x28x28_0_0_6_8 : S8x256x36x36.Slices ![0, 0, 6, 8] S8x256x28x28
  slices_S8x256x36x36_S8x256x28x28_0_0_7_0 : S8x256x36x36.Slices ![0, 0, 7, 0] S8x256x28x28
  slices_S8x256x36x36_S8x256x28x28_0_0_7_1 : S8x256x36x36.Slices ![0, 0, 7, 1] S8x256x28x28
  slices_S8x256x36x36_S8x256x28x28_0_0_7_2 : S8x256x36x36.Slices ![0, 0, 7, 2] S8x256x28x28
  slices_S8x256x36x36_S8x256x28x28_0_0_7_3 : S8x256x36x36.Slices ![0, 0, 7, 3] S8x256x28x28
  slices_S8x256x36x36_S8x256x28x28_0_0_7_4 : S8x256x36x36.Slices ![0, 0, 7, 4] S8x256x28x28
  slices_S8x256x36x36_S8x256x28x28_0_0_7_5 : S8x256x36x36.Slices ![0, 0, 7, 5] S8x256x28x28
  slices_S8x256x36x36_S8x256x28x28_0_0_7_6 : S8x256x36x36.Slices ![0, 0, 7, 6] S8x256x28x28
  slices_S8x256x36x36_S8x256x28x28_0_0_7_7 : S8x256x36x36.Slices ![0, 0, 7, 7] S8x256x28x28
  slices_S8x256x36x36_S8x256x28x28_0_0_7_8 : S8x256x36x36.Slices ![0, 0, 7, 8] S8x256x28x28
  slices_S8x256x36x36_S8x256x28x28_0_0_8_0 : S8x256x36x36.Slices ![0, 0, 8, 0] S8x256x28x28
  slices_S8x256x36x36_S8x256x28x28_0_0_8_1 : S8x256x36x36.Slices ![0, 0, 8, 1] S8x256x28x28
  slices_S8x256x36x36_S8x256x28x28_0_0_8_2 : S8x256x36x36.Slices ![0, 0, 8, 2] S8x256x28x28
  slices_S8x256x36x36_S8x256x28x28_0_0_8_3 : S8x256x36x36.Slices ![0, 0, 8, 3] S8x256x28x28
  slices_S8x256x36x36_S8x256x28x28_0_0_8_4 : S8x256x36x36.Slices ![0, 0, 8, 4] S8x256x28x28
  slices_S8x256x36x36_S8x256x28x28_0_0_8_5 : S8x256x36x36.Slices ![0, 0, 8, 5] S8x256x28x28
  slices_S8x256x36x36_S8x256x28x28_0_0_8_6 : S8x256x36x36.Slices ![0, 0, 8, 6] S8x256x28x28
  slices_S8x256x36x36_S8x256x28x28_0_0_8_7 : S8x256x36x36.Slices ![0, 0, 8, 7] S8x256x28x28
  slices_S8x256x36x36_S8x256x28x28_0_0_8_8 : S8x256x36x36.Slices ![0, 0, 8, 8] S8x256x28x28
  bcast_S8x9x28x28_S8x1x9x28x28_0_2_3_4 : S8x9x28x28.BroadcastsInDim S8x1x9x28x28 (![0, 2, 3, 4] : Fin 4 → Fin S8x1x9x28x28.rank)
  concatenates_S8x1x9x28x28_S8x1x9x28x28_S8x1x9x28x28_S8x1x9x28x28_S8x1x9x28x28_S8x1x9x28x28_S8x1x9x28x28_S8x1x9x28x28_S8x1x9x28x28_S8x9x9x28x28_d1 : Shape.Concatenates [S8x1x9x28x28, S8x1x9x28x28, S8x1x9x28x28, S8x1x9x28x28, S8x1x9x28x28, S8x1x9x28x28, S8x1x9x28x28, S8x1x9x28x28, S8x1x9x28x28] S8x9x9x28x28 1
  pads_S8x512x14x14_S8x512x22x22_000_000_440_440 : S8x512x14x14.Pads (![0, 0, 4, 4] : Fin 4 → Nat) ![0, 0, 4, 4] ![0, 0, 0, 0] S8x512x22x22
  slices_S8x512x22x22_S8x512x14x14_0_0_0_0 : S8x512x22x22.Slices ![0, 0, 0, 0] S8x512x14x14
  reducesTo_S8x512x14x14_S8x14x14_d1 : S8x512x14x14.ReducesTo [1] S8x14x14
  slices_S8x512x22x22_S8x512x14x14_0_0_0_1 : S8x512x22x22.Slices ![0, 0, 0, 1] S8x512x14x14
  slices_S8x512x22x22_S8x512x14x14_0_0_0_2 : S8x512x22x22.Slices ![0, 0, 0, 2] S8x512x14x14
  slices_S8x512x22x22_S8x512x14x14_0_0_0_3 : S8x512x22x22.Slices ![0, 0, 0, 3] S8x512x14x14
  slices_S8x512x22x22_S8x512x14x14_0_0_0_4 : S8x512x22x22.Slices ![0, 0, 0, 4] S8x512x14x14
  slices_S8x512x22x22_S8x512x14x14_0_0_0_5 : S8x512x22x22.Slices ![0, 0, 0, 5] S8x512x14x14
  slices_S8x512x22x22_S8x512x14x14_0_0_0_6 : S8x512x22x22.Slices ![0, 0, 0, 6] S8x512x14x14
  slices_S8x512x22x22_S8x512x14x14_0_0_0_7 : S8x512x22x22.Slices ![0, 0, 0, 7] S8x512x14x14
  slices_S8x512x22x22_S8x512x14x14_0_0_0_8 : S8x512x22x22.Slices ![0, 0, 0, 8] S8x512x14x14
  bcast_S8x14x14_S8x1x14x14_0_2_3 : S8x14x14.BroadcastsInDim S8x1x14x14 (![0, 2, 3] : Fin 3 → Fin S8x1x14x14.rank)
  concatenates_S8x1x14x14_S8x1x14x14_S8x1x14x14_S8x1x14x14_S8x1x14x14_S8x1x14x14_S8x1x14x14_S8x1x14x14_S8x1x14x14_S8x9x14x14_d1 : Shape.Concatenates [S8x1x14x14, S8x1x14x14, S8x1x14x14, S8x1x14x14, S8x1x14x14, S8x1x14x14, S8x1x14x14, S8x1x14x14, S8x1x14x14] S8x9x14x14 1
  slices_S8x512x22x22_S8x512x14x14_0_0_1_0 : S8x512x22x22.Slices ![0, 0, 1, 0] S8x512x14x14
  slices_S8x512x22x22_S8x512x14x14_0_0_1_1 : S8x512x22x22.Slices ![0, 0, 1, 1] S8x512x14x14
  slices_S8x512x22x22_S8x512x14x14_0_0_1_2 : S8x512x22x22.Slices ![0, 0, 1, 2] S8x512x14x14
  slices_S8x512x22x22_S8x512x14x14_0_0_1_3 : S8x512x22x22.Slices ![0, 0, 1, 3] S8x512x14x14
  slices_S8x512x22x22_S8x512x14x14_0_0_1_4 : S8x512x22x22.Slices ![0, 0, 1, 4] S8x512x14x14
  slices_S8x512x22x22_S8x512x14x14_0_0_1_5 : S8x512x22x22.Slices ![0, 0, 1, 5] S8x512x14x14
  slices_S8x512x22x22_S8x512x14x14_0_0_1_6 : S8x512x22x22.Slices ![0, 0, 1, 6] S8x512x14x14
  slices_S8x512x22x22_S8x512x14x14_0_0_1_7 : S8x512x22x22.Slices ![0, 0, 1, 7] S8x512x14x14
  slices_S8x512x22x22_S8x512x14x14_0_0_1_8 : S8x512x22x22.Slices ![0, 0, 1, 8] S8x512x14x14
  slices_S8x512x22x22_S8x512x14x14_0_0_2_0 : S8x512x22x22.Slices ![0, 0, 2, 0] S8x512x14x14
  slices_S8x512x22x22_S8x512x14x14_0_0_2_1 : S8x512x22x22.Slices ![0, 0, 2, 1] S8x512x14x14
  slices_S8x512x22x22_S8x512x14x14_0_0_2_2 : S8x512x22x22.Slices ![0, 0, 2, 2] S8x512x14x14
  slices_S8x512x22x22_S8x512x14x14_0_0_2_3 : S8x512x22x22.Slices ![0, 0, 2, 3] S8x512x14x14
  slices_S8x512x22x22_S8x512x14x14_0_0_2_4 : S8x512x22x22.Slices ![0, 0, 2, 4] S8x512x14x14
  slices_S8x512x22x22_S8x512x14x14_0_0_2_5 : S8x512x22x22.Slices ![0, 0, 2, 5] S8x512x14x14
  slices_S8x512x22x22_S8x512x14x14_0_0_2_6 : S8x512x22x22.Slices ![0, 0, 2, 6] S8x512x14x14
  slices_S8x512x22x22_S8x512x14x14_0_0_2_7 : S8x512x22x22.Slices ![0, 0, 2, 7] S8x512x14x14
  slices_S8x512x22x22_S8x512x14x14_0_0_2_8 : S8x512x22x22.Slices ![0, 0, 2, 8] S8x512x14x14
  slices_S8x512x22x22_S8x512x14x14_0_0_3_0 : S8x512x22x22.Slices ![0, 0, 3, 0] S8x512x14x14
  slices_S8x512x22x22_S8x512x14x14_0_0_3_1 : S8x512x22x22.Slices ![0, 0, 3, 1] S8x512x14x14
  slices_S8x512x22x22_S8x512x14x14_0_0_3_2 : S8x512x22x22.Slices ![0, 0, 3, 2] S8x512x14x14
  slices_S8x512x22x22_S8x512x14x14_0_0_3_3 : S8x512x22x22.Slices ![0, 0, 3, 3] S8x512x14x14
  slices_S8x512x22x22_S8x512x14x14_0_0_3_4 : S8x512x22x22.Slices ![0, 0, 3, 4] S8x512x14x14
  slices_S8x512x22x22_S8x512x14x14_0_0_3_5 : S8x512x22x22.Slices ![0, 0, 3, 5] S8x512x14x14
  slices_S8x512x22x22_S8x512x14x14_0_0_3_6 : S8x512x22x22.Slices ![0, 0, 3, 6] S8x512x14x14
  slices_S8x512x22x22_S8x512x14x14_0_0_3_7 : S8x512x22x22.Slices ![0, 0, 3, 7] S8x512x14x14
  slices_S8x512x22x22_S8x512x14x14_0_0_3_8 : S8x512x22x22.Slices ![0, 0, 3, 8] S8x512x14x14
  slices_S8x512x22x22_S8x512x14x14_0_0_4_0 : S8x512x22x22.Slices ![0, 0, 4, 0] S8x512x14x14
  slices_S8x512x22x22_S8x512x14x14_0_0_4_1 : S8x512x22x22.Slices ![0, 0, 4, 1] S8x512x14x14
  slices_S8x512x22x22_S8x512x14x14_0_0_4_2 : S8x512x22x22.Slices ![0, 0, 4, 2] S8x512x14x14
  slices_S8x512x22x22_S8x512x14x14_0_0_4_3 : S8x512x22x22.Slices ![0, 0, 4, 3] S8x512x14x14
  slices_S8x512x22x22_S8x512x14x14_0_0_4_4 : S8x512x22x22.Slices ![0, 0, 4, 4] S8x512x14x14
  slices_S8x512x22x22_S8x512x14x14_0_0_4_5 : S8x512x22x22.Slices ![0, 0, 4, 5] S8x512x14x14
  slices_S8x512x22x22_S8x512x14x14_0_0_4_6 : S8x512x22x22.Slices ![0, 0, 4, 6] S8x512x14x14
  slices_S8x512x22x22_S8x512x14x14_0_0_4_7 : S8x512x22x22.Slices ![0, 0, 4, 7] S8x512x14x14
  slices_S8x512x22x22_S8x512x14x14_0_0_4_8 : S8x512x22x22.Slices ![0, 0, 4, 8] S8x512x14x14
  slices_S8x512x22x22_S8x512x14x14_0_0_5_0 : S8x512x22x22.Slices ![0, 0, 5, 0] S8x512x14x14
  slices_S8x512x22x22_S8x512x14x14_0_0_5_1 : S8x512x22x22.Slices ![0, 0, 5, 1] S8x512x14x14
  slices_S8x512x22x22_S8x512x14x14_0_0_5_2 : S8x512x22x22.Slices ![0, 0, 5, 2] S8x512x14x14
  slices_S8x512x22x22_S8x512x14x14_0_0_5_3 : S8x512x22x22.Slices ![0, 0, 5, 3] S8x512x14x14
  slices_S8x512x22x22_S8x512x14x14_0_0_5_4 : S8x512x22x22.Slices ![0, 0, 5, 4] S8x512x14x14
  slices_S8x512x22x22_S8x512x14x14_0_0_5_5 : S8x512x22x22.Slices ![0, 0, 5, 5] S8x512x14x14
  slices_S8x512x22x22_S8x512x14x14_0_0_5_6 : S8x512x22x22.Slices ![0, 0, 5, 6] S8x512x14x14
  slices_S8x512x22x22_S8x512x14x14_0_0_5_7 : S8x512x22x22.Slices ![0, 0, 5, 7] S8x512x14x14
  slices_S8x512x22x22_S8x512x14x14_0_0_5_8 : S8x512x22x22.Slices ![0, 0, 5, 8] S8x512x14x14
  slices_S8x512x22x22_S8x512x14x14_0_0_6_0 : S8x512x22x22.Slices ![0, 0, 6, 0] S8x512x14x14
  slices_S8x512x22x22_S8x512x14x14_0_0_6_1 : S8x512x22x22.Slices ![0, 0, 6, 1] S8x512x14x14
  slices_S8x512x22x22_S8x512x14x14_0_0_6_2 : S8x512x22x22.Slices ![0, 0, 6, 2] S8x512x14x14
  slices_S8x512x22x22_S8x512x14x14_0_0_6_3 : S8x512x22x22.Slices ![0, 0, 6, 3] S8x512x14x14
  slices_S8x512x22x22_S8x512x14x14_0_0_6_4 : S8x512x22x22.Slices ![0, 0, 6, 4] S8x512x14x14
  slices_S8x512x22x22_S8x512x14x14_0_0_6_5 : S8x512x22x22.Slices ![0, 0, 6, 5] S8x512x14x14
  slices_S8x512x22x22_S8x512x14x14_0_0_6_6 : S8x512x22x22.Slices ![0, 0, 6, 6] S8x512x14x14
  slices_S8x512x22x22_S8x512x14x14_0_0_6_7 : S8x512x22x22.Slices ![0, 0, 6, 7] S8x512x14x14
  slices_S8x512x22x22_S8x512x14x14_0_0_6_8 : S8x512x22x22.Slices ![0, 0, 6, 8] S8x512x14x14
  slices_S8x512x22x22_S8x512x14x14_0_0_7_0 : S8x512x22x22.Slices ![0, 0, 7, 0] S8x512x14x14
  slices_S8x512x22x22_S8x512x14x14_0_0_7_1 : S8x512x22x22.Slices ![0, 0, 7, 1] S8x512x14x14
  slices_S8x512x22x22_S8x512x14x14_0_0_7_2 : S8x512x22x22.Slices ![0, 0, 7, 2] S8x512x14x14
  slices_S8x512x22x22_S8x512x14x14_0_0_7_3 : S8x512x22x22.Slices ![0, 0, 7, 3] S8x512x14x14
  slices_S8x512x22x22_S8x512x14x14_0_0_7_4 : S8x512x22x22.Slices ![0, 0, 7, 4] S8x512x14x14
  slices_S8x512x22x22_S8x512x14x14_0_0_7_5 : S8x512x22x22.Slices ![0, 0, 7, 5] S8x512x14x14
  slices_S8x512x22x22_S8x512x14x14_0_0_7_6 : S8x512x22x22.Slices ![0, 0, 7, 6] S8x512x14x14
  slices_S8x512x22x22_S8x512x14x14_0_0_7_7 : S8x512x22x22.Slices ![0, 0, 7, 7] S8x512x14x14
  slices_S8x512x22x22_S8x512x14x14_0_0_7_8 : S8x512x22x22.Slices ![0, 0, 7, 8] S8x512x14x14
  slices_S8x512x22x22_S8x512x14x14_0_0_8_0 : S8x512x22x22.Slices ![0, 0, 8, 0] S8x512x14x14
  slices_S8x512x22x22_S8x512x14x14_0_0_8_1 : S8x512x22x22.Slices ![0, 0, 8, 1] S8x512x14x14
  slices_S8x512x22x22_S8x512x14x14_0_0_8_2 : S8x512x22x22.Slices ![0, 0, 8, 2] S8x512x14x14
  slices_S8x512x22x22_S8x512x14x14_0_0_8_3 : S8x512x22x22.Slices ![0, 0, 8, 3] S8x512x14x14
  slices_S8x512x22x22_S8x512x14x14_0_0_8_4 : S8x512x22x22.Slices ![0, 0, 8, 4] S8x512x14x14
  slices_S8x512x22x22_S8x512x14x14_0_0_8_5 : S8x512x22x22.Slices ![0, 0, 8, 5] S8x512x14x14
  slices_S8x512x22x22_S8x512x14x14_0_0_8_6 : S8x512x22x22.Slices ![0, 0, 8, 6] S8x512x14x14
  slices_S8x512x22x22_S8x512x14x14_0_0_8_7 : S8x512x22x22.Slices ![0, 0, 8, 7] S8x512x14x14
  slices_S8x512x22x22_S8x512x14x14_0_0_8_8 : S8x512x22x22.Slices ![0, 0, 8, 8] S8x512x14x14
  bcast_S8x9x14x14_S8x1x9x14x14_0_2_3_4 : S8x9x14x14.BroadcastsInDim S8x1x9x14x14 (![0, 2, 3, 4] : Fin 4 → Fin S8x1x9x14x14.rank)
  concatenates_S8x1x9x14x14_S8x1x9x14x14_S8x1x9x14x14_S8x1x9x14x14_S8x1x9x14x14_S8x1x9x14x14_S8x1x9x14x14_S8x1x9x14x14_S8x1x9x14x14_S8x9x9x14x14_d1 : Shape.Concatenates [S8x1x9x14x14, S8x1x9x14x14, S8x1x9x14x14, S8x1x9x14x14, S8x1x9x14x14, S8x1x9x14x14, S8x1x9x14x14, S8x1x9x14x14, S8x1x9x14x14] S8x9x9x14x14 1

variable [Facts₀]

class Facts : Prop extends Facts₀ where

variable [Facts]
-- ==== Proof.KernelRun.lean ====
/-
  The idealized kernel's run with its four result buffers named.  @main is four pipelined regions, each followed by
  one reshape of the region's [8, 81, H, W] output to [8, 9, 9, H, W].  The run ends with every unscoped buffer at
  the contents obtained by folding the segments over the launch memory; read at a result buffer the fold is the
  reshape of what its region's write-backs leave, and read at an argument it is the launch contents, because no
  segment writes an argument and no later segment writes an earlier result.
-/
import proofs.«135875_j16999480558431_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with each result buffer and each argument at the final fold's
    contents. -/
theorem run_out : θ_run defs (onTc (τ := τ) (main (F := F))) ⟨m, fun _ => 0, ρ⟩ (fun r => ∀ c : Dev nD,
      r.2.mem ((c.tc : Thread nD τ).loc main_v7) = W8 m ρ c (Proc.devRef .tc main_v7)
      ∧ r.2.mem ((c.tc : Thread nD τ).loc main_v5) = W8 m ρ c (Proc.devRef .tc main_v5)
      ∧ r.2.mem ((c.tc : Thread nD τ).loc main_v3) = W8 m ρ c (Proc.devRef .tc main_v3)
      ∧ r.2.mem ((c.tc : Thread nD τ).loc main_v1) = W8 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v7 (by decide)),
       h c _ (mem_uc main_v5 (by decide)),
       h c _ (mem_uc main_v3 (by decide)),
       h c _ (mem_uc main_v1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

/-! ## The host stretches -/

/-- The host stretch after region 0 (one reshape) leaves every buffer but its result as it was. -/
theorem host1_keep (X : Valuation τ sig (Elt F)) (b : Ref sig .tc) (hb : b ≠ main_v1) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The host stretch after region 1 (one reshape) leaves every buffer but its result as it was. -/
theorem host2_keep (X : Valuation τ sig (Elt F)) (b : Ref sig .tc) (hb : b ≠ main_v3) :
    StableHlo.after hostOps2 X (Proc.devRef .tc b) = X (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The host stretch after region 2 (one reshape) leaves every buffer but its result as it was. -/
theorem host3_keep (X : Valuation τ sig (Elt F)) (b : Ref sig .tc) (hb : b ≠ main_v5) :
    StableHlo.after hostOps3 X (Proc.devRef .tc b) = X (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The host stretch after region 3 (one reshape) leaves every buffer but its result as it was. -/
theorem host4_keep (X : Valuation τ sig (Elt F)) (b : Ref sig .tc) (hb : b ≠ main_v7) :
    StableHlo.after hostOps4 X (Proc.devRef .tc b) = X (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne hb))

/-- A stretch's result is the reshape of its region's output. -/
theorem host1_res (X : Valuation τ sig (Elt F)) :
    StableHlo.after hostOps1 X (Proc.devRef .tc main_v1) = shapeCast S8x9x9x112x112 (X (Proc.devRef .tc main_v0)) shapeCasts_S8x81x112x112_S8x9x9x112x112 := by
  after_results; rfl
theorem host2_res (X : Valuation τ sig (Elt F)) :
    StableHlo.after hostOps2 X (Proc.devRef .tc main_v3) = shapeCast S8x9x9x56x56 (X (Proc.devRef .tc main_v2)) shapeCasts_S8x81x56x56_S8x9x9x56x56 := by
  after_results; rfl
theorem host3_res (X : Valuation τ sig (Elt F)) :
    StableHlo.after hostOps3 X (Proc.devRef .tc main_v5) = shapeCast S8x9x9x28x28 (X (Proc.devRef .tc main_v4)) shapeCasts_S8x81x28x28_S8x9x9x28x28 := by
  after_results; rfl
theorem host4_res (X : Valuation τ sig (Elt F)) :
    StableHlo.after hostOps4 X (Proc.devRef .tc main_v7) = shapeCast S8x9x9x14x14 (X (Proc.devRef .tc main_v6)) shapeCasts_S8x81x14x14_S8x9x9x14x14 := by
  after_results; rfl

/-! ## The arguments as each region finds them -/

theorem V0_arg (c : Dev nD) (b : Ref sig .tc) : V0 m ρ c b = m ((c : Thread nD τ).loc b) := rfl

theorem V2_keep (c : Dev nD) (b : Ref sig .tc) (h0 : ∀ w, Pipeline.arrRef spec0 w ≠ b) (h1 : b ≠ main_v1) :
    V2 m ρ c b = m ((c : Thread nD τ).loc b) :=
  (host1_keep (W1 m ρ c) b h1).trans (W1_of_ne m ρ c b h0)

theorem V4_keep (c : Dev nD) (b : Ref sig .tc) (h0 : ∀ w, Pipeline.arrRef spec0 w ≠ b) (h1 : b ≠ main_v1)
    (h2 : ∀ w, Pipeline.arrRef spec1 w ≠ b) (h3 : b ≠ main_v3) : V4 m ρ c b = m ((c : Thread nD τ).loc b) :=
  (host2_keep (W3 m ρ c) b h3).trans ((W3_of_ne m ρ c b h2).trans (V2_keep m ρ c b h0 h1))

theorem V6_keep (c : Dev nD) (b : Ref sig .tc) (h0 : ∀ w, Pipeline.arrRef spec0 w ≠ b) (h1 : b ≠ main_v1)
    (h2 : ∀ w, Pipeline.arrRef spec1 w ≠ b) (h3 : b ≠ main_v3)
    (h4 : ∀ w, Pipeline.arrRef spec2 w ≠ b) (h5 : b ≠ main_v5) : V6 m ρ c b = m ((c : Thread nD τ).loc b) :=
  (host3_keep (W5 m ρ c) b h5).trans ((W5_of_ne m ρ c b h4).trans (V4_keep m ρ c b h0 h1 h2 h3))

/-! ## The results at the end -/

theorem W8_v7 (c : Dev nD) : W8 m ρ c (Proc.devRef .tc main_v7)
    = shapeCast S8x9x9x14x14 ((dat3 (V6 m ρ) c).arrAt 2 cfg3.N) shapeCasts_S8x81x14x14_S8x9x9x14x14 :=
  (host4_res (W7 m ρ c)).trans (congrArg (fun x => shapeCast S8x9x9x14x14 x shapeCasts_S8x81x14x14_S8x9x9x14x14) (W7_arr m ρ c 2))

theorem W8_v5 (c : Dev nD) : W8 m ρ c (Proc.devRef .tc main_v5)
    = shapeCast S8x9x9x28x28 ((dat2 (V4 m ρ) c).arrAt 2 cfg2.N) shapeCasts_S8x81x28x28_S8x9x9x28x28 :=
  (host4_keep (W7 m ρ c) main_v5 (by decide)).trans ((W7_of_ne m ρ c main_v5 (by decide)).trans
    ((host3_res (W5 m ρ c)).trans (congrArg (fun x => shapeCast S8x9x9x28x28 x shapeCasts_S8x81x28x28_S8x9x9x28x28) (W5_arr m ρ c 2))))

theorem W8_v3 (c : Dev nD) : W8 m ρ c (Proc.devRef .tc main_v3)
    = shapeCast S8x9x9x56x56 ((dat1 (V2 m ρ) c).arrAt 2 cfg1.N) shapeCasts_S8x81x56x56_S8x9x9x56x56 :=
  (host4_keep (W7 m ρ c) main_v3 (by decide)).trans ((W7_of_ne m ρ c main_v3 (by decide)).trans
    ((host3_keep (W5 m ρ c) main_v3 (by decide)).trans ((W5_of_ne m ρ c main_v3 (by decide)).trans
      ((host2_res (W3 m ρ c)).trans (congrArg (fun x => shapeCast S8x9x9x56x56 x shapeCasts_S8x81x56x56_S8x9x9x56x56) (W3_arr m ρ c 2))))))

theorem W8_v1 (c : Dev nD) : W8 m ρ c (Proc.devRef .tc main_v1)
    = shapeCast S8x9x9x112x112 ((dat0 (V0 m ρ) c).arrAt 2 cfg0.N) shapeCasts_S8x81x112x112_S8x9x9x112x112 :=
  (host4_keep (W7 m ρ c) main_v1 (by decide)).trans ((W7_of_ne m ρ c main_v1 (by decide)).trans
    ((host3_keep (W5 m ρ c) main_v1 (by decide)).trans ((W5_of_ne m ρ c main_v1 (by decide)).trans
      ((host2_keep (W3 m ρ c) main_v1 (by decide)).trans ((W3_of_ne m ρ c main_v1 (by decide)).trans
        ((host1_res (W1 m ρ c)).trans (congrArg (fun x => shapeCast S8x9x9x112x112 x shapeCasts_S8x81x112x112_S8x9x9x112x112) (W1_arr m ρ c 2))))))))

end Cert.KernelIdeal.Out

end
-- ==== Proof.CorrSpec0.lean ====
/-
  Level 0 of the correlation pyramid: feature maps a, b of shape [8, 64, 112, 112].
  The value both programs compute is the 9 x 9 patch correlation

      corr a b n di dj i j = sum over channels c of a[n, c, i, j] * bpad[n, c, i + di, j + dj],

  where bpad is b with a border of four zeros on each side of its two spatial axes (so bpad has
  spatial extents 120 x 120, and bpad[n, c, r, s] = b[n, c, r - 4, s - 4] when 4 <= r < 116 and 4 <= s < 116,
  and 0 otherwise).  This file states that function and reads the host's operations at an index:
  a zero pad, a unit-stride slice, a product, a sum over the channel axis and the broadcast that
  adds a unit axis, composed, are one entry of corr.  Nothing here needs the inputs to be finite:
  a[n, c, i, j] * 0 is the same term on both sides.
-/
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Corr0

open Idealize.ShloMosaic Idealize.ShloMosaic.ValueIdx

/-- The feature maps' shape. -/
abbrev SA : Shape := ⟨4, ![8, 64, 112, 112]⟩
/-- The zero-padded feature map's shape. -/
abbrev SP : Shape := ⟨4, ![8, 64, 120, 120]⟩
/-- One correlation plane per batch entry. -/
abbrev SR : Shape := ⟨3, ![8, 112, 112]⟩
/-- The same with a unit axis for the patch column. -/
abbrev SU : Shape := ⟨4, ![8, 1, 112, 112]⟩
/-- The scalar shape. -/
abbrev S0 : Shape := ⟨0, ![]⟩

/-- The zero-padded second feature map at padded coordinates (r, s): b at (r - 4, s - 4) inside the
    border, zero on it. -/
def padRead (b : SA.Idx → EReal) (n : Fin 8) (c : Fin 64) (r s : ℕ) : EReal :=
  if h : 4 ≤ r ∧ r < 116 ∧ 4 ≤ s ∧ s < 116 then b (ix4 n c ⟨r - 4, by omega⟩ ⟨s - 4, by omega⟩) else 0

/-- One entry of the patch correlation: the channel dot product of a at pixel (i, j) with the padded b at
    the pixel displaced by (di, dj). -/
def corr (a b : SA.Idx → EReal) (n : Fin 8) (di dj : ℕ) (i : Fin 112) (j : Fin 112) : EReal :=
  ∑ c : Fin 64, a (ix4 n c i j) * padRead b n c (i.val + di) (j.val + dj)

/-- The host's zero pad read at an index is padRead. -/
theorem pad_read (b : SA.Idx → EReal) (v : S0.Idx → EReal)
    (h : SA.Pads (![0, 0, 4, 4] : Fin 4 → Nat) ![0, 0, 4, 4] ![0, 0, 0, 0] SP) (hu : 0 < S0.numel)
    (hv : ∀ i, v i = 0) (n : Fin 8) (c : Fin 64) (r : Fin 120) (s : Fin 120) :
    pad SP ![0, 0, 4, 4] ![0, 0, 4, 4] ![0, 0, 0, 0] b v h hu (ix4 n c r s) = padRead b n c r.val s.val := by
  unfold padRead
  split_ifs with hin
  · exact pad_apply_of_inside _ _ _ b v h hu _ _ (fun a => match a with
      | ⟨0, _⟩ => by show n.val = 0 + n.val * (0 + 1); omega
      | ⟨1, _⟩ => by show c.val = 0 + c.val * (0 + 1); omega
      | ⟨2, _⟩ => by show r.val = 4 + (r.val - 4) * (0 + 1); omega
      | ⟨3, _⟩ => by show s.val = 4 + (s.val - 4) * (0 + 1); omega)
  · by_cases hr : 4 ≤ r.val ∧ r.val < 116
    · rw [pad_apply_of_not_inside _ _ _ b v h hu _ (2 + 1 : Fin 4) (fun hh => hin ?_)]
      · exact hv _
      · have h1 : 4 ≤ s.val := hh.1
        have h2 : (s.val - 4) / (0 + 1) < 112 := hh.2.2
        refine ⟨hr.1, hr.2, h1, ?_⟩; omega
    · rw [pad_apply_of_not_inside _ _ _ b v h hu _ (2 : Fin 4) (fun hh => hr ?_)]
      · exact hv _
      · have h1 : 4 ≤ r.val := hh.1
        have h2 : (r.val - 4) / (0 + 1) < 112 := hh.2.2
        refine ⟨h1, ?_⟩; omega

/-- One of the reference's 81 planes at an index: the padded b sliced at offsets (di, dj), times a, summed
    over the channels from a zero initial value, with a unit axis added, is corr. -/
theorem leaf (di dj : ℕ) (a b : SA.Idx → EReal)
    (hp : SA.Pads (![0, 0, 4, 4] : Fin 4 → Nat) ![0, 0, 4, 4] ![0, 0, 0, 0] SP) (hu : 0 < S0.numel)
    (hs : SP.Slices ![0, 0, di, dj] SA) (hr : SA.ReducesTo [1] SR) (hr' : SA.Reduces [1] SR)
    (hb : SR.BroadcastsInDim SU (![0, 2, 3] : Fin 3 → Fin SU.rank))
    (n : Fin 8) (u : Fin 1) (i : Fin 112) (j : Fin 112) :
    broadcastInDim SU ![0, 2, 3] hb
        (Host.reduceAdd (F := Ideal)
          (mulf (F := Ideal) (φ := .f32) a (extractStridedSlice SA ![0, 0, di, dj]
            (pad SP ![0, 0, 4, 4] ![0, 0, 4, 4] ![0, 0, 0, 0] b (sitofp (F := Ideal) .f32 (constantI S0 32 0#32)) hp hu) hs))
          (constant (F := Ideal) S0 .f32 0x00000000#32) hr hu) (ix4 n u i j)
      = corr a b n di dj i j := by
  obtain ⟨_, hs2⟩ := id hs
  have hdi : di + 112 ≤ 120 := hs2 2
  have hdj : dj + 112 ≤ 120 := hs2 3
  rw [broadcastInDim_apply _ hb _ (ix4 n u i j) (ix3 n i j) (fun a => match a with
    | ⟨0, _⟩ => by show n.val = if (8 : Nat) = 1 then 0 else n.val; rw [if_neg (by decide)]
    | ⟨1, _⟩ => by show i.val = if (112 : Nat) = 1 then 0 else i.val; rw [if_neg (by decide)]
    | ⟨2, _⟩ => by show j.val = if (112 : Nat) = 1 then 0 else j.val; rw [if_neg (by decide)])]
  simp only [Host.reduceAdd, Ideal.hostReduceAdd_def]
  rw [Ideal.hostReduceAdd_single hr hr']
  unfold corr
  rw [show constant (F := Ideal) S0 .f32 0x00000000#32 (Shape.Idx.first hu) = 0 from Ideal.ofBits_zero_f32, zero_add]
  refine Finset.sum_congr rfl fun (c : Fin 64) _ => ?_
  rw [show hr'.lift (ix3 n i j) c = ix4 n c i j from
    funext fun a => Fin.ext (by match a with | ⟨0, _⟩ => rfl | ⟨1, _⟩ => rfl | ⟨2, _⟩ => rfl | ⟨3, _⟩ => rfl)]
  refine (mulf_apply (s := SA) (φ := .f32) a _ (ix4 n c i j)).trans ?_
  refine congrArg (a (ix4 n c i j) * ·) ?_
  rw [extractStridedSlice_apply _ _ hs (ix4 n c i j) (ix4 n c ⟨di + i.val, by omega⟩ ⟨dj + j.val, by omega⟩) (fun a => match a with
    | ⟨0, _⟩ => by show n.val = 0 + n.val; omega
    | ⟨1, _⟩ => by show c.val = 0 + c.val; omega
    | ⟨2, _⟩ => by show di + i.val = di + i.val; rfl
    | ⟨3, _⟩ => by show dj + j.val = dj + j.val; rfl)]
  rw [pad_read b _ hp hu (fun _ => by
    show FloatOps.sitofp (F := Ideal) .f32 (0#32) = 0
    simp [FloatOps.sitofp]) n c ⟨di + i.val, by omega⟩ ⟨dj + j.val, by omega⟩]
  show padRead b n c (di + i.val) (dj + j.val) = padRead b n c (i.val + di) (j.val + dj)
  rw [Nat.add_comm di, Nat.add_comm dj]

end Corr0

end
-- ==== Proof.CorrBlock0.lean ====
/-
  Level 0, one grid point of the kernel: the point's blocks are a[n] and b[n], of shape [1, 64, 112, 112].
  The body zeroes a [64, 120, 120] scratch, writes b[n] into its interior at offset (4, 4), and then for each
  of the 81 displacements (di, dj) reads rows di .. di + 112 of the scratch, takes columns dj .. dj + 112 of them,
  multiplies by a[n] and sums over the channels, storing the [112, 112] plane as plane di * 9 + dj of the
  [1, 81, 112, 112] output block.  So the block is

      blk a b (0, k, i, j) = sum over c of a[0, c, i, j] * scr b (c, i + k / 9, j + k % 9),

  scr b being b with its border of four zeros.  Each of the 81 stored planes is read at an index here.
-/
import Idealize.ShloMosaic.Lib.ValueIdx
import Idealize.ShloMosaic.Lib.Pipeline.Value
import Idealize.ShloMosaic.Lib.Pipeline.FrameBody
import Idealize.ShloMosaic.PureOps.Ideal.Laws

noncomputable section

open scoped BigOperators

namespace CorrK0

open Idealize.ShloMosaic Idealize.ShloMosaic.ValueIdx

/-- One grid point's block of a feature map. -/
abbrev KA : Shape := ⟨4, ![1, 64, 112, 112]⟩
/-- The scratch holding the zero-padded block of b. -/
abbrev KS : Shape := ⟨3, ![64, 120, 120]⟩
/-- 112 rows of the scratch. -/
abbrev KR : Shape := ⟨3, ![64, 112, 120]⟩
/-- A block without its unit axis. -/
abbrev KC : Shape := ⟨3, ![64, 112, 112]⟩
/-- One correlation plane. -/
abbrev KP : Shape := ⟨2, ![112, 112]⟩
/-- One correlation plane as stored. -/
abbrev KO : Shape := ⟨4, ![1, 1, 112, 112]⟩
/-- The output block. -/
abbrev KB : Shape := ⟨4, ![1, 81, 112, 112]⟩

/-- The block of b with its border of four zeros, at padded coordinates (r, s). -/
def scrRead (x1 : KA.Idx → EReal) (c : Fin 64) (r s : ℕ) : EReal :=
  if h : 4 ≤ r ∧ r < 116 ∧ 4 ≤ s ∧ s < 116 then x1 (ix4 0 c ⟨r - 4, by omega⟩ ⟨s - 4, by omega⟩) else 0

/-- One entry of a grid point's output block: plane k = di * 9 + dj at pixel (i, j). -/
def blkAt (x0 x1 : KA.Idx → EReal) (k : ℕ) (i : Fin 112) (j : Fin 112) : EReal :=
  ∑ c : Fin 64, x0 (ix4 0 c i j) * scrRead x1 c (i.val + k / 9) (j.val + k % 9)

/-- A grid point's output block. -/
def blk (x0 x1 : KA.Idx → EReal) (y : KB.Idx) : EReal :=
  blkAt x0 x1 (y 1).val ⟨(y 2).val, (y 2).isLt⟩ ⟨(y 3).val, (y 3).isLt⟩

/-- The block at an index given by its three free coordinates. -/
theorem blk_apply (x0 x1 : KA.Idx → EReal) (y : KB.Idx) (k : ℕ) (i : Fin 112) (j : Fin 112)
    (h1 : (y 1).val = k) (h2 : (y 2).val = i.val) (h3 : (y 3).val = j.val) : blk x0 x1 y = blkAt x0 x1 k i j := by
  unfold blk
  have e2 : (⟨(y 2).val, (y 2).isLt⟩ : Fin 112) = i := Fin.ext h2
  have e3 : (⟨(y 3).val, (y 3).isLt⟩ : Fin 112) = j := Fin.ext h3
  rw [h1, e2, e3]

theorem zero3 : (![0, 0, 0] : Fin 3 → ℕ) = fun _ => 0 := by
  funext a; match a with | ⟨0, _⟩ => rfl | ⟨1, _⟩ => rfl | ⟨2, _⟩ => rfl

/-- The scratch after the two stores, at an index: the interior store's payload inside the border, the zero
    store's payload on it. -/
theorem scratch_canon (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (c : Fin 64) (r : Fin 120) (s : Fin 120) :
    View.canon (Val := Elt Ideal) (s := KS) (e := .f32)
        [⟨Rect.unit (s := KS) ![0, 4, 4] KC.size inbI, w⟩, ⟨Rect.unit (s := KS) ![0, 0, 0] KS.size inbZ, z⟩] (ix3 c r s)
      = if h : 4 ≤ r.val ∧ r.val < 116 ∧ 4 ≤ s.val ∧ s.val < 116 then w (ix3 c ⟨r.val - 4, by omega⟩ ⟨s.val - 4, by omega⟩) else 0 := by
  split_ifs with hin
  · have e : ix3 c r s = (Rect.unit (s := KS) ![0, 4, 4] KC.size inbI).emb (ix3 c ⟨r.val - 4, by omega⟩ ⟨s.val - 4, by omega⟩) :=
      funext fun a => Fin.ext (by
        match a with
        | ⟨0, _⟩ => show c.val = 0 + 1 * c.val; omega
        | ⟨1, _⟩ => show r.val = 4 + 1 * (r.val - 4); omega
        | ⟨2, _⟩ => show s.val = 4 + 1 * (s.val - 4); omega)
    rw [e]; exact View.canon_cons_emb (Val := Elt Ideal) (s := KS) (e := .f32) _ _ _ _
  · rw [View.canon_cons_of_not_mem _ _ (by
      rw [Rect.mem_set_unit]; intro hm
      have h1 : 4 ≤ r.val ∧ r.val < 4 + 112 := hm 1
      have h2 : 4 ≤ s.val ∧ s.val < 4 + 112 := hm 2
      exact hin ⟨h1.1, by omega, h2.1, by omega⟩)]
    rw [View.canon_unit_zero zero3]
    exact hz _

/-- Rows di .. di + 112 of the scratch, loaded after the two stores, at an index. -/
theorem rows_read {sig : RefSig} {κ : Kind} {sp : Space} (v4 : View sig κ sp KS .f32) (di : ℕ)
    (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (c : Fin 64) (i : Fin 112) (s : Fin 120) (hdi : di + 112 ≤ 120) :
    (v4.readCov (Val := Elt Ideal)
        [⟨Rect.unit (s := KS) ![0, 4, 4] KC.size inbI, w⟩, ⟨Rect.unit (s := KS) ![0, 0, 0] KS.size inbZ, z⟩]
        (Rect.unit (s := KS) ![0, di, 0] KR.size inbR).toLoadRect : KR.Idx → Elt Ideal .f32) (ix3 c i s)
      = if h : 4 ≤ di + i.val ∧ di + i.val < 116 ∧ 4 ≤ s.val ∧ s.val < 116 then w (ix3 c ⟨di + i.val - 4, by omega⟩ ⟨s.val - 4, by omega⟩) else 0 := by
  have hcov : ∀ y : KS.Idx, ∃ p ∈ ([⟨Rect.unit (s := KS) ![0, 4, 4] KC.size inbI, w⟩, ⟨Rect.unit (s := KS) ![0, 0, 0] KS.size inbZ, z⟩] :
      List (View.Piece (Elt Ideal) KS .f32)), y ∈ p.1.set :=
    fun y => ⟨⟨Rect.unit (s := KS) ![0, 0, 0] KS.size inbZ, z⟩, List.mem_cons_of_mem _ (List.mem_singleton_self _),
      View.mem_set_unit_zero zero3 inbZ y⟩
  rw [View.readCov_eq_canon_ld v4 _ _ hcov]
  show View.canon (Val := Elt Ideal) _ ((Rect.unit (s := KS) ![0, di, 0] KR.size inbR).emb (ix3 c i s)) = _
  rw [show (Rect.unit (s := KS) ![0, di, 0] KR.size inbR).emb (ix3 c i s) = ix3 c ⟨di + i.val, by omega⟩ s from
    funext fun a => Fin.ext (by
      match a with
      | ⟨0, _⟩ => show 0 + 1 * c.val = c.val; omega
      | ⟨1, _⟩ => show di + 1 * i.val = di + i.val; omega
      | ⟨2, _⟩ => show 0 + 1 * s.val = s.val; omega)]
  exact scratch_canon w z hz inbI inbZ c ⟨di + i.val, by omega⟩ s

/-- The stored plane for displacement (di, dj), read at an index, is the block's plane di * 9 + dj. -/
theorem piece_eq {sig : RefSig} {κ : Kind} {sp : Space} (v4 : View sig κ sp KS .f32)
    (di dj k : ℕ) (hk : k = di * 9 + dj) (hdj9 : dj < 9)
    (x0 x1 : KA.Idx → EReal)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (inbO : ∀ a, (![0, k, 0, 0] : Fin 4 → ℕ) a + KO.size a ≤ KB.size a)
    (hcA : KA.ShapeCasts KC) (hcC : KC.ShapeCasts KC) (hcS : KS.ShapeCasts KS)
    (hs : KR.Slices ![0, 0, dj] KC) (hred : KC.Reduces [0] KP) (hφ : FKind.Formats .f32)
    (hacc : (0x00000000#32 : BitVec 32) = FKind.add.neutral .f32 hφ)
    (hcO : KP.ShapeCasts KO) (y : KO.Idx) :
    shapeCast KO (multiReduction (F := Ideal) .add [0] KP
        (mulf (F := Ideal) (φ := .f32) (shapeCast KC x0 hcA)
          (extractStridedSlice (s := KR) KC ![0, 0, dj]
            ((v4.readCov (Val := Elt Ideal)
              [⟨Rect.unit (s := KS) ![0, 4, 4] KC.size inbI, shapeCast KC (shapeCast KC x1 hcA) hcC⟩,
               ⟨Rect.unit (s := KS) ![0, 0, 0] KS.size inbZ, shapeCast KS (broadcast KS (Scalar.ofBits (F := Ideal) .f32 0x00000000#32)) hcS⟩]
              (Rect.unit (s := KS) ![0, di, 0] KR.size inbR).toLoadRect) : KR.Idx → Elt Ideal .f32) hs))
        0x00000000#32 hred hφ hacc) hcO y
      = blk x0 x1 ((Rect.unit (s := KB) ![0, k, 0, 0] KO.size inbO).emb y) := by
  have hdi : di + 112 ≤ 120 := inbR 1
  obtain ⟨_, hs2⟩ := id hs
  have hdj : dj + 112 ≤ 120 := hs2 2
  obtain ⟨u, v, i, j, rfl⟩ : ∃ (u v : Fin 1) (i : Fin 112) (j : Fin 112), y = ix4 u v i j := ⟨y 0, y 1, y 2, y 3, eq_ix4 y⟩
  have hu : u.val = 0 := by omega
  have hv : v.val = 0 := by omega
  -- the stored plane [1, 1, 112, 112] is the [112, 112] plane
  rw [shapeCast_apply _ hcO (ix4 u v i j) (ix2 i j) (by
    rw [Shape.rowMajor_val_two, Shape.rowMajor_val_four]
    show i.val * 112 + j.val = ((u.val * 1 + v.val) * 112 + i.val) * 112 + j.val
    rw [hu, hv]; omega)]
  rw [Ideal.multiReduction_add_single _ _ hred hφ hacc (ix2 i j)]
  -- the block's entry
  rw [blk_apply x0 x1 _ k i j (by show k + 1 * v.val = k; omega) (by show 0 + 1 * i.val = i.val; omega)
    (by show 0 + 1 * j.val = j.val; omega)]
  unfold blkAt
  refine Finset.sum_congr rfl fun (c : Fin 64) _ => ?_
  rw [show hred.lift (ix2 i j) c = ix3 c i j from
    funext fun a => Fin.ext (by match a with | ⟨0, _⟩ => rfl | ⟨1, _⟩ => rfl | ⟨2, _⟩ => rfl)]
  refine (mulf_apply (s := KC) (φ := .f32) _ _ (ix3 c i j)).trans ?_
  rw [shapeCast_apply x0 hcA (ix3 c i j) (ix4 0 c i j) (by
    rw [Shape.rowMajor_val_three, Shape.rowMajor_val_four]
    show ((0 * 64 + c.val) * 112 + i.val) * 112 + j.val = (c.val * 112 + i.val) * 112 + j.val
    omega)]
  refine congrArg (x0 (ix4 0 c i j) * ·) ?_
  -- the shifted b: columns dj .. of rows di .. of the scratch
  rw [extractStridedSlice_apply _ _ hs (ix3 c i j) (ix3 c i ⟨dj + j.val, by omega⟩) (fun a => match a with
    | ⟨0, _⟩ => by show c.val = 0 + c.val; omega
    | ⟨1, _⟩ => by show i.val = 0 + i.val; omega
    | ⟨2, _⟩ => by show dj + j.val = dj + j.val; rfl)]
  refine (rows_read v4 di _ _ (fun _ => by
    rw [shapeCast_self]; exact Ideal.ofBits_zero_f32) inbI inbZ inbR c i ⟨dj + j.val, by omega⟩ hdi).trans ?_
  unfold scrRead
  have hkd : k / 9 = di := by rw [hk]; omega
  have hkm : k % 9 = dj := by rw [hk]; omega
  rw [hkd, hkm]
  have e1 : i.val + di = di + i.val := Nat.add_comm _ _
  have e2 : j.val + dj = dj + j.val := Nat.add_comm _ _
  simp only [e1, e2]
  show (if h : 4 ≤ di + i.val ∧ di + i.val < 116 ∧ 4 ≤ dj + j.val ∧ dj + j.val < 116 then _ else _) = _
  split_ifs with hin
  · rw [shapeCast_self, shapeCast_apply x1 hcA _ (ix4 0 c ⟨di + i.val - 4, by omega⟩ ⟨dj + j.val - 4, by omega⟩) (by
      rw [Shape.rowMajor_val_three, Shape.rowMajor_val_four]
      show ((0 * 64 + c.val) * 112 + (di + i.val - 4)) * 112 + (dj + j.val - 4) = (c.val * 112 + (di + i.val - 4)) * 112 + (dj + j.val - 4)
      omega)]
  · rfl

end CorrK0

end
-- ==== Proof.CorrJoin0.lean ====
/-
  Level 0: the kernel's per-point block and the reference's planes are the same function corr.
  A grid point n sees the blocks a[n], b[n]; its output block's plane k at pixel (i, j) is
  corr a b n (k / 9) (k % 9) i j.  The kernel's [8, 81, 112, 112] array, reshaped to [8, 9, 9, 112, 112],
  has corr a b n di dj i j at (n, di, dj, i, j), because (di * 9 + dj) / 9 = di and (di * 9 + dj) % 9 = dj.
-/
import proofs.«135875_j16999480558431_2_alg».proof.Proof.CorrSpec0
import proofs.«135875_j16999480558431_2_alg».proof.Proof.CorrBlock0

noncomputable section

open scoped BigOperators

namespace CorrJ0

open Idealize.ShloMosaic Idealize.ShloMosaic.ValueIdx Corr0 CorrK0

/-- The kernel's output array before the reshape. -/
abbrev SO : Shape := ⟨4, ![8, 81, 112, 112]⟩
/-- The result's shape. -/
abbrev SF : Shape := ⟨5, ![8, 9, 9, 112, 112]⟩

/-- The kernel's output array as a function of the two feature maps. -/
def garr (A B : SA.Idx → EReal) (i : SO.Idx) : EReal :=
  corr A B ⟨(i 0).val, (i 0).isLt⟩ ((i 1).val / 9) ((i 1).val % 9) ⟨(i 2).val, (i 2).isLt⟩ ⟨(i 3).val, (i 3).isLt⟩

/-- The result as a function of the two feature maps. -/
def g5 (A B : SA.Idx → EReal) (i : SF.Idx) : EReal :=
  corr A B ⟨(i 0).val, (i 0).isLt⟩ (i 1).val (i 2).val ⟨(i 3).val, (i 3).isLt⟩ ⟨(i 4).val, (i 4).isLt⟩

theorem garr_apply (A B : SA.Idx → EReal) (n : Fin 8) (k : Fin 81) (i : Fin 112) (j : Fin 112) :
    garr A B (ix4 n k i j) = corr A B n (k.val / 9) (k.val % 9) i j := rfl

theorem g5_apply (A B : SA.Idx → EReal) (n : Fin 8) (di dj : Fin 9) (i : Fin 112) (j : Fin 112) :
    g5 A B (ix5 n di dj i j) = corr A B n di.val dj.val i j := rfl

/-- The zero-bordered block of b[n] is the zero-bordered b at batch entry n. -/
theorem scr_eq_pad (B : SA.Idx → EReal) (n : Fin 8) (e1 : KA.Idx → SA.Idx)
    (h1 : ∀ (c : Fin 64) (i : Fin 112) (j : Fin 112), e1 (ix4 0 c i j) = ix4 n c i j) (c : Fin 64) (r s : ℕ) :
    scrRead (fun y => B (e1 y)) c r s = padRead B n c r s := by
  unfold scrRead padRead
  split_ifs with h
  · show B (e1 (ix4 0 c _ _)) = _
    rw [h1]
  · rfl

/-- A grid point's block, computed from the blocks of a and b at batch entry n, is corr at n. -/
theorem blk_eq_corr (A B : SA.Idx → EReal) (n : Fin 8) (e0 e1 : KA.Idx → SA.Idx)
    (h0 : ∀ (c : Fin 64) (i : Fin 112) (j : Fin 112), e0 (ix4 0 c i j) = ix4 n c i j)
    (h1 : ∀ (c : Fin 64) (i : Fin 112) (j : Fin 112), e1 (ix4 0 c i j) = ix4 n c i j)
    (k : ℕ) (i : Fin 112) (j : Fin 112) :
    blkAt (fun y => A (e0 y)) (fun y => B (e1 y)) k i j = corr A B n (k / 9) (k % 9) i j := by
  unfold blkAt corr
  refine Finset.sum_congr rfl fun c _ => ?_
  rw [scr_eq_pad B n e1 h1]
  show A (e0 (ix4 0 c i j)) * _ = _
  rw [h0]

/-- corr depends on its coordinates only through their values. -/
theorem corr_congr (A B : SA.Idx → EReal) (n n' : Fin 8) (d e d' e' : ℕ) (i i' : Fin 112) (j j' : Fin 112)
    (h1 : n.val = n'.val) (h2 : d = d') (h3 : e = e') (h4 : i.val = i'.val) (h5 : j.val = j'.val) :
    corr A B n d e i j = corr A B n' d' e' i' j' := by
  obtain rfl := Fin.ext h1; subst h2 h3; obtain rfl := Fin.ext h4; obtain rfl := Fin.ext h5; rfl

/-- Splitting the plane axis 81 = 9 * 9 of the kernel's array gives the result. -/
theorem reshape_garr (A B : SA.Idx → EReal) (h : SO.ShapeCasts SF) : shapeCast SF (garr A B) h = g5 A B := by
  funext idx
  obtain ⟨n, di, dj, i, j, rfl⟩ : ∃ (n : Fin 8) (di dj : Fin 9) (i : Fin 112) (j : Fin 112), idx = ix5 n di dj i j :=
    ⟨idx 0, idx 1, idx 2, idx 3, idx 4, eq_ix5 idx⟩
  have hdi := di.isLt
  have hdj := dj.isLt
  rw [shapeCast_apply _ h (ix5 n di dj i j) (ix4 n ⟨di.val * 9 + dj.val, by omega⟩ i j) (by
    rw [Shape.rowMajor_val_four, Shape.rowMajor_val_five]
    show ((n.val * 81 + (di.val * 9 + dj.val)) * 112 + i.val) * 112 + j.val
      = (((n.val * 9 + di.val) * 9 + dj.val) * 112 + i.val) * 112 + j.val
    have e : (n.val * 9 + di.val) * 9 + dj.val = n.val * 81 + (di.val * 9 + dj.val) := by omega
    rw [e])]
  rw [garr_apply, g5_apply]
  show corr A B n ((di.val * 9 + dj.val) / 9) ((di.val * 9 + dj.val) % 9) i j = _
  have e1 : (di.val * 9 + dj.val) / 9 = di.val := by omega
  have e2 : (di.val * 9 + dj.val) % 9 = dj.val := by omega
  rw [e1, e2]

end CorrJ0

end
-- ==== Proof.KerValue0.lean ====
/-
  Level 0 of the kernel: region 0 of @main.  One grid point leaves in its output block the 81 planes of blk of the
  point's blocks of a and b (the run's 81 stores, each read at an index); the eight blocks tile the [8, 81, 112, 112]
  output array, which therefore ends at garr of the two feature maps as the region finds them.
-/
import proofs.«135875_j16999480558431_2_alg».proof.Proof.Gen.KernelIdeal.Frame
import proofs.«135875_j16999480558431_2_alg».proof.Proof.CorrSpec0
import proofs.«135875_j16999480558431_2_alg».proof.Proof.CorrBlock0
import proofs.«135875_j16999480558431_2_alg».proof.Proof.CorrJoin0

noncomputable section

set_option maxRecDepth 16384

namespace Cert.KernelIdeal.Val0

open Cert.KernelIdeal Cert.KernelIdeal.Gen Idealize.ShloMosaic Idealize.ShloMosaic.TcCoe Idealize.ShloMosaic.Tactic
open Idealize.SL Idealize.SL.Sem Idealize.ShloMosaic.ValueIdx CorrK0

theorem zero4 : (![0, 0, 0, 0] : Fin 4 → ℕ) = fun _ => 0 := by
  funext a; match a with | ⟨0, _⟩ => rfl | ⟨1, _⟩ => rfl | ⟨2, _⟩ => rfl | ⟨3, _⟩ => rfl

/-- What one grid point leaves in its output block: the 81 stored planes are the 81 planes of blk. -/
theorem out_eq (c : Dev nD) (i : grid0.Coords) (arg1 : Memref sig .tc .vmem S1x64x112x112 .f32) (harg1 : arg1.IsWhole)
    (arg2 : Memref sig .tc .vmem S1x64x112x112 .f32) (harg2 : arg2.IsWhole)
    (arg3 : Memref sig .tc .vmem S1x81x112x112 .f32) (harg3 : arg3.IsWhole)
    (arg4 : Memref sig .tc .vmem S64x120x120 .f32) (harg4 : arg4.IsWhole)
    (x0 x1 : Vec Ideal S1x64x112x112 .f32) :
    out0_A_2 (F := Ideal) c i arg1 harg1 arg2 harg2 arg3 harg3 arg4 harg4 x0 x1 = blk x0 x1 := by
  funext y
  unfold out0_A_2
  rw [View.read_writes_eq_canon _ _ _ (cover0_A_2 c i arg1 harg1 arg2 harg2 arg3 harg3 arg4 harg4 x0 x1)]
  refine View.canon_apply_of_pieces (blk x0 x1) _ ?_ y (cover0_A_2 c i arg1 harg1 arg2 harg2 arg3 harg3 arg4 harg4 x0 x1 y)
  unfold kernelRun0_A
  dsimp only
  sl_unfold_words
  simp only [View.readAt_eq_ld, harg1.read_unread, harg2.read_unread, View.ld_unit_zero (S := S1x64x112x112) zero4]
  simp only [List.forall_mem_cons, List.not_mem_nil, IsEmpty.forall_iff, implies_true, and_true]
  repeat' apply And.intro
  all_goals (
    intro x
    dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    refine piece_eq arg4.view _ _ _ ?_ ?_ x0 x1 _ _ _ _ _ _ _ _ _ _ _ _ x <;> decide)

end Cert.KernelIdeal.Val0

namespace Cert.KernelIdeal.Val0

open Cert.KernelIdeal Cert.KernelIdeal.Gen Idealize.ShloMosaic Idealize.ShloMosaic.TcCoe Idealize.ShloMosaic.Tactic
open Idealize.SL Idealize.SL.Sem Idealize.ShloMosaic.ValueIdx Idealize.ShloMosaic.Pipeline Corr0 CorrK0 CorrJ0

section Array

variable (V : (c : Dev nD) → (b : Ref sig .tc) → Buf (Elt Ideal) ((c : Thread nD τ).loc b))

/-- The three windows move together along the batch axis and sit at block 0 of every other axis. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (1 : Fin 4) = 0 ∧ win0_2.index t (2 : Fin 4) = 0 ∧ win0_2.index t (3 : Fin 4) = 0
    ∧ win0_2.index t (0 : Fin 4) < 8 :=
  (by decide +kernel : ∀ t : Fin grid0.N, _)

/-- Every batch entry is some grid point's. -/
theorem idx_onto : ∀ q : Fin 8, ∃ t : Fin cfg0.N, win0_2.index t (0 : Fin 4) = q.val :=
  (by decide +kernel : ∀ q : Fin 8, ∃ t : Fin grid0.N, win0_2.index t (0 : Fin 4) = q.val)

/-- What grid point t writes back is block t of garr of the two feature maps as the region finds them. -/
theorem flushed_eq (c : Dev nD) (t : Fin cfg0.N) :
    (dat0 V c).flushed 2 t = ((cfg0.win 2).blk t).view.read (Elt Ideal) (garr (V c main_arg0) (V c main_arg4)) := by
  show (cfg0.win 2).cut (grid0.coords t) ((dat0 V c).after 2 t) = _
  rw [after0_2]
  unfold outsAt0
  rw [out_eq]
  obtain ⟨a0, a1, a2, a3, b0, b1, b2, b3, o1, o2, o3, olt⟩ := idx_facts t
  funext j
  show blkAt (iblk0 V c 0 t) (iblk0 V c 1 t) (j 1).val ⟨(j 2).val, (j 2).isLt⟩ ⟨(j 3).val, (j 3).isLt⟩
    = garr (V c main_arg0) (V c main_arg4) (((cfg0.win 2).blk t).view.emb j)
  refine (blk_eq_corr (V c main_arg0) (V c main_arg4) ⟨win0_2.index t (0 : Fin 4), olt⟩
    (fun y => ((cfg0.win 0).blk t).view.emb y) (fun y => ((cfg0.win 1).blk t).view.emb y) ?_ ?_
    (j 1).val ⟨(j 2).val, (j 2).isLt⟩ ⟨(j 3).val, (j 3).isLt⟩).trans ?_
  · intro c' i' j'
    funext a; apply Fin.ext
    match a with
    | ⟨0, _⟩ => show win0_0.index t (0 : Fin 4) * 1 + 1 * 0 = win0_2.index t (0 : Fin 4); omega
    | ⟨1, _⟩ => show win0_0.index t (1 : Fin 4) * 64 + 1 * c'.val = c'.val; omega
    | ⟨2, _⟩ => show win0_0.index t (2 : Fin 4) * 112 + 1 * i'.val = i'.val; omega
    | ⟨3, _⟩ => show win0_0.index t (3 : Fin 4) * 112 + 1 * j'.val = j'.val; omega
  · intro c' i' j'
    funext a; apply Fin.ext
    match a with
    | ⟨0, _⟩ => show win0_1.index t (0 : Fin 4) * 1 + 1 * 0 = win0_2.index t (0 : Fin 4); omega
    | ⟨1, _⟩ => show win0_1.index t (1 : Fin 4) * 64 + 1 * c'.val = c'.val; omega
    | ⟨2, _⟩ => show win0_1.index t (2 : Fin 4) * 112 + 1 * i'.val = i'.val; omega
    | ⟨3, _⟩ => show win0_1.index t (3 : Fin 4) * 112 + 1 * j'.val = j'.val; omega
  · have hj0 : (j 0).val < 1 := (j 0).isLt
    exact corr_congr _ _ _ _ _ _ _ _ _ _ _ _
      (by show win0_2.index t (0 : Fin 4) = win0_2.index t (0 : Fin 4) * 1 + 1 * (j 0).val; omega)
      (by show (j 1).val / 9 = (win0_2.index t (1 : Fin 4) * 81 + 1 * (j 1).val) / 9; rw [o1]; omega)
      (by show (j 1).val % 9 = (win0_2.index t (1 : Fin 4) * 81 + 1 * (j 1).val) % 9; rw [o1]; omega)
      (by show (j 2).val = win0_2.index t (2 : Fin 4) * 112 + 1 * (j 2).val; omega)
      (by show (j 3).val = win0_2.index t (3 : Fin 4) * 112 + 1 * (j 3).val; omega)

/-- An index of the output array is in point t's block iff each coordinate is in the block's range. -/
theorem mem_blk (t : Fin cfg0.N) (i : S8x81x112x112.Idx) :
    i ∈ ((cfg0.win 2).blk t).view.set ↔ ∀ a : Fin 4, win0_2.index t a * S1x81x112x112.size a ≤ (i a).val
      ∧ (i a).val < win0_2.index t a * S1x81x112x112.size a + S1x81x112x112.size a := by
  show i ∈ ((View.whole main_v0).slice (win0_2.rect t)).set ↔ _
  rw [View.set_slice_whole, Rect.mem_set_unit]
  exact Iff.rfl

/-- The output array after the region: garr of the two feature maps as the region finds them; the eight
    blocks, one per batch entry, cover it. -/
theorem final (c : Dev nD) : (dat0 V c).arrAt 2 cfg0.N = garr (V c main_arg0) (V c main_arg4) :=
  (dat0 V c).arrAt_eq_of_cover 2 _ (fun t _ => flushed_eq V c t) (fun i => by
    have hi0 : (i 0).val < 8 := (i 0).isLt
    have hi1 : (i 1).val < 81 := (i 1).isLt
    have hi2 : (i 2).val < 112 := (i 2).isLt
    have hi3 : (i 3).val < 112 := (i 3).isLt
    obtain ⟨t, ht⟩ := idx_onto ⟨(i 0).val, hi0⟩
    obtain ⟨a0, a1, a2, a3, b0, b1, b2, b3, o1, o2, o3, olt⟩ := idx_facts t
    refine ⟨t, flush0_2 t, ?_⟩
    rw [mem_blk]
    intro a
    match a with
    | ⟨0, _⟩ => show win0_2.index t (0 : Fin 4) * 1 ≤ (i 0).val ∧ (i 0).val < win0_2.index t (0 : Fin 4) * 1 + 1; rw [ht]; show (i 0).val * 1 ≤ (i 0).val ∧ (i 0).val < (i 0).val * 1 + 1; omega
    | ⟨1, _⟩ => show win0_2.index t (1 : Fin 4) * 81 ≤ (i 1).val ∧ (i 1).val < win0_2.index t (1 : Fin 4) * 81 + 81; omega
    | ⟨2, _⟩ => show win0_2.index t (2 : Fin 4) * 112 ≤ (i 2).val ∧ (i 2).val < win0_2.index t (2 : Fin 4) * 112 + 112; omega
    | ⟨3, _⟩ => show win0_2.index t (3 : Fin 4) * 112 ≤ (i 3).val ∧ (i 3).val < win0_2.index t (3 : Fin 4) * 112 + 112; omega)

end Array

end Cert.KernelIdeal.Val0

end
-- ==== Proof.CorrSpec1.lean ====
/-
  Level 1 of the correlation pyramid: feature maps a, b of shape [8, 128, 56, 56].
  The value both programs compute is the 9 x 9 patch correlation

      corr a b n di dj i j = sum over channels c of a[n, c, i, j] * bpad[n, c, i + di, j + dj],

  where bpad is b with a border of four zeros on each side of its two spatial axes (so bpad has
  spatial extents 64 x 64, and bpad[n, c, r, s] = b[n, c, r - 4, s - 4] when 4 <= r < 60 and 4 <= s < 60,
  and 0 otherwise).  This file states that function and reads the host's operations at an index:
  a zero pad, a unit-stride slice, a product, a sum over the channel axis and the broadcast that
  adds a unit axis, composed, are one entry of corr.  Nothing here needs the inputs to be finite:
  a[n, c, i, j] * 0 is the same term on both sides.
-/
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Corr1

open Idealize.ShloMosaic Idealize.ShloMosaic.ValueIdx

/-- The feature maps' shape. -/
abbrev SA : Shape := ⟨4, ![8, 128, 56, 56]⟩
/-- The zero-padded feature map's shape. -/
abbrev SP : Shape := ⟨4, ![8, 128, 64, 64]⟩
/-- One correlation plane per batch entry. -/
abbrev SR : Shape := ⟨3, ![8, 56, 56]⟩
/-- The same with a unit axis for the patch column. -/
abbrev SU : Shape := ⟨4, ![8, 1, 56, 56]⟩
/-- The scalar shape. -/
abbrev S0 : Shape := ⟨0, ![]⟩

/-- The zero-padded second feature map at padded coordinates (r, s): b at (r - 4, s - 4) inside the
    border, zero on it. -/
def padRead (b : SA.Idx → EReal) (n : Fin 8) (c : Fin 128) (r s : ℕ) : EReal :=
  if h : 4 ≤ r ∧ r < 60 ∧ 4 ≤ s ∧ s < 60 then b (ix4 n c ⟨r - 4, by omega⟩ ⟨s - 4, by omega⟩) else 0

/-- One entry of the patch correlation: the channel dot product of a at pixel (i, j) with the padded b at
    the pixel displaced by (di, dj). -/
def corr (a b : SA.Idx → EReal) (n : Fin 8) (di dj : ℕ) (i : Fin 56) (j : Fin 56) : EReal :=
  ∑ c : Fin 128, a (ix4 n c i j) * padRead b n c (i.val + di) (j.val + dj)

/-- The host's zero pad read at an index is padRead. -/
theorem pad_read (b : SA.Idx → EReal) (v : S0.Idx → EReal)
    (h : SA.Pads (![0, 0, 4, 4] : Fin 4 → Nat) ![0, 0, 4, 4] ![0, 0, 0, 0] SP) (hu : 0 < S0.numel)
    (hv : ∀ i, v i = 0) (n : Fin 8) (c : Fin 128) (r : Fin 64) (s : Fin 64) :
    pad SP ![0, 0, 4, 4] ![0, 0, 4, 4] ![0, 0, 0, 0] b v h hu (ix4 n c r s) = padRead b n c r.val s.val := by
  unfold padRead
  split_ifs with hin
  · exact pad_apply_of_inside _ _ _ b v h hu _ _ (fun a => match a with
      | ⟨0, _⟩ => by show n.val = 0 + n.val * (0 + 1); omega
      | ⟨1, _⟩ => by show c.val = 0 + c.val * (0 + 1); omega
      | ⟨2, _⟩ => by show r.val = 4 + (r.val - 4) * (0 + 1); omega
      | ⟨3, _⟩ => by show s.val = 4 + (s.val - 4) * (0 + 1); omega)
  · by_cases hr : 4 ≤ r.val ∧ r.val < 60
    · rw [pad_apply_of_not_inside _ _ _ b v h hu _ (2 + 1 : Fin 4) (fun hh => hin ?_)]
      · exact hv _
      · have h1 : 4 ≤ s.val := hh.1
        have h2 : (s.val - 4) / (0 + 1) < 56 := hh.2.2
        refine ⟨hr.1, hr.2, h1, ?_⟩; omega
    · rw [pad_apply_of_not_inside _ _ _ b v h hu _ (2 : Fin 4) (fun hh => hr ?_)]
      · exact hv _
      · have h1 : 4 ≤ r.val := hh.1
        have h2 : (r.val - 4) / (0 + 1) < 56 := hh.2.2
        refine ⟨h1, ?_⟩; omega

/-- One of the reference's 81 planes at an index: the padded b sliced at offsets (di, dj), times a, summed
    over the channels from a zero initial value, with a unit axis added, is corr. -/
theorem leaf (di dj : ℕ) (a b : SA.Idx → EReal)
    (hp : SA.Pads (![0, 0, 4, 4] : Fin 4 → Nat) ![0, 0, 4, 4] ![0, 0, 0, 0] SP) (hu : 0 < S0.numel)
    (hs : SP.Slices ![0, 0, di, dj] SA) (hr : SA.ReducesTo [1] SR) (hr' : SA.Reduces [1] SR)
    (hb : SR.BroadcastsInDim SU (![0, 2, 3] : Fin 3 → Fin SU.rank))
    (n : Fin 8) (u : Fin 1) (i : Fin 56) (j : Fin 56) :
    broadcastInDim SU ![0, 2, 3] hb
        (Host.reduceAdd (F := Ideal)
          (mulf (F := Ideal) (φ := .f32) a (extractStridedSlice SA ![0, 0, di, dj]
            (pad SP ![0, 0, 4, 4] ![0, 0, 4, 4] ![0, 0, 0, 0] b (sitofp (F := Ideal) .f32 (constantI S0 32 0#32)) hp hu) hs))
          (constant (F := Ideal) S0 .f32 0x00000000#32) hr hu) (ix4 n u i j)
      = corr a b n di dj i j := by
  obtain ⟨_, hs2⟩ := id hs
  have hdi : di + 56 ≤ 64 := hs2 2
  have hdj : dj + 56 ≤ 64 := hs2 3
  rw [broadcastInDim_apply _ hb _ (ix4 n u i j) (ix3 n i j) (fun a => match a with
    | ⟨0, _⟩ => by show n.val = if (8 : Nat) = 1 then 0 else n.val; rw [if_neg (by decide)]
    | ⟨1, _⟩ => by show i.val = if (56 : Nat) = 1 then 0 else i.val; rw [if_neg (by decide)]
    | ⟨2, _⟩ => by show j.val = if (56 : Nat) = 1 then 0 else j.val; rw [if_neg (by decide)])]
  simp only [Host.reduceAdd, Ideal.hostReduceAdd_def]
  rw [Ideal.hostReduceAdd_single hr hr']
  unfold corr
  rw [show constant (F := Ideal) S0 .f32 0x00000000#32 (Shape.Idx.first hu) = 0 from Ideal.ofBits_zero_f32, zero_add]
  refine Finset.sum_congr rfl fun (c : Fin 128) _ => ?_
  rw [show hr'.lift (ix3 n i j) c = ix4 n c i j from
    funext fun a => Fin.ext (by match a with | ⟨0, _⟩ => rfl | ⟨1, _⟩ => rfl | ⟨2, _⟩ => rfl | ⟨3, _⟩ => rfl)]
  refine (mulf_apply (s := SA) (φ := .f32) a _ (ix4 n c i j)).trans ?_
  refine congrArg (a (ix4 n c i j) * ·) ?_
  rw [extractStridedSlice_apply _ _ hs (ix4 n c i j) (ix4 n c ⟨di + i.val, by omega⟩ ⟨dj + j.val, by omega⟩) (fun a => match a with
    | ⟨0, _⟩ => by show n.val = 0 + n.val; omega
    | ⟨1, _⟩ => by show c.val = 0 + c.val; omega
    | ⟨2, _⟩ => by show di + i.val = di + i.val; rfl
    | ⟨3, _⟩ => by show dj + j.val = dj + j.val; rfl)]
  rw [pad_read b _ hp hu (fun _ => by
    show FloatOps.sitofp (F := Ideal) .f32 (0#32) = 0
    simp [FloatOps.sitofp]) n c ⟨di + i.val, by omega⟩ ⟨dj + j.val, by omega⟩]
  show padRead b n c (di + i.val) (dj + j.val) = padRead b n c (i.val + di) (j.val + dj)
  rw [Nat.add_comm di, Nat.add_comm dj]

end Corr1

end
-- ==== Proof.CorrBlock1.lean ====
/-
  Level 1, one grid point of the kernel: the point's blocks are a[n] and b[n], of shape [1, 128, 56, 56].
  The body zeroes a [128, 64, 64] scratch, writes b[n] into its interior at offset (4, 4), and then for each
  of the 81 displacements (di, dj) reads rows di .. di + 56 of the scratch, takes columns dj .. dj + 56 of them,
  multiplies by a[n] and sums over the channels, storing the [56, 56] plane as plane di * 9 + dj of the
  [1, 81, 56, 56] output block.  So the block is

      blk a b (0, k, i, j) = sum over c of a[0, c, i, j] * scr b (c, i + k / 9, j + k % 9),

  scr b being b with its border of four zeros.  Each of the 81 stored planes is read at an index here.
-/
import Idealize.ShloMosaic.Lib.ValueIdx
import Idealize.ShloMosaic.Lib.Pipeline.Value
import Idealize.ShloMosaic.Lib.Pipeline.FrameBody
import Idealize.ShloMosaic.PureOps.Ideal.Laws

noncomputable section

open scoped BigOperators

namespace CorrK1

open Idealize.ShloMosaic Idealize.ShloMosaic.ValueIdx

/-- One grid point's block of a feature map. -/
abbrev KA : Shape := ⟨4, ![1, 128, 56, 56]⟩
/-- The scratch holding the zero-padded block of b. -/
abbrev KS : Shape := ⟨3, ![128, 64, 64]⟩
/-- 56 rows of the scratch. -/
abbrev KR : Shape := ⟨3, ![128, 56, 64]⟩
/-- A block without its unit axis. -/
abbrev KC : Shape := ⟨3, ![128, 56, 56]⟩
/-- One correlation plane. -/
abbrev KP : Shape := ⟨2, ![56, 56]⟩
/-- One correlation plane as stored. -/
abbrev KO : Shape := ⟨4, ![1, 1, 56, 56]⟩
/-- The output block. -/
abbrev KB : Shape := ⟨4, ![1, 81, 56, 56]⟩

/-- The block of b with its border of four zeros, at padded coordinates (r, s). -/
def scrRead (x1 : KA.Idx → EReal) (c : Fin 128) (r s : ℕ) : EReal :=
  if h : 4 ≤ r ∧ r < 60 ∧ 4 ≤ s ∧ s < 60 then x1 (ix4 0 c ⟨r - 4, by omega⟩ ⟨s - 4, by omega⟩) else 0

/-- One entry of a grid point's output block: plane k = di * 9 + dj at pixel (i, j). -/
def blkAt (x0 x1 : KA.Idx → EReal) (k : ℕ) (i : Fin 56) (j : Fin 56) : EReal :=
  ∑ c : Fin 128, x0 (ix4 0 c i j) * scrRead x1 c (i.val + k / 9) (j.val + k % 9)

/-- A grid point's output block. -/
def blk (x0 x1 : KA.Idx → EReal) (y : KB.Idx) : EReal :=
  blkAt x0 x1 (y 1).val ⟨(y 2).val, (y 2).isLt⟩ ⟨(y 3).val, (y 3).isLt⟩

/-- The block at an index given by its three free coordinates. -/
theorem blk_apply (x0 x1 : KA.Idx → EReal) (y : KB.Idx) (k : ℕ) (i : Fin 56) (j : Fin 56)
    (h1 : (y 1).val = k) (h2 : (y 2).val = i.val) (h3 : (y 3).val = j.val) : blk x0 x1 y = blkAt x0 x1 k i j := by
  unfold blk
  have e2 : (⟨(y 2).val, (y 2).isLt⟩ : Fin 56) = i := Fin.ext h2
  have e3 : (⟨(y 3).val, (y 3).isLt⟩ : Fin 56) = j := Fin.ext h3
  rw [h1, e2, e3]

theorem zero3 : (![0, 0, 0] : Fin 3 → ℕ) = fun _ => 0 := by
  funext a; match a with | ⟨0, _⟩ => rfl | ⟨1, _⟩ => rfl | ⟨2, _⟩ => rfl

/-- The scratch after the two stores, at an index: the interior store's payload inside the border, the zero
    store's payload on it. -/
theorem scratch_canon (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (c : Fin 128) (r : Fin 64) (s : Fin 64) :
    View.canon (Val := Elt Ideal) (s := KS) (e := .f32)
        [⟨Rect.unit (s := KS) ![0, 4, 4] KC.size inbI, w⟩, ⟨Rect.unit (s := KS) ![0, 0, 0] KS.size inbZ, z⟩] (ix3 c r s)
      = if h : 4 ≤ r.val ∧ r.val < 60 ∧ 4 ≤ s.val ∧ s.val < 60 then w (ix3 c ⟨r.val - 4, by omega⟩ ⟨s.val - 4, by omega⟩) else 0 := by
  split_ifs with hin
  · have e : ix3 c r s = (Rect.unit (s := KS) ![0, 4, 4] KC.size inbI).emb (ix3 c ⟨r.val - 4, by omega⟩ ⟨s.val - 4, by omega⟩) :=
      funext fun a => Fin.ext (by
        match a with
        | ⟨0, _⟩ => show c.val = 0 + 1 * c.val; omega
        | ⟨1, _⟩ => show r.val = 4 + 1 * (r.val - 4); omega
        | ⟨2, _⟩ => show s.val = 4 + 1 * (s.val - 4); omega)
    rw [e]; exact View.canon_cons_emb (Val := Elt Ideal) (s := KS) (e := .f32) _ _ _ _
  · rw [View.canon_cons_of_not_mem _ _ (by
      rw [Rect.mem_set_unit]; intro hm
      have h1 : 4 ≤ r.val ∧ r.val < 4 + 56 := hm 1
      have h2 : 4 ≤ s.val ∧ s.val < 4 + 56 := hm 2
      exact hin ⟨h1.1, by omega, h2.1, by omega⟩)]
    rw [View.canon_unit_zero zero3]
    exact hz _

/-- Rows di .. di + 56 of the scratch, loaded after the two stores, at an index. -/
theorem rows_read {sig : RefSig} {κ : Kind} {sp : Space} (v4 : View sig κ sp KS .f32) (di : ℕ)
    (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (c : Fin 128) (i : Fin 56) (s : Fin 64) (hdi : di + 56 ≤ 64) :
    (v4.readCov (Val := Elt Ideal)
        [⟨Rect.unit (s := KS) ![0, 4, 4] KC.size inbI, w⟩, ⟨Rect.unit (s := KS) ![0, 0, 0] KS.size inbZ, z⟩]
        (Rect.unit (s := KS) ![0, di, 0] KR.size inbR).toLoadRect : KR.Idx → Elt Ideal .f32) (ix3 c i s)
      = if h : 4 ≤ di + i.val ∧ di + i.val < 60 ∧ 4 ≤ s.val ∧ s.val < 60 then w (ix3 c ⟨di + i.val - 4, by omega⟩ ⟨s.val - 4, by omega⟩) else 0 := by
  have hcov : ∀ y : KS.Idx, ∃ p ∈ ([⟨Rect.unit (s := KS) ![0, 4, 4] KC.size inbI, w⟩, ⟨Rect.unit (s := KS) ![0, 0, 0] KS.size inbZ, z⟩] :
      List (View.Piece (Elt Ideal) KS .f32)), y ∈ p.1.set :=
    fun y => ⟨⟨Rect.unit (s := KS) ![0, 0, 0] KS.size inbZ, z⟩, List.mem_cons_of_mem _ (List.mem_singleton_self _),
      View.mem_set_unit_zero zero3 inbZ y⟩
  rw [View.readCov_eq_canon_ld v4 _ _ hcov]
  show View.canon (Val := Elt Ideal) _ ((Rect.unit (s := KS) ![0, di, 0] KR.size inbR).emb (ix3 c i s)) = _
  rw [show (Rect.unit (s := KS) ![0, di, 0] KR.size inbR).emb (ix3 c i s) = ix3 c ⟨di + i.val, by omega⟩ s from
    funext fun a => Fin.ext (by
      match a with
      | ⟨0, _⟩ => show 0 + 1 * c.val = c.val; omega
      | ⟨1, _⟩ => show di + 1 * i.val = di + i.val; omega
      | ⟨2, _⟩ => show 0 + 1 * s.val = s.val; omega)]
  exact scratch_canon w z hz inbI inbZ c ⟨di + i.val, by omega⟩ s

/-- The stored plane for displacement (di, dj), read at an index, is the block's plane di * 9 + dj. -/
theorem piece_eq {sig : RefSig} {κ : Kind} {sp : Space} (v4 : View sig κ sp KS .f32)
    (di dj k : ℕ) (hk : k = di * 9 + dj) (hdj9 : dj < 9)
    (x0 x1 : KA.Idx → EReal)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (inbO : ∀ a, (![0, k, 0, 0] : Fin 4 → ℕ) a + KO.size a ≤ KB.size a)
    (hcA : KA.ShapeCasts KC) (hcC : KC.ShapeCasts KC) (hcS : KS.ShapeCasts KS)
    (hs : KR.Slices ![0, 0, dj] KC) (hred : KC.Reduces [0] KP) (hφ : FKind.Formats .f32)
    (hacc : (0x00000000#32 : BitVec 32) = FKind.add.neutral .f32 hφ)
    (hcO : KP.ShapeCasts KO) (y : KO.Idx) :
    shapeCast KO (multiReduction (F := Ideal) .add [0] KP
        (mulf (F := Ideal) (φ := .f32) (shapeCast KC x0 hcA)
          (extractStridedSlice (s := KR) KC ![0, 0, dj]
            ((v4.readCov (Val := Elt Ideal)
              [⟨Rect.unit (s := KS) ![0, 4, 4] KC.size inbI, shapeCast KC (shapeCast KC x1 hcA) hcC⟩,
               ⟨Rect.unit (s := KS) ![0, 0, 0] KS.size inbZ, shapeCast KS (broadcast KS (Scalar.ofBits (F := Ideal) .f32 0x00000000#32)) hcS⟩]
              (Rect.unit (s := KS) ![0, di, 0] KR.size inbR).toLoadRect) : KR.Idx → Elt Ideal .f32) hs))
        0x00000000#32 hred hφ hacc) hcO y
      = blk x0 x1 ((Rect.unit (s := KB) ![0, k, 0, 0] KO.size inbO).emb y) := by
  have hdi : di + 56 ≤ 64 := inbR 1
  obtain ⟨_, hs2⟩ := id hs
  have hdj : dj + 56 ≤ 64 := hs2 2
  obtain ⟨u, v, i, j, rfl⟩ : ∃ (u v : Fin 1) (i : Fin 56) (j : Fin 56), y = ix4 u v i j := ⟨y 0, y 1, y 2, y 3, eq_ix4 y⟩
  have hu : u.val = 0 := by omega
  have hv : v.val = 0 := by omega
  -- the stored plane [1, 1, 56, 56] is the [56, 56] plane
  rw [shapeCast_apply _ hcO (ix4 u v i j) (ix2 i j) (by
    rw [Shape.rowMajor_val_two, Shape.rowMajor_val_four]
    show i.val * 56 + j.val = ((u.val * 1 + v.val) * 56 + i.val) * 56 + j.val
    rw [hu, hv]; omega)]
  rw [Ideal.multiReduction_add_single _ _ hred hφ hacc (ix2 i j)]
  -- the block's entry
  rw [blk_apply x0 x1 _ k i j (by show k + 1 * v.val = k; omega) (by show 0 + 1 * i.val = i.val; omega)
    (by show 0 + 1 * j.val = j.val; omega)]
  unfold blkAt
  refine Finset.sum_congr rfl fun (c : Fin 128) _ => ?_
  rw [show hred.lift (ix2 i j) c = ix3 c i j from
    funext fun a => Fin.ext (by match a with | ⟨0, _⟩ => rfl | ⟨1, _⟩ => rfl | ⟨2, _⟩ => rfl)]
  refine (mulf_apply (s := KC) (φ := .f32) _ _ (ix3 c i j)).trans ?_
  rw [shapeCast_apply x0 hcA (ix3 c i j) (ix4 0 c i j) (by
    rw [Shape.rowMajor_val_three, Shape.rowMajor_val_four]
    show ((0 * 128 + c.val) * 56 + i.val) * 56 + j.val = (c.val * 56 + i.val) * 56 + j.val
    omega)]
  refine congrArg (x0 (ix4 0 c i j) * ·) ?_
  -- the shifted b: columns dj .. of rows di .. of the scratch
  rw [extractStridedSlice_apply _ _ hs (ix3 c i j) (ix3 c i ⟨dj + j.val, by omega⟩) (fun a => match a with
    | ⟨0, _⟩ => by show c.val = 0 + c.val; omega
    | ⟨1, _⟩ => by show i.val = 0 + i.val; omega
    | ⟨2, _⟩ => by show dj + j.val = dj + j.val; rfl)]
  refine (rows_read v4 di _ _ (fun _ => by
    rw [shapeCast_self]; exact Ideal.ofBits_zero_f32) inbI inbZ inbR c i ⟨dj + j.val, by omega⟩ hdi).trans ?_
  unfold scrRead
  have hkd : k / 9 = di := by rw [hk]; omega
  have hkm : k % 9 = dj := by rw [hk]; omega
  rw [hkd, hkm]
  have e1 : i.val + di = di + i.val := Nat.add_comm _ _
  have e2 : j.val + dj = dj + j.val := Nat.add_comm _ _
  simp only [e1, e2]
  show (if h : 4 ≤ di + i.val ∧ di + i.val < 60 ∧ 4 ≤ dj + j.val ∧ dj + j.val < 60 then _ else _) = _
  split_ifs with hin
  · rw [shapeCast_self, shapeCast_apply x1 hcA _ (ix4 0 c ⟨di + i.val - 4, by omega⟩ ⟨dj + j.val - 4, by omega⟩) (by
      rw [Shape.rowMajor_val_three, Shape.rowMajor_val_four]
      show ((0 * 128 + c.val) * 56 + (di + i.val - 4)) * 56 + (dj + j.val - 4) = (c.val * 56 + (di + i.val - 4)) * 56 + (dj + j.val - 4)
      omega)]
  · rfl

end CorrK1

end
-- ==== Proof.CorrJoin1.lean ====
/-
  Level 1: the kernel's per-point block and the reference's planes are the same function corr.
  A grid point n sees the blocks a[n], b[n]; its output block's plane k at pixel (i, j) is
  corr a b n (k / 9) (k % 9) i j.  The kernel's [8, 81, 56, 56] array, reshaped to [8, 9, 9, 56, 56],
  has corr a b n di dj i j at (n, di, dj, i, j), because (di * 9 + dj) / 9 = di and (di * 9 + dj) % 9 = dj.
-/
import proofs.«135875_j16999480558431_2_alg».proof.Proof.CorrSpec1
import proofs.«135875_j16999480558431_2_alg».proof.Proof.CorrBlock1

noncomputable section

open scoped BigOperators

namespace CorrJ1

open Idealize.ShloMosaic Idealize.ShloMosaic.ValueIdx Corr1 CorrK1

/-- The kernel's output array before the reshape. -/
abbrev SO : Shape := ⟨4, ![8, 81, 56, 56]⟩
/-- The result's shape. -/
abbrev SF : Shape := ⟨5, ![8, 9, 9, 56, 56]⟩

/-- The kernel's output array as a function of the two feature maps. -/
def garr (A B : SA.Idx → EReal) (i : SO.Idx) : EReal :=
  corr A B ⟨(i 0).val, (i 0).isLt⟩ ((i 1).val / 9) ((i 1).val % 9) ⟨(i 2).val, (i 2).isLt⟩ ⟨(i 3).val, (i 3).isLt⟩

/-- The result as a function of the two feature maps. -/
def g5 (A B : SA.Idx → EReal) (i : SF.Idx) : EReal :=
  corr A B ⟨(i 0).val, (i 0).isLt⟩ (i 1).val (i 2).val ⟨(i 3).val, (i 3).isLt⟩ ⟨(i 4).val, (i 4).isLt⟩

theorem garr_apply (A B : SA.Idx → EReal) (n : Fin 8) (k : Fin 81) (i : Fin 56) (j : Fin 56) :
    garr A B (ix4 n k i j) = corr A B n (k.val / 9) (k.val % 9) i j := rfl

theorem g5_apply (A B : SA.Idx → EReal) (n : Fin 8) (di dj : Fin 9) (i : Fin 56) (j : Fin 56) :
    g5 A B (ix5 n di dj i j) = corr A B n di.val dj.val i j := rfl

/-- The zero-bordered block of b[n] is the zero-bordered b at batch entry n. -/
theorem scr_eq_pad (B : SA.Idx → EReal) (n : Fin 8) (e1 : KA.Idx → SA.Idx)
    (h1 : ∀ (c : Fin 128) (i : Fin 56) (j : Fin 56), e1 (ix4 0 c i j) = ix4 n c i j) (c : Fin 128) (r s : ℕ) :
    scrRead (fun y => B (e1 y)) c r s = padRead B n c r s := by
  unfold scrRead padRead
  split_ifs with h
  · show B (e1 (ix4 0 c _ _)) = _
    rw [h1]
  · rfl

/-- A grid point's block, computed from the blocks of a and b at batch entry n, is corr at n. -/
theorem blk_eq_corr (A B : SA.Idx → EReal) (n : Fin 8) (e0 e1 : KA.Idx → SA.Idx)
    (h0 : ∀ (c : Fin 128) (i : Fin 56) (j : Fin 56), e0 (ix4 0 c i j) = ix4 n c i j)
    (h1 : ∀ (c : Fin 128) (i : Fin 56) (j : Fin 56), e1 (ix4 0 c i j) = ix4 n c i j)
    (k : ℕ) (i : Fin 56) (j : Fin 56) :
    blkAt (fun y => A (e0 y)) (fun y => B (e1 y)) k i j = corr A B n (k / 9) (k % 9) i j := by
  unfold blkAt corr
  refine Finset.sum_congr rfl fun c _ => ?_
  rw [scr_eq_pad B n e1 h1]
  show A (e0 (ix4 0 c i j)) * _ = _
  rw [h0]

/-- corr depends on its coordinates only through their values. -/
theorem corr_congr (A B : SA.Idx → EReal) (n n' : Fin 8) (d e d' e' : ℕ) (i i' : Fin 56) (j j' : Fin 56)
    (h1 : n.val = n'.val) (h2 : d = d') (h3 : e = e') (h4 : i.val = i'.val) (h5 : j.val = j'.val) :
    corr A B n d e i j = corr A B n' d' e' i' j' := by
  obtain rfl := Fin.ext h1; subst h2 h3; obtain rfl := Fin.ext h4; obtain rfl := Fin.ext h5; rfl

/-- Splitting the plane axis 81 = 9 * 9 of the kernel's array gives the result. -/
theorem reshape_garr (A B : SA.Idx → EReal) (h : SO.ShapeCasts SF) : shapeCast SF (garr A B) h = g5 A B := by
  funext idx
  obtain ⟨n, di, dj, i, j, rfl⟩ : ∃ (n : Fin 8) (di dj : Fin 9) (i : Fin 56) (j : Fin 56), idx = ix5 n di dj i j :=
    ⟨idx 0, idx 1, idx 2, idx 3, idx 4, eq_ix5 idx⟩
  have hdi := di.isLt
  have hdj := dj.isLt
  rw [shapeCast_apply _ h (ix5 n di dj i j) (ix4 n ⟨di.val * 9 + dj.val, by omega⟩ i j) (by
    rw [Shape.rowMajor_val_four, Shape.rowMajor_val_five]
    show ((n.val * 81 + (di.val * 9 + dj.val)) * 56 + i.val) * 56 + j.val
      = (((n.val * 9 + di.val) * 9 + dj.val) * 56 + i.val) * 56 + j.val
    have e : (n.val * 9 + di.val) * 9 + dj.val = n.val * 81 + (di.val * 9 + dj.val) := by omega
    rw [e])]
  rw [garr_apply, g5_apply]
  show corr A B n ((di.val * 9 + dj.val) / 9) ((di.val * 9 + dj.val) % 9) i j = _
  have e1 : (di.val * 9 + dj.val) / 9 = di.val := by omega
  have e2 : (di.val * 9 + dj.val) % 9 = dj.val := by omega
  rw [e1, e2]

end CorrJ1

end
-- ==== Proof.KerValue1.lean ====
/-
  Level 1 of the kernel: region 1 of @main.  One grid point leaves in its output block the 81 planes of blk of the
  point's blocks of a and b (the run's 81 stores, each read at an index); the eight blocks tile the [8, 81, 56, 56]
  output array, which therefore ends at garr of the two feature maps as the region finds them.
-/
import proofs.«135875_j16999480558431_2_alg».proof.Proof.Gen.KernelIdeal.Frame
import proofs.«135875_j16999480558431_2_alg».proof.Proof.CorrSpec1
import proofs.«135875_j16999480558431_2_alg».proof.Proof.CorrBlock1
import proofs.«135875_j16999480558431_2_alg».proof.Proof.CorrJoin1

noncomputable section

set_option maxRecDepth 16384

namespace Cert.KernelIdeal.Val1

open Cert.KernelIdeal Cert.KernelIdeal.Gen Idealize.ShloMosaic Idealize.ShloMosaic.TcCoe Idealize.ShloMosaic.Tactic
open Idealize.SL Idealize.SL.Sem Idealize.ShloMosaic.ValueIdx CorrK1

theorem zero4 : (![0, 0, 0, 0] : Fin 4 → ℕ) = fun _ => 0 := by
  funext a; match a with | ⟨0, _⟩ => rfl | ⟨1, _⟩ => rfl | ⟨2, _⟩ => rfl | ⟨3, _⟩ => rfl

/-- What one grid point leaves in its output block: the 81 stored planes are the 81 planes of blk. -/
theorem out_eq (c : Dev nD) (i : grid1.Coords) (arg1 : Memref sig .tc .vmem S1x128x56x56 .f32) (harg1 : arg1.IsWhole)
    (arg2 : Memref sig .tc .vmem S1x128x56x56 .f32) (harg2 : arg2.IsWhole)
    (arg3 : Memref sig .tc .vmem S1x81x56x56 .f32) (harg3 : arg3.IsWhole)
    (arg4 : Memref sig .tc .vmem S128x64x64 .f32) (harg4 : arg4.IsWhole)
    (x0 x1 : Vec Ideal S1x128x56x56 .f32) :
    out1_A_2 (F := Ideal) c i arg1 harg1 arg2 harg2 arg3 harg3 arg4 harg4 x0 x1 = blk x0 x1 := by
  funext y
  unfold out1_A_2
  rw [View.read_writes_eq_canon _ _ _ (cover1_A_2 c i arg1 harg1 arg2 harg2 arg3 harg3 arg4 harg4 x0 x1)]
  refine View.canon_apply_of_pieces (blk x0 x1) _ ?_ y (cover1_A_2 c i arg1 harg1 arg2 harg2 arg3 harg3 arg4 harg4 x0 x1 y)
  unfold kernelRun1_A
  dsimp only
  sl_unfold_words
  simp only [View.readAt_eq_ld, harg1.read_unread, harg2.read_unread, View.ld_unit_zero (S := S1x128x56x56) zero4]
  simp only [List.forall_mem_cons, List.not_mem_nil, IsEmpty.forall_iff, implies_true, and_true]
  repeat' apply And.intro
  all_goals (
    intro x
    dsimp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107]
    refine piece_eq arg4.view _ _ _ ?_ ?_ x0 x1 _ _ _ _ _ _ _ _ _ _ _ _ x <;> decide)

end Cert.KernelIdeal.Val1

namespace Cert.KernelIdeal.Val1

open Cert.KernelIdeal Cert.KernelIdeal.Gen Idealize.ShloMosaic Idealize.ShloMosaic.TcCoe Idealize.ShloMosaic.Tactic
open Idealize.SL Idealize.SL.Sem Idealize.ShloMosaic.ValueIdx Idealize.ShloMosaic.Pipeline Corr1 CorrK1 CorrJ1

section Array

variable (V : (c : Dev nD) → (b : Ref sig .tc) → Buf (Elt Ideal) ((c : Thread nD τ).loc b))

/-- The three windows move together along the batch axis and sit at block 0 of every other axis. -/
theorem idx_facts : ∀ t : Fin cfg1.N,
    win1_0.index t (0 : Fin 4) = win1_2.index t (0 : Fin 4) ∧ win1_0.index t (1 : Fin 4) = 0
    ∧ win1_0.index t (2 : Fin 4) = 0 ∧ win1_0.index t (3 : Fin 4) = 0
    ∧ win1_1.index t (0 : Fin 4) = win1_2.index t (0 : Fin 4) ∧ win1_1.index t (1 : Fin 4) = 0
    ∧ win1_1.index t (2 : Fin 4) = 0 ∧ win1_1.index t (3 : Fin 4) = 0
    ∧ win1_2.index t (1 : Fin 4) = 0 ∧ win1_2.index t (2 : Fin 4) = 0 ∧ win1_2.index t (3 : Fin 4) = 0
    ∧ win1_2.index t (0 : Fin 4) < 8 :=
  (by decide +kernel : ∀ t : Fin grid1.N, _)

/-- Every batch entry is some grid point's. -/
theorem idx_onto : ∀ q : Fin 8, ∃ t : Fin cfg1.N, win1_2.index t (0 : Fin 4) = q.val :=
  (by decide +kernel : ∀ q : Fin 8, ∃ t : Fin grid1.N, win1_2.index t (0 : Fin 4) = q.val)

/-- What grid point t writes back is block t of garr of the two feature maps as the region finds them. -/
theorem flushed_eq (c : Dev nD) (t : Fin cfg1.N) :
    (dat1 V c).flushed 2 t = ((cfg1.win 2).blk t).view.read (Elt Ideal) (garr (V c main_arg1) (V c main_arg5)) := by
  show (cfg1.win 2).cut (grid1.coords t) ((dat1 V c).after 2 t) = _
  rw [after1_2]
  unfold outsAt1
  rw [out_eq]
  obtain ⟨a0, a1, a2, a3, b0, b1, b2, b3, o1, o2, o3, olt⟩ := idx_facts t
  funext j
  show blkAt (iblk1 V c 0 t) (iblk1 V c 1 t) (j 1).val ⟨(j 2).val, (j 2).isLt⟩ ⟨(j 3).val, (j 3).isLt⟩
    = garr (V c main_arg1) (V c main_arg5) (((cfg1.win 2).blk t).view.emb j)
  refine (blk_eq_corr (V c main_arg1) (V c main_arg5) ⟨win1_2.index t (0 : Fin 4), olt⟩
    (fun y => ((cfg1.win 0).blk t).view.emb y) (fun y => ((cfg1.win 1).blk t).view.emb y) ?_ ?_
    (j 1).val ⟨(j 2).val, (j 2).isLt⟩ ⟨(j 3).val, (j 3).isLt⟩).trans ?_
  · intro c' i' j'
    funext a; apply Fin.ext
    match a with
    | ⟨0, _⟩ => show win1_0.index t (0 : Fin 4) * 1 + 1 * 0 = win1_2.index t (0 : Fin 4); omega
    | ⟨1, _⟩ => show win1_0.index t (1 : Fin 4) * 128 + 1 * c'.val = c'.val; omega
    | ⟨2, _⟩ => show win1_0.index t (2 : Fin 4) * 56 + 1 * i'.val = i'.val; omega
    | ⟨3, _⟩ => show win1_0.index t (3 : Fin 4) * 56 + 1 * j'.val = j'.val; omega
  · intro c' i' j'
    funext a; apply Fin.ext
    match a with
    | ⟨0, _⟩ => show win1_1.index t (0 : Fin 4) * 1 + 1 * 0 = win1_2.index t (0 : Fin 4); omega
    | ⟨1, _⟩ => show win1_1.index t (1 : Fin 4) * 128 + 1 * c'.val = c'.val; omega
    | ⟨2, _⟩ => show win1_1.index t (2 : Fin 4) * 56 + 1 * i'.val = i'.val; omega
    | ⟨3, _⟩ => show win1_1.index t (3 : Fin 4) * 56 + 1 * j'.val = j'.val; omega
  · have hj0 : (j 0).val < 1 := (j 0).isLt
    exact corr_congr _ _ _ _ _ _ _ _ _ _ _ _
      (by show win1_2.index t (0 : Fin 4) = win1_2.index t (0 : Fin 4) * 1 + 1 * (j 0).val; omega)
      (by show (j 1).val / 9 = (win1_2.index t (1 : Fin 4) * 81 + 1 * (j 1).val) / 9; rw [o1]; omega)
      (by show (j 1).val % 9 = (win1_2.index t (1 : Fin 4) * 81 + 1 * (j 1).val) % 9; rw [o1]; omega)
      (by show (j 2).val = win1_2.index t (2 : Fin 4) * 56 + 1 * (j 2).val; omega)
      (by show (j 3).val = win1_2.index t (3 : Fin 4) * 56 + 1 * (j 3).val; omega)

/-- An index of the output array is in point t's block iff each coordinate is in the block's range. -/
theorem mem_blk (t : Fin cfg1.N) (i : S8x81x56x56.Idx) :
    i ∈ ((cfg1.win 2).blk t).view.set ↔ ∀ a : Fin 4, win1_2.index t a * S1x81x56x56.size a ≤ (i a).val
      ∧ (i a).val < win1_2.index t a * S1x81x56x56.size a + S1x81x56x56.size a := by
  show i ∈ ((View.whole main_v2).slice (win1_2.rect t)).set ↔ _
  rw [View.set_slice_whole, Rect.mem_set_unit]
  exact Iff.rfl

/-- The output array after the region: garr of the two feature maps as the region finds them; the eight
    blocks, one per batch entry, cover it. -/
theorem final (c : Dev nD) : (dat1 V c).arrAt 2 cfg1.N = garr (V c main_arg1) (V c main_arg5) :=
  (dat1 V c).arrAt_eq_of_cover 2 _ (fun t _ => flushed_eq V c t) (fun i => by
    have hi0 : (i 0).val < 8 := (i 0).isLt
    have hi1 : (i 1).val < 81 := (i 1).isLt
    have hi2 : (i 2).val < 56 := (i 2).isLt
    have hi3 : (i 3).val < 56 := (i 3).isLt
    obtain ⟨t, ht⟩ := idx_onto ⟨(i 0).val, hi0⟩
    obtain ⟨a0, a1, a2, a3, b0, b1, b2, b3, o1, o2, o3, olt⟩ := idx_facts t
    refine ⟨t, flush1_2 t, ?_⟩
    rw [mem_blk]
    intro a
    match a with
    | ⟨0, _⟩ => show win1_2.index t (0 : Fin 4) * 1 ≤ (i 0).val ∧ (i 0).val < win1_2.index t (0 : Fin 4) * 1 + 1; rw [ht]; show (i 0).val * 1 ≤ (i 0).val ∧ (i 0).val < (i 0).val * 1 + 1; omega
    | ⟨1, _⟩ => show win1_2.index t (1 : Fin 4) * 81 ≤ (i 1).val ∧ (i 1).val < win1_2.index t (1 : Fin 4) * 81 + 81; omega
    | ⟨2, _⟩ => show win1_2.index t (2 : Fin 4) * 56 ≤ (i 2).val ∧ (i 2).val < win1_2.index t (2 : Fin 4) * 56 + 56; omega
    | ⟨3, _⟩ => show win1_2.index t (3 : Fin 4) * 56 ≤ (i 3).val ∧ (i 3).val < win1_2.index t (3 : Fin 4) * 56 + 56; omega)

end Array

end Cert.KernelIdeal.Val1

end
-- ==== Proof.CorrSpec2.lean ====
/-
  Level 2 of the correlation pyramid: feature maps a, b of shape [8, 256, 28, 28].
  The value both programs compute is the 9 x 9 patch correlation

      corr a b n di dj i j = sum over channels c of a[n, c, i, j] * bpad[n, c, i + di, j + dj],

  where bpad is b with a border of four zeros on each side of its two spatial axes (so bpad has
  spatial extents 36 x 36, and bpad[n, c, r, s] = b[n, c, r - 4, s - 4] when 4 <= r < 32 and 4 <= s < 32,
  and 0 otherwise).  This file states that function and reads the host's operations at an index:
  a zero pad, a unit-stride slice, a product, a sum over the channel axis and the broadcast that
  adds a unit axis, composed, are one entry of corr.  Nothing here needs the inputs to be finite:
  a[n, c, i, j] * 0 is the same term on both sides.
-/
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Corr2

open Idealize.ShloMosaic Idealize.ShloMosaic.ValueIdx

/-- The feature maps' shape. -/
abbrev SA : Shape := ⟨4, ![8, 256, 28, 28]⟩
/-- The zero-padded feature map's shape. -/
abbrev SP : Shape := ⟨4, ![8, 256, 36, 36]⟩
/-- One correlation plane per batch entry. -/
abbrev SR : Shape := ⟨3, ![8, 28, 28]⟩
/-- The same with a unit axis for the patch column. -/
abbrev SU : Shape := ⟨4, ![8, 1, 28, 28]⟩
/-- The scalar shape. -/
abbrev S0 : Shape := ⟨0, ![]⟩

/-- The zero-padded second feature map at padded coordinates (r, s): b at (r - 4, s - 4) inside the
    border, zero on it. -/
def padRead (b : SA.Idx → EReal) (n : Fin 8) (c : Fin 256) (r s : ℕ) : EReal :=
  if h : 4 ≤ r ∧ r < 32 ∧ 4 ≤ s ∧ s < 32 then b (ix4 n c ⟨r - 4, by omega⟩ ⟨s - 4, by omega⟩) else 0

/-- One entry of the patch correlation: the channel dot product of a at pixel (i, j) with the padded b at
    the pixel displaced by (di, dj). -/
def corr (a b : SA.Idx → EReal) (n : Fin 8) (di dj : ℕ) (i : Fin 28) (j : Fin 28) : EReal :=
  ∑ c : Fin 256, a (ix4 n c i j) * padRead b n c (i.val + di) (j.val + dj)

/-- The host's zero pad read at an index is padRead. -/
theorem pad_read (b : SA.Idx → EReal) (v : S0.Idx → EReal)
    (h : SA.Pads (![0, 0, 4, 4] : Fin 4 → Nat) ![0, 0, 4, 4] ![0, 0, 0, 0] SP) (hu : 0 < S0.numel)
    (hv : ∀ i, v i = 0) (n : Fin 8) (c : Fin 256) (r : Fin 36) (s : Fin 36) :
    pad SP ![0, 0, 4, 4] ![0, 0, 4, 4] ![0, 0, 0, 0] b v h hu (ix4 n c r s) = padRead b n c r.val s.val := by
  unfold padRead
  split_ifs with hin
  · exact pad_apply_of_inside _ _ _ b v h hu _ _ (fun a => match a with
      | ⟨0, _⟩ => by show n.val = 0 + n.val * (0 + 1); omega
      | ⟨1, _⟩ => by show c.val = 0 + c.val * (0 + 1); omega
      | ⟨2, _⟩ => by show r.val = 4 + (r.val - 4) * (0 + 1); omega
      | ⟨3, _⟩ => by show s.val = 4 + (s.val - 4) * (0 + 1); omega)
  · by_cases hr : 4 ≤ r.val ∧ r.val < 32
    · rw [pad_apply_of_not_inside _ _ _ b v h hu _ (2 + 1 : Fin 4) (fun hh => hin ?_)]
      · exact hv _
      · have h1 : 4 ≤ s.val := hh.1
        have h2 : (s.val - 4) / (0 + 1) < 28 := hh.2.2
        refine ⟨hr.1, hr.2, h1, ?_⟩; omega
    · rw [pad_apply_of_not_inside _ _ _ b v h hu _ (2 : Fin 4) (fun hh => hr ?_)]
      · exact hv _
      · have h1 : 4 ≤ r.val := hh.1
        have h2 : (r.val - 4) / (0 + 1) < 28 := hh.2.2
        refine ⟨h1, ?_⟩; omega

/-- One of the reference's 81 planes at an index: the padded b sliced at offsets (di, dj), times a, summed
    over the channels from a zero initial value, with a unit axis added, is corr. -/
theorem leaf (di dj : ℕ) (a b : SA.Idx → EReal)
    (hp : SA.Pads (![0, 0, 4, 4] : Fin 4 → Nat) ![0, 0, 4, 4] ![0, 0, 0, 0] SP) (hu : 0 < S0.numel)
    (hs : SP.Slices ![0, 0, di, dj] SA) (hr : SA.ReducesTo [1] SR) (hr' : SA.Reduces [1] SR)
    (hb : SR.BroadcastsInDim SU (![0, 2, 3] : Fin 3 → Fin SU.rank))
    (n : Fin 8) (u : Fin 1) (i : Fin 28) (j : Fin 28) :
    broadcastInDim SU ![0, 2, 3] hb
        (Host.reduceAdd (F := Ideal)
          (mulf (F := Ideal) (φ := .f32) a (extractStridedSlice SA ![0, 0, di, dj]
            (pad SP ![0, 0, 4, 4] ![0, 0, 4, 4] ![0, 0, 0, 0] b (sitofp (F := Ideal) .f32 (constantI S0 32 0#32)) hp hu) hs))
          (constant (F := Ideal) S0 .f32 0x00000000#32) hr hu) (ix4 n u i j)
      = corr a b n di dj i j := by
  obtain ⟨_, hs2⟩ := id hs
  have hdi : di + 28 ≤ 36 := hs2 2
  have hdj : dj + 28 ≤ 36 := hs2 3
  rw [broadcastInDim_apply _ hb _ (ix4 n u i j) (ix3 n i j) (fun a => match a with
    | ⟨0, _⟩ => by show n.val = if (8 : Nat) = 1 then 0 else n.val; rw [if_neg (by decide)]
    | ⟨1, _⟩ => by show i.val = if (28 : Nat) = 1 then 0 else i.val; rw [if_neg (by decide)]
    | ⟨2, _⟩ => by show j.val = if (28 : Nat) = 1 then 0 else j.val; rw [if_neg (by decide)])]
  simp only [Host.reduceAdd, Ideal.hostReduceAdd_def]
  rw [Ideal.hostReduceAdd_single hr hr']
  unfold corr
  rw [show constant (F := Ideal) S0 .f32 0x00000000#32 (Shape.Idx.first hu) = 0 from Ideal.ofBits_zero_f32, zero_add]
  refine Finset.sum_congr rfl fun (c : Fin 256) _ => ?_
  rw [show hr'.lift (ix3 n i j) c = ix4 n c i j from
    funext fun a => Fin.ext (by match a with | ⟨0, _⟩ => rfl | ⟨1, _⟩ => rfl | ⟨2, _⟩ => rfl | ⟨3, _⟩ => rfl)]
  refine (mulf_apply (s := SA) (φ := .f32) a _ (ix4 n c i j)).trans ?_
  refine congrArg (a (ix4 n c i j) * ·) ?_
  rw [extractStridedSlice_apply _ _ hs (ix4 n c i j) (ix4 n c ⟨di + i.val, by omega⟩ ⟨dj + j.val, by omega⟩) (fun a => match a with
    | ⟨0, _⟩ => by show n.val = 0 + n.val; omega
    | ⟨1, _⟩ => by show c.val = 0 + c.val; omega
    | ⟨2, _⟩ => by show di + i.val = di + i.val; rfl
    | ⟨3, _⟩ => by show dj + j.val = dj + j.val; rfl)]
  rw [pad_read b _ hp hu (fun _ => by
    show FloatOps.sitofp (F := Ideal) .f32 (0#32) = 0
    simp [FloatOps.sitofp]) n c ⟨di + i.val, by omega⟩ ⟨dj + j.val, by omega⟩]
  show padRead b n c (di + i.val) (dj + j.val) = padRead b n c (i.val + di) (j.val + dj)
  rw [Nat.add_comm di, Nat.add_comm dj]

end Corr2

end
-- ==== Proof.CorrBlock2.lean ====
/-
  Level 2, one grid point of the kernel: the point's blocks are a[n] and b[n], of shape [1, 256, 28, 28].
  The body zeroes a [256, 36, 36] scratch, writes b[n] into its interior at offset (4, 4), and then for each
  of the 81 displacements (di, dj) reads rows di .. di + 28 of the scratch, takes columns dj .. dj + 28 of them,
  multiplies by a[n] and sums over the channels, storing the [28, 28] plane as plane di * 9 + dj of the
  [1, 81, 28, 28] output block.  So the block is

      blk a b (0, k, i, j) = sum over c of a[0, c, i, j] * scr b (c, i + k / 9, j + k % 9),

  scr b being b with its border of four zeros.  Each of the 81 stored planes is read at an index here.
-/
import Idealize.ShloMosaic.Lib.ValueIdx
import Idealize.ShloMosaic.Lib.Pipeline.Value
import Idealize.ShloMosaic.Lib.Pipeline.FrameBody
import Idealize.ShloMosaic.PureOps.Ideal.Laws

noncomputable section

open scoped BigOperators

namespace CorrK2

open Idealize.ShloMosaic Idealize.ShloMosaic.ValueIdx

/-- One grid point's block of a feature map. -/
abbrev KA : Shape := ⟨4, ![1, 256, 28, 28]⟩
/-- The scratch holding the zero-padded block of b. -/
abbrev KS : Shape := ⟨3, ![256, 36, 36]⟩
/-- 28 rows of the scratch. -/
abbrev KR : Shape := ⟨3, ![256, 28, 36]⟩
/-- A block without its unit axis. -/
abbrev KC : Shape := ⟨3, ![256, 28, 28]⟩
/-- One correlation plane. -/
abbrev KP : Shape := ⟨2, ![28, 28]⟩
/-- One correlation plane as stored. -/
abbrev KO : Shape := ⟨4, ![1, 1, 28, 28]⟩
/-- The output block. -/
abbrev KB : Shape := ⟨4, ![1, 81, 28, 28]⟩

/-- The block of b with its border of four zeros, at padded coordinates (r, s). -/
def scrRead (x1 : KA.Idx → EReal) (c : Fin 256) (r s : ℕ) : EReal :=
  if h : 4 ≤ r ∧ r < 32 ∧ 4 ≤ s ∧ s < 32 then x1 (ix4 0 c ⟨r - 4, by omega⟩ ⟨s - 4, by omega⟩) else 0

/-- One entry of a grid point's output block: plane k = di * 9 + dj at pixel (i, j). -/
def blkAt (x0 x1 : KA.Idx → EReal) (k : ℕ) (i : Fin 28) (j : Fin 28) : EReal :=
  ∑ c : Fin 256, x0 (ix4 0 c i j) * scrRead x1 c (i.val + k / 9) (j.val + k % 9)

/-- A grid point's output block. -/
def blk (x0 x1 : KA.Idx → EReal) (y : KB.Idx) : EReal :=
  blkAt x0 x1 (y 1).val ⟨(y 2).val, (y 2).isLt⟩ ⟨(y 3).val, (y 3).isLt⟩

/-- The block at an index given by its three free coordinates. -/
theorem blk_apply (x0 x1 : KA.Idx → EReal) (y : KB.Idx) (k : ℕ) (i : Fin 28) (j : Fin 28)
    (h1 : (y 1).val = k) (h2 : (y 2).val = i.val) (h3 : (y 3).val = j.val) : blk x0 x1 y = blkAt x0 x1 k i j := by
  unfold blk
  have e2 : (⟨(y 2).val, (y 2).isLt⟩ : Fin 28) = i := Fin.ext h2
  have e3 : (⟨(y 3).val, (y 3).isLt⟩ : Fin 28) = j := Fin.ext h3
  rw [h1, e2, e3]

theorem zero3 : (![0, 0, 0] : Fin 3 → ℕ) = fun _ => 0 := by
  funext a; match a with | ⟨0, _⟩ => rfl | ⟨1, _⟩ => rfl | ⟨2, _⟩ => rfl

/-- The scratch after the two stores, at an index: the interior store's payload inside the border, the zero
    store's payload on it. -/
theorem scratch_canon (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (c : Fin 256) (r : Fin 36) (s : Fin 36) :
    View.canon (Val := Elt Ideal) (s := KS) (e := .f32)
        [⟨Rect.unit (s := KS) ![0, 4, 4] KC.size inbI, w⟩, ⟨Rect.unit (s := KS) ![0, 0, 0] KS.size inbZ, z⟩] (ix3 c r s)
      = if h : 4 ≤ r.val ∧ r.val < 32 ∧ 4 ≤ s.val ∧ s.val < 32 then w (ix3 c ⟨r.val - 4, by omega⟩ ⟨s.val - 4, by omega⟩) else 0 := by
  split_ifs with hin
  · have e : ix3 c r s = (Rect.unit (s := KS) ![0, 4, 4] KC.size inbI).emb (ix3 c ⟨r.val - 4, by omega⟩ ⟨s.val - 4, by omega⟩) :=
      funext fun a => Fin.ext (by
        match a with
        | ⟨0, _⟩ => show c.val = 0 + 1 * c.val; omega
        | ⟨1, _⟩ => show r.val = 4 + 1 * (r.val - 4); omega
        | ⟨2, _⟩ => show s.val = 4 + 1 * (s.val - 4); omega)
    rw [e]; exact View.canon_cons_emb (Val := Elt Ideal) (s := KS) (e := .f32) _ _ _ _
  · rw [View.canon_cons_of_not_mem _ _ (by
      rw [Rect.mem_set_unit]; intro hm
      have h1 : 4 ≤ r.val ∧ r.val < 4 + 28 := hm 1
      have h2 : 4 ≤ s.val ∧ s.val < 4 + 28 := hm 2
      exact hin ⟨h1.1, by omega, h2.1, by omega⟩)]
    rw [View.canon_unit_zero zero3]
    exact hz _

/-- Rows di .. di + 28 of the scratch, loaded after the two stores, at an index. -/
theorem rows_read {sig : RefSig} {κ : Kind} {sp : Space} (v4 : View sig κ sp KS .f32) (di : ℕ)
    (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (c : Fin 256) (i : Fin 28) (s : Fin 36) (hdi : di + 28 ≤ 36) :
    (v4.readCov (Val := Elt Ideal)
        [⟨Rect.unit (s := KS) ![0, 4, 4] KC.size inbI, w⟩, ⟨Rect.unit (s := KS) ![0, 0, 0] KS.size inbZ, z⟩]
        (Rect.unit (s := KS) ![0, di, 0] KR.size inbR).toLoadRect : KR.Idx → Elt Ideal .f32) (ix3 c i s)
      = if h : 4 ≤ di + i.val ∧ di + i.val < 32 ∧ 4 ≤ s.val ∧ s.val < 32 then w (ix3 c ⟨di + i.val - 4, by omega⟩ ⟨s.val - 4, by omega⟩) else 0 := by
  have hcov : ∀ y : KS.Idx, ∃ p ∈ ([⟨Rect.unit (s := KS) ![0, 4, 4] KC.size inbI, w⟩, ⟨Rect.unit (s := KS) ![0, 0, 0] KS.size inbZ, z⟩] :
      List (View.Piece (Elt Ideal) KS .f32)), y ∈ p.1.set :=
    fun y => ⟨⟨Rect.unit (s := KS) ![0, 0, 0] KS.size inbZ, z⟩, List.mem_cons_of_mem _ (List.mem_singleton_self _),
      View.mem_set_unit_zero zero3 inbZ y⟩
  rw [View.readCov_eq_canon_ld v4 _ _ hcov]
  show View.canon (Val := Elt Ideal) _ ((Rect.unit (s := KS) ![0, di, 0] KR.size inbR).emb (ix3 c i s)) = _
  rw [show (Rect.unit (s := KS) ![0, di, 0] KR.size inbR).emb (ix3 c i s) = ix3 c ⟨di + i.val, by omega⟩ s from
    funext fun a => Fin.ext (by
      match a with
      | ⟨0, _⟩ => show 0 + 1 * c.val = c.val; omega
      | ⟨1, _⟩ => show di + 1 * i.val = di + i.val; omega
      | ⟨2, _⟩ => show 0 + 1 * s.val = s.val; omega)]
  exact scratch_canon w z hz inbI inbZ c ⟨di + i.val, by omega⟩ s

/-- The stored plane for displacement (di, dj), read at an index, is the block's plane di * 9 + dj. -/
theorem piece_eq {sig : RefSig} {κ : Kind} {sp : Space} (v4 : View sig κ sp KS .f32)
    (di dj k : ℕ) (hk : k = di * 9 + dj) (hdj9 : dj < 9)
    (x0 x1 : KA.Idx → EReal)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (inbO : ∀ a, (![0, k, 0, 0] : Fin 4 → ℕ) a + KO.size a ≤ KB.size a)
    (hcA : KA.ShapeCasts KC) (hcC : KC.ShapeCasts KC) (hcS : KS.ShapeCasts KS)
    (hs : KR.Slices ![0, 0, dj] KC) (hred : KC.Reduces [0] KP) (hφ : FKind.Formats .f32)
    (hacc : (0x00000000#32 : BitVec 32) = FKind.add.neutral .f32 hφ)
    (hcO : KP.ShapeCasts KO) (y : KO.Idx) :
    shapeCast KO (multiReduction (F := Ideal) .add [0] KP
        (mulf (F := Ideal) (φ := .f32) (shapeCast KC x0 hcA)
          (extractStridedSlice (s := KR) KC ![0, 0, dj]
            ((v4.readCov (Val := Elt Ideal)
              [⟨Rect.unit (s := KS) ![0, 4, 4] KC.size inbI, shapeCast KC (shapeCast KC x1 hcA) hcC⟩,
               ⟨Rect.unit (s := KS) ![0, 0, 0] KS.size inbZ, shapeCast KS (broadcast KS (Scalar.ofBits (F := Ideal) .f32 0x00000000#32)) hcS⟩]
              (Rect.unit (s := KS) ![0, di, 0] KR.size inbR).toLoadRect) : KR.Idx → Elt Ideal .f32) hs))
        0x00000000#32 hred hφ hacc) hcO y
      = blk x0 x1 ((Rect.unit (s := KB) ![0, k, 0, 0] KO.size inbO).emb y) := by
  have hdi : di + 28 ≤ 36 := inbR 1
  obtain ⟨_, hs2⟩ := id hs
  have hdj : dj + 28 ≤ 36 := hs2 2
  obtain ⟨u, v, i, j, rfl⟩ : ∃ (u v : Fin 1) (i : Fin 28) (j : Fin 28), y = ix4 u v i j := ⟨y 0, y 1, y 2, y 3, eq_ix4 y⟩
  have hu : u.val = 0 := by omega
  have hv : v.val = 0 := by omega
  -- the stored plane [1, 1, 28, 28] is the [28, 28] plane
  rw [shapeCast_apply _ hcO (ix4 u v i j) (ix2 i j) (by
    rw [Shape.rowMajor_val_two, Shape.rowMajor_val_four]
    show i.val * 28 + j.val = ((u.val * 1 + v.val) * 28 + i.val) * 28 + j.val
    rw [hu, hv]; omega)]
  rw [Ideal.multiReduction_add_single _ _ hred hφ hacc (ix2 i j)]
  -- the block's entry
  rw [blk_apply x0 x1 _ k i j (by show k + 1 * v.val = k; omega) (by show 0 + 1 * i.val = i.val; omega)
    (by show 0 + 1 * j.val = j.val; omega)]
  unfold blkAt
  refine Finset.sum_congr rfl fun (c : Fin 256) _ => ?_
  rw [show hred.lift (ix2 i j) c = ix3 c i j from
    funext fun a => Fin.ext (by match a with | ⟨0, _⟩ => rfl | ⟨1, _⟩ => rfl | ⟨2, _⟩ => rfl)]
  refine (mulf_apply (s := KC) (φ := .f32) _ _ (ix3 c i j)).trans ?_
  rw [shapeCast_apply x0 hcA (ix3 c i j) (ix4 0 c i j) (by
    rw [Shape.rowMajor_val_three, Shape.rowMajor_val_four]
    show ((0 * 256 + c.val) * 28 + i.val) * 28 + j.val = (c.val * 28 + i.val) * 28 + j.val
    omega)]
  refine congrArg (x0 (ix4 0 c i j) * ·) ?_
  -- the shifted b: columns dj .. of rows di .. of the scratch
  rw [extractStridedSlice_apply _ _ hs (ix3 c i j) (ix3 c i ⟨dj + j.val, by omega⟩) (fun a => match a with
    | ⟨0, _⟩ => by show c.val = 0 + c.val; omega
    | ⟨1, _⟩ => by show i.val = 0 + i.val; omega
    | ⟨2, _⟩ => by show dj + j.val = dj + j.val; rfl)]
  refine (rows_read v4 di _ _ (fun _ => by
    rw [shapeCast_self]; exact Ideal.ofBits_zero_f32) inbI inbZ inbR c i ⟨dj + j.val, by omega⟩ hdi).trans ?_
  unfold scrRead
  have hkd : k / 9 = di := by rw [hk]; omega
  have hkm : k % 9 = dj := by rw [hk]; omega
  rw [hkd, hkm]
  have e1 : i.val + di = di + i.val := Nat.add_comm _ _
  have e2 : j.val + dj = dj + j.val := Nat.add_comm _ _
  simp only [e1, e2]
  show (if h : 4 ≤ di + i.val ∧ di + i.val < 32 ∧ 4 ≤ dj + j.val ∧ dj + j.val < 32 then _ else _) = _
  split_ifs with hin
  · rw [shapeCast_self, shapeCast_apply x1 hcA _ (ix4 0 c ⟨di + i.val - 4, by omega⟩ ⟨dj + j.val - 4, by omega⟩) (by
      rw [Shape.rowMajor_val_three, Shape.rowMajor_val_four]
      show ((0 * 256 + c.val) * 28 + (di + i.val - 4)) * 28 + (dj + j.val - 4) = (c.val * 28 + (di + i.val - 4)) * 28 + (dj + j.val - 4)
      omega)]
  · rfl

end CorrK2

end
-- ==== Proof.CorrJoin2.lean ====
/-
  Level 2: the kernel's per-point block and the reference's planes are the same function corr.
  A grid point n sees the blocks a[n], b[n]; its output block's plane k at pixel (i, j) is
  corr a b n (k / 9) (k % 9) i j.  The kernel's [8, 81, 28, 28] array, reshaped to [8, 9, 9, 28, 28],
  has corr a b n di dj i j at (n, di, dj, i, j), because (di * 9 + dj) / 9 = di and (di * 9 + dj) % 9 = dj.
-/
import proofs.«135875_j16999480558431_2_alg».proof.Proof.CorrSpec2
import proofs.«135875_j16999480558431_2_alg».proof.Proof.CorrBlock2

noncomputable section

open scoped BigOperators

namespace CorrJ2

open Idealize.ShloMosaic Idealize.ShloMosaic.ValueIdx Corr2 CorrK2

/-- The kernel's output array before the reshape. -/
abbrev SO : Shape := ⟨4, ![8, 81, 28, 28]⟩
/-- The result's shape. -/
abbrev SF : Shape := ⟨5, ![8, 9, 9, 28, 28]⟩

/-- The kernel's output array as a function of the two feature maps. -/
def garr (A B : SA.Idx → EReal) (i : SO.Idx) : EReal :=
  corr A B ⟨(i 0).val, (i 0).isLt⟩ ((i 1).val / 9) ((i 1).val % 9) ⟨(i 2).val, (i 2).isLt⟩ ⟨(i 3).val, (i 3).isLt⟩

/-- The result as a function of the two feature maps. -/
def g5 (A B : SA.Idx → EReal) (i : SF.Idx) : EReal :=
  corr A B ⟨(i 0).val, (i 0).isLt⟩ (i 1).val (i 2).val ⟨(i 3).val, (i 3).isLt⟩ ⟨(i 4).val, (i 4).isLt⟩

theorem garr_apply (A B : SA.Idx → EReal) (n : Fin 8) (k : Fin 81) (i : Fin 28) (j : Fin 28) :
    garr A B (ix4 n k i j) = corr A B n (k.val / 9) (k.val % 9) i j := rfl

theorem g5_apply (A B : SA.Idx → EReal) (n : Fin 8) (di dj : Fin 9) (i : Fin 28) (j : Fin 28) :
    g5 A B (ix5 n di dj i j) = corr A B n di.val dj.val i j := rfl

/-- The zero-bordered block of b[n] is the zero-bordered b at batch entry n. -/
theorem scr_eq_pad (B : SA.Idx → EReal) (n : Fin 8) (e1 : KA.Idx → SA.Idx)
    (h1 : ∀ (c : Fin 256) (i : Fin 28) (j : Fin 28), e1 (ix4 0 c i j) = ix4 n c i j) (c : Fin 256) (r s : ℕ) :
    scrRead (fun y => B (e1 y)) c r s = padRead B n c r s := by
  unfold scrRead padRead
  split_ifs with h
  · show B (e1 (ix4 0 c _ _)) = _
    rw [h1]
  · rfl

/-- A grid point's block, computed from the blocks of a and b at batch entry n, is corr at n. -/
theorem blk_eq_corr (A B : SA.Idx → EReal) (n : Fin 8) (e0 e1 : KA.Idx → SA.Idx)
    (h0 : ∀ (c : Fin 256) (i : Fin 28) (j : Fin 28), e0 (ix4 0 c i j) = ix4 n c i j)
    (h1 : ∀ (c : Fin 256) (i : Fin 28) (j : Fin 28), e1 (ix4 0 c i j) = ix4 n c i j)
    (k : ℕ) (i : Fin 28) (j : Fin 28) :
    blkAt (fun y => A (e0 y)) (fun y => B (e1 y)) k i j = corr A B n (k / 9) (k % 9) i j := by
  unfold blkAt corr
  refine Finset.sum_congr rfl fun c _ => ?_
  rw [scr_eq_pad B n e1 h1]
  show A (e0 (ix4 0 c i j)) * _ = _
  rw [h0]

/-- corr depends on its coordinates only through their values. -/
theorem corr_congr (A B : SA.Idx → EReal) (n n' : Fin 8) (d e d' e' : ℕ) (i i' : Fin 28) (j j' : Fin 28)
    (h1 : n.val = n'.val) (h2 : d = d') (h3 : e = e') (h4 : i.val = i'.val) (h5 : j.val = j'.val) :
    corr A B n d e i j = corr A B n' d' e' i' j' := by
  obtain rfl := Fin.ext h1; subst h2 h3; obtain rfl := Fin.ext h4; obtain rfl := Fin.ext h5; rfl

/-- Splitting the plane axis 81 = 9 * 9 of the kernel's array gives the result. -/
theorem reshape_garr (A B : SA.Idx → EReal) (h : SO.ShapeCasts SF) : shapeCast SF (garr A B) h = g5 A B := by
  funext idx
  obtain ⟨n, di, dj, i, j, rfl⟩ : ∃ (n : Fin 8) (di dj : Fin 9) (i : Fin 28) (j : Fin 28), idx = ix5 n di dj i j :=
    ⟨idx 0, idx 1, idx 2, idx 3, idx 4, eq_ix5 idx⟩
  have hdi := di.isLt
  have hdj := dj.isLt
  rw [shapeCast_apply _ h (ix5 n di dj i j) (ix4 n ⟨di.val * 9 + dj.val, by omega⟩ i j) (by
    rw [Shape.rowMajor_val_four, Shape.rowMajor_val_five]
    show ((n.val * 81 + (di.val * 9 + dj.val)) * 28 + i.val) * 28 + j.val
      = (((n.val * 9 + di.val) * 9 + dj.val) * 28 + i.val) * 28 + j.val
    have e : (n.val * 9 + di.val) * 9 + dj.val = n.val * 81 + (di.val * 9 + dj.val) := by omega
    rw [e])]
  rw [garr_apply, g5_apply]
  show corr A B n ((di.val * 9 + dj.val) / 9) ((di.val * 9 + dj.val) % 9) i j = _
  have e1 : (di.val * 9 + dj.val) / 9 = di.val := by omega
  have e2 : (di.val * 9 + dj.val) % 9 = dj.val := by omega
  rw [e1, e2]

end CorrJ2

end
-- ==== Proof.KerValue2.lean ====
/-
  Level 2 of the kernel: region 2 of @main.  One grid point leaves in its output block the 81 planes of blk of the
  point's blocks of a and b (the run's 81 stores, each read at an index); the eight blocks tile the [8, 81, 28, 28]
  output array, which therefore ends at garr of the two feature maps as the region finds them.
-/
import proofs.«135875_j16999480558431_2_alg».proof.Proof.Gen.KernelIdeal.Frame
import proofs.«135875_j16999480558431_2_alg».proof.Proof.CorrSpec2
import proofs.«135875_j16999480558431_2_alg».proof.Proof.CorrBlock2
import proofs.«135875_j16999480558431_2_alg».proof.Proof.CorrJoin2

noncomputable section

set_option maxRecDepth 16384

namespace Cert.KernelIdeal.Val2

open Cert.KernelIdeal Cert.KernelIdeal.Gen Idealize.ShloMosaic Idealize.ShloMosaic.TcCoe Idealize.ShloMosaic.Tactic
open Idealize.SL Idealize.SL.Sem Idealize.ShloMosaic.ValueIdx CorrK2

theorem zero4 : (![0, 0, 0, 0] : Fin 4 → ℕ) = fun _ => 0 := by
  funext a; match a with | ⟨0, _⟩ => rfl | ⟨1, _⟩ => rfl | ⟨2, _⟩ => rfl | ⟨3, _⟩ => rfl

/-- What one grid point leaves in its output block: the 81 stored planes are the 81 planes of blk. -/
theorem out_eq (c : Dev nD) (i : grid2.Coords) (arg1 : Memref sig .tc .vmem S1x256x28x28 .f32) (harg1 : arg1.IsWhole)
    (arg2 : Memref sig .tc .vmem S1x256x28x28 .f32) (harg2 : arg2.IsWhole)
    (arg3 : Memref sig .tc .vmem S1x81x28x28 .f32) (harg3 : arg3.IsWhole)
    (arg4 : Memref sig .tc .vmem S256x36x36 .f32) (harg4 : arg4.IsWhole)
    (x0 x1 : Vec Ideal S1x256x28x28 .f32) :
    out2_A_2 (F := Ideal) c i arg1 harg1 arg2 harg2 arg3 harg3 arg4 harg4 x0 x1 = blk x0 x1 := by
  funext y
  unfold out2_A_2
  rw [View.read_writes_eq_canon _ _ _ (cover2_A_2 c i arg1 harg1 arg2 harg2 arg3 harg3 arg4 harg4 x0 x1)]
  refine View.canon_apply_of_pieces (blk x0 x1) _ ?_ y (cover2_A_2 c i arg1 harg1 arg2 harg2 arg3 harg3 arg4 harg4 x0 x1 y)
  unfold kernelRun2_A
  dsimp only
  sl_unfold_words
  simp only [View.readAt_eq_ld, harg1.read_unread, harg2.read_unread, View.ld_unit_zero (S := S1x256x28x28) zero4]
  simp only [List.forall_mem_cons, List.not_mem_nil, IsEmpty.forall_iff, implies_true, and_true]
  repeat' apply And.intro
  all_goals (
    intro x
    dsimp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107]
    refine piece_eq arg4.view _ _ _ ?_ ?_ x0 x1 _ _ _ _ _ _ _ _ _ _ _ _ x <;> decide)

end Cert.KernelIdeal.Val2

namespace Cert.KernelIdeal.Val2

open Cert.KernelIdeal Cert.KernelIdeal.Gen Idealize.ShloMosaic Idealize.ShloMosaic.TcCoe Idealize.ShloMosaic.Tactic
open Idealize.SL Idealize.SL.Sem Idealize.ShloMosaic.ValueIdx Idealize.ShloMosaic.Pipeline Corr2 CorrK2 CorrJ2

section Array

variable (V : (c : Dev nD) → (b : Ref sig .tc) → Buf (Elt Ideal) ((c : Thread nD τ).loc b))

/-- The three windows move together along the batch axis and sit at block 0 of every other axis. -/
theorem idx_facts : ∀ t : Fin cfg2.N,
    win2_0.index t (0 : Fin 4) = win2_2.index t (0 : Fin 4) ∧ win2_0.index t (1 : Fin 4) = 0
    ∧ win2_0.index t (2 : Fin 4) = 0 ∧ win2_0.index t (3 : Fin 4) = 0
    ∧ win2_1.index t (0 : Fin 4) = win2_2.index t (0 : Fin 4) ∧ win2_1.index t (1 : Fin 4) = 0
    ∧ win2_1.index t (2 : Fin 4) = 0 ∧ win2_1.index t (3 : Fin 4) = 0
    ∧ win2_2.index t (1 : Fin 4) = 0 ∧ win2_2.index t (2 : Fin 4) = 0 ∧ win2_2.index t (3 : Fin 4) = 0
    ∧ win2_2.index t (0 : Fin 4) < 8 :=
  (by decide +kernel : ∀ t : Fin grid2.N, _)

/-- Every batch entry is some grid point's. -/
theorem idx_onto : ∀ q : Fin 8, ∃ t : Fin cfg2.N, win2_2.index t (0 : Fin 4) = q.val :=
  (by decide +kernel : ∀ q : Fin 8, ∃ t : Fin grid2.N, win2_2.index t (0 : Fin 4) = q.val)

/-- What grid point t writes back is block t of garr of the two feature maps as the region finds them. -/
theorem flushed_eq (c : Dev nD) (t : Fin cfg2.N) :
    (dat2 V c).flushed 2 t = ((cfg2.win 2).blk t).view.read (Elt Ideal) (garr (V c main_arg2) (V c main_arg6)) := by
  show (cfg2.win 2).cut (grid2.coords t) ((dat2 V c).after 2 t) = _
  rw [after2_2]
  unfold outsAt2
  rw [out_eq]
  obtain ⟨a0, a1, a2, a3, b0, b1, b2, b3, o1, o2, o3, olt⟩ := idx_facts t
  funext j
  show blkAt (iblk2 V c 0 t) (iblk2 V c 1 t) (j 1).val ⟨(j 2).val, (j 2).isLt⟩ ⟨(j 3).val, (j 3).isLt⟩
    = garr (V c main_arg2) (V c main_arg6) (((cfg2.win 2).blk t).view.emb j)
  refine (blk_eq_corr (V c main_arg2) (V c main_arg6) ⟨win2_2.index t (0 : Fin 4), olt⟩
    (fun y => ((cfg2.win 0).blk t).view.emb y) (fun y => ((cfg2.win 1).blk t).view.emb y) ?_ ?_
    (j 1).val ⟨(j 2).val, (j 2).isLt⟩ ⟨(j 3).val, (j 3).isLt⟩).trans ?_
  · intro c' i' j'
    funext a; apply Fin.ext
    match a with
    | ⟨0, _⟩ => show win2_0.index t (0 : Fin 4) * 1 + 1 * 0 = win2_2.index t (0 : Fin 4); omega
    | ⟨1, _⟩ => show win2_0.index t (1 : Fin 4) * 256 + 1 * c'.val = c'.val; omega
    | ⟨2, _⟩ => show win2_0.index t (2 : Fin 4) * 28 + 1 * i'.val = i'.val; omega
    | ⟨3, _⟩ => show win2_0.index t (3 : Fin 4) * 28 + 1 * j'.val = j'.val; omega
  · intro c' i' j'
    funext a; apply Fin.ext
    match a with
    | ⟨0, _⟩ => show win2_1.index t (0 : Fin 4) * 1 + 1 * 0 = win2_2.index t (0 : Fin 4); omega
    | ⟨1, _⟩ => show win2_1.index t (1 : Fin 4) * 256 + 1 * c'.val = c'.val; omega
    | ⟨2, _⟩ => show win2_1.index t (2 : Fin 4) * 28 + 1 * i'.val = i'.val; omega
    | ⟨3, _⟩ => show win2_1.index t (3 : Fin 4) * 28 + 1 * j'.val = j'.val; omega
  · have hj0 : (j 0).val < 1 := (j 0).isLt
    exact corr_congr _ _ _ _ _ _ _ _ _ _ _ _
      (by show win2_2.index t (0 : Fin 4) = win2_2.index t (0 : Fin 4) * 1 + 1 * (j 0).val; omega)
      (by show (j 1).val / 9 = (win2_2.index t (1 : Fin 4) * 81 + 1 * (j 1).val) / 9; rw [o1]; omega)
      (by show (j 1).val % 9 = (win2_2.index t (1 : Fin 4) * 81 + 1 * (j 1).val) % 9; rw [o1]; omega)
      (by show (j 2).val = win2_2.index t (2 : Fin 4) * 28 + 1 * (j 2).val; omega)
      (by show (j 3).val = win2_2.index t (3 : Fin 4) * 28 + 1 * (j 3).val; omega)

/-- An index of the output array is in point t's block iff each coordinate is in the block's range. -/
theorem mem_blk (t : Fin cfg2.N) (i : S8x81x28x28.Idx) :
    i ∈ ((cfg2.win 2).blk t).view.set ↔ ∀ a : Fin 4, win2_2.index t a * S1x81x28x28.size a ≤ (i a).val
      ∧ (i a).val < win2_2.index t a * S1x81x28x28.size a + S1x81x28x28.size a := by
  show i ∈ ((View.whole main_v4).slice (win2_2.rect t)).set ↔ _
  rw [View.set_slice_whole, Rect.mem_set_unit]
  exact Iff.rfl

/-- The output array after the region: garr of the two feature maps as the region finds them; the eight
    blocks, one per batch entry, cover it. -/
theorem final (c : Dev nD) : (dat2 V c).arrAt 2 cfg2.N = garr (V c main_arg2) (V c main_arg6) :=
  (dat2 V c).arrAt_eq_of_cover 2 _ (fun t _ => flushed_eq V c t) (fun i => by
    have hi0 : (i 0).val < 8 := (i 0).isLt
    have hi1 : (i 1).val < 81 := (i 1).isLt
    have hi2 : (i 2).val < 28 := (i 2).isLt
    have hi3 : (i 3).val < 28 := (i 3).isLt
    obtain ⟨t, ht⟩ := idx_onto ⟨(i 0).val, hi0⟩
    obtain ⟨a0, a1, a2, a3, b0, b1, b2, b3, o1, o2, o3, olt⟩ := idx_facts t
    refine ⟨t, flush2_2 t, ?_⟩
    rw [mem_blk]
    intro a
    match a with
    | ⟨0, _⟩ => show win2_2.index t (0 : Fin 4) * 1 ≤ (i 0).val ∧ (i 0).val < win2_2.index t (0 : Fin 4) * 1 + 1; rw [ht]; show (i 0).val * 1 ≤ (i 0).val ∧ (i 0).val < (i 0).val * 1 + 1; omega
    | ⟨1, _⟩ => show win2_2.index t (1 : Fin 4) * 81 ≤ (i 1).val ∧ (i 1).val < win2_2.index t (1 : Fin 4) * 81 + 81; omega
    | ⟨2, _⟩ => show win2_2.index t (2 : Fin 4) * 28 ≤ (i 2).val ∧ (i 2).val < win2_2.index t (2 : Fin 4) * 28 + 28; omega
    | ⟨3, _⟩ => show win2_2.index t (3 : Fin 4) * 28 ≤ (i 3).val ∧ (i 3).val < win2_2.index t (3 : Fin 4) * 28 + 28; omega)

end Array

end Cert.KernelIdeal.Val2

end
-- ==== Proof.CorrSpec3.lean ====
/-
  Level 3 of the correlation pyramid: feature maps a, b of shape [8, 512, 14, 14].
  The value both programs compute is the 9 x 9 patch correlation

      corr a b n di dj i j = sum over channels c of a[n, c, i, j] * bpad[n, c, i + di, j + dj],

  where bpad is b with a border of four zeros on each side of its two spatial axes (so bpad has
  spatial extents 22 x 22, and bpad[n, c, r, s] = b[n, c, r - 4, s - 4] when 4 <= r < 18 and 4 <= s < 18,
  and 0 otherwise).  This file states that function and reads the host's operations at an index:
  a zero pad, a unit-stride slice, a product, a sum over the channel axis and the broadcast that
  adds a unit axis, composed, are one entry of corr.  Nothing here needs the inputs to be finite:
  a[n, c, i, j] * 0 is the same term on both sides.
-/
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Corr3

open Idealize.ShloMosaic Idealize.ShloMosaic.ValueIdx

/-- The feature maps' shape. -/
abbrev SA : Shape := ⟨4, ![8, 512, 14, 14]⟩
/-- The zero-padded feature map's shape. -/
abbrev SP : Shape := ⟨4, ![8, 512, 22, 22]⟩
/-- One correlation plane per batch entry. -/
abbrev SR : Shape := ⟨3, ![8, 14, 14]⟩
/-- The same with a unit axis for the patch column. -/
abbrev SU : Shape := ⟨4, ![8, 1, 14, 14]⟩
/-- The scalar shape. -/
abbrev S0 : Shape := ⟨0, ![]⟩

/-- The zero-padded second feature map at padded coordinates (r, s): b at (r - 4, s - 4) inside the
    border, zero on it. -/
def padRead (b : SA.Idx → EReal) (n : Fin 8) (c : Fin 512) (r s : ℕ) : EReal :=
  if h : 4 ≤ r ∧ r < 18 ∧ 4 ≤ s ∧ s < 18 then b (ix4 n c ⟨r - 4, by omega⟩ ⟨s - 4, by omega⟩) else 0

/-- One entry of the patch correlation: the channel dot product of a at pixel (i, j) with the padded b at
    the pixel displaced by (di, dj). -/
def corr (a b : SA.Idx → EReal) (n : Fin 8) (di dj : ℕ) (i : Fin 14) (j : Fin 14) : EReal :=
  ∑ c : Fin 512, a (ix4 n c i j) * padRead b n c (i.val + di) (j.val + dj)

/-- The host's zero pad read at an index is padRead. -/
theorem pad_read (b : SA.Idx → EReal) (v : S0.Idx → EReal)
    (h : SA.Pads (![0, 0, 4, 4] : Fin 4 → Nat) ![0, 0, 4, 4] ![0, 0, 0, 0] SP) (hu : 0 < S0.numel)
    (hv : ∀ i, v i = 0) (n : Fin 8) (c : Fin 512) (r : Fin 22) (s : Fin 22) :
    pad SP ![0, 0, 4, 4] ![0, 0, 4, 4] ![0, 0, 0, 0] b v h hu (ix4 n c r s) = padRead b n c r.val s.val := by
  unfold padRead
  split_ifs with hin
  · exact pad_apply_of_inside _ _ _ b v h hu _ _ (fun a => match a with
      | ⟨0, _⟩ => by show n.val = 0 + n.val * (0 + 1); omega
      | ⟨1, _⟩ => by show c.val = 0 + c.val * (0 + 1); omega
      | ⟨2, _⟩ => by show r.val = 4 + (r.val - 4) * (0 + 1); omega
      | ⟨3, _⟩ => by show s.val = 4 + (s.val - 4) * (0 + 1); omega)
  · by_cases hr : 4 ≤ r.val ∧ r.val < 18
    · rw [pad_apply_of_not_inside _ _ _ b v h hu _ (2 + 1 : Fin 4) (fun hh => hin ?_)]
      · exact hv _
      · have h1 : 4 ≤ s.val := hh.1
        have h2 : (s.val - 4) / (0 + 1) < 14 := hh.2.2
        refine ⟨hr.1, hr.2, h1, ?_⟩; omega
    · rw [pad_apply_of_not_inside _ _ _ b v h hu _ (2 : Fin 4) (fun hh => hr ?_)]
      · exact hv _
      · have h1 : 4 ≤ r.val := hh.1
        have h2 : (r.val - 4) / (0 + 1) < 14 := hh.2.2
        refine ⟨h1, ?_⟩; omega

/-- One of the reference's 81 planes at an index: the padded b sliced at offsets (di, dj), times a, summed
    over the channels from a zero initial value, with a unit axis added, is corr. -/
theorem leaf (di dj : ℕ) (a b : SA.Idx → EReal)
    (hp : SA.Pads (![0, 0, 4, 4] : Fin 4 → Nat) ![0, 0, 4, 4] ![0, 0, 0, 0] SP) (hu : 0 < S0.numel)
    (hs : SP.Slices ![0, 0, di, dj] SA) (hr : SA.ReducesTo [1] SR) (hr' : SA.Reduces [1] SR)
    (hb : SR.BroadcastsInDim SU (![0, 2, 3] : Fin 3 → Fin SU.rank))
    (n : Fin 8) (u : Fin 1) (i : Fin 14) (j : Fin 14) :
    broadcastInDim SU ![0, 2, 3] hb
        (Host.reduceAdd (F := Ideal)
          (mulf (F := Ideal) (φ := .f32) a (extractStridedSlice SA ![0, 0, di, dj]
            (pad SP ![0, 0, 4, 4] ![0, 0, 4, 4] ![0, 0, 0, 0] b (sitofp (F := Ideal) .f32 (constantI S0 32 0#32)) hp hu) hs))
          (constant (F := Ideal) S0 .f32 0x00000000#32) hr hu) (ix4 n u i j)
      = corr a b n di dj i j := by
  obtain ⟨_, hs2⟩ := id hs
  have hdi : di + 14 ≤ 22 := hs2 2
  have hdj : dj + 14 ≤ 22 := hs2 3
  rw [broadcastInDim_apply _ hb _ (ix4 n u i j) (ix3 n i j) (fun a => match a with
    | ⟨0, _⟩ => by show n.val = if (8 : Nat) = 1 then 0 else n.val; rw [if_neg (by decide)]
    | ⟨1, _⟩ => by show i.val = if (14 : Nat) = 1 then 0 else i.val; rw [if_neg (by decide)]
    | ⟨2, _⟩ => by show j.val = if (14 : Nat) = 1 then 0 else j.val; rw [if_neg (by decide)])]
  simp only [Host.reduceAdd, Ideal.hostReduceAdd_def]
  rw [Ideal.hostReduceAdd_single hr hr']
  unfold corr
  rw [show constant (F := Ideal) S0 .f32 0x00000000#32 (Shape.Idx.first hu) = 0 from Ideal.ofBits_zero_f32, zero_add]
  refine Finset.sum_congr rfl fun (c : Fin 512) _ => ?_
  rw [show hr'.lift (ix3 n i j) c = ix4 n c i j from
    funext fun a => Fin.ext (by match a with | ⟨0, _⟩ => rfl | ⟨1, _⟩ => rfl | ⟨2, _⟩ => rfl | ⟨3, _⟩ => rfl)]
  refine (mulf_apply (s := SA) (φ := .f32) a _ (ix4 n c i j)).trans ?_
  refine congrArg (a (ix4 n c i j) * ·) ?_
  rw [extractStridedSlice_apply _ _ hs (ix4 n c i j) (ix4 n c ⟨di + i.val, by omega⟩ ⟨dj + j.val, by omega⟩) (fun a => match a with
    | ⟨0, _⟩ => by show n.val = 0 + n.val; omega
    | ⟨1, _⟩ => by show c.val = 0 + c.val; omega
    | ⟨2, _⟩ => by show di + i.val = di + i.val; rfl
    | ⟨3, _⟩ => by show dj + j.val = dj + j.val; rfl)]
  rw [pad_read b _ hp hu (fun _ => by
    show FloatOps.sitofp (F := Ideal) .f32 (0#32) = 0
    simp [FloatOps.sitofp]) n c ⟨di + i.val, by omega⟩ ⟨dj + j.val, by omega⟩]
  show padRead b n c (di + i.val) (dj + j.val) = padRead b n c (i.val + di) (j.val + dj)
  rw [Nat.add_comm di, Nat.add_comm dj]

end Corr3

end
-- ==== Proof.CorrBlock3.lean ====
/-
  Level 3, one grid point of the kernel: the point's blocks are a[n] and b[n], of shape [1, 512, 14, 14].
  The body zeroes a [512, 22, 22] scratch, writes b[n] into its interior at offset (4, 4), and then for each
  of the 81 displacements (di, dj) reads rows di .. di + 14 of the scratch, takes columns dj .. dj + 14 of them,
  multiplies by a[n] and sums over the channels, storing the [14, 14] plane as plane di * 9 + dj of the
  [1, 81, 14, 14] output block.  So the block is

      blk a b (0, k, i, j) = sum over c of a[0, c, i, j] * scr b (c, i + k / 9, j + k % 9),

  scr b being b with its border of four zeros.  Each of the 81 stored planes is read at an index here.
-/
import Idealize.ShloMosaic.Lib.ValueIdx
import Idealize.ShloMosaic.Lib.Pipeline.Value
import Idealize.ShloMosaic.Lib.Pipeline.FrameBody
import Idealize.ShloMosaic.PureOps.Ideal.Laws

noncomputable section

open scoped BigOperators

namespace CorrK3

open Idealize.ShloMosaic Idealize.ShloMosaic.ValueIdx

/-- One grid point's block of a feature map. -/
abbrev KA : Shape := ⟨4, ![1, 512, 14, 14]⟩
/-- The scratch holding the zero-padded block of b. -/
abbrev KS : Shape := ⟨3, ![512, 22, 22]⟩
/-- 14 rows of the scratch. -/
abbrev KR : Shape := ⟨3, ![512, 14, 22]⟩
/-- A block without its unit axis. -/
abbrev KC : Shape := ⟨3, ![512, 14, 14]⟩
/-- One correlation plane. -/
abbrev KP : Shape := ⟨2, ![14, 14]⟩
/-- One correlation plane as stored. -/
abbrev KO : Shape := ⟨4, ![1, 1, 14, 14]⟩
/-- The output block. -/
abbrev KB : Shape := ⟨4, ![1, 81, 14, 14]⟩

/-- The block of b with its border of four zeros, at padded coordinates (r, s). -/
def scrRead (x1 : KA.Idx → EReal) (c : Fin 512) (r s : ℕ) : EReal :=
  if h : 4 ≤ r ∧ r < 18 ∧ 4 ≤ s ∧ s < 18 then x1 (ix4 0 c ⟨r - 4, by omega⟩ ⟨s - 4, by omega⟩) else 0

/-- One entry of a grid point's output block: plane k = di * 9 + dj at pixel (i, j). -/
def blkAt (x0 x1 : KA.Idx → EReal) (k : ℕ) (i : Fin 14) (j : Fin 14) : EReal :=
  ∑ c : Fin 512, x0 (ix4 0 c i j) * scrRead x1 c (i.val + k / 9) (j.val + k % 9)

/-- A grid point's output block. -/
def blk (x0 x1 : KA.Idx → EReal) (y : KB.Idx) : EReal :=
  blkAt x0 x1 (y 1).val ⟨(y 2).val, (y 2).isLt⟩ ⟨(y 3).val, (y 3).isLt⟩

/-- The block at an index given by its three free coordinates. -/
theorem blk_apply (x0 x1 : KA.Idx → EReal) (y : KB.Idx) (k : ℕ) (i : Fin 14) (j : Fin 14)
    (h1 : (y 1).val = k) (h2 : (y 2).val = i.val) (h3 : (y 3).val = j.val) : blk x0 x1 y = blkAt x0 x1 k i j := by
  unfold blk
  have e2 : (⟨(y 2).val, (y 2).isLt⟩ : Fin 14) = i := Fin.ext h2
  have e3 : (⟨(y 3).val, (y 3).isLt⟩ : Fin 14) = j := Fin.ext h3
  rw [h1, e2, e3]

theorem zero3 : (![0, 0, 0] : Fin 3 → ℕ) = fun _ => 0 := by
  funext a; match a with | ⟨0, _⟩ => rfl | ⟨1, _⟩ => rfl | ⟨2, _⟩ => rfl

/-- The scratch after the two stores, at an index: the interior store's payload inside the border, the zero
    store's payload on it. -/
theorem scratch_canon (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (c : Fin 512) (r : Fin 22) (s : Fin 22) :
    View.canon (Val := Elt Ideal) (s := KS) (e := .f32)
        [⟨Rect.unit (s := KS) ![0, 4, 4] KC.size inbI, w⟩, ⟨Rect.unit (s := KS) ![0, 0, 0] KS.size inbZ, z⟩] (ix3 c r s)
      = if h : 4 ≤ r.val ∧ r.val < 18 ∧ 4 ≤ s.val ∧ s.val < 18 then w (ix3 c ⟨r.val - 4, by omega⟩ ⟨s.val - 4, by omega⟩) else 0 := by
  split_ifs with hin
  · have e : ix3 c r s = (Rect.unit (s := KS) ![0, 4, 4] KC.size inbI).emb (ix3 c ⟨r.val - 4, by omega⟩ ⟨s.val - 4, by omega⟩) :=
      funext fun a => Fin.ext (by
        match a with
        | ⟨0, _⟩ => show c.val = 0 + 1 * c.val; omega
        | ⟨1, _⟩ => show r.val = 4 + 1 * (r.val - 4); omega
        | ⟨2, _⟩ => show s.val = 4 + 1 * (s.val - 4); omega)
    rw [e]; exact View.canon_cons_emb (Val := Elt Ideal) (s := KS) (e := .f32) _ _ _ _
  · rw [View.canon_cons_of_not_mem _ _ (by
      rw [Rect.mem_set_unit]; intro hm
      have h1 : 4 ≤ r.val ∧ r.val < 4 + 14 := hm 1
      have h2 : 4 ≤ s.val ∧ s.val < 4 + 14 := hm 2
      exact hin ⟨h1.1, by omega, h2.1, by omega⟩)]
    rw [View.canon_unit_zero zero3]
    exact hz _

/-- Rows di .. di + 14 of the scratch, loaded after the two stores, at an index. -/
theorem rows_read {sig : RefSig} {κ : Kind} {sp : Space} (v4 : View sig κ sp KS .f32) (di : ℕ)
    (w : KC.Idx → EReal) (z : KS.Idx → EReal) (hz : ∀ i, z i = 0)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (c : Fin 512) (i : Fin 14) (s : Fin 22) (hdi : di + 14 ≤ 22) :
    (v4.readCov (Val := Elt Ideal)
        [⟨Rect.unit (s := KS) ![0, 4, 4] KC.size inbI, w⟩, ⟨Rect.unit (s := KS) ![0, 0, 0] KS.size inbZ, z⟩]
        (Rect.unit (s := KS) ![0, di, 0] KR.size inbR).toLoadRect : KR.Idx → Elt Ideal .f32) (ix3 c i s)
      = if h : 4 ≤ di + i.val ∧ di + i.val < 18 ∧ 4 ≤ s.val ∧ s.val < 18 then w (ix3 c ⟨di + i.val - 4, by omega⟩ ⟨s.val - 4, by omega⟩) else 0 := by
  have hcov : ∀ y : KS.Idx, ∃ p ∈ ([⟨Rect.unit (s := KS) ![0, 4, 4] KC.size inbI, w⟩, ⟨Rect.unit (s := KS) ![0, 0, 0] KS.size inbZ, z⟩] :
      List (View.Piece (Elt Ideal) KS .f32)), y ∈ p.1.set :=
    fun y => ⟨⟨Rect.unit (s := KS) ![0, 0, 0] KS.size inbZ, z⟩, List.mem_cons_of_mem _ (List.mem_singleton_self _),
      View.mem_set_unit_zero zero3 inbZ y⟩
  rw [View.readCov_eq_canon_ld v4 _ _ hcov]
  show View.canon (Val := Elt Ideal) _ ((Rect.unit (s := KS) ![0, di, 0] KR.size inbR).emb (ix3 c i s)) = _
  rw [show (Rect.unit (s := KS) ![0, di, 0] KR.size inbR).emb (ix3 c i s) = ix3 c ⟨di + i.val, by omega⟩ s from
    funext fun a => Fin.ext (by
      match a with
      | ⟨0, _⟩ => show 0 + 1 * c.val = c.val; omega
      | ⟨1, _⟩ => show di + 1 * i.val = di + i.val; omega
      | ⟨2, _⟩ => show 0 + 1 * s.val = s.val; omega)]
  exact scratch_canon w z hz inbI inbZ c ⟨di + i.val, by omega⟩ s

/-- The stored plane for displacement (di, dj), read at an index, is the block's plane di * 9 + dj. -/
theorem piece_eq {sig : RefSig} {κ : Kind} {sp : Space} (v4 : View sig κ sp KS .f32)
    (di dj k : ℕ) (hk : k = di * 9 + dj) (hdj9 : dj < 9)
    (x0 x1 : KA.Idx → EReal)
    (inbI : ∀ a, (![0, 4, 4] : Fin 3 → ℕ) a + KC.size a ≤ KS.size a)
    (inbZ : ∀ a, (![0, 0, 0] : Fin 3 → ℕ) a + KS.size a ≤ KS.size a)
    (inbR : ∀ a, (![0, di, 0] : Fin 3 → ℕ) a + KR.size a ≤ KS.size a)
    (inbO : ∀ a, (![0, k, 0, 0] : Fin 4 → ℕ) a + KO.size a ≤ KB.size a)
    (hcA : KA.ShapeCasts KC) (hcC : KC.ShapeCasts KC) (hcS : KS.ShapeCasts KS)
    (hs : KR.Slices ![0, 0, dj] KC) (hred : KC.Reduces [0] KP) (hφ : FKind.Formats .f32)
    (hacc : (0x00000000#32 : BitVec 32) = FKind.add.neutral .f32 hφ)
    (hcO : KP.ShapeCasts KO) (y : KO.Idx) :
    shapeCast KO (multiReduction (F := Ideal) .add [0] KP
        (mulf (F := Ideal) (φ := .f32) (shapeCast KC x0 hcA)
          (extractStridedSlice (s := KR) KC ![0, 0, dj]
            ((v4.readCov (Val := Elt Ideal)
              [⟨Rect.unit (s := KS) ![0, 4, 4] KC.size inbI, shapeCast KC (shapeCast KC x1 hcA) hcC⟩,
               ⟨Rect.unit (s := KS) ![0, 0, 0] KS.size inbZ, shapeCast KS (broadcast KS (Scalar.ofBits (F := Ideal) .f32 0x00000000#32)) hcS⟩]
              (Rect.unit (s := KS) ![0, di, 0] KR.size inbR).toLoadRect) : KR.Idx → Elt Ideal .f32) hs))
        0x00000000#32 hred hφ hacc) hcO y
      = blk x0 x1 ((Rect.unit (s := KB) ![0, k, 0, 0] KO.size inbO).emb y) := by
  have hdi : di + 14 ≤ 22 := inbR 1
  obtain ⟨_, hs2⟩ := id hs
  have hdj : dj + 14 ≤ 22 := hs2 2
  obtain ⟨u, v, i, j, rfl⟩ : ∃ (u v : Fin 1) (i : Fin 14) (j : Fin 14), y = ix4 u v i j := ⟨y 0, y 1, y 2, y 3, eq_ix4 y⟩
  have hu : u.val = 0 := by omega
  have hv : v.val = 0 := by omega
  -- the stored plane [1, 1, 14, 14] is the [14, 14] plane
  rw [shapeCast_apply _ hcO (ix4 u v i j) (ix2 i j) (by
    rw [Shape.rowMajor_val_two, Shape.rowMajor_val_four]
    show i.val * 14 + j.val = ((u.val * 1 + v.val) * 14 + i.val) * 14 + j.val
    rw [hu, hv]; omega)]
  rw [Ideal.multiReduction_add_single _ _ hred hφ hacc (ix2 i j)]
  -- the block's entry
  rw [blk_apply x0 x1 _ k i j (by show k + 1 * v.val = k; omega) (by show 0 + 1 * i.val = i.val; omega)
    (by show 0 + 1 * j.val = j.val; omega)]
  unfold blkAt
  refine Finset.sum_congr rfl fun (c : Fin 512) _ => ?_
  rw [show hred.lift (ix2 i j) c = ix3 c i j from
    funext fun a => Fin.ext (by match a with | ⟨0, _⟩ => rfl | ⟨1, _⟩ => rfl | ⟨2, _⟩ => rfl)]
  refine (mulf_apply (s := KC) (φ := .f32) _ _ (ix3 c i j)).trans ?_
  rw [shapeCast_apply x0 hcA (ix3 c i j) (ix4 0 c i j) (by
    rw [Shape.rowMajor_val_three, Shape.rowMajor_val_four]
    show ((0 * 512 + c.val) * 14 + i.val) * 14 + j.val = (c.val * 14 + i.val) * 14 + j.val
    omega)]
  refine congrArg (x0 (ix4 0 c i j) * ·) ?_
  -- the shifted b: columns dj .. of rows di .. of the scratch
  rw [extractStridedSlice_apply _ _ hs (ix3 c i j) (ix3 c i ⟨dj + j.val, by omega⟩) (fun a => match a with
    | ⟨0, _⟩ => by show c.val = 0 + c.val; omega
    | ⟨1, _⟩ => by show i.val = 0 + i.val; omega
    | ⟨2, _⟩ => by show dj + j.val = dj + j.val; rfl)]
  refine (rows_read v4 di _ _ (fun _ => by
    rw [shapeCast_self]; exact Ideal.ofBits_zero_f32) inbI inbZ inbR c i ⟨dj + j.val, by omega⟩ hdi).trans ?_
  unfold scrRead
  have hkd : k / 9 = di := by rw [hk]; omega
  have hkm : k % 9 = dj := by rw [hk]; omega
  rw [hkd, hkm]
  have e1 : i.val + di = di + i.val := Nat.add_comm _ _
  have e2 : j.val + dj = dj + j.val := Nat.add_comm _ _
  simp only [e1, e2]
  show (if h : 4 ≤ di + i.val ∧ di + i.val < 18 ∧ 4 ≤ dj + j.val ∧ dj + j.val < 18 then _ else _) = _
  split_ifs with hin
  · rw [shapeCast_self, shapeCast_apply x1 hcA _ (ix4 0 c ⟨di + i.val - 4, by omega⟩ ⟨dj + j.val - 4, by omega⟩) (by
      rw [Shape.rowMajor_val_three, Shape.rowMajor_val_four]
      show ((0 * 512 + c.val) * 14 + (di + i.val - 4)) * 14 + (dj + j.val - 4) = (c.val * 14 + (di + i.val - 4)) * 14 + (dj + j.val - 4)
      omega)]
  · rfl

end CorrK3

end
-- ==== Proof.CorrJoin3.lean ====
/-
  Level 3: the kernel's per-point block and the reference's planes are the same function corr.
  A grid point n sees the blocks a[n], b[n]; its output block's plane k at pixel (i, j) is
  corr a b n (k / 9) (k % 9) i j.  The kernel's [8, 81, 14, 14] array, reshaped to [8, 9, 9, 14, 14],
  has corr a b n di dj i j at (n, di, dj, i, j), because (di * 9 + dj) / 9 = di and (di * 9 + dj) % 9 = dj.
-/
import proofs.«135875_j16999480558431_2_alg».proof.Proof.CorrSpec3
import proofs.«135875_j16999480558431_2_alg».proof.Proof.CorrBlock3

noncomputable section

open scoped BigOperators

namespace CorrJ3

open Idealize.ShloMosaic Idealize.ShloMosaic.ValueIdx Corr3 CorrK3

/-- The kernel's output array before the reshape. -/
abbrev SO : Shape := ⟨4, ![8, 81, 14, 14]⟩
/-- The result's shape. -/
abbrev SF : Shape := ⟨5, ![8, 9, 9, 14, 14]⟩

/-- The kernel's output array as a function of the two feature maps. -/
def garr (A B : SA.Idx → EReal) (i : SO.Idx) : EReal :=
  corr A B ⟨(i 0).val, (i 0).isLt⟩ ((i 1).val / 9) ((i 1).val % 9) ⟨(i 2).val, (i 2).isLt⟩ ⟨(i 3).val, (i 3).isLt⟩

/-- The result as a function of the two feature maps. -/
def g5 (A B : SA.Idx → EReal) (i : SF.Idx) : EReal :=
  corr A B ⟨(i 0).val, (i 0).isLt⟩ (i 1).val (i 2).val ⟨(i 3).val, (i 3).isLt⟩ ⟨(i 4).val, (i 4).isLt⟩

theorem garr_apply (A B : SA.Idx → EReal) (n : Fin 8) (k : Fin 81) (i : Fin 14) (j : Fin 14) :
    garr A B (ix4 n k i j) = corr A B n (k.val / 9) (k.val % 9) i j := rfl

theorem g5_apply (A B : SA.Idx → EReal) (n : Fin 8) (di dj : Fin 9) (i : Fin 14) (j : Fin 14) :
    g5 A B (ix5 n di dj i j) = corr A B n di.val dj.val i j := rfl

/-- The zero-bordered block of b[n] is the zero-bordered b at batch entry n. -/
theorem scr_eq_pad (B : SA.Idx → EReal) (n : Fin 8) (e1 : KA.Idx → SA.Idx)
    (h1 : ∀ (c : Fin 512) (i : Fin 14) (j : Fin 14), e1 (ix4 0 c i j) = ix4 n c i j) (c : Fin 512) (r s : ℕ) :
    scrRead (fun y => B (e1 y)) c r s = padRead B n c r s := by
  unfold scrRead padRead
  split_ifs with h
  · show B (e1 (ix4 0 c _ _)) = _
    rw [h1]
  · rfl

/-- A grid point's block, computed from the blocks of a and b at batch entry n, is corr at n. -/
theorem blk_eq_corr (A B : SA.Idx → EReal) (n : Fin 8) (e0 e1 : KA.Idx → SA.Idx)
    (h0 : ∀ (c : Fin 512) (i : Fin 14) (j : Fin 14), e0 (ix4 0 c i j) = ix4 n c i j)
    (h1 : ∀ (c : Fin 512) (i : Fin 14) (j : Fin 14), e1 (ix4 0 c i j) = ix4 n c i j)
    (k : ℕ) (i : Fin 14) (j : Fin 14) :
    blkAt (fun y => A (e0 y)) (fun y => B (e1 y)) k i j = corr A B n (k / 9) (k % 9) i j := by
  unfold blkAt corr
  refine Finset.sum_congr rfl fun c _ => ?_
  rw [scr_eq_pad B n e1 h1]
  show A (e0 (ix4 0 c i j)) * _ = _
  rw [h0]

/-- corr depends on its coordinates only through their values. -/
theorem corr_congr (A B : SA.Idx → EReal) (n n' : Fin 8) (d e d' e' : ℕ) (i i' : Fin 14) (j j' : Fin 14)
    (h1 : n.val = n'.val) (h2 : d = d') (h3 : e = e') (h4 : i.val = i'.val) (h5 : j.val = j'.val) :
    corr A B n d e i j = corr A B n' d' e' i' j' := by
  obtain rfl := Fin.ext h1; subst h2 h3; obtain rfl := Fin.ext h4; obtain rfl := Fin.ext h5; rfl

/-- Splitting the plane axis 81 = 9 * 9 of the kernel's array gives the result. -/
theorem reshape_garr (A B : SA.Idx → EReal) (h : SO.ShapeCasts SF) : shapeCast SF (garr A B) h = g5 A B := by
  funext idx
  obtain ⟨n, di, dj, i, j, rfl⟩ : ∃ (n : Fin 8) (di dj : Fin 9) (i : Fin 14) (j : Fin 14), idx = ix5 n di dj i j :=
    ⟨idx 0, idx 1, idx 2, idx 3, idx 4, eq_ix5 idx⟩
  have hdi := di.isLt
  have hdj := dj.isLt
  rw [shapeCast_apply _ h (ix5 n di dj i j) (ix4 n ⟨di.val * 9 + dj.val, by omega⟩ i j) (by
    rw [Shape.rowMajor_val_four, Shape.rowMajor_val_five]
    show ((n.val * 81 + (di.val * 9 + dj.val)) * 14 + i.val) * 14 + j.val
      = (((n.val * 9 + di.val) * 9 + dj.val) * 14 + i.val) * 14 + j.val
    have e : (n.val * 9 + di.val) * 9 + dj.val = n.val * 81 + (di.val * 9 + dj.val) := by omega
    rw [e])]
  rw [garr_apply, g5_apply]
  show corr A B n ((di.val * 9 + dj.val) / 9) ((di.val * 9 + dj.val) % 9) i j = _
  have e1 : (di.val * 9 + dj.val) / 9 = di.val := by omega
  have e2 : (di.val * 9 + dj.val) % 9 = dj.val := by omega
  rw [e1, e2]

end CorrJ3

end
-- ==== Proof.KerValue3.lean ====
/-
  Level 3 of the kernel: region 3 of @main.  One grid point leaves in its output block the 81 planes of blk of the
  point's blocks of a and b (the run's 81 stores, each read at an index); the eight blocks tile the [8, 81, 14, 14]
  output array, which therefore ends at garr of the two feature maps as the region finds them.
-/
import proofs.«135875_j16999480558431_2_alg».proof.Proof.Gen.KernelIdeal.Frame
import proofs.«135875_j16999480558431_2_alg».proof.Proof.CorrSpec3
import proofs.«135875_j16999480558431_2_alg».proof.Proof.CorrBlock3
import proofs.«135875_j16999480558431_2_alg».proof.Proof.CorrJoin3

noncomputable section

set_option maxRecDepth 16384

namespace Cert.KernelIdeal.Val3

open Cert.KernelIdeal Cert.KernelIdeal.Gen Idealize.ShloMosaic Idealize.ShloMosaic.TcCoe Idealize.ShloMosaic.Tactic
open Idealize.SL Idealize.SL.Sem Idealize.ShloMosaic.ValueIdx CorrK3

theorem zero4 : (![0, 0, 0, 0] : Fin 4 → ℕ) = fun _ => 0 := by
  funext a; match a with | ⟨0, _⟩ => rfl | ⟨1, _⟩ => rfl | ⟨2, _⟩ => rfl | ⟨3, _⟩ => rfl

/-- What one grid point leaves in its output block: the 81 stored planes are the 81 planes of blk. -/
theorem out_eq (c : Dev nD) (i : grid3.Coords) (arg1 : Memref sig .tc .vmem S1x512x14x14 .f32) (harg1 : arg1.IsWhole)
    (arg2 : Memref sig .tc .vmem S1x512x14x14 .f32) (harg2 : arg2.IsWhole)
    (arg3 : Memref sig .tc .vmem S1x81x14x14 .f32) (harg3 : arg3.IsWhole)
    (arg4 : Memref sig .tc .vmem S512x22x22 .f32) (harg4 : arg4.IsWhole)
    (x0 x1 : Vec Ideal S1x512x14x14 .f32) :
    out3_A_2 (F := Ideal) c i arg1 harg1 arg2 harg2 arg3 harg3 arg4 harg4 x0 x1 = blk x0 x1 := by
  funext y
  unfold out3_A_2
  rw [View.read_writes_eq_canon _ _ _ (cover3_A_2 c i arg1 harg1 arg2 harg2 arg3 harg3 arg4 harg4 x0 x1)]
  refine View.canon_apply_of_pieces (blk x0 x1) _ ?_ y (cover3_A_2 c i arg1 harg1 arg2 harg2 arg3 harg3 arg4 harg4 x0 x1 y)
  unfold kernelRun3_A
  dsimp only
  sl_unfold_words
  simp only [View.readAt_eq_ld, harg1.read_unread, harg2.read_unread, View.ld_unit_zero (S := S1x512x14x14) zero4]
  simp only [List.forall_mem_cons, List.not_mem_nil, IsEmpty.forall_iff, implies_true, and_true]
  repeat' apply And.intro
  all_goals (
    intro x
    dsimp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107]
    refine piece_eq arg4.view _ _ _ ?_ ?_ x0 x1 _ _ _ _ _ _ _ _ _ _ _ _ x <;> decide)

end Cert.KernelIdeal.Val3

namespace Cert.KernelIdeal.Val3

open Cert.KernelIdeal Cert.KernelIdeal.Gen Idealize.ShloMosaic Idealize.ShloMosaic.TcCoe Idealize.ShloMosaic.Tactic
open Idealize.SL Idealize.SL.Sem Idealize.ShloMosaic.ValueIdx Idealize.ShloMosaic.Pipeline Corr3 CorrK3 CorrJ3

section Array

variable (V : (c : Dev nD) → (b : Ref sig .tc) → Buf (Elt Ideal) ((c : Thread nD τ).loc b))

/-- The three windows move together along the batch axis and sit at block 0 of every other axis. -/
theorem idx_facts : ∀ t : Fin cfg3.N,
    win3_0.index t (0 : Fin 4) = win3_2.index t (0 : Fin 4) ∧ win3_0.index t (1 : Fin 4) = 0
    ∧ win3_0.index t (2 : Fin 4) = 0 ∧ win3_0.index t (3 : Fin 4) = 0
    ∧ win3_1.index t (0 : Fin 4) = win3_2.index t (0 : Fin 4) ∧ win3_1.index t (1 : Fin 4) = 0
    ∧ win3_1.index t (2 : Fin 4) = 0 ∧ win3_1.index t (3 : Fin 4) = 0
    ∧ win3_2.index t (1 : Fin 4) = 0 ∧ win3_2.index t (2 : Fin 4) = 0 ∧ win3_2.index t (3 : Fin 4) = 0
    ∧ win3_2.index t (0 : Fin 4) < 8 :=
  (by decide +kernel : ∀ t : Fin grid3.N, _)

/-- Every batch entry is some grid point's. -/
theorem idx_onto : ∀ q : Fin 8, ∃ t : Fin cfg3.N, win3_2.index t (0 : Fin 4) = q.val :=
  (by decide +kernel : ∀ q : Fin 8, ∃ t : Fin grid3.N, win3_2.index t (0 : Fin 4) = q.val)

/-- What grid point t writes back is block t of garr of the two feature maps as the region finds them. -/
theorem flushed_eq (c : Dev nD) (t : Fin cfg3.N) :
    (dat3 V c).flushed 2 t = ((cfg3.win 2).blk t).view.read (Elt Ideal) (garr (V c main_arg3) (V c main_arg7)) := by
  show (cfg3.win 2).cut (grid3.coords t) ((dat3 V c).after 2 t) = _
  rw [after3_2]
  unfold outsAt3
  rw [out_eq]
  obtain ⟨a0, a1, a2, a3, b0, b1, b2, b3, o1, o2, o3, olt⟩ := idx_facts t
  funext j
  show blkAt (iblk3 V c 0 t) (iblk3 V c 1 t) (j 1).val ⟨(j 2).val, (j 2).isLt⟩ ⟨(j 3).val, (j 3).isLt⟩
    = garr (V c main_arg3) (V c main_arg7) (((cfg3.win 2).blk t).view.emb j)
  refine (blk_eq_corr (V c main_arg3) (V c main_arg7) ⟨win3_2.index t (0 : Fin 4), olt⟩
    (fun y => ((cfg3.win 0).blk t).view.emb y) (fun y => ((cfg3.win 1).blk t).view.emb y) ?_ ?_
    (j 1).val ⟨(j 2).val, (j 2).isLt⟩ ⟨(j 3).val, (j 3).isLt⟩).trans ?_
  · intro c' i' j'
    funext a; apply Fin.ext
    match a with
    | ⟨0, _⟩ => show win3_0.index t (0 : Fin 4) * 1 + 1 * 0 = win3_2.index t (0 : Fin 4); omega
    | ⟨1, _⟩ => show win3_0.index t (1 : Fin 4) * 512 + 1 * c'.val = c'.val; omega
    | ⟨2, _⟩ => show win3_0.index t (2 : Fin 4) * 14 + 1 * i'.val = i'.val; omega
    | ⟨3, _⟩ => show win3_0.index t (3 : Fin 4) * 14 + 1 * j'.val = j'.val; omega
  · intro c' i' j'
    funext a; apply Fin.ext
    match a with
    | ⟨0, _⟩ => show win3_1.index t (0 : Fin 4) * 1 + 1 * 0 = win3_2.index t (0 : Fin 4); omega
    | ⟨1, _⟩ => show win3_1.index t (1 : Fin 4) * 512 + 1 * c'.val = c'.val; omega
    | ⟨2, _⟩ => show win3_1.index t (2 : Fin 4) * 14 + 1 * i'.val = i'.val; omega
    | ⟨3, _⟩ => show win3_1.index t (3 : Fin 4) * 14 + 1 * j'.val = j'.val; omega
  · have hj0 : (j 0).val < 1 := (j 0).isLt
    exact corr_congr _ _ _ _ _ _ _ _ _ _ _ _
      (by show win3_2.index t (0 : Fin 4) = win3_2.index t (0 : Fin 4) * 1 + 1 * (j 0).val; omega)
      (by show (j 1).val / 9 = (win3_2.index t (1 : Fin 4) * 81 + 1 * (j 1).val) / 9; rw [o1]; omega)
      (by show (j 1).val % 9 = (win3_2.index t (1 : Fin 4) * 81 + 1 * (j 1).val) % 9; rw [o1]; omega)
      (by show (j 2).val = win3_2.index t (2 : Fin 4) * 14 + 1 * (j 2).val; omega)
      (by show (j 3).val = win3_2.index t (3 : Fin 4) * 14 + 1 * (j 3).val; omega)

/-- An index of the output array is in point t's block iff each coordinate is in the block's range. -/
theorem mem_blk (t : Fin cfg3.N) (i : S8x81x14x14.Idx) :
    i ∈ ((cfg3.win 2).blk t).view.set ↔ ∀ a : Fin 4, win3_2.index t a * S1x81x14x14.size a ≤ (i a).val
      ∧ (i a).val < win3_2.index t a * S1x81x14x14.size a + S1x81x14x14.size a := by
  show i ∈ ((View.whole main_v6).slice (win3_2.rect t)).set ↔ _
  rw [View.set_slice_whole, Rect.mem_set_unit]
  exact Iff.rfl

/-- The output array after the region: garr of the two feature maps as the region finds them; the eight
    blocks, one per batch entry, cover it. -/
theorem final (c : Dev nD) : (dat3 V c).arrAt 2 cfg3.N = garr (V c main_arg3) (V c main_arg7) :=
  (dat3 V c).arrAt_eq_of_cover 2 _ (fun t _ => flushed_eq V c t) (fun i => by
    have hi0 : (i 0).val < 8 := (i 0).isLt
    have hi1 : (i 1).val < 81 := (i 1).isLt
    have hi2 : (i 2).val < 14 := (i 2).isLt
    have hi3 : (i 3).val < 14 := (i 3).isLt
    obtain ⟨t, ht⟩ := idx_onto ⟨(i 0).val, hi0⟩
    obtain ⟨a0, a1, a2, a3, b0, b1, b2, b3, o1, o2, o3, olt⟩ := idx_facts t
    refine ⟨t, flush3_2 t, ?_⟩
    rw [mem_blk]
    intro a
    match a with
    | ⟨0, _⟩ => show win3_2.index t (0 : Fin 4) * 1 ≤ (i 0).val ∧ (i 0).val < win3_2.index t (0 : Fin 4) * 1 + 1; rw [ht]; show (i 0).val * 1 ≤ (i 0).val ∧ (i 0).val < (i 0).val * 1 + 1; omega
    | ⟨1, _⟩ => show win3_2.index t (1 : Fin 4) * 81 ≤ (i 1).val ∧ (i 1).val < win3_2.index t (1 : Fin 4) * 81 + 81; omega
    | ⟨2, _⟩ => show win3_2.index t (2 : Fin 4) * 14 ≤ (i 2).val ∧ (i 2).val < win3_2.index t (2 : Fin 4) * 14 + 14; omega
    | ⟨3, _⟩ => show win3_2.index t (3 : Fin 4) * 14 ≤ (i 3).val ∧ (i 3).val < win3_2.index t (3 : Fin 4) * 14 + 14; omega)

end Array

end Cert.KernelIdeal.Val3

end
-- ==== Proof.KerResults.lean ====
/-
  The idealized kernel's four results as functions of its arguments: each result buffer ends at the reshape of its
  region's output array, the array is garr of the two feature maps as the region finds them, the region finds them
  as launched (no earlier segment writes an argument), and the reshape of garr is g5.
-/
import proofs.«135875_j16999480558431_2_alg».proof.Proof.KernelRun
import proofs.«135875_j16999480558431_2_alg».proof.Proof.KerValue0
import proofs.«135875_j16999480558431_2_alg».proof.Proof.KerValue1
import proofs.«135875_j16999480558431_2_alg».proof.Proof.KerValue2
import proofs.«135875_j16999480558431_2_alg».proof.Proof.KerValue3

set_option maxRecDepth 16384

noncomputable section

namespace Cert.KernelIdeal.Out

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Result of level 0: the reshape of region 0's output array is g5 of the launch contents of the two feature maps. -/
theorem res0 (c : Dev nD) :
    W8 m ρ c (Proc.devRef .tc main_v1) = CorrJ0.g5 (m ((c : Thread nD τ).loc main_arg0)) (m ((c : Thread nD τ).loc main_arg4)) :=
  (W8_v1 m ρ c).trans
    ((congrArg (fun x => shapeCast S8x9x9x112x112 x shapeCasts_S8x81x112x112_S8x9x9x112x112) (Val0.final (V0 m ρ) c)).trans
      ((CorrJ0.reshape_garr _ _ _).trans
        (congr (congrArg CorrJ0.g5 (V0_arg m ρ c main_arg0)) (V0_arg m ρ c main_arg4))))

/-- Result of level 1: the reshape of region 1's output array is g5 of the launch contents of the two feature maps. -/
theorem res1 (c : Dev nD) :
    W8 m ρ c (Proc.devRef .tc main_v3) = CorrJ1.g5 (m ((c : Thread nD τ).loc main_arg1)) (m ((c : Thread nD τ).loc main_arg5)) :=
  (W8_v3 m ρ c).trans
    ((congrArg (fun x => shapeCast S8x9x9x56x56 x shapeCasts_S8x81x56x56_S8x9x9x56x56) (Val1.final (V2 m ρ) c)).trans
      ((CorrJ1.reshape_garr _ _ _).trans
        (congr (congrArg CorrJ1.g5 (V2_keep m ρ c main_arg1 (by decide) (by decide))) (V2_keep m ρ c main_arg5 (by decide) (by decide)))))

/-- Result of level 2: the reshape of region 2's output array is g5 of the launch contents of the two feature maps. -/
theorem res2 (c : Dev nD) :
    W8 m ρ c (Proc.devRef .tc main_v5) = CorrJ2.g5 (m ((c : Thread nD τ).loc main_arg2)) (m ((c : Thread nD τ).loc main_arg6)) :=
  (W8_v5 m ρ c).trans
    ((congrArg (fun x => shapeCast S8x9x9x28x28 x shapeCasts_S8x81x28x28_S8x9x9x28x28) (Val2.final (V4 m ρ) c)).trans
      ((CorrJ2.reshape_garr _ _ _).trans
        (congr (congrArg CorrJ2.g5 (V4_keep m ρ c main_arg2 (by decide) (by decide) (by decide) (by decide))) (V4_keep m ρ c main_arg6 (by decide) (by decide) (by decide) (by decide)))))

/-- Result of level 3: the reshape of region 3's output array is g5 of the launch contents of the two feature maps. -/
theorem res3 (c : Dev nD) :
    W8 m ρ c (Proc.devRef .tc main_v7) = CorrJ3.g5 (m ((c : Thread nD τ).loc main_arg3)) (m ((c : Thread nD τ).loc main_arg7)) :=
  (W8_v7 m ρ c).trans
    ((congrArg (fun x => shapeCast S8x9x9x14x14 x shapeCasts_S8x81x14x14_S8x9x9x14x14) (Val3.final (V6 m ρ) c)).trans
      ((CorrJ3.reshape_garr _ _ _).trans
        (congr (congrArg CorrJ3.g5 (V6_keep m ρ c main_arg3 (by decide) (by decide) (by decide) (by decide) (by decide) (by decide))) (V6_keep m ρ c main_arg7 (by decide) (by decide) (by decide) (by decide) (by decide) (by decide)))))

end Cert.KernelIdeal.Out

end
-- ==== Proof.RefLib.lean ====
/-
  Small general facts about a host program read as a list of operations: the fold over a list cut in two is the fold
  over the second part of the fold over the first; an operation that writes one buffer writes inside any list of
  buffers holding it; and the result of a nine-operand operation (a concatenation of nine pieces) with each operand's
  contents at its own buffer.
-/
import Idealize.ShloMosaic.Lib.StableHlo.Run

noncomputable section

namespace RefLib

open Idealize.ShloMosaic Idealize.ShloMosaic.TcCoe Idealize.SL.Sem Idealize.ShloMosaic.StableHlo

variable {τ : Topo} {sig : RefSig} {Val : EltTy → Type}

/-- Folding a list of operations cut in two. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A property of every entry of two lists holds of every entry of their concatenation. -/
theorem forall_append {α : Type*} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- One written buffer lies in any list of buffers that holds it. -/
theorem wsub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- The result of an operation over nine literal operand buffers, each operand's contents at its own buffer. -/
theorem nary9_result' {a0 a1 a2 a3 a4 a5 a6 a7 a8 y : Ref sig .tc}
    (f : ((k : Fin 9) → ((![a0, a1, a2, a3, a4, a5, a6, a7, a8] : Fin 9 → Ref sig .tc) k).ty.Contents Val) → y.ty.Contents Val)
    (hxs hy) (F : Valuation τ sig Val) :
    (nary (τ := τ) ![a0, a1, a2, a3, a4, a5, a6, a7, a8] y f hxs hy).result F (no_index (Proc.devRef .tc y))
      = f (Fin.cons (F (Proc.devRef .tc a0)) (Fin.cons (F (Proc.devRef .tc a1)) (Fin.cons (F (Proc.devRef .tc a2))
          (Fin.cons (F (Proc.devRef .tc a3)) (Fin.cons (F (Proc.devRef .tc a4)) (Fin.cons (F (Proc.devRef .tc a5))
          (Fin.cons (F (Proc.devRef .tc a6)) (Fin.cons (F (Proc.devRef .tc a7)) (Fin.cons (F (Proc.devRef .tc a8))
          (fun i => i.elim0)))))))))) := by
  rw [nary_result]; congr 1; funext k; fin_cases k <;> rfl

/-- The operations' results by one simp pass, a nine-operand operation read operand by operand. -/
macro "after_results9" : tactic =>
  `(tactic| (simp (disch := decide) only [after_cons, after_nil,
      nullary_result', unary_result', binary_result', nary9_result',
      nullary_result_ne', unary_result_ne', binary_result_ne', nary_result_ne']))

end RefLib

end
-- ==== Proof.RefOps0.lean ====
/-
  Level 0 of the reference: its 427 host operations in order, cut into the header (a zero constant, its conversion to a
  float, the zero pad of b), the nine rows of 46 operations and the tail of 10; for each stretch the buffers it writes,
  that every operation touches TensorCore buffers only, and that none allocates.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl0

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

abbrev opsH : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x64x112x112, .f32⟩) main_arg4) (TRef.of (T := ⟨S_, .f32⟩) main_call0_v0) (TRef.of (T := ⟨S8x64x120x120, .f32⟩) main_v0) (fun x v => pad S8x64x120x120 ![0, 0, 4, 4] ![0, 0, 4, 4] ![0, 0, 0, 0] x v pads_S8x64x112x112_S8x64x120x120_000_000_440_440 h_S_) ]

abbrev opsR0 : List (HloOp τ sig (Elt F)) :=
  [ unary main_v0 main_v1 ((extractStridedSlice S8x64x112x112 ![0, 0, 0, 0] · slices_S8x64x120x120_S8x64x112x112_0_0_0_0) : (⟨S8x64x120x120, .f32⟩ : BufTy).Contents (Elt F) → (⟨S8x64x112x112, .f32⟩ : BufTy).Contents (Elt F)),
    binary main_arg0 main_v1 main_v2 (mulf : (⟨S8x64x112x112, .f32⟩ : BufTy).Contents (Elt F) → (⟨S8x64x112x112, .f32⟩ : BufTy).Contents (Elt F) → (⟨S8x64x112x112, .f32⟩ : BufTy).Contents (Elt F)),
    nullary main_cst (constant S_ .f32 0x00000000#32),
    binary main_v2 main_cst main_v3 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v4 ((extractStridedSlice S8x64x112x112 ![0, 0, 0, 1] · slices_S8x64x120x120_S8x64x112x112_0_0_0_1) : (⟨S8x64x120x120, .f32⟩ : BufTy).Contents (Elt F) → (⟨S8x64x112x112, .f32⟩ : BufTy).Contents (Elt F)),
    binary main_arg0 main_v4 main_v5 (mulf : (⟨S8x64x112x112, .f32⟩ : BufTy).Contents (Elt F) → (⟨S8x64x112x112, .f32⟩ : BufTy).Contents (Elt F) → (⟨S8x64x112x112, .f32⟩ : BufTy).Contents (Elt F)),
    nullary main_cst_0 (constant S_ .f32 0x00000000#32),
    binary main_v5 main_cst_0 main_v6 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v7 ((extractStridedSlice S8x64x112x112 ![0, 0, 0, 2] · slices_S8x64x120x120_S8x64x112x112_0_0_0_2) : (⟨S8x64x120x120, .f32⟩ : BufTy).Contents (Elt F) → (⟨S8x64x112x112, .f32⟩ : BufTy).Contents (Elt F)),
    binary main_arg0 main_v7 main_v8 (mulf : (⟨S8x64x112x112, .f32⟩ : BufTy).Contents (Elt F) → (⟨S8x64x112x112, .f32⟩ : BufTy).Contents (Elt F) → (⟨S8x64x112x112, .f32⟩ : BufTy).Contents (Elt F)),
    nullary main_cst_1 (constant S_ .f32 0x00000000#32),
    binary main_v8 main_cst_1 main_v9 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v10 ((extractStridedSlice S8x64x112x112 ![0, 0, 0, 3] · slices_S8x64x120x120_S8x64x112x112_0_0_0_3) : (⟨S8x64x120x120, .f32⟩ : BufTy).Contents (Elt F) → (⟨S8x64x112x112, .f32⟩ : BufTy).Contents (Elt F)),
    binary main_arg0 main_v10 main_v11 (mulf : (⟨S8x64x112x112, .f32⟩ : BufTy).Contents (Elt F) → (⟨S8x64x112x112, .f32⟩ : BufTy).Contents (Elt F) → (⟨S8x64x112x112, .f32⟩ : BufTy).Contents (Elt F)),
    nullary main_cst_2 (constant S_ .f32 0x00000000#32),
    binary main_v11 main_cst_2 main_v12 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v13 ((extractStridedSlice S8x64x112x112 ![0, 0, 0, 4] · slices_S8x64x120x120_S8x64x112x112_0_0_0_4) : (⟨S8x64x120x120, .f32⟩ : BufTy).Contents (Elt F) → (⟨S8x64x112x112, .f32⟩ : BufTy).Contents (Elt F)),
    binary main_arg0 main_v13 main_v14 (mulf : (⟨S8x64x112x112, .f32⟩ : BufTy).Contents (Elt F) → (⟨S8x64x112x112, .f32⟩ : BufTy).Contents (Elt F) → (⟨S8x64x112x112, .f32⟩ : BufTy).Contents (Elt F)),
    nullary main_cst_3 (constant S_ .f32 0x00000000#32),
    binary main_v14 main_cst_3 main_v15 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v16 ((extractStridedSlice S8x64x112x112 ![0, 0, 0, 5] · slices_S8x64x120x120_S8x64x112x112_0_0_0_5) : (⟨S8x64x120x120, .f32⟩ : BufTy).Contents (Elt F) → (⟨S8x64x112x112, .f32⟩ : BufTy).Contents (Elt F)),
    binary main_arg0 main_v16 main_v17 (mulf : (⟨S8x64x112x112, .f32⟩ : BufTy).Contents (Elt F) → (⟨S8x64x112x112, .f32⟩ : BufTy).Contents (Elt F) → (⟨S8x64x112x112, .f32⟩ : BufTy).Contents (Elt F)),
    nullary main_cst_4 (constant S_ .f32 0x00000000#32),
    binary main_v17 main_cst_4 main_v18 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v19 ((extractStridedSlice S8x64x112x112 ![0, 0, 0, 6] · slices_S8x64x120x120_S8x64x112x112_0_0_0_6) : (⟨S8x64x120x120, .f32⟩ : BufTy).Contents (Elt F) → (⟨S8x64x112x112, .f32⟩ : BufTy).Contents (Elt F)),
    binary main_arg0 main_v19 main_v20 (mulf : (⟨S8x64x112x112, .f32⟩ : BufTy).Contents (Elt F) → (⟨S8x64x112x112, .f32⟩ : BufTy).Contents (Elt F) → (⟨S8x64x112x112, .f32⟩ : BufTy).Contents (Elt F)),
    nullary main_cst_5 (constant S_ .f32 0x00000000#32),
    binary main_v20 main_cst_5 main_v21 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v22 ((extractStridedSlice S8x64x112x112 ![0, 0, 0, 7] · slices_S8x64x120x120_S8x64x112x112_0_0_0_7) : (⟨S8x64x120x120, .f32⟩ : BufTy).Contents (Elt F) → (⟨S8x64x112x112, .f32⟩ : BufTy).Contents (Elt F)),
    binary main_arg0 main_v22 main_v23 (mulf : (⟨S8x64x112x112, .f32⟩ : BufTy).Contents (Elt F) → (⟨S8x64x112x112, .f32⟩ : BufTy).Contents (Elt F) → (⟨S8x64x112x112, .f32⟩ : BufTy).Contents (Elt F)),
    nullary main_cst_6 (constant S_ .f32 0x00000000#32),
    binary main_v23 main_cst_6 main_v24 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v25 ((extractStridedSlice S8x64x112x112 ![0, 0, 0, 8] · slices_S8x64x120x120_S8x64x112x112_0_0_0_8) : (⟨S8x64x120x120, .f32⟩ : BufTy).Contents (Elt F) → (⟨S8x64x112x112, .f32⟩ : BufTy).Contents (Elt F)),
    binary main_arg0 main_v25 main_v26 (mulf : (⟨S8x64x112x112, .f32⟩ : BufTy).Contents (Elt F) → (⟨S8x64x112x112, .f32⟩ : BufTy).Contents (Elt F) → (⟨S8x64x112x112, .f32⟩ : BufTy).Contents (Elt F)),
    nullary main_cst_7 (constant S_ .f32 0x00000000#32),
    binary main_v26 main_cst_7 main_v27 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v3 main_v28 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v6 main_v29 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v9 main_v30 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v12 main_v31 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v15 main_v32 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v18 main_v33 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v21 main_v34 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v24 main_v35 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v27 main_v36 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v28, main_v29, main_v30, main_v31, main_v32, main_v33, main_v34, main_v35, main_v36] main_v37 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR1 : List (HloOp τ sig (Elt F)) :=
  [ unary main_v0 main_v38 ((extractStridedSlice S8x64x112x112 ![0, 0, 1, 0] · slices_S8x64x120x120_S8x64x112x112_0_0_1_0) : (⟨S8x64x120x120, .f32⟩ : BufTy).Contents (Elt F) → (⟨S8x64x112x112, .f32⟩ : BufTy).Contents (Elt F)),
    binary main_arg0 main_v38 main_v39 (mulf : (⟨S8x64x112x112, .f32⟩ : BufTy).Contents (Elt F) → (⟨S8x64x112x112, .f32⟩ : BufTy).Contents (Elt F) → (⟨S8x64x112x112, .f32⟩ : BufTy).Contents (Elt F)),
    nullary main_cst_8 (constant S_ .f32 0x00000000#32),
    binary main_v39 main_cst_8 main_v40 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v41 ((extractStridedSlice S8x64x112x112 ![0, 0, 1, 1] · slices_S8x64x120x120_S8x64x112x112_0_0_1_1) : (⟨S8x64x120x120, .f32⟩ : BufTy).Contents (Elt F) → (⟨S8x64x112x112, .f32⟩ : BufTy).Contents (Elt F)),
    binary main_arg0 main_v41 main_v42 (mulf : (⟨S8x64x112x112, .f32⟩ : BufTy).Contents (Elt F) → (⟨S8x64x112x112, .f32⟩ : BufTy).Contents (Elt F) → (⟨S8x64x112x112, .f32⟩ : BufTy).Contents (Elt F)),
    nullary main_cst_9 (constant S_ .f32 0x00000000#32),
    binary main_v42 main_cst_9 main_v43 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v44 ((extractStridedSlice S8x64x112x112 ![0, 0, 1, 2] · slices_S8x64x120x120_S8x64x112x112_0_0_1_2) : (⟨S8x64x120x120, .f32⟩ : BufTy).Contents (Elt F) → (⟨S8x64x112x112, .f32⟩ : BufTy).Contents (Elt F)),
    binary main_arg0 main_v44 main_v45 (mulf : (⟨S8x64x112x112, .f32⟩ : BufTy).Contents (Elt F) → (⟨S8x64x112x112, .f32⟩ : BufTy).Contents (Elt F) → (⟨S8x64x112x112, .f32⟩ : BufTy).Contents (Elt F)),
    nullary main_cst_10 (constant S_ .f32 0x00000000#32),
    binary main_v45 main_cst_10 main_v46 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v47 ((extractStridedSlice S8x64x112x112 ![0, 0, 1, 3] · slices_S8x64x120x120_S8x64x112x112_0_0_1_3) : (⟨S8x64x120x120, .f32⟩ : BufTy).Contents (Elt F) → (⟨S8x64x112x112, .f32⟩ : BufTy).Contents (Elt F)),
    binary main_arg0 main_v47 main_v48 (mulf : (⟨S8x64x112x112, .f32⟩ : BufTy).Contents (Elt F) → (⟨S8x64x112x112, .f32⟩ : BufTy).Contents (Elt F) → (⟨S8x64x112x112, .f32⟩ : BufTy).Contents (Elt F)),
    nullary main_cst_11 (constant S_ .f32 0x00000000#32),
    binary main_v48 main_cst_11 main_v49 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v50 ((extractStridedSlice S8x64x112x112 ![0, 0, 1, 4] · slices_S8x64x120x120_S8x64x112x112_0_0_1_4) : (⟨S8x64x120x120, .f32⟩ : BufTy).Contents (Elt F) → (⟨S8x64x112x112, .f32⟩ : BufTy).Contents (Elt F)),
    binary main_arg0 main_v50 main_v51 (mulf : (⟨S8x64x112x112, .f32⟩ : BufTy).Contents (Elt F) → (⟨S8x64x112x112, .f32⟩ : BufTy).Contents (Elt F) → (⟨S8x64x112x112, .f32⟩ : BufTy).Contents (Elt F)),
    nullary main_cst_12 (constant S_ .f32 0x00000000#32),
    binary main_v51 main_cst_12 main_v52 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v53 ((extractStridedSlice S8x64x112x112 ![0, 0, 1, 5] · slices_S8x64x120x120_S8x64x112x112_0_0_1_5) : (⟨S8x64x120x120, .f32⟩ : BufTy).Contents (Elt F) → (⟨S8x64x112x112, .f32⟩ : BufTy).Contents (Elt F)),
    binary main_arg0 main_v53 main_v54 (mulf : (⟨S8x64x112x112, .f32⟩ : BufTy).Contents (Elt F) → (⟨S8x64x112x112, .f32⟩ : BufTy).Contents (Elt F) → (⟨S8x64x112x112, .f32⟩ : BufTy).Contents (Elt F)),
    nullary main_cst_13 (constant S_ .f32 0x00000000#32),
    binary main_v54 main_cst_13 main_v55 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v56 ((extractStridedSlice S8x64x112x112 ![0, 0, 1, 6] · slices_S8x64x120x120_S8x64x112x112_0_0_1_6) : (⟨S8x64x120x120, .f32⟩ : BufTy).Contents (Elt F) → (⟨S8x64x112x112, .f32⟩ : BufTy).Contents (Elt F)),
    binary main_arg0 main_v56 main_v57 (mulf : (⟨S8x64x112x112, .f32⟩ : BufTy).Contents (Elt F) → (⟨S8x64x112x112, .f32⟩ : BufTy).Contents (Elt F) → (⟨S8x64x112x112, .f32⟩ : BufTy).Contents (Elt F)),
    nullary main_cst_14 (constant S_ .f32 0x00000000#32),
    binary main_v57 main_cst_14 main_v58 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v59 ((extractStridedSlice S8x64x112x112 ![0, 0, 1, 7] · slices_S8x64x120x120_S8x64x112x112_0_0_1_7) : (⟨S8x64x120x120, .f32⟩ : BufTy).Contents (Elt F) → (⟨S8x64x112x112, .f32⟩ : BufTy).Contents (Elt F)),
    binary main_arg0 main_v59 main_v60 (mulf : (⟨S8x64x112x112, .f32⟩ : BufTy).Contents (Elt F) → (⟨S8x64x112x112, .f32⟩ : BufTy).Contents (Elt F) → (⟨S8x64x112x112, .f32⟩ : BufTy).Contents (Elt F)),
    nullary main_cst_15 (constant S_ .f32 0x00000000#32),
    binary main_v60 main_cst_15 main_v61 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v62 ((extractStridedSlice S8x64x112x112 ![0, 0, 1, 8] · slices_S8x64x120x120_S8x64x112x112_0_0_1_8) : (⟨S8x64x120x120, .f32⟩ : BufTy).Contents (Elt F) → (⟨S8x64x112x112, .f32⟩ : BufTy).Contents (Elt F)),
    binary main_arg0 main_v62 main_v63 (mulf : (⟨S8x64x112x112, .f32⟩ : BufTy).Contents (Elt F) → (⟨S8x64x112x112, .f32⟩ : BufTy).Contents (Elt F) → (⟨S8x64x112x112, .f32⟩ : BufTy).Contents (Elt F)),
    nullary main_cst_16 (constant S_ .f32 0x00000000#32),
    binary main_v63 main_cst_16 main_v64 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v40 main_v65 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v43 main_v66 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v46 main_v67 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v49 main_v68 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v52 main_v69 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v55 main_v70 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v58 main_v71 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v61 main_v72 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v64 main_v73 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v65, main_v66, main_v67, main_v68, main_v69, main_v70, main_v71, main_v72, main_v73] main_v74 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR2 : List (HloOp τ sig (Elt F)) :=
  [ unary main_v0 main_v75 ((extractStridedSlice S8x64x112x112 ![0, 0, 2, 0] · slices_S8x64x120x120_S8x64x112x112_0_0_2_0) : (⟨S8x64x120x120, .f32⟩ : BufTy).Contents (Elt F) → (⟨S8x64x112x112, .f32⟩ : BufTy).Contents (Elt F)),
    binary main_arg0 main_v75 main_v76 (mulf : (⟨S8x64x112x112, .f32⟩ : BufTy).Contents (Elt F) → (⟨S8x64x112x112, .f32⟩ : BufTy).Contents (Elt F) → (⟨S8x64x112x112, .f32⟩ : BufTy).Contents (Elt F)),
    nullary main_cst_17 (constant S_ .f32 0x00000000#32),
    binary main_v76 main_cst_17 main_v77 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v78 ((extractStridedSlice S8x64x112x112 ![0, 0, 2, 1] · slices_S8x64x120x120_S8x64x112x112_0_0_2_1) : (⟨S8x64x120x120, .f32⟩ : BufTy).Contents (Elt F) → (⟨S8x64x112x112, .f32⟩ : BufTy).Contents (Elt F)),
    binary main_arg0 main_v78 main_v79 (mulf : (⟨S8x64x112x112, .f32⟩ : BufTy).Contents (Elt F) → (⟨S8x64x112x112, .f32⟩ : BufTy).Contents (Elt F) → (⟨S8x64x112x112, .f32⟩ : BufTy).Contents (Elt F)),
    nullary main_cst_18 (constant S_ .f32 0x00000000#32),
    binary main_v79 main_cst_18 main_v80 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v81 ((extractStridedSlice S8x64x112x112 ![0, 0, 2, 2] · slices_S8x64x120x120_S8x64x112x112_0_0_2_2) : (⟨S8x64x120x120, .f32⟩ : BufTy).Contents (Elt F) → (⟨S8x64x112x112, .f32⟩ : BufTy).Contents (Elt F)),
    binary main_arg0 main_v81 main_v82 (mulf : (⟨S8x64x112x112, .f32⟩ : BufTy).Contents (Elt F) → (⟨S8x64x112x112, .f32⟩ : BufTy).Contents (Elt F) → (⟨S8x64x112x112, .f32⟩ : BufTy).Contents (Elt F)),
    nullary main_cst_19 (constant S_ .f32 0x00000000#32),
    binary main_v82 main_cst_19 main_v83 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v84 ((extractStridedSlice S8x64x112x112 ![0, 0, 2, 3] · slices_S8x64x120x120_S8x64x112x112_0_0_2_3) : (⟨S8x64x120x120, .f32⟩ : BufTy).Contents (Elt F) → (⟨S8x64x112x112, .f32⟩ : BufTy).Contents (Elt F)),
    binary main_arg0 main_v84 main_v85 (mulf : (⟨S8x64x112x112, .f32⟩ : BufTy).Contents (Elt F) → (⟨S8x64x112x112, .f32⟩ : BufTy).Contents (Elt F) → (⟨S8x64x112x112, .f32⟩ : BufTy).Contents (Elt F)),
    nullary main_cst_20 (constant S_ .f32 0x00000000#32),
    binary main_v85 main_cst_20 main_v86 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v87 ((extractStridedSlice S8x64x112x112 ![0, 0, 2, 4] · slices_S8x64x120x120_S8x64x112x112_0_0_2_4) : (⟨S8x64x120x120, .f32⟩ : BufTy).Contents (Elt F) → (⟨S8x64x112x112, .f32⟩ : BufTy).Contents (Elt F)),
    binary main_arg0 main_v87 main_v88 (mulf : (⟨S8x64x112x112, .f32⟩ : BufTy).Contents (Elt F) → (⟨S8x64x112x112, .f32⟩ : BufTy).Contents (Elt F) → (⟨S8x64x112x112, .f32⟩ : BufTy).Contents (Elt F)),
    nullary main_cst_21 (constant S_ .f32 0x00000000#32),
    binary main_v88 main_cst_21 main_v89 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v90 ((extractStridedSlice S8x64x112x112 ![0, 0, 2, 5] · slices_S8x64x120x120_S8x64x112x112_0_0_2_5) : (⟨S8x64x120x120, .f32⟩ : BufTy).Contents (Elt F) → (⟨S8x64x112x112, .f32⟩ : BufTy).Contents (Elt F)),
    binary main_arg0 main_v90 main_v91 (mulf : (⟨S8x64x112x112, .f32⟩ : BufTy).Contents (Elt F) → (⟨S8x64x112x112, .f32⟩ : BufTy).Contents (Elt F) → (⟨S8x64x112x112, .f32⟩ : BufTy).Contents (Elt F)),
    nullary main_cst_22 (constant S_ .f32 0x00000000#32),
    binary main_v91 main_cst_22 main_v92 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v93 ((extractStridedSlice S8x64x112x112 ![0, 0, 2, 6] · slices_S8x64x120x120_S8x64x112x112_0_0_2_6) : (⟨S8x64x120x120, .f32⟩ : BufTy).Contents (Elt F) → (⟨S8x64x112x112, .f32⟩ : BufTy).Contents (Elt F)),
    binary main_arg0 main_v93 main_v94 (mulf : (⟨S8x64x112x112, .f32⟩ : BufTy).Contents (Elt F) → (⟨S8x64x112x112, .f32⟩ : BufTy).Contents (Elt F) → (⟨S8x64x112x112, .f32⟩ : BufTy).Contents (Elt F)),
    nullary main_cst_23 (constant S_ .f32 0x00000000#32),
    binary main_v94 main_cst_23 main_v95 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v96 ((extractStridedSlice S8x64x112x112 ![0, 0, 2, 7] · slices_S8x64x120x120_S8x64x112x112_0_0_2_7) : (⟨S8x64x120x120, .f32⟩ : BufTy).Contents (Elt F) → (⟨S8x64x112x112, .f32⟩ : BufTy).Contents (Elt F)),
    binary main_arg0 main_v96 main_v97 (mulf : (⟨S8x64x112x112, .f32⟩ : BufTy).Contents (Elt F) → (⟨S8x64x112x112, .f32⟩ : BufTy).Contents (Elt F) → (⟨S8x64x112x112, .f32⟩ : BufTy).Contents (Elt F)),
    nullary main_cst_24 (constant S_ .f32 0x00000000#32),
    binary main_v97 main_cst_24 main_v98 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v99 ((extractStridedSlice S8x64x112x112 ![0, 0, 2, 8] · slices_S8x64x120x120_S8x64x112x112_0_0_2_8) : (⟨S8x64x120x120, .f32⟩ : BufTy).Contents (Elt F) → (⟨S8x64x112x112, .f32⟩ : BufTy).Contents (Elt F)),
    binary main_arg0 main_v99 main_v100 (mulf : (⟨S8x64x112x112, .f32⟩ : BufTy).Contents (Elt F) → (⟨S8x64x112x112, .f32⟩ : BufTy).Contents (Elt F) → (⟨S8x64x112x112, .f32⟩ : BufTy).Contents (Elt F)),
    nullary main_cst_25 (constant S_ .f32 0x00000000#32),
    binary main_v100 main_cst_25 main_v101 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v77 main_v102 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v80 main_v103 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v83 main_v104 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v86 main_v105 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v89 main_v106 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v92 main_v107 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v95 main_v108 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v98 main_v109 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v101 main_v110 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v102, main_v103, main_v104, main_v105, main_v106, main_v107, main_v108, main_v109, main_v110] main_v111 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR3 : List (HloOp τ sig (Elt F)) :=
  [ unary main_v0 main_v112 ((extractStridedSlice S8x64x112x112 ![0, 0, 3, 0] · slices_S8x64x120x120_S8x64x112x112_0_0_3_0) : (⟨S8x64x120x120, .f32⟩ : BufTy).Contents (Elt F) → (⟨S8x64x112x112, .f32⟩ : BufTy).Contents (Elt F)),
    binary main_arg0 main_v112 main_v113 (mulf : (⟨S8x64x112x112, .f32⟩ : BufTy).Contents (Elt F) → (⟨S8x64x112x112, .f32⟩ : BufTy).Contents (Elt F) → (⟨S8x64x112x112, .f32⟩ : BufTy).Contents (Elt F)),
    nullary main_cst_26 (constant S_ .f32 0x00000000#32),
    binary main_v113 main_cst_26 main_v114 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v115 ((extractStridedSlice S8x64x112x112 ![0, 0, 3, 1] · slices_S8x64x120x120_S8x64x112x112_0_0_3_1) : (⟨S8x64x120x120, .f32⟩ : BufTy).Contents (Elt F) → (⟨S8x64x112x112, .f32⟩ : BufTy).Contents (Elt F)),
    binary main_arg0 main_v115 main_v116 (mulf : (⟨S8x64x112x112, .f32⟩ : BufTy).Contents (Elt F) → (⟨S8x64x112x112, .f32⟩ : BufTy).Contents (Elt F) → (⟨S8x64x112x112, .f32⟩ : BufTy).Contents (Elt F)),
    nullary main_cst_27 (constant S_ .f32 0x00000000#32),
    binary main_v116 main_cst_27 main_v117 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v118 ((extractStridedSlice S8x64x112x112 ![0, 0, 3, 2] · slices_S8x64x120x120_S8x64x112x112_0_0_3_2) : (⟨S8x64x120x120, .f32⟩ : BufTy).Contents (Elt F) → (⟨S8x64x112x112, .f32⟩ : BufTy).Contents (Elt F)),
    binary main_arg0 main_v118 main_v119 (mulf : (⟨S8x64x112x112, .f32⟩ : BufTy).Contents (Elt F) → (⟨S8x64x112x112, .f32⟩ : BufTy).Contents (Elt F) → (⟨S8x64x112x112, .f32⟩ : BufTy).Contents (Elt F)),
    nullary main_cst_28 (constant S_ .f32 0x00000000#32),
    binary main_v119 main_cst_28 main_v120 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v121 ((extractStridedSlice S8x64x112x112 ![0, 0, 3, 3] · slices_S8x64x120x120_S8x64x112x112_0_0_3_3) : (⟨S8x64x120x120, .f32⟩ : BufTy).Contents (Elt F) → (⟨S8x64x112x112, .f32⟩ : BufTy).Contents (Elt F)),
    binary main_arg0 main_v121 main_v122 (mulf : (⟨S8x64x112x112, .f32⟩ : BufTy).Contents (Elt F) → (⟨S8x64x112x112, .f32⟩ : BufTy).Contents (Elt F) → (⟨S8x64x112x112, .f32⟩ : BufTy).Contents (Elt F)),
    nullary main_cst_29 (constant S_ .f32 0x00000000#32),
    binary main_v122 main_cst_29 main_v123 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v124 ((extractStridedSlice S8x64x112x112 ![0, 0, 3, 4] · slices_S8x64x120x120_S8x64x112x112_0_0_3_4) : (⟨S8x64x120x120, .f32⟩ : BufTy).Contents (Elt F) → (⟨S8x64x112x112, .f32⟩ : BufTy).Contents (Elt F)),
    binary main_arg0 main_v124 main_v125 (mulf : (⟨S8x64x112x112, .f32⟩ : BufTy).Contents (Elt F) → (⟨S8x64x112x112, .f32⟩ : BufTy).Contents (Elt F) → (⟨S8x64x112x112, .f32⟩ : BufTy).Contents (Elt F)),
    nullary main_cst_30 (constant S_ .f32 0x00000000#32),
    binary main_v125 main_cst_30 main_v126 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v127 ((extractStridedSlice S8x64x112x112 ![0, 0, 3, 5] · slices_S8x64x120x120_S8x64x112x112_0_0_3_5) : (⟨S8x64x120x120, .f32⟩ : BufTy).Contents (Elt F) → (⟨S8x64x112x112, .f32⟩ : BufTy).Contents (Elt F)),
    binary main_arg0 main_v127 main_v128 (mulf : (⟨S8x64x112x112, .f32⟩ : BufTy).Contents (Elt F) → (⟨S8x64x112x112, .f32⟩ : BufTy).Contents (Elt F) → (⟨S8x64x112x112, .f32⟩ : BufTy).Contents (Elt F)),
    nullary main_cst_31 (constant S_ .f32 0x00000000#32),
    binary main_v128 main_cst_31 main_v129 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v130 ((extractStridedSlice S8x64x112x112 ![0, 0, 3, 6] · slices_S8x64x120x120_S8x64x112x112_0_0_3_6) : (⟨S8x64x120x120, .f32⟩ : BufTy).Contents (Elt F) → (⟨S8x64x112x112, .f32⟩ : BufTy).Contents (Elt F)),
    binary main_arg0 main_v130 main_v131 (mulf : (⟨S8x64x112x112, .f32⟩ : BufTy).Contents (Elt F) → (⟨S8x64x112x112, .f32⟩ : BufTy).Contents (Elt F) → (⟨S8x64x112x112, .f32⟩ : BufTy).Contents (Elt F)),
    nullary main_cst_32 (constant S_ .f32 0x00000000#32),
    binary main_v131 main_cst_32 main_v132 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v133 ((extractStridedSlice S8x64x112x112 ![0, 0, 3, 7] · slices_S8x64x120x120_S8x64x112x112_0_0_3_7) : (⟨S8x64x120x120, .f32⟩ : BufTy).Contents (Elt F) → (⟨S8x64x112x112, .f32⟩ : BufTy).Contents (Elt F)),
    binary main_arg0 main_v133 main_v134 (mulf : (⟨S8x64x112x112, .f32⟩ : BufTy).Contents (Elt F) → (⟨S8x64x112x112, .f32⟩ : BufTy).Contents (Elt F) → (⟨S8x64x112x112, .f32⟩ : BufTy).Contents (Elt F)),
    nullary main_cst_33 (constant S_ .f32 0x00000000#32),
    binary main_v134 main_cst_33 main_v135 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v136 ((extractStridedSlice S8x64x112x112 ![0, 0, 3, 8] · slices_S8x64x120x120_S8x64x112x112_0_0_3_8) : (⟨S8x64x120x120, .f32⟩ : BufTy).Contents (Elt F) → (⟨S8x64x112x112, .f32⟩ : BufTy).Contents (Elt F)),
    binary main_arg0 main_v136 main_v137 (mulf : (⟨S8x64x112x112, .f32⟩ : BufTy).Contents (Elt F) → (⟨S8x64x112x112, .f32⟩ : BufTy).Contents (Elt F) → (⟨S8x64x112x112, .f32⟩ : BufTy).Contents (Elt F)),
    nullary main_cst_34 (constant S_ .f32 0x00000000#32),
    binary main_v137 main_cst_34 main_v138 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v114 main_v139 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v117 main_v140 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v120 main_v141 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v123 main_v142 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v126 main_v143 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v129 main_v144 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v132 main_v145 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v135 main_v146 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v138 main_v147 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v139, main_v140, main_v141, main_v142, main_v143, main_v144, main_v145, main_v146, main_v147] main_v148 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR4 : List (HloOp τ sig (Elt F)) :=
  [ unary main_v0 main_v149 ((extractStridedSlice S8x64x112x112 ![0, 0, 4, 0] · slices_S8x64x120x120_S8x64x112x112_0_0_4_0) : (⟨S8x64x120x120, .f32⟩ : BufTy).Contents (Elt F) → (⟨S8x64x112x112, .f32⟩ : BufTy).Contents (Elt F)),
    binary main_arg0 main_v149 main_v150 (mulf : (⟨S8x64x112x112, .f32⟩ : BufTy).Contents (Elt F) → (⟨S8x64x112x112, .f32⟩ : BufTy).Contents (Elt F) → (⟨S8x64x112x112, .f32⟩ : BufTy).Contents (Elt F)),
    nullary main_cst_35 (constant S_ .f32 0x00000000#32),
    binary main_v150 main_cst_35 main_v151 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v152 ((extractStridedSlice S8x64x112x112 ![0, 0, 4, 1] · slices_S8x64x120x120_S8x64x112x112_0_0_4_1) : (⟨S8x64x120x120, .f32⟩ : BufTy).Contents (Elt F) → (⟨S8x64x112x112, .f32⟩ : BufTy).Contents (Elt F)),
    binary main_arg0 main_v152 main_v153 (mulf : (⟨S8x64x112x112, .f32⟩ : BufTy).Contents (Elt F) → (⟨S8x64x112x112, .f32⟩ : BufTy).Contents (Elt F) → (⟨S8x64x112x112, .f32⟩ : BufTy).Contents (Elt F)),
    nullary main_cst_36 (constant S_ .f32 0x00000000#32),
    binary main_v153 main_cst_36 main_v154 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v155 ((extractStridedSlice S8x64x112x112 ![0, 0, 4, 2] · slices_S8x64x120x120_S8x64x112x112_0_0_4_2) : (⟨S8x64x120x120, .f32⟩ : BufTy).Contents (Elt F) → (⟨S8x64x112x112, .f32⟩ : BufTy).Contents (Elt F)),
    binary main_arg0 main_v155 main_v156 (mulf : (⟨S8x64x112x112, .f32⟩ : BufTy).Contents (Elt F) → (⟨S8x64x112x112, .f32⟩ : BufTy).Contents (Elt F) → (⟨S8x64x112x112, .f32⟩ : BufTy).Contents (Elt F)),
    nullary main_cst_37 (constant S_ .f32 0x00000000#32),
    binary main_v156 main_cst_37 main_v157 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v158 ((extractStridedSlice S8x64x112x112 ![0, 0, 4, 3] · slices_S8x64x120x120_S8x64x112x112_0_0_4_3) : (⟨S8x64x120x120, .f32⟩ : BufTy).Contents (Elt F) → (⟨S8x64x112x112, .f32⟩ : BufTy).Contents (Elt F)),
    binary main_arg0 main_v158 main_v159 (mulf : (⟨S8x64x112x112, .f32⟩ : BufTy).Contents (Elt F) → (⟨S8x64x112x112, .f32⟩ : BufTy).Contents (Elt F) → (⟨S8x64x112x112, .f32⟩ : BufTy).Contents (Elt F)),
    nullary main_cst_38 (constant S_ .f32 0x00000000#32),
    binary main_v159 main_cst_38 main_v160 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v161 ((extractStridedSlice S8x64x112x112 ![0, 0, 4, 4] · slices_S8x64x120x120_S8x64x112x112_0_0_4_4) : (⟨S8x64x120x120, .f32⟩ : BufTy).Contents (Elt F) → (⟨S8x64x112x112, .f32⟩ : BufTy).Contents (Elt F)),
    binary main_arg0 main_v161 main_v162 (mulf : (⟨S8x64x112x112, .f32⟩ : BufTy).Contents (Elt F) → (⟨S8x64x112x112, .f32⟩ : BufTy).Contents (Elt F) → (⟨S8x64x112x112, .f32⟩ : BufTy).Contents (Elt F)),
    nullary main_cst_39 (constant S_ .f32 0x00000000#32),
    binary main_v162 main_cst_39 main_v163 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v164 ((extractStridedSlice S8x64x112x112 ![0, 0, 4, 5] · slices_S8x64x120x120_S8x64x112x112_0_0_4_5) : (⟨S8x64x120x120, .f32⟩ : BufTy).Contents (Elt F) → (⟨S8x64x112x112, .f32⟩ : BufTy).Contents (Elt F)),
    binary main_arg0 main_v164 main_v165 (mulf : (⟨S8x64x112x112, .f32⟩ : BufTy).Contents (Elt F) → (⟨S8x64x112x112, .f32⟩ : BufTy).Contents (Elt F) → (⟨S8x64x112x112, .f32⟩ : BufTy).Contents (Elt F)),
    nullary main_cst_40 (constant S_ .f32 0x00000000#32),
    binary main_v165 main_cst_40 main_v166 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v167 ((extractStridedSlice S8x64x112x112 ![0, 0, 4, 6] · slices_S8x64x120x120_S8x64x112x112_0_0_4_6) : (⟨S8x64x120x120, .f32⟩ : BufTy).Contents (Elt F) → (⟨S8x64x112x112, .f32⟩ : BufTy).Contents (Elt F)),
    binary main_arg0 main_v167 main_v168 (mulf : (⟨S8x64x112x112, .f32⟩ : BufTy).Contents (Elt F) → (⟨S8x64x112x112, .f32⟩ : BufTy).Contents (Elt F) → (⟨S8x64x112x112, .f32⟩ : BufTy).Contents (Elt F)),
    nullary main_cst_41 (constant S_ .f32 0x00000000#32),
    binary main_v168 main_cst_41 main_v169 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v170 ((extractStridedSlice S8x64x112x112 ![0, 0, 4, 7] · slices_S8x64x120x120_S8x64x112x112_0_0_4_7) : (⟨S8x64x120x120, .f32⟩ : BufTy).Contents (Elt F) → (⟨S8x64x112x112, .f32⟩ : BufTy).Contents (Elt F)),
    binary main_arg0 main_v170 main_v171 (mulf : (⟨S8x64x112x112, .f32⟩ : BufTy).Contents (Elt F) → (⟨S8x64x112x112, .f32⟩ : BufTy).Contents (Elt F) → (⟨S8x64x112x112, .f32⟩ : BufTy).Contents (Elt F)),
    nullary main_cst_42 (constant S_ .f32 0x00000000#32),
    binary main_v171 main_cst_42 main_v172 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v173 ((extractStridedSlice S8x64x112x112 ![0, 0, 4, 8] · slices_S8x64x120x120_S8x64x112x112_0_0_4_8) : (⟨S8x64x120x120, .f32⟩ : BufTy).Contents (Elt F) → (⟨S8x64x112x112, .f32⟩ : BufTy).Contents (Elt F)),
    binary main_arg0 main_v173 main_v174 (mulf : (⟨S8x64x112x112, .f32⟩ : BufTy).Contents (Elt F) → (⟨S8x64x112x112, .f32⟩ : BufTy).Contents (Elt F) → (⟨S8x64x112x112, .f32⟩ : BufTy).Contents (Elt F)),
    nullary main_cst_43 (constant S_ .f32 0x00000000#32),
    binary main_v174 main_cst_43 main_v175 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v151 main_v176 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v154 main_v177 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v157 main_v178 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v160 main_v179 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v163 main_v180 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v166 main_v181 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v169 main_v182 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v172 main_v183 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v175 main_v184 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v176, main_v177, main_v178, main_v179, main_v180, main_v181, main_v182, main_v183, main_v184] main_v185 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR5 : List (HloOp τ sig (Elt F)) :=
  [ unary main_v0 main_v186 ((extractStridedSlice S8x64x112x112 ![0, 0, 5, 0] · slices_S8x64x120x120_S8x64x112x112_0_0_5_0) : (⟨S8x64x120x120, .f32⟩ : BufTy).Contents (Elt F) → (⟨S8x64x112x112, .f32⟩ : BufTy).Contents (Elt F)),
    binary main_arg0 main_v186 main_v187 (mulf : (⟨S8x64x112x112, .f32⟩ : BufTy).Contents (Elt F) → (⟨S8x64x112x112, .f32⟩ : BufTy).Contents (Elt F) → (⟨S8x64x112x112, .f32⟩ : BufTy).Contents (Elt F)),
    nullary main_cst_44 (constant S_ .f32 0x00000000#32),
    binary main_v187 main_cst_44 main_v188 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v189 ((extractStridedSlice S8x64x112x112 ![0, 0, 5, 1] · slices_S8x64x120x120_S8x64x112x112_0_0_5_1) : (⟨S8x64x120x120, .f32⟩ : BufTy).Contents (Elt F) → (⟨S8x64x112x112, .f32⟩ : BufTy).Contents (Elt F)),
    binary main_arg0 main_v189 main_v190 (mulf : (⟨S8x64x112x112, .f32⟩ : BufTy).Contents (Elt F) → (⟨S8x64x112x112, .f32⟩ : BufTy).Contents (Elt F) → (⟨S8x64x112x112, .f32⟩ : BufTy).Contents (Elt F)),
    nullary main_cst_45 (constant S_ .f32 0x00000000#32),
    binary main_v190 main_cst_45 main_v191 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v192 ((extractStridedSlice S8x64x112x112 ![0, 0, 5, 2] · slices_S8x64x120x120_S8x64x112x112_0_0_5_2) : (⟨S8x64x120x120, .f32⟩ : BufTy).Contents (Elt F) → (⟨S8x64x112x112, .f32⟩ : BufTy).Contents (Elt F)),
    binary main_arg0 main_v192 main_v193 (mulf : (⟨S8x64x112x112, .f32⟩ : BufTy).Contents (Elt F) → (⟨S8x64x112x112, .f32⟩ : BufTy).Contents (Elt F) → (⟨S8x64x112x112, .f32⟩ : BufTy).Contents (Elt F)),
    nullary main_cst_46 (constant S_ .f32 0x00000000#32),
    binary main_v193 main_cst_46 main_v194 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v195 ((extractStridedSlice S8x64x112x112 ![0, 0, 5, 3] · slices_S8x64x120x120_S8x64x112x112_0_0_5_3) : (⟨S8x64x120x120, .f32⟩ : BufTy).Contents (Elt F) → (⟨S8x64x112x112, .f32⟩ : BufTy).Contents (Elt F)),
    binary main_arg0 main_v195 main_v196 (mulf : (⟨S8x64x112x112, .f32⟩ : BufTy).Contents (Elt F) → (⟨S8x64x112x112, .f32⟩ : BufTy).Contents (Elt F) → (⟨S8x64x112x112, .f32⟩ : BufTy).Contents (Elt F)),
    nullary main_cst_47 (constant S_ .f32 0x00000000#32),
    binary main_v196 main_cst_47 main_v197 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v198 ((extractStridedSlice S8x64x112x112 ![0, 0, 5, 4] · slices_S8x64x120x120_S8x64x112x112_0_0_5_4) : (⟨S8x64x120x120, .f32⟩ : BufTy).Contents (Elt F) → (⟨S8x64x112x112, .f32⟩ : BufTy).Contents (Elt F)),
    binary main_arg0 main_v198 main_v199 (mulf : (⟨S8x64x112x112, .f32⟩ : BufTy).Contents (Elt F) → (⟨S8x64x112x112, .f32⟩ : BufTy).Contents (Elt F) → (⟨S8x64x112x112, .f32⟩ : BufTy).Contents (Elt F)),
    nullary main_cst_48 (constant S_ .f32 0x00000000#32),
    binary main_v199 main_cst_48 main_v200 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v201 ((extractStridedSlice S8x64x112x112 ![0, 0, 5, 5] · slices_S8x64x120x120_S8x64x112x112_0_0_5_5) : (⟨S8x64x120x120, .f32⟩ : BufTy).Contents (Elt F) → (⟨S8x64x112x112, .f32⟩ : BufTy).Contents (Elt F)),
    binary main_arg0 main_v201 main_v202 (mulf : (⟨S8x64x112x112, .f32⟩ : BufTy).Contents (Elt F) → (⟨S8x64x112x112, .f32⟩ : BufTy).Contents (Elt F) → (⟨S8x64x112x112, .f32⟩ : BufTy).Contents (Elt F)),
    nullary main_cst_49 (constant S_ .f32 0x00000000#32),
    binary main_v202 main_cst_49 main_v203 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v204 ((extractStridedSlice S8x64x112x112 ![0, 0, 5, 6] · slices_S8x64x120x120_S8x64x112x112_0_0_5_6) : (⟨S8x64x120x120, .f32⟩ : BufTy).Contents (Elt F) → (⟨S8x64x112x112, .f32⟩ : BufTy).Contents (Elt F)),
    binary main_arg0 main_v204 main_v205 (mulf : (⟨S8x64x112x112, .f32⟩ : BufTy).Contents (Elt F) → (⟨S8x64x112x112, .f32⟩ : BufTy).Contents (Elt F) → (⟨S8x64x112x112, .f32⟩ : BufTy).Contents (Elt F)),
    nullary main_cst_50 (constant S_ .f32 0x00000000#32),
    binary main_v205 main_cst_50 main_v206 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v207 ((extractStridedSlice S8x64x112x112 ![0, 0, 5, 7] · slices_S8x64x120x120_S8x64x112x112_0_0_5_7) : (⟨S8x64x120x120, .f32⟩ : BufTy).Contents (Elt F) → (⟨S8x64x112x112, .f32⟩ : BufTy).Contents (Elt F)),
    binary main_arg0 main_v207 main_v208 (mulf : (⟨S8x64x112x112, .f32⟩ : BufTy).Contents (Elt F) → (⟨S8x64x112x112, .f32⟩ : BufTy).Contents (Elt F) → (⟨S8x64x112x112, .f32⟩ : BufTy).Contents (Elt F)),
    nullary main_cst_51 (constant S_ .f32 0x00000000#32),
    binary main_v208 main_cst_51 main_v209 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v210 ((extractStridedSlice S8x64x112x112 ![0, 0, 5, 8] · slices_S8x64x120x120_S8x64x112x112_0_0_5_8) : (⟨S8x64x120x120, .f32⟩ : BufTy).Contents (Elt F) → (⟨S8x64x112x112, .f32⟩ : BufTy).Contents (Elt F)),
    binary main_arg0 main_v210 main_v211 (mulf : (⟨S8x64x112x112, .f32⟩ : BufTy).Contents (Elt F) → (⟨S8x64x112x112, .f32⟩ : BufTy).Contents (Elt F) → (⟨S8x64x112x112, .f32⟩ : BufTy).Contents (Elt F)),
    nullary main_cst_52 (constant S_ .f32 0x00000000#32),
    binary main_v211 main_cst_52 main_v212 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v188 main_v213 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v191 main_v214 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v194 main_v215 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v197 main_v216 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v200 main_v217 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v203 main_v218 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v206 main_v219 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v209 main_v220 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v212 main_v221 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v213, main_v214, main_v215, main_v216, main_v217, main_v218, main_v219, main_v220, main_v221] main_v222 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR6 : List (HloOp τ sig (Elt F)) :=
  [ unary main_v0 main_v223 ((extractStridedSlice S8x64x112x112 ![0, 0, 6, 0] · slices_S8x64x120x120_S8x64x112x112_0_0_6_0) : (⟨S8x64x120x120, .f32⟩ : BufTy).Contents (Elt F) → (⟨S8x64x112x112, .f32⟩ : BufTy).Contents (Elt F)),
    binary main_arg0 main_v223 main_v224 (mulf : (⟨S8x64x112x112, .f32⟩ : BufTy).Contents (Elt F) → (⟨S8x64x112x112, .f32⟩ : BufTy).Contents (Elt F) → (⟨S8x64x112x112, .f32⟩ : BufTy).Contents (Elt F)),
    nullary main_cst_53 (constant S_ .f32 0x00000000#32),
    binary main_v224 main_cst_53 main_v225 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v226 ((extractStridedSlice S8x64x112x112 ![0, 0, 6, 1] · slices_S8x64x120x120_S8x64x112x112_0_0_6_1) : (⟨S8x64x120x120, .f32⟩ : BufTy).Contents (Elt F) → (⟨S8x64x112x112, .f32⟩ : BufTy).Contents (Elt F)),
    binary main_arg0 main_v226 main_v227 (mulf : (⟨S8x64x112x112, .f32⟩ : BufTy).Contents (Elt F) → (⟨S8x64x112x112, .f32⟩ : BufTy).Contents (Elt F) → (⟨S8x64x112x112, .f32⟩ : BufTy).Contents (Elt F)),
    nullary main_cst_54 (constant S_ .f32 0x00000000#32),
    binary main_v227 main_cst_54 main_v228 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v229 ((extractStridedSlice S8x64x112x112 ![0, 0, 6, 2] · slices_S8x64x120x120_S8x64x112x112_0_0_6_2) : (⟨S8x64x120x120, .f32⟩ : BufTy).Contents (Elt F) → (⟨S8x64x112x112, .f32⟩ : BufTy).Contents (Elt F)),
    binary main_arg0 main_v229 main_v230 (mulf : (⟨S8x64x112x112, .f32⟩ : BufTy).Contents (Elt F) → (⟨S8x64x112x112, .f32⟩ : BufTy).Contents (Elt F) → (⟨S8x64x112x112, .f32⟩ : BufTy).Contents (Elt F)),
    nullary main_cst_55 (constant S_ .f32 0x00000000#32),
    binary main_v230 main_cst_55 main_v231 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v232 ((extractStridedSlice S8x64x112x112 ![0, 0, 6, 3] · slices_S8x64x120x120_S8x64x112x112_0_0_6_3) : (⟨S8x64x120x120, .f32⟩ : BufTy).Contents (Elt F) → (⟨S8x64x112x112, .f32⟩ : BufTy).Contents (Elt F)),
    binary main_arg0 main_v232 main_v233 (mulf : (⟨S8x64x112x112, .f32⟩ : BufTy).Contents (Elt F) → (⟨S8x64x112x112, .f32⟩ : BufTy).Contents (Elt F) → (⟨S8x64x112x112, .f32⟩ : BufTy).Contents (Elt F)),
    nullary main_cst_56 (constant S_ .f32 0x00000000#32),
    binary main_v233 main_cst_56 main_v234 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v235 ((extractStridedSlice S8x64x112x112 ![0, 0, 6, 4] · slices_S8x64x120x120_S8x64x112x112_0_0_6_4) : (⟨S8x64x120x120, .f32⟩ : BufTy).Contents (Elt F) → (⟨S8x64x112x112, .f32⟩ : BufTy).Contents (Elt F)),
    binary main_arg0 main_v235 main_v236 (mulf : (⟨S8x64x112x112, .f32⟩ : BufTy).Contents (Elt F) → (⟨S8x64x112x112, .f32⟩ : BufTy).Contents (Elt F) → (⟨S8x64x112x112, .f32⟩ : BufTy).Contents (Elt F)),
    nullary main_cst_57 (constant S_ .f32 0x00000000#32),
    binary main_v236 main_cst_57 main_v237 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v238 ((extractStridedSlice S8x64x112x112 ![0, 0, 6, 5] · slices_S8x64x120x120_S8x64x112x112_0_0_6_5) : (⟨S8x64x120x120, .f32⟩ : BufTy).Contents (Elt F) → (⟨S8x64x112x112, .f32⟩ : BufTy).Contents (Elt F)),
    binary main_arg0 main_v238 main_v239 (mulf : (⟨S8x64x112x112, .f32⟩ : BufTy).Contents (Elt F) → (⟨S8x64x112x112, .f32⟩ : BufTy).Contents (Elt F) → (⟨S8x64x112x112, .f32⟩ : BufTy).Contents (Elt F)),
    nullary main_cst_58 (constant S_ .f32 0x00000000#32),
    binary main_v239 main_cst_58 main_v240 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v241 ((extractStridedSlice S8x64x112x112 ![0, 0, 6, 6] · slices_S8x64x120x120_S8x64x112x112_0_0_6_6) : (⟨S8x64x120x120, .f32⟩ : BufTy).Contents (Elt F) → (⟨S8x64x112x112, .f32⟩ : BufTy).Contents (Elt F)),
    binary main_arg0 main_v241 main_v242 (mulf : (⟨S8x64x112x112, .f32⟩ : BufTy).Contents (Elt F) → (⟨S8x64x112x112, .f32⟩ : BufTy).Contents (Elt F) → (⟨S8x64x112x112, .f32⟩ : BufTy).Contents (Elt F)),
    nullary main_cst_59 (constant S_ .f32 0x00000000#32),
    binary main_v242 main_cst_59 main_v243 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v244 ((extractStridedSlice S8x64x112x112 ![0, 0, 6, 7] · slices_S8x64x120x120_S8x64x112x112_0_0_6_7) : (⟨S8x64x120x120, .f32⟩ : BufTy).Contents (Elt F) → (⟨S8x64x112x112, .f32⟩ : BufTy).Contents (Elt F)),
    binary main_arg0 main_v244 main_v245 (mulf : (⟨S8x64x112x112, .f32⟩ : BufTy).Contents (Elt F) → (⟨S8x64x112x112, .f32⟩ : BufTy).Contents (Elt F) → (⟨S8x64x112x112, .f32⟩ : BufTy).Contents (Elt F)),
    nullary main_cst_60 (constant S_ .f32 0x00000000#32),
    binary main_v245 main_cst_60 main_v246 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v247 ((extractStridedSlice S8x64x112x112 ![0, 0, 6, 8] · slices_S8x64x120x120_S8x64x112x112_0_0_6_8) : (⟨S8x64x120x120, .f32⟩ : BufTy).Contents (Elt F) → (⟨S8x64x112x112, .f32⟩ : BufTy).Contents (Elt F)),
    binary main_arg0 main_v247 main_v248 (mulf : (⟨S8x64x112x112, .f32⟩ : BufTy).Contents (Elt F) → (⟨S8x64x112x112, .f32⟩ : BufTy).Contents (Elt F) → (⟨S8x64x112x112, .f32⟩ : BufTy).Contents (Elt F)),
    nullary main_cst_61 (constant S_ .f32 0x00000000#32),
    binary main_v248 main_cst_61 main_v249 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v225 main_v250 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v228 main_v251 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v231 main_v252 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v234 main_v253 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v237 main_v254 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v240 main_v255 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v243 main_v256 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v246 main_v257 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v249 main_v258 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v250, main_v251, main_v252, main_v253, main_v254, main_v255, main_v256, main_v257, main_v258] main_v259 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR7 : List (HloOp τ sig (Elt F)) :=
  [ unary main_v0 main_v260 ((extractStridedSlice S8x64x112x112 ![0, 0, 7, 0] · slices_S8x64x120x120_S8x64x112x112_0_0_7_0) : (⟨S8x64x120x120, .f32⟩ : BufTy).Contents (Elt F) → (⟨S8x64x112x112, .f32⟩ : BufTy).Contents (Elt F)),
    binary main_arg0 main_v260 main_v261 (mulf : (⟨S8x64x112x112, .f32⟩ : BufTy).Contents (Elt F) → (⟨S8x64x112x112, .f32⟩ : BufTy).Contents (Elt F) → (⟨S8x64x112x112, .f32⟩ : BufTy).Contents (Elt F)),
    nullary main_cst_62 (constant S_ .f32 0x00000000#32),
    binary main_v261 main_cst_62 main_v262 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v263 ((extractStridedSlice S8x64x112x112 ![0, 0, 7, 1] · slices_S8x64x120x120_S8x64x112x112_0_0_7_1) : (⟨S8x64x120x120, .f32⟩ : BufTy).Contents (Elt F) → (⟨S8x64x112x112, .f32⟩ : BufTy).Contents (Elt F)),
    binary main_arg0 main_v263 main_v264 (mulf : (⟨S8x64x112x112, .f32⟩ : BufTy).Contents (Elt F) → (⟨S8x64x112x112, .f32⟩ : BufTy).Contents (Elt F) → (⟨S8x64x112x112, .f32⟩ : BufTy).Contents (Elt F)),
    nullary main_cst_63 (constant S_ .f32 0x00000000#32),
    binary main_v264 main_cst_63 main_v265 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v266 ((extractStridedSlice S8x64x112x112 ![0, 0, 7, 2] · slices_S8x64x120x120_S8x64x112x112_0_0_7_2) : (⟨S8x64x120x120, .f32⟩ : BufTy).Contents (Elt F) → (⟨S8x64x112x112, .f32⟩ : BufTy).Contents (Elt F)),
    binary main_arg0 main_v266 main_v267 (mulf : (⟨S8x64x112x112, .f32⟩ : BufTy).Contents (Elt F) → (⟨S8x64x112x112, .f32⟩ : BufTy).Contents (Elt F) → (⟨S8x64x112x112, .f32⟩ : BufTy).Contents (Elt F)),
    nullary main_cst_64 (constant S_ .f32 0x00000000#32),
    binary main_v267 main_cst_64 main_v268 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v269 ((extractStridedSlice S8x64x112x112 ![0, 0, 7, 3] · slices_S8x64x120x120_S8x64x112x112_0_0_7_3) : (⟨S8x64x120x120, .f32⟩ : BufTy).Contents (Elt F) → (⟨S8x64x112x112, .f32⟩ : BufTy).Contents (Elt F)),
    binary main_arg0 main_v269 main_v270 (mulf : (⟨S8x64x112x112, .f32⟩ : BufTy).Contents (Elt F) → (⟨S8x64x112x112, .f32⟩ : BufTy).Contents (Elt F) → (⟨S8x64x112x112, .f32⟩ : BufTy).Contents (Elt F)),
    nullary main_cst_65 (constant S_ .f32 0x00000000#32),
    binary main_v270 main_cst_65 main_v271 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v272 ((extractStridedSlice S8x64x112x112 ![0, 0, 7, 4] · slices_S8x64x120x120_S8x64x112x112_0_0_7_4) : (⟨S8x64x120x120, .f32⟩ : BufTy).Contents (Elt F) → (⟨S8x64x112x112, .f32⟩ : BufTy).Contents (Elt F)),
    binary main_arg0 main_v272 main_v273 (mulf : (⟨S8x64x112x112, .f32⟩ : BufTy).Contents (Elt F) → (⟨S8x64x112x112, .f32⟩ : BufTy).Contents (Elt F) → (⟨S8x64x112x112, .f32⟩ : BufTy).Contents (Elt F)),
    nullary main_cst_66 (constant S_ .f32 0x00000000#32),
    binary main_v273 main_cst_66 main_v274 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v275 ((extractStridedSlice S8x64x112x112 ![0, 0, 7, 5] · slices_S8x64x120x120_S8x64x112x112_0_0_7_5) : (⟨S8x64x120x120, .f32⟩ : BufTy).Contents (Elt F) → (⟨S8x64x112x112, .f32⟩ : BufTy).Contents (Elt F)),
    binary main_arg0 main_v275 main_v276 (mulf : (⟨S8x64x112x112, .f32⟩ : BufTy).Contents (Elt F) → (⟨S8x64x112x112, .f32⟩ : BufTy).Contents (Elt F) → (⟨S8x64x112x112, .f32⟩ : BufTy).Contents (Elt F)),
    nullary main_cst_67 (constant S_ .f32 0x00000000#32),
    binary main_v276 main_cst_67 main_v277 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v278 ((extractStridedSlice S8x64x112x112 ![0, 0, 7, 6] · slices_S8x64x120x120_S8x64x112x112_0_0_7_6) : (⟨S8x64x120x120, .f32⟩ : BufTy).Contents (Elt F) → (⟨S8x64x112x112, .f32⟩ : BufTy).Contents (Elt F)),
    binary main_arg0 main_v278 main_v279 (mulf : (⟨S8x64x112x112, .f32⟩ : BufTy).Contents (Elt F) → (⟨S8x64x112x112, .f32⟩ : BufTy).Contents (Elt F) → (⟨S8x64x112x112, .f32⟩ : BufTy).Contents (Elt F)),
    nullary main_cst_68 (constant S_ .f32 0x00000000#32),
    binary main_v279 main_cst_68 main_v280 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v281 ((extractStridedSlice S8x64x112x112 ![0, 0, 7, 7] · slices_S8x64x120x120_S8x64x112x112_0_0_7_7) : (⟨S8x64x120x120, .f32⟩ : BufTy).Contents (Elt F) → (⟨S8x64x112x112, .f32⟩ : BufTy).Contents (Elt F)),
    binary main_arg0 main_v281 main_v282 (mulf : (⟨S8x64x112x112, .f32⟩ : BufTy).Contents (Elt F) → (⟨S8x64x112x112, .f32⟩ : BufTy).Contents (Elt F) → (⟨S8x64x112x112, .f32⟩ : BufTy).Contents (Elt F)),
    nullary main_cst_69 (constant S_ .f32 0x00000000#32),
    binary main_v282 main_cst_69 main_v283 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v284 ((extractStridedSlice S8x64x112x112 ![0, 0, 7, 8] · slices_S8x64x120x120_S8x64x112x112_0_0_7_8) : (⟨S8x64x120x120, .f32⟩ : BufTy).Contents (Elt F) → (⟨S8x64x112x112, .f32⟩ : BufTy).Contents (Elt F)),
    binary main_arg0 main_v284 main_v285 (mulf : (⟨S8x64x112x112, .f32⟩ : BufTy).Contents (Elt F) → (⟨S8x64x112x112, .f32⟩ : BufTy).Contents (Elt F) → (⟨S8x64x112x112, .f32⟩ : BufTy).Contents (Elt F)),
    nullary main_cst_70 (constant S_ .f32 0x00000000#32),
    binary main_v285 main_cst_70 main_v286 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v262 main_v287 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v265 main_v288 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v268 main_v289 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v271 main_v290 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v274 main_v291 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v277 main_v292 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v280 main_v293 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v283 main_v294 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v286 main_v295 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v287, main_v288, main_v289, main_v290, main_v291, main_v292, main_v293, main_v294, main_v295] main_v296 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsR8 : List (HloOp τ sig (Elt F)) :=
  [ unary main_v0 main_v297 ((extractStridedSlice S8x64x112x112 ![0, 0, 8, 0] · slices_S8x64x120x120_S8x64x112x112_0_0_8_0) : (⟨S8x64x120x120, .f32⟩ : BufTy).Contents (Elt F) → (⟨S8x64x112x112, .f32⟩ : BufTy).Contents (Elt F)),
    binary main_arg0 main_v297 main_v298 (mulf : (⟨S8x64x112x112, .f32⟩ : BufTy).Contents (Elt F) → (⟨S8x64x112x112, .f32⟩ : BufTy).Contents (Elt F) → (⟨S8x64x112x112, .f32⟩ : BufTy).Contents (Elt F)),
    nullary main_cst_71 (constant S_ .f32 0x00000000#32),
    binary main_v298 main_cst_71 main_v299 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v300 ((extractStridedSlice S8x64x112x112 ![0, 0, 8, 1] · slices_S8x64x120x120_S8x64x112x112_0_0_8_1) : (⟨S8x64x120x120, .f32⟩ : BufTy).Contents (Elt F) → (⟨S8x64x112x112, .f32⟩ : BufTy).Contents (Elt F)),
    binary main_arg0 main_v300 main_v301 (mulf : (⟨S8x64x112x112, .f32⟩ : BufTy).Contents (Elt F) → (⟨S8x64x112x112, .f32⟩ : BufTy).Contents (Elt F) → (⟨S8x64x112x112, .f32⟩ : BufTy).Contents (Elt F)),
    nullary main_cst_72 (constant S_ .f32 0x00000000#32),
    binary main_v301 main_cst_72 main_v302 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v303 ((extractStridedSlice S8x64x112x112 ![0, 0, 8, 2] · slices_S8x64x120x120_S8x64x112x112_0_0_8_2) : (⟨S8x64x120x120, .f32⟩ : BufTy).Contents (Elt F) → (⟨S8x64x112x112, .f32⟩ : BufTy).Contents (Elt F)),
    binary main_arg0 main_v303 main_v304 (mulf : (⟨S8x64x112x112, .f32⟩ : BufTy).Contents (Elt F) → (⟨S8x64x112x112, .f32⟩ : BufTy).Contents (Elt F) → (⟨S8x64x112x112, .f32⟩ : BufTy).Contents (Elt F)),
    nullary main_cst_73 (constant S_ .f32 0x00000000#32),
    binary main_v304 main_cst_73 main_v305 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v306 ((extractStridedSlice S8x64x112x112 ![0, 0, 8, 3] · slices_S8x64x120x120_S8x64x112x112_0_0_8_3) : (⟨S8x64x120x120, .f32⟩ : BufTy).Contents (Elt F) → (⟨S8x64x112x112, .f32⟩ : BufTy).Contents (Elt F)),
    binary main_arg0 main_v306 main_v307 (mulf : (⟨S8x64x112x112, .f32⟩ : BufTy).Contents (Elt F) → (⟨S8x64x112x112, .f32⟩ : BufTy).Contents (Elt F) → (⟨S8x64x112x112, .f32⟩ : BufTy).Contents (Elt F)),
    nullary main_cst_74 (constant S_ .f32 0x00000000#32),
    binary main_v307 main_cst_74 main_v308 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v309 ((extractStridedSlice S8x64x112x112 ![0, 0, 8, 4] · slices_S8x64x120x120_S8x64x112x112_0_0_8_4) : (⟨S8x64x120x120, .f32⟩ : BufTy).Contents (Elt F) → (⟨S8x64x112x112, .f32⟩ : BufTy).Contents (Elt F)),
    binary main_arg0 main_v309 main_v310 (mulf : (⟨S8x64x112x112, .f32⟩ : BufTy).Contents (Elt F) → (⟨S8x64x112x112, .f32⟩ : BufTy).Contents (Elt F) → (⟨S8x64x112x112, .f32⟩ : BufTy).Contents (Elt F)),
    nullary main_cst_75 (constant S_ .f32 0x00000000#32),
    binary main_v310 main_cst_75 main_v311 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v312 ((extractStridedSlice S8x64x112x112 ![0, 0, 8, 5] · slices_S8x64x120x120_S8x64x112x112_0_0_8_5) : (⟨S8x64x120x120, .f32⟩ : BufTy).Contents (Elt F) → (⟨S8x64x112x112, .f32⟩ : BufTy).Contents (Elt F)),
    binary main_arg0 main_v312 main_v313 (mulf : (⟨S8x64x112x112, .f32⟩ : BufTy).Contents (Elt F) → (⟨S8x64x112x112, .f32⟩ : BufTy).Contents (Elt F) → (⟨S8x64x112x112, .f32⟩ : BufTy).Contents (Elt F)),
    nullary main_cst_76 (constant S_ .f32 0x00000000#32),
    binary main_v313 main_cst_76 main_v314 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v315 ((extractStridedSlice S8x64x112x112 ![0, 0, 8, 6] · slices_S8x64x120x120_S8x64x112x112_0_0_8_6) : (⟨S8x64x120x120, .f32⟩ : BufTy).Contents (Elt F) → (⟨S8x64x112x112, .f32⟩ : BufTy).Contents (Elt F)),
    binary main_arg0 main_v315 main_v316 (mulf : (⟨S8x64x112x112, .f32⟩ : BufTy).Contents (Elt F) → (⟨S8x64x112x112, .f32⟩ : BufTy).Contents (Elt F) → (⟨S8x64x112x112, .f32⟩ : BufTy).Contents (Elt F)),
    nullary main_cst_77 (constant S_ .f32 0x00000000#32),
    binary main_v316 main_cst_77 main_v317 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v318 ((extractStridedSlice S8x64x112x112 ![0, 0, 8, 7] · slices_S8x64x120x120_S8x64x112x112_0_0_8_7) : (⟨S8x64x120x120, .f32⟩ : BufTy).Contents (Elt F) → (⟨S8x64x112x112, .f32⟩ : BufTy).Contents (Elt F)),
    binary main_arg0 main_v318 main_v319 (mulf : (⟨S8x64x112x112, .f32⟩ : BufTy).Contents (Elt F) → (⟨S8x64x112x112, .f32⟩ : BufTy).Contents (Elt F) → (⟨S8x64x112x112, .f32⟩ : BufTy).Contents (Elt F)),
    nullary main_cst_78 (constant S_ .f32 0x00000000#32),
    binary main_v319 main_cst_78 main_v320 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v321 ((extractStridedSlice S8x64x112x112 ![0, 0, 8, 8] · slices_S8x64x120x120_S8x64x112x112_0_0_8_8) : (⟨S8x64x120x120, .f32⟩ : BufTy).Contents (Elt F) → (⟨S8x64x112x112, .f32⟩ : BufTy).Contents (Elt F)),
    binary main_arg0 main_v321 main_v322 (mulf : (⟨S8x64x112x112, .f32⟩ : BufTy).Contents (Elt F) → (⟨S8x64x112x112, .f32⟩ : BufTy).Contents (Elt F) → (⟨S8x64x112x112, .f32⟩ : BufTy).Contents (Elt F)),
    nullary main_cst_79 (constant S_ .f32 0x00000000#32),
    binary main_v322 main_cst_79 main_v323 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v299 main_v324 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v302 main_v325 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v305 main_v326 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v308 main_v327 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v311 main_v328 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v314 main_v329 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v317 main_v330 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v320 main_v331 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v323 main_v332 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v324, main_v325, main_v326, main_v327, main_v328, main_v329, main_v330, main_v331, main_v332] main_v333 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1) ]

abbrev opsT : List (HloOp τ sig (Elt F)) :=
  [ unary main_v37 main_v334 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v74 main_v335 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v111 main_v336 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v148 main_v337 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v185 main_v338 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v222 main_v339 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v259 main_v340 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v296 main_v341 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v333 main_v342 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    nary ![main_v334, main_v335, main_v336, main_v337, main_v338, main_v339, main_v340, main_v341, main_v342] main_v343 (fun u => concatenate S8x9x9x112x112 1 [⟨S8x1x9x112x112, u 0⟩, ⟨S8x1x9x112x112, u 1⟩, ⟨S8x1x9x112x112, u 2⟩, ⟨S8x1x9x112x112, u 3⟩, ⟨S8x1x9x112x112, u 4⟩, ⟨S8x1x9x112x112, u 5⟩, ⟨S8x1x9x112x112, u 6⟩, ⟨S8x1x9x112x112, u 7⟩, ⟨S8x1x9x112x112, u 8⟩] concatenates_S8x1x9x112x112_S8x1x9x112x112_S8x1x9x112x112_S8x1x9x112x112_S8x1x9x112x112_S8x1x9x112x112_S8x1x9x112x112_S8x1x9x112x112_S8x1x9x112x112_S8x9x9x112x112_d1) ]

/-- The level's operations in order. -/
abbrev opsL : List (HloOp τ sig (Elt F)) :=
  opsH ++ (opsR0 ++ (opsR1 ++ (opsR2 ++ (opsR3 ++ (opsR4 ++ (opsR5 ++ (opsR6 ++ (opsR7 ++ (opsR8 ++ opsT)))))))))

noncomputable def WH : List (Ref sig .tc) := [main_c, main_call0_v0, main_v0]
noncomputable def WR0 : List (Ref sig .tc) := [main_v1, main_v2, main_cst, main_v3, main_v4, main_v5, main_cst_0, main_v6, main_v7, main_v8, main_cst_1, main_v9, main_v10, main_v11, main_cst_2, main_v12, main_v13, main_v14, main_cst_3, main_v15, main_v16, main_v17, main_cst_4, main_v18, main_v19, main_v20, main_cst_5, main_v21, main_v22, main_v23, main_cst_6, main_v24, main_v25, main_v26, main_cst_7, main_v27, main_v28, main_v29, main_v30, main_v31, main_v32, main_v33, main_v34, main_v35, main_v36, main_v37]
noncomputable def WR1 : List (Ref sig .tc) := [main_v38, main_v39, main_cst_8, main_v40, main_v41, main_v42, main_cst_9, main_v43, main_v44, main_v45, main_cst_10, main_v46, main_v47, main_v48, main_cst_11, main_v49, main_v50, main_v51, main_cst_12, main_v52, main_v53, main_v54, main_cst_13, main_v55, main_v56, main_v57, main_cst_14, main_v58, main_v59, main_v60, main_cst_15, main_v61, main_v62, main_v63, main_cst_16, main_v64, main_v65, main_v66, main_v67, main_v68, main_v69, main_v70, main_v71, main_v72, main_v73, main_v74]
noncomputable def WR2 : List (Ref sig .tc) := [main_v75, main_v76, main_cst_17, main_v77, main_v78, main_v79, main_cst_18, main_v80, main_v81, main_v82, main_cst_19, main_v83, main_v84, main_v85, main_cst_20, main_v86, main_v87, main_v88, main_cst_21, main_v89, main_v90, main_v91, main_cst_22, main_v92, main_v93, main_v94, main_cst_23, main_v95, main_v96, main_v97, main_cst_24, main_v98, main_v99, main_v100, main_cst_25, main_v101, main_v102, main_v103, main_v104, main_v105, main_v106, main_v107, main_v108, main_v109, main_v110, main_v111]
noncomputable def WR3 : List (Ref sig .tc) := [main_v112, main_v113, main_cst_26, main_v114, main_v115, main_v116, main_cst_27, main_v117, main_v118, main_v119, main_cst_28, main_v120, main_v121, main_v122, main_cst_29, main_v123, main_v124, main_v125, main_cst_30, main_v126, main_v127, main_v128, main_cst_31, main_v129, main_v130, main_v131, main_cst_32, main_v132, main_v133, main_v134, main_cst_33, main_v135, main_v136, main_v137, main_cst_34, main_v138, main_v139, main_v140, main_v141, main_v142, main_v143, main_v144, main_v145, main_v146, main_v147, main_v148]
noncomputable def WR4 : List (Ref sig .tc) := [main_v149, main_v150, main_cst_35, main_v151, main_v152, main_v153, main_cst_36, main_v154, main_v155, main_v156, main_cst_37, main_v157, main_v158, main_v159, main_cst_38, main_v160, main_v161, main_v162, main_cst_39, main_v163, main_v164, main_v165, main_cst_40, main_v166, main_v167, main_v168, main_cst_41, main_v169, main_v170, main_v171, main_cst_42, main_v172, main_v173, main_v174, main_cst_43, main_v175, main_v176, main_v177, main_v178, main_v179, main_v180, main_v181, main_v182, main_v183, main_v184, main_v185]
noncomputable def WR5 : List (Ref sig .tc) := [main_v186, main_v187, main_cst_44, main_v188, main_v189, main_v190, main_cst_45, main_v191, main_v192, main_v193, main_cst_46, main_v194, main_v195, main_v196, main_cst_47, main_v197, main_v198, main_v199, main_cst_48, main_v200, main_v201, main_v202, main_cst_49, main_v203, main_v204, main_v205, main_cst_50, main_v206, main_v207, main_v208, main_cst_51, main_v209, main_v210, main_v211, main_cst_52, main_v212, main_v213, main_v214, main_v215, main_v216, main_v217, main_v218, main_v219, main_v220, main_v221, main_v222]
noncomputable def WR6 : List (Ref sig .tc) := [main_v223, main_v224, main_cst_53, main_v225, main_v226, main_v227, main_cst_54, main_v228, main_v229, main_v230, main_cst_55, main_v231, main_v232, main_v233, main_cst_56, main_v234, main_v235, main_v236, main_cst_57, main_v237, main_v238, main_v239, main_cst_58, main_v240, main_v241, main_v242, main_cst_59, main_v243, main_v244, main_v245, main_cst_60, main_v246, main_v247, main_v248, main_cst_61, main_v249, main_v250, main_v251, main_v252, main_v253, main_v254, main_v255, main_v256, main_v257, main_v258, main_v259]
noncomputable def WR7 : List (Ref sig .tc) := [main_v260, main_v261, main_cst_62, main_v262, main_v263, main_v264, main_cst_63, main_v265, main_v266, main_v267, main_cst_64, main_v268, main_v269, main_v270, main_cst_65, main_v271, main_v272, main_v273, main_cst_66, main_v274, main_v275, main_v276, main_cst_67, main_v277, main_v278, main_v279, main_cst_68, main_v280, main_v281, main_v282, main_cst_69, main_v283, main_v284, main_v285, main_cst_70, main_v286, main_v287, main_v288, main_v289, main_v290, main_v291, main_v292, main_v293, main_v294, main_v295, main_v296]
noncomputable def WR8 : List (Ref sig .tc) := [main_v297, main_v298, main_cst_71, main_v299, main_v300, main_v301, main_cst_72, main_v302, main_v303, main_v304, main_cst_73, main_v305, main_v306, main_v307, main_cst_74, main_v308, main_v309, main_v310, main_cst_75, main_v311, main_v312, main_v313, main_cst_76, main_v314, main_v315, main_v316, main_cst_77, main_v317, main_v318, main_v319, main_cst_78, main_v320, main_v321, main_v322, main_cst_79, main_v323, main_v324, main_v325, main_v326, main_v327, main_v328, main_v329, main_v330, main_v331, main_v332, main_v333]
noncomputable def WT : List (Ref sig .tc) := [main_v334, main_v335, main_v336, main_v337, main_v338, main_v339, main_v340, main_v341, main_v342, main_v343]

theorem hWH : (opsH (F := F)).Forall fun op => op.writes ⊆ ((WH).map (Proc.devRef (τ := τ) .tc)).toFinset :=
  ⟨wsub (List.getElem_mem (n := 0) (by decide)), wsub (List.getElem_mem (n := 1) (by decide)), wsub (List.getElem_mem (n := 2) (by decide))⟩
theorem hSH : (opsH (F := F)).Forall fun op => op.bufs ⊆ tcRefs τ sig :=
  ⟨nullary_bufs_sub .., unary_bufs_sub .., binary_bufs_sub ..⟩
theorem hFH : (opsH (F := F)).Forall fun op => op.fresh = ∅ :=
  ⟨rfl, rfl, rfl⟩
theorem hWR0 : (opsR0 (F := F)).Forall fun op => op.writes ⊆ ((WR0).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR0 : (opsR0 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR0 : (opsR0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR1 : (opsR1 (F := F)).Forall fun op => op.writes ⊆ ((WR1).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR1 : (opsR1 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR1 : (opsR1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR2 : (opsR2 (F := F)).Forall fun op => op.writes ⊆ ((WR2).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR2 : (opsR2 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR2 : (opsR2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR3 : (opsR3 (F := F)).Forall fun op => op.writes ⊆ ((WR3).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR3 : (opsR3 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR3 : (opsR3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR4 : (opsR4 (F := F)).Forall fun op => op.writes ⊆ ((WR4).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR4 : (opsR4 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR4 : (opsR4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR5 : (opsR5 (F := F)).Forall fun op => op.writes ⊆ ((WR5).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR5 : (opsR5 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR5 : (opsR5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR6 : (opsR6 (F := F)).Forall fun op => op.writes ⊆ ((WR6).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR6 : (opsR6 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR6 : (opsR6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR7 : (opsR7 (F := F)).Forall fun op => op.writes ⊆ ((WR7).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR7 : (opsR7 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR7 : (opsR7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR8 : (opsR8 (F := F)).Forall fun op => op.writes ⊆ ((WR8).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR8 : (opsR8 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR8 : (opsR8 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWT : (opsT (F := F)).Forall fun op => op.writes ⊆ ((WT).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide))⟩
theorem hST : (opsT (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub ..⟩
theorem hFT : (opsT (F := F)).Forall fun op => op.fresh = ∅ :=
  ⟨rfl, rfl, rfl, rfl, rfl, rfl, rfl, rfl, rfl, rfl⟩

/-- Every buffer the level writes. -/
noncomputable def WL : List (Ref sig .tc) := WH ++ (WR0 ++ (WR1 ++ (WR2 ++ (WR3 ++ (WR4 ++ (WR5 ++ (WR6 ++ (WR7 ++ (WR8 ++ WT)))))))))

theorem level_sub : (opsL (F := F)).Forall fun op => op.bufs ⊆ tcRefs τ sig :=
  forall_append hSH (forall_append hSR0 (forall_append hSR1 (forall_append hSR2 (forall_append hSR3 (forall_append hSR4 (forall_append hSR5 (forall_append hSR6 (forall_append hSR7 (forall_append hSR8 hST)))))))))
theorem level_fresh : (opsL (F := F)).Forall fun op => op.fresh = ∅ :=
  forall_append hFH (forall_append hFR0 (forall_append hFR1 (forall_append hFR2 (forall_append hFR3 (forall_append hFR4 (forall_append hFR5 (forall_append hFR6 (forall_append hFR7 (forall_append hFR8 hFT)))))))))

/-- A buffer the level does not write keeps its contents. -/
theorem level_keep (V : Valuation τ sig (Elt F)) (r : Ref sig .tc) (hr : r ∉ WL) :
    after (opsL (F := F)) V (Proc.devRef .tc r) = V (Proc.devRef .tc r) := by
  have h : ∀ {l₁ l₂ : List (Ref sig .tc)}, r ∉ l₁ ++ l₂ → r ∉ l₁ ∧ r ∉ l₂ := fun h =>
    ⟨fun h1 => h (List.mem_append_left _ h1), fun h2 => h (List.mem_append_right _ h2)⟩
  obtain ⟨gH, g⟩ := h hr
  obtain ⟨g0, g⟩ := h g
  obtain ⟨g1, g⟩ := h g
  obtain ⟨g2, g⟩ := h g
  obtain ⟨g3, g⟩ := h g
  obtain ⟨g4, g⟩ := h g
  obtain ⟨g5, g⟩ := h g
  obtain ⟨g6, g⟩ := h g
  obtain ⟨g7, g⟩ := h g
  obtain ⟨g8, g⟩ := h g
  simp only [opsL, after_append]
  rw [after_of_writes_sub _ _ hWT g, after_of_writes_sub _ _ hWR8 g8, after_of_writes_sub _ _ hWR7 g7, after_of_writes_sub _ _ hWR6 g6, after_of_writes_sub _ _ hWR5 g5, after_of_writes_sub _ _ hWR4 g4, after_of_writes_sub _ _ hWR3 g3, after_of_writes_sub _ _ hWR2 g2, after_of_writes_sub _ _ hWR1 g1, after_of_writes_sub _ _ hWR0 g0, after_of_writes_sub _ _ hWH gH]

end Cert.ReferenceIdeal.Lvl0

end
-- ==== Proof.RefTerms0.lean ====
/-
  Level 0 of the reference: the composed terms of its stretches of operations.  padT is the zero pad of b; rowT k is
  row k of the patch (nine planes, one per horizontal displacement: the padded b sliced at (k, dj), times a, summed over
  the channels, with a unit axis added, joined along that axis); tailT joins the nine rows along a second new axis.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl0

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

/-- The zero-padded b. -/
abbrev padT (b : (⟨S8x64x112x112, .f32⟩ : BufTy).Contents (Elt F)) : (⟨S8x64x120x120, .f32⟩ : BufTy).Contents (Elt F) :=
  pad S8x64x120x120 ![0, 0, 4, 4] ![0, 0, 4, 4] ![0, 0, 0, 0] b (sitofp .f32 (constantI S_ 32 0#32)) pads_S8x64x112x112_S8x64x120x120_000_000_440_440 h_S_

/-- Row 0's operations composed. -/
def rowT0 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 0, 0] p slices_S8x64x120x120_S8x64x112x112_0_0_0_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 1] p slices_S8x64x120x120_S8x64x112x112_0_0_0_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 2] p slices_S8x64x120x120_S8x64x112x112_0_0_0_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 3] p slices_S8x64x120x120_S8x64x112x112_0_0_0_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 4] p slices_S8x64x120x120_S8x64x112x112_0_0_0_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 5] p slices_S8x64x120x120_S8x64x112x112_0_0_0_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 6] p slices_S8x64x120x120_S8x64x112x112_0_0_0_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 7] p slices_S8x64x120x120_S8x64x112x112_0_0_0_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 0, 8] p slices_S8x64x120x120_S8x64x112x112_0_0_0_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 1's operations composed. -/
def rowT1 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 1, 0] p slices_S8x64x120x120_S8x64x112x112_0_0_1_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 1] p slices_S8x64x120x120_S8x64x112x112_0_0_1_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 2] p slices_S8x64x120x120_S8x64x112x112_0_0_1_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 3] p slices_S8x64x120x120_S8x64x112x112_0_0_1_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 4] p slices_S8x64x120x120_S8x64x112x112_0_0_1_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 5] p slices_S8x64x120x120_S8x64x112x112_0_0_1_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 6] p slices_S8x64x120x120_S8x64x112x112_0_0_1_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 7] p slices_S8x64x120x120_S8x64x112x112_0_0_1_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 1, 8] p slices_S8x64x120x120_S8x64x112x112_0_0_1_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 2's operations composed. -/
def rowT2 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 2, 0] p slices_S8x64x120x120_S8x64x112x112_0_0_2_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 1] p slices_S8x64x120x120_S8x64x112x112_0_0_2_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 2] p slices_S8x64x120x120_S8x64x112x112_0_0_2_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 3] p slices_S8x64x120x120_S8x64x112x112_0_0_2_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 4] p slices_S8x64x120x120_S8x64x112x112_0_0_2_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 5] p slices_S8x64x120x120_S8x64x112x112_0_0_2_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 6] p slices_S8x64x120x120_S8x64x112x112_0_0_2_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 7] p slices_S8x64x120x120_S8x64x112x112_0_0_2_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 2, 8] p slices_S8x64x120x120_S8x64x112x112_0_0_2_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 3's operations composed. -/
def rowT3 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 3, 0] p slices_S8x64x120x120_S8x64x112x112_0_0_3_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 1] p slices_S8x64x120x120_S8x64x112x112_0_0_3_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 2] p slices_S8x64x120x120_S8x64x112x112_0_0_3_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 3] p slices_S8x64x120x120_S8x64x112x112_0_0_3_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 4] p slices_S8x64x120x120_S8x64x112x112_0_0_3_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 5] p slices_S8x64x120x120_S8x64x112x112_0_0_3_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 6] p slices_S8x64x120x120_S8x64x112x112_0_0_3_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 7] p slices_S8x64x120x120_S8x64x112x112_0_0_3_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 3, 8] p slices_S8x64x120x120_S8x64x112x112_0_0_3_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 4's operations composed. -/
def rowT4 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 4, 0] p slices_S8x64x120x120_S8x64x112x112_0_0_4_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 1] p slices_S8x64x120x120_S8x64x112x112_0_0_4_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 2] p slices_S8x64x120x120_S8x64x112x112_0_0_4_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 3] p slices_S8x64x120x120_S8x64x112x112_0_0_4_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 4] p slices_S8x64x120x120_S8x64x112x112_0_0_4_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 5] p slices_S8x64x120x120_S8x64x112x112_0_0_4_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 6] p slices_S8x64x120x120_S8x64x112x112_0_0_4_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 7] p slices_S8x64x120x120_S8x64x112x112_0_0_4_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 4, 8] p slices_S8x64x120x120_S8x64x112x112_0_0_4_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 5's operations composed. -/
def rowT5 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 5, 0] p slices_S8x64x120x120_S8x64x112x112_0_0_5_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 1] p slices_S8x64x120x120_S8x64x112x112_0_0_5_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 2] p slices_S8x64x120x120_S8x64x112x112_0_0_5_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 3] p slices_S8x64x120x120_S8x64x112x112_0_0_5_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 4] p slices_S8x64x120x120_S8x64x112x112_0_0_5_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 5] p slices_S8x64x120x120_S8x64x112x112_0_0_5_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 6] p slices_S8x64x120x120_S8x64x112x112_0_0_5_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 7] p slices_S8x64x120x120_S8x64x112x112_0_0_5_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 5, 8] p slices_S8x64x120x120_S8x64x112x112_0_0_5_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 6's operations composed. -/
def rowT6 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 6, 0] p slices_S8x64x120x120_S8x64x112x112_0_0_6_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 1] p slices_S8x64x120x120_S8x64x112x112_0_0_6_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 2] p slices_S8x64x120x120_S8x64x112x112_0_0_6_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 3] p slices_S8x64x120x120_S8x64x112x112_0_0_6_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 4] p slices_S8x64x120x120_S8x64x112x112_0_0_6_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 5] p slices_S8x64x120x120_S8x64x112x112_0_0_6_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 6] p slices_S8x64x120x120_S8x64x112x112_0_0_6_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 7] p slices_S8x64x120x120_S8x64x112x112_0_0_6_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 6, 8] p slices_S8x64x120x120_S8x64x112x112_0_0_6_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 7's operations composed. -/
def rowT7 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 7, 0] p slices_S8x64x120x120_S8x64x112x112_0_0_7_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 1] p slices_S8x64x120x120_S8x64x112x112_0_0_7_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 2] p slices_S8x64x120x120_S8x64x112x112_0_0_7_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 3] p slices_S8x64x120x120_S8x64x112x112_0_0_7_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 4] p slices_S8x64x120x120_S8x64x112x112_0_0_7_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 5] p slices_S8x64x120x120_S8x64x112x112_0_0_7_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 6] p slices_S8x64x120x120_S8x64x112x112_0_0_7_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 7] p slices_S8x64x120x120_S8x64x112x112_0_0_7_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 7, 8] p slices_S8x64x120x120_S8x64x112x112_0_0_7_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- Row 8's operations composed. -/
def rowT8 (a : (⟨S8x64x112x112, .f32⟩ : BufTy).Contents (Elt F)) (p : (⟨S8x64x120x120, .f32⟩ : BufTy).Contents (Elt F)) :
    (⟨S8x9x112x112, .f32⟩ : BufTy).Contents (Elt F) :=
  concatenate S8x9x112x112 1 [⟨S8x1x112x112, (broadcastInDim S8x1x112x112 ![0, 2, 3] bcast_S8x112x112_S8x1x112x112_0_2_3 (Host.reduceAdd (mulf a (extractStridedSlice S8x64x112x112 ![0, 0, 8, 0] p slices_S8x64x120x120_S8x64x112x112_0_0_8_0)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 1] p slices_S8x64x120x120_S8x64x112x112_0_0_8_1)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 2] p slices_S8x64x120x120_S8x64x112x112_0_0_8_2)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 3] p slices_S8x64x120x120_S8x64x112x112_0_0_8_3)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 4] p slices_S8x64x120x120_S8x64x112x112_0_0_8_4)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 5] p slices_S8x64x120x120_S8x64x112x112_0_0_8_5)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 6] p slices_S8x64x120x120_S8x64x112x112_0_0_8_6)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 7] p slices_S8x64x120x120_S8x64x112x112_0_0_8_7)) (constant S_ .f32 0x00000000#32) reducesTo_S8x64x112x112_S8x112x112_d1 h_S_))⟩, ⟨S8x1x112x112, (broadcastInDim S8x1x112x112 ![0, 2, 3] bcast_S8x112x112_S8x1x112x112_0_2_3 (Host.reduceAdd (mulf a (extractStridedSlice S8x64x112x112 ![0, 0, 8, 8] p slices_S8x64x120x120_S8x64x112x112_0_0_8_8)) (constant S_ .f32 0x00000000#32) reducesTo_S8x64x112x112_S8x112x112_d1 h_S_))⟩] concatenates_S8x1x112x112_S8x1x112x112_S8x1x112x112_S8x1x112x112_S8x1x112x112_S8x1x112x112_S8x1x112x112_S8x1x112x112_S8x1x112x112_S8x9x112x112_d1

/-- The tail's operations composed. -/
def tailT (r0 r1 r2 r3 r4 r5 r6 r7 r8 : (⟨S8x9x112x112, .f32⟩ : BufTy).Contents (Elt F)) : (⟨S8x9x9x112x112, .f32⟩ : BufTy).Contents (Elt F) :=
  concatenate S8x9x9x112x112 1 [⟨S8x1x9x112x112, (broadcastInDim S8x1x9x112x112 ![0, 2, 3, 4] bcast_S8x9x112x112_S8x1x9x112x112_0_2_3_4 r0)⟩, ⟨S8x1x9x112x112, (broadcastInDim S8x1x9x112x112 ![0, 2, 3, 4] bcast_S8x9x112x112_S8x1x9x112x112_0_2_3_4 r1)⟩, ⟨S8x1x9x112x112, (broadcastInDim S8x1x9x112x112 ![0, 2, 3, 4] bcast_S8x9x112x112_S8x1x9x112x112_0_2_3_4 r2)⟩, ⟨S8x1x9x112x112, (broadcastInDim S8x1x9x112x112 ![0, 2, 3, 4] bcast_S8x9x112x112_S8x1x9x112x112_0_2_3_4 r3)⟩, ⟨S8x1x9x112x112, (broadcastInDim S8x1x9x112x112 ![0, 2, 3, 4] bcast_S8x9x112x112_S8x1x9x112x112_0_2_3_4 r4)⟩, ⟨S8x1x9x112x112, (broadcastInDim S8x1x9x112x112 ![0, 2, 3, 4] bcast_S8x9x112x112_S8x1x9x112x112_0_2_3_4 r5)⟩, ⟨S8x1x9x112x112, (broadcastInDim S8x1x9x112x112 ![0, 2, 3, 4] bcast_S8x9x112x112_S8x1x9x112x112_0_2_3_4 r6)⟩, ⟨S8x1x9x112x112, (broadcastInDim S8x1x9x112x112 ![0, 2, 3, 4] bcast_S8x9x112x112_S8x1x9x112x112_0_2_3_4 r7)⟩, ⟨S8x1x9x112x112, (broadcastInDim S8x1x9x112x112 ![0, 2, 3, 4] bcast_S8x9x112x112_S8x1x9x112x112_0_2_3_4 r8)⟩] concatenates_S8x1x9x112x112_S8x1x9x112x112_S8x1x9x112x112_S8x1x9x112x112_S8x1x9x112x112_S8x1x9x112x112_S8x1x9x112x112_S8x1x9x112x112_S8x1x9x112x112_S8x9x9x112x112_d1

end Cert.ReferenceIdeal.Lvl0

end
-- ==== Proof.RefRead0.lean ====
/-
  Level 0 of the reference, read at an index.  A row's nine planes are corr at the row's vertical displacement and
  the planes' horizontal displacements; the nine rows joined are g5.
-/
import proofs.«135875_j16999480558431_2_alg».proof.Proof.RefTerms0
import proofs.«135875_j16999480558431_2_alg».proof.Proof.CorrSpec0
import proofs.«135875_j16999480558431_2_alg».proof.Proof.CorrJoin0

set_option maxRecDepth 8192

noncomputable section

namespace Cert.ReferenceIdeal.Lvl0

open Cert.ReferenceIdeal Cert.ReferenceIdeal.Gen Idealize.ShloMosaic Idealize.ShloMosaic.TcCoe Idealize.SL.Sem Idealize.ShloMosaic.StableHlo
open Idealize.ShloMosaic.ValueIdx RefLib Corr0 CorrJ0

variable {F : FTy → Type} [FloatOps F]

/-- Row di of the patch as a function of the index. -/
def rowF (di : ℕ) (a b : Corr0.SA.Idx → EReal) : (⟨S8x9x112x112, .f32⟩ : BufTy).Contents (Elt Ideal) :=
  fun idx => corr a b ⟨(idx 0).val, (idx 0).isLt⟩ di (idx 1).val ⟨(idx 2).val, (idx 2).isLt⟩ ⟨(idx 3).val, (idx 3).isLt⟩

/-- Row 0 read at an index: the nine planes of corr for displacements (0, 0 .. 8). -/
theorem rowRead0 (a b : Corr0.SA.Idx → EReal) : rowT0 (F := Ideal) a (padT b) = rowF 0 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 0 dj.val i j
  unfold rowT0
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 0] (padT (F := Ideal) b) slices_S8x64x120x120_S8x64x112x112_0_0_0_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 1] (padT (F := Ideal) b) slices_S8x64x120x120_S8x64x112x112_0_0_0_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 2] (padT (F := Ideal) b) slices_S8x64x120x120_S8x64x112x112_0_0_0_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 3] (padT (F := Ideal) b) slices_S8x64x120x120_S8x64x112x112_0_0_0_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 4] (padT (F := Ideal) b) slices_S8x64x120x120_S8x64x112x112_0_0_0_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 5] (padT (F := Ideal) b) slices_S8x64x120x120_S8x64x112x112_0_0_0_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 6] (padT (F := Ideal) b) slices_S8x64x120x120_S8x64x112x112_0_0_0_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 7] (padT (F := Ideal) b) slices_S8x64x120x120_S8x64x112x112_0_0_0_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 0, 8] (padT (F := Ideal) b) slices_S8x64x120x120_S8x64x112x112_0_0_0_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 8 a b _ _ _ _ (by decide) _ n 0 i j

/-- Row 1 read at an index: the nine planes of corr for displacements (1, 0 .. 8). -/
theorem rowRead1 (a b : Corr0.SA.Idx → EReal) : rowT1 (F := Ideal) a (padT b) = rowF 1 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 1 dj.val i j
  unfold rowT1
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 0] (padT (F := Ideal) b) slices_S8x64x120x120_S8x64x112x112_0_0_1_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 1] (padT (F := Ideal) b) slices_S8x64x120x120_S8x64x112x112_0_0_1_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 2] (padT (F := Ideal) b) slices_S8x64x120x120_S8x64x112x112_0_0_1_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 3] (padT (F := Ideal) b) slices_S8x64x120x120_S8x64x112x112_0_0_1_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 4] (padT (F := Ideal) b) slices_S8x64x120x120_S8x64x112x112_0_0_1_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 5] (padT (F := Ideal) b) slices_S8x64x120x120_S8x64x112x112_0_0_1_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 6] (padT (F := Ideal) b) slices_S8x64x120x120_S8x64x112x112_0_0_1_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 7] (padT (F := Ideal) b) slices_S8x64x120x120_S8x64x112x112_0_0_1_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 1, 8] (padT (F := Ideal) b) slices_S8x64x120x120_S8x64x112x112_0_0_1_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 8 a b _ _ _ _ (by decide) _ n 0 i j

/-- Row 2 read at an index: the nine planes of corr for displacements (2, 0 .. 8). -/
theorem rowRead2 (a b : Corr0.SA.Idx → EReal) : rowT2 (F := Ideal) a (padT b) = rowF 2 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 2 dj.val i j
  unfold rowT2
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 0] (padT (F := Ideal) b) slices_S8x64x120x120_S8x64x112x112_0_0_2_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 1] (padT (F := Ideal) b) slices_S8x64x120x120_S8x64x112x112_0_0_2_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 2] (padT (F := Ideal) b) slices_S8x64x120x120_S8x64x112x112_0_0_2_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 3] (padT (F := Ideal) b) slices_S8x64x120x120_S8x64x112x112_0_0_2_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 4] (padT (F := Ideal) b) slices_S8x64x120x120_S8x64x112x112_0_0_2_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 5] (padT (F := Ideal) b) slices_S8x64x120x120_S8x64x112x112_0_0_2_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 6] (padT (F := Ideal) b) slices_S8x64x120x120_S8x64x112x112_0_0_2_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 7] (padT (F := Ideal) b) slices_S8x64x120x120_S8x64x112x112_0_0_2_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 2, 8] (padT (F := Ideal) b) slices_S8x64x120x120_S8x64x112x112_0_0_2_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 8 a b _ _ _ _ (by decide) _ n 0 i j

/-- Row 3 read at an index: the nine planes of corr for displacements (3, 0 .. 8). -/
theorem rowRead3 (a b : Corr0.SA.Idx → EReal) : rowT3 (F := Ideal) a (padT b) = rowF 3 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 3 dj.val i j
  unfold rowT3
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 0] (padT (F := Ideal) b) slices_S8x64x120x120_S8x64x112x112_0_0_3_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 1] (padT (F := Ideal) b) slices_S8x64x120x120_S8x64x112x112_0_0_3_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 2] (padT (F := Ideal) b) slices_S8x64x120x120_S8x64x112x112_0_0_3_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 3] (padT (F := Ideal) b) slices_S8x64x120x120_S8x64x112x112_0_0_3_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 4] (padT (F := Ideal) b) slices_S8x64x120x120_S8x64x112x112_0_0_3_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 5] (padT (F := Ideal) b) slices_S8x64x120x120_S8x64x112x112_0_0_3_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 6] (padT (F := Ideal) b) slices_S8x64x120x120_S8x64x112x112_0_0_3_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 7] (padT (F := Ideal) b) slices_S8x64x120x120_S8x64x112x112_0_0_3_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 3, 8] (padT (F := Ideal) b) slices_S8x64x120x120_S8x64x112x112_0_0_3_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 8 a b _ _ _ _ (by decide) _ n 0 i j

/-- Row 4 read at an index: the nine planes of corr for displacements (4, 0 .. 8). -/
theorem rowRead4 (a b : Corr0.SA.Idx → EReal) : rowT4 (F := Ideal) a (padT b) = rowF 4 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 4 dj.val i j
  unfold rowT4
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 0] (padT (F := Ideal) b) slices_S8x64x120x120_S8x64x112x112_0_0_4_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 1] (padT (F := Ideal) b) slices_S8x64x120x120_S8x64x112x112_0_0_4_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 2] (padT (F := Ideal) b) slices_S8x64x120x120_S8x64x112x112_0_0_4_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 3] (padT (F := Ideal) b) slices_S8x64x120x120_S8x64x112x112_0_0_4_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 4] (padT (F := Ideal) b) slices_S8x64x120x120_S8x64x112x112_0_0_4_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 5] (padT (F := Ideal) b) slices_S8x64x120x120_S8x64x112x112_0_0_4_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 6] (padT (F := Ideal) b) slices_S8x64x120x120_S8x64x112x112_0_0_4_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 7] (padT (F := Ideal) b) slices_S8x64x120x120_S8x64x112x112_0_0_4_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 4, 8] (padT (F := Ideal) b) slices_S8x64x120x120_S8x64x112x112_0_0_4_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 8 a b _ _ _ _ (by decide) _ n 0 i j

/-- Row 5 read at an index: the nine planes of corr for displacements (5, 0 .. 8). -/
theorem rowRead5 (a b : Corr0.SA.Idx → EReal) : rowT5 (F := Ideal) a (padT b) = rowF 5 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 5 dj.val i j
  unfold rowT5
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 0] (padT (F := Ideal) b) slices_S8x64x120x120_S8x64x112x112_0_0_5_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 1] (padT (F := Ideal) b) slices_S8x64x120x120_S8x64x112x112_0_0_5_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 2] (padT (F := Ideal) b) slices_S8x64x120x120_S8x64x112x112_0_0_5_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 3] (padT (F := Ideal) b) slices_S8x64x120x120_S8x64x112x112_0_0_5_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 4] (padT (F := Ideal) b) slices_S8x64x120x120_S8x64x112x112_0_0_5_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 5] (padT (F := Ideal) b) slices_S8x64x120x120_S8x64x112x112_0_0_5_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 6] (padT (F := Ideal) b) slices_S8x64x120x120_S8x64x112x112_0_0_5_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 7] (padT (F := Ideal) b) slices_S8x64x120x120_S8x64x112x112_0_0_5_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 5, 8] (padT (F := Ideal) b) slices_S8x64x120x120_S8x64x112x112_0_0_5_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 8 a b _ _ _ _ (by decide) _ n 0 i j

/-- Row 6 read at an index: the nine planes of corr for displacements (6, 0 .. 8). -/
theorem rowRead6 (a b : Corr0.SA.Idx → EReal) : rowT6 (F := Ideal) a (padT b) = rowF 6 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 6 dj.val i j
  unfold rowT6
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 0] (padT (F := Ideal) b) slices_S8x64x120x120_S8x64x112x112_0_0_6_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 1] (padT (F := Ideal) b) slices_S8x64x120x120_S8x64x112x112_0_0_6_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 2] (padT (F := Ideal) b) slices_S8x64x120x120_S8x64x112x112_0_0_6_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 3] (padT (F := Ideal) b) slices_S8x64x120x120_S8x64x112x112_0_0_6_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 4] (padT (F := Ideal) b) slices_S8x64x120x120_S8x64x112x112_0_0_6_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 5] (padT (F := Ideal) b) slices_S8x64x120x120_S8x64x112x112_0_0_6_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 6] (padT (F := Ideal) b) slices_S8x64x120x120_S8x64x112x112_0_0_6_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 7] (padT (F := Ideal) b) slices_S8x64x120x120_S8x64x112x112_0_0_6_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 6, 8] (padT (F := Ideal) b) slices_S8x64x120x120_S8x64x112x112_0_0_6_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 8 a b _ _ _ _ (by decide) _ n 0 i j

/-- Row 7 read at an index: the nine planes of corr for displacements (7, 0 .. 8). -/
theorem rowRead7 (a b : Corr0.SA.Idx → EReal) : rowT7 (F := Ideal) a (padT b) = rowF 7 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 7 dj.val i j
  unfold rowT7
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 0] (padT (F := Ideal) b) slices_S8x64x120x120_S8x64x112x112_0_0_7_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 1] (padT (F := Ideal) b) slices_S8x64x120x120_S8x64x112x112_0_0_7_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 2] (padT (F := Ideal) b) slices_S8x64x120x120_S8x64x112x112_0_0_7_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 3] (padT (F := Ideal) b) slices_S8x64x120x120_S8x64x112x112_0_0_7_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 4] (padT (F := Ideal) b) slices_S8x64x120x120_S8x64x112x112_0_0_7_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 5] (padT (F := Ideal) b) slices_S8x64x120x120_S8x64x112x112_0_0_7_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 6] (padT (F := Ideal) b) slices_S8x64x120x120_S8x64x112x112_0_0_7_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 7] (padT (F := Ideal) b) slices_S8x64x120x120_S8x64x112x112_0_0_7_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 7, 8] (padT (F := Ideal) b) slices_S8x64x120x120_S8x64x112x112_0_0_7_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 8 a b _ _ _ _ (by decide) _ n 0 i j

/-- Row 8 read at an index: the nine planes of corr for displacements (8, 0 .. 8). -/
theorem rowRead8 (a b : Corr0.SA.Idx → EReal) : rowT8 (F := Ideal) a (padT b) = rowF 8 a b := by
  funext idx
  obtain ⟨n, dj, i, j, rfl⟩ : ∃ (n : Fin 8) (dj : Fin 9) (i : Fin 112) (j : Fin 112), idx = ix4 n dj i j :=
    ⟨idx 0, idx 1, idx 2, idx 3, eq_ix4 idx⟩
  show _ = corr a b n 8 dj.val i j
  unfold rowT8
  match dj with
  | ⟨0, hdj⟩ =>
    refine Eq.trans (concatenate_apply_piece (t := S8x9x112x112) (1 : Fin 4) _ _ (ix4 n (⟨0, hdj⟩ : Fin 9) i j) 0 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 0] (padT (F := Ideal) b) slices_S8x64x120x120_S8x64x112x112_0_0_8_0)) (constant (F := Ideal) S_ .f32 0x00000000#32) reducesTo_S8x64x112x112_S8x112x112_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 0 a b _ _ _ _ (by decide) _ n 0 i j
  | ⟨1, hdj⟩ =>
    refine Eq.trans (concatenate_apply_piece (t := S8x9x112x112) (1 : Fin 4) _ _ (ix4 n (⟨1, hdj⟩ : Fin 9) i j) 1 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 1] (padT (F := Ideal) b) slices_S8x64x120x120_S8x64x112x112_0_0_8_1)) (constant (F := Ideal) S_ .f32 0x00000000#32) reducesTo_S8x64x112x112_S8x112x112_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 1 a b _ _ _ _ (by decide) _ n 0 i j
  | ⟨2, hdj⟩ =>
    refine Eq.trans (concatenate_apply_piece (t := S8x9x112x112) (1 : Fin 4) _ _ (ix4 n (⟨2, hdj⟩ : Fin 9) i j) 2 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 2] (padT (F := Ideal) b) slices_S8x64x120x120_S8x64x112x112_0_0_8_2)) (constant (F := Ideal) S_ .f32 0x00000000#32) reducesTo_S8x64x112x112_S8x112x112_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 2 a b _ _ _ _ (by decide) _ n 0 i j
  | ⟨3, hdj⟩ =>
    refine Eq.trans (concatenate_apply_piece (t := S8x9x112x112) (1 : Fin 4) _ _ (ix4 n (⟨3, hdj⟩ : Fin 9) i j) 3 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 3] (padT (F := Ideal) b) slices_S8x64x120x120_S8x64x112x112_0_0_8_3)) (constant (F := Ideal) S_ .f32 0x00000000#32) reducesTo_S8x64x112x112_S8x112x112_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 3 a b _ _ _ _ (by decide) _ n 0 i j
  | ⟨4, hdj⟩ =>
    refine Eq.trans (concatenate_apply_piece (t := S8x9x112x112) (1 : Fin 4) _ _ (ix4 n (⟨4, hdj⟩ : Fin 9) i j) 4 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 4] (padT (F := Ideal) b) slices_S8x64x120x120_S8x64x112x112_0_0_8_4)) (constant (F := Ideal) S_ .f32 0x00000000#32) reducesTo_S8x64x112x112_S8x112x112_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 4 a b _ _ _ _ (by decide) _ n 0 i j
  | ⟨5, hdj⟩ =>
    refine Eq.trans (concatenate_apply_piece (t := S8x9x112x112) (1 : Fin 4) _ _ (ix4 n (⟨5, hdj⟩ : Fin 9) i j) 5 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 5] (padT (F := Ideal) b) slices_S8x64x120x120_S8x64x112x112_0_0_8_5)) (constant (F := Ideal) S_ .f32 0x00000000#32) reducesTo_S8x64x112x112_S8x112x112_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 5 a b _ _ _ _ (by decide) _ n 0 i j
  | ⟨6, hdj⟩ =>
    refine Eq.trans (concatenate_apply_piece (t := S8x9x112x112) (1 : Fin 4) _ _ (ix4 n (⟨6, hdj⟩ : Fin 9) i j) 6 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 6] (padT (F := Ideal) b) slices_S8x64x120x120_S8x64x112x112_0_0_8_6)) (constant (F := Ideal) S_ .f32 0x00000000#32) reducesTo_S8x64x112x112_S8x112x112_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 6 a b _ _ _ _ (by decide) _ n 0 i j
  | ⟨7, hdj⟩ =>
    refine Eq.trans (concatenate_apply_piece (t := S8x9x112x112) (1 : Fin 4) _ _ (ix4 n (⟨7, hdj⟩ : Fin 9) i j) 7 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 7] (padT (F := Ideal) b) slices_S8x64x120x120_S8x64x112x112_0_0_8_7)) (constant (F := Ideal) S_ .f32 0x00000000#32) reducesTo_S8x64x112x112_S8x112x112_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 7 a b _ _ _ _ (by decide) _ n 0 i j
  | ⟨8, hdj⟩ =>
    refine Eq.trans (concatenate_apply_piece (t := S8x9x112x112) (1 : Fin 4) _ _ (ix4 n (⟨8, hdj⟩ : Fin 9) i j) 8 ?_ S8x1x112x112 (broadcastInDim S8x1x112x112 ![0, 2, 3] bcast_S8x112x112_S8x1x112x112_0_2_3 (Host.reduceAdd (F := Ideal) (mulf (F := Ideal) (φ := .f32) a (extractStridedSlice S8x64x112x112 ![0, 0, 8, 8] (padT (F := Ideal) b) slices_S8x64x120x120_S8x64x112x112_0_0_8_8)) (constant (F := Ideal) S_ .f32 0x00000000#32) reducesTo_S8x64x112x112_S8x112x112_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 8 a b _ _ _ _ (by decide) _ n 0 i j

/-- The tail read at an index. -/
theorem tailRead (a b : Corr0.SA.Idx → EReal) :
    tailT (F := Ideal) (rowF 0 a b) (rowF 1 a b) (rowF 2 a b) (rowF 3 a b) (rowF 4 a b) (rowF 5 a b) (rowF 6 a b) (rowF 7 a b) (rowF 8 a b) = g5 a b := by
  funext idx
  obtain ⟨n, di, dj, i, j, rfl⟩ : ∃ (n : Fin 8) (di dj : Fin 9) (i : Fin 112) (j : Fin 112), idx = ix5 n di dj i j :=
    ⟨idx 0, idx 1, idx 2, idx 3, idx 4, eq_ix5 idx⟩
  rw [g5_apply]
  unfold tailT
  match di with
  | ⟨0, hdi⟩ =>
    refine Eq.trans (concatenate_apply_piece (t := S8x9x9x112x112) (1 : Fin 5) _ _ (ix5 n (⟨0, hdi⟩ : Fin 9) dj i j) 0 ?_ S8x1x9x112x112 (broadcastInDim S8x1x9x112x112 ![0, 2, 3, 4] bcast_S8x9x112x112_S8x1x9x112x112_0_2_3_4 (rowF 0 a b)) ?_ rfl 0 ?_ (ix5 n (0 : Fin 1) dj i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨1, hdi⟩ =>
    refine Eq.trans (concatenate_apply_piece (t := S8x9x9x112x112) (1 : Fin 5) _ _ (ix5 n (⟨1, hdi⟩ : Fin 9) dj i j) 1 ?_ S8x1x9x112x112 (broadcastInDim S8x1x9x112x112 ![0, 2, 3, 4] bcast_S8x9x112x112_S8x1x9x112x112_0_2_3_4 (rowF 1 a b)) ?_ rfl 1 ?_ (ix5 n (0 : Fin 1) dj i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨2, hdi⟩ =>
    refine Eq.trans (concatenate_apply_piece (t := S8x9x9x112x112) (1 : Fin 5) _ _ (ix5 n (⟨2, hdi⟩ : Fin 9) dj i j) 2 ?_ S8x1x9x112x112 (broadcastInDim S8x1x9x112x112 ![0, 2, 3, 4] bcast_S8x9x112x112_S8x1x9x112x112_0_2_3_4 (rowF 2 a b)) ?_ rfl 2 ?_ (ix5 n (0 : Fin 1) dj i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨3, hdi⟩ =>
    refine Eq.trans (concatenate_apply_piece (t := S8x9x9x112x112) (1 : Fin 5) _ _ (ix5 n (⟨3, hdi⟩ : Fin 9) dj i j) 3 ?_ S8x1x9x112x112 (broadcastInDim S8x1x9x112x112 ![0, 2, 3, 4] bcast_S8x9x112x112_S8x1x9x112x112_0_2_3_4 (rowF 3 a b)) ?_ rfl 3 ?_ (ix5 n (0 : Fin 1) dj i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨4, hdi⟩ =>
    refine Eq.trans (concatenate_apply_piece (t := S8x9x9x112x112) (1 : Fin 5) _ _ (ix5 n (⟨4, hdi⟩ : Fin 9) dj i j) 4 ?_ S8x1x9x112x112 (broadcastInDim S8x1x9x112x112 ![0, 2, 3, 4] bcast_S8x9x112x112_S8x1x9x112x112_0_2_3_4 (rowF 4 a b)) ?_ rfl 4 ?_ (ix5 n (0 : Fin 1) dj i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨5, hdi⟩ =>
    refine Eq.trans (concatenate_apply_piece (t := S8x9x9x112x112) (1 : Fin 5) _ _ (ix5 n (⟨5, hdi⟩ : Fin 9) dj i j) 5 ?_ S8x1x9x112x112 (broadcastInDim S8x1x9x112x112 ![0, 2, 3, 4] bcast_S8x9x112x112_S8x1x9x112x112_0_2_3_4 (rowF 5 a b)) ?_ rfl 5 ?_ (ix5 n (0 : Fin 1) dj i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨6, hdi⟩ =>
    refine Eq.trans (concatenate_apply_piece (t := S8x9x9x112x112) (1 : Fin 5) _ _ (ix5 n (⟨6, hdi⟩ : Fin 9) dj i j) 6 ?_ S8x1x9x112x112 (broadcastInDim S8x1x9x112x112 ![0, 2, 3, 4] bcast_S8x9x112x112_S8x1x9x112x112_0_2_3_4 (rowF 6 a b)) ?_ rfl 6 ?_ (ix5 n (0 : Fin 1) dj i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨7, hdi⟩ =>
    refine Eq.trans (concatenate_apply_piece (t := S8x9x9x112x112) (1 : Fin 5) _ _ (ix5 n (⟨7, hdi⟩ : Fin 9) dj i j) 7 ?_ S8x1x9x112x112 (broadcastInDim S8x1x9x112x112 ![0, 2, 3, 4] bcast_S8x9x112x112_S8x1x9x112x112_0_2_3_4 (rowF 7 a b)) ?_ rfl 7 ?_ (ix5 n (0 : Fin 1) dj i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl
  | ⟨8, hdi⟩ =>
    refine Eq.trans (concatenate_apply_piece (t := S8x9x9x112x112) (1 : Fin 5) _ _ (ix5 n (⟨8, hdi⟩ : Fin 9) dj i j) 8 ?_ S8x1x9x112x112 (broadcastInDim S8x1x9x112x112 ![0, 2, 3, 4] bcast_S8x9x112x112_S8x1x9x112x112_0_2_3_4 (rowF 8 a b)) ?_ rfl 8 ?_ (ix5 n (0 : Fin 1) dj i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (112 : Nat) = 1 then 0 else i.val; rw [if_neg (by decide)]
        | ⟨3, _⟩ => by show j.val = if (112 : Nat) = 1 then 0 else j.val; rw [if_neg (by decide)])) ?_
      rfl

end Cert.ReferenceIdeal.Lvl0

end
-- ==== Proof.RefLevel0.lean ====
/-
  Level 0 of the reference as a run: each stretch's result is its composed term (the fold over the stretch computes
  it), a stretch's inputs are a, the padded b and the earlier rows' results, none of which a later stretch writes, and
  read at an index the level's result is g5 of the two feature maps as the level finds them.
-/
import proofs.«135875_j16999480558431_2_alg».proof.Proof.RefOps0
import proofs.«135875_j16999480558431_2_alg».proof.Proof.RefRead0

set_option maxRecDepth 8192

noncomputable section

namespace Cert.ReferenceIdeal.Lvl0

open Cert.ReferenceIdeal Cert.ReferenceIdeal.Gen Idealize.ShloMosaic Idealize.ShloMosaic.TcCoe Idealize.SL.Sem Idealize.ShloMosaic.StableHlo
open Idealize.ShloMosaic.ValueIdx RefLib Corr0 CorrJ0

variable {F : FTy → Type} [FloatOps F]

theorem evalR0 (V : Valuation τ sig (Elt F)) :
    after (opsR0 (F := F)) V (Proc.devRef .tc main_v37) = rowT0 (V (Proc.devRef .tc main_arg0)) (V (Proc.devRef .tc main_v0)) := rfl
theorem evalR1 (V : Valuation τ sig (Elt F)) :
    after (opsR1 (F := F)) V (Proc.devRef .tc main_v74) = rowT1 (V (Proc.devRef .tc main_arg0)) (V (Proc.devRef .tc main_v0)) := rfl
theorem evalR2 (V : Valuation τ sig (Elt F)) :
    after (opsR2 (F := F)) V (Proc.devRef .tc main_v111) = rowT2 (V (Proc.devRef .tc main_arg0)) (V (Proc.devRef .tc main_v0)) := rfl
theorem evalR3 (V : Valuation τ sig (Elt F)) :
    after (opsR3 (F := F)) V (Proc.devRef .tc main_v148) = rowT3 (V (Proc.devRef .tc main_arg0)) (V (Proc.devRef .tc main_v0)) := rfl
theorem evalR4 (V : Valuation τ sig (Elt F)) :
    after (opsR4 (F := F)) V (Proc.devRef .tc main_v185) = rowT4 (V (Proc.devRef .tc main_arg0)) (V (Proc.devRef .tc main_v0)) := rfl
theorem evalR5 (V : Valuation τ sig (Elt F)) :
    after (opsR5 (F := F)) V (Proc.devRef .tc main_v222) = rowT5 (V (Proc.devRef .tc main_arg0)) (V (Proc.devRef .tc main_v0)) := rfl
theorem evalR6 (V : Valuation τ sig (Elt F)) :
    after (opsR6 (F := F)) V (Proc.devRef .tc main_v259) = rowT6 (V (Proc.devRef .tc main_arg0)) (V (Proc.devRef .tc main_v0)) := rfl
theorem evalR7 (V : Valuation τ sig (Elt F)) :
    after (opsR7 (F := F)) V (Proc.devRef .tc main_v296) = rowT7 (V (Proc.devRef .tc main_arg0)) (V (Proc.devRef .tc main_v0)) := rfl
theorem evalR8 (V : Valuation τ sig (Elt F)) :
    after (opsR8 (F := F)) V (Proc.devRef .tc main_v333) = rowT8 (V (Proc.devRef .tc main_arg0)) (V (Proc.devRef .tc main_v0)) := rfl

theorem evalT (V : Valuation τ sig (Elt F)) :
    after (opsT (F := F)) V (Proc.devRef .tc main_v343) = tailT (V (Proc.devRef .tc main_v37)) (V (Proc.devRef .tc main_v74)) (V (Proc.devRef .tc main_v111)) (V (Proc.devRef .tc main_v148)) (V (Proc.devRef .tc main_v185)) (V (Proc.devRef .tc main_v222)) (V (Proc.devRef .tc main_v259)) (V (Proc.devRef .tc main_v296)) (V (Proc.devRef .tc main_v333)) := rfl

abbrev ch0 (V : Valuation τ sig (Elt F)) : Valuation τ sig (Elt F) := after opsH V
abbrev ch1 (V : Valuation τ sig (Elt F)) : Valuation τ sig (Elt F) := after opsR0 (ch0 V)
abbrev ch2 (V : Valuation τ sig (Elt F)) : Valuation τ sig (Elt F) := after opsR1 (ch1 V)
abbrev ch3 (V : Valuation τ sig (Elt F)) : Valuation τ sig (Elt F) := after opsR2 (ch2 V)
abbrev ch4 (V : Valuation τ sig (Elt F)) : Valuation τ sig (Elt F) := after opsR3 (ch3 V)
abbrev ch5 (V : Valuation τ sig (Elt F)) : Valuation τ sig (Elt F) := after opsR4 (ch4 V)
abbrev ch6 (V : Valuation τ sig (Elt F)) : Valuation τ sig (Elt F) := after opsR5 (ch5 V)
abbrev ch7 (V : Valuation τ sig (Elt F)) : Valuation τ sig (Elt F) := after opsR6 (ch6 V)
abbrev ch8 (V : Valuation τ sig (Elt F)) : Valuation τ sig (Elt F) := after opsR7 (ch7 V)
abbrev ch9 (V : Valuation τ sig (Elt F)) : Valuation τ sig (Elt F) := after opsR8 (ch8 V)

theorem chA0 (V : Valuation τ sig (Elt F)) : ch0 V (Proc.devRef .tc main_arg0) = V (Proc.devRef .tc main_arg0) :=
  after_of_writes_sub _ _ hWH (by decide)
theorem chA1 (V : Valuation τ sig (Elt F)) : ch1 V (Proc.devRef .tc main_arg0) = V (Proc.devRef .tc main_arg0) :=
  (after_of_writes_sub _ _ hWR0 (by decide)).trans (chA0 V)
theorem chA2 (V : Valuation τ sig (Elt F)) : ch2 V (Proc.devRef .tc main_arg0) = V (Proc.devRef .tc main_arg0) :=
  (after_of_writes_sub _ _ hWR1 (by decide)).trans (chA1 V)
theorem chA3 (V : Valuation τ sig (Elt F)) : ch3 V (Proc.devRef .tc main_arg0) = V (Proc.devRef .tc main_arg0) :=
  (after_of_writes_sub _ _ hWR2 (by decide)).trans (chA2 V)
theorem chA4 (V : Valuation τ sig (Elt F)) : ch4 V (Proc.devRef .tc main_arg0) = V (Proc.devRef .tc main_arg0) :=
  (after_of_writes_sub _ _ hWR3 (by decide)).trans (chA3 V)
theorem chA5 (V : Valuation τ sig (Elt F)) : ch5 V (Proc.devRef .tc main_arg0) = V (Proc.devRef .tc main_arg0) :=
  (after_of_writes_sub _ _ hWR4 (by decide)).trans (chA4 V)
theorem chA6 (V : Valuation τ sig (Elt F)) : ch6 V (Proc.devRef .tc main_arg0) = V (Proc.devRef .tc main_arg0) :=
  (after_of_writes_sub _ _ hWR5 (by decide)).trans (chA5 V)
theorem chA7 (V : Valuation τ sig (Elt F)) : ch7 V (Proc.devRef .tc main_arg0) = V (Proc.devRef .tc main_arg0) :=
  (after_of_writes_sub _ _ hWR6 (by decide)).trans (chA6 V)
theorem chA8 (V : Valuation τ sig (Elt F)) : ch8 V (Proc.devRef .tc main_arg0) = V (Proc.devRef .tc main_arg0) :=
  (after_of_writes_sub _ _ hWR7 (by decide)).trans (chA7 V)
theorem chA9 (V : Valuation τ sig (Elt F)) : ch9 V (Proc.devRef .tc main_arg0) = V (Proc.devRef .tc main_arg0) :=
  (after_of_writes_sub _ _ hWR8 (by decide)).trans (chA8 V)

theorem chP0 (V : Valuation τ sig (Elt F)) : ch0 V (Proc.devRef .tc main_v0) = padT (V (Proc.devRef .tc main_arg4)) := rfl
theorem chP1 (V : Valuation τ sig (Elt F)) : ch1 V (Proc.devRef .tc main_v0) = padT (V (Proc.devRef .tc main_arg4)) :=
  (after_of_writes_sub _ _ hWR0 (by decide)).trans (chP0 V)
theorem chP2 (V : Valuation τ sig (Elt F)) : ch2 V (Proc.devRef .tc main_v0) = padT (V (Proc.devRef .tc main_arg4)) :=
  (after_of_writes_sub _ _ hWR1 (by decide)).trans (chP1 V)
theorem chP3 (V : Valuation τ sig (Elt F)) : ch3 V (Proc.devRef .tc main_v0) = padT (V (Proc.devRef .tc main_arg4)) :=
  (after_of_writes_sub _ _ hWR2 (by decide)).trans (chP2 V)
theorem chP4 (V : Valuation τ sig (Elt F)) : ch4 V (Proc.devRef .tc main_v0) = padT (V (Proc.devRef .tc main_arg4)) :=
  (after_of_writes_sub _ _ hWR3 (by decide)).trans (chP3 V)
theorem chP5 (V : Valuation τ sig (Elt F)) : ch5 V (Proc.devRef .tc main_v0) = padT (V (Proc.devRef .tc main_arg4)) :=
  (after_of_writes_sub _ _ hWR4 (by decide)).trans (chP4 V)
theorem chP6 (V : Valuation τ sig (Elt F)) : ch6 V (Proc.devRef .tc main_v0) = padT (V (Proc.devRef .tc main_arg4)) :=
  (after_of_writes_sub _ _ hWR5 (by decide)).trans (chP5 V)
theorem chP7 (V : Valuation τ sig (Elt F)) : ch7 V (Proc.devRef .tc main_v0) = padT (V (Proc.devRef .tc main_arg4)) :=
  (after_of_writes_sub _ _ hWR6 (by decide)).trans (chP6 V)
theorem chP8 (V : Valuation τ sig (Elt F)) : ch8 V (Proc.devRef .tc main_v0) = padT (V (Proc.devRef .tc main_arg4)) :=
  (after_of_writes_sub _ _ hWR7 (by decide)).trans (chP7 V)
theorem chP9 (V : Valuation τ sig (Elt F)) : ch9 V (Proc.devRef .tc main_v0) = padT (V (Proc.devRef .tc main_arg4)) :=
  (after_of_writes_sub _ _ hWR8 (by decide)).trans (chP8 V)

theorem chRow0_1 (V : Valuation τ sig (Elt Ideal)) :
    ch1 V (Proc.devRef .tc main_v37) = rowF 0 (V (Proc.devRef .tc main_arg0)) (V (Proc.devRef .tc main_arg4)) := by
  refine (evalR0 (ch0 V)).trans ?_
  rw [chA0 V, chP0 V]
  exact rowRead0 _ _
theorem chRow0_2 (V : Valuation τ sig (Elt Ideal)) :
    ch2 V (Proc.devRef .tc main_v37) = rowF 0 (V (Proc.devRef .tc main_arg0)) (V (Proc.devRef .tc main_arg4)) :=
  (after_of_writes_sub _ _ hWR1 (by decide)).trans (chRow0_1 V)
theorem chRow0_3 (V : Valuation τ sig (Elt Ideal)) :
    ch3 V (Proc.devRef .tc main_v37) = rowF 0 (V (Proc.devRef .tc main_arg0)) (V (Proc.devRef .tc main_arg4)) :=
  (after_of_writes_sub _ _ hWR2 (by decide)).trans (chRow0_2 V)
theorem chRow0_4 (V : Valuation τ sig (Elt Ideal)) :
    ch4 V (Proc.devRef .tc main_v37) = rowF 0 (V (Proc.devRef .tc main_arg0)) (V (Proc.devRef .tc main_arg4)) :=
  (after_of_writes_sub _ _ hWR3 (by decide)).trans (chRow0_3 V)
theorem chRow0_5 (V : Valuation τ sig (Elt Ideal)) :
    ch5 V (Proc.devRef .tc main_v37) = rowF 0 (V (Proc.devRef .tc main_arg0)) (V (Proc.devRef .tc main_arg4)) :=
  (after_of_writes_sub _ _ hWR4 (by decide)).trans (chRow0_4 V)
theorem chRow0_6 (V : Valuation τ sig (Elt Ideal)) :
    ch6 V (Proc.devRef .tc main_v37) = rowF 0 (V (Proc.devRef .tc main_arg0)) (V (Proc.devRef .tc main_arg4)) :=
  (after_of_writes_sub _ _ hWR5 (by decide)).trans (chRow0_5 V)
theorem chRow0_7 (V : Valuation τ sig (Elt Ideal)) :
    ch7 V (Proc.devRef .tc main_v37) = rowF 0 (V (Proc.devRef .tc main_arg0)) (V (Proc.devRef .tc main_arg4)) :=
  (after_of_writes_sub _ _ hWR6 (by decide)).trans (chRow0_6 V)
theorem chRow0_8 (V : Valuation τ sig (Elt Ideal)) :
    ch8 V (Proc.devRef .tc main_v37) = rowF 0 (V (Proc.devRef .tc main_arg0)) (V (Proc.devRef .tc main_arg4)) :=
  (after_of_writes_sub _ _ hWR7 (by decide)).trans (chRow0_7 V)
theorem chRow0_9 (V : Valuation τ sig (Elt Ideal)) :
    ch9 V (Proc.devRef .tc main_v37) = rowF 0 (V (Proc.devRef .tc main_arg0)) (V (Proc.devRef .tc main_arg4)) :=
  (after_of_writes_sub _ _ hWR8 (by decide)).trans (chRow0_8 V)
theorem chRow1_2 (V : Valuation τ sig (Elt Ideal)) :
    ch2 V (Proc.devRef .tc main_v74) = rowF 1 (V (Proc.devRef .tc main_arg0)) (V (Proc.devRef .tc main_arg4)) := by
  refine (evalR1 (ch1 V)).trans ?_
  rw [chA1 V, chP1 V]
  exact rowRead1 _ _
theorem chRow1_3 (V : Valuation τ sig (Elt Ideal)) :
    ch3 V (Proc.devRef .tc main_v74) = rowF 1 (V (Proc.devRef .tc main_arg0)) (V (Proc.devRef .tc main_arg4)) :=
  (after_of_writes_sub _ _ hWR2 (by decide)).trans (chRow1_2 V)
theorem chRow1_4 (V : Valuation τ sig (Elt Ideal)) :
    ch4 V (Proc.devRef .tc main_v74) = rowF 1 (V (Proc.devRef .tc main_arg0)) (V (Proc.devRef .tc main_arg4)) :=
  (after_of_writes_sub _ _ hWR3 (by decide)).trans (chRow1_3 V)
theorem chRow1_5 (V : Valuation τ sig (Elt Ideal)) :
    ch5 V (Proc.devRef .tc main_v74) = rowF 1 (V (Proc.devRef .tc main_arg0)) (V (Proc.devRef .tc main_arg4)) :=
  (after_of_writes_sub _ _ hWR4 (by decide)).trans (chRow1_4 V)
theorem chRow1_6 (V : Valuation τ sig (Elt Ideal)) :
    ch6 V (Proc.devRef .tc main_v74) = rowF 1 (V (Proc.devRef .tc main_arg0)) (V (Proc.devRef .tc main_arg4)) :=
  (after_of_writes_sub _ _ hWR5 (by decide)).trans (chRow1_5 V)
theorem chRow1_7 (V : Valuation τ sig (Elt Ideal)) :
    ch7 V (Proc.devRef .tc main_v74) = rowF 1 (V (Proc.devRef .tc main_arg0)) (V (Proc.devRef .tc main_arg4)) :=
  (after_of_writes_sub _ _ hWR6 (by decide)).trans (chRow1_6 V)
theorem chRow1_8 (V : Valuation τ sig (Elt Ideal)) :
    ch8 V (Proc.devRef .tc main_v74) = rowF 1 (V (Proc.devRef .tc main_arg0)) (V (Proc.devRef .tc main_arg4)) :=
  (after_of_writes_sub _ _ hWR7 (by decide)).trans (chRow1_7 V)
theorem chRow1_9 (V : Valuation τ sig (Elt Ideal)) :
    ch9 V (Proc.devRef .tc main_v74) = rowF 1 (V (Proc.devRef .tc main_arg0)) (V (Proc.devRef .tc main_arg4)) :=
  (after_of_writes_sub _ _ hWR8 (by decide)).trans (chRow1_8 V)
theorem chRow2_3 (V : Valuation τ sig (Elt Ideal)) :
    ch3 V (Proc.devRef .tc main_v111) = rowF 2 (V (Proc.devRef .tc main_arg0)) (V (Proc.devRef .tc main_arg4)) := by
  refine (evalR2 (ch2 V)).trans ?_
  rw [chA2 V, chP2 V]
  exact rowRead2 _ _
theorem chRow2_4 (V : Valuation τ sig (Elt Ideal)) :
    ch4 V (Proc.devRef .tc main_v111) = rowF 2 (V (Proc.devRef .tc main_arg0)) (V (Proc.devRef .tc main_arg4)) :=
  (after_of_writes_sub _ _ hWR3 (by decide)).trans (chRow2_3 V)
theorem chRow2_5 (V : Valuation τ sig (Elt Ideal)) :
    ch5 V (Proc.devRef .tc main_v111) = rowF 2 (V (Proc.devRef .tc main_arg0)) (V (Proc.devRef .tc main_arg4)) :=
  (after_of_writes_sub _ _ hWR4 (by decide)).trans (chRow2_4 V)
theorem chRow2_6 (V : Valuation τ sig (Elt Ideal)) :
    ch6 V (Proc.devRef .tc main_v111) = rowF 2 (V (Proc.devRef .tc main_arg0)) (V (Proc.devRef .tc main_arg4)) :=
  (after_of_writes_sub _ _ hWR5 (by decide)).trans (chRow2_5 V)
theorem chRow2_7 (V : Valuation τ sig (Elt Ideal)) :
    ch7 V (Proc.devRef .tc main_v111) = rowF 2 (V (Proc.devRef .tc main_arg0)) (V (Proc.devRef .tc main_arg4)) :=
  (after_of_writes_sub _ _ hWR6 (by decide)).trans (chRow2_6 V)
theorem chRow2_8 (V : Valuation τ sig (Elt Ideal)) :
    ch8 V (Proc.devRef .tc main_v111) = rowF 2 (V (Proc.devRef .tc main_arg0)) (V (Proc.devRef .tc main_arg4)) :=
  (after_of_writes_sub _ _ hWR7 (by decide)).trans (chRow2_7 V)
theorem chRow2_9 (V : Valuation τ sig (Elt Ideal)) :
    ch9 V (Proc.devRef .tc main_v111) = rowF 2 (V (Proc.devRef .tc main_arg0)) (V (Proc.devRef .tc main_arg4)) :=
  (after_of_writes_sub _ _ hWR8 (by decide)).trans (chRow2_8 V)
theorem chRow3_4 (V : Valuation τ sig (Elt Ideal)) :
    ch4 V (Proc.devRef .tc main_v148) = rowF 3 (V (Proc.devRef .tc main_arg0)) (V (Proc.devRef .tc main_arg4)) := by
  refine (evalR3 (ch3 V)).trans ?_
  rw [chA3 V, chP3 V]
  exact rowRead3 _ _
theorem chRow3_5 (V : Valuation τ sig (Elt Ideal)) :
    ch5 V (Proc.devRef .tc main_v148) = rowF 3 (V (Proc.devRef .tc main_arg0)) (V (Proc.devRef .tc main_arg4)) :=
  (after_of_writes_sub _ _ hWR4 (by decide)).trans (chRow3_4 V)
theorem chRow3_6 (V : Valuation τ sig (Elt Ideal)) :
    ch6 V (Proc.devRef .tc main_v148) = rowF 3 (V (Proc.devRef .tc main_arg0)) (V (Proc.devRef .tc main_arg4)) :=
  (after_of_writes_sub _ _ hWR5 (by decide)).trans (chRow3_5 V)
theorem chRow3_7 (V : Valuation τ sig (Elt Ideal)) :
    ch7 V (Proc.devRef .tc main_v148) = rowF 3 (V (Proc.devRef .tc main_arg0)) (V (Proc.devRef .tc main_arg4)) :=
  (after_of_writes_sub _ _ hWR6 (by decide)).trans (chRow3_6 V)
theorem chRow3_8 (V : Valuation τ sig (Elt Ideal)) :
    ch8 V (Proc.devRef .tc main_v148) = rowF 3 (V (Proc.devRef .tc main_arg0)) (V (Proc.devRef .tc main_arg4)) :=
  (after_of_writes_sub _ _ hWR7 (by decide)).trans (chRow3_7 V)
theorem chRow3_9 (V : Valuation τ sig (Elt Ideal)) :
    ch9 V (Proc.devRef .tc main_v148) = rowF 3 (V (Proc.devRef .tc main_arg0)) (V (Proc.devRef .tc main_arg4)) :=
  (after_of_writes_sub _ _ hWR8 (by decide)).trans (chRow3_8 V)
theorem chRow4_5 (V : Valuation τ sig (Elt Ideal)) :
    ch5 V (Proc.devRef .tc main_v185) = rowF 4 (V (Proc.devRef .tc main_arg0)) (V (Proc.devRef .tc main_arg4)) := by
  refine (evalR4 (ch4 V)).trans ?_
  rw [chA4 V, chP4 V]
  exact rowRead4 _ _
theorem chRow4_6 (V : Valuation τ sig (Elt Ideal)) :
    ch6 V (Proc.devRef .tc main_v185) = rowF 4 (V (Proc.devRef .tc main_arg0)) (V (Proc.devRef .tc main_arg4)) :=
  (after_of_writes_sub _ _ hWR5 (by decide)).trans (chRow4_5 V)
theorem chRow4_7 (V : Valuation τ sig (Elt Ideal)) :
    ch7 V (Proc.devRef .tc main_v185) = rowF 4 (V (Proc.devRef .tc main_arg0)) (V (Proc.devRef .tc main_arg4)) :=
  (after_of_writes_sub _ _ hWR6 (by decide)).trans (chRow4_6 V)
theorem chRow4_8 (V : Valuation τ sig (Elt Ideal)) :
    ch8 V (Proc.devRef .tc main_v185) = rowF 4 (V (Proc.devRef .tc main_arg0)) (V (Proc.devRef .tc main_arg4)) :=
  (after_of_writes_sub _ _ hWR7 (by decide)).trans (chRow4_7 V)
theorem chRow4_9 (V : Valuation τ sig (Elt Ideal)) :
    ch9 V (Proc.devRef .tc main_v185) = rowF 4 (V (Proc.devRef .tc main_arg0)) (V (Proc.devRef .tc main_arg4)) :=
  (after_of_writes_sub _ _ hWR8 (by decide)).trans (chRow4_8 V)
theorem chRow5_6 (V : Valuation τ sig (Elt Ideal)) :
    ch6 V (Proc.devRef .tc main_v222) = rowF 5 (V (Proc.devRef .tc main_arg0)) (V (Proc.devRef .tc main_arg4)) := by
  refine (evalR5 (ch5 V)).trans ?_
  rw [chA5 V, chP5 V]
  exact rowRead5 _ _
theorem chRow5_7 (V : Valuation τ sig (Elt Ideal)) :
    ch7 V (Proc.devRef .tc main_v222) = rowF 5 (V (Proc.devRef .tc main_arg0)) (V (Proc.devRef .tc main_arg4)) :=
  (after_of_writes_sub _ _ hWR6 (by decide)).trans (chRow5_6 V)
theorem chRow5_8 (V : Valuation τ sig (Elt Ideal)) :
    ch8 V (Proc.devRef .tc main_v222) = rowF 5 (V (Proc.devRef .tc main_arg0)) (V (Proc.devRef .tc main_arg4)) :=
  (after_of_writes_sub _ _ hWR7 (by decide)).trans (chRow5_7 V)
theorem chRow5_9 (V : Valuation τ sig (Elt Ideal)) :
    ch9 V (Proc.devRef .tc main_v222) = rowF 5 (V (Proc.devRef .tc main_arg0)) (V (Proc.devRef .tc main_arg4)) :=
  (after_of_writes_sub _ _ hWR8 (by decide)).trans (chRow5_8 V)
theorem chRow6_7 (V : Valuation τ sig (Elt Ideal)) :
    ch7 V (Proc.devRef .tc main_v259) = rowF 6 (V (Proc.devRef .tc main_arg0)) (V (Proc.devRef .tc main_arg4)) := by
  refine (evalR6 (ch6 V)).trans ?_
  rw [chA6 V, chP6 V]
  exact rowRead6 _ _
theorem chRow6_8 (V : Valuation τ sig (Elt Ideal)) :
    ch8 V (Proc.devRef .tc main_v259) = rowF 6 (V (Proc.devRef .tc main_arg0)) (V (Proc.devRef .tc main_arg4)) :=
  (after_of_writes_sub _ _ hWR7 (by decide)).trans (chRow6_7 V)
theorem chRow6_9 (V : Valuation τ sig (Elt Ideal)) :
    ch9 V (Proc.devRef .tc main_v259) = rowF 6 (V (Proc.devRef .tc main_arg0)) (V (Proc.devRef .tc main_arg4)) :=
  (after_of_writes_sub _ _ hWR8 (by decide)).trans (chRow6_8 V)
theorem chRow7_8 (V : Valuation τ sig (Elt Ideal)) :
    ch8 V (Proc.devRef .tc main_v296) = rowF 7 (V (Proc.devRef .tc main_arg0)) (V (Proc.devRef .tc main_arg4)) := by
  refine (evalR7 (ch7 V)).trans ?_
  rw [chA7 V, chP7 V]
  exact rowRead7 _ _
theorem chRow7_9 (V : Valuation τ sig (Elt Ideal)) :
    ch9 V (Proc.devRef .tc main_v296) = rowF 7 (V (Proc.devRef .tc main_arg0)) (V (Proc.devRef .tc main_arg4)) :=
  (after_of_writes_sub _ _ hWR8 (by decide)).trans (chRow7_8 V)
theorem chRow8_9 (V : Valuation τ sig (Elt Ideal)) :
    ch9 V (Proc.devRef .tc main_v333) = rowF 8 (V (Proc.devRef .tc main_arg0)) (V (Proc.devRef .tc main_arg4)) := by
  refine (evalR8 (ch8 V)).trans ?_
  rw [chA8 V, chP8 V]
  exact rowRead8 _ _

/-- The level's result after its operations: g5 of the two feature maps as the level finds them. -/
theorem level_res (V : Valuation τ sig (Elt Ideal)) :
    after (opsL (F := Ideal)) V (Proc.devRef .tc main_v343) = g5 (V (Proc.devRef .tc main_arg0)) (V (Proc.devRef .tc main_arg4)) := by
  simp only [opsL, StableHlo.after_append]
  refine (evalT (ch9 V)).trans ?_
  rw [chRow0_9 V, chRow1_9 V, chRow2_9 V, chRow3_9 V, chRow4_9 V, chRow5_9 V, chRow6_9 V, chRow7_9 V, chRow8_9 V]
  exact tailRead _ _

end Cert.ReferenceIdeal.Lvl0

end
-- ==== Proof.RefOps1.lean ====
/-
  Level 1 of the reference: its 427 host operations in order, cut into the header (a zero constant, its conversion to a
  float, the zero pad of b), the nine rows of 46 operations and the tail of 10; for each stretch the buffers it writes,
  that every operation touches TensorCore buffers only, and that none allocates.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl1

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

abbrev opsH : List (HloOp τ sig (Elt F)) :=
  [ nullary main_c_80 (constantI S_ 32 0#32),
    TRef.unary (TRef.of (T := ⟨S_, .i32⟩) main_c_80) (TRef.of (T := ⟨S_, .f32⟩) main_call1_v0) (sitofp .f32),
    TRef.binary (TRef.of (T := ⟨S8x128x56x56, .f32⟩) main_arg5) (TRef.of (T := ⟨S_, .f32⟩) main_call1_v0) (TRef.of (T := ⟨S8x128x64x64, .f32⟩) main_v344) (fun x v => pad S8x128x64x64 ![0, 0, 4, 4] ![0, 0, 4, 4] ![0, 0, 0, 0] x v pads_S8x128x56x56_S8x128x64x64_000_000_440_440 h_S_) ]

abbrev opsR0 : List (HloOp τ sig (Elt F)) :=
  [ unary main_v344 main_v345 ((extractStridedSlice S8x128x56x56 ![0, 0, 0, 0] · slices_S8x128x64x64_S8x128x56x56_0_0_0_0) : (⟨S8x128x64x64, .f32⟩ : BufTy).Contents (Elt F) → (⟨S8x128x56x56, .f32⟩ : BufTy).Contents (Elt F)),
    binary main_arg1 main_v345 main_v346 (mulf : (⟨S8x128x56x56, .f32⟩ : BufTy).Contents (Elt F) → (⟨S8x128x56x56, .f32⟩ : BufTy).Contents (Elt F) → (⟨S8x128x56x56, .f32⟩ : BufTy).Contents (Elt F)),
    nullary main_cst_81 (constant S_ .f32 0x00000000#32),
    binary main_v346 main_cst_81 main_v347 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v348 ((extractStridedSlice S8x128x56x56 ![0, 0, 0, 1] · slices_S8x128x64x64_S8x128x56x56_0_0_0_1) : (⟨S8x128x64x64, .f32⟩ : BufTy).Contents (Elt F) → (⟨S8x128x56x56, .f32⟩ : BufTy).Contents (Elt F)),
    binary main_arg1 main_v348 main_v349 (mulf : (⟨S8x128x56x56, .f32⟩ : BufTy).Contents (Elt F) → (⟨S8x128x56x56, .f32⟩ : BufTy).Contents (Elt F) → (⟨S8x128x56x56, .f32⟩ : BufTy).Contents (Elt F)),
    nullary main_cst_82 (constant S_ .f32 0x00000000#32),
    binary main_v349 main_cst_82 main_v350 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v351 ((extractStridedSlice S8x128x56x56 ![0, 0, 0, 2] · slices_S8x128x64x64_S8x128x56x56_0_0_0_2) : (⟨S8x128x64x64, .f32⟩ : BufTy).Contents (Elt F) → (⟨S8x128x56x56, .f32⟩ : BufTy).Contents (Elt F)),
    binary main_arg1 main_v351 main_v352 (mulf : (⟨S8x128x56x56, .f32⟩ : BufTy).Contents (Elt F) → (⟨S8x128x56x56, .f32⟩ : BufTy).Contents (Elt F) → (⟨S8x128x56x56, .f32⟩ : BufTy).Contents (Elt F)),
    nullary main_cst_83 (constant S_ .f32 0x00000000#32),
    binary main_v352 main_cst_83 main_v353 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v354 ((extractStridedSlice S8x128x56x56 ![0, 0, 0, 3] · slices_S8x128x64x64_S8x128x56x56_0_0_0_3) : (⟨S8x128x64x64, .f32⟩ : BufTy).Contents (Elt F) → (⟨S8x128x56x56, .f32⟩ : BufTy).Contents (Elt F)),
    binary main_arg1 main_v354 main_v355 (mulf : (⟨S8x128x56x56, .f32⟩ : BufTy).Contents (Elt F) → (⟨S8x128x56x56, .f32⟩ : BufTy).Contents (Elt F) → (⟨S8x128x56x56, .f32⟩ : BufTy).Contents (Elt F)),
    nullary main_cst_84 (constant S_ .f32 0x00000000#32),
    binary main_v355 main_cst_84 main_v356 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v357 ((extractStridedSlice S8x128x56x56 ![0, 0, 0, 4] · slices_S8x128x64x64_S8x128x56x56_0_0_0_4) : (⟨S8x128x64x64, .f32⟩ : BufTy).Contents (Elt F) → (⟨S8x128x56x56, .f32⟩ : BufTy).Contents (Elt F)),
    binary main_arg1 main_v357 main_v358 (mulf : (⟨S8x128x56x56, .f32⟩ : BufTy).Contents (Elt F) → (⟨S8x128x56x56, .f32⟩ : BufTy).Contents (Elt F) → (⟨S8x128x56x56, .f32⟩ : BufTy).Contents (Elt F)),
    nullary main_cst_85 (constant S_ .f32 0x00000000#32),
    binary main_v358 main_cst_85 main_v359 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v360 ((extractStridedSlice S8x128x56x56 ![0, 0, 0, 5] · slices_S8x128x64x64_S8x128x56x56_0_0_0_5) : (⟨S8x128x64x64, .f32⟩ : BufTy).Contents (Elt F) → (⟨S8x128x56x56, .f32⟩ : BufTy).Contents (Elt F)),
    binary main_arg1 main_v360 main_v361 (mulf : (⟨S8x128x56x56, .f32⟩ : BufTy).Contents (Elt F) → (⟨S8x128x56x56, .f32⟩ : BufTy).Contents (Elt F) → (⟨S8x128x56x56, .f32⟩ : BufTy).Contents (Elt F)),
    nullary main_cst_86 (constant S_ .f32 0x00000000#32),
    binary main_v361 main_cst_86 main_v362 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v363 ((extractStridedSlice S8x128x56x56 ![0, 0, 0, 6] · slices_S8x128x64x64_S8x128x56x56_0_0_0_6) : (⟨S8x128x64x64, .f32⟩ : BufTy).Contents (Elt F) → (⟨S8x128x56x56, .f32⟩ : BufTy).Contents (Elt F)),
    binary main_arg1 main_v363 main_v364 (mulf : (⟨S8x128x56x56, .f32⟩ : BufTy).Contents (Elt F) → (⟨S8x128x56x56, .f32⟩ : BufTy).Contents (Elt F) → (⟨S8x128x56x56, .f32⟩ : BufTy).Contents (Elt F)),
    nullary main_cst_87 (constant S_ .f32 0x00000000#32),
    binary main_v364 main_cst_87 main_v365 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v366 ((extractStridedSlice S8x128x56x56 ![0, 0, 0, 7] · slices_S8x128x64x64_S8x128x56x56_0_0_0_7) : (⟨S8x128x64x64, .f32⟩ : BufTy).Contents (Elt F) → (⟨S8x128x56x56, .f32⟩ : BufTy).Contents (Elt F)),
    binary main_arg1 main_v366 main_v367 (mulf : (⟨S8x128x56x56, .f32⟩ : BufTy).Contents (Elt F) → (⟨S8x128x56x56, .f32⟩ : BufTy).Contents (Elt F) → (⟨S8x128x56x56, .f32⟩ : BufTy).Contents (Elt F)),
    nullary main_cst_88 (constant S_ .f32 0x00000000#32),
    binary main_v367 main_cst_88 main_v368 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v369 ((extractStridedSlice S8x128x56x56 ![0, 0, 0, 8] · slices_S8x128x64x64_S8x128x56x56_0_0_0_8) : (⟨S8x128x64x64, .f32⟩ : BufTy).Contents (Elt F) → (⟨S8x128x56x56, .f32⟩ : BufTy).Contents (Elt F)),
    binary main_arg1 main_v369 main_v370 (mulf : (⟨S8x128x56x56, .f32⟩ : BufTy).Contents (Elt F) → (⟨S8x128x56x56, .f32⟩ : BufTy).Contents (Elt F) → (⟨S8x128x56x56, .f32⟩ : BufTy).Contents (Elt F)),
    nullary main_cst_89 (constant S_ .f32 0x00000000#32),
    binary main_v370 main_cst_89 main_v371 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v347 main_v372 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v350 main_v373 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v353 main_v374 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v356 main_v375 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v359 main_v376 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v362 main_v377 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v365 main_v378 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v368 main_v379 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v371 main_v380 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v372, main_v373, main_v374, main_v375, main_v376, main_v377, main_v378, main_v379, main_v380] main_v381 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR1 : List (HloOp τ sig (Elt F)) :=
  [ unary main_v344 main_v382 ((extractStridedSlice S8x128x56x56 ![0, 0, 1, 0] · slices_S8x128x64x64_S8x128x56x56_0_0_1_0) : (⟨S8x128x64x64, .f32⟩ : BufTy).Contents (Elt F) → (⟨S8x128x56x56, .f32⟩ : BufTy).Contents (Elt F)),
    binary main_arg1 main_v382 main_v383 (mulf : (⟨S8x128x56x56, .f32⟩ : BufTy).Contents (Elt F) → (⟨S8x128x56x56, .f32⟩ : BufTy).Contents (Elt F) → (⟨S8x128x56x56, .f32⟩ : BufTy).Contents (Elt F)),
    nullary main_cst_90 (constant S_ .f32 0x00000000#32),
    binary main_v383 main_cst_90 main_v384 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v385 ((extractStridedSlice S8x128x56x56 ![0, 0, 1, 1] · slices_S8x128x64x64_S8x128x56x56_0_0_1_1) : (⟨S8x128x64x64, .f32⟩ : BufTy).Contents (Elt F) → (⟨S8x128x56x56, .f32⟩ : BufTy).Contents (Elt F)),
    binary main_arg1 main_v385 main_v386 (mulf : (⟨S8x128x56x56, .f32⟩ : BufTy).Contents (Elt F) → (⟨S8x128x56x56, .f32⟩ : BufTy).Contents (Elt F) → (⟨S8x128x56x56, .f32⟩ : BufTy).Contents (Elt F)),
    nullary main_cst_91 (constant S_ .f32 0x00000000#32),
    binary main_v386 main_cst_91 main_v387 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v388 ((extractStridedSlice S8x128x56x56 ![0, 0, 1, 2] · slices_S8x128x64x64_S8x128x56x56_0_0_1_2) : (⟨S8x128x64x64, .f32⟩ : BufTy).Contents (Elt F) → (⟨S8x128x56x56, .f32⟩ : BufTy).Contents (Elt F)),
    binary main_arg1 main_v388 main_v389 (mulf : (⟨S8x128x56x56, .f32⟩ : BufTy).Contents (Elt F) → (⟨S8x128x56x56, .f32⟩ : BufTy).Contents (Elt F) → (⟨S8x128x56x56, .f32⟩ : BufTy).Contents (Elt F)),
    nullary main_cst_92 (constant S_ .f32 0x00000000#32),
    binary main_v389 main_cst_92 main_v390 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v391 ((extractStridedSlice S8x128x56x56 ![0, 0, 1, 3] · slices_S8x128x64x64_S8x128x56x56_0_0_1_3) : (⟨S8x128x64x64, .f32⟩ : BufTy).Contents (Elt F) → (⟨S8x128x56x56, .f32⟩ : BufTy).Contents (Elt F)),
    binary main_arg1 main_v391 main_v392 (mulf : (⟨S8x128x56x56, .f32⟩ : BufTy).Contents (Elt F) → (⟨S8x128x56x56, .f32⟩ : BufTy).Contents (Elt F) → (⟨S8x128x56x56, .f32⟩ : BufTy).Contents (Elt F)),
    nullary main_cst_93 (constant S_ .f32 0x00000000#32),
    binary main_v392 main_cst_93 main_v393 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v394 ((extractStridedSlice S8x128x56x56 ![0, 0, 1, 4] · slices_S8x128x64x64_S8x128x56x56_0_0_1_4) : (⟨S8x128x64x64, .f32⟩ : BufTy).Contents (Elt F) → (⟨S8x128x56x56, .f32⟩ : BufTy).Contents (Elt F)),
    binary main_arg1 main_v394 main_v395 (mulf : (⟨S8x128x56x56, .f32⟩ : BufTy).Contents (Elt F) → (⟨S8x128x56x56, .f32⟩ : BufTy).Contents (Elt F) → (⟨S8x128x56x56, .f32⟩ : BufTy).Contents (Elt F)),
    nullary main_cst_94 (constant S_ .f32 0x00000000#32),
    binary main_v395 main_cst_94 main_v396 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v397 ((extractStridedSlice S8x128x56x56 ![0, 0, 1, 5] · slices_S8x128x64x64_S8x128x56x56_0_0_1_5) : (⟨S8x128x64x64, .f32⟩ : BufTy).Contents (Elt F) → (⟨S8x128x56x56, .f32⟩ : BufTy).Contents (Elt F)),
    binary main_arg1 main_v397 main_v398 (mulf : (⟨S8x128x56x56, .f32⟩ : BufTy).Contents (Elt F) → (⟨S8x128x56x56, .f32⟩ : BufTy).Contents (Elt F) → (⟨S8x128x56x56, .f32⟩ : BufTy).Contents (Elt F)),
    nullary main_cst_95 (constant S_ .f32 0x00000000#32),
    binary main_v398 main_cst_95 main_v399 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v400 ((extractStridedSlice S8x128x56x56 ![0, 0, 1, 6] · slices_S8x128x64x64_S8x128x56x56_0_0_1_6) : (⟨S8x128x64x64, .f32⟩ : BufTy).Contents (Elt F) → (⟨S8x128x56x56, .f32⟩ : BufTy).Contents (Elt F)),
    binary main_arg1 main_v400 main_v401 (mulf : (⟨S8x128x56x56, .f32⟩ : BufTy).Contents (Elt F) → (⟨S8x128x56x56, .f32⟩ : BufTy).Contents (Elt F) → (⟨S8x128x56x56, .f32⟩ : BufTy).Contents (Elt F)),
    nullary main_cst_96 (constant S_ .f32 0x00000000#32),
    binary main_v401 main_cst_96 main_v402 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v403 ((extractStridedSlice S8x128x56x56 ![0, 0, 1, 7] · slices_S8x128x64x64_S8x128x56x56_0_0_1_7) : (⟨S8x128x64x64, .f32⟩ : BufTy).Contents (Elt F) → (⟨S8x128x56x56, .f32⟩ : BufTy).Contents (Elt F)),
    binary main_arg1 main_v403 main_v404 (mulf : (⟨S8x128x56x56, .f32⟩ : BufTy).Contents (Elt F) → (⟨S8x128x56x56, .f32⟩ : BufTy).Contents (Elt F) → (⟨S8x128x56x56, .f32⟩ : BufTy).Contents (Elt F)),
    nullary main_cst_97 (constant S_ .f32 0x00000000#32),
    binary main_v404 main_cst_97 main_v405 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v406 ((extractStridedSlice S8x128x56x56 ![0, 0, 1, 8] · slices_S8x128x64x64_S8x128x56x56_0_0_1_8) : (⟨S8x128x64x64, .f32⟩ : BufTy).Contents (Elt F) → (⟨S8x128x56x56, .f32⟩ : BufTy).Contents (Elt F)),
    binary main_arg1 main_v406 main_v407 (mulf : (⟨S8x128x56x56, .f32⟩ : BufTy).Contents (Elt F) → (⟨S8x128x56x56, .f32⟩ : BufTy).Contents (Elt F) → (⟨S8x128x56x56, .f32⟩ : BufTy).Contents (Elt F)),
    nullary main_cst_98 (constant S_ .f32 0x00000000#32),
    binary main_v407 main_cst_98 main_v408 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v384 main_v409 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v387 main_v410 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v390 main_v411 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v393 main_v412 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v396 main_v413 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v399 main_v414 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v402 main_v415 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v405 main_v416 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v408 main_v417 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v409, main_v410, main_v411, main_v412, main_v413, main_v414, main_v415, main_v416, main_v417] main_v418 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR2 : List (HloOp τ sig (Elt F)) :=
  [ unary main_v344 main_v419 ((extractStridedSlice S8x128x56x56 ![0, 0, 2, 0] · slices_S8x128x64x64_S8x128x56x56_0_0_2_0) : (⟨S8x128x64x64, .f32⟩ : BufTy).Contents (Elt F) → (⟨S8x128x56x56, .f32⟩ : BufTy).Contents (Elt F)),
    binary main_arg1 main_v419 main_v420 (mulf : (⟨S8x128x56x56, .f32⟩ : BufTy).Contents (Elt F) → (⟨S8x128x56x56, .f32⟩ : BufTy).Contents (Elt F) → (⟨S8x128x56x56, .f32⟩ : BufTy).Contents (Elt F)),
    nullary main_cst_99 (constant S_ .f32 0x00000000#32),
    binary main_v420 main_cst_99 main_v421 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v422 ((extractStridedSlice S8x128x56x56 ![0, 0, 2, 1] · slices_S8x128x64x64_S8x128x56x56_0_0_2_1) : (⟨S8x128x64x64, .f32⟩ : BufTy).Contents (Elt F) → (⟨S8x128x56x56, .f32⟩ : BufTy).Contents (Elt F)),
    binary main_arg1 main_v422 main_v423 (mulf : (⟨S8x128x56x56, .f32⟩ : BufTy).Contents (Elt F) → (⟨S8x128x56x56, .f32⟩ : BufTy).Contents (Elt F) → (⟨S8x128x56x56, .f32⟩ : BufTy).Contents (Elt F)),
    nullary main_cst_100 (constant S_ .f32 0x00000000#32),
    binary main_v423 main_cst_100 main_v424 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v425 ((extractStridedSlice S8x128x56x56 ![0, 0, 2, 2] · slices_S8x128x64x64_S8x128x56x56_0_0_2_2) : (⟨S8x128x64x64, .f32⟩ : BufTy).Contents (Elt F) → (⟨S8x128x56x56, .f32⟩ : BufTy).Contents (Elt F)),
    binary main_arg1 main_v425 main_v426 (mulf : (⟨S8x128x56x56, .f32⟩ : BufTy).Contents (Elt F) → (⟨S8x128x56x56, .f32⟩ : BufTy).Contents (Elt F) → (⟨S8x128x56x56, .f32⟩ : BufTy).Contents (Elt F)),
    nullary main_cst_101 (constant S_ .f32 0x00000000#32),
    binary main_v426 main_cst_101 main_v427 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v428 ((extractStridedSlice S8x128x56x56 ![0, 0, 2, 3] · slices_S8x128x64x64_S8x128x56x56_0_0_2_3) : (⟨S8x128x64x64, .f32⟩ : BufTy).Contents (Elt F) → (⟨S8x128x56x56, .f32⟩ : BufTy).Contents (Elt F)),
    binary main_arg1 main_v428 main_v429 (mulf : (⟨S8x128x56x56, .f32⟩ : BufTy).Contents (Elt F) → (⟨S8x128x56x56, .f32⟩ : BufTy).Contents (Elt F) → (⟨S8x128x56x56, .f32⟩ : BufTy).Contents (Elt F)),
    nullary main_cst_102 (constant S_ .f32 0x00000000#32),
    binary main_v429 main_cst_102 main_v430 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v431 ((extractStridedSlice S8x128x56x56 ![0, 0, 2, 4] · slices_S8x128x64x64_S8x128x56x56_0_0_2_4) : (⟨S8x128x64x64, .f32⟩ : BufTy).Contents (Elt F) → (⟨S8x128x56x56, .f32⟩ : BufTy).Contents (Elt F)),
    binary main_arg1 main_v431 main_v432 (mulf : (⟨S8x128x56x56, .f32⟩ : BufTy).Contents (Elt F) → (⟨S8x128x56x56, .f32⟩ : BufTy).Contents (Elt F) → (⟨S8x128x56x56, .f32⟩ : BufTy).Contents (Elt F)),
    nullary main_cst_103 (constant S_ .f32 0x00000000#32),
    binary main_v432 main_cst_103 main_v433 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v434 ((extractStridedSlice S8x128x56x56 ![0, 0, 2, 5] · slices_S8x128x64x64_S8x128x56x56_0_0_2_5) : (⟨S8x128x64x64, .f32⟩ : BufTy).Contents (Elt F) → (⟨S8x128x56x56, .f32⟩ : BufTy).Contents (Elt F)),
    binary main_arg1 main_v434 main_v435 (mulf : (⟨S8x128x56x56, .f32⟩ : BufTy).Contents (Elt F) → (⟨S8x128x56x56, .f32⟩ : BufTy).Contents (Elt F) → (⟨S8x128x56x56, .f32⟩ : BufTy).Contents (Elt F)),
    nullary main_cst_104 (constant S_ .f32 0x00000000#32),
    binary main_v435 main_cst_104 main_v436 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v437 ((extractStridedSlice S8x128x56x56 ![0, 0, 2, 6] · slices_S8x128x64x64_S8x128x56x56_0_0_2_6) : (⟨S8x128x64x64, .f32⟩ : BufTy).Contents (Elt F) → (⟨S8x128x56x56, .f32⟩ : BufTy).Contents (Elt F)),
    binary main_arg1 main_v437 main_v438 (mulf : (⟨S8x128x56x56, .f32⟩ : BufTy).Contents (Elt F) → (⟨S8x128x56x56, .f32⟩ : BufTy).Contents (Elt F) → (⟨S8x128x56x56, .f32⟩ : BufTy).Contents (Elt F)),
    nullary main_cst_105 (constant S_ .f32 0x00000000#32),
    binary main_v438 main_cst_105 main_v439 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v440 ((extractStridedSlice S8x128x56x56 ![0, 0, 2, 7] · slices_S8x128x64x64_S8x128x56x56_0_0_2_7) : (⟨S8x128x64x64, .f32⟩ : BufTy).Contents (Elt F) → (⟨S8x128x56x56, .f32⟩ : BufTy).Contents (Elt F)),
    binary main_arg1 main_v440 main_v441 (mulf : (⟨S8x128x56x56, .f32⟩ : BufTy).Contents (Elt F) → (⟨S8x128x56x56, .f32⟩ : BufTy).Contents (Elt F) → (⟨S8x128x56x56, .f32⟩ : BufTy).Contents (Elt F)),
    nullary main_cst_106 (constant S_ .f32 0x00000000#32),
    binary main_v441 main_cst_106 main_v442 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v443 ((extractStridedSlice S8x128x56x56 ![0, 0, 2, 8] · slices_S8x128x64x64_S8x128x56x56_0_0_2_8) : (⟨S8x128x64x64, .f32⟩ : BufTy).Contents (Elt F) → (⟨S8x128x56x56, .f32⟩ : BufTy).Contents (Elt F)),
    binary main_arg1 main_v443 main_v444 (mulf : (⟨S8x128x56x56, .f32⟩ : BufTy).Contents (Elt F) → (⟨S8x128x56x56, .f32⟩ : BufTy).Contents (Elt F) → (⟨S8x128x56x56, .f32⟩ : BufTy).Contents (Elt F)),
    nullary main_cst_107 (constant S_ .f32 0x00000000#32),
    binary main_v444 main_cst_107 main_v445 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v421 main_v446 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v424 main_v447 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v427 main_v448 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v430 main_v449 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v433 main_v450 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v436 main_v451 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v439 main_v452 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v442 main_v453 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v445 main_v454 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v446, main_v447, main_v448, main_v449, main_v450, main_v451, main_v452, main_v453, main_v454] main_v455 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR3 : List (HloOp τ sig (Elt F)) :=
  [ unary main_v344 main_v456 ((extractStridedSlice S8x128x56x56 ![0, 0, 3, 0] · slices_S8x128x64x64_S8x128x56x56_0_0_3_0) : (⟨S8x128x64x64, .f32⟩ : BufTy).Contents (Elt F) → (⟨S8x128x56x56, .f32⟩ : BufTy).Contents (Elt F)),
    binary main_arg1 main_v456 main_v457 (mulf : (⟨S8x128x56x56, .f32⟩ : BufTy).Contents (Elt F) → (⟨S8x128x56x56, .f32⟩ : BufTy).Contents (Elt F) → (⟨S8x128x56x56, .f32⟩ : BufTy).Contents (Elt F)),
    nullary main_cst_108 (constant S_ .f32 0x00000000#32),
    binary main_v457 main_cst_108 main_v458 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v459 ((extractStridedSlice S8x128x56x56 ![0, 0, 3, 1] · slices_S8x128x64x64_S8x128x56x56_0_0_3_1) : (⟨S8x128x64x64, .f32⟩ : BufTy).Contents (Elt F) → (⟨S8x128x56x56, .f32⟩ : BufTy).Contents (Elt F)),
    binary main_arg1 main_v459 main_v460 (mulf : (⟨S8x128x56x56, .f32⟩ : BufTy).Contents (Elt F) → (⟨S8x128x56x56, .f32⟩ : BufTy).Contents (Elt F) → (⟨S8x128x56x56, .f32⟩ : BufTy).Contents (Elt F)),
    nullary main_cst_109 (constant S_ .f32 0x00000000#32),
    binary main_v460 main_cst_109 main_v461 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v462 ((extractStridedSlice S8x128x56x56 ![0, 0, 3, 2] · slices_S8x128x64x64_S8x128x56x56_0_0_3_2) : (⟨S8x128x64x64, .f32⟩ : BufTy).Contents (Elt F) → (⟨S8x128x56x56, .f32⟩ : BufTy).Contents (Elt F)),
    binary main_arg1 main_v462 main_v463 (mulf : (⟨S8x128x56x56, .f32⟩ : BufTy).Contents (Elt F) → (⟨S8x128x56x56, .f32⟩ : BufTy).Contents (Elt F) → (⟨S8x128x56x56, .f32⟩ : BufTy).Contents (Elt F)),
    nullary main_cst_110 (constant S_ .f32 0x00000000#32),
    binary main_v463 main_cst_110 main_v464 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v465 ((extractStridedSlice S8x128x56x56 ![0, 0, 3, 3] · slices_S8x128x64x64_S8x128x56x56_0_0_3_3) : (⟨S8x128x64x64, .f32⟩ : BufTy).Contents (Elt F) → (⟨S8x128x56x56, .f32⟩ : BufTy).Contents (Elt F)),
    binary main_arg1 main_v465 main_v466 (mulf : (⟨S8x128x56x56, .f32⟩ : BufTy).Contents (Elt F) → (⟨S8x128x56x56, .f32⟩ : BufTy).Contents (Elt F) → (⟨S8x128x56x56, .f32⟩ : BufTy).Contents (Elt F)),
    nullary main_cst_111 (constant S_ .f32 0x00000000#32),
    binary main_v466 main_cst_111 main_v467 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v468 ((extractStridedSlice S8x128x56x56 ![0, 0, 3, 4] · slices_S8x128x64x64_S8x128x56x56_0_0_3_4) : (⟨S8x128x64x64, .f32⟩ : BufTy).Contents (Elt F) → (⟨S8x128x56x56, .f32⟩ : BufTy).Contents (Elt F)),
    binary main_arg1 main_v468 main_v469 (mulf : (⟨S8x128x56x56, .f32⟩ : BufTy).Contents (Elt F) → (⟨S8x128x56x56, .f32⟩ : BufTy).Contents (Elt F) → (⟨S8x128x56x56, .f32⟩ : BufTy).Contents (Elt F)),
    nullary main_cst_112 (constant S_ .f32 0x00000000#32),
    binary main_v469 main_cst_112 main_v470 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v471 ((extractStridedSlice S8x128x56x56 ![0, 0, 3, 5] · slices_S8x128x64x64_S8x128x56x56_0_0_3_5) : (⟨S8x128x64x64, .f32⟩ : BufTy).Contents (Elt F) → (⟨S8x128x56x56, .f32⟩ : BufTy).Contents (Elt F)),
    binary main_arg1 main_v471 main_v472 (mulf : (⟨S8x128x56x56, .f32⟩ : BufTy).Contents (Elt F) → (⟨S8x128x56x56, .f32⟩ : BufTy).Contents (Elt F) → (⟨S8x128x56x56, .f32⟩ : BufTy).Contents (Elt F)),
    nullary main_cst_113 (constant S_ .f32 0x00000000#32),
    binary main_v472 main_cst_113 main_v473 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v474 ((extractStridedSlice S8x128x56x56 ![0, 0, 3, 6] · slices_S8x128x64x64_S8x128x56x56_0_0_3_6) : (⟨S8x128x64x64, .f32⟩ : BufTy).Contents (Elt F) → (⟨S8x128x56x56, .f32⟩ : BufTy).Contents (Elt F)),
    binary main_arg1 main_v474 main_v475 (mulf : (⟨S8x128x56x56, .f32⟩ : BufTy).Contents (Elt F) → (⟨S8x128x56x56, .f32⟩ : BufTy).Contents (Elt F) → (⟨S8x128x56x56, .f32⟩ : BufTy).Contents (Elt F)),
    nullary main_cst_114 (constant S_ .f32 0x00000000#32),
    binary main_v475 main_cst_114 main_v476 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v477 ((extractStridedSlice S8x128x56x56 ![0, 0, 3, 7] · slices_S8x128x64x64_S8x128x56x56_0_0_3_7) : (⟨S8x128x64x64, .f32⟩ : BufTy).Contents (Elt F) → (⟨S8x128x56x56, .f32⟩ : BufTy).Contents (Elt F)),
    binary main_arg1 main_v477 main_v478 (mulf : (⟨S8x128x56x56, .f32⟩ : BufTy).Contents (Elt F) → (⟨S8x128x56x56, .f32⟩ : BufTy).Contents (Elt F) → (⟨S8x128x56x56, .f32⟩ : BufTy).Contents (Elt F)),
    nullary main_cst_115 (constant S_ .f32 0x00000000#32),
    binary main_v478 main_cst_115 main_v479 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v480 ((extractStridedSlice S8x128x56x56 ![0, 0, 3, 8] · slices_S8x128x64x64_S8x128x56x56_0_0_3_8) : (⟨S8x128x64x64, .f32⟩ : BufTy).Contents (Elt F) → (⟨S8x128x56x56, .f32⟩ : BufTy).Contents (Elt F)),
    binary main_arg1 main_v480 main_v481 (mulf : (⟨S8x128x56x56, .f32⟩ : BufTy).Contents (Elt F) → (⟨S8x128x56x56, .f32⟩ : BufTy).Contents (Elt F) → (⟨S8x128x56x56, .f32⟩ : BufTy).Contents (Elt F)),
    nullary main_cst_116 (constant S_ .f32 0x00000000#32),
    binary main_v481 main_cst_116 main_v482 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v458 main_v483 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v461 main_v484 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v464 main_v485 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v467 main_v486 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v470 main_v487 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v473 main_v488 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v476 main_v489 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v479 main_v490 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v482 main_v491 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v483, main_v484, main_v485, main_v486, main_v487, main_v488, main_v489, main_v490, main_v491] main_v492 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR4 : List (HloOp τ sig (Elt F)) :=
  [ unary main_v344 main_v493 ((extractStridedSlice S8x128x56x56 ![0, 0, 4, 0] · slices_S8x128x64x64_S8x128x56x56_0_0_4_0) : (⟨S8x128x64x64, .f32⟩ : BufTy).Contents (Elt F) → (⟨S8x128x56x56, .f32⟩ : BufTy).Contents (Elt F)),
    binary main_arg1 main_v493 main_v494 (mulf : (⟨S8x128x56x56, .f32⟩ : BufTy).Contents (Elt F) → (⟨S8x128x56x56, .f32⟩ : BufTy).Contents (Elt F) → (⟨S8x128x56x56, .f32⟩ : BufTy).Contents (Elt F)),
    nullary main_cst_117 (constant S_ .f32 0x00000000#32),
    binary main_v494 main_cst_117 main_v495 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v496 ((extractStridedSlice S8x128x56x56 ![0, 0, 4, 1] · slices_S8x128x64x64_S8x128x56x56_0_0_4_1) : (⟨S8x128x64x64, .f32⟩ : BufTy).Contents (Elt F) → (⟨S8x128x56x56, .f32⟩ : BufTy).Contents (Elt F)),
    binary main_arg1 main_v496 main_v497 (mulf : (⟨S8x128x56x56, .f32⟩ : BufTy).Contents (Elt F) → (⟨S8x128x56x56, .f32⟩ : BufTy).Contents (Elt F) → (⟨S8x128x56x56, .f32⟩ : BufTy).Contents (Elt F)),
    nullary main_cst_118 (constant S_ .f32 0x00000000#32),
    binary main_v497 main_cst_118 main_v498 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v499 ((extractStridedSlice S8x128x56x56 ![0, 0, 4, 2] · slices_S8x128x64x64_S8x128x56x56_0_0_4_2) : (⟨S8x128x64x64, .f32⟩ : BufTy).Contents (Elt F) → (⟨S8x128x56x56, .f32⟩ : BufTy).Contents (Elt F)),
    binary main_arg1 main_v499 main_v500 (mulf : (⟨S8x128x56x56, .f32⟩ : BufTy).Contents (Elt F) → (⟨S8x128x56x56, .f32⟩ : BufTy).Contents (Elt F) → (⟨S8x128x56x56, .f32⟩ : BufTy).Contents (Elt F)),
    nullary main_cst_119 (constant S_ .f32 0x00000000#32),
    binary main_v500 main_cst_119 main_v501 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v502 ((extractStridedSlice S8x128x56x56 ![0, 0, 4, 3] · slices_S8x128x64x64_S8x128x56x56_0_0_4_3) : (⟨S8x128x64x64, .f32⟩ : BufTy).Contents (Elt F) → (⟨S8x128x56x56, .f32⟩ : BufTy).Contents (Elt F)),
    binary main_arg1 main_v502 main_v503 (mulf : (⟨S8x128x56x56, .f32⟩ : BufTy).Contents (Elt F) → (⟨S8x128x56x56, .f32⟩ : BufTy).Contents (Elt F) → (⟨S8x128x56x56, .f32⟩ : BufTy).Contents (Elt F)),
    nullary main_cst_120 (constant S_ .f32 0x00000000#32),
    binary main_v503 main_cst_120 main_v504 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v505 ((extractStridedSlice S8x128x56x56 ![0, 0, 4, 4] · slices_S8x128x64x64_S8x128x56x56_0_0_4_4) : (⟨S8x128x64x64, .f32⟩ : BufTy).Contents (Elt F) → (⟨S8x128x56x56, .f32⟩ : BufTy).Contents (Elt F)),
    binary main_arg1 main_v505 main_v506 (mulf : (⟨S8x128x56x56, .f32⟩ : BufTy).Contents (Elt F) → (⟨S8x128x56x56, .f32⟩ : BufTy).Contents (Elt F) → (⟨S8x128x56x56, .f32⟩ : BufTy).Contents (Elt F)),
    nullary main_cst_121 (constant S_ .f32 0x00000000#32),
    binary main_v506 main_cst_121 main_v507 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v508 ((extractStridedSlice S8x128x56x56 ![0, 0, 4, 5] · slices_S8x128x64x64_S8x128x56x56_0_0_4_5) : (⟨S8x128x64x64, .f32⟩ : BufTy).Contents (Elt F) → (⟨S8x128x56x56, .f32⟩ : BufTy).Contents (Elt F)),
    binary main_arg1 main_v508 main_v509 (mulf : (⟨S8x128x56x56, .f32⟩ : BufTy).Contents (Elt F) → (⟨S8x128x56x56, .f32⟩ : BufTy).Contents (Elt F) → (⟨S8x128x56x56, .f32⟩ : BufTy).Contents (Elt F)),
    nullary main_cst_122 (constant S_ .f32 0x00000000#32),
    binary main_v509 main_cst_122 main_v510 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v511 ((extractStridedSlice S8x128x56x56 ![0, 0, 4, 6] · slices_S8x128x64x64_S8x128x56x56_0_0_4_6) : (⟨S8x128x64x64, .f32⟩ : BufTy).Contents (Elt F) → (⟨S8x128x56x56, .f32⟩ : BufTy).Contents (Elt F)),
    binary main_arg1 main_v511 main_v512 (mulf : (⟨S8x128x56x56, .f32⟩ : BufTy).Contents (Elt F) → (⟨S8x128x56x56, .f32⟩ : BufTy).Contents (Elt F) → (⟨S8x128x56x56, .f32⟩ : BufTy).Contents (Elt F)),
    nullary main_cst_123 (constant S_ .f32 0x00000000#32),
    binary main_v512 main_cst_123 main_v513 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v514 ((extractStridedSlice S8x128x56x56 ![0, 0, 4, 7] · slices_S8x128x64x64_S8x128x56x56_0_0_4_7) : (⟨S8x128x64x64, .f32⟩ : BufTy).Contents (Elt F) → (⟨S8x128x56x56, .f32⟩ : BufTy).Contents (Elt F)),
    binary main_arg1 main_v514 main_v515 (mulf : (⟨S8x128x56x56, .f32⟩ : BufTy).Contents (Elt F) → (⟨S8x128x56x56, .f32⟩ : BufTy).Contents (Elt F) → (⟨S8x128x56x56, .f32⟩ : BufTy).Contents (Elt F)),
    nullary main_cst_124 (constant S_ .f32 0x00000000#32),
    binary main_v515 main_cst_124 main_v516 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v517 ((extractStridedSlice S8x128x56x56 ![0, 0, 4, 8] · slices_S8x128x64x64_S8x128x56x56_0_0_4_8) : (⟨S8x128x64x64, .f32⟩ : BufTy).Contents (Elt F) → (⟨S8x128x56x56, .f32⟩ : BufTy).Contents (Elt F)),
    binary main_arg1 main_v517 main_v518 (mulf : (⟨S8x128x56x56, .f32⟩ : BufTy).Contents (Elt F) → (⟨S8x128x56x56, .f32⟩ : BufTy).Contents (Elt F) → (⟨S8x128x56x56, .f32⟩ : BufTy).Contents (Elt F)),
    nullary main_cst_125 (constant S_ .f32 0x00000000#32),
    binary main_v518 main_cst_125 main_v519 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v495 main_v520 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v498 main_v521 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v501 main_v522 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v504 main_v523 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v507 main_v524 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v510 main_v525 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v513 main_v526 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v516 main_v527 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v519 main_v528 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v520, main_v521, main_v522, main_v523, main_v524, main_v525, main_v526, main_v527, main_v528] main_v529 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR5 : List (HloOp τ sig (Elt F)) :=
  [ unary main_v344 main_v530 ((extractStridedSlice S8x128x56x56 ![0, 0, 5, 0] · slices_S8x128x64x64_S8x128x56x56_0_0_5_0) : (⟨S8x128x64x64, .f32⟩ : BufTy).Contents (Elt F) → (⟨S8x128x56x56, .f32⟩ : BufTy).Contents (Elt F)),
    binary main_arg1 main_v530 main_v531 (mulf : (⟨S8x128x56x56, .f32⟩ : BufTy).Contents (Elt F) → (⟨S8x128x56x56, .f32⟩ : BufTy).Contents (Elt F) → (⟨S8x128x56x56, .f32⟩ : BufTy).Contents (Elt F)),
    nullary main_cst_126 (constant S_ .f32 0x00000000#32),
    binary main_v531 main_cst_126 main_v532 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v533 ((extractStridedSlice S8x128x56x56 ![0, 0, 5, 1] · slices_S8x128x64x64_S8x128x56x56_0_0_5_1) : (⟨S8x128x64x64, .f32⟩ : BufTy).Contents (Elt F) → (⟨S8x128x56x56, .f32⟩ : BufTy).Contents (Elt F)),
    binary main_arg1 main_v533 main_v534 (mulf : (⟨S8x128x56x56, .f32⟩ : BufTy).Contents (Elt F) → (⟨S8x128x56x56, .f32⟩ : BufTy).Contents (Elt F) → (⟨S8x128x56x56, .f32⟩ : BufTy).Contents (Elt F)),
    nullary main_cst_127 (constant S_ .f32 0x00000000#32),
    binary main_v534 main_cst_127 main_v535 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v536 ((extractStridedSlice S8x128x56x56 ![0, 0, 5, 2] · slices_S8x128x64x64_S8x128x56x56_0_0_5_2) : (⟨S8x128x64x64, .f32⟩ : BufTy).Contents (Elt F) → (⟨S8x128x56x56, .f32⟩ : BufTy).Contents (Elt F)),
    binary main_arg1 main_v536 main_v537 (mulf : (⟨S8x128x56x56, .f32⟩ : BufTy).Contents (Elt F) → (⟨S8x128x56x56, .f32⟩ : BufTy).Contents (Elt F) → (⟨S8x128x56x56, .f32⟩ : BufTy).Contents (Elt F)),
    nullary main_cst_128 (constant S_ .f32 0x00000000#32),
    binary main_v537 main_cst_128 main_v538 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v539 ((extractStridedSlice S8x128x56x56 ![0, 0, 5, 3] · slices_S8x128x64x64_S8x128x56x56_0_0_5_3) : (⟨S8x128x64x64, .f32⟩ : BufTy).Contents (Elt F) → (⟨S8x128x56x56, .f32⟩ : BufTy).Contents (Elt F)),
    binary main_arg1 main_v539 main_v540 (mulf : (⟨S8x128x56x56, .f32⟩ : BufTy).Contents (Elt F) → (⟨S8x128x56x56, .f32⟩ : BufTy).Contents (Elt F) → (⟨S8x128x56x56, .f32⟩ : BufTy).Contents (Elt F)),
    nullary main_cst_129 (constant S_ .f32 0x00000000#32),
    binary main_v540 main_cst_129 main_v541 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v542 ((extractStridedSlice S8x128x56x56 ![0, 0, 5, 4] · slices_S8x128x64x64_S8x128x56x56_0_0_5_4) : (⟨S8x128x64x64, .f32⟩ : BufTy).Contents (Elt F) → (⟨S8x128x56x56, .f32⟩ : BufTy).Contents (Elt F)),
    binary main_arg1 main_v542 main_v543 (mulf : (⟨S8x128x56x56, .f32⟩ : BufTy).Contents (Elt F) → (⟨S8x128x56x56, .f32⟩ : BufTy).Contents (Elt F) → (⟨S8x128x56x56, .f32⟩ : BufTy).Contents (Elt F)),
    nullary main_cst_130 (constant S_ .f32 0x00000000#32),
    binary main_v543 main_cst_130 main_v544 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v545 ((extractStridedSlice S8x128x56x56 ![0, 0, 5, 5] · slices_S8x128x64x64_S8x128x56x56_0_0_5_5) : (⟨S8x128x64x64, .f32⟩ : BufTy).Contents (Elt F) → (⟨S8x128x56x56, .f32⟩ : BufTy).Contents (Elt F)),
    binary main_arg1 main_v545 main_v546 (mulf : (⟨S8x128x56x56, .f32⟩ : BufTy).Contents (Elt F) → (⟨S8x128x56x56, .f32⟩ : BufTy).Contents (Elt F) → (⟨S8x128x56x56, .f32⟩ : BufTy).Contents (Elt F)),
    nullary main_cst_131 (constant S_ .f32 0x00000000#32),
    binary main_v546 main_cst_131 main_v547 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v548 ((extractStridedSlice S8x128x56x56 ![0, 0, 5, 6] · slices_S8x128x64x64_S8x128x56x56_0_0_5_6) : (⟨S8x128x64x64, .f32⟩ : BufTy).Contents (Elt F) → (⟨S8x128x56x56, .f32⟩ : BufTy).Contents (Elt F)),
    binary main_arg1 main_v548 main_v549 (mulf : (⟨S8x128x56x56, .f32⟩ : BufTy).Contents (Elt F) → (⟨S8x128x56x56, .f32⟩ : BufTy).Contents (Elt F) → (⟨S8x128x56x56, .f32⟩ : BufTy).Contents (Elt F)),
    nullary main_cst_132 (constant S_ .f32 0x00000000#32),
    binary main_v549 main_cst_132 main_v550 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v551 ((extractStridedSlice S8x128x56x56 ![0, 0, 5, 7] · slices_S8x128x64x64_S8x128x56x56_0_0_5_7) : (⟨S8x128x64x64, .f32⟩ : BufTy).Contents (Elt F) → (⟨S8x128x56x56, .f32⟩ : BufTy).Contents (Elt F)),
    binary main_arg1 main_v551 main_v552 (mulf : (⟨S8x128x56x56, .f32⟩ : BufTy).Contents (Elt F) → (⟨S8x128x56x56, .f32⟩ : BufTy).Contents (Elt F) → (⟨S8x128x56x56, .f32⟩ : BufTy).Contents (Elt F)),
    nullary main_cst_133 (constant S_ .f32 0x00000000#32),
    binary main_v552 main_cst_133 main_v553 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v554 ((extractStridedSlice S8x128x56x56 ![0, 0, 5, 8] · slices_S8x128x64x64_S8x128x56x56_0_0_5_8) : (⟨S8x128x64x64, .f32⟩ : BufTy).Contents (Elt F) → (⟨S8x128x56x56, .f32⟩ : BufTy).Contents (Elt F)),
    binary main_arg1 main_v554 main_v555 (mulf : (⟨S8x128x56x56, .f32⟩ : BufTy).Contents (Elt F) → (⟨S8x128x56x56, .f32⟩ : BufTy).Contents (Elt F) → (⟨S8x128x56x56, .f32⟩ : BufTy).Contents (Elt F)),
    nullary main_cst_134 (constant S_ .f32 0x00000000#32),
    binary main_v555 main_cst_134 main_v556 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v532 main_v557 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v535 main_v558 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v538 main_v559 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v541 main_v560 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v544 main_v561 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v547 main_v562 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v550 main_v563 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v553 main_v564 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v556 main_v565 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v557, main_v558, main_v559, main_v560, main_v561, main_v562, main_v563, main_v564, main_v565] main_v566 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR6 : List (HloOp τ sig (Elt F)) :=
  [ unary main_v344 main_v567 ((extractStridedSlice S8x128x56x56 ![0, 0, 6, 0] · slices_S8x128x64x64_S8x128x56x56_0_0_6_0) : (⟨S8x128x64x64, .f32⟩ : BufTy).Contents (Elt F) → (⟨S8x128x56x56, .f32⟩ : BufTy).Contents (Elt F)),
    binary main_arg1 main_v567 main_v568 (mulf : (⟨S8x128x56x56, .f32⟩ : BufTy).Contents (Elt F) → (⟨S8x128x56x56, .f32⟩ : BufTy).Contents (Elt F) → (⟨S8x128x56x56, .f32⟩ : BufTy).Contents (Elt F)),
    nullary main_cst_135 (constant S_ .f32 0x00000000#32),
    binary main_v568 main_cst_135 main_v569 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v570 ((extractStridedSlice S8x128x56x56 ![0, 0, 6, 1] · slices_S8x128x64x64_S8x128x56x56_0_0_6_1) : (⟨S8x128x64x64, .f32⟩ : BufTy).Contents (Elt F) → (⟨S8x128x56x56, .f32⟩ : BufTy).Contents (Elt F)),
    binary main_arg1 main_v570 main_v571 (mulf : (⟨S8x128x56x56, .f32⟩ : BufTy).Contents (Elt F) → (⟨S8x128x56x56, .f32⟩ : BufTy).Contents (Elt F) → (⟨S8x128x56x56, .f32⟩ : BufTy).Contents (Elt F)),
    nullary main_cst_136 (constant S_ .f32 0x00000000#32),
    binary main_v571 main_cst_136 main_v572 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v573 ((extractStridedSlice S8x128x56x56 ![0, 0, 6, 2] · slices_S8x128x64x64_S8x128x56x56_0_0_6_2) : (⟨S8x128x64x64, .f32⟩ : BufTy).Contents (Elt F) → (⟨S8x128x56x56, .f32⟩ : BufTy).Contents (Elt F)),
    binary main_arg1 main_v573 main_v574 (mulf : (⟨S8x128x56x56, .f32⟩ : BufTy).Contents (Elt F) → (⟨S8x128x56x56, .f32⟩ : BufTy).Contents (Elt F) → (⟨S8x128x56x56, .f32⟩ : BufTy).Contents (Elt F)),
    nullary main_cst_137 (constant S_ .f32 0x00000000#32),
    binary main_v574 main_cst_137 main_v575 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v576 ((extractStridedSlice S8x128x56x56 ![0, 0, 6, 3] · slices_S8x128x64x64_S8x128x56x56_0_0_6_3) : (⟨S8x128x64x64, .f32⟩ : BufTy).Contents (Elt F) → (⟨S8x128x56x56, .f32⟩ : BufTy).Contents (Elt F)),
    binary main_arg1 main_v576 main_v577 (mulf : (⟨S8x128x56x56, .f32⟩ : BufTy).Contents (Elt F) → (⟨S8x128x56x56, .f32⟩ : BufTy).Contents (Elt F) → (⟨S8x128x56x56, .f32⟩ : BufTy).Contents (Elt F)),
    nullary main_cst_138 (constant S_ .f32 0x00000000#32),
    binary main_v577 main_cst_138 main_v578 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v579 ((extractStridedSlice S8x128x56x56 ![0, 0, 6, 4] · slices_S8x128x64x64_S8x128x56x56_0_0_6_4) : (⟨S8x128x64x64, .f32⟩ : BufTy).Contents (Elt F) → (⟨S8x128x56x56, .f32⟩ : BufTy).Contents (Elt F)),
    binary main_arg1 main_v579 main_v580 (mulf : (⟨S8x128x56x56, .f32⟩ : BufTy).Contents (Elt F) → (⟨S8x128x56x56, .f32⟩ : BufTy).Contents (Elt F) → (⟨S8x128x56x56, .f32⟩ : BufTy).Contents (Elt F)),
    nullary main_cst_139 (constant S_ .f32 0x00000000#32),
    binary main_v580 main_cst_139 main_v581 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v582 ((extractStridedSlice S8x128x56x56 ![0, 0, 6, 5] · slices_S8x128x64x64_S8x128x56x56_0_0_6_5) : (⟨S8x128x64x64, .f32⟩ : BufTy).Contents (Elt F) → (⟨S8x128x56x56, .f32⟩ : BufTy).Contents (Elt F)),
    binary main_arg1 main_v582 main_v583 (mulf : (⟨S8x128x56x56, .f32⟩ : BufTy).Contents (Elt F) → (⟨S8x128x56x56, .f32⟩ : BufTy).Contents (Elt F) → (⟨S8x128x56x56, .f32⟩ : BufTy).Contents (Elt F)),
    nullary main_cst_140 (constant S_ .f32 0x00000000#32),
    binary main_v583 main_cst_140 main_v584 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v585 ((extractStridedSlice S8x128x56x56 ![0, 0, 6, 6] · slices_S8x128x64x64_S8x128x56x56_0_0_6_6) : (⟨S8x128x64x64, .f32⟩ : BufTy).Contents (Elt F) → (⟨S8x128x56x56, .f32⟩ : BufTy).Contents (Elt F)),
    binary main_arg1 main_v585 main_v586 (mulf : (⟨S8x128x56x56, .f32⟩ : BufTy).Contents (Elt F) → (⟨S8x128x56x56, .f32⟩ : BufTy).Contents (Elt F) → (⟨S8x128x56x56, .f32⟩ : BufTy).Contents (Elt F)),
    nullary main_cst_141 (constant S_ .f32 0x00000000#32),
    binary main_v586 main_cst_141 main_v587 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v588 ((extractStridedSlice S8x128x56x56 ![0, 0, 6, 7] · slices_S8x128x64x64_S8x128x56x56_0_0_6_7) : (⟨S8x128x64x64, .f32⟩ : BufTy).Contents (Elt F) → (⟨S8x128x56x56, .f32⟩ : BufTy).Contents (Elt F)),
    binary main_arg1 main_v588 main_v589 (mulf : (⟨S8x128x56x56, .f32⟩ : BufTy).Contents (Elt F) → (⟨S8x128x56x56, .f32⟩ : BufTy).Contents (Elt F) → (⟨S8x128x56x56, .f32⟩ : BufTy).Contents (Elt F)),
    nullary main_cst_142 (constant S_ .f32 0x00000000#32),
    binary main_v589 main_cst_142 main_v590 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v591 ((extractStridedSlice S8x128x56x56 ![0, 0, 6, 8] · slices_S8x128x64x64_S8x128x56x56_0_0_6_8) : (⟨S8x128x64x64, .f32⟩ : BufTy).Contents (Elt F) → (⟨S8x128x56x56, .f32⟩ : BufTy).Contents (Elt F)),
    binary main_arg1 main_v591 main_v592 (mulf : (⟨S8x128x56x56, .f32⟩ : BufTy).Contents (Elt F) → (⟨S8x128x56x56, .f32⟩ : BufTy).Contents (Elt F) → (⟨S8x128x56x56, .f32⟩ : BufTy).Contents (Elt F)),
    nullary main_cst_143 (constant S_ .f32 0x00000000#32),
    binary main_v592 main_cst_143 main_v593 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v569 main_v594 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v572 main_v595 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v575 main_v596 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v578 main_v597 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v581 main_v598 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v584 main_v599 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v587 main_v600 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v590 main_v601 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v593 main_v602 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v594, main_v595, main_v596, main_v597, main_v598, main_v599, main_v600, main_v601, main_v602] main_v603 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR7 : List (HloOp τ sig (Elt F)) :=
  [ unary main_v344 main_v604 ((extractStridedSlice S8x128x56x56 ![0, 0, 7, 0] · slices_S8x128x64x64_S8x128x56x56_0_0_7_0) : (⟨S8x128x64x64, .f32⟩ : BufTy).Contents (Elt F) → (⟨S8x128x56x56, .f32⟩ : BufTy).Contents (Elt F)),
    binary main_arg1 main_v604 main_v605 (mulf : (⟨S8x128x56x56, .f32⟩ : BufTy).Contents (Elt F) → (⟨S8x128x56x56, .f32⟩ : BufTy).Contents (Elt F) → (⟨S8x128x56x56, .f32⟩ : BufTy).Contents (Elt F)),
    nullary main_cst_144 (constant S_ .f32 0x00000000#32),
    binary main_v605 main_cst_144 main_v606 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v607 ((extractStridedSlice S8x128x56x56 ![0, 0, 7, 1] · slices_S8x128x64x64_S8x128x56x56_0_0_7_1) : (⟨S8x128x64x64, .f32⟩ : BufTy).Contents (Elt F) → (⟨S8x128x56x56, .f32⟩ : BufTy).Contents (Elt F)),
    binary main_arg1 main_v607 main_v608 (mulf : (⟨S8x128x56x56, .f32⟩ : BufTy).Contents (Elt F) → (⟨S8x128x56x56, .f32⟩ : BufTy).Contents (Elt F) → (⟨S8x128x56x56, .f32⟩ : BufTy).Contents (Elt F)),
    nullary main_cst_145 (constant S_ .f32 0x00000000#32),
    binary main_v608 main_cst_145 main_v609 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v610 ((extractStridedSlice S8x128x56x56 ![0, 0, 7, 2] · slices_S8x128x64x64_S8x128x56x56_0_0_7_2) : (⟨S8x128x64x64, .f32⟩ : BufTy).Contents (Elt F) → (⟨S8x128x56x56, .f32⟩ : BufTy).Contents (Elt F)),
    binary main_arg1 main_v610 main_v611 (mulf : (⟨S8x128x56x56, .f32⟩ : BufTy).Contents (Elt F) → (⟨S8x128x56x56, .f32⟩ : BufTy).Contents (Elt F) → (⟨S8x128x56x56, .f32⟩ : BufTy).Contents (Elt F)),
    nullary main_cst_146 (constant S_ .f32 0x00000000#32),
    binary main_v611 main_cst_146 main_v612 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v613 ((extractStridedSlice S8x128x56x56 ![0, 0, 7, 3] · slices_S8x128x64x64_S8x128x56x56_0_0_7_3) : (⟨S8x128x64x64, .f32⟩ : BufTy).Contents (Elt F) → (⟨S8x128x56x56, .f32⟩ : BufTy).Contents (Elt F)),
    binary main_arg1 main_v613 main_v614 (mulf : (⟨S8x128x56x56, .f32⟩ : BufTy).Contents (Elt F) → (⟨S8x128x56x56, .f32⟩ : BufTy).Contents (Elt F) → (⟨S8x128x56x56, .f32⟩ : BufTy).Contents (Elt F)),
    nullary main_cst_147 (constant S_ .f32 0x00000000#32),
    binary main_v614 main_cst_147 main_v615 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v616 ((extractStridedSlice S8x128x56x56 ![0, 0, 7, 4] · slices_S8x128x64x64_S8x128x56x56_0_0_7_4) : (⟨S8x128x64x64, .f32⟩ : BufTy).Contents (Elt F) → (⟨S8x128x56x56, .f32⟩ : BufTy).Contents (Elt F)),
    binary main_arg1 main_v616 main_v617 (mulf : (⟨S8x128x56x56, .f32⟩ : BufTy).Contents (Elt F) → (⟨S8x128x56x56, .f32⟩ : BufTy).Contents (Elt F) → (⟨S8x128x56x56, .f32⟩ : BufTy).Contents (Elt F)),
    nullary main_cst_148 (constant S_ .f32 0x00000000#32),
    binary main_v617 main_cst_148 main_v618 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v619 ((extractStridedSlice S8x128x56x56 ![0, 0, 7, 5] · slices_S8x128x64x64_S8x128x56x56_0_0_7_5) : (⟨S8x128x64x64, .f32⟩ : BufTy).Contents (Elt F) → (⟨S8x128x56x56, .f32⟩ : BufTy).Contents (Elt F)),
    binary main_arg1 main_v619 main_v620 (mulf : (⟨S8x128x56x56, .f32⟩ : BufTy).Contents (Elt F) → (⟨S8x128x56x56, .f32⟩ : BufTy).Contents (Elt F) → (⟨S8x128x56x56, .f32⟩ : BufTy).Contents (Elt F)),
    nullary main_cst_149 (constant S_ .f32 0x00000000#32),
    binary main_v620 main_cst_149 main_v621 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v622 ((extractStridedSlice S8x128x56x56 ![0, 0, 7, 6] · slices_S8x128x64x64_S8x128x56x56_0_0_7_6) : (⟨S8x128x64x64, .f32⟩ : BufTy).Contents (Elt F) → (⟨S8x128x56x56, .f32⟩ : BufTy).Contents (Elt F)),
    binary main_arg1 main_v622 main_v623 (mulf : (⟨S8x128x56x56, .f32⟩ : BufTy).Contents (Elt F) → (⟨S8x128x56x56, .f32⟩ : BufTy).Contents (Elt F) → (⟨S8x128x56x56, .f32⟩ : BufTy).Contents (Elt F)),
    nullary main_cst_150 (constant S_ .f32 0x00000000#32),
    binary main_v623 main_cst_150 main_v624 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v625 ((extractStridedSlice S8x128x56x56 ![0, 0, 7, 7] · slices_S8x128x64x64_S8x128x56x56_0_0_7_7) : (⟨S8x128x64x64, .f32⟩ : BufTy).Contents (Elt F) → (⟨S8x128x56x56, .f32⟩ : BufTy).Contents (Elt F)),
    binary main_arg1 main_v625 main_v626 (mulf : (⟨S8x128x56x56, .f32⟩ : BufTy).Contents (Elt F) → (⟨S8x128x56x56, .f32⟩ : BufTy).Contents (Elt F) → (⟨S8x128x56x56, .f32⟩ : BufTy).Contents (Elt F)),
    nullary main_cst_151 (constant S_ .f32 0x00000000#32),
    binary main_v626 main_cst_151 main_v627 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v628 ((extractStridedSlice S8x128x56x56 ![0, 0, 7, 8] · slices_S8x128x64x64_S8x128x56x56_0_0_7_8) : (⟨S8x128x64x64, .f32⟩ : BufTy).Contents (Elt F) → (⟨S8x128x56x56, .f32⟩ : BufTy).Contents (Elt F)),
    binary main_arg1 main_v628 main_v629 (mulf : (⟨S8x128x56x56, .f32⟩ : BufTy).Contents (Elt F) → (⟨S8x128x56x56, .f32⟩ : BufTy).Contents (Elt F) → (⟨S8x128x56x56, .f32⟩ : BufTy).Contents (Elt F)),
    nullary main_cst_152 (constant S_ .f32 0x00000000#32),
    binary main_v629 main_cst_152 main_v630 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v606 main_v631 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v609 main_v632 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v612 main_v633 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v615 main_v634 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v618 main_v635 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v621 main_v636 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v624 main_v637 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v627 main_v638 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v630 main_v639 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v631, main_v632, main_v633, main_v634, main_v635, main_v636, main_v637, main_v638, main_v639] main_v640 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsR8 : List (HloOp τ sig (Elt F)) :=
  [ unary main_v344 main_v641 ((extractStridedSlice S8x128x56x56 ![0, 0, 8, 0] · slices_S8x128x64x64_S8x128x56x56_0_0_8_0) : (⟨S8x128x64x64, .f32⟩ : BufTy).Contents (Elt F) → (⟨S8x128x56x56, .f32⟩ : BufTy).Contents (Elt F)),
    binary main_arg1 main_v641 main_v642 (mulf : (⟨S8x128x56x56, .f32⟩ : BufTy).Contents (Elt F) → (⟨S8x128x56x56, .f32⟩ : BufTy).Contents (Elt F) → (⟨S8x128x56x56, .f32⟩ : BufTy).Contents (Elt F)),
    nullary main_cst_153 (constant S_ .f32 0x00000000#32),
    binary main_v642 main_cst_153 main_v643 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v644 ((extractStridedSlice S8x128x56x56 ![0, 0, 8, 1] · slices_S8x128x64x64_S8x128x56x56_0_0_8_1) : (⟨S8x128x64x64, .f32⟩ : BufTy).Contents (Elt F) → (⟨S8x128x56x56, .f32⟩ : BufTy).Contents (Elt F)),
    binary main_arg1 main_v644 main_v645 (mulf : (⟨S8x128x56x56, .f32⟩ : BufTy).Contents (Elt F) → (⟨S8x128x56x56, .f32⟩ : BufTy).Contents (Elt F) → (⟨S8x128x56x56, .f32⟩ : BufTy).Contents (Elt F)),
    nullary main_cst_154 (constant S_ .f32 0x00000000#32),
    binary main_v645 main_cst_154 main_v646 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v647 ((extractStridedSlice S8x128x56x56 ![0, 0, 8, 2] · slices_S8x128x64x64_S8x128x56x56_0_0_8_2) : (⟨S8x128x64x64, .f32⟩ : BufTy).Contents (Elt F) → (⟨S8x128x56x56, .f32⟩ : BufTy).Contents (Elt F)),
    binary main_arg1 main_v647 main_v648 (mulf : (⟨S8x128x56x56, .f32⟩ : BufTy).Contents (Elt F) → (⟨S8x128x56x56, .f32⟩ : BufTy).Contents (Elt F) → (⟨S8x128x56x56, .f32⟩ : BufTy).Contents (Elt F)),
    nullary main_cst_155 (constant S_ .f32 0x00000000#32),
    binary main_v648 main_cst_155 main_v649 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v650 ((extractStridedSlice S8x128x56x56 ![0, 0, 8, 3] · slices_S8x128x64x64_S8x128x56x56_0_0_8_3) : (⟨S8x128x64x64, .f32⟩ : BufTy).Contents (Elt F) → (⟨S8x128x56x56, .f32⟩ : BufTy).Contents (Elt F)),
    binary main_arg1 main_v650 main_v651 (mulf : (⟨S8x128x56x56, .f32⟩ : BufTy).Contents (Elt F) → (⟨S8x128x56x56, .f32⟩ : BufTy).Contents (Elt F) → (⟨S8x128x56x56, .f32⟩ : BufTy).Contents (Elt F)),
    nullary main_cst_156 (constant S_ .f32 0x00000000#32),
    binary main_v651 main_cst_156 main_v652 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v653 ((extractStridedSlice S8x128x56x56 ![0, 0, 8, 4] · slices_S8x128x64x64_S8x128x56x56_0_0_8_4) : (⟨S8x128x64x64, .f32⟩ : BufTy).Contents (Elt F) → (⟨S8x128x56x56, .f32⟩ : BufTy).Contents (Elt F)),
    binary main_arg1 main_v653 main_v654 (mulf : (⟨S8x128x56x56, .f32⟩ : BufTy).Contents (Elt F) → (⟨S8x128x56x56, .f32⟩ : BufTy).Contents (Elt F) → (⟨S8x128x56x56, .f32⟩ : BufTy).Contents (Elt F)),
    nullary main_cst_157 (constant S_ .f32 0x00000000#32),
    binary main_v654 main_cst_157 main_v655 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v656 ((extractStridedSlice S8x128x56x56 ![0, 0, 8, 5] · slices_S8x128x64x64_S8x128x56x56_0_0_8_5) : (⟨S8x128x64x64, .f32⟩ : BufTy).Contents (Elt F) → (⟨S8x128x56x56, .f32⟩ : BufTy).Contents (Elt F)),
    binary main_arg1 main_v656 main_v657 (mulf : (⟨S8x128x56x56, .f32⟩ : BufTy).Contents (Elt F) → (⟨S8x128x56x56, .f32⟩ : BufTy).Contents (Elt F) → (⟨S8x128x56x56, .f32⟩ : BufTy).Contents (Elt F)),
    nullary main_cst_158 (constant S_ .f32 0x00000000#32),
    binary main_v657 main_cst_158 main_v658 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v659 ((extractStridedSlice S8x128x56x56 ![0, 0, 8, 6] · slices_S8x128x64x64_S8x128x56x56_0_0_8_6) : (⟨S8x128x64x64, .f32⟩ : BufTy).Contents (Elt F) → (⟨S8x128x56x56, .f32⟩ : BufTy).Contents (Elt F)),
    binary main_arg1 main_v659 main_v660 (mulf : (⟨S8x128x56x56, .f32⟩ : BufTy).Contents (Elt F) → (⟨S8x128x56x56, .f32⟩ : BufTy).Contents (Elt F) → (⟨S8x128x56x56, .f32⟩ : BufTy).Contents (Elt F)),
    nullary main_cst_159 (constant S_ .f32 0x00000000#32),
    binary main_v660 main_cst_159 main_v661 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v662 ((extractStridedSlice S8x128x56x56 ![0, 0, 8, 7] · slices_S8x128x64x64_S8x128x56x56_0_0_8_7) : (⟨S8x128x64x64, .f32⟩ : BufTy).Contents (Elt F) → (⟨S8x128x56x56, .f32⟩ : BufTy).Contents (Elt F)),
    binary main_arg1 main_v662 main_v663 (mulf : (⟨S8x128x56x56, .f32⟩ : BufTy).Contents (Elt F) → (⟨S8x128x56x56, .f32⟩ : BufTy).Contents (Elt F) → (⟨S8x128x56x56, .f32⟩ : BufTy).Contents (Elt F)),
    nullary main_cst_160 (constant S_ .f32 0x00000000#32),
    binary main_v663 main_cst_160 main_v664 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v665 ((extractStridedSlice S8x128x56x56 ![0, 0, 8, 8] · slices_S8x128x64x64_S8x128x56x56_0_0_8_8) : (⟨S8x128x64x64, .f32⟩ : BufTy).Contents (Elt F) → (⟨S8x128x56x56, .f32⟩ : BufTy).Contents (Elt F)),
    binary main_arg1 main_v665 main_v666 (mulf : (⟨S8x128x56x56, .f32⟩ : BufTy).Contents (Elt F) → (⟨S8x128x56x56, .f32⟩ : BufTy).Contents (Elt F) → (⟨S8x128x56x56, .f32⟩ : BufTy).Contents (Elt F)),
    nullary main_cst_161 (constant S_ .f32 0x00000000#32),
    binary main_v666 main_cst_161 main_v667 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v643 main_v668 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v646 main_v669 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v649 main_v670 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v652 main_v671 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v655 main_v672 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v658 main_v673 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v661 main_v674 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v664 main_v675 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v667 main_v676 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v668, main_v669, main_v670, main_v671, main_v672, main_v673, main_v674, main_v675, main_v676] main_v677 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1) ]

abbrev opsT : List (HloOp τ sig (Elt F)) :=
  [ unary main_v381 main_v678 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v418 main_v679 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v455 main_v680 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v492 main_v681 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v529 main_v682 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v566 main_v683 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v603 main_v684 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v640 main_v685 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v677 main_v686 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    nary ![main_v678, main_v679, main_v680, main_v681, main_v682, main_v683, main_v684, main_v685, main_v686] main_v687 (fun u => concatenate S8x9x9x56x56 1 [⟨S8x1x9x56x56, u 0⟩, ⟨S8x1x9x56x56, u 1⟩, ⟨S8x1x9x56x56, u 2⟩, ⟨S8x1x9x56x56, u 3⟩, ⟨S8x1x9x56x56, u 4⟩, ⟨S8x1x9x56x56, u 5⟩, ⟨S8x1x9x56x56, u 6⟩, ⟨S8x1x9x56x56, u 7⟩, ⟨S8x1x9x56x56, u 8⟩] concatenates_S8x1x9x56x56_S8x1x9x56x56_S8x1x9x56x56_S8x1x9x56x56_S8x1x9x56x56_S8x1x9x56x56_S8x1x9x56x56_S8x1x9x56x56_S8x1x9x56x56_S8x9x9x56x56_d1) ]

/-- The level's operations in order. -/
abbrev opsL : List (HloOp τ sig (Elt F)) :=
  opsH ++ (opsR0 ++ (opsR1 ++ (opsR2 ++ (opsR3 ++ (opsR4 ++ (opsR5 ++ (opsR6 ++ (opsR7 ++ (opsR8 ++ opsT)))))))))

noncomputable def WH : List (Ref sig .tc) := [main_c_80, main_call1_v0, main_v344]
noncomputable def WR0 : List (Ref sig .tc) := [main_v345, main_v346, main_cst_81, main_v347, main_v348, main_v349, main_cst_82, main_v350, main_v351, main_v352, main_cst_83, main_v353, main_v354, main_v355, main_cst_84, main_v356, main_v357, main_v358, main_cst_85, main_v359, main_v360, main_v361, main_cst_86, main_v362, main_v363, main_v364, main_cst_87, main_v365, main_v366, main_v367, main_cst_88, main_v368, main_v369, main_v370, main_cst_89, main_v371, main_v372, main_v373, main_v374, main_v375, main_v376, main_v377, main_v378, main_v379, main_v380, main_v381]
noncomputable def WR1 : List (Ref sig .tc) := [main_v382, main_v383, main_cst_90, main_v384, main_v385, main_v386, main_cst_91, main_v387, main_v388, main_v389, main_cst_92, main_v390, main_v391, main_v392, main_cst_93, main_v393, main_v394, main_v395, main_cst_94, main_v396, main_v397, main_v398, main_cst_95, main_v399, main_v400, main_v401, main_cst_96, main_v402, main_v403, main_v404, main_cst_97, main_v405, main_v406, main_v407, main_cst_98, main_v408, main_v409, main_v410, main_v411, main_v412, main_v413, main_v414, main_v415, main_v416, main_v417, main_v418]
noncomputable def WR2 : List (Ref sig .tc) := [main_v419, main_v420, main_cst_99, main_v421, main_v422, main_v423, main_cst_100, main_v424, main_v425, main_v426, main_cst_101, main_v427, main_v428, main_v429, main_cst_102, main_v430, main_v431, main_v432, main_cst_103, main_v433, main_v434, main_v435, main_cst_104, main_v436, main_v437, main_v438, main_cst_105, main_v439, main_v440, main_v441, main_cst_106, main_v442, main_v443, main_v444, main_cst_107, main_v445, main_v446, main_v447, main_v448, main_v449, main_v450, main_v451, main_v452, main_v453, main_v454, main_v455]
noncomputable def WR3 : List (Ref sig .tc) := [main_v456, main_v457, main_cst_108, main_v458, main_v459, main_v460, main_cst_109, main_v461, main_v462, main_v463, main_cst_110, main_v464, main_v465, main_v466, main_cst_111, main_v467, main_v468, main_v469, main_cst_112, main_v470, main_v471, main_v472, main_cst_113, main_v473, main_v474, main_v475, main_cst_114, main_v476, main_v477, main_v478, main_cst_115, main_v479, main_v480, main_v481, main_cst_116, main_v482, main_v483, main_v484, main_v485, main_v486, main_v487, main_v488, main_v489, main_v490, main_v491, main_v492]
noncomputable def WR4 : List (Ref sig .tc) := [main_v493, main_v494, main_cst_117, main_v495, main_v496, main_v497, main_cst_118, main_v498, main_v499, main_v500, main_cst_119, main_v501, main_v502, main_v503, main_cst_120, main_v504, main_v505, main_v506, main_cst_121, main_v507, main_v508, main_v509, main_cst_122, main_v510, main_v511, main_v512, main_cst_123, main_v513, main_v514, main_v515, main_cst_124, main_v516, main_v517, main_v518, main_cst_125, main_v519, main_v520, main_v521, main_v522, main_v523, main_v524, main_v525, main_v526, main_v527, main_v528, main_v529]
noncomputable def WR5 : List (Ref sig .tc) := [main_v530, main_v531, main_cst_126, main_v532, main_v533, main_v534, main_cst_127, main_v535, main_v536, main_v537, main_cst_128, main_v538, main_v539, main_v540, main_cst_129, main_v541, main_v542, main_v543, main_cst_130, main_v544, main_v545, main_v546, main_cst_131, main_v547, main_v548, main_v549, main_cst_132, main_v550, main_v551, main_v552, main_cst_133, main_v553, main_v554, main_v555, main_cst_134, main_v556, main_v557, main_v558, main_v559, main_v560, main_v561, main_v562, main_v563, main_v564, main_v565, main_v566]
noncomputable def WR6 : List (Ref sig .tc) := [main_v567, main_v568, main_cst_135, main_v569, main_v570, main_v571, main_cst_136, main_v572, main_v573, main_v574, main_cst_137, main_v575, main_v576, main_v577, main_cst_138, main_v578, main_v579, main_v580, main_cst_139, main_v581, main_v582, main_v583, main_cst_140, main_v584, main_v585, main_v586, main_cst_141, main_v587, main_v588, main_v589, main_cst_142, main_v590, main_v591, main_v592, main_cst_143, main_v593, main_v594, main_v595, main_v596, main_v597, main_v598, main_v599, main_v600, main_v601, main_v602, main_v603]
noncomputable def WR7 : List (Ref sig .tc) := [main_v604, main_v605, main_cst_144, main_v606, main_v607, main_v608, main_cst_145, main_v609, main_v610, main_v611, main_cst_146, main_v612, main_v613, main_v614, main_cst_147, main_v615, main_v616, main_v617, main_cst_148, main_v618, main_v619, main_v620, main_cst_149, main_v621, main_v622, main_v623, main_cst_150, main_v624, main_v625, main_v626, main_cst_151, main_v627, main_v628, main_v629, main_cst_152, main_v630, main_v631, main_v632, main_v633, main_v634, main_v635, main_v636, main_v637, main_v638, main_v639, main_v640]
noncomputable def WR8 : List (Ref sig .tc) := [main_v641, main_v642, main_cst_153, main_v643, main_v644, main_v645, main_cst_154, main_v646, main_v647, main_v648, main_cst_155, main_v649, main_v650, main_v651, main_cst_156, main_v652, main_v653, main_v654, main_cst_157, main_v655, main_v656, main_v657, main_cst_158, main_v658, main_v659, main_v660, main_cst_159, main_v661, main_v662, main_v663, main_cst_160, main_v664, main_v665, main_v666, main_cst_161, main_v667, main_v668, main_v669, main_v670, main_v671, main_v672, main_v673, main_v674, main_v675, main_v676, main_v677]
noncomputable def WT : List (Ref sig .tc) := [main_v678, main_v679, main_v680, main_v681, main_v682, main_v683, main_v684, main_v685, main_v686, main_v687]

theorem hWH : (opsH (F := F)).Forall fun op => op.writes ⊆ ((WH).map (Proc.devRef (τ := τ) .tc)).toFinset :=
  ⟨wsub (List.getElem_mem (n := 0) (by decide)), wsub (List.getElem_mem (n := 1) (by decide)), wsub (List.getElem_mem (n := 2) (by decide))⟩
theorem hSH : (opsH (F := F)).Forall fun op => op.bufs ⊆ tcRefs τ sig :=
  ⟨nullary_bufs_sub .., unary_bufs_sub .., binary_bufs_sub ..⟩
theorem hFH : (opsH (F := F)).Forall fun op => op.fresh = ∅ :=
  ⟨rfl, rfl, rfl⟩
theorem hWR0 : (opsR0 (F := F)).Forall fun op => op.writes ⊆ ((WR0).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR0 : (opsR0 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR0 : (opsR0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR1 : (opsR1 (F := F)).Forall fun op => op.writes ⊆ ((WR1).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR1 : (opsR1 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR1 : (opsR1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR2 : (opsR2 (F := F)).Forall fun op => op.writes ⊆ ((WR2).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR2 : (opsR2 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR2 : (opsR2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR3 : (opsR3 (F := F)).Forall fun op => op.writes ⊆ ((WR3).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR3 : (opsR3 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR3 : (opsR3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR4 : (opsR4 (F := F)).Forall fun op => op.writes ⊆ ((WR4).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR4 : (opsR4 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR4 : (opsR4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR5 : (opsR5 (F := F)).Forall fun op => op.writes ⊆ ((WR5).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR5 : (opsR5 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR5 : (opsR5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR6 : (opsR6 (F := F)).Forall fun op => op.writes ⊆ ((WR6).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR6 : (opsR6 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR6 : (opsR6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR7 : (opsR7 (F := F)).Forall fun op => op.writes ⊆ ((WR7).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR7 : (opsR7 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR7 : (opsR7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR8 : (opsR8 (F := F)).Forall fun op => op.writes ⊆ ((WR8).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR8 : (opsR8 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR8 : (opsR8 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWT : (opsT (F := F)).Forall fun op => op.writes ⊆ ((WT).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide))⟩
theorem hST : (opsT (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub ..⟩
theorem hFT : (opsT (F := F)).Forall fun op => op.fresh = ∅ :=
  ⟨rfl, rfl, rfl, rfl, rfl, rfl, rfl, rfl, rfl, rfl⟩

/-- Every buffer the level writes. -/
noncomputable def WL : List (Ref sig .tc) := WH ++ (WR0 ++ (WR1 ++ (WR2 ++ (WR3 ++ (WR4 ++ (WR5 ++ (WR6 ++ (WR7 ++ (WR8 ++ WT)))))))))

theorem level_sub : (opsL (F := F)).Forall fun op => op.bufs ⊆ tcRefs τ sig :=
  forall_append hSH (forall_append hSR0 (forall_append hSR1 (forall_append hSR2 (forall_append hSR3 (forall_append hSR4 (forall_append hSR5 (forall_append hSR6 (forall_append hSR7 (forall_append hSR8 hST)))))))))
theorem level_fresh : (opsL (F := F)).Forall fun op => op.fresh = ∅ :=
  forall_append hFH (forall_append hFR0 (forall_append hFR1 (forall_append hFR2 (forall_append hFR3 (forall_append hFR4 (forall_append hFR5 (forall_append hFR6 (forall_append hFR7 (forall_append hFR8 hFT)))))))))

/-- A buffer the level does not write keeps its contents. -/
theorem level_keep (V : Valuation τ sig (Elt F)) (r : Ref sig .tc) (hr : r ∉ WL) :
    after (opsL (F := F)) V (Proc.devRef .tc r) = V (Proc.devRef .tc r) := by
  have h : ∀ {l₁ l₂ : List (Ref sig .tc)}, r ∉ l₁ ++ l₂ → r ∉ l₁ ∧ r ∉ l₂ := fun h =>
    ⟨fun h1 => h (List.mem_append_left _ h1), fun h2 => h (List.mem_append_right _ h2)⟩
  obtain ⟨gH, g⟩ := h hr
  obtain ⟨g0, g⟩ := h g
  obtain ⟨g1, g⟩ := h g
  obtain ⟨g2, g⟩ := h g
  obtain ⟨g3, g⟩ := h g
  obtain ⟨g4, g⟩ := h g
  obtain ⟨g5, g⟩ := h g
  obtain ⟨g6, g⟩ := h g
  obtain ⟨g7, g⟩ := h g
  obtain ⟨g8, g⟩ := h g
  simp only [opsL, after_append]
  rw [after_of_writes_sub _ _ hWT g, after_of_writes_sub _ _ hWR8 g8, after_of_writes_sub _ _ hWR7 g7, after_of_writes_sub _ _ hWR6 g6, after_of_writes_sub _ _ hWR5 g5, after_of_writes_sub _ _ hWR4 g4, after_of_writes_sub _ _ hWR3 g3, after_of_writes_sub _ _ hWR2 g2, after_of_writes_sub _ _ hWR1 g1, after_of_writes_sub _ _ hWR0 g0, after_of_writes_sub _ _ hWH gH]

end Cert.ReferenceIdeal.Lvl1

end
-- ==== Proof.RefTerms1.lean ====
/-
  Level 1 of the reference: the composed terms of its stretches of operations.  padT is the zero pad of b; rowT k is
  row k of the patch (nine planes, one per horizontal displacement: the padded b sliced at (k, dj), times a, summed over
  the channels, with a unit axis added, joined along that axis); tailT joins the nine rows along a second new axis.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl1

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

/-- The zero-padded b. -/
abbrev padT (b : (⟨S8x128x56x56, .f32⟩ : BufTy).Contents (Elt F)) : (⟨S8x128x64x64, .f32⟩ : BufTy).Contents (Elt F) :=
  pad S8x128x64x64 ![0, 0, 4, 4] ![0, 0, 4, 4] ![0, 0, 0, 0] b (sitofp .f32 (constantI S_ 32 0#32)) pads_S8x128x56x56_S8x128x64x64_000_000_440_440 h_S_

/-- Row 0's operations composed. -/
def rowT0 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 0, 0] p slices_S8x128x64x64_S8x128x56x56_0_0_0_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 1] p slices_S8x128x64x64_S8x128x56x56_0_0_0_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 2] p slices_S8x128x64x64_S8x128x56x56_0_0_0_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 3] p slices_S8x128x64x64_S8x128x56x56_0_0_0_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 4] p slices_S8x128x64x64_S8x128x56x56_0_0_0_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 5] p slices_S8x128x64x64_S8x128x56x56_0_0_0_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 6] p slices_S8x128x64x64_S8x128x56x56_0_0_0_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 7] p slices_S8x128x64x64_S8x128x56x56_0_0_0_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 0, 8] p slices_S8x128x64x64_S8x128x56x56_0_0_0_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 1's operations composed. -/
def rowT1 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 1, 0] p slices_S8x128x64x64_S8x128x56x56_0_0_1_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 1] p slices_S8x128x64x64_S8x128x56x56_0_0_1_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 2] p slices_S8x128x64x64_S8x128x56x56_0_0_1_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 3] p slices_S8x128x64x64_S8x128x56x56_0_0_1_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 4] p slices_S8x128x64x64_S8x128x56x56_0_0_1_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 5] p slices_S8x128x64x64_S8x128x56x56_0_0_1_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 6] p slices_S8x128x64x64_S8x128x56x56_0_0_1_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 7] p slices_S8x128x64x64_S8x128x56x56_0_0_1_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 1, 8] p slices_S8x128x64x64_S8x128x56x56_0_0_1_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 2's operations composed. -/
def rowT2 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 2, 0] p slices_S8x128x64x64_S8x128x56x56_0_0_2_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 1] p slices_S8x128x64x64_S8x128x56x56_0_0_2_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 2] p slices_S8x128x64x64_S8x128x56x56_0_0_2_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 3] p slices_S8x128x64x64_S8x128x56x56_0_0_2_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 4] p slices_S8x128x64x64_S8x128x56x56_0_0_2_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 5] p slices_S8x128x64x64_S8x128x56x56_0_0_2_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 6] p slices_S8x128x64x64_S8x128x56x56_0_0_2_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 7] p slices_S8x128x64x64_S8x128x56x56_0_0_2_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 2, 8] p slices_S8x128x64x64_S8x128x56x56_0_0_2_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 3's operations composed. -/
def rowT3 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 3, 0] p slices_S8x128x64x64_S8x128x56x56_0_0_3_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 1] p slices_S8x128x64x64_S8x128x56x56_0_0_3_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 2] p slices_S8x128x64x64_S8x128x56x56_0_0_3_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 3] p slices_S8x128x64x64_S8x128x56x56_0_0_3_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 4] p slices_S8x128x64x64_S8x128x56x56_0_0_3_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 5] p slices_S8x128x64x64_S8x128x56x56_0_0_3_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 6] p slices_S8x128x64x64_S8x128x56x56_0_0_3_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 7] p slices_S8x128x64x64_S8x128x56x56_0_0_3_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 3, 8] p slices_S8x128x64x64_S8x128x56x56_0_0_3_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 4's operations composed. -/
def rowT4 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 4, 0] p slices_S8x128x64x64_S8x128x56x56_0_0_4_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 1] p slices_S8x128x64x64_S8x128x56x56_0_0_4_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 2] p slices_S8x128x64x64_S8x128x56x56_0_0_4_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 3] p slices_S8x128x64x64_S8x128x56x56_0_0_4_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 4] p slices_S8x128x64x64_S8x128x56x56_0_0_4_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 5] p slices_S8x128x64x64_S8x128x56x56_0_0_4_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 6] p slices_S8x128x64x64_S8x128x56x56_0_0_4_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 7] p slices_S8x128x64x64_S8x128x56x56_0_0_4_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 4, 8] p slices_S8x128x64x64_S8x128x56x56_0_0_4_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 5's operations composed. -/
def rowT5 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 5, 0] p slices_S8x128x64x64_S8x128x56x56_0_0_5_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 1] p slices_S8x128x64x64_S8x128x56x56_0_0_5_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 2] p slices_S8x128x64x64_S8x128x56x56_0_0_5_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 3] p slices_S8x128x64x64_S8x128x56x56_0_0_5_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 4] p slices_S8x128x64x64_S8x128x56x56_0_0_5_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 5] p slices_S8x128x64x64_S8x128x56x56_0_0_5_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 6] p slices_S8x128x64x64_S8x128x56x56_0_0_5_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 7] p slices_S8x128x64x64_S8x128x56x56_0_0_5_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 5, 8] p slices_S8x128x64x64_S8x128x56x56_0_0_5_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 6's operations composed. -/
def rowT6 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 6, 0] p slices_S8x128x64x64_S8x128x56x56_0_0_6_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 1] p slices_S8x128x64x64_S8x128x56x56_0_0_6_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 2] p slices_S8x128x64x64_S8x128x56x56_0_0_6_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 3] p slices_S8x128x64x64_S8x128x56x56_0_0_6_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 4] p slices_S8x128x64x64_S8x128x56x56_0_0_6_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 5] p slices_S8x128x64x64_S8x128x56x56_0_0_6_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 6] p slices_S8x128x64x64_S8x128x56x56_0_0_6_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 7] p slices_S8x128x64x64_S8x128x56x56_0_0_6_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 6, 8] p slices_S8x128x64x64_S8x128x56x56_0_0_6_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 7's operations composed. -/
def rowT7 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 7, 0] p slices_S8x128x64x64_S8x128x56x56_0_0_7_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 1] p slices_S8x128x64x64_S8x128x56x56_0_0_7_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 2] p slices_S8x128x64x64_S8x128x56x56_0_0_7_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 3] p slices_S8x128x64x64_S8x128x56x56_0_0_7_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 4] p slices_S8x128x64x64_S8x128x56x56_0_0_7_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 5] p slices_S8x128x64x64_S8x128x56x56_0_0_7_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 6] p slices_S8x128x64x64_S8x128x56x56_0_0_7_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 7] p slices_S8x128x64x64_S8x128x56x56_0_0_7_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 7, 8] p slices_S8x128x64x64_S8x128x56x56_0_0_7_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- Row 8's operations composed. -/
def rowT8 (a : (⟨S8x128x56x56, .f32⟩ : BufTy).Contents (Elt F)) (p : (⟨S8x128x64x64, .f32⟩ : BufTy).Contents (Elt F)) :
    (⟨S8x9x56x56, .f32⟩ : BufTy).Contents (Elt F) :=
  concatenate S8x9x56x56 1 [⟨S8x1x56x56, (broadcastInDim S8x1x56x56 ![0, 2, 3] bcast_S8x56x56_S8x1x56x56_0_2_3 (Host.reduceAdd (mulf a (extractStridedSlice S8x128x56x56 ![0, 0, 8, 0] p slices_S8x128x64x64_S8x128x56x56_0_0_8_0)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 1] p slices_S8x128x64x64_S8x128x56x56_0_0_8_1)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 2] p slices_S8x128x64x64_S8x128x56x56_0_0_8_2)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 3] p slices_S8x128x64x64_S8x128x56x56_0_0_8_3)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 4] p slices_S8x128x64x64_S8x128x56x56_0_0_8_4)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 5] p slices_S8x128x64x64_S8x128x56x56_0_0_8_5)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 6] p slices_S8x128x64x64_S8x128x56x56_0_0_8_6)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 7] p slices_S8x128x64x64_S8x128x56x56_0_0_8_7)) (constant S_ .f32 0x00000000#32) reducesTo_S8x128x56x56_S8x56x56_d1 h_S_))⟩, ⟨S8x1x56x56, (broadcastInDim S8x1x56x56 ![0, 2, 3] bcast_S8x56x56_S8x1x56x56_0_2_3 (Host.reduceAdd (mulf a (extractStridedSlice S8x128x56x56 ![0, 0, 8, 8] p slices_S8x128x64x64_S8x128x56x56_0_0_8_8)) (constant S_ .f32 0x00000000#32) reducesTo_S8x128x56x56_S8x56x56_d1 h_S_))⟩] concatenates_S8x1x56x56_S8x1x56x56_S8x1x56x56_S8x1x56x56_S8x1x56x56_S8x1x56x56_S8x1x56x56_S8x1x56x56_S8x1x56x56_S8x9x56x56_d1

/-- The tail's operations composed. -/
def tailT (r0 r1 r2 r3 r4 r5 r6 r7 r8 : (⟨S8x9x56x56, .f32⟩ : BufTy).Contents (Elt F)) : (⟨S8x9x9x56x56, .f32⟩ : BufTy).Contents (Elt F) :=
  concatenate S8x9x9x56x56 1 [⟨S8x1x9x56x56, (broadcastInDim S8x1x9x56x56 ![0, 2, 3, 4] bcast_S8x9x56x56_S8x1x9x56x56_0_2_3_4 r0)⟩, ⟨S8x1x9x56x56, (broadcastInDim S8x1x9x56x56 ![0, 2, 3, 4] bcast_S8x9x56x56_S8x1x9x56x56_0_2_3_4 r1)⟩, ⟨S8x1x9x56x56, (broadcastInDim S8x1x9x56x56 ![0, 2, 3, 4] bcast_S8x9x56x56_S8x1x9x56x56_0_2_3_4 r2)⟩, ⟨S8x1x9x56x56, (broadcastInDim S8x1x9x56x56 ![0, 2, 3, 4] bcast_S8x9x56x56_S8x1x9x56x56_0_2_3_4 r3)⟩, ⟨S8x1x9x56x56, (broadcastInDim S8x1x9x56x56 ![0, 2, 3, 4] bcast_S8x9x56x56_S8x1x9x56x56_0_2_3_4 r4)⟩, ⟨S8x1x9x56x56, (broadcastInDim S8x1x9x56x56 ![0, 2, 3, 4] bcast_S8x9x56x56_S8x1x9x56x56_0_2_3_4 r5)⟩, ⟨S8x1x9x56x56, (broadcastInDim S8x1x9x56x56 ![0, 2, 3, 4] bcast_S8x9x56x56_S8x1x9x56x56_0_2_3_4 r6)⟩, ⟨S8x1x9x56x56, (broadcastInDim S8x1x9x56x56 ![0, 2, 3, 4] bcast_S8x9x56x56_S8x1x9x56x56_0_2_3_4 r7)⟩, ⟨S8x1x9x56x56, (broadcastInDim S8x1x9x56x56 ![0, 2, 3, 4] bcast_S8x9x56x56_S8x1x9x56x56_0_2_3_4 r8)⟩] concatenates_S8x1x9x56x56_S8x1x9x56x56_S8x1x9x56x56_S8x1x9x56x56_S8x1x9x56x56_S8x1x9x56x56_S8x1x9x56x56_S8x1x9x56x56_S8x1x9x56x56_S8x9x9x56x56_d1

end Cert.ReferenceIdeal.Lvl1

end
-- ==== Proof.RefRead1.lean ====
/-
  Level 1 of the reference, read at an index.  A row's nine planes are corr at the row's vertical displacement and
  the planes' horizontal displacements; the nine rows joined are g5.
-/
import proofs.«135875_j16999480558431_2_alg».proof.Proof.RefTerms1
import proofs.«135875_j16999480558431_2_alg».proof.Proof.CorrSpec1
import proofs.«135875_j16999480558431_2_alg».proof.Proof.CorrJoin1

set_option maxRecDepth 8192

noncomputable section

namespace Cert.ReferenceIdeal.Lvl1

open Cert.ReferenceIdeal Cert.ReferenceIdeal.Gen Idealize.ShloMosaic Idealize.ShloMosaic.TcCoe Idealize.SL.Sem Idealize.ShloMosaic.StableHlo
open Idealize.ShloMosaic.ValueIdx RefLib Corr1 CorrJ1

variable {F : FTy → Type} [FloatOps F]

/-- Row di of the patch as a function of the index. -/
def rowF (di : ℕ) (a b : Corr1.SA.Idx → EReal) : (⟨S8x9x56x56, .f32⟩ : BufTy).Contents (Elt Ideal) :=
  fun idx => corr a b ⟨(idx 0).val, (idx 0).isLt⟩ di (idx 1).val ⟨(idx 2).val, (idx 2).isLt⟩ ⟨(idx 3).val, (idx 3).isLt⟩

/-- Row 0 read at an index: the nine planes of corr for displacements (0, 0 .. 8). -/
theorem rowRead0 (a b : Corr1.SA.Idx → EReal) : rowT0 (F := Ideal) a (padT b) = rowF 0 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 0 dj.val i j
  unfold rowT0
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 0] (padT (F := Ideal) b) slices_S8x128x64x64_S8x128x56x56_0_0_0_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 1] (padT (F := Ideal) b) slices_S8x128x64x64_S8x128x56x56_0_0_0_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 2] (padT (F := Ideal) b) slices_S8x128x64x64_S8x128x56x56_0_0_0_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 3] (padT (F := Ideal) b) slices_S8x128x64x64_S8x128x56x56_0_0_0_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 4] (padT (F := Ideal) b) slices_S8x128x64x64_S8x128x56x56_0_0_0_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 5] (padT (F := Ideal) b) slices_S8x128x64x64_S8x128x56x56_0_0_0_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 6] (padT (F := Ideal) b) slices_S8x128x64x64_S8x128x56x56_0_0_0_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 7] (padT (F := Ideal) b) slices_S8x128x64x64_S8x128x56x56_0_0_0_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 0, 8] (padT (F := Ideal) b) slices_S8x128x64x64_S8x128x56x56_0_0_0_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 8 a b _ _ _ _ (by decide) _ n 0 i j

/-- Row 1 read at an index: the nine planes of corr for displacements (1, 0 .. 8). -/
theorem rowRead1 (a b : Corr1.SA.Idx → EReal) : rowT1 (F := Ideal) a (padT b) = rowF 1 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 1 dj.val i j
  unfold rowT1
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 0] (padT (F := Ideal) b) slices_S8x128x64x64_S8x128x56x56_0_0_1_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 1] (padT (F := Ideal) b) slices_S8x128x64x64_S8x128x56x56_0_0_1_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 2] (padT (F := Ideal) b) slices_S8x128x64x64_S8x128x56x56_0_0_1_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 3] (padT (F := Ideal) b) slices_S8x128x64x64_S8x128x56x56_0_0_1_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 4] (padT (F := Ideal) b) slices_S8x128x64x64_S8x128x56x56_0_0_1_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 5] (padT (F := Ideal) b) slices_S8x128x64x64_S8x128x56x56_0_0_1_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 6] (padT (F := Ideal) b) slices_S8x128x64x64_S8x128x56x56_0_0_1_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 7] (padT (F := Ideal) b) slices_S8x128x64x64_S8x128x56x56_0_0_1_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 1, 8] (padT (F := Ideal) b) slices_S8x128x64x64_S8x128x56x56_0_0_1_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 8 a b _ _ _ _ (by decide) _ n 0 i j

/-- Row 2 read at an index: the nine planes of corr for displacements (2, 0 .. 8). -/
theorem rowRead2 (a b : Corr1.SA.Idx → EReal) : rowT2 (F := Ideal) a (padT b) = rowF 2 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 2 dj.val i j
  unfold rowT2
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 0] (padT (F := Ideal) b) slices_S8x128x64x64_S8x128x56x56_0_0_2_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 1] (padT (F := Ideal) b) slices_S8x128x64x64_S8x128x56x56_0_0_2_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 2] (padT (F := Ideal) b) slices_S8x128x64x64_S8x128x56x56_0_0_2_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 3] (padT (F := Ideal) b) slices_S8x128x64x64_S8x128x56x56_0_0_2_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 4] (padT (F := Ideal) b) slices_S8x128x64x64_S8x128x56x56_0_0_2_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 5] (padT (F := Ideal) b) slices_S8x128x64x64_S8x128x56x56_0_0_2_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 6] (padT (F := Ideal) b) slices_S8x128x64x64_S8x128x56x56_0_0_2_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 7] (padT (F := Ideal) b) slices_S8x128x64x64_S8x128x56x56_0_0_2_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 2, 8] (padT (F := Ideal) b) slices_S8x128x64x64_S8x128x56x56_0_0_2_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 8 a b _ _ _ _ (by decide) _ n 0 i j

/-- Row 3 read at an index: the nine planes of corr for displacements (3, 0 .. 8). -/
theorem rowRead3 (a b : Corr1.SA.Idx → EReal) : rowT3 (F := Ideal) a (padT b) = rowF 3 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 3 dj.val i j
  unfold rowT3
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 0] (padT (F := Ideal) b) slices_S8x128x64x64_S8x128x56x56_0_0_3_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 1] (padT (F := Ideal) b) slices_S8x128x64x64_S8x128x56x56_0_0_3_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 2] (padT (F := Ideal) b) slices_S8x128x64x64_S8x128x56x56_0_0_3_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 3] (padT (F := Ideal) b) slices_S8x128x64x64_S8x128x56x56_0_0_3_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 4] (padT (F := Ideal) b) slices_S8x128x64x64_S8x128x56x56_0_0_3_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 5] (padT (F := Ideal) b) slices_S8x128x64x64_S8x128x56x56_0_0_3_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 6] (padT (F := Ideal) b) slices_S8x128x64x64_S8x128x56x56_0_0_3_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 7] (padT (F := Ideal) b) slices_S8x128x64x64_S8x128x56x56_0_0_3_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 3, 8] (padT (F := Ideal) b) slices_S8x128x64x64_S8x128x56x56_0_0_3_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 8 a b _ _ _ _ (by decide) _ n 0 i j

/-- Row 4 read at an index: the nine planes of corr for displacements (4, 0 .. 8). -/
theorem rowRead4 (a b : Corr1.SA.Idx → EReal) : rowT4 (F := Ideal) a (padT b) = rowF 4 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 4 dj.val i j
  unfold rowT4
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 0] (padT (F := Ideal) b) slices_S8x128x64x64_S8x128x56x56_0_0_4_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 1] (padT (F := Ideal) b) slices_S8x128x64x64_S8x128x56x56_0_0_4_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 2] (padT (F := Ideal) b) slices_S8x128x64x64_S8x128x56x56_0_0_4_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 3] (padT (F := Ideal) b) slices_S8x128x64x64_S8x128x56x56_0_0_4_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 4] (padT (F := Ideal) b) slices_S8x128x64x64_S8x128x56x56_0_0_4_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 5] (padT (F := Ideal) b) slices_S8x128x64x64_S8x128x56x56_0_0_4_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 6] (padT (F := Ideal) b) slices_S8x128x64x64_S8x128x56x56_0_0_4_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 7] (padT (F := Ideal) b) slices_S8x128x64x64_S8x128x56x56_0_0_4_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 4, 8] (padT (F := Ideal) b) slices_S8x128x64x64_S8x128x56x56_0_0_4_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 8 a b _ _ _ _ (by decide) _ n 0 i j

/-- Row 5 read at an index: the nine planes of corr for displacements (5, 0 .. 8). -/
theorem rowRead5 (a b : Corr1.SA.Idx → EReal) : rowT5 (F := Ideal) a (padT b) = rowF 5 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 5 dj.val i j
  unfold rowT5
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 0] (padT (F := Ideal) b) slices_S8x128x64x64_S8x128x56x56_0_0_5_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 1] (padT (F := Ideal) b) slices_S8x128x64x64_S8x128x56x56_0_0_5_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 2] (padT (F := Ideal) b) slices_S8x128x64x64_S8x128x56x56_0_0_5_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 3] (padT (F := Ideal) b) slices_S8x128x64x64_S8x128x56x56_0_0_5_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 4] (padT (F := Ideal) b) slices_S8x128x64x64_S8x128x56x56_0_0_5_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 5] (padT (F := Ideal) b) slices_S8x128x64x64_S8x128x56x56_0_0_5_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 6] (padT (F := Ideal) b) slices_S8x128x64x64_S8x128x56x56_0_0_5_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 7] (padT (F := Ideal) b) slices_S8x128x64x64_S8x128x56x56_0_0_5_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 5, 8] (padT (F := Ideal) b) slices_S8x128x64x64_S8x128x56x56_0_0_5_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 8 a b _ _ _ _ (by decide) _ n 0 i j

/-- Row 6 read at an index: the nine planes of corr for displacements (6, 0 .. 8). -/
theorem rowRead6 (a b : Corr1.SA.Idx → EReal) : rowT6 (F := Ideal) a (padT b) = rowF 6 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 6 dj.val i j
  unfold rowT6
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 0] (padT (F := Ideal) b) slices_S8x128x64x64_S8x128x56x56_0_0_6_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 1] (padT (F := Ideal) b) slices_S8x128x64x64_S8x128x56x56_0_0_6_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 2] (padT (F := Ideal) b) slices_S8x128x64x64_S8x128x56x56_0_0_6_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 3] (padT (F := Ideal) b) slices_S8x128x64x64_S8x128x56x56_0_0_6_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 4] (padT (F := Ideal) b) slices_S8x128x64x64_S8x128x56x56_0_0_6_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 5] (padT (F := Ideal) b) slices_S8x128x64x64_S8x128x56x56_0_0_6_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 6] (padT (F := Ideal) b) slices_S8x128x64x64_S8x128x56x56_0_0_6_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 7] (padT (F := Ideal) b) slices_S8x128x64x64_S8x128x56x56_0_0_6_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 6, 8] (padT (F := Ideal) b) slices_S8x128x64x64_S8x128x56x56_0_0_6_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 8 a b _ _ _ _ (by decide) _ n 0 i j

/-- Row 7 read at an index: the nine planes of corr for displacements (7, 0 .. 8). -/
theorem rowRead7 (a b : Corr1.SA.Idx → EReal) : rowT7 (F := Ideal) a (padT b) = rowF 7 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 7 dj.val i j
  unfold rowT7
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 0] (padT (F := Ideal) b) slices_S8x128x64x64_S8x128x56x56_0_0_7_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 1] (padT (F := Ideal) b) slices_S8x128x64x64_S8x128x56x56_0_0_7_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 2] (padT (F := Ideal) b) slices_S8x128x64x64_S8x128x56x56_0_0_7_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 3] (padT (F := Ideal) b) slices_S8x128x64x64_S8x128x56x56_0_0_7_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 4] (padT (F := Ideal) b) slices_S8x128x64x64_S8x128x56x56_0_0_7_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 5] (padT (F := Ideal) b) slices_S8x128x64x64_S8x128x56x56_0_0_7_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 6] (padT (F := Ideal) b) slices_S8x128x64x64_S8x128x56x56_0_0_7_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 7] (padT (F := Ideal) b) slices_S8x128x64x64_S8x128x56x56_0_0_7_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 7, 8] (padT (F := Ideal) b) slices_S8x128x64x64_S8x128x56x56_0_0_7_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 8 a b _ _ _ _ (by decide) _ n 0 i j

/-- Row 8 read at an index: the nine planes of corr for displacements (8, 0 .. 8). -/
theorem rowRead8 (a b : Corr1.SA.Idx → EReal) : rowT8 (F := Ideal) a (padT b) = rowF 8 a b := by
  funext idx
  obtain ⟨n, dj, i, j, rfl⟩ : ∃ (n : Fin 8) (dj : Fin 9) (i : Fin 56) (j : Fin 56), idx = ix4 n dj i j :=
    ⟨idx 0, idx 1, idx 2, idx 3, eq_ix4 idx⟩
  show _ = corr a b n 8 dj.val i j
  unfold rowT8
  match dj with
  | ⟨0, hdj⟩ =>
    refine Eq.trans (concatenate_apply_piece (t := S8x9x56x56) (1 : Fin 4) _ _ (ix4 n (⟨0, hdj⟩ : Fin 9) i j) 0 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 0] (padT (F := Ideal) b) slices_S8x128x64x64_S8x128x56x56_0_0_8_0)) (constant (F := Ideal) S_ .f32 0x00000000#32) reducesTo_S8x128x56x56_S8x56x56_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 0 a b _ _ _ _ (by decide) _ n 0 i j
  | ⟨1, hdj⟩ =>
    refine Eq.trans (concatenate_apply_piece (t := S8x9x56x56) (1 : Fin 4) _ _ (ix4 n (⟨1, hdj⟩ : Fin 9) i j) 1 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 1] (padT (F := Ideal) b) slices_S8x128x64x64_S8x128x56x56_0_0_8_1)) (constant (F := Ideal) S_ .f32 0x00000000#32) reducesTo_S8x128x56x56_S8x56x56_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 1 a b _ _ _ _ (by decide) _ n 0 i j
  | ⟨2, hdj⟩ =>
    refine Eq.trans (concatenate_apply_piece (t := S8x9x56x56) (1 : Fin 4) _ _ (ix4 n (⟨2, hdj⟩ : Fin 9) i j) 2 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 2] (padT (F := Ideal) b) slices_S8x128x64x64_S8x128x56x56_0_0_8_2)) (constant (F := Ideal) S_ .f32 0x00000000#32) reducesTo_S8x128x56x56_S8x56x56_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 2 a b _ _ _ _ (by decide) _ n 0 i j
  | ⟨3, hdj⟩ =>
    refine Eq.trans (concatenate_apply_piece (t := S8x9x56x56) (1 : Fin 4) _ _ (ix4 n (⟨3, hdj⟩ : Fin 9) i j) 3 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 3] (padT (F := Ideal) b) slices_S8x128x64x64_S8x128x56x56_0_0_8_3)) (constant (F := Ideal) S_ .f32 0x00000000#32) reducesTo_S8x128x56x56_S8x56x56_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 3 a b _ _ _ _ (by decide) _ n 0 i j
  | ⟨4, hdj⟩ =>
    refine Eq.trans (concatenate_apply_piece (t := S8x9x56x56) (1 : Fin 4) _ _ (ix4 n (⟨4, hdj⟩ : Fin 9) i j) 4 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 4] (padT (F := Ideal) b) slices_S8x128x64x64_S8x128x56x56_0_0_8_4)) (constant (F := Ideal) S_ .f32 0x00000000#32) reducesTo_S8x128x56x56_S8x56x56_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 4 a b _ _ _ _ (by decide) _ n 0 i j
  | ⟨5, hdj⟩ =>
    refine Eq.trans (concatenate_apply_piece (t := S8x9x56x56) (1 : Fin 4) _ _ (ix4 n (⟨5, hdj⟩ : Fin 9) i j) 5 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 5] (padT (F := Ideal) b) slices_S8x128x64x64_S8x128x56x56_0_0_8_5)) (constant (F := Ideal) S_ .f32 0x00000000#32) reducesTo_S8x128x56x56_S8x56x56_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 5 a b _ _ _ _ (by decide) _ n 0 i j
  | ⟨6, hdj⟩ =>
    refine Eq.trans (concatenate_apply_piece (t := S8x9x56x56) (1 : Fin 4) _ _ (ix4 n (⟨6, hdj⟩ : Fin 9) i j) 6 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 6] (padT (F := Ideal) b) slices_S8x128x64x64_S8x128x56x56_0_0_8_6)) (constant (F := Ideal) S_ .f32 0x00000000#32) reducesTo_S8x128x56x56_S8x56x56_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 6 a b _ _ _ _ (by decide) _ n 0 i j
  | ⟨7, hdj⟩ =>
    refine Eq.trans (concatenate_apply_piece (t := S8x9x56x56) (1 : Fin 4) _ _ (ix4 n (⟨7, hdj⟩ : Fin 9) i j) 7 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 7] (padT (F := Ideal) b) slices_S8x128x64x64_S8x128x56x56_0_0_8_7)) (constant (F := Ideal) S_ .f32 0x00000000#32) reducesTo_S8x128x56x56_S8x56x56_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 7 a b _ _ _ _ (by decide) _ n 0 i j
  | ⟨8, hdj⟩ =>
    refine Eq.trans (concatenate_apply_piece (t := S8x9x56x56) (1 : Fin 4) _ _ (ix4 n (⟨8, hdj⟩ : Fin 9) i j) 8 ?_ S8x1x56x56 (broadcastInDim S8x1x56x56 ![0, 2, 3] bcast_S8x56x56_S8x1x56x56_0_2_3 (Host.reduceAdd (F := Ideal) (mulf (F := Ideal) (φ := .f32) a (extractStridedSlice S8x128x56x56 ![0, 0, 8, 8] (padT (F := Ideal) b) slices_S8x128x64x64_S8x128x56x56_0_0_8_8)) (constant (F := Ideal) S_ .f32 0x00000000#32) reducesTo_S8x128x56x56_S8x56x56_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 8 a b _ _ _ _ (by decide) _ n 0 i j

/-- The tail read at an index. -/
theorem tailRead (a b : Corr1.SA.Idx → EReal) :
    tailT (F := Ideal) (rowF 0 a b) (rowF 1 a b) (rowF 2 a b) (rowF 3 a b) (rowF 4 a b) (rowF 5 a b) (rowF 6 a b) (rowF 7 a b) (rowF 8 a b) = g5 a b := by
  funext idx
  obtain ⟨n, di, dj, i, j, rfl⟩ : ∃ (n : Fin 8) (di dj : Fin 9) (i : Fin 56) (j : Fin 56), idx = ix5 n di dj i j :=
    ⟨idx 0, idx 1, idx 2, idx 3, idx 4, eq_ix5 idx⟩
  rw [g5_apply]
  unfold tailT
  match di with
  | ⟨0, hdi⟩ =>
    refine Eq.trans (concatenate_apply_piece (t := S8x9x9x56x56) (1 : Fin 5) _ _ (ix5 n (⟨0, hdi⟩ : Fin 9) dj i j) 0 ?_ S8x1x9x56x56 (broadcastInDim S8x1x9x56x56 ![0, 2, 3, 4] bcast_S8x9x56x56_S8x1x9x56x56_0_2_3_4 (rowF 0 a b)) ?_ rfl 0 ?_ (ix5 n (0 : Fin 1) dj i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨1, hdi⟩ =>
    refine Eq.trans (concatenate_apply_piece (t := S8x9x9x56x56) (1 : Fin 5) _ _ (ix5 n (⟨1, hdi⟩ : Fin 9) dj i j) 1 ?_ S8x1x9x56x56 (broadcastInDim S8x1x9x56x56 ![0, 2, 3, 4] bcast_S8x9x56x56_S8x1x9x56x56_0_2_3_4 (rowF 1 a b)) ?_ rfl 1 ?_ (ix5 n (0 : Fin 1) dj i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨2, hdi⟩ =>
    refine Eq.trans (concatenate_apply_piece (t := S8x9x9x56x56) (1 : Fin 5) _ _ (ix5 n (⟨2, hdi⟩ : Fin 9) dj i j) 2 ?_ S8x1x9x56x56 (broadcastInDim S8x1x9x56x56 ![0, 2, 3, 4] bcast_S8x9x56x56_S8x1x9x56x56_0_2_3_4 (rowF 2 a b)) ?_ rfl 2 ?_ (ix5 n (0 : Fin 1) dj i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨3, hdi⟩ =>
    refine Eq.trans (concatenate_apply_piece (t := S8x9x9x56x56) (1 : Fin 5) _ _ (ix5 n (⟨3, hdi⟩ : Fin 9) dj i j) 3 ?_ S8x1x9x56x56 (broadcastInDim S8x1x9x56x56 ![0, 2, 3, 4] bcast_S8x9x56x56_S8x1x9x56x56_0_2_3_4 (rowF 3 a b)) ?_ rfl 3 ?_ (ix5 n (0 : Fin 1) dj i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨4, hdi⟩ =>
    refine Eq.trans (concatenate_apply_piece (t := S8x9x9x56x56) (1 : Fin 5) _ _ (ix5 n (⟨4, hdi⟩ : Fin 9) dj i j) 4 ?_ S8x1x9x56x56 (broadcastInDim S8x1x9x56x56 ![0, 2, 3, 4] bcast_S8x9x56x56_S8x1x9x56x56_0_2_3_4 (rowF 4 a b)) ?_ rfl 4 ?_ (ix5 n (0 : Fin 1) dj i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨5, hdi⟩ =>
    refine Eq.trans (concatenate_apply_piece (t := S8x9x9x56x56) (1 : Fin 5) _ _ (ix5 n (⟨5, hdi⟩ : Fin 9) dj i j) 5 ?_ S8x1x9x56x56 (broadcastInDim S8x1x9x56x56 ![0, 2, 3, 4] bcast_S8x9x56x56_S8x1x9x56x56_0_2_3_4 (rowF 5 a b)) ?_ rfl 5 ?_ (ix5 n (0 : Fin 1) dj i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨6, hdi⟩ =>
    refine Eq.trans (concatenate_apply_piece (t := S8x9x9x56x56) (1 : Fin 5) _ _ (ix5 n (⟨6, hdi⟩ : Fin 9) dj i j) 6 ?_ S8x1x9x56x56 (broadcastInDim S8x1x9x56x56 ![0, 2, 3, 4] bcast_S8x9x56x56_S8x1x9x56x56_0_2_3_4 (rowF 6 a b)) ?_ rfl 6 ?_ (ix5 n (0 : Fin 1) dj i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨7, hdi⟩ =>
    refine Eq.trans (concatenate_apply_piece (t := S8x9x9x56x56) (1 : Fin 5) _ _ (ix5 n (⟨7, hdi⟩ : Fin 9) dj i j) 7 ?_ S8x1x9x56x56 (broadcastInDim S8x1x9x56x56 ![0, 2, 3, 4] bcast_S8x9x56x56_S8x1x9x56x56_0_2_3_4 (rowF 7 a b)) ?_ rfl 7 ?_ (ix5 n (0 : Fin 1) dj i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl
  | ⟨8, hdi⟩ =>
    refine Eq.trans (concatenate_apply_piece (t := S8x9x9x56x56) (1 : Fin 5) _ _ (ix5 n (⟨8, hdi⟩ : Fin 9) dj i j) 8 ?_ S8x1x9x56x56 (broadcastInDim S8x1x9x56x56 ![0, 2, 3, 4] bcast_S8x9x56x56_S8x1x9x56x56_0_2_3_4 (rowF 8 a b)) ?_ rfl 8 ?_ (ix5 n (0 : Fin 1) dj i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (56 : Nat) = 1 then 0 else i.val; rw [if_neg (by decide)]
        | ⟨3, _⟩ => by show j.val = if (56 : Nat) = 1 then 0 else j.val; rw [if_neg (by decide)])) ?_
      rfl

end Cert.ReferenceIdeal.Lvl1

end
-- ==== Proof.RefLevel1.lean ====
/-
  Level 1 of the reference as a run: each stretch's result is its composed term (the fold over the stretch computes
  it), a stretch's inputs are a, the padded b and the earlier rows' results, none of which a later stretch writes, and
  read at an index the level's result is g5 of the two feature maps as the level finds them.
-/
import proofs.«135875_j16999480558431_2_alg».proof.Proof.RefOps1
import proofs.«135875_j16999480558431_2_alg».proof.Proof.RefRead1

set_option maxRecDepth 8192

noncomputable section

namespace Cert.ReferenceIdeal.Lvl1

open Cert.ReferenceIdeal Cert.ReferenceIdeal.Gen Idealize.ShloMosaic Idealize.ShloMosaic.TcCoe Idealize.SL.Sem Idealize.ShloMosaic.StableHlo
open Idealize.ShloMosaic.ValueIdx RefLib Corr1 CorrJ1

variable {F : FTy → Type} [FloatOps F]

theorem evalR0 (V : Valuation τ sig (Elt F)) :
    after (opsR0 (F := F)) V (Proc.devRef .tc main_v381) = rowT0 (V (Proc.devRef .tc main_arg1)) (V (Proc.devRef .tc main_v344)) := rfl
theorem evalR1 (V : Valuation τ sig (Elt F)) :
    after (opsR1 (F := F)) V (Proc.devRef .tc main_v418) = rowT1 (V (Proc.devRef .tc main_arg1)) (V (Proc.devRef .tc main_v344)) := rfl
theorem evalR2 (V : Valuation τ sig (Elt F)) :
    after (opsR2 (F := F)) V (Proc.devRef .tc main_v455) = rowT2 (V (Proc.devRef .tc main_arg1)) (V (Proc.devRef .tc main_v344)) := rfl
theorem evalR3 (V : Valuation τ sig (Elt F)) :
    after (opsR3 (F := F)) V (Proc.devRef .tc main_v492) = rowT3 (V (Proc.devRef .tc main_arg1)) (V (Proc.devRef .tc main_v344)) := rfl
theorem evalR4 (V : Valuation τ sig (Elt F)) :
    after (opsR4 (F := F)) V (Proc.devRef .tc main_v529) = rowT4 (V (Proc.devRef .tc main_arg1)) (V (Proc.devRef .tc main_v344)) := rfl
theorem evalR5 (V : Valuation τ sig (Elt F)) :
    after (opsR5 (F := F)) V (Proc.devRef .tc main_v566) = rowT5 (V (Proc.devRef .tc main_arg1)) (V (Proc.devRef .tc main_v344)) := rfl
theorem evalR6 (V : Valuation τ sig (Elt F)) :
    after (opsR6 (F := F)) V (Proc.devRef .tc main_v603) = rowT6 (V (Proc.devRef .tc main_arg1)) (V (Proc.devRef .tc main_v344)) := rfl
theorem evalR7 (V : Valuation τ sig (Elt F)) :
    after (opsR7 (F := F)) V (Proc.devRef .tc main_v640) = rowT7 (V (Proc.devRef .tc main_arg1)) (V (Proc.devRef .tc main_v344)) := rfl
theorem evalR8 (V : Valuation τ sig (Elt F)) :
    after (opsR8 (F := F)) V (Proc.devRef .tc main_v677) = rowT8 (V (Proc.devRef .tc main_arg1)) (V (Proc.devRef .tc main_v344)) := rfl

theorem evalT (V : Valuation τ sig (Elt F)) :
    after (opsT (F := F)) V (Proc.devRef .tc main_v687) = tailT (V (Proc.devRef .tc main_v381)) (V (Proc.devRef .tc main_v418)) (V (Proc.devRef .tc main_v455)) (V (Proc.devRef .tc main_v492)) (V (Proc.devRef .tc main_v529)) (V (Proc.devRef .tc main_v566)) (V (Proc.devRef .tc main_v603)) (V (Proc.devRef .tc main_v640)) (V (Proc.devRef .tc main_v677)) := rfl

abbrev ch0 (V : Valuation τ sig (Elt F)) : Valuation τ sig (Elt F) := after opsH V
abbrev ch1 (V : Valuation τ sig (Elt F)) : Valuation τ sig (Elt F) := after opsR0 (ch0 V)
abbrev ch2 (V : Valuation τ sig (Elt F)) : Valuation τ sig (Elt F) := after opsR1 (ch1 V)
abbrev ch3 (V : Valuation τ sig (Elt F)) : Valuation τ sig (Elt F) := after opsR2 (ch2 V)
abbrev ch4 (V : Valuation τ sig (Elt F)) : Valuation τ sig (Elt F) := after opsR3 (ch3 V)
abbrev ch5 (V : Valuation τ sig (Elt F)) : Valuation τ sig (Elt F) := after opsR4 (ch4 V)
abbrev ch6 (V : Valuation τ sig (Elt F)) : Valuation τ sig (Elt F) := after opsR5 (ch5 V)
abbrev ch7 (V : Valuation τ sig (Elt F)) : Valuation τ sig (Elt F) := after opsR6 (ch6 V)
abbrev ch8 (V : Valuation τ sig (Elt F)) : Valuation τ sig (Elt F) := after opsR7 (ch7 V)
abbrev ch9 (V : Valuation τ sig (Elt F)) : Valuation τ sig (Elt F) := after opsR8 (ch8 V)

theorem chA0 (V : Valuation τ sig (Elt F)) : ch0 V (Proc.devRef .tc main_arg1) = V (Proc.devRef .tc main_arg1) :=
  after_of_writes_sub _ _ hWH (by decide)
theorem chA1 (V : Valuation τ sig (Elt F)) : ch1 V (Proc.devRef .tc main_arg1) = V (Proc.devRef .tc main_arg1) :=
  (after_of_writes_sub _ _ hWR0 (by decide)).trans (chA0 V)
theorem chA2 (V : Valuation τ sig (Elt F)) : ch2 V (Proc.devRef .tc main_arg1) = V (Proc.devRef .tc main_arg1) :=
  (after_of_writes_sub _ _ hWR1 (by decide)).trans (chA1 V)
theorem chA3 (V : Valuation τ sig (Elt F)) : ch3 V (Proc.devRef .tc main_arg1) = V (Proc.devRef .tc main_arg1) :=
  (after_of_writes_sub _ _ hWR2 (by decide)).trans (chA2 V)
theorem chA4 (V : Valuation τ sig (Elt F)) : ch4 V (Proc.devRef .tc main_arg1) = V (Proc.devRef .tc main_arg1) :=
  (after_of_writes_sub _ _ hWR3 (by decide)).trans (chA3 V)
theorem chA5 (V : Valuation τ sig (Elt F)) : ch5 V (Proc.devRef .tc main_arg1) = V (Proc.devRef .tc main_arg1) :=
  (after_of_writes_sub _ _ hWR4 (by decide)).trans (chA4 V)
theorem chA6 (V : Valuation τ sig (Elt F)) : ch6 V (Proc.devRef .tc main_arg1) = V (Proc.devRef .tc main_arg1) :=
  (after_of_writes_sub _ _ hWR5 (by decide)).trans (chA5 V)
theorem chA7 (V : Valuation τ sig (Elt F)) : ch7 V (Proc.devRef .tc main_arg1) = V (Proc.devRef .tc main_arg1) :=
  (after_of_writes_sub _ _ hWR6 (by decide)).trans (chA6 V)
theorem chA8 (V : Valuation τ sig (Elt F)) : ch8 V (Proc.devRef .tc main_arg1) = V (Proc.devRef .tc main_arg1) :=
  (after_of_writes_sub _ _ hWR7 (by decide)).trans (chA7 V)
theorem chA9 (V : Valuation τ sig (Elt F)) : ch9 V (Proc.devRef .tc main_arg1) = V (Proc.devRef .tc main_arg1) :=
  (after_of_writes_sub _ _ hWR8 (by decide)).trans (chA8 V)

theorem chP0 (V : Valuation τ sig (Elt F)) : ch0 V (Proc.devRef .tc main_v344) = padT (V (Proc.devRef .tc main_arg5)) := rfl
theorem chP1 (V : Valuation τ sig (Elt F)) : ch1 V (Proc.devRef .tc main_v344) = padT (V (Proc.devRef .tc main_arg5)) :=
  (after_of_writes_sub _ _ hWR0 (by decide)).trans (chP0 V)
theorem chP2 (V : Valuation τ sig (Elt F)) : ch2 V (Proc.devRef .tc main_v344) = padT (V (Proc.devRef .tc main_arg5)) :=
  (after_of_writes_sub _ _ hWR1 (by decide)).trans (chP1 V)
theorem chP3 (V : Valuation τ sig (Elt F)) : ch3 V (Proc.devRef .tc main_v344) = padT (V (Proc.devRef .tc main_arg5)) :=
  (after_of_writes_sub _ _ hWR2 (by decide)).trans (chP2 V)
theorem chP4 (V : Valuation τ sig (Elt F)) : ch4 V (Proc.devRef .tc main_v344) = padT (V (Proc.devRef .tc main_arg5)) :=
  (after_of_writes_sub _ _ hWR3 (by decide)).trans (chP3 V)
theorem chP5 (V : Valuation τ sig (Elt F)) : ch5 V (Proc.devRef .tc main_v344) = padT (V (Proc.devRef .tc main_arg5)) :=
  (after_of_writes_sub _ _ hWR4 (by decide)).trans (chP4 V)
theorem chP6 (V : Valuation τ sig (Elt F)) : ch6 V (Proc.devRef .tc main_v344) = padT (V (Proc.devRef .tc main_arg5)) :=
  (after_of_writes_sub _ _ hWR5 (by decide)).trans (chP5 V)
theorem chP7 (V : Valuation τ sig (Elt F)) : ch7 V (Proc.devRef .tc main_v344) = padT (V (Proc.devRef .tc main_arg5)) :=
  (after_of_writes_sub _ _ hWR6 (by decide)).trans (chP6 V)
theorem chP8 (V : Valuation τ sig (Elt F)) : ch8 V (Proc.devRef .tc main_v344) = padT (V (Proc.devRef .tc main_arg5)) :=
  (after_of_writes_sub _ _ hWR7 (by decide)).trans (chP7 V)
theorem chP9 (V : Valuation τ sig (Elt F)) : ch9 V (Proc.devRef .tc main_v344) = padT (V (Proc.devRef .tc main_arg5)) :=
  (after_of_writes_sub _ _ hWR8 (by decide)).trans (chP8 V)

theorem chRow0_1 (V : Valuation τ sig (Elt Ideal)) :
    ch1 V (Proc.devRef .tc main_v381) = rowF 0 (V (Proc.devRef .tc main_arg1)) (V (Proc.devRef .tc main_arg5)) := by
  refine (evalR0 (ch0 V)).trans ?_
  rw [chA0 V, chP0 V]
  exact rowRead0 _ _
theorem chRow0_2 (V : Valuation τ sig (Elt Ideal)) :
    ch2 V (Proc.devRef .tc main_v381) = rowF 0 (V (Proc.devRef .tc main_arg1)) (V (Proc.devRef .tc main_arg5)) :=
  (after_of_writes_sub _ _ hWR1 (by decide)).trans (chRow0_1 V)
theorem chRow0_3 (V : Valuation τ sig (Elt Ideal)) :
    ch3 V (Proc.devRef .tc main_v381) = rowF 0 (V (Proc.devRef .tc main_arg1)) (V (Proc.devRef .tc main_arg5)) :=
  (after_of_writes_sub _ _ hWR2 (by decide)).trans (chRow0_2 V)
theorem chRow0_4 (V : Valuation τ sig (Elt Ideal)) :
    ch4 V (Proc.devRef .tc main_v381) = rowF 0 (V (Proc.devRef .tc main_arg1)) (V (Proc.devRef .tc main_arg5)) :=
  (after_of_writes_sub _ _ hWR3 (by decide)).trans (chRow0_3 V)
theorem chRow0_5 (V : Valuation τ sig (Elt Ideal)) :
    ch5 V (Proc.devRef .tc main_v381) = rowF 0 (V (Proc.devRef .tc main_arg1)) (V (Proc.devRef .tc main_arg5)) :=
  (after_of_writes_sub _ _ hWR4 (by decide)).trans (chRow0_4 V)
theorem chRow0_6 (V : Valuation τ sig (Elt Ideal)) :
    ch6 V (Proc.devRef .tc main_v381) = rowF 0 (V (Proc.devRef .tc main_arg1)) (V (Proc.devRef .tc main_arg5)) :=
  (after_of_writes_sub _ _ hWR5 (by decide)).trans (chRow0_5 V)
theorem chRow0_7 (V : Valuation τ sig (Elt Ideal)) :
    ch7 V (Proc.devRef .tc main_v381) = rowF 0 (V (Proc.devRef .tc main_arg1)) (V (Proc.devRef .tc main_arg5)) :=
  (after_of_writes_sub _ _ hWR6 (by decide)).trans (chRow0_6 V)
theorem chRow0_8 (V : Valuation τ sig (Elt Ideal)) :
    ch8 V (Proc.devRef .tc main_v381) = rowF 0 (V (Proc.devRef .tc main_arg1)) (V (Proc.devRef .tc main_arg5)) :=
  (after_of_writes_sub _ _ hWR7 (by decide)).trans (chRow0_7 V)
theorem chRow0_9 (V : Valuation τ sig (Elt Ideal)) :
    ch9 V (Proc.devRef .tc main_v381) = rowF 0 (V (Proc.devRef .tc main_arg1)) (V (Proc.devRef .tc main_arg5)) :=
  (after_of_writes_sub _ _ hWR8 (by decide)).trans (chRow0_8 V)
theorem chRow1_2 (V : Valuation τ sig (Elt Ideal)) :
    ch2 V (Proc.devRef .tc main_v418) = rowF 1 (V (Proc.devRef .tc main_arg1)) (V (Proc.devRef .tc main_arg5)) := by
  refine (evalR1 (ch1 V)).trans ?_
  rw [chA1 V, chP1 V]
  exact rowRead1 _ _
theorem chRow1_3 (V : Valuation τ sig (Elt Ideal)) :
    ch3 V (Proc.devRef .tc main_v418) = rowF 1 (V (Proc.devRef .tc main_arg1)) (V (Proc.devRef .tc main_arg5)) :=
  (after_of_writes_sub _ _ hWR2 (by decide)).trans (chRow1_2 V)
theorem chRow1_4 (V : Valuation τ sig (Elt Ideal)) :
    ch4 V (Proc.devRef .tc main_v418) = rowF 1 (V (Proc.devRef .tc main_arg1)) (V (Proc.devRef .tc main_arg5)) :=
  (after_of_writes_sub _ _ hWR3 (by decide)).trans (chRow1_3 V)
theorem chRow1_5 (V : Valuation τ sig (Elt Ideal)) :
    ch5 V (Proc.devRef .tc main_v418) = rowF 1 (V (Proc.devRef .tc main_arg1)) (V (Proc.devRef .tc main_arg5)) :=
  (after_of_writes_sub _ _ hWR4 (by decide)).trans (chRow1_4 V)
theorem chRow1_6 (V : Valuation τ sig (Elt Ideal)) :
    ch6 V (Proc.devRef .tc main_v418) = rowF 1 (V (Proc.devRef .tc main_arg1)) (V (Proc.devRef .tc main_arg5)) :=
  (after_of_writes_sub _ _ hWR5 (by decide)).trans (chRow1_5 V)
theorem chRow1_7 (V : Valuation τ sig (Elt Ideal)) :
    ch7 V (Proc.devRef .tc main_v418) = rowF 1 (V (Proc.devRef .tc main_arg1)) (V (Proc.devRef .tc main_arg5)) :=
  (after_of_writes_sub _ _ hWR6 (by decide)).trans (chRow1_6 V)
theorem chRow1_8 (V : Valuation τ sig (Elt Ideal)) :
    ch8 V (Proc.devRef .tc main_v418) = rowF 1 (V (Proc.devRef .tc main_arg1)) (V (Proc.devRef .tc main_arg5)) :=
  (after_of_writes_sub _ _ hWR7 (by decide)).trans (chRow1_7 V)
theorem chRow1_9 (V : Valuation τ sig (Elt Ideal)) :
    ch9 V (Proc.devRef .tc main_v418) = rowF 1 (V (Proc.devRef .tc main_arg1)) (V (Proc.devRef .tc main_arg5)) :=
  (after_of_writes_sub _ _ hWR8 (by decide)).trans (chRow1_8 V)
theorem chRow2_3 (V : Valuation τ sig (Elt Ideal)) :
    ch3 V (Proc.devRef .tc main_v455) = rowF 2 (V (Proc.devRef .tc main_arg1)) (V (Proc.devRef .tc main_arg5)) := by
  refine (evalR2 (ch2 V)).trans ?_
  rw [chA2 V, chP2 V]
  exact rowRead2 _ _
theorem chRow2_4 (V : Valuation τ sig (Elt Ideal)) :
    ch4 V (Proc.devRef .tc main_v455) = rowF 2 (V (Proc.devRef .tc main_arg1)) (V (Proc.devRef .tc main_arg5)) :=
  (after_of_writes_sub _ _ hWR3 (by decide)).trans (chRow2_3 V)
theorem chRow2_5 (V : Valuation τ sig (Elt Ideal)) :
    ch5 V (Proc.devRef .tc main_v455) = rowF 2 (V (Proc.devRef .tc main_arg1)) (V (Proc.devRef .tc main_arg5)) :=
  (after_of_writes_sub _ _ hWR4 (by decide)).trans (chRow2_4 V)
theorem chRow2_6 (V : Valuation τ sig (Elt Ideal)) :
    ch6 V (Proc.devRef .tc main_v455) = rowF 2 (V (Proc.devRef .tc main_arg1)) (V (Proc.devRef .tc main_arg5)) :=
  (after_of_writes_sub _ _ hWR5 (by decide)).trans (chRow2_5 V)
theorem chRow2_7 (V : Valuation τ sig (Elt Ideal)) :
    ch7 V (Proc.devRef .tc main_v455) = rowF 2 (V (Proc.devRef .tc main_arg1)) (V (Proc.devRef .tc main_arg5)) :=
  (after_of_writes_sub _ _ hWR6 (by decide)).trans (chRow2_6 V)
theorem chRow2_8 (V : Valuation τ sig (Elt Ideal)) :
    ch8 V (Proc.devRef .tc main_v455) = rowF 2 (V (Proc.devRef .tc main_arg1)) (V (Proc.devRef .tc main_arg5)) :=
  (after_of_writes_sub _ _ hWR7 (by decide)).trans (chRow2_7 V)
theorem chRow2_9 (V : Valuation τ sig (Elt Ideal)) :
    ch9 V (Proc.devRef .tc main_v455) = rowF 2 (V (Proc.devRef .tc main_arg1)) (V (Proc.devRef .tc main_arg5)) :=
  (after_of_writes_sub _ _ hWR8 (by decide)).trans (chRow2_8 V)
theorem chRow3_4 (V : Valuation τ sig (Elt Ideal)) :
    ch4 V (Proc.devRef .tc main_v492) = rowF 3 (V (Proc.devRef .tc main_arg1)) (V (Proc.devRef .tc main_arg5)) := by
  refine (evalR3 (ch3 V)).trans ?_
  rw [chA3 V, chP3 V]
  exact rowRead3 _ _
theorem chRow3_5 (V : Valuation τ sig (Elt Ideal)) :
    ch5 V (Proc.devRef .tc main_v492) = rowF 3 (V (Proc.devRef .tc main_arg1)) (V (Proc.devRef .tc main_arg5)) :=
  (after_of_writes_sub _ _ hWR4 (by decide)).trans (chRow3_4 V)
theorem chRow3_6 (V : Valuation τ sig (Elt Ideal)) :
    ch6 V (Proc.devRef .tc main_v492) = rowF 3 (V (Proc.devRef .tc main_arg1)) (V (Proc.devRef .tc main_arg5)) :=
  (after_of_writes_sub _ _ hWR5 (by decide)).trans (chRow3_5 V)
theorem chRow3_7 (V : Valuation τ sig (Elt Ideal)) :
    ch7 V (Proc.devRef .tc main_v492) = rowF 3 (V (Proc.devRef .tc main_arg1)) (V (Proc.devRef .tc main_arg5)) :=
  (after_of_writes_sub _ _ hWR6 (by decide)).trans (chRow3_6 V)
theorem chRow3_8 (V : Valuation τ sig (Elt Ideal)) :
    ch8 V (Proc.devRef .tc main_v492) = rowF 3 (V (Proc.devRef .tc main_arg1)) (V (Proc.devRef .tc main_arg5)) :=
  (after_of_writes_sub _ _ hWR7 (by decide)).trans (chRow3_7 V)
theorem chRow3_9 (V : Valuation τ sig (Elt Ideal)) :
    ch9 V (Proc.devRef .tc main_v492) = rowF 3 (V (Proc.devRef .tc main_arg1)) (V (Proc.devRef .tc main_arg5)) :=
  (after_of_writes_sub _ _ hWR8 (by decide)).trans (chRow3_8 V)
theorem chRow4_5 (V : Valuation τ sig (Elt Ideal)) :
    ch5 V (Proc.devRef .tc main_v529) = rowF 4 (V (Proc.devRef .tc main_arg1)) (V (Proc.devRef .tc main_arg5)) := by
  refine (evalR4 (ch4 V)).trans ?_
  rw [chA4 V, chP4 V]
  exact rowRead4 _ _
theorem chRow4_6 (V : Valuation τ sig (Elt Ideal)) :
    ch6 V (Proc.devRef .tc main_v529) = rowF 4 (V (Proc.devRef .tc main_arg1)) (V (Proc.devRef .tc main_arg5)) :=
  (after_of_writes_sub _ _ hWR5 (by decide)).trans (chRow4_5 V)
theorem chRow4_7 (V : Valuation τ sig (Elt Ideal)) :
    ch7 V (Proc.devRef .tc main_v529) = rowF 4 (V (Proc.devRef .tc main_arg1)) (V (Proc.devRef .tc main_arg5)) :=
  (after_of_writes_sub _ _ hWR6 (by decide)).trans (chRow4_6 V)
theorem chRow4_8 (V : Valuation τ sig (Elt Ideal)) :
    ch8 V (Proc.devRef .tc main_v529) = rowF 4 (V (Proc.devRef .tc main_arg1)) (V (Proc.devRef .tc main_arg5)) :=
  (after_of_writes_sub _ _ hWR7 (by decide)).trans (chRow4_7 V)
theorem chRow4_9 (V : Valuation τ sig (Elt Ideal)) :
    ch9 V (Proc.devRef .tc main_v529) = rowF 4 (V (Proc.devRef .tc main_arg1)) (V (Proc.devRef .tc main_arg5)) :=
  (after_of_writes_sub _ _ hWR8 (by decide)).trans (chRow4_8 V)
theorem chRow5_6 (V : Valuation τ sig (Elt Ideal)) :
    ch6 V (Proc.devRef .tc main_v566) = rowF 5 (V (Proc.devRef .tc main_arg1)) (V (Proc.devRef .tc main_arg5)) := by
  refine (evalR5 (ch5 V)).trans ?_
  rw [chA5 V, chP5 V]
  exact rowRead5 _ _
theorem chRow5_7 (V : Valuation τ sig (Elt Ideal)) :
    ch7 V (Proc.devRef .tc main_v566) = rowF 5 (V (Proc.devRef .tc main_arg1)) (V (Proc.devRef .tc main_arg5)) :=
  (after_of_writes_sub _ _ hWR6 (by decide)).trans (chRow5_6 V)
theorem chRow5_8 (V : Valuation τ sig (Elt Ideal)) :
    ch8 V (Proc.devRef .tc main_v566) = rowF 5 (V (Proc.devRef .tc main_arg1)) (V (Proc.devRef .tc main_arg5)) :=
  (after_of_writes_sub _ _ hWR7 (by decide)).trans (chRow5_7 V)
theorem chRow5_9 (V : Valuation τ sig (Elt Ideal)) :
    ch9 V (Proc.devRef .tc main_v566) = rowF 5 (V (Proc.devRef .tc main_arg1)) (V (Proc.devRef .tc main_arg5)) :=
  (after_of_writes_sub _ _ hWR8 (by decide)).trans (chRow5_8 V)
theorem chRow6_7 (V : Valuation τ sig (Elt Ideal)) :
    ch7 V (Proc.devRef .tc main_v603) = rowF 6 (V (Proc.devRef .tc main_arg1)) (V (Proc.devRef .tc main_arg5)) := by
  refine (evalR6 (ch6 V)).trans ?_
  rw [chA6 V, chP6 V]
  exact rowRead6 _ _
theorem chRow6_8 (V : Valuation τ sig (Elt Ideal)) :
    ch8 V (Proc.devRef .tc main_v603) = rowF 6 (V (Proc.devRef .tc main_arg1)) (V (Proc.devRef .tc main_arg5)) :=
  (after_of_writes_sub _ _ hWR7 (by decide)).trans (chRow6_7 V)
theorem chRow6_9 (V : Valuation τ sig (Elt Ideal)) :
    ch9 V (Proc.devRef .tc main_v603) = rowF 6 (V (Proc.devRef .tc main_arg1)) (V (Proc.devRef .tc main_arg5)) :=
  (after_of_writes_sub _ _ hWR8 (by decide)).trans (chRow6_8 V)
theorem chRow7_8 (V : Valuation τ sig (Elt Ideal)) :
    ch8 V (Proc.devRef .tc main_v640) = rowF 7 (V (Proc.devRef .tc main_arg1)) (V (Proc.devRef .tc main_arg5)) := by
  refine (evalR7 (ch7 V)).trans ?_
  rw [chA7 V, chP7 V]
  exact rowRead7 _ _
theorem chRow7_9 (V : Valuation τ sig (Elt Ideal)) :
    ch9 V (Proc.devRef .tc main_v640) = rowF 7 (V (Proc.devRef .tc main_arg1)) (V (Proc.devRef .tc main_arg5)) :=
  (after_of_writes_sub _ _ hWR8 (by decide)).trans (chRow7_8 V)
theorem chRow8_9 (V : Valuation τ sig (Elt Ideal)) :
    ch9 V (Proc.devRef .tc main_v677) = rowF 8 (V (Proc.devRef .tc main_arg1)) (V (Proc.devRef .tc main_arg5)) := by
  refine (evalR8 (ch8 V)).trans ?_
  rw [chA8 V, chP8 V]
  exact rowRead8 _ _

/-- The level's result after its operations: g5 of the two feature maps as the level finds them. -/
theorem level_res (V : Valuation τ sig (Elt Ideal)) :
    after (opsL (F := Ideal)) V (Proc.devRef .tc main_v687) = g5 (V (Proc.devRef .tc main_arg1)) (V (Proc.devRef .tc main_arg5)) := by
  simp only [opsL, StableHlo.after_append]
  refine (evalT (ch9 V)).trans ?_
  rw [chRow0_9 V, chRow1_9 V, chRow2_9 V, chRow3_9 V, chRow4_9 V, chRow5_9 V, chRow6_9 V, chRow7_9 V, chRow8_9 V]
  exact tailRead _ _

end Cert.ReferenceIdeal.Lvl1

end
-- ==== Proof.RefOps2.lean ====
/-
  Level 2 of the reference: its 427 host operations in order, cut into the header (a zero constant, its conversion to a
  float, the zero pad of b), the nine rows of 46 operations and the tail of 10; for each stretch the buffers it writes,
  that every operation touches TensorCore buffers only, and that none allocates.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl2

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

abbrev opsH : List (HloOp τ sig (Elt F)) :=
  [ nullary main_c_162 (constantI S_ 32 0#32),
    TRef.unary (TRef.of (T := ⟨S_, .i32⟩) main_c_162) (TRef.of (T := ⟨S_, .f32⟩) main_call2_v0) (sitofp .f32),
    TRef.binary (TRef.of (T := ⟨S8x256x28x28, .f32⟩) main_arg6) (TRef.of (T := ⟨S_, .f32⟩) main_call2_v0) (TRef.of (T := ⟨S8x256x36x36, .f32⟩) main_v688) (fun x v => pad S8x256x36x36 ![0, 0, 4, 4] ![0, 0, 4, 4] ![0, 0, 0, 0] x v pads_S8x256x28x28_S8x256x36x36_000_000_440_440 h_S_) ]

abbrev opsR0 : List (HloOp τ sig (Elt F)) :=
  [ unary main_v688 main_v689 ((extractStridedSlice S8x256x28x28 ![0, 0, 0, 0] · slices_S8x256x36x36_S8x256x28x28_0_0_0_0) : (⟨S8x256x36x36, .f32⟩ : BufTy).Contents (Elt F) → (⟨S8x256x28x28, .f32⟩ : BufTy).Contents (Elt F)),
    binary main_arg2 main_v689 main_v690 (mulf : (⟨S8x256x28x28, .f32⟩ : BufTy).Contents (Elt F) → (⟨S8x256x28x28, .f32⟩ : BufTy).Contents (Elt F) → (⟨S8x256x28x28, .f32⟩ : BufTy).Contents (Elt F)),
    nullary main_cst_163 (constant S_ .f32 0x00000000#32),
    binary main_v690 main_cst_163 main_v691 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v692 ((extractStridedSlice S8x256x28x28 ![0, 0, 0, 1] · slices_S8x256x36x36_S8x256x28x28_0_0_0_1) : (⟨S8x256x36x36, .f32⟩ : BufTy).Contents (Elt F) → (⟨S8x256x28x28, .f32⟩ : BufTy).Contents (Elt F)),
    binary main_arg2 main_v692 main_v693 (mulf : (⟨S8x256x28x28, .f32⟩ : BufTy).Contents (Elt F) → (⟨S8x256x28x28, .f32⟩ : BufTy).Contents (Elt F) → (⟨S8x256x28x28, .f32⟩ : BufTy).Contents (Elt F)),
    nullary main_cst_164 (constant S_ .f32 0x00000000#32),
    binary main_v693 main_cst_164 main_v694 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v695 ((extractStridedSlice S8x256x28x28 ![0, 0, 0, 2] · slices_S8x256x36x36_S8x256x28x28_0_0_0_2) : (⟨S8x256x36x36, .f32⟩ : BufTy).Contents (Elt F) → (⟨S8x256x28x28, .f32⟩ : BufTy).Contents (Elt F)),
    binary main_arg2 main_v695 main_v696 (mulf : (⟨S8x256x28x28, .f32⟩ : BufTy).Contents (Elt F) → (⟨S8x256x28x28, .f32⟩ : BufTy).Contents (Elt F) → (⟨S8x256x28x28, .f32⟩ : BufTy).Contents (Elt F)),
    nullary main_cst_165 (constant S_ .f32 0x00000000#32),
    binary main_v696 main_cst_165 main_v697 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v698 ((extractStridedSlice S8x256x28x28 ![0, 0, 0, 3] · slices_S8x256x36x36_S8x256x28x28_0_0_0_3) : (⟨S8x256x36x36, .f32⟩ : BufTy).Contents (Elt F) → (⟨S8x256x28x28, .f32⟩ : BufTy).Contents (Elt F)),
    binary main_arg2 main_v698 main_v699 (mulf : (⟨S8x256x28x28, .f32⟩ : BufTy).Contents (Elt F) → (⟨S8x256x28x28, .f32⟩ : BufTy).Contents (Elt F) → (⟨S8x256x28x28, .f32⟩ : BufTy).Contents (Elt F)),
    nullary main_cst_166 (constant S_ .f32 0x00000000#32),
    binary main_v699 main_cst_166 main_v700 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v701 ((extractStridedSlice S8x256x28x28 ![0, 0, 0, 4] · slices_S8x256x36x36_S8x256x28x28_0_0_0_4) : (⟨S8x256x36x36, .f32⟩ : BufTy).Contents (Elt F) → (⟨S8x256x28x28, .f32⟩ : BufTy).Contents (Elt F)),
    binary main_arg2 main_v701 main_v702 (mulf : (⟨S8x256x28x28, .f32⟩ : BufTy).Contents (Elt F) → (⟨S8x256x28x28, .f32⟩ : BufTy).Contents (Elt F) → (⟨S8x256x28x28, .f32⟩ : BufTy).Contents (Elt F)),
    nullary main_cst_167 (constant S_ .f32 0x00000000#32),
    binary main_v702 main_cst_167 main_v703 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v704 ((extractStridedSlice S8x256x28x28 ![0, 0, 0, 5] · slices_S8x256x36x36_S8x256x28x28_0_0_0_5) : (⟨S8x256x36x36, .f32⟩ : BufTy).Contents (Elt F) → (⟨S8x256x28x28, .f32⟩ : BufTy).Contents (Elt F)),
    binary main_arg2 main_v704 main_v705 (mulf : (⟨S8x256x28x28, .f32⟩ : BufTy).Contents (Elt F) → (⟨S8x256x28x28, .f32⟩ : BufTy).Contents (Elt F) → (⟨S8x256x28x28, .f32⟩ : BufTy).Contents (Elt F)),
    nullary main_cst_168 (constant S_ .f32 0x00000000#32),
    binary main_v705 main_cst_168 main_v706 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v707 ((extractStridedSlice S8x256x28x28 ![0, 0, 0, 6] · slices_S8x256x36x36_S8x256x28x28_0_0_0_6) : (⟨S8x256x36x36, .f32⟩ : BufTy).Contents (Elt F) → (⟨S8x256x28x28, .f32⟩ : BufTy).Contents (Elt F)),
    binary main_arg2 main_v707 main_v708 (mulf : (⟨S8x256x28x28, .f32⟩ : BufTy).Contents (Elt F) → (⟨S8x256x28x28, .f32⟩ : BufTy).Contents (Elt F) → (⟨S8x256x28x28, .f32⟩ : BufTy).Contents (Elt F)),
    nullary main_cst_169 (constant S_ .f32 0x00000000#32),
    binary main_v708 main_cst_169 main_v709 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v710 ((extractStridedSlice S8x256x28x28 ![0, 0, 0, 7] · slices_S8x256x36x36_S8x256x28x28_0_0_0_7) : (⟨S8x256x36x36, .f32⟩ : BufTy).Contents (Elt F) → (⟨S8x256x28x28, .f32⟩ : BufTy).Contents (Elt F)),
    binary main_arg2 main_v710 main_v711 (mulf : (⟨S8x256x28x28, .f32⟩ : BufTy).Contents (Elt F) → (⟨S8x256x28x28, .f32⟩ : BufTy).Contents (Elt F) → (⟨S8x256x28x28, .f32⟩ : BufTy).Contents (Elt F)),
    nullary main_cst_170 (constant S_ .f32 0x00000000#32),
    binary main_v711 main_cst_170 main_v712 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v713 ((extractStridedSlice S8x256x28x28 ![0, 0, 0, 8] · slices_S8x256x36x36_S8x256x28x28_0_0_0_8) : (⟨S8x256x36x36, .f32⟩ : BufTy).Contents (Elt F) → (⟨S8x256x28x28, .f32⟩ : BufTy).Contents (Elt F)),
    binary main_arg2 main_v713 main_v714 (mulf : (⟨S8x256x28x28, .f32⟩ : BufTy).Contents (Elt F) → (⟨S8x256x28x28, .f32⟩ : BufTy).Contents (Elt F) → (⟨S8x256x28x28, .f32⟩ : BufTy).Contents (Elt F)),
    nullary main_cst_171 (constant S_ .f32 0x00000000#32),
    binary main_v714 main_cst_171 main_v715 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v691 main_v716 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v694 main_v717 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v697 main_v718 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v700 main_v719 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v703 main_v720 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v706 main_v721 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v709 main_v722 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v712 main_v723 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v715 main_v724 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v716, main_v717, main_v718, main_v719, main_v720, main_v721, main_v722, main_v723, main_v724] main_v725 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR1 : List (HloOp τ sig (Elt F)) :=
  [ unary main_v688 main_v726 ((extractStridedSlice S8x256x28x28 ![0, 0, 1, 0] · slices_S8x256x36x36_S8x256x28x28_0_0_1_0) : (⟨S8x256x36x36, .f32⟩ : BufTy).Contents (Elt F) → (⟨S8x256x28x28, .f32⟩ : BufTy).Contents (Elt F)),
    binary main_arg2 main_v726 main_v727 (mulf : (⟨S8x256x28x28, .f32⟩ : BufTy).Contents (Elt F) → (⟨S8x256x28x28, .f32⟩ : BufTy).Contents (Elt F) → (⟨S8x256x28x28, .f32⟩ : BufTy).Contents (Elt F)),
    nullary main_cst_172 (constant S_ .f32 0x00000000#32),
    binary main_v727 main_cst_172 main_v728 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v729 ((extractStridedSlice S8x256x28x28 ![0, 0, 1, 1] · slices_S8x256x36x36_S8x256x28x28_0_0_1_1) : (⟨S8x256x36x36, .f32⟩ : BufTy).Contents (Elt F) → (⟨S8x256x28x28, .f32⟩ : BufTy).Contents (Elt F)),
    binary main_arg2 main_v729 main_v730 (mulf : (⟨S8x256x28x28, .f32⟩ : BufTy).Contents (Elt F) → (⟨S8x256x28x28, .f32⟩ : BufTy).Contents (Elt F) → (⟨S8x256x28x28, .f32⟩ : BufTy).Contents (Elt F)),
    nullary main_cst_173 (constant S_ .f32 0x00000000#32),
    binary main_v730 main_cst_173 main_v731 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v732 ((extractStridedSlice S8x256x28x28 ![0, 0, 1, 2] · slices_S8x256x36x36_S8x256x28x28_0_0_1_2) : (⟨S8x256x36x36, .f32⟩ : BufTy).Contents (Elt F) → (⟨S8x256x28x28, .f32⟩ : BufTy).Contents (Elt F)),
    binary main_arg2 main_v732 main_v733 (mulf : (⟨S8x256x28x28, .f32⟩ : BufTy).Contents (Elt F) → (⟨S8x256x28x28, .f32⟩ : BufTy).Contents (Elt F) → (⟨S8x256x28x28, .f32⟩ : BufTy).Contents (Elt F)),
    nullary main_cst_174 (constant S_ .f32 0x00000000#32),
    binary main_v733 main_cst_174 main_v734 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v735 ((extractStridedSlice S8x256x28x28 ![0, 0, 1, 3] · slices_S8x256x36x36_S8x256x28x28_0_0_1_3) : (⟨S8x256x36x36, .f32⟩ : BufTy).Contents (Elt F) → (⟨S8x256x28x28, .f32⟩ : BufTy).Contents (Elt F)),
    binary main_arg2 main_v735 main_v736 (mulf : (⟨S8x256x28x28, .f32⟩ : BufTy).Contents (Elt F) → (⟨S8x256x28x28, .f32⟩ : BufTy).Contents (Elt F) → (⟨S8x256x28x28, .f32⟩ : BufTy).Contents (Elt F)),
    nullary main_cst_175 (constant S_ .f32 0x00000000#32),
    binary main_v736 main_cst_175 main_v737 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v738 ((extractStridedSlice S8x256x28x28 ![0, 0, 1, 4] · slices_S8x256x36x36_S8x256x28x28_0_0_1_4) : (⟨S8x256x36x36, .f32⟩ : BufTy).Contents (Elt F) → (⟨S8x256x28x28, .f32⟩ : BufTy).Contents (Elt F)),
    binary main_arg2 main_v738 main_v739 (mulf : (⟨S8x256x28x28, .f32⟩ : BufTy).Contents (Elt F) → (⟨S8x256x28x28, .f32⟩ : BufTy).Contents (Elt F) → (⟨S8x256x28x28, .f32⟩ : BufTy).Contents (Elt F)),
    nullary main_cst_176 (constant S_ .f32 0x00000000#32),
    binary main_v739 main_cst_176 main_v740 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v741 ((extractStridedSlice S8x256x28x28 ![0, 0, 1, 5] · slices_S8x256x36x36_S8x256x28x28_0_0_1_5) : (⟨S8x256x36x36, .f32⟩ : BufTy).Contents (Elt F) → (⟨S8x256x28x28, .f32⟩ : BufTy).Contents (Elt F)),
    binary main_arg2 main_v741 main_v742 (mulf : (⟨S8x256x28x28, .f32⟩ : BufTy).Contents (Elt F) → (⟨S8x256x28x28, .f32⟩ : BufTy).Contents (Elt F) → (⟨S8x256x28x28, .f32⟩ : BufTy).Contents (Elt F)),
    nullary main_cst_177 (constant S_ .f32 0x00000000#32),
    binary main_v742 main_cst_177 main_v743 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v744 ((extractStridedSlice S8x256x28x28 ![0, 0, 1, 6] · slices_S8x256x36x36_S8x256x28x28_0_0_1_6) : (⟨S8x256x36x36, .f32⟩ : BufTy).Contents (Elt F) → (⟨S8x256x28x28, .f32⟩ : BufTy).Contents (Elt F)),
    binary main_arg2 main_v744 main_v745 (mulf : (⟨S8x256x28x28, .f32⟩ : BufTy).Contents (Elt F) → (⟨S8x256x28x28, .f32⟩ : BufTy).Contents (Elt F) → (⟨S8x256x28x28, .f32⟩ : BufTy).Contents (Elt F)),
    nullary main_cst_178 (constant S_ .f32 0x00000000#32),
    binary main_v745 main_cst_178 main_v746 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v747 ((extractStridedSlice S8x256x28x28 ![0, 0, 1, 7] · slices_S8x256x36x36_S8x256x28x28_0_0_1_7) : (⟨S8x256x36x36, .f32⟩ : BufTy).Contents (Elt F) → (⟨S8x256x28x28, .f32⟩ : BufTy).Contents (Elt F)),
    binary main_arg2 main_v747 main_v748 (mulf : (⟨S8x256x28x28, .f32⟩ : BufTy).Contents (Elt F) → (⟨S8x256x28x28, .f32⟩ : BufTy).Contents (Elt F) → (⟨S8x256x28x28, .f32⟩ : BufTy).Contents (Elt F)),
    nullary main_cst_179 (constant S_ .f32 0x00000000#32),
    binary main_v748 main_cst_179 main_v749 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v750 ((extractStridedSlice S8x256x28x28 ![0, 0, 1, 8] · slices_S8x256x36x36_S8x256x28x28_0_0_1_8) : (⟨S8x256x36x36, .f32⟩ : BufTy).Contents (Elt F) → (⟨S8x256x28x28, .f32⟩ : BufTy).Contents (Elt F)),
    binary main_arg2 main_v750 main_v751 (mulf : (⟨S8x256x28x28, .f32⟩ : BufTy).Contents (Elt F) → (⟨S8x256x28x28, .f32⟩ : BufTy).Contents (Elt F) → (⟨S8x256x28x28, .f32⟩ : BufTy).Contents (Elt F)),
    nullary main_cst_180 (constant S_ .f32 0x00000000#32),
    binary main_v751 main_cst_180 main_v752 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v728 main_v753 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v731 main_v754 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v734 main_v755 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v737 main_v756 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v740 main_v757 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v743 main_v758 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v746 main_v759 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v749 main_v760 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v752 main_v761 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v753, main_v754, main_v755, main_v756, main_v757, main_v758, main_v759, main_v760, main_v761] main_v762 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR2 : List (HloOp τ sig (Elt F)) :=
  [ unary main_v688 main_v763 ((extractStridedSlice S8x256x28x28 ![0, 0, 2, 0] · slices_S8x256x36x36_S8x256x28x28_0_0_2_0) : (⟨S8x256x36x36, .f32⟩ : BufTy).Contents (Elt F) → (⟨S8x256x28x28, .f32⟩ : BufTy).Contents (Elt F)),
    binary main_arg2 main_v763 main_v764 (mulf : (⟨S8x256x28x28, .f32⟩ : BufTy).Contents (Elt F) → (⟨S8x256x28x28, .f32⟩ : BufTy).Contents (Elt F) → (⟨S8x256x28x28, .f32⟩ : BufTy).Contents (Elt F)),
    nullary main_cst_181 (constant S_ .f32 0x00000000#32),
    binary main_v764 main_cst_181 main_v765 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v766 ((extractStridedSlice S8x256x28x28 ![0, 0, 2, 1] · slices_S8x256x36x36_S8x256x28x28_0_0_2_1) : (⟨S8x256x36x36, .f32⟩ : BufTy).Contents (Elt F) → (⟨S8x256x28x28, .f32⟩ : BufTy).Contents (Elt F)),
    binary main_arg2 main_v766 main_v767 (mulf : (⟨S8x256x28x28, .f32⟩ : BufTy).Contents (Elt F) → (⟨S8x256x28x28, .f32⟩ : BufTy).Contents (Elt F) → (⟨S8x256x28x28, .f32⟩ : BufTy).Contents (Elt F)),
    nullary main_cst_182 (constant S_ .f32 0x00000000#32),
    binary main_v767 main_cst_182 main_v768 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v769 ((extractStridedSlice S8x256x28x28 ![0, 0, 2, 2] · slices_S8x256x36x36_S8x256x28x28_0_0_2_2) : (⟨S8x256x36x36, .f32⟩ : BufTy).Contents (Elt F) → (⟨S8x256x28x28, .f32⟩ : BufTy).Contents (Elt F)),
    binary main_arg2 main_v769 main_v770 (mulf : (⟨S8x256x28x28, .f32⟩ : BufTy).Contents (Elt F) → (⟨S8x256x28x28, .f32⟩ : BufTy).Contents (Elt F) → (⟨S8x256x28x28, .f32⟩ : BufTy).Contents (Elt F)),
    nullary main_cst_183 (constant S_ .f32 0x00000000#32),
    binary main_v770 main_cst_183 main_v771 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v772 ((extractStridedSlice S8x256x28x28 ![0, 0, 2, 3] · slices_S8x256x36x36_S8x256x28x28_0_0_2_3) : (⟨S8x256x36x36, .f32⟩ : BufTy).Contents (Elt F) → (⟨S8x256x28x28, .f32⟩ : BufTy).Contents (Elt F)),
    binary main_arg2 main_v772 main_v773 (mulf : (⟨S8x256x28x28, .f32⟩ : BufTy).Contents (Elt F) → (⟨S8x256x28x28, .f32⟩ : BufTy).Contents (Elt F) → (⟨S8x256x28x28, .f32⟩ : BufTy).Contents (Elt F)),
    nullary main_cst_184 (constant S_ .f32 0x00000000#32),
    binary main_v773 main_cst_184 main_v774 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v775 ((extractStridedSlice S8x256x28x28 ![0, 0, 2, 4] · slices_S8x256x36x36_S8x256x28x28_0_0_2_4) : (⟨S8x256x36x36, .f32⟩ : BufTy).Contents (Elt F) → (⟨S8x256x28x28, .f32⟩ : BufTy).Contents (Elt F)),
    binary main_arg2 main_v775 main_v776 (mulf : (⟨S8x256x28x28, .f32⟩ : BufTy).Contents (Elt F) → (⟨S8x256x28x28, .f32⟩ : BufTy).Contents (Elt F) → (⟨S8x256x28x28, .f32⟩ : BufTy).Contents (Elt F)),
    nullary main_cst_185 (constant S_ .f32 0x00000000#32),
    binary main_v776 main_cst_185 main_v777 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v778 ((extractStridedSlice S8x256x28x28 ![0, 0, 2, 5] · slices_S8x256x36x36_S8x256x28x28_0_0_2_5) : (⟨S8x256x36x36, .f32⟩ : BufTy).Contents (Elt F) → (⟨S8x256x28x28, .f32⟩ : BufTy).Contents (Elt F)),
    binary main_arg2 main_v778 main_v779 (mulf : (⟨S8x256x28x28, .f32⟩ : BufTy).Contents (Elt F) → (⟨S8x256x28x28, .f32⟩ : BufTy).Contents (Elt F) → (⟨S8x256x28x28, .f32⟩ : BufTy).Contents (Elt F)),
    nullary main_cst_186 (constant S_ .f32 0x00000000#32),
    binary main_v779 main_cst_186 main_v780 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v781 ((extractStridedSlice S8x256x28x28 ![0, 0, 2, 6] · slices_S8x256x36x36_S8x256x28x28_0_0_2_6) : (⟨S8x256x36x36, .f32⟩ : BufTy).Contents (Elt F) → (⟨S8x256x28x28, .f32⟩ : BufTy).Contents (Elt F)),
    binary main_arg2 main_v781 main_v782 (mulf : (⟨S8x256x28x28, .f32⟩ : BufTy).Contents (Elt F) → (⟨S8x256x28x28, .f32⟩ : BufTy).Contents (Elt F) → (⟨S8x256x28x28, .f32⟩ : BufTy).Contents (Elt F)),
    nullary main_cst_187 (constant S_ .f32 0x00000000#32),
    binary main_v782 main_cst_187 main_v783 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v784 ((extractStridedSlice S8x256x28x28 ![0, 0, 2, 7] · slices_S8x256x36x36_S8x256x28x28_0_0_2_7) : (⟨S8x256x36x36, .f32⟩ : BufTy).Contents (Elt F) → (⟨S8x256x28x28, .f32⟩ : BufTy).Contents (Elt F)),
    binary main_arg2 main_v784 main_v785 (mulf : (⟨S8x256x28x28, .f32⟩ : BufTy).Contents (Elt F) → (⟨S8x256x28x28, .f32⟩ : BufTy).Contents (Elt F) → (⟨S8x256x28x28, .f32⟩ : BufTy).Contents (Elt F)),
    nullary main_cst_188 (constant S_ .f32 0x00000000#32),
    binary main_v785 main_cst_188 main_v786 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v787 ((extractStridedSlice S8x256x28x28 ![0, 0, 2, 8] · slices_S8x256x36x36_S8x256x28x28_0_0_2_8) : (⟨S8x256x36x36, .f32⟩ : BufTy).Contents (Elt F) → (⟨S8x256x28x28, .f32⟩ : BufTy).Contents (Elt F)),
    binary main_arg2 main_v787 main_v788 (mulf : (⟨S8x256x28x28, .f32⟩ : BufTy).Contents (Elt F) → (⟨S8x256x28x28, .f32⟩ : BufTy).Contents (Elt F) → (⟨S8x256x28x28, .f32⟩ : BufTy).Contents (Elt F)),
    nullary main_cst_189 (constant S_ .f32 0x00000000#32),
    binary main_v788 main_cst_189 main_v789 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v765 main_v790 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v768 main_v791 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v771 main_v792 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v774 main_v793 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v777 main_v794 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v780 main_v795 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v783 main_v796 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v786 main_v797 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v789 main_v798 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v790, main_v791, main_v792, main_v793, main_v794, main_v795, main_v796, main_v797, main_v798] main_v799 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR3 : List (HloOp τ sig (Elt F)) :=
  [ unary main_v688 main_v800 ((extractStridedSlice S8x256x28x28 ![0, 0, 3, 0] · slices_S8x256x36x36_S8x256x28x28_0_0_3_0) : (⟨S8x256x36x36, .f32⟩ : BufTy).Contents (Elt F) → (⟨S8x256x28x28, .f32⟩ : BufTy).Contents (Elt F)),
    binary main_arg2 main_v800 main_v801 (mulf : (⟨S8x256x28x28, .f32⟩ : BufTy).Contents (Elt F) → (⟨S8x256x28x28, .f32⟩ : BufTy).Contents (Elt F) → (⟨S8x256x28x28, .f32⟩ : BufTy).Contents (Elt F)),
    nullary main_cst_190 (constant S_ .f32 0x00000000#32),
    binary main_v801 main_cst_190 main_v802 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v803 ((extractStridedSlice S8x256x28x28 ![0, 0, 3, 1] · slices_S8x256x36x36_S8x256x28x28_0_0_3_1) : (⟨S8x256x36x36, .f32⟩ : BufTy).Contents (Elt F) → (⟨S8x256x28x28, .f32⟩ : BufTy).Contents (Elt F)),
    binary main_arg2 main_v803 main_v804 (mulf : (⟨S8x256x28x28, .f32⟩ : BufTy).Contents (Elt F) → (⟨S8x256x28x28, .f32⟩ : BufTy).Contents (Elt F) → (⟨S8x256x28x28, .f32⟩ : BufTy).Contents (Elt F)),
    nullary main_cst_191 (constant S_ .f32 0x00000000#32),
    binary main_v804 main_cst_191 main_v805 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v806 ((extractStridedSlice S8x256x28x28 ![0, 0, 3, 2] · slices_S8x256x36x36_S8x256x28x28_0_0_3_2) : (⟨S8x256x36x36, .f32⟩ : BufTy).Contents (Elt F) → (⟨S8x256x28x28, .f32⟩ : BufTy).Contents (Elt F)),
    binary main_arg2 main_v806 main_v807 (mulf : (⟨S8x256x28x28, .f32⟩ : BufTy).Contents (Elt F) → (⟨S8x256x28x28, .f32⟩ : BufTy).Contents (Elt F) → (⟨S8x256x28x28, .f32⟩ : BufTy).Contents (Elt F)),
    nullary main_cst_192 (constant S_ .f32 0x00000000#32),
    binary main_v807 main_cst_192 main_v808 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v809 ((extractStridedSlice S8x256x28x28 ![0, 0, 3, 3] · slices_S8x256x36x36_S8x256x28x28_0_0_3_3) : (⟨S8x256x36x36, .f32⟩ : BufTy).Contents (Elt F) → (⟨S8x256x28x28, .f32⟩ : BufTy).Contents (Elt F)),
    binary main_arg2 main_v809 main_v810 (mulf : (⟨S8x256x28x28, .f32⟩ : BufTy).Contents (Elt F) → (⟨S8x256x28x28, .f32⟩ : BufTy).Contents (Elt F) → (⟨S8x256x28x28, .f32⟩ : BufTy).Contents (Elt F)),
    nullary main_cst_193 (constant S_ .f32 0x00000000#32),
    binary main_v810 main_cst_193 main_v811 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v812 ((extractStridedSlice S8x256x28x28 ![0, 0, 3, 4] · slices_S8x256x36x36_S8x256x28x28_0_0_3_4) : (⟨S8x256x36x36, .f32⟩ : BufTy).Contents (Elt F) → (⟨S8x256x28x28, .f32⟩ : BufTy).Contents (Elt F)),
    binary main_arg2 main_v812 main_v813 (mulf : (⟨S8x256x28x28, .f32⟩ : BufTy).Contents (Elt F) → (⟨S8x256x28x28, .f32⟩ : BufTy).Contents (Elt F) → (⟨S8x256x28x28, .f32⟩ : BufTy).Contents (Elt F)),
    nullary main_cst_194 (constant S_ .f32 0x00000000#32),
    binary main_v813 main_cst_194 main_v814 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v815 ((extractStridedSlice S8x256x28x28 ![0, 0, 3, 5] · slices_S8x256x36x36_S8x256x28x28_0_0_3_5) : (⟨S8x256x36x36, .f32⟩ : BufTy).Contents (Elt F) → (⟨S8x256x28x28, .f32⟩ : BufTy).Contents (Elt F)),
    binary main_arg2 main_v815 main_v816 (mulf : (⟨S8x256x28x28, .f32⟩ : BufTy).Contents (Elt F) → (⟨S8x256x28x28, .f32⟩ : BufTy).Contents (Elt F) → (⟨S8x256x28x28, .f32⟩ : BufTy).Contents (Elt F)),
    nullary main_cst_195 (constant S_ .f32 0x00000000#32),
    binary main_v816 main_cst_195 main_v817 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v818 ((extractStridedSlice S8x256x28x28 ![0, 0, 3, 6] · slices_S8x256x36x36_S8x256x28x28_0_0_3_6) : (⟨S8x256x36x36, .f32⟩ : BufTy).Contents (Elt F) → (⟨S8x256x28x28, .f32⟩ : BufTy).Contents (Elt F)),
    binary main_arg2 main_v818 main_v819 (mulf : (⟨S8x256x28x28, .f32⟩ : BufTy).Contents (Elt F) → (⟨S8x256x28x28, .f32⟩ : BufTy).Contents (Elt F) → (⟨S8x256x28x28, .f32⟩ : BufTy).Contents (Elt F)),
    nullary main_cst_196 (constant S_ .f32 0x00000000#32),
    binary main_v819 main_cst_196 main_v820 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v821 ((extractStridedSlice S8x256x28x28 ![0, 0, 3, 7] · slices_S8x256x36x36_S8x256x28x28_0_0_3_7) : (⟨S8x256x36x36, .f32⟩ : BufTy).Contents (Elt F) → (⟨S8x256x28x28, .f32⟩ : BufTy).Contents (Elt F)),
    binary main_arg2 main_v821 main_v822 (mulf : (⟨S8x256x28x28, .f32⟩ : BufTy).Contents (Elt F) → (⟨S8x256x28x28, .f32⟩ : BufTy).Contents (Elt F) → (⟨S8x256x28x28, .f32⟩ : BufTy).Contents (Elt F)),
    nullary main_cst_197 (constant S_ .f32 0x00000000#32),
    binary main_v822 main_cst_197 main_v823 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v824 ((extractStridedSlice S8x256x28x28 ![0, 0, 3, 8] · slices_S8x256x36x36_S8x256x28x28_0_0_3_8) : (⟨S8x256x36x36, .f32⟩ : BufTy).Contents (Elt F) → (⟨S8x256x28x28, .f32⟩ : BufTy).Contents (Elt F)),
    binary main_arg2 main_v824 main_v825 (mulf : (⟨S8x256x28x28, .f32⟩ : BufTy).Contents (Elt F) → (⟨S8x256x28x28, .f32⟩ : BufTy).Contents (Elt F) → (⟨S8x256x28x28, .f32⟩ : BufTy).Contents (Elt F)),
    nullary main_cst_198 (constant S_ .f32 0x00000000#32),
    binary main_v825 main_cst_198 main_v826 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v802 main_v827 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v805 main_v828 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v808 main_v829 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v811 main_v830 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v814 main_v831 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v817 main_v832 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v820 main_v833 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v823 main_v834 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v826 main_v835 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v827, main_v828, main_v829, main_v830, main_v831, main_v832, main_v833, main_v834, main_v835] main_v836 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR4 : List (HloOp τ sig (Elt F)) :=
  [ unary main_v688 main_v837 ((extractStridedSlice S8x256x28x28 ![0, 0, 4, 0] · slices_S8x256x36x36_S8x256x28x28_0_0_4_0) : (⟨S8x256x36x36, .f32⟩ : BufTy).Contents (Elt F) → (⟨S8x256x28x28, .f32⟩ : BufTy).Contents (Elt F)),
    binary main_arg2 main_v837 main_v838 (mulf : (⟨S8x256x28x28, .f32⟩ : BufTy).Contents (Elt F) → (⟨S8x256x28x28, .f32⟩ : BufTy).Contents (Elt F) → (⟨S8x256x28x28, .f32⟩ : BufTy).Contents (Elt F)),
    nullary main_cst_199 (constant S_ .f32 0x00000000#32),
    binary main_v838 main_cst_199 main_v839 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v840 ((extractStridedSlice S8x256x28x28 ![0, 0, 4, 1] · slices_S8x256x36x36_S8x256x28x28_0_0_4_1) : (⟨S8x256x36x36, .f32⟩ : BufTy).Contents (Elt F) → (⟨S8x256x28x28, .f32⟩ : BufTy).Contents (Elt F)),
    binary main_arg2 main_v840 main_v841 (mulf : (⟨S8x256x28x28, .f32⟩ : BufTy).Contents (Elt F) → (⟨S8x256x28x28, .f32⟩ : BufTy).Contents (Elt F) → (⟨S8x256x28x28, .f32⟩ : BufTy).Contents (Elt F)),
    nullary main_cst_200 (constant S_ .f32 0x00000000#32),
    binary main_v841 main_cst_200 main_v842 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v843 ((extractStridedSlice S8x256x28x28 ![0, 0, 4, 2] · slices_S8x256x36x36_S8x256x28x28_0_0_4_2) : (⟨S8x256x36x36, .f32⟩ : BufTy).Contents (Elt F) → (⟨S8x256x28x28, .f32⟩ : BufTy).Contents (Elt F)),
    binary main_arg2 main_v843 main_v844 (mulf : (⟨S8x256x28x28, .f32⟩ : BufTy).Contents (Elt F) → (⟨S8x256x28x28, .f32⟩ : BufTy).Contents (Elt F) → (⟨S8x256x28x28, .f32⟩ : BufTy).Contents (Elt F)),
    nullary main_cst_201 (constant S_ .f32 0x00000000#32),
    binary main_v844 main_cst_201 main_v845 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v846 ((extractStridedSlice S8x256x28x28 ![0, 0, 4, 3] · slices_S8x256x36x36_S8x256x28x28_0_0_4_3) : (⟨S8x256x36x36, .f32⟩ : BufTy).Contents (Elt F) → (⟨S8x256x28x28, .f32⟩ : BufTy).Contents (Elt F)),
    binary main_arg2 main_v846 main_v847 (mulf : (⟨S8x256x28x28, .f32⟩ : BufTy).Contents (Elt F) → (⟨S8x256x28x28, .f32⟩ : BufTy).Contents (Elt F) → (⟨S8x256x28x28, .f32⟩ : BufTy).Contents (Elt F)),
    nullary main_cst_202 (constant S_ .f32 0x00000000#32),
    binary main_v847 main_cst_202 main_v848 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v849 ((extractStridedSlice S8x256x28x28 ![0, 0, 4, 4] · slices_S8x256x36x36_S8x256x28x28_0_0_4_4) : (⟨S8x256x36x36, .f32⟩ : BufTy).Contents (Elt F) → (⟨S8x256x28x28, .f32⟩ : BufTy).Contents (Elt F)),
    binary main_arg2 main_v849 main_v850 (mulf : (⟨S8x256x28x28, .f32⟩ : BufTy).Contents (Elt F) → (⟨S8x256x28x28, .f32⟩ : BufTy).Contents (Elt F) → (⟨S8x256x28x28, .f32⟩ : BufTy).Contents (Elt F)),
    nullary main_cst_203 (constant S_ .f32 0x00000000#32),
    binary main_v850 main_cst_203 main_v851 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v852 ((extractStridedSlice S8x256x28x28 ![0, 0, 4, 5] · slices_S8x256x36x36_S8x256x28x28_0_0_4_5) : (⟨S8x256x36x36, .f32⟩ : BufTy).Contents (Elt F) → (⟨S8x256x28x28, .f32⟩ : BufTy).Contents (Elt F)),
    binary main_arg2 main_v852 main_v853 (mulf : (⟨S8x256x28x28, .f32⟩ : BufTy).Contents (Elt F) → (⟨S8x256x28x28, .f32⟩ : BufTy).Contents (Elt F) → (⟨S8x256x28x28, .f32⟩ : BufTy).Contents (Elt F)),
    nullary main_cst_204 (constant S_ .f32 0x00000000#32),
    binary main_v853 main_cst_204 main_v854 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v855 ((extractStridedSlice S8x256x28x28 ![0, 0, 4, 6] · slices_S8x256x36x36_S8x256x28x28_0_0_4_6) : (⟨S8x256x36x36, .f32⟩ : BufTy).Contents (Elt F) → (⟨S8x256x28x28, .f32⟩ : BufTy).Contents (Elt F)),
    binary main_arg2 main_v855 main_v856 (mulf : (⟨S8x256x28x28, .f32⟩ : BufTy).Contents (Elt F) → (⟨S8x256x28x28, .f32⟩ : BufTy).Contents (Elt F) → (⟨S8x256x28x28, .f32⟩ : BufTy).Contents (Elt F)),
    nullary main_cst_205 (constant S_ .f32 0x00000000#32),
    binary main_v856 main_cst_205 main_v857 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v858 ((extractStridedSlice S8x256x28x28 ![0, 0, 4, 7] · slices_S8x256x36x36_S8x256x28x28_0_0_4_7) : (⟨S8x256x36x36, .f32⟩ : BufTy).Contents (Elt F) → (⟨S8x256x28x28, .f32⟩ : BufTy).Contents (Elt F)),
    binary main_arg2 main_v858 main_v859 (mulf : (⟨S8x256x28x28, .f32⟩ : BufTy).Contents (Elt F) → (⟨S8x256x28x28, .f32⟩ : BufTy).Contents (Elt F) → (⟨S8x256x28x28, .f32⟩ : BufTy).Contents (Elt F)),
    nullary main_cst_206 (constant S_ .f32 0x00000000#32),
    binary main_v859 main_cst_206 main_v860 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v861 ((extractStridedSlice S8x256x28x28 ![0, 0, 4, 8] · slices_S8x256x36x36_S8x256x28x28_0_0_4_8) : (⟨S8x256x36x36, .f32⟩ : BufTy).Contents (Elt F) → (⟨S8x256x28x28, .f32⟩ : BufTy).Contents (Elt F)),
    binary main_arg2 main_v861 main_v862 (mulf : (⟨S8x256x28x28, .f32⟩ : BufTy).Contents (Elt F) → (⟨S8x256x28x28, .f32⟩ : BufTy).Contents (Elt F) → (⟨S8x256x28x28, .f32⟩ : BufTy).Contents (Elt F)),
    nullary main_cst_207 (constant S_ .f32 0x00000000#32),
    binary main_v862 main_cst_207 main_v863 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v839 main_v864 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v842 main_v865 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v845 main_v866 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v848 main_v867 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v851 main_v868 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v854 main_v869 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v857 main_v870 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v860 main_v871 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v863 main_v872 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v864, main_v865, main_v866, main_v867, main_v868, main_v869, main_v870, main_v871, main_v872] main_v873 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR5 : List (HloOp τ sig (Elt F)) :=
  [ unary main_v688 main_v874 ((extractStridedSlice S8x256x28x28 ![0, 0, 5, 0] · slices_S8x256x36x36_S8x256x28x28_0_0_5_0) : (⟨S8x256x36x36, .f32⟩ : BufTy).Contents (Elt F) → (⟨S8x256x28x28, .f32⟩ : BufTy).Contents (Elt F)),
    binary main_arg2 main_v874 main_v875 (mulf : (⟨S8x256x28x28, .f32⟩ : BufTy).Contents (Elt F) → (⟨S8x256x28x28, .f32⟩ : BufTy).Contents (Elt F) → (⟨S8x256x28x28, .f32⟩ : BufTy).Contents (Elt F)),
    nullary main_cst_208 (constant S_ .f32 0x00000000#32),
    binary main_v875 main_cst_208 main_v876 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v877 ((extractStridedSlice S8x256x28x28 ![0, 0, 5, 1] · slices_S8x256x36x36_S8x256x28x28_0_0_5_1) : (⟨S8x256x36x36, .f32⟩ : BufTy).Contents (Elt F) → (⟨S8x256x28x28, .f32⟩ : BufTy).Contents (Elt F)),
    binary main_arg2 main_v877 main_v878 (mulf : (⟨S8x256x28x28, .f32⟩ : BufTy).Contents (Elt F) → (⟨S8x256x28x28, .f32⟩ : BufTy).Contents (Elt F) → (⟨S8x256x28x28, .f32⟩ : BufTy).Contents (Elt F)),
    nullary main_cst_209 (constant S_ .f32 0x00000000#32),
    binary main_v878 main_cst_209 main_v879 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v880 ((extractStridedSlice S8x256x28x28 ![0, 0, 5, 2] · slices_S8x256x36x36_S8x256x28x28_0_0_5_2) : (⟨S8x256x36x36, .f32⟩ : BufTy).Contents (Elt F) → (⟨S8x256x28x28, .f32⟩ : BufTy).Contents (Elt F)),
    binary main_arg2 main_v880 main_v881 (mulf : (⟨S8x256x28x28, .f32⟩ : BufTy).Contents (Elt F) → (⟨S8x256x28x28, .f32⟩ : BufTy).Contents (Elt F) → (⟨S8x256x28x28, .f32⟩ : BufTy).Contents (Elt F)),
    nullary main_cst_210 (constant S_ .f32 0x00000000#32),
    binary main_v881 main_cst_210 main_v882 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v883 ((extractStridedSlice S8x256x28x28 ![0, 0, 5, 3] · slices_S8x256x36x36_S8x256x28x28_0_0_5_3) : (⟨S8x256x36x36, .f32⟩ : BufTy).Contents (Elt F) → (⟨S8x256x28x28, .f32⟩ : BufTy).Contents (Elt F)),
    binary main_arg2 main_v883 main_v884 (mulf : (⟨S8x256x28x28, .f32⟩ : BufTy).Contents (Elt F) → (⟨S8x256x28x28, .f32⟩ : BufTy).Contents (Elt F) → (⟨S8x256x28x28, .f32⟩ : BufTy).Contents (Elt F)),
    nullary main_cst_211 (constant S_ .f32 0x00000000#32),
    binary main_v884 main_cst_211 main_v885 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v886 ((extractStridedSlice S8x256x28x28 ![0, 0, 5, 4] · slices_S8x256x36x36_S8x256x28x28_0_0_5_4) : (⟨S8x256x36x36, .f32⟩ : BufTy).Contents (Elt F) → (⟨S8x256x28x28, .f32⟩ : BufTy).Contents (Elt F)),
    binary main_arg2 main_v886 main_v887 (mulf : (⟨S8x256x28x28, .f32⟩ : BufTy).Contents (Elt F) → (⟨S8x256x28x28, .f32⟩ : BufTy).Contents (Elt F) → (⟨S8x256x28x28, .f32⟩ : BufTy).Contents (Elt F)),
    nullary main_cst_212 (constant S_ .f32 0x00000000#32),
    binary main_v887 main_cst_212 main_v888 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v889 ((extractStridedSlice S8x256x28x28 ![0, 0, 5, 5] · slices_S8x256x36x36_S8x256x28x28_0_0_5_5) : (⟨S8x256x36x36, .f32⟩ : BufTy).Contents (Elt F) → (⟨S8x256x28x28, .f32⟩ : BufTy).Contents (Elt F)),
    binary main_arg2 main_v889 main_v890 (mulf : (⟨S8x256x28x28, .f32⟩ : BufTy).Contents (Elt F) → (⟨S8x256x28x28, .f32⟩ : BufTy).Contents (Elt F) → (⟨S8x256x28x28, .f32⟩ : BufTy).Contents (Elt F)),
    nullary main_cst_213 (constant S_ .f32 0x00000000#32),
    binary main_v890 main_cst_213 main_v891 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v892 ((extractStridedSlice S8x256x28x28 ![0, 0, 5, 6] · slices_S8x256x36x36_S8x256x28x28_0_0_5_6) : (⟨S8x256x36x36, .f32⟩ : BufTy).Contents (Elt F) → (⟨S8x256x28x28, .f32⟩ : BufTy).Contents (Elt F)),
    binary main_arg2 main_v892 main_v893 (mulf : (⟨S8x256x28x28, .f32⟩ : BufTy).Contents (Elt F) → (⟨S8x256x28x28, .f32⟩ : BufTy).Contents (Elt F) → (⟨S8x256x28x28, .f32⟩ : BufTy).Contents (Elt F)),
    nullary main_cst_214 (constant S_ .f32 0x00000000#32),
    binary main_v893 main_cst_214 main_v894 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v895 ((extractStridedSlice S8x256x28x28 ![0, 0, 5, 7] · slices_S8x256x36x36_S8x256x28x28_0_0_5_7) : (⟨S8x256x36x36, .f32⟩ : BufTy).Contents (Elt F) → (⟨S8x256x28x28, .f32⟩ : BufTy).Contents (Elt F)),
    binary main_arg2 main_v895 main_v896 (mulf : (⟨S8x256x28x28, .f32⟩ : BufTy).Contents (Elt F) → (⟨S8x256x28x28, .f32⟩ : BufTy).Contents (Elt F) → (⟨S8x256x28x28, .f32⟩ : BufTy).Contents (Elt F)),
    nullary main_cst_215 (constant S_ .f32 0x00000000#32),
    binary main_v896 main_cst_215 main_v897 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v898 ((extractStridedSlice S8x256x28x28 ![0, 0, 5, 8] · slices_S8x256x36x36_S8x256x28x28_0_0_5_8) : (⟨S8x256x36x36, .f32⟩ : BufTy).Contents (Elt F) → (⟨S8x256x28x28, .f32⟩ : BufTy).Contents (Elt F)),
    binary main_arg2 main_v898 main_v899 (mulf : (⟨S8x256x28x28, .f32⟩ : BufTy).Contents (Elt F) → (⟨S8x256x28x28, .f32⟩ : BufTy).Contents (Elt F) → (⟨S8x256x28x28, .f32⟩ : BufTy).Contents (Elt F)),
    nullary main_cst_216 (constant S_ .f32 0x00000000#32),
    binary main_v899 main_cst_216 main_v900 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v876 main_v901 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v879 main_v902 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v882 main_v903 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v885 main_v904 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v888 main_v905 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v891 main_v906 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v894 main_v907 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v897 main_v908 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v900 main_v909 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v901, main_v902, main_v903, main_v904, main_v905, main_v906, main_v907, main_v908, main_v909] main_v910 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR6 : List (HloOp τ sig (Elt F)) :=
  [ unary main_v688 main_v911 ((extractStridedSlice S8x256x28x28 ![0, 0, 6, 0] · slices_S8x256x36x36_S8x256x28x28_0_0_6_0) : (⟨S8x256x36x36, .f32⟩ : BufTy).Contents (Elt F) → (⟨S8x256x28x28, .f32⟩ : BufTy).Contents (Elt F)),
    binary main_arg2 main_v911 main_v912 (mulf : (⟨S8x256x28x28, .f32⟩ : BufTy).Contents (Elt F) → (⟨S8x256x28x28, .f32⟩ : BufTy).Contents (Elt F) → (⟨S8x256x28x28, .f32⟩ : BufTy).Contents (Elt F)),
    nullary main_cst_217 (constant S_ .f32 0x00000000#32),
    binary main_v912 main_cst_217 main_v913 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v914 ((extractStridedSlice S8x256x28x28 ![0, 0, 6, 1] · slices_S8x256x36x36_S8x256x28x28_0_0_6_1) : (⟨S8x256x36x36, .f32⟩ : BufTy).Contents (Elt F) → (⟨S8x256x28x28, .f32⟩ : BufTy).Contents (Elt F)),
    binary main_arg2 main_v914 main_v915 (mulf : (⟨S8x256x28x28, .f32⟩ : BufTy).Contents (Elt F) → (⟨S8x256x28x28, .f32⟩ : BufTy).Contents (Elt F) → (⟨S8x256x28x28, .f32⟩ : BufTy).Contents (Elt F)),
    nullary main_cst_218 (constant S_ .f32 0x00000000#32),
    binary main_v915 main_cst_218 main_v916 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v917 ((extractStridedSlice S8x256x28x28 ![0, 0, 6, 2] · slices_S8x256x36x36_S8x256x28x28_0_0_6_2) : (⟨S8x256x36x36, .f32⟩ : BufTy).Contents (Elt F) → (⟨S8x256x28x28, .f32⟩ : BufTy).Contents (Elt F)),
    binary main_arg2 main_v917 main_v918 (mulf : (⟨S8x256x28x28, .f32⟩ : BufTy).Contents (Elt F) → (⟨S8x256x28x28, .f32⟩ : BufTy).Contents (Elt F) → (⟨S8x256x28x28, .f32⟩ : BufTy).Contents (Elt F)),
    nullary main_cst_219 (constant S_ .f32 0x00000000#32),
    binary main_v918 main_cst_219 main_v919 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v920 ((extractStridedSlice S8x256x28x28 ![0, 0, 6, 3] · slices_S8x256x36x36_S8x256x28x28_0_0_6_3) : (⟨S8x256x36x36, .f32⟩ : BufTy).Contents (Elt F) → (⟨S8x256x28x28, .f32⟩ : BufTy).Contents (Elt F)),
    binary main_arg2 main_v920 main_v921 (mulf : (⟨S8x256x28x28, .f32⟩ : BufTy).Contents (Elt F) → (⟨S8x256x28x28, .f32⟩ : BufTy).Contents (Elt F) → (⟨S8x256x28x28, .f32⟩ : BufTy).Contents (Elt F)),
    nullary main_cst_220 (constant S_ .f32 0x00000000#32),
    binary main_v921 main_cst_220 main_v922 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v923 ((extractStridedSlice S8x256x28x28 ![0, 0, 6, 4] · slices_S8x256x36x36_S8x256x28x28_0_0_6_4) : (⟨S8x256x36x36, .f32⟩ : BufTy).Contents (Elt F) → (⟨S8x256x28x28, .f32⟩ : BufTy).Contents (Elt F)),
    binary main_arg2 main_v923 main_v924 (mulf : (⟨S8x256x28x28, .f32⟩ : BufTy).Contents (Elt F) → (⟨S8x256x28x28, .f32⟩ : BufTy).Contents (Elt F) → (⟨S8x256x28x28, .f32⟩ : BufTy).Contents (Elt F)),
    nullary main_cst_221 (constant S_ .f32 0x00000000#32),
    binary main_v924 main_cst_221 main_v925 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v926 ((extractStridedSlice S8x256x28x28 ![0, 0, 6, 5] · slices_S8x256x36x36_S8x256x28x28_0_0_6_5) : (⟨S8x256x36x36, .f32⟩ : BufTy).Contents (Elt F) → (⟨S8x256x28x28, .f32⟩ : BufTy).Contents (Elt F)),
    binary main_arg2 main_v926 main_v927 (mulf : (⟨S8x256x28x28, .f32⟩ : BufTy).Contents (Elt F) → (⟨S8x256x28x28, .f32⟩ : BufTy).Contents (Elt F) → (⟨S8x256x28x28, .f32⟩ : BufTy).Contents (Elt F)),
    nullary main_cst_222 (constant S_ .f32 0x00000000#32),
    binary main_v927 main_cst_222 main_v928 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v929 ((extractStridedSlice S8x256x28x28 ![0, 0, 6, 6] · slices_S8x256x36x36_S8x256x28x28_0_0_6_6) : (⟨S8x256x36x36, .f32⟩ : BufTy).Contents (Elt F) → (⟨S8x256x28x28, .f32⟩ : BufTy).Contents (Elt F)),
    binary main_arg2 main_v929 main_v930 (mulf : (⟨S8x256x28x28, .f32⟩ : BufTy).Contents (Elt F) → (⟨S8x256x28x28, .f32⟩ : BufTy).Contents (Elt F) → (⟨S8x256x28x28, .f32⟩ : BufTy).Contents (Elt F)),
    nullary main_cst_223 (constant S_ .f32 0x00000000#32),
    binary main_v930 main_cst_223 main_v931 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v932 ((extractStridedSlice S8x256x28x28 ![0, 0, 6, 7] · slices_S8x256x36x36_S8x256x28x28_0_0_6_7) : (⟨S8x256x36x36, .f32⟩ : BufTy).Contents (Elt F) → (⟨S8x256x28x28, .f32⟩ : BufTy).Contents (Elt F)),
    binary main_arg2 main_v932 main_v933 (mulf : (⟨S8x256x28x28, .f32⟩ : BufTy).Contents (Elt F) → (⟨S8x256x28x28, .f32⟩ : BufTy).Contents (Elt F) → (⟨S8x256x28x28, .f32⟩ : BufTy).Contents (Elt F)),
    nullary main_cst_224 (constant S_ .f32 0x00000000#32),
    binary main_v933 main_cst_224 main_v934 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v935 ((extractStridedSlice S8x256x28x28 ![0, 0, 6, 8] · slices_S8x256x36x36_S8x256x28x28_0_0_6_8) : (⟨S8x256x36x36, .f32⟩ : BufTy).Contents (Elt F) → (⟨S8x256x28x28, .f32⟩ : BufTy).Contents (Elt F)),
    binary main_arg2 main_v935 main_v936 (mulf : (⟨S8x256x28x28, .f32⟩ : BufTy).Contents (Elt F) → (⟨S8x256x28x28, .f32⟩ : BufTy).Contents (Elt F) → (⟨S8x256x28x28, .f32⟩ : BufTy).Contents (Elt F)),
    nullary main_cst_225 (constant S_ .f32 0x00000000#32),
    binary main_v936 main_cst_225 main_v937 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v913 main_v938 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v916 main_v939 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v919 main_v940 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v922 main_v941 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v925 main_v942 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v928 main_v943 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v931 main_v944 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v934 main_v945 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v937 main_v946 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v938, main_v939, main_v940, main_v941, main_v942, main_v943, main_v944, main_v945, main_v946] main_v947 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR7 : List (HloOp τ sig (Elt F)) :=
  [ unary main_v688 main_v948 ((extractStridedSlice S8x256x28x28 ![0, 0, 7, 0] · slices_S8x256x36x36_S8x256x28x28_0_0_7_0) : (⟨S8x256x36x36, .f32⟩ : BufTy).Contents (Elt F) → (⟨S8x256x28x28, .f32⟩ : BufTy).Contents (Elt F)),
    binary main_arg2 main_v948 main_v949 (mulf : (⟨S8x256x28x28, .f32⟩ : BufTy).Contents (Elt F) → (⟨S8x256x28x28, .f32⟩ : BufTy).Contents (Elt F) → (⟨S8x256x28x28, .f32⟩ : BufTy).Contents (Elt F)),
    nullary main_cst_226 (constant S_ .f32 0x00000000#32),
    binary main_v949 main_cst_226 main_v950 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v951 ((extractStridedSlice S8x256x28x28 ![0, 0, 7, 1] · slices_S8x256x36x36_S8x256x28x28_0_0_7_1) : (⟨S8x256x36x36, .f32⟩ : BufTy).Contents (Elt F) → (⟨S8x256x28x28, .f32⟩ : BufTy).Contents (Elt F)),
    binary main_arg2 main_v951 main_v952 (mulf : (⟨S8x256x28x28, .f32⟩ : BufTy).Contents (Elt F) → (⟨S8x256x28x28, .f32⟩ : BufTy).Contents (Elt F) → (⟨S8x256x28x28, .f32⟩ : BufTy).Contents (Elt F)),
    nullary main_cst_227 (constant S_ .f32 0x00000000#32),
    binary main_v952 main_cst_227 main_v953 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v954 ((extractStridedSlice S8x256x28x28 ![0, 0, 7, 2] · slices_S8x256x36x36_S8x256x28x28_0_0_7_2) : (⟨S8x256x36x36, .f32⟩ : BufTy).Contents (Elt F) → (⟨S8x256x28x28, .f32⟩ : BufTy).Contents (Elt F)),
    binary main_arg2 main_v954 main_v955 (mulf : (⟨S8x256x28x28, .f32⟩ : BufTy).Contents (Elt F) → (⟨S8x256x28x28, .f32⟩ : BufTy).Contents (Elt F) → (⟨S8x256x28x28, .f32⟩ : BufTy).Contents (Elt F)),
    nullary main_cst_228 (constant S_ .f32 0x00000000#32),
    binary main_v955 main_cst_228 main_v956 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v957 ((extractStridedSlice S8x256x28x28 ![0, 0, 7, 3] · slices_S8x256x36x36_S8x256x28x28_0_0_7_3) : (⟨S8x256x36x36, .f32⟩ : BufTy).Contents (Elt F) → (⟨S8x256x28x28, .f32⟩ : BufTy).Contents (Elt F)),
    binary main_arg2 main_v957 main_v958 (mulf : (⟨S8x256x28x28, .f32⟩ : BufTy).Contents (Elt F) → (⟨S8x256x28x28, .f32⟩ : BufTy).Contents (Elt F) → (⟨S8x256x28x28, .f32⟩ : BufTy).Contents (Elt F)),
    nullary main_cst_229 (constant S_ .f32 0x00000000#32),
    binary main_v958 main_cst_229 main_v959 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v960 ((extractStridedSlice S8x256x28x28 ![0, 0, 7, 4] · slices_S8x256x36x36_S8x256x28x28_0_0_7_4) : (⟨S8x256x36x36, .f32⟩ : BufTy).Contents (Elt F) → (⟨S8x256x28x28, .f32⟩ : BufTy).Contents (Elt F)),
    binary main_arg2 main_v960 main_v961 (mulf : (⟨S8x256x28x28, .f32⟩ : BufTy).Contents (Elt F) → (⟨S8x256x28x28, .f32⟩ : BufTy).Contents (Elt F) → (⟨S8x256x28x28, .f32⟩ : BufTy).Contents (Elt F)),
    nullary main_cst_230 (constant S_ .f32 0x00000000#32),
    binary main_v961 main_cst_230 main_v962 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v963 ((extractStridedSlice S8x256x28x28 ![0, 0, 7, 5] · slices_S8x256x36x36_S8x256x28x28_0_0_7_5) : (⟨S8x256x36x36, .f32⟩ : BufTy).Contents (Elt F) → (⟨S8x256x28x28, .f32⟩ : BufTy).Contents (Elt F)),
    binary main_arg2 main_v963 main_v964 (mulf : (⟨S8x256x28x28, .f32⟩ : BufTy).Contents (Elt F) → (⟨S8x256x28x28, .f32⟩ : BufTy).Contents (Elt F) → (⟨S8x256x28x28, .f32⟩ : BufTy).Contents (Elt F)),
    nullary main_cst_231 (constant S_ .f32 0x00000000#32),
    binary main_v964 main_cst_231 main_v965 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v966 ((extractStridedSlice S8x256x28x28 ![0, 0, 7, 6] · slices_S8x256x36x36_S8x256x28x28_0_0_7_6) : (⟨S8x256x36x36, .f32⟩ : BufTy).Contents (Elt F) → (⟨S8x256x28x28, .f32⟩ : BufTy).Contents (Elt F)),
    binary main_arg2 main_v966 main_v967 (mulf : (⟨S8x256x28x28, .f32⟩ : BufTy).Contents (Elt F) → (⟨S8x256x28x28, .f32⟩ : BufTy).Contents (Elt F) → (⟨S8x256x28x28, .f32⟩ : BufTy).Contents (Elt F)),
    nullary main_cst_232 (constant S_ .f32 0x00000000#32),
    binary main_v967 main_cst_232 main_v968 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v969 ((extractStridedSlice S8x256x28x28 ![0, 0, 7, 7] · slices_S8x256x36x36_S8x256x28x28_0_0_7_7) : (⟨S8x256x36x36, .f32⟩ : BufTy).Contents (Elt F) → (⟨S8x256x28x28, .f32⟩ : BufTy).Contents (Elt F)),
    binary main_arg2 main_v969 main_v970 (mulf : (⟨S8x256x28x28, .f32⟩ : BufTy).Contents (Elt F) → (⟨S8x256x28x28, .f32⟩ : BufTy).Contents (Elt F) → (⟨S8x256x28x28, .f32⟩ : BufTy).Contents (Elt F)),
    nullary main_cst_233 (constant S_ .f32 0x00000000#32),
    binary main_v970 main_cst_233 main_v971 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v972 ((extractStridedSlice S8x256x28x28 ![0, 0, 7, 8] · slices_S8x256x36x36_S8x256x28x28_0_0_7_8) : (⟨S8x256x36x36, .f32⟩ : BufTy).Contents (Elt F) → (⟨S8x256x28x28, .f32⟩ : BufTy).Contents (Elt F)),
    binary main_arg2 main_v972 main_v973 (mulf : (⟨S8x256x28x28, .f32⟩ : BufTy).Contents (Elt F) → (⟨S8x256x28x28, .f32⟩ : BufTy).Contents (Elt F) → (⟨S8x256x28x28, .f32⟩ : BufTy).Contents (Elt F)),
    nullary main_cst_234 (constant S_ .f32 0x00000000#32),
    binary main_v973 main_cst_234 main_v974 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v950 main_v975 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v953 main_v976 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v956 main_v977 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v959 main_v978 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v962 main_v979 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v965 main_v980 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v968 main_v981 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v971 main_v982 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v974 main_v983 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v975, main_v976, main_v977, main_v978, main_v979, main_v980, main_v981, main_v982, main_v983] main_v984 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsR8 : List (HloOp τ sig (Elt F)) :=
  [ unary main_v688 main_v985 ((extractStridedSlice S8x256x28x28 ![0, 0, 8, 0] · slices_S8x256x36x36_S8x256x28x28_0_0_8_0) : (⟨S8x256x36x36, .f32⟩ : BufTy).Contents (Elt F) → (⟨S8x256x28x28, .f32⟩ : BufTy).Contents (Elt F)),
    binary main_arg2 main_v985 main_v986 (mulf : (⟨S8x256x28x28, .f32⟩ : BufTy).Contents (Elt F) → (⟨S8x256x28x28, .f32⟩ : BufTy).Contents (Elt F) → (⟨S8x256x28x28, .f32⟩ : BufTy).Contents (Elt F)),
    nullary main_cst_235 (constant S_ .f32 0x00000000#32),
    binary main_v986 main_cst_235 main_v987 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v988 ((extractStridedSlice S8x256x28x28 ![0, 0, 8, 1] · slices_S8x256x36x36_S8x256x28x28_0_0_8_1) : (⟨S8x256x36x36, .f32⟩ : BufTy).Contents (Elt F) → (⟨S8x256x28x28, .f32⟩ : BufTy).Contents (Elt F)),
    binary main_arg2 main_v988 main_v989 (mulf : (⟨S8x256x28x28, .f32⟩ : BufTy).Contents (Elt F) → (⟨S8x256x28x28, .f32⟩ : BufTy).Contents (Elt F) → (⟨S8x256x28x28, .f32⟩ : BufTy).Contents (Elt F)),
    nullary main_cst_236 (constant S_ .f32 0x00000000#32),
    binary main_v989 main_cst_236 main_v990 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v991 ((extractStridedSlice S8x256x28x28 ![0, 0, 8, 2] · slices_S8x256x36x36_S8x256x28x28_0_0_8_2) : (⟨S8x256x36x36, .f32⟩ : BufTy).Contents (Elt F) → (⟨S8x256x28x28, .f32⟩ : BufTy).Contents (Elt F)),
    binary main_arg2 main_v991 main_v992 (mulf : (⟨S8x256x28x28, .f32⟩ : BufTy).Contents (Elt F) → (⟨S8x256x28x28, .f32⟩ : BufTy).Contents (Elt F) → (⟨S8x256x28x28, .f32⟩ : BufTy).Contents (Elt F)),
    nullary main_cst_237 (constant S_ .f32 0x00000000#32),
    binary main_v992 main_cst_237 main_v993 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v994 ((extractStridedSlice S8x256x28x28 ![0, 0, 8, 3] · slices_S8x256x36x36_S8x256x28x28_0_0_8_3) : (⟨S8x256x36x36, .f32⟩ : BufTy).Contents (Elt F) → (⟨S8x256x28x28, .f32⟩ : BufTy).Contents (Elt F)),
    binary main_arg2 main_v994 main_v995 (mulf : (⟨S8x256x28x28, .f32⟩ : BufTy).Contents (Elt F) → (⟨S8x256x28x28, .f32⟩ : BufTy).Contents (Elt F) → (⟨S8x256x28x28, .f32⟩ : BufTy).Contents (Elt F)),
    nullary main_cst_238 (constant S_ .f32 0x00000000#32),
    binary main_v995 main_cst_238 main_v996 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v997 ((extractStridedSlice S8x256x28x28 ![0, 0, 8, 4] · slices_S8x256x36x36_S8x256x28x28_0_0_8_4) : (⟨S8x256x36x36, .f32⟩ : BufTy).Contents (Elt F) → (⟨S8x256x28x28, .f32⟩ : BufTy).Contents (Elt F)),
    binary main_arg2 main_v997 main_v998 (mulf : (⟨S8x256x28x28, .f32⟩ : BufTy).Contents (Elt F) → (⟨S8x256x28x28, .f32⟩ : BufTy).Contents (Elt F) → (⟨S8x256x28x28, .f32⟩ : BufTy).Contents (Elt F)),
    nullary main_cst_239 (constant S_ .f32 0x00000000#32),
    binary main_v998 main_cst_239 main_v999 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1000 ((extractStridedSlice S8x256x28x28 ![0, 0, 8, 5] · slices_S8x256x36x36_S8x256x28x28_0_0_8_5) : (⟨S8x256x36x36, .f32⟩ : BufTy).Contents (Elt F) → (⟨S8x256x28x28, .f32⟩ : BufTy).Contents (Elt F)),
    binary main_arg2 main_v1000 main_v1001 (mulf : (⟨S8x256x28x28, .f32⟩ : BufTy).Contents (Elt F) → (⟨S8x256x28x28, .f32⟩ : BufTy).Contents (Elt F) → (⟨S8x256x28x28, .f32⟩ : BufTy).Contents (Elt F)),
    nullary main_cst_240 (constant S_ .f32 0x00000000#32),
    binary main_v1001 main_cst_240 main_v1002 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1003 ((extractStridedSlice S8x256x28x28 ![0, 0, 8, 6] · slices_S8x256x36x36_S8x256x28x28_0_0_8_6) : (⟨S8x256x36x36, .f32⟩ : BufTy).Contents (Elt F) → (⟨S8x256x28x28, .f32⟩ : BufTy).Contents (Elt F)),
    binary main_arg2 main_v1003 main_v1004 (mulf : (⟨S8x256x28x28, .f32⟩ : BufTy).Contents (Elt F) → (⟨S8x256x28x28, .f32⟩ : BufTy).Contents (Elt F) → (⟨S8x256x28x28, .f32⟩ : BufTy).Contents (Elt F)),
    nullary main_cst_241 (constant S_ .f32 0x00000000#32),
    binary main_v1004 main_cst_241 main_v1005 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1006 ((extractStridedSlice S8x256x28x28 ![0, 0, 8, 7] · slices_S8x256x36x36_S8x256x28x28_0_0_8_7) : (⟨S8x256x36x36, .f32⟩ : BufTy).Contents (Elt F) → (⟨S8x256x28x28, .f32⟩ : BufTy).Contents (Elt F)),
    binary main_arg2 main_v1006 main_v1007 (mulf : (⟨S8x256x28x28, .f32⟩ : BufTy).Contents (Elt F) → (⟨S8x256x28x28, .f32⟩ : BufTy).Contents (Elt F) → (⟨S8x256x28x28, .f32⟩ : BufTy).Contents (Elt F)),
    nullary main_cst_242 (constant S_ .f32 0x00000000#32),
    binary main_v1007 main_cst_242 main_v1008 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1009 ((extractStridedSlice S8x256x28x28 ![0, 0, 8, 8] · slices_S8x256x36x36_S8x256x28x28_0_0_8_8) : (⟨S8x256x36x36, .f32⟩ : BufTy).Contents (Elt F) → (⟨S8x256x28x28, .f32⟩ : BufTy).Contents (Elt F)),
    binary main_arg2 main_v1009 main_v1010 (mulf : (⟨S8x256x28x28, .f32⟩ : BufTy).Contents (Elt F) → (⟨S8x256x28x28, .f32⟩ : BufTy).Contents (Elt F) → (⟨S8x256x28x28, .f32⟩ : BufTy).Contents (Elt F)),
    nullary main_cst_243 (constant S_ .f32 0x00000000#32),
    binary main_v1010 main_cst_243 main_v1011 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v987 main_v1012 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v990 main_v1013 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v993 main_v1014 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v996 main_v1015 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v999 main_v1016 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1002 main_v1017 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1005 main_v1018 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1008 main_v1019 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1011 main_v1020 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v1012, main_v1013, main_v1014, main_v1015, main_v1016, main_v1017, main_v1018, main_v1019, main_v1020] main_v1021 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

abbrev opsT : List (HloOp τ sig (Elt F)) :=
  [ unary main_v725 main_v1022 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v762 main_v1023 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v799 main_v1024 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v836 main_v1025 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v873 main_v1026 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v910 main_v1027 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v947 main_v1028 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v984 main_v1029 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v1021 main_v1030 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    nary ![main_v1022, main_v1023, main_v1024, main_v1025, main_v1026, main_v1027, main_v1028, main_v1029, main_v1030] main_v1031 (fun u => concatenate S8x9x9x28x28 1 [⟨S8x1x9x28x28, u 0⟩, ⟨S8x1x9x28x28, u 1⟩, ⟨S8x1x9x28x28, u 2⟩, ⟨S8x1x9x28x28, u 3⟩, ⟨S8x1x9x28x28, u 4⟩, ⟨S8x1x9x28x28, u 5⟩, ⟨S8x1x9x28x28, u 6⟩, ⟨S8x1x9x28x28, u 7⟩, ⟨S8x1x9x28x28, u 8⟩] concatenates_S8x1x9x28x28_S8x1x9x28x28_S8x1x9x28x28_S8x1x9x28x28_S8x1x9x28x28_S8x1x9x28x28_S8x1x9x28x28_S8x1x9x28x28_S8x1x9x28x28_S8x9x9x28x28_d1) ]

/-- The level's operations in order. -/
abbrev opsL : List (HloOp τ sig (Elt F)) :=
  opsH ++ (opsR0 ++ (opsR1 ++ (opsR2 ++ (opsR3 ++ (opsR4 ++ (opsR5 ++ (opsR6 ++ (opsR7 ++ (opsR8 ++ opsT)))))))))

noncomputable def WH : List (Ref sig .tc) := [main_c_162, main_call2_v0, main_v688]
noncomputable def WR0 : List (Ref sig .tc) := [main_v689, main_v690, main_cst_163, main_v691, main_v692, main_v693, main_cst_164, main_v694, main_v695, main_v696, main_cst_165, main_v697, main_v698, main_v699, main_cst_166, main_v700, main_v701, main_v702, main_cst_167, main_v703, main_v704, main_v705, main_cst_168, main_v706, main_v707, main_v708, main_cst_169, main_v709, main_v710, main_v711, main_cst_170, main_v712, main_v713, main_v714, main_cst_171, main_v715, main_v716, main_v717, main_v718, main_v719, main_v720, main_v721, main_v722, main_v723, main_v724, main_v725]
noncomputable def WR1 : List (Ref sig .tc) := [main_v726, main_v727, main_cst_172, main_v728, main_v729, main_v730, main_cst_173, main_v731, main_v732, main_v733, main_cst_174, main_v734, main_v735, main_v736, main_cst_175, main_v737, main_v738, main_v739, main_cst_176, main_v740, main_v741, main_v742, main_cst_177, main_v743, main_v744, main_v745, main_cst_178, main_v746, main_v747, main_v748, main_cst_179, main_v749, main_v750, main_v751, main_cst_180, main_v752, main_v753, main_v754, main_v755, main_v756, main_v757, main_v758, main_v759, main_v760, main_v761, main_v762]
noncomputable def WR2 : List (Ref sig .tc) := [main_v763, main_v764, main_cst_181, main_v765, main_v766, main_v767, main_cst_182, main_v768, main_v769, main_v770, main_cst_183, main_v771, main_v772, main_v773, main_cst_184, main_v774, main_v775, main_v776, main_cst_185, main_v777, main_v778, main_v779, main_cst_186, main_v780, main_v781, main_v782, main_cst_187, main_v783, main_v784, main_v785, main_cst_188, main_v786, main_v787, main_v788, main_cst_189, main_v789, main_v790, main_v791, main_v792, main_v793, main_v794, main_v795, main_v796, main_v797, main_v798, main_v799]
noncomputable def WR3 : List (Ref sig .tc) := [main_v800, main_v801, main_cst_190, main_v802, main_v803, main_v804, main_cst_191, main_v805, main_v806, main_v807, main_cst_192, main_v808, main_v809, main_v810, main_cst_193, main_v811, main_v812, main_v813, main_cst_194, main_v814, main_v815, main_v816, main_cst_195, main_v817, main_v818, main_v819, main_cst_196, main_v820, main_v821, main_v822, main_cst_197, main_v823, main_v824, main_v825, main_cst_198, main_v826, main_v827, main_v828, main_v829, main_v830, main_v831, main_v832, main_v833, main_v834, main_v835, main_v836]
noncomputable def WR4 : List (Ref sig .tc) := [main_v837, main_v838, main_cst_199, main_v839, main_v840, main_v841, main_cst_200, main_v842, main_v843, main_v844, main_cst_201, main_v845, main_v846, main_v847, main_cst_202, main_v848, main_v849, main_v850, main_cst_203, main_v851, main_v852, main_v853, main_cst_204, main_v854, main_v855, main_v856, main_cst_205, main_v857, main_v858, main_v859, main_cst_206, main_v860, main_v861, main_v862, main_cst_207, main_v863, main_v864, main_v865, main_v866, main_v867, main_v868, main_v869, main_v870, main_v871, main_v872, main_v873]
noncomputable def WR5 : List (Ref sig .tc) := [main_v874, main_v875, main_cst_208, main_v876, main_v877, main_v878, main_cst_209, main_v879, main_v880, main_v881, main_cst_210, main_v882, main_v883, main_v884, main_cst_211, main_v885, main_v886, main_v887, main_cst_212, main_v888, main_v889, main_v890, main_cst_213, main_v891, main_v892, main_v893, main_cst_214, main_v894, main_v895, main_v896, main_cst_215, main_v897, main_v898, main_v899, main_cst_216, main_v900, main_v901, main_v902, main_v903, main_v904, main_v905, main_v906, main_v907, main_v908, main_v909, main_v910]
noncomputable def WR6 : List (Ref sig .tc) := [main_v911, main_v912, main_cst_217, main_v913, main_v914, main_v915, main_cst_218, main_v916, main_v917, main_v918, main_cst_219, main_v919, main_v920, main_v921, main_cst_220, main_v922, main_v923, main_v924, main_cst_221, main_v925, main_v926, main_v927, main_cst_222, main_v928, main_v929, main_v930, main_cst_223, main_v931, main_v932, main_v933, main_cst_224, main_v934, main_v935, main_v936, main_cst_225, main_v937, main_v938, main_v939, main_v940, main_v941, main_v942, main_v943, main_v944, main_v945, main_v946, main_v947]
noncomputable def WR7 : List (Ref sig .tc) := [main_v948, main_v949, main_cst_226, main_v950, main_v951, main_v952, main_cst_227, main_v953, main_v954, main_v955, main_cst_228, main_v956, main_v957, main_v958, main_cst_229, main_v959, main_v960, main_v961, main_cst_230, main_v962, main_v963, main_v964, main_cst_231, main_v965, main_v966, main_v967, main_cst_232, main_v968, main_v969, main_v970, main_cst_233, main_v971, main_v972, main_v973, main_cst_234, main_v974, main_v975, main_v976, main_v977, main_v978, main_v979, main_v980, main_v981, main_v982, main_v983, main_v984]
noncomputable def WR8 : List (Ref sig .tc) := [main_v985, main_v986, main_cst_235, main_v987, main_v988, main_v989, main_cst_236, main_v990, main_v991, main_v992, main_cst_237, main_v993, main_v994, main_v995, main_cst_238, main_v996, main_v997, main_v998, main_cst_239, main_v999, main_v1000, main_v1001, main_cst_240, main_v1002, main_v1003, main_v1004, main_cst_241, main_v1005, main_v1006, main_v1007, main_cst_242, main_v1008, main_v1009, main_v1010, main_cst_243, main_v1011, main_v1012, main_v1013, main_v1014, main_v1015, main_v1016, main_v1017, main_v1018, main_v1019, main_v1020, main_v1021]
noncomputable def WT : List (Ref sig .tc) := [main_v1022, main_v1023, main_v1024, main_v1025, main_v1026, main_v1027, main_v1028, main_v1029, main_v1030, main_v1031]

theorem hWH : (opsH (F := F)).Forall fun op => op.writes ⊆ ((WH).map (Proc.devRef (τ := τ) .tc)).toFinset :=
  ⟨wsub (List.getElem_mem (n := 0) (by decide)), wsub (List.getElem_mem (n := 1) (by decide)), wsub (List.getElem_mem (n := 2) (by decide))⟩
theorem hSH : (opsH (F := F)).Forall fun op => op.bufs ⊆ tcRefs τ sig :=
  ⟨nullary_bufs_sub .., unary_bufs_sub .., binary_bufs_sub ..⟩
theorem hFH : (opsH (F := F)).Forall fun op => op.fresh = ∅ :=
  ⟨rfl, rfl, rfl⟩
theorem hWR0 : (opsR0 (F := F)).Forall fun op => op.writes ⊆ ((WR0).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR0 : (opsR0 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR0 : (opsR0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR1 : (opsR1 (F := F)).Forall fun op => op.writes ⊆ ((WR1).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR1 : (opsR1 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR1 : (opsR1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR2 : (opsR2 (F := F)).Forall fun op => op.writes ⊆ ((WR2).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR2 : (opsR2 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR2 : (opsR2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR3 : (opsR3 (F := F)).Forall fun op => op.writes ⊆ ((WR3).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR3 : (opsR3 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR3 : (opsR3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR4 : (opsR4 (F := F)).Forall fun op => op.writes ⊆ ((WR4).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR4 : (opsR4 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR4 : (opsR4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR5 : (opsR5 (F := F)).Forall fun op => op.writes ⊆ ((WR5).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR5 : (opsR5 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR5 : (opsR5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR6 : (opsR6 (F := F)).Forall fun op => op.writes ⊆ ((WR6).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR6 : (opsR6 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR6 : (opsR6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR7 : (opsR7 (F := F)).Forall fun op => op.writes ⊆ ((WR7).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR7 : (opsR7 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR7 : (opsR7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR8 : (opsR8 (F := F)).Forall fun op => op.writes ⊆ ((WR8).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR8 : (opsR8 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR8 : (opsR8 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWT : (opsT (F := F)).Forall fun op => op.writes ⊆ ((WT).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide))⟩
theorem hST : (opsT (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub ..⟩
theorem hFT : (opsT (F := F)).Forall fun op => op.fresh = ∅ :=
  ⟨rfl, rfl, rfl, rfl, rfl, rfl, rfl, rfl, rfl, rfl⟩

/-- Every buffer the level writes. -/
noncomputable def WL : List (Ref sig .tc) := WH ++ (WR0 ++ (WR1 ++ (WR2 ++ (WR3 ++ (WR4 ++ (WR5 ++ (WR6 ++ (WR7 ++ (WR8 ++ WT)))))))))

theorem level_sub : (opsL (F := F)).Forall fun op => op.bufs ⊆ tcRefs τ sig :=
  forall_append hSH (forall_append hSR0 (forall_append hSR1 (forall_append hSR2 (forall_append hSR3 (forall_append hSR4 (forall_append hSR5 (forall_append hSR6 (forall_append hSR7 (forall_append hSR8 hST)))))))))
theorem level_fresh : (opsL (F := F)).Forall fun op => op.fresh = ∅ :=
  forall_append hFH (forall_append hFR0 (forall_append hFR1 (forall_append hFR2 (forall_append hFR3 (forall_append hFR4 (forall_append hFR5 (forall_append hFR6 (forall_append hFR7 (forall_append hFR8 hFT)))))))))

/-- A buffer the level does not write keeps its contents. -/
theorem level_keep (V : Valuation τ sig (Elt F)) (r : Ref sig .tc) (hr : r ∉ WL) :
    after (opsL (F := F)) V (Proc.devRef .tc r) = V (Proc.devRef .tc r) := by
  have h : ∀ {l₁ l₂ : List (Ref sig .tc)}, r ∉ l₁ ++ l₂ → r ∉ l₁ ∧ r ∉ l₂ := fun h =>
    ⟨fun h1 => h (List.mem_append_left _ h1), fun h2 => h (List.mem_append_right _ h2)⟩
  obtain ⟨gH, g⟩ := h hr
  obtain ⟨g0, g⟩ := h g
  obtain ⟨g1, g⟩ := h g
  obtain ⟨g2, g⟩ := h g
  obtain ⟨g3, g⟩ := h g
  obtain ⟨g4, g⟩ := h g
  obtain ⟨g5, g⟩ := h g
  obtain ⟨g6, g⟩ := h g
  obtain ⟨g7, g⟩ := h g
  obtain ⟨g8, g⟩ := h g
  simp only [opsL, after_append]
  rw [after_of_writes_sub _ _ hWT g, after_of_writes_sub _ _ hWR8 g8, after_of_writes_sub _ _ hWR7 g7, after_of_writes_sub _ _ hWR6 g6, after_of_writes_sub _ _ hWR5 g5, after_of_writes_sub _ _ hWR4 g4, after_of_writes_sub _ _ hWR3 g3, after_of_writes_sub _ _ hWR2 g2, after_of_writes_sub _ _ hWR1 g1, after_of_writes_sub _ _ hWR0 g0, after_of_writes_sub _ _ hWH gH]

end Cert.ReferenceIdeal.Lvl2

end
-- ==== Proof.RefTerms2.lean ====
/-
  Level 2 of the reference: the composed terms of its stretches of operations.  padT is the zero pad of b; rowT k is
  row k of the patch (nine planes, one per horizontal displacement: the padded b sliced at (k, dj), times a, summed over
  the channels, with a unit axis added, joined along that axis); tailT joins the nine rows along a second new axis.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl2

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

/-- The zero-padded b. -/
abbrev padT (b : (⟨S8x256x28x28, .f32⟩ : BufTy).Contents (Elt F)) : (⟨S8x256x36x36, .f32⟩ : BufTy).Contents (Elt F) :=
  pad S8x256x36x36 ![0, 0, 4, 4] ![0, 0, 4, 4] ![0, 0, 0, 0] b (sitofp .f32 (constantI S_ 32 0#32)) pads_S8x256x28x28_S8x256x36x36_000_000_440_440 h_S_

/-- Row 0's operations composed. -/
def rowT0 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 0, 0] p slices_S8x256x36x36_S8x256x28x28_0_0_0_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 1] p slices_S8x256x36x36_S8x256x28x28_0_0_0_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 2] p slices_S8x256x36x36_S8x256x28x28_0_0_0_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 3] p slices_S8x256x36x36_S8x256x28x28_0_0_0_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 4] p slices_S8x256x36x36_S8x256x28x28_0_0_0_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 5] p slices_S8x256x36x36_S8x256x28x28_0_0_0_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 6] p slices_S8x256x36x36_S8x256x28x28_0_0_0_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 7] p slices_S8x256x36x36_S8x256x28x28_0_0_0_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 0, 8] p slices_S8x256x36x36_S8x256x28x28_0_0_0_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 1's operations composed. -/
def rowT1 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 1, 0] p slices_S8x256x36x36_S8x256x28x28_0_0_1_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 1] p slices_S8x256x36x36_S8x256x28x28_0_0_1_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 2] p slices_S8x256x36x36_S8x256x28x28_0_0_1_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 3] p slices_S8x256x36x36_S8x256x28x28_0_0_1_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 4] p slices_S8x256x36x36_S8x256x28x28_0_0_1_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 5] p slices_S8x256x36x36_S8x256x28x28_0_0_1_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 6] p slices_S8x256x36x36_S8x256x28x28_0_0_1_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 7] p slices_S8x256x36x36_S8x256x28x28_0_0_1_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 1, 8] p slices_S8x256x36x36_S8x256x28x28_0_0_1_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 2's operations composed. -/
def rowT2 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 2, 0] p slices_S8x256x36x36_S8x256x28x28_0_0_2_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 1] p slices_S8x256x36x36_S8x256x28x28_0_0_2_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 2] p slices_S8x256x36x36_S8x256x28x28_0_0_2_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 3] p slices_S8x256x36x36_S8x256x28x28_0_0_2_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 4] p slices_S8x256x36x36_S8x256x28x28_0_0_2_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 5] p slices_S8x256x36x36_S8x256x28x28_0_0_2_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 6] p slices_S8x256x36x36_S8x256x28x28_0_0_2_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 7] p slices_S8x256x36x36_S8x256x28x28_0_0_2_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 2, 8] p slices_S8x256x36x36_S8x256x28x28_0_0_2_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 3's operations composed. -/
def rowT3 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 3, 0] p slices_S8x256x36x36_S8x256x28x28_0_0_3_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 1] p slices_S8x256x36x36_S8x256x28x28_0_0_3_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 2] p slices_S8x256x36x36_S8x256x28x28_0_0_3_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 3] p slices_S8x256x36x36_S8x256x28x28_0_0_3_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 4] p slices_S8x256x36x36_S8x256x28x28_0_0_3_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 5] p slices_S8x256x36x36_S8x256x28x28_0_0_3_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 6] p slices_S8x256x36x36_S8x256x28x28_0_0_3_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 7] p slices_S8x256x36x36_S8x256x28x28_0_0_3_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 3, 8] p slices_S8x256x36x36_S8x256x28x28_0_0_3_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 4's operations composed. -/
def rowT4 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 4, 0] p slices_S8x256x36x36_S8x256x28x28_0_0_4_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 1] p slices_S8x256x36x36_S8x256x28x28_0_0_4_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 2] p slices_S8x256x36x36_S8x256x28x28_0_0_4_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 3] p slices_S8x256x36x36_S8x256x28x28_0_0_4_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 4] p slices_S8x256x36x36_S8x256x28x28_0_0_4_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 5] p slices_S8x256x36x36_S8x256x28x28_0_0_4_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 6] p slices_S8x256x36x36_S8x256x28x28_0_0_4_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 7] p slices_S8x256x36x36_S8x256x28x28_0_0_4_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 4, 8] p slices_S8x256x36x36_S8x256x28x28_0_0_4_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 5's operations composed. -/
def rowT5 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 5, 0] p slices_S8x256x36x36_S8x256x28x28_0_0_5_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 1] p slices_S8x256x36x36_S8x256x28x28_0_0_5_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 2] p slices_S8x256x36x36_S8x256x28x28_0_0_5_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 3] p slices_S8x256x36x36_S8x256x28x28_0_0_5_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 4] p slices_S8x256x36x36_S8x256x28x28_0_0_5_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 5] p slices_S8x256x36x36_S8x256x28x28_0_0_5_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 6] p slices_S8x256x36x36_S8x256x28x28_0_0_5_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 7] p slices_S8x256x36x36_S8x256x28x28_0_0_5_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 5, 8] p slices_S8x256x36x36_S8x256x28x28_0_0_5_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 6's operations composed. -/
def rowT6 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 6, 0] p slices_S8x256x36x36_S8x256x28x28_0_0_6_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 1] p slices_S8x256x36x36_S8x256x28x28_0_0_6_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 2] p slices_S8x256x36x36_S8x256x28x28_0_0_6_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 3] p slices_S8x256x36x36_S8x256x28x28_0_0_6_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 4] p slices_S8x256x36x36_S8x256x28x28_0_0_6_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 5] p slices_S8x256x36x36_S8x256x28x28_0_0_6_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 6] p slices_S8x256x36x36_S8x256x28x28_0_0_6_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 7] p slices_S8x256x36x36_S8x256x28x28_0_0_6_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 6, 8] p slices_S8x256x36x36_S8x256x28x28_0_0_6_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 7's operations composed. -/
def rowT7 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 7, 0] p slices_S8x256x36x36_S8x256x28x28_0_0_7_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 1] p slices_S8x256x36x36_S8x256x28x28_0_0_7_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 2] p slices_S8x256x36x36_S8x256x28x28_0_0_7_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 3] p slices_S8x256x36x36_S8x256x28x28_0_0_7_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 4] p slices_S8x256x36x36_S8x256x28x28_0_0_7_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 5] p slices_S8x256x36x36_S8x256x28x28_0_0_7_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 6] p slices_S8x256x36x36_S8x256x28x28_0_0_7_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 7] p slices_S8x256x36x36_S8x256x28x28_0_0_7_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 7, 8] p slices_S8x256x36x36_S8x256x28x28_0_0_7_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- Row 8's operations composed. -/
def rowT8 (a : (⟨S8x256x28x28, .f32⟩ : BufTy).Contents (Elt F)) (p : (⟨S8x256x36x36, .f32⟩ : BufTy).Contents (Elt F)) :
    (⟨S8x9x28x28, .f32⟩ : BufTy).Contents (Elt F) :=
  concatenate S8x9x28x28 1 [⟨S8x1x28x28, (broadcastInDim S8x1x28x28 ![0, 2, 3] bcast_S8x28x28_S8x1x28x28_0_2_3 (Host.reduceAdd (mulf a (extractStridedSlice S8x256x28x28 ![0, 0, 8, 0] p slices_S8x256x36x36_S8x256x28x28_0_0_8_0)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 1] p slices_S8x256x36x36_S8x256x28x28_0_0_8_1)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 2] p slices_S8x256x36x36_S8x256x28x28_0_0_8_2)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 3] p slices_S8x256x36x36_S8x256x28x28_0_0_8_3)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 4] p slices_S8x256x36x36_S8x256x28x28_0_0_8_4)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 5] p slices_S8x256x36x36_S8x256x28x28_0_0_8_5)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 6] p slices_S8x256x36x36_S8x256x28x28_0_0_8_6)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 7] p slices_S8x256x36x36_S8x256x28x28_0_0_8_7)) (constant S_ .f32 0x00000000#32) reducesTo_S8x256x28x28_S8x28x28_d1 h_S_))⟩, ⟨S8x1x28x28, (broadcastInDim S8x1x28x28 ![0, 2, 3] bcast_S8x28x28_S8x1x28x28_0_2_3 (Host.reduceAdd (mulf a (extractStridedSlice S8x256x28x28 ![0, 0, 8, 8] p slices_S8x256x36x36_S8x256x28x28_0_0_8_8)) (constant S_ .f32 0x00000000#32) reducesTo_S8x256x28x28_S8x28x28_d1 h_S_))⟩] concatenates_S8x1x28x28_S8x1x28x28_S8x1x28x28_S8x1x28x28_S8x1x28x28_S8x1x28x28_S8x1x28x28_S8x1x28x28_S8x1x28x28_S8x9x28x28_d1

/-- The tail's operations composed. -/
def tailT (r0 r1 r2 r3 r4 r5 r6 r7 r8 : (⟨S8x9x28x28, .f32⟩ : BufTy).Contents (Elt F)) : (⟨S8x9x9x28x28, .f32⟩ : BufTy).Contents (Elt F) :=
  concatenate S8x9x9x28x28 1 [⟨S8x1x9x28x28, (broadcastInDim S8x1x9x28x28 ![0, 2, 3, 4] bcast_S8x9x28x28_S8x1x9x28x28_0_2_3_4 r0)⟩, ⟨S8x1x9x28x28, (broadcastInDim S8x1x9x28x28 ![0, 2, 3, 4] bcast_S8x9x28x28_S8x1x9x28x28_0_2_3_4 r1)⟩, ⟨S8x1x9x28x28, (broadcastInDim S8x1x9x28x28 ![0, 2, 3, 4] bcast_S8x9x28x28_S8x1x9x28x28_0_2_3_4 r2)⟩, ⟨S8x1x9x28x28, (broadcastInDim S8x1x9x28x28 ![0, 2, 3, 4] bcast_S8x9x28x28_S8x1x9x28x28_0_2_3_4 r3)⟩, ⟨S8x1x9x28x28, (broadcastInDim S8x1x9x28x28 ![0, 2, 3, 4] bcast_S8x9x28x28_S8x1x9x28x28_0_2_3_4 r4)⟩, ⟨S8x1x9x28x28, (broadcastInDim S8x1x9x28x28 ![0, 2, 3, 4] bcast_S8x9x28x28_S8x1x9x28x28_0_2_3_4 r5)⟩, ⟨S8x1x9x28x28, (broadcastInDim S8x1x9x28x28 ![0, 2, 3, 4] bcast_S8x9x28x28_S8x1x9x28x28_0_2_3_4 r6)⟩, ⟨S8x1x9x28x28, (broadcastInDim S8x1x9x28x28 ![0, 2, 3, 4] bcast_S8x9x28x28_S8x1x9x28x28_0_2_3_4 r7)⟩, ⟨S8x1x9x28x28, (broadcastInDim S8x1x9x28x28 ![0, 2, 3, 4] bcast_S8x9x28x28_S8x1x9x28x28_0_2_3_4 r8)⟩] concatenates_S8x1x9x28x28_S8x1x9x28x28_S8x1x9x28x28_S8x1x9x28x28_S8x1x9x28x28_S8x1x9x28x28_S8x1x9x28x28_S8x1x9x28x28_S8x1x9x28x28_S8x9x9x28x28_d1

end Cert.ReferenceIdeal.Lvl2

end
-- ==== Proof.RefRead2.lean ====
/-
  Level 2 of the reference, read at an index.  A row's nine planes are corr at the row's vertical displacement and
  the planes' horizontal displacements; the nine rows joined are g5.
-/
import proofs.«135875_j16999480558431_2_alg».proof.Proof.RefTerms2
import proofs.«135875_j16999480558431_2_alg».proof.Proof.CorrSpec2
import proofs.«135875_j16999480558431_2_alg».proof.Proof.CorrJoin2

set_option maxRecDepth 8192

noncomputable section

namespace Cert.ReferenceIdeal.Lvl2

open Cert.ReferenceIdeal Cert.ReferenceIdeal.Gen Idealize.ShloMosaic Idealize.ShloMosaic.TcCoe Idealize.SL.Sem Idealize.ShloMosaic.StableHlo
open Idealize.ShloMosaic.ValueIdx RefLib Corr2 CorrJ2

variable {F : FTy → Type} [FloatOps F]

/-- Row di of the patch as a function of the index. -/
def rowF (di : ℕ) (a b : Corr2.SA.Idx → EReal) : (⟨S8x9x28x28, .f32⟩ : BufTy).Contents (Elt Ideal) :=
  fun idx => corr a b ⟨(idx 0).val, (idx 0).isLt⟩ di (idx 1).val ⟨(idx 2).val, (idx 2).isLt⟩ ⟨(idx 3).val, (idx 3).isLt⟩

/-- Row 0 read at an index: the nine planes of corr for displacements (0, 0 .. 8). -/
theorem rowRead0 (a b : Corr2.SA.Idx → EReal) : rowT0 (F := Ideal) a (padT b) = rowF 0 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 0 dj.val i j
  unfold rowT0
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 0] (padT (F := Ideal) b) slices_S8x256x36x36_S8x256x28x28_0_0_0_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 1] (padT (F := Ideal) b) slices_S8x256x36x36_S8x256x28x28_0_0_0_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 2] (padT (F := Ideal) b) slices_S8x256x36x36_S8x256x28x28_0_0_0_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 3] (padT (F := Ideal) b) slices_S8x256x36x36_S8x256x28x28_0_0_0_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 4] (padT (F := Ideal) b) slices_S8x256x36x36_S8x256x28x28_0_0_0_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 5] (padT (F := Ideal) b) slices_S8x256x36x36_S8x256x28x28_0_0_0_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 6] (padT (F := Ideal) b) slices_S8x256x36x36_S8x256x28x28_0_0_0_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 7] (padT (F := Ideal) b) slices_S8x256x36x36_S8x256x28x28_0_0_0_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 0, 8] (padT (F := Ideal) b) slices_S8x256x36x36_S8x256x28x28_0_0_0_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 8 a b _ _ _ _ (by decide) _ n 0 i j

/-- Row 1 read at an index: the nine planes of corr for displacements (1, 0 .. 8). -/
theorem rowRead1 (a b : Corr2.SA.Idx → EReal) : rowT1 (F := Ideal) a (padT b) = rowF 1 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 1 dj.val i j
  unfold rowT1
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 0] (padT (F := Ideal) b) slices_S8x256x36x36_S8x256x28x28_0_0_1_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 1] (padT (F := Ideal) b) slices_S8x256x36x36_S8x256x28x28_0_0_1_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 2] (padT (F := Ideal) b) slices_S8x256x36x36_S8x256x28x28_0_0_1_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 3] (padT (F := Ideal) b) slices_S8x256x36x36_S8x256x28x28_0_0_1_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 4] (padT (F := Ideal) b) slices_S8x256x36x36_S8x256x28x28_0_0_1_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 5] (padT (F := Ideal) b) slices_S8x256x36x36_S8x256x28x28_0_0_1_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 6] (padT (F := Ideal) b) slices_S8x256x36x36_S8x256x28x28_0_0_1_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 7] (padT (F := Ideal) b) slices_S8x256x36x36_S8x256x28x28_0_0_1_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 1, 8] (padT (F := Ideal) b) slices_S8x256x36x36_S8x256x28x28_0_0_1_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 8 a b _ _ _ _ (by decide) _ n 0 i j

/-- Row 2 read at an index: the nine planes of corr for displacements (2, 0 .. 8). -/
theorem rowRead2 (a b : Corr2.SA.Idx → EReal) : rowT2 (F := Ideal) a (padT b) = rowF 2 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 2 dj.val i j
  unfold rowT2
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 0] (padT (F := Ideal) b) slices_S8x256x36x36_S8x256x28x28_0_0_2_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 1] (padT (F := Ideal) b) slices_S8x256x36x36_S8x256x28x28_0_0_2_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 2] (padT (F := Ideal) b) slices_S8x256x36x36_S8x256x28x28_0_0_2_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 3] (padT (F := Ideal) b) slices_S8x256x36x36_S8x256x28x28_0_0_2_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 4] (padT (F := Ideal) b) slices_S8x256x36x36_S8x256x28x28_0_0_2_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 5] (padT (F := Ideal) b) slices_S8x256x36x36_S8x256x28x28_0_0_2_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 6] (padT (F := Ideal) b) slices_S8x256x36x36_S8x256x28x28_0_0_2_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 7] (padT (F := Ideal) b) slices_S8x256x36x36_S8x256x28x28_0_0_2_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 2, 8] (padT (F := Ideal) b) slices_S8x256x36x36_S8x256x28x28_0_0_2_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 8 a b _ _ _ _ (by decide) _ n 0 i j

/-- Row 3 read at an index: the nine planes of corr for displacements (3, 0 .. 8). -/
theorem rowRead3 (a b : Corr2.SA.Idx → EReal) : rowT3 (F := Ideal) a (padT b) = rowF 3 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 3 dj.val i j
  unfold rowT3
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 0] (padT (F := Ideal) b) slices_S8x256x36x36_S8x256x28x28_0_0_3_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 1] (padT (F := Ideal) b) slices_S8x256x36x36_S8x256x28x28_0_0_3_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 2] (padT (F := Ideal) b) slices_S8x256x36x36_S8x256x28x28_0_0_3_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 3] (padT (F := Ideal) b) slices_S8x256x36x36_S8x256x28x28_0_0_3_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 4] (padT (F := Ideal) b) slices_S8x256x36x36_S8x256x28x28_0_0_3_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 5] (padT (F := Ideal) b) slices_S8x256x36x36_S8x256x28x28_0_0_3_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 6] (padT (F := Ideal) b) slices_S8x256x36x36_S8x256x28x28_0_0_3_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 7] (padT (F := Ideal) b) slices_S8x256x36x36_S8x256x28x28_0_0_3_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 3, 8] (padT (F := Ideal) b) slices_S8x256x36x36_S8x256x28x28_0_0_3_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 8 a b _ _ _ _ (by decide) _ n 0 i j

/-- Row 4 read at an index: the nine planes of corr for displacements (4, 0 .. 8). -/
theorem rowRead4 (a b : Corr2.SA.Idx → EReal) : rowT4 (F := Ideal) a (padT b) = rowF 4 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 4 dj.val i j
  unfold rowT4
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 0] (padT (F := Ideal) b) slices_S8x256x36x36_S8x256x28x28_0_0_4_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 1] (padT (F := Ideal) b) slices_S8x256x36x36_S8x256x28x28_0_0_4_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 2] (padT (F := Ideal) b) slices_S8x256x36x36_S8x256x28x28_0_0_4_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 3] (padT (F := Ideal) b) slices_S8x256x36x36_S8x256x28x28_0_0_4_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 4] (padT (F := Ideal) b) slices_S8x256x36x36_S8x256x28x28_0_0_4_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 5] (padT (F := Ideal) b) slices_S8x256x36x36_S8x256x28x28_0_0_4_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 6] (padT (F := Ideal) b) slices_S8x256x36x36_S8x256x28x28_0_0_4_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 7] (padT (F := Ideal) b) slices_S8x256x36x36_S8x256x28x28_0_0_4_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 4, 8] (padT (F := Ideal) b) slices_S8x256x36x36_S8x256x28x28_0_0_4_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 8 a b _ _ _ _ (by decide) _ n 0 i j

/-- Row 5 read at an index: the nine planes of corr for displacements (5, 0 .. 8). -/
theorem rowRead5 (a b : Corr2.SA.Idx → EReal) : rowT5 (F := Ideal) a (padT b) = rowF 5 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 5 dj.val i j
  unfold rowT5
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 0] (padT (F := Ideal) b) slices_S8x256x36x36_S8x256x28x28_0_0_5_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 1] (padT (F := Ideal) b) slices_S8x256x36x36_S8x256x28x28_0_0_5_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 2] (padT (F := Ideal) b) slices_S8x256x36x36_S8x256x28x28_0_0_5_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 3] (padT (F := Ideal) b) slices_S8x256x36x36_S8x256x28x28_0_0_5_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 4] (padT (F := Ideal) b) slices_S8x256x36x36_S8x256x28x28_0_0_5_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 5] (padT (F := Ideal) b) slices_S8x256x36x36_S8x256x28x28_0_0_5_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 6] (padT (F := Ideal) b) slices_S8x256x36x36_S8x256x28x28_0_0_5_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 7] (padT (F := Ideal) b) slices_S8x256x36x36_S8x256x28x28_0_0_5_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 5, 8] (padT (F := Ideal) b) slices_S8x256x36x36_S8x256x28x28_0_0_5_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 8 a b _ _ _ _ (by decide) _ n 0 i j

/-- Row 6 read at an index: the nine planes of corr for displacements (6, 0 .. 8). -/
theorem rowRead6 (a b : Corr2.SA.Idx → EReal) : rowT6 (F := Ideal) a (padT b) = rowF 6 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 6 dj.val i j
  unfold rowT6
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 0] (padT (F := Ideal) b) slices_S8x256x36x36_S8x256x28x28_0_0_6_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 1] (padT (F := Ideal) b) slices_S8x256x36x36_S8x256x28x28_0_0_6_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 2] (padT (F := Ideal) b) slices_S8x256x36x36_S8x256x28x28_0_0_6_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 3] (padT (F := Ideal) b) slices_S8x256x36x36_S8x256x28x28_0_0_6_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 4] (padT (F := Ideal) b) slices_S8x256x36x36_S8x256x28x28_0_0_6_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 5] (padT (F := Ideal) b) slices_S8x256x36x36_S8x256x28x28_0_0_6_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 6] (padT (F := Ideal) b) slices_S8x256x36x36_S8x256x28x28_0_0_6_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 7] (padT (F := Ideal) b) slices_S8x256x36x36_S8x256x28x28_0_0_6_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 6, 8] (padT (F := Ideal) b) slices_S8x256x36x36_S8x256x28x28_0_0_6_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 8 a b _ _ _ _ (by decide) _ n 0 i j

/-- Row 7 read at an index: the nine planes of corr for displacements (7, 0 .. 8). -/
theorem rowRead7 (a b : Corr2.SA.Idx → EReal) : rowT7 (F := Ideal) a (padT b) = rowF 7 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 7 dj.val i j
  unfold rowT7
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 0] (padT (F := Ideal) b) slices_S8x256x36x36_S8x256x28x28_0_0_7_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 1] (padT (F := Ideal) b) slices_S8x256x36x36_S8x256x28x28_0_0_7_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 2] (padT (F := Ideal) b) slices_S8x256x36x36_S8x256x28x28_0_0_7_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 3] (padT (F := Ideal) b) slices_S8x256x36x36_S8x256x28x28_0_0_7_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 4] (padT (F := Ideal) b) slices_S8x256x36x36_S8x256x28x28_0_0_7_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 5] (padT (F := Ideal) b) slices_S8x256x36x36_S8x256x28x28_0_0_7_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 6] (padT (F := Ideal) b) slices_S8x256x36x36_S8x256x28x28_0_0_7_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 7] (padT (F := Ideal) b) slices_S8x256x36x36_S8x256x28x28_0_0_7_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 7, 8] (padT (F := Ideal) b) slices_S8x256x36x36_S8x256x28x28_0_0_7_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 8 a b _ _ _ _ (by decide) _ n 0 i j

/-- Row 8 read at an index: the nine planes of corr for displacements (8, 0 .. 8). -/
theorem rowRead8 (a b : Corr2.SA.Idx → EReal) : rowT8 (F := Ideal) a (padT b) = rowF 8 a b := by
  funext idx
  obtain ⟨n, dj, i, j, rfl⟩ : ∃ (n : Fin 8) (dj : Fin 9) (i : Fin 28) (j : Fin 28), idx = ix4 n dj i j :=
    ⟨idx 0, idx 1, idx 2, idx 3, eq_ix4 idx⟩
  show _ = corr a b n 8 dj.val i j
  unfold rowT8
  match dj with
  | ⟨0, hdj⟩ =>
    refine Eq.trans (concatenate_apply_piece (t := S8x9x28x28) (1 : Fin 4) _ _ (ix4 n (⟨0, hdj⟩ : Fin 9) i j) 0 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 0] (padT (F := Ideal) b) slices_S8x256x36x36_S8x256x28x28_0_0_8_0)) (constant (F := Ideal) S_ .f32 0x00000000#32) reducesTo_S8x256x28x28_S8x28x28_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 0 a b _ _ _ _ (by decide) _ n 0 i j
  | ⟨1, hdj⟩ =>
    refine Eq.trans (concatenate_apply_piece (t := S8x9x28x28) (1 : Fin 4) _ _ (ix4 n (⟨1, hdj⟩ : Fin 9) i j) 1 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 1] (padT (F := Ideal) b) slices_S8x256x36x36_S8x256x28x28_0_0_8_1)) (constant (F := Ideal) S_ .f32 0x00000000#32) reducesTo_S8x256x28x28_S8x28x28_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 1 a b _ _ _ _ (by decide) _ n 0 i j
  | ⟨2, hdj⟩ =>
    refine Eq.trans (concatenate_apply_piece (t := S8x9x28x28) (1 : Fin 4) _ _ (ix4 n (⟨2, hdj⟩ : Fin 9) i j) 2 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 2] (padT (F := Ideal) b) slices_S8x256x36x36_S8x256x28x28_0_0_8_2)) (constant (F := Ideal) S_ .f32 0x00000000#32) reducesTo_S8x256x28x28_S8x28x28_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 2 a b _ _ _ _ (by decide) _ n 0 i j
  | ⟨3, hdj⟩ =>
    refine Eq.trans (concatenate_apply_piece (t := S8x9x28x28) (1 : Fin 4) _ _ (ix4 n (⟨3, hdj⟩ : Fin 9) i j) 3 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 3] (padT (F := Ideal) b) slices_S8x256x36x36_S8x256x28x28_0_0_8_3)) (constant (F := Ideal) S_ .f32 0x00000000#32) reducesTo_S8x256x28x28_S8x28x28_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 3 a b _ _ _ _ (by decide) _ n 0 i j
  | ⟨4, hdj⟩ =>
    refine Eq.trans (concatenate_apply_piece (t := S8x9x28x28) (1 : Fin 4) _ _ (ix4 n (⟨4, hdj⟩ : Fin 9) i j) 4 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 4] (padT (F := Ideal) b) slices_S8x256x36x36_S8x256x28x28_0_0_8_4)) (constant (F := Ideal) S_ .f32 0x00000000#32) reducesTo_S8x256x28x28_S8x28x28_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 4 a b _ _ _ _ (by decide) _ n 0 i j
  | ⟨5, hdj⟩ =>
    refine Eq.trans (concatenate_apply_piece (t := S8x9x28x28) (1 : Fin 4) _ _ (ix4 n (⟨5, hdj⟩ : Fin 9) i j) 5 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 5] (padT (F := Ideal) b) slices_S8x256x36x36_S8x256x28x28_0_0_8_5)) (constant (F := Ideal) S_ .f32 0x00000000#32) reducesTo_S8x256x28x28_S8x28x28_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 5 a b _ _ _ _ (by decide) _ n 0 i j
  | ⟨6, hdj⟩ =>
    refine Eq.trans (concatenate_apply_piece (t := S8x9x28x28) (1 : Fin 4) _ _ (ix4 n (⟨6, hdj⟩ : Fin 9) i j) 6 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 6] (padT (F := Ideal) b) slices_S8x256x36x36_S8x256x28x28_0_0_8_6)) (constant (F := Ideal) S_ .f32 0x00000000#32) reducesTo_S8x256x28x28_S8x28x28_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 6 a b _ _ _ _ (by decide) _ n 0 i j
  | ⟨7, hdj⟩ =>
    refine Eq.trans (concatenate_apply_piece (t := S8x9x28x28) (1 : Fin 4) _ _ (ix4 n (⟨7, hdj⟩ : Fin 9) i j) 7 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 7] (padT (F := Ideal) b) slices_S8x256x36x36_S8x256x28x28_0_0_8_7)) (constant (F := Ideal) S_ .f32 0x00000000#32) reducesTo_S8x256x28x28_S8x28x28_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 7 a b _ _ _ _ (by decide) _ n 0 i j
  | ⟨8, hdj⟩ =>
    refine Eq.trans (concatenate_apply_piece (t := S8x9x28x28) (1 : Fin 4) _ _ (ix4 n (⟨8, hdj⟩ : Fin 9) i j) 8 ?_ S8x1x28x28 (broadcastInDim S8x1x28x28 ![0, 2, 3] bcast_S8x28x28_S8x1x28x28_0_2_3 (Host.reduceAdd (F := Ideal) (mulf (F := Ideal) (φ := .f32) a (extractStridedSlice S8x256x28x28 ![0, 0, 8, 8] (padT (F := Ideal) b) slices_S8x256x36x36_S8x256x28x28_0_0_8_8)) (constant (F := Ideal) S_ .f32 0x00000000#32) reducesTo_S8x256x28x28_S8x28x28_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 8 a b _ _ _ _ (by decide) _ n 0 i j

/-- The tail read at an index. -/
theorem tailRead (a b : Corr2.SA.Idx → EReal) :
    tailT (F := Ideal) (rowF 0 a b) (rowF 1 a b) (rowF 2 a b) (rowF 3 a b) (rowF 4 a b) (rowF 5 a b) (rowF 6 a b) (rowF 7 a b) (rowF 8 a b) = g5 a b := by
  funext idx
  obtain ⟨n, di, dj, i, j, rfl⟩ : ∃ (n : Fin 8) (di dj : Fin 9) (i : Fin 28) (j : Fin 28), idx = ix5 n di dj i j :=
    ⟨idx 0, idx 1, idx 2, idx 3, idx 4, eq_ix5 idx⟩
  rw [g5_apply]
  unfold tailT
  match di with
  | ⟨0, hdi⟩ =>
    refine Eq.trans (concatenate_apply_piece (t := S8x9x9x28x28) (1 : Fin 5) _ _ (ix5 n (⟨0, hdi⟩ : Fin 9) dj i j) 0 ?_ S8x1x9x28x28 (broadcastInDim S8x1x9x28x28 ![0, 2, 3, 4] bcast_S8x9x28x28_S8x1x9x28x28_0_2_3_4 (rowF 0 a b)) ?_ rfl 0 ?_ (ix5 n (0 : Fin 1) dj i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨1, hdi⟩ =>
    refine Eq.trans (concatenate_apply_piece (t := S8x9x9x28x28) (1 : Fin 5) _ _ (ix5 n (⟨1, hdi⟩ : Fin 9) dj i j) 1 ?_ S8x1x9x28x28 (broadcastInDim S8x1x9x28x28 ![0, 2, 3, 4] bcast_S8x9x28x28_S8x1x9x28x28_0_2_3_4 (rowF 1 a b)) ?_ rfl 1 ?_ (ix5 n (0 : Fin 1) dj i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨2, hdi⟩ =>
    refine Eq.trans (concatenate_apply_piece (t := S8x9x9x28x28) (1 : Fin 5) _ _ (ix5 n (⟨2, hdi⟩ : Fin 9) dj i j) 2 ?_ S8x1x9x28x28 (broadcastInDim S8x1x9x28x28 ![0, 2, 3, 4] bcast_S8x9x28x28_S8x1x9x28x28_0_2_3_4 (rowF 2 a b)) ?_ rfl 2 ?_ (ix5 n (0 : Fin 1) dj i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨3, hdi⟩ =>
    refine Eq.trans (concatenate_apply_piece (t := S8x9x9x28x28) (1 : Fin 5) _ _ (ix5 n (⟨3, hdi⟩ : Fin 9) dj i j) 3 ?_ S8x1x9x28x28 (broadcastInDim S8x1x9x28x28 ![0, 2, 3, 4] bcast_S8x9x28x28_S8x1x9x28x28_0_2_3_4 (rowF 3 a b)) ?_ rfl 3 ?_ (ix5 n (0 : Fin 1) dj i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨4, hdi⟩ =>
    refine Eq.trans (concatenate_apply_piece (t := S8x9x9x28x28) (1 : Fin 5) _ _ (ix5 n (⟨4, hdi⟩ : Fin 9) dj i j) 4 ?_ S8x1x9x28x28 (broadcastInDim S8x1x9x28x28 ![0, 2, 3, 4] bcast_S8x9x28x28_S8x1x9x28x28_0_2_3_4 (rowF 4 a b)) ?_ rfl 4 ?_ (ix5 n (0 : Fin 1) dj i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨5, hdi⟩ =>
    refine Eq.trans (concatenate_apply_piece (t := S8x9x9x28x28) (1 : Fin 5) _ _ (ix5 n (⟨5, hdi⟩ : Fin 9) dj i j) 5 ?_ S8x1x9x28x28 (broadcastInDim S8x1x9x28x28 ![0, 2, 3, 4] bcast_S8x9x28x28_S8x1x9x28x28_0_2_3_4 (rowF 5 a b)) ?_ rfl 5 ?_ (ix5 n (0 : Fin 1) dj i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨6, hdi⟩ =>
    refine Eq.trans (concatenate_apply_piece (t := S8x9x9x28x28) (1 : Fin 5) _ _ (ix5 n (⟨6, hdi⟩ : Fin 9) dj i j) 6 ?_ S8x1x9x28x28 (broadcastInDim S8x1x9x28x28 ![0, 2, 3, 4] bcast_S8x9x28x28_S8x1x9x28x28_0_2_3_4 (rowF 6 a b)) ?_ rfl 6 ?_ (ix5 n (0 : Fin 1) dj i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨7, hdi⟩ =>
    refine Eq.trans (concatenate_apply_piece (t := S8x9x9x28x28) (1 : Fin 5) _ _ (ix5 n (⟨7, hdi⟩ : Fin 9) dj i j) 7 ?_ S8x1x9x28x28 (broadcastInDim S8x1x9x28x28 ![0, 2, 3, 4] bcast_S8x9x28x28_S8x1x9x28x28_0_2_3_4 (rowF 7 a b)) ?_ rfl 7 ?_ (ix5 n (0 : Fin 1) dj i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl
  | ⟨8, hdi⟩ =>
    refine Eq.trans (concatenate_apply_piece (t := S8x9x9x28x28) (1 : Fin 5) _ _ (ix5 n (⟨8, hdi⟩ : Fin 9) dj i j) 8 ?_ S8x1x9x28x28 (broadcastInDim S8x1x9x28x28 ![0, 2, 3, 4] bcast_S8x9x28x28_S8x1x9x28x28_0_2_3_4 (rowF 8 a b)) ?_ rfl 8 ?_ (ix5 n (0 : Fin 1) dj i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (28 : Nat) = 1 then 0 else i.val; rw [if_neg (by decide)]
        | ⟨3, _⟩ => by show j.val = if (28 : Nat) = 1 then 0 else j.val; rw [if_neg (by decide)])) ?_
      rfl

end Cert.ReferenceIdeal.Lvl2

end
-- ==== Proof.RefLevel2.lean ====
/-
  Level 2 of the reference as a run: each stretch's result is its composed term (the fold over the stretch computes
  it), a stretch's inputs are a, the padded b and the earlier rows' results, none of which a later stretch writes, and
  read at an index the level's result is g5 of the two feature maps as the level finds them.
-/
import proofs.«135875_j16999480558431_2_alg».proof.Proof.RefOps2
import proofs.«135875_j16999480558431_2_alg».proof.Proof.RefRead2

set_option maxRecDepth 8192

noncomputable section

namespace Cert.ReferenceIdeal.Lvl2

open Cert.ReferenceIdeal Cert.ReferenceIdeal.Gen Idealize.ShloMosaic Idealize.ShloMosaic.TcCoe Idealize.SL.Sem Idealize.ShloMosaic.StableHlo
open Idealize.ShloMosaic.ValueIdx RefLib Corr2 CorrJ2

variable {F : FTy → Type} [FloatOps F]

theorem evalR0 (V : Valuation τ sig (Elt F)) :
    after (opsR0 (F := F)) V (Proc.devRef .tc main_v725) = rowT0 (V (Proc.devRef .tc main_arg2)) (V (Proc.devRef .tc main_v688)) := rfl
theorem evalR1 (V : Valuation τ sig (Elt F)) :
    after (opsR1 (F := F)) V (Proc.devRef .tc main_v762) = rowT1 (V (Proc.devRef .tc main_arg2)) (V (Proc.devRef .tc main_v688)) := rfl
theorem evalR2 (V : Valuation τ sig (Elt F)) :
    after (opsR2 (F := F)) V (Proc.devRef .tc main_v799) = rowT2 (V (Proc.devRef .tc main_arg2)) (V (Proc.devRef .tc main_v688)) := rfl
theorem evalR3 (V : Valuation τ sig (Elt F)) :
    after (opsR3 (F := F)) V (Proc.devRef .tc main_v836) = rowT3 (V (Proc.devRef .tc main_arg2)) (V (Proc.devRef .tc main_v688)) := rfl
theorem evalR4 (V : Valuation τ sig (Elt F)) :
    after (opsR4 (F := F)) V (Proc.devRef .tc main_v873) = rowT4 (V (Proc.devRef .tc main_arg2)) (V (Proc.devRef .tc main_v688)) := rfl
theorem evalR5 (V : Valuation τ sig (Elt F)) :
    after (opsR5 (F := F)) V (Proc.devRef .tc main_v910) = rowT5 (V (Proc.devRef .tc main_arg2)) (V (Proc.devRef .tc main_v688)) := rfl
theorem evalR6 (V : Valuation τ sig (Elt F)) :
    after (opsR6 (F := F)) V (Proc.devRef .tc main_v947) = rowT6 (V (Proc.devRef .tc main_arg2)) (V (Proc.devRef .tc main_v688)) := rfl
theorem evalR7 (V : Valuation τ sig (Elt F)) :
    after (opsR7 (F := F)) V (Proc.devRef .tc main_v984) = rowT7 (V (Proc.devRef .tc main_arg2)) (V (Proc.devRef .tc main_v688)) := rfl
theorem evalR8 (V : Valuation τ sig (Elt F)) :
    after (opsR8 (F := F)) V (Proc.devRef .tc main_v1021) = rowT8 (V (Proc.devRef .tc main_arg2)) (V (Proc.devRef .tc main_v688)) := rfl

theorem evalT (V : Valuation τ sig (Elt F)) :
    after (opsT (F := F)) V (Proc.devRef .tc main_v1031) = tailT (V (Proc.devRef .tc main_v725)) (V (Proc.devRef .tc main_v762)) (V (Proc.devRef .tc main_v799)) (V (Proc.devRef .tc main_v836)) (V (Proc.devRef .tc main_v873)) (V (Proc.devRef .tc main_v910)) (V (Proc.devRef .tc main_v947)) (V (Proc.devRef .tc main_v984)) (V (Proc.devRef .tc main_v1021)) := rfl

abbrev ch0 (V : Valuation τ sig (Elt F)) : Valuation τ sig (Elt F) := after opsH V
abbrev ch1 (V : Valuation τ sig (Elt F)) : Valuation τ sig (Elt F) := after opsR0 (ch0 V)
abbrev ch2 (V : Valuation τ sig (Elt F)) : Valuation τ sig (Elt F) := after opsR1 (ch1 V)
abbrev ch3 (V : Valuation τ sig (Elt F)) : Valuation τ sig (Elt F) := after opsR2 (ch2 V)
abbrev ch4 (V : Valuation τ sig (Elt F)) : Valuation τ sig (Elt F) := after opsR3 (ch3 V)
abbrev ch5 (V : Valuation τ sig (Elt F)) : Valuation τ sig (Elt F) := after opsR4 (ch4 V)
abbrev ch6 (V : Valuation τ sig (Elt F)) : Valuation τ sig (Elt F) := after opsR5 (ch5 V)
abbrev ch7 (V : Valuation τ sig (Elt F)) : Valuation τ sig (Elt F) := after opsR6 (ch6 V)
abbrev ch8 (V : Valuation τ sig (Elt F)) : Valuation τ sig (Elt F) := after opsR7 (ch7 V)
abbrev ch9 (V : Valuation τ sig (Elt F)) : Valuation τ sig (Elt F) := after opsR8 (ch8 V)

theorem chA0 (V : Valuation τ sig (Elt F)) : ch0 V (Proc.devRef .tc main_arg2) = V (Proc.devRef .tc main_arg2) :=
  after_of_writes_sub _ _ hWH (by decide)
theorem chA1 (V : Valuation τ sig (Elt F)) : ch1 V (Proc.devRef .tc main_arg2) = V (Proc.devRef .tc main_arg2) :=
  (after_of_writes_sub _ _ hWR0 (by decide)).trans (chA0 V)
theorem chA2 (V : Valuation τ sig (Elt F)) : ch2 V (Proc.devRef .tc main_arg2) = V (Proc.devRef .tc main_arg2) :=
  (after_of_writes_sub _ _ hWR1 (by decide)).trans (chA1 V)
theorem chA3 (V : Valuation τ sig (Elt F)) : ch3 V (Proc.devRef .tc main_arg2) = V (Proc.devRef .tc main_arg2) :=
  (after_of_writes_sub _ _ hWR2 (by decide)).trans (chA2 V)
theorem chA4 (V : Valuation τ sig (Elt F)) : ch4 V (Proc.devRef .tc main_arg2) = V (Proc.devRef .tc main_arg2) :=
  (after_of_writes_sub _ _ hWR3 (by decide)).trans (chA3 V)
theorem chA5 (V : Valuation τ sig (Elt F)) : ch5 V (Proc.devRef .tc main_arg2) = V (Proc.devRef .tc main_arg2) :=
  (after_of_writes_sub _ _ hWR4 (by decide)).trans (chA4 V)
theorem chA6 (V : Valuation τ sig (Elt F)) : ch6 V (Proc.devRef .tc main_arg2) = V (Proc.devRef .tc main_arg2) :=
  (after_of_writes_sub _ _ hWR5 (by decide)).trans (chA5 V)
theorem chA7 (V : Valuation τ sig (Elt F)) : ch7 V (Proc.devRef .tc main_arg2) = V (Proc.devRef .tc main_arg2) :=
  (after_of_writes_sub _ _ hWR6 (by decide)).trans (chA6 V)
theorem chA8 (V : Valuation τ sig (Elt F)) : ch8 V (Proc.devRef .tc main_arg2) = V (Proc.devRef .tc main_arg2) :=
  (after_of_writes_sub _ _ hWR7 (by decide)).trans (chA7 V)
theorem chA9 (V : Valuation τ sig (Elt F)) : ch9 V (Proc.devRef .tc main_arg2) = V (Proc.devRef .tc main_arg2) :=
  (after_of_writes_sub _ _ hWR8 (by decide)).trans (chA8 V)

theorem chP0 (V : Valuation τ sig (Elt F)) : ch0 V (Proc.devRef .tc main_v688) = padT (V (Proc.devRef .tc main_arg6)) := rfl
theorem chP1 (V : Valuation τ sig (Elt F)) : ch1 V (Proc.devRef .tc main_v688) = padT (V (Proc.devRef .tc main_arg6)) :=
  (after_of_writes_sub _ _ hWR0 (by decide)).trans (chP0 V)
theorem chP2 (V : Valuation τ sig (Elt F)) : ch2 V (Proc.devRef .tc main_v688) = padT (V (Proc.devRef .tc main_arg6)) :=
  (after_of_writes_sub _ _ hWR1 (by decide)).trans (chP1 V)
theorem chP3 (V : Valuation τ sig (Elt F)) : ch3 V (Proc.devRef .tc main_v688) = padT (V (Proc.devRef .tc main_arg6)) :=
  (after_of_writes_sub _ _ hWR2 (by decide)).trans (chP2 V)
theorem chP4 (V : Valuation τ sig (Elt F)) : ch4 V (Proc.devRef .tc main_v688) = padT (V (Proc.devRef .tc main_arg6)) :=
  (after_of_writes_sub _ _ hWR3 (by decide)).trans (chP3 V)
theorem chP5 (V : Valuation τ sig (Elt F)) : ch5 V (Proc.devRef .tc main_v688) = padT (V (Proc.devRef .tc main_arg6)) :=
  (after_of_writes_sub _ _ hWR4 (by decide)).trans (chP4 V)
theorem chP6 (V : Valuation τ sig (Elt F)) : ch6 V (Proc.devRef .tc main_v688) = padT (V (Proc.devRef .tc main_arg6)) :=
  (after_of_writes_sub _ _ hWR5 (by decide)).trans (chP5 V)
theorem chP7 (V : Valuation τ sig (Elt F)) : ch7 V (Proc.devRef .tc main_v688) = padT (V (Proc.devRef .tc main_arg6)) :=
  (after_of_writes_sub _ _ hWR6 (by decide)).trans (chP6 V)
theorem chP8 (V : Valuation τ sig (Elt F)) : ch8 V (Proc.devRef .tc main_v688) = padT (V (Proc.devRef .tc main_arg6)) :=
  (after_of_writes_sub _ _ hWR7 (by decide)).trans (chP7 V)
theorem chP9 (V : Valuation τ sig (Elt F)) : ch9 V (Proc.devRef .tc main_v688) = padT (V (Proc.devRef .tc main_arg6)) :=
  (after_of_writes_sub _ _ hWR8 (by decide)).trans (chP8 V)

theorem chRow0_1 (V : Valuation τ sig (Elt Ideal)) :
    ch1 V (Proc.devRef .tc main_v725) = rowF 0 (V (Proc.devRef .tc main_arg2)) (V (Proc.devRef .tc main_arg6)) := by
  refine (evalR0 (ch0 V)).trans ?_
  rw [chA0 V, chP0 V]
  exact rowRead0 _ _
theorem chRow0_2 (V : Valuation τ sig (Elt Ideal)) :
    ch2 V (Proc.devRef .tc main_v725) = rowF 0 (V (Proc.devRef .tc main_arg2)) (V (Proc.devRef .tc main_arg6)) :=
  (after_of_writes_sub _ _ hWR1 (by decide)).trans (chRow0_1 V)
theorem chRow0_3 (V : Valuation τ sig (Elt Ideal)) :
    ch3 V (Proc.devRef .tc main_v725) = rowF 0 (V (Proc.devRef .tc main_arg2)) (V (Proc.devRef .tc main_arg6)) :=
  (after_of_writes_sub _ _ hWR2 (by decide)).trans (chRow0_2 V)
theorem chRow0_4 (V : Valuation τ sig (Elt Ideal)) :
    ch4 V (Proc.devRef .tc main_v725) = rowF 0 (V (Proc.devRef .tc main_arg2)) (V (Proc.devRef .tc main_arg6)) :=
  (after_of_writes_sub _ _ hWR3 (by decide)).trans (chRow0_3 V)
theorem chRow0_5 (V : Valuation τ sig (Elt Ideal)) :
    ch5 V (Proc.devRef .tc main_v725) = rowF 0 (V (Proc.devRef .tc main_arg2)) (V (Proc.devRef .tc main_arg6)) :=
  (after_of_writes_sub _ _ hWR4 (by decide)).trans (chRow0_4 V)
theorem chRow0_6 (V : Valuation τ sig (Elt Ideal)) :
    ch6 V (Proc.devRef .tc main_v725) = rowF 0 (V (Proc.devRef .tc main_arg2)) (V (Proc.devRef .tc main_arg6)) :=
  (after_of_writes_sub _ _ hWR5 (by decide)).trans (chRow0_5 V)
theorem chRow0_7 (V : Valuation τ sig (Elt Ideal)) :
    ch7 V (Proc.devRef .tc main_v725) = rowF 0 (V (Proc.devRef .tc main_arg2)) (V (Proc.devRef .tc main_arg6)) :=
  (after_of_writes_sub _ _ hWR6 (by decide)).trans (chRow0_6 V)
theorem chRow0_8 (V : Valuation τ sig (Elt Ideal)) :
    ch8 V (Proc.devRef .tc main_v725) = rowF 0 (V (Proc.devRef .tc main_arg2)) (V (Proc.devRef .tc main_arg6)) :=
  (after_of_writes_sub _ _ hWR7 (by decide)).trans (chRow0_7 V)
theorem chRow0_9 (V : Valuation τ sig (Elt Ideal)) :
    ch9 V (Proc.devRef .tc main_v725) = rowF 0 (V (Proc.devRef .tc main_arg2)) (V (Proc.devRef .tc main_arg6)) :=
  (after_of_writes_sub _ _ hWR8 (by decide)).trans (chRow0_8 V)
theorem chRow1_2 (V : Valuation τ sig (Elt Ideal)) :
    ch2 V (Proc.devRef .tc main_v762) = rowF 1 (V (Proc.devRef .tc main_arg2)) (V (Proc.devRef .tc main_arg6)) := by
  refine (evalR1 (ch1 V)).trans ?_
  rw [chA1 V, chP1 V]
  exact rowRead1 _ _
theorem chRow1_3 (V : Valuation τ sig (Elt Ideal)) :
    ch3 V (Proc.devRef .tc main_v762) = rowF 1 (V (Proc.devRef .tc main_arg2)) (V (Proc.devRef .tc main_arg6)) :=
  (after_of_writes_sub _ _ hWR2 (by decide)).trans (chRow1_2 V)
theorem chRow1_4 (V : Valuation τ sig (Elt Ideal)) :
    ch4 V (Proc.devRef .tc main_v762) = rowF 1 (V (Proc.devRef .tc main_arg2)) (V (Proc.devRef .tc main_arg6)) :=
  (after_of_writes_sub _ _ hWR3 (by decide)).trans (chRow1_3 V)
theorem chRow1_5 (V : Valuation τ sig (Elt Ideal)) :
    ch5 V (Proc.devRef .tc main_v762) = rowF 1 (V (Proc.devRef .tc main_arg2)) (V (Proc.devRef .tc main_arg6)) :=
  (after_of_writes_sub _ _ hWR4 (by decide)).trans (chRow1_4 V)
theorem chRow1_6 (V : Valuation τ sig (Elt Ideal)) :
    ch6 V (Proc.devRef .tc main_v762) = rowF 1 (V (Proc.devRef .tc main_arg2)) (V (Proc.devRef .tc main_arg6)) :=
  (after_of_writes_sub _ _ hWR5 (by decide)).trans (chRow1_5 V)
theorem chRow1_7 (V : Valuation τ sig (Elt Ideal)) :
    ch7 V (Proc.devRef .tc main_v762) = rowF 1 (V (Proc.devRef .tc main_arg2)) (V (Proc.devRef .tc main_arg6)) :=
  (after_of_writes_sub _ _ hWR6 (by decide)).trans (chRow1_6 V)
theorem chRow1_8 (V : Valuation τ sig (Elt Ideal)) :
    ch8 V (Proc.devRef .tc main_v762) = rowF 1 (V (Proc.devRef .tc main_arg2)) (V (Proc.devRef .tc main_arg6)) :=
  (after_of_writes_sub _ _ hWR7 (by decide)).trans (chRow1_7 V)
theorem chRow1_9 (V : Valuation τ sig (Elt Ideal)) :
    ch9 V (Proc.devRef .tc main_v762) = rowF 1 (V (Proc.devRef .tc main_arg2)) (V (Proc.devRef .tc main_arg6)) :=
  (after_of_writes_sub _ _ hWR8 (by decide)).trans (chRow1_8 V)
theorem chRow2_3 (V : Valuation τ sig (Elt Ideal)) :
    ch3 V (Proc.devRef .tc main_v799) = rowF 2 (V (Proc.devRef .tc main_arg2)) (V (Proc.devRef .tc main_arg6)) := by
  refine (evalR2 (ch2 V)).trans ?_
  rw [chA2 V, chP2 V]
  exact rowRead2 _ _
theorem chRow2_4 (V : Valuation τ sig (Elt Ideal)) :
    ch4 V (Proc.devRef .tc main_v799) = rowF 2 (V (Proc.devRef .tc main_arg2)) (V (Proc.devRef .tc main_arg6)) :=
  (after_of_writes_sub _ _ hWR3 (by decide)).trans (chRow2_3 V)
theorem chRow2_5 (V : Valuation τ sig (Elt Ideal)) :
    ch5 V (Proc.devRef .tc main_v799) = rowF 2 (V (Proc.devRef .tc main_arg2)) (V (Proc.devRef .tc main_arg6)) :=
  (after_of_writes_sub _ _ hWR4 (by decide)).trans (chRow2_4 V)
theorem chRow2_6 (V : Valuation τ sig (Elt Ideal)) :
    ch6 V (Proc.devRef .tc main_v799) = rowF 2 (V (Proc.devRef .tc main_arg2)) (V (Proc.devRef .tc main_arg6)) :=
  (after_of_writes_sub _ _ hWR5 (by decide)).trans (chRow2_5 V)
theorem chRow2_7 (V : Valuation τ sig (Elt Ideal)) :
    ch7 V (Proc.devRef .tc main_v799) = rowF 2 (V (Proc.devRef .tc main_arg2)) (V (Proc.devRef .tc main_arg6)) :=
  (after_of_writes_sub _ _ hWR6 (by decide)).trans (chRow2_6 V)
theorem chRow2_8 (V : Valuation τ sig (Elt Ideal)) :
    ch8 V (Proc.devRef .tc main_v799) = rowF 2 (V (Proc.devRef .tc main_arg2)) (V (Proc.devRef .tc main_arg6)) :=
  (after_of_writes_sub _ _ hWR7 (by decide)).trans (chRow2_7 V)
theorem chRow2_9 (V : Valuation τ sig (Elt Ideal)) :
    ch9 V (Proc.devRef .tc main_v799) = rowF 2 (V (Proc.devRef .tc main_arg2)) (V (Proc.devRef .tc main_arg6)) :=
  (after_of_writes_sub _ _ hWR8 (by decide)).trans (chRow2_8 V)
theorem chRow3_4 (V : Valuation τ sig (Elt Ideal)) :
    ch4 V (Proc.devRef .tc main_v836) = rowF 3 (V (Proc.devRef .tc main_arg2)) (V (Proc.devRef .tc main_arg6)) := by
  refine (evalR3 (ch3 V)).trans ?_
  rw [chA3 V, chP3 V]
  exact rowRead3 _ _
theorem chRow3_5 (V : Valuation τ sig (Elt Ideal)) :
    ch5 V (Proc.devRef .tc main_v836) = rowF 3 (V (Proc.devRef .tc main_arg2)) (V (Proc.devRef .tc main_arg6)) :=
  (after_of_writes_sub _ _ hWR4 (by decide)).trans (chRow3_4 V)
theorem chRow3_6 (V : Valuation τ sig (Elt Ideal)) :
    ch6 V (Proc.devRef .tc main_v836) = rowF 3 (V (Proc.devRef .tc main_arg2)) (V (Proc.devRef .tc main_arg6)) :=
  (after_of_writes_sub _ _ hWR5 (by decide)).trans (chRow3_5 V)
theorem chRow3_7 (V : Valuation τ sig (Elt Ideal)) :
    ch7 V (Proc.devRef .tc main_v836) = rowF 3 (V (Proc.devRef .tc main_arg2)) (V (Proc.devRef .tc main_arg6)) :=
  (after_of_writes_sub _ _ hWR6 (by decide)).trans (chRow3_6 V)
theorem chRow3_8 (V : Valuation τ sig (Elt Ideal)) :
    ch8 V (Proc.devRef .tc main_v836) = rowF 3 (V (Proc.devRef .tc main_arg2)) (V (Proc.devRef .tc main_arg6)) :=
  (after_of_writes_sub _ _ hWR7 (by decide)).trans (chRow3_7 V)
theorem chRow3_9 (V : Valuation τ sig (Elt Ideal)) :
    ch9 V (Proc.devRef .tc main_v836) = rowF 3 (V (Proc.devRef .tc main_arg2)) (V (Proc.devRef .tc main_arg6)) :=
  (after_of_writes_sub _ _ hWR8 (by decide)).trans (chRow3_8 V)
theorem chRow4_5 (V : Valuation τ sig (Elt Ideal)) :
    ch5 V (Proc.devRef .tc main_v873) = rowF 4 (V (Proc.devRef .tc main_arg2)) (V (Proc.devRef .tc main_arg6)) := by
  refine (evalR4 (ch4 V)).trans ?_
  rw [chA4 V, chP4 V]
  exact rowRead4 _ _
theorem chRow4_6 (V : Valuation τ sig (Elt Ideal)) :
    ch6 V (Proc.devRef .tc main_v873) = rowF 4 (V (Proc.devRef .tc main_arg2)) (V (Proc.devRef .tc main_arg6)) :=
  (after_of_writes_sub _ _ hWR5 (by decide)).trans (chRow4_5 V)
theorem chRow4_7 (V : Valuation τ sig (Elt Ideal)) :
    ch7 V (Proc.devRef .tc main_v873) = rowF 4 (V (Proc.devRef .tc main_arg2)) (V (Proc.devRef .tc main_arg6)) :=
  (after_of_writes_sub _ _ hWR6 (by decide)).trans (chRow4_6 V)
theorem chRow4_8 (V : Valuation τ sig (Elt Ideal)) :
    ch8 V (Proc.devRef .tc main_v873) = rowF 4 (V (Proc.devRef .tc main_arg2)) (V (Proc.devRef .tc main_arg6)) :=
  (after_of_writes_sub _ _ hWR7 (by decide)).trans (chRow4_7 V)
theorem chRow4_9 (V : Valuation τ sig (Elt Ideal)) :
    ch9 V (Proc.devRef .tc main_v873) = rowF 4 (V (Proc.devRef .tc main_arg2)) (V (Proc.devRef .tc main_arg6)) :=
  (after_of_writes_sub _ _ hWR8 (by decide)).trans (chRow4_8 V)
theorem chRow5_6 (V : Valuation τ sig (Elt Ideal)) :
    ch6 V (Proc.devRef .tc main_v910) = rowF 5 (V (Proc.devRef .tc main_arg2)) (V (Proc.devRef .tc main_arg6)) := by
  refine (evalR5 (ch5 V)).trans ?_
  rw [chA5 V, chP5 V]
  exact rowRead5 _ _
theorem chRow5_7 (V : Valuation τ sig (Elt Ideal)) :
    ch7 V (Proc.devRef .tc main_v910) = rowF 5 (V (Proc.devRef .tc main_arg2)) (V (Proc.devRef .tc main_arg6)) :=
  (after_of_writes_sub _ _ hWR6 (by decide)).trans (chRow5_6 V)
theorem chRow5_8 (V : Valuation τ sig (Elt Ideal)) :
    ch8 V (Proc.devRef .tc main_v910) = rowF 5 (V (Proc.devRef .tc main_arg2)) (V (Proc.devRef .tc main_arg6)) :=
  (after_of_writes_sub _ _ hWR7 (by decide)).trans (chRow5_7 V)
theorem chRow5_9 (V : Valuation τ sig (Elt Ideal)) :
    ch9 V (Proc.devRef .tc main_v910) = rowF 5 (V (Proc.devRef .tc main_arg2)) (V (Proc.devRef .tc main_arg6)) :=
  (after_of_writes_sub _ _ hWR8 (by decide)).trans (chRow5_8 V)
theorem chRow6_7 (V : Valuation τ sig (Elt Ideal)) :
    ch7 V (Proc.devRef .tc main_v947) = rowF 6 (V (Proc.devRef .tc main_arg2)) (V (Proc.devRef .tc main_arg6)) := by
  refine (evalR6 (ch6 V)).trans ?_
  rw [chA6 V, chP6 V]
  exact rowRead6 _ _
theorem chRow6_8 (V : Valuation τ sig (Elt Ideal)) :
    ch8 V (Proc.devRef .tc main_v947) = rowF 6 (V (Proc.devRef .tc main_arg2)) (V (Proc.devRef .tc main_arg6)) :=
  (after_of_writes_sub _ _ hWR7 (by decide)).trans (chRow6_7 V)
theorem chRow6_9 (V : Valuation τ sig (Elt Ideal)) :
    ch9 V (Proc.devRef .tc main_v947) = rowF 6 (V (Proc.devRef .tc main_arg2)) (V (Proc.devRef .tc main_arg6)) :=
  (after_of_writes_sub _ _ hWR8 (by decide)).trans (chRow6_8 V)
theorem chRow7_8 (V : Valuation τ sig (Elt Ideal)) :
    ch8 V (Proc.devRef .tc main_v984) = rowF 7 (V (Proc.devRef .tc main_arg2)) (V (Proc.devRef .tc main_arg6)) := by
  refine (evalR7 (ch7 V)).trans ?_
  rw [chA7 V, chP7 V]
  exact rowRead7 _ _
theorem chRow7_9 (V : Valuation τ sig (Elt Ideal)) :
    ch9 V (Proc.devRef .tc main_v984) = rowF 7 (V (Proc.devRef .tc main_arg2)) (V (Proc.devRef .tc main_arg6)) :=
  (after_of_writes_sub _ _ hWR8 (by decide)).trans (chRow7_8 V)
theorem chRow8_9 (V : Valuation τ sig (Elt Ideal)) :
    ch9 V (Proc.devRef .tc main_v1021) = rowF 8 (V (Proc.devRef .tc main_arg2)) (V (Proc.devRef .tc main_arg6)) := by
  refine (evalR8 (ch8 V)).trans ?_
  rw [chA8 V, chP8 V]
  exact rowRead8 _ _

/-- The level's result after its operations: g5 of the two feature maps as the level finds them. -/
theorem level_res (V : Valuation τ sig (Elt Ideal)) :
    after (opsL (F := Ideal)) V (Proc.devRef .tc main_v1031) = g5 (V (Proc.devRef .tc main_arg2)) (V (Proc.devRef .tc main_arg6)) := by
  simp only [opsL, StableHlo.after_append]
  refine (evalT (ch9 V)).trans ?_
  rw [chRow0_9 V, chRow1_9 V, chRow2_9 V, chRow3_9 V, chRow4_9 V, chRow5_9 V, chRow6_9 V, chRow7_9 V, chRow8_9 V]
  exact tailRead _ _

end Cert.ReferenceIdeal.Lvl2

end
-- ==== Proof.RefOps3.lean ====
/-
  Level 3 of the reference: its 427 host operations in order, cut into the header (a zero constant, its conversion to a
  float, the zero pad of b), the nine rows of 46 operations and the tail of 10; for each stretch the buffers it writes,
  that every operation touches TensorCore buffers only, and that none allocates.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl3

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

abbrev opsH : List (HloOp τ sig (Elt F)) :=
  [ nullary main_c_244 (constantI S_ 32 0#32),
    TRef.unary (TRef.of (T := ⟨S_, .i32⟩) main_c_244) (TRef.of (T := ⟨S_, .f32⟩) main_call3_v0) (sitofp .f32),
    TRef.binary (TRef.of (T := ⟨S8x512x14x14, .f32⟩) main_arg7) (TRef.of (T := ⟨S_, .f32⟩) main_call3_v0) (TRef.of (T := ⟨S8x512x22x22, .f32⟩) main_v1032) (fun x v => pad S8x512x22x22 ![0, 0, 4, 4] ![0, 0, 4, 4] ![0, 0, 0, 0] x v pads_S8x512x14x14_S8x512x22x22_000_000_440_440 h_S_) ]

abbrev opsR0 : List (HloOp τ sig (Elt F)) :=
  [ unary main_v1032 main_v1033 ((extractStridedSlice S8x512x14x14 ![0, 0, 0, 0] · slices_S8x512x22x22_S8x512x14x14_0_0_0_0) : (⟨S8x512x22x22, .f32⟩ : BufTy).Contents (Elt F) → (⟨S8x512x14x14, .f32⟩ : BufTy).Contents (Elt F)),
    binary main_arg3 main_v1033 main_v1034 (mulf : (⟨S8x512x14x14, .f32⟩ : BufTy).Contents (Elt F) → (⟨S8x512x14x14, .f32⟩ : BufTy).Contents (Elt F) → (⟨S8x512x14x14, .f32⟩ : BufTy).Contents (Elt F)),
    nullary main_cst_245 (constant S_ .f32 0x00000000#32),
    binary main_v1034 main_cst_245 main_v1035 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1036 ((extractStridedSlice S8x512x14x14 ![0, 0, 0, 1] · slices_S8x512x22x22_S8x512x14x14_0_0_0_1) : (⟨S8x512x22x22, .f32⟩ : BufTy).Contents (Elt F) → (⟨S8x512x14x14, .f32⟩ : BufTy).Contents (Elt F)),
    binary main_arg3 main_v1036 main_v1037 (mulf : (⟨S8x512x14x14, .f32⟩ : BufTy).Contents (Elt F) → (⟨S8x512x14x14, .f32⟩ : BufTy).Contents (Elt F) → (⟨S8x512x14x14, .f32⟩ : BufTy).Contents (Elt F)),
    nullary main_cst_246 (constant S_ .f32 0x00000000#32),
    binary main_v1037 main_cst_246 main_v1038 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1039 ((extractStridedSlice S8x512x14x14 ![0, 0, 0, 2] · slices_S8x512x22x22_S8x512x14x14_0_0_0_2) : (⟨S8x512x22x22, .f32⟩ : BufTy).Contents (Elt F) → (⟨S8x512x14x14, .f32⟩ : BufTy).Contents (Elt F)),
    binary main_arg3 main_v1039 main_v1040 (mulf : (⟨S8x512x14x14, .f32⟩ : BufTy).Contents (Elt F) → (⟨S8x512x14x14, .f32⟩ : BufTy).Contents (Elt F) → (⟨S8x512x14x14, .f32⟩ : BufTy).Contents (Elt F)),
    nullary main_cst_247 (constant S_ .f32 0x00000000#32),
    binary main_v1040 main_cst_247 main_v1041 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1042 ((extractStridedSlice S8x512x14x14 ![0, 0, 0, 3] · slices_S8x512x22x22_S8x512x14x14_0_0_0_3) : (⟨S8x512x22x22, .f32⟩ : BufTy).Contents (Elt F) → (⟨S8x512x14x14, .f32⟩ : BufTy).Contents (Elt F)),
    binary main_arg3 main_v1042 main_v1043 (mulf : (⟨S8x512x14x14, .f32⟩ : BufTy).Contents (Elt F) → (⟨S8x512x14x14, .f32⟩ : BufTy).Contents (Elt F) → (⟨S8x512x14x14, .f32⟩ : BufTy).Contents (Elt F)),
    nullary main_cst_248 (constant S_ .f32 0x00000000#32),
    binary main_v1043 main_cst_248 main_v1044 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1045 ((extractStridedSlice S8x512x14x14 ![0, 0, 0, 4] · slices_S8x512x22x22_S8x512x14x14_0_0_0_4) : (⟨S8x512x22x22, .f32⟩ : BufTy).Contents (Elt F) → (⟨S8x512x14x14, .f32⟩ : BufTy).Contents (Elt F)),
    binary main_arg3 main_v1045 main_v1046 (mulf : (⟨S8x512x14x14, .f32⟩ : BufTy).Contents (Elt F) → (⟨S8x512x14x14, .f32⟩ : BufTy).Contents (Elt F) → (⟨S8x512x14x14, .f32⟩ : BufTy).Contents (Elt F)),
    nullary main_cst_249 (constant S_ .f32 0x00000000#32),
    binary main_v1046 main_cst_249 main_v1047 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1048 ((extractStridedSlice S8x512x14x14 ![0, 0, 0, 5] · slices_S8x512x22x22_S8x512x14x14_0_0_0_5) : (⟨S8x512x22x22, .f32⟩ : BufTy).Contents (Elt F) → (⟨S8x512x14x14, .f32⟩ : BufTy).Contents (Elt F)),
    binary main_arg3 main_v1048 main_v1049 (mulf : (⟨S8x512x14x14, .f32⟩ : BufTy).Contents (Elt F) → (⟨S8x512x14x14, .f32⟩ : BufTy).Contents (Elt F) → (⟨S8x512x14x14, .f32⟩ : BufTy).Contents (Elt F)),
    nullary main_cst_250 (constant S_ .f32 0x00000000#32),
    binary main_v1049 main_cst_250 main_v1050 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1051 ((extractStridedSlice S8x512x14x14 ![0, 0, 0, 6] · slices_S8x512x22x22_S8x512x14x14_0_0_0_6) : (⟨S8x512x22x22, .f32⟩ : BufTy).Contents (Elt F) → (⟨S8x512x14x14, .f32⟩ : BufTy).Contents (Elt F)),
    binary main_arg3 main_v1051 main_v1052 (mulf : (⟨S8x512x14x14, .f32⟩ : BufTy).Contents (Elt F) → (⟨S8x512x14x14, .f32⟩ : BufTy).Contents (Elt F) → (⟨S8x512x14x14, .f32⟩ : BufTy).Contents (Elt F)),
    nullary main_cst_251 (constant S_ .f32 0x00000000#32),
    binary main_v1052 main_cst_251 main_v1053 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1054 ((extractStridedSlice S8x512x14x14 ![0, 0, 0, 7] · slices_S8x512x22x22_S8x512x14x14_0_0_0_7) : (⟨S8x512x22x22, .f32⟩ : BufTy).Contents (Elt F) → (⟨S8x512x14x14, .f32⟩ : BufTy).Contents (Elt F)),
    binary main_arg3 main_v1054 main_v1055 (mulf : (⟨S8x512x14x14, .f32⟩ : BufTy).Contents (Elt F) → (⟨S8x512x14x14, .f32⟩ : BufTy).Contents (Elt F) → (⟨S8x512x14x14, .f32⟩ : BufTy).Contents (Elt F)),
    nullary main_cst_252 (constant S_ .f32 0x00000000#32),
    binary main_v1055 main_cst_252 main_v1056 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1057 ((extractStridedSlice S8x512x14x14 ![0, 0, 0, 8] · slices_S8x512x22x22_S8x512x14x14_0_0_0_8) : (⟨S8x512x22x22, .f32⟩ : BufTy).Contents (Elt F) → (⟨S8x512x14x14, .f32⟩ : BufTy).Contents (Elt F)),
    binary main_arg3 main_v1057 main_v1058 (mulf : (⟨S8x512x14x14, .f32⟩ : BufTy).Contents (Elt F) → (⟨S8x512x14x14, .f32⟩ : BufTy).Contents (Elt F) → (⟨S8x512x14x14, .f32⟩ : BufTy).Contents (Elt F)),
    nullary main_cst_253 (constant S_ .f32 0x00000000#32),
    binary main_v1058 main_cst_253 main_v1059 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1035 main_v1060 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1038 main_v1061 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1041 main_v1062 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1044 main_v1063 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1047 main_v1064 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1050 main_v1065 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1053 main_v1066 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1056 main_v1067 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1059 main_v1068 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1060, main_v1061, main_v1062, main_v1063, main_v1064, main_v1065, main_v1066, main_v1067, main_v1068] main_v1069 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR1 : List (HloOp τ sig (Elt F)) :=
  [ unary main_v1032 main_v1070 ((extractStridedSlice S8x512x14x14 ![0, 0, 1, 0] · slices_S8x512x22x22_S8x512x14x14_0_0_1_0) : (⟨S8x512x22x22, .f32⟩ : BufTy).Contents (Elt F) → (⟨S8x512x14x14, .f32⟩ : BufTy).Contents (Elt F)),
    binary main_arg3 main_v1070 main_v1071 (mulf : (⟨S8x512x14x14, .f32⟩ : BufTy).Contents (Elt F) → (⟨S8x512x14x14, .f32⟩ : BufTy).Contents (Elt F) → (⟨S8x512x14x14, .f32⟩ : BufTy).Contents (Elt F)),
    nullary main_cst_254 (constant S_ .f32 0x00000000#32),
    binary main_v1071 main_cst_254 main_v1072 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1073 ((extractStridedSlice S8x512x14x14 ![0, 0, 1, 1] · slices_S8x512x22x22_S8x512x14x14_0_0_1_1) : (⟨S8x512x22x22, .f32⟩ : BufTy).Contents (Elt F) → (⟨S8x512x14x14, .f32⟩ : BufTy).Contents (Elt F)),
    binary main_arg3 main_v1073 main_v1074 (mulf : (⟨S8x512x14x14, .f32⟩ : BufTy).Contents (Elt F) → (⟨S8x512x14x14, .f32⟩ : BufTy).Contents (Elt F) → (⟨S8x512x14x14, .f32⟩ : BufTy).Contents (Elt F)),
    nullary main_cst_255 (constant S_ .f32 0x00000000#32),
    binary main_v1074 main_cst_255 main_v1075 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1076 ((extractStridedSlice S8x512x14x14 ![0, 0, 1, 2] · slices_S8x512x22x22_S8x512x14x14_0_0_1_2) : (⟨S8x512x22x22, .f32⟩ : BufTy).Contents (Elt F) → (⟨S8x512x14x14, .f32⟩ : BufTy).Contents (Elt F)),
    binary main_arg3 main_v1076 main_v1077 (mulf : (⟨S8x512x14x14, .f32⟩ : BufTy).Contents (Elt F) → (⟨S8x512x14x14, .f32⟩ : BufTy).Contents (Elt F) → (⟨S8x512x14x14, .f32⟩ : BufTy).Contents (Elt F)),
    nullary main_cst_256 (constant S_ .f32 0x00000000#32),
    binary main_v1077 main_cst_256 main_v1078 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1079 ((extractStridedSlice S8x512x14x14 ![0, 0, 1, 3] · slices_S8x512x22x22_S8x512x14x14_0_0_1_3) : (⟨S8x512x22x22, .f32⟩ : BufTy).Contents (Elt F) → (⟨S8x512x14x14, .f32⟩ : BufTy).Contents (Elt F)),
    binary main_arg3 main_v1079 main_v1080 (mulf : (⟨S8x512x14x14, .f32⟩ : BufTy).Contents (Elt F) → (⟨S8x512x14x14, .f32⟩ : BufTy).Contents (Elt F) → (⟨S8x512x14x14, .f32⟩ : BufTy).Contents (Elt F)),
    nullary main_cst_257 (constant S_ .f32 0x00000000#32),
    binary main_v1080 main_cst_257 main_v1081 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1082 ((extractStridedSlice S8x512x14x14 ![0, 0, 1, 4] · slices_S8x512x22x22_S8x512x14x14_0_0_1_4) : (⟨S8x512x22x22, .f32⟩ : BufTy).Contents (Elt F) → (⟨S8x512x14x14, .f32⟩ : BufTy).Contents (Elt F)),
    binary main_arg3 main_v1082 main_v1083 (mulf : (⟨S8x512x14x14, .f32⟩ : BufTy).Contents (Elt F) → (⟨S8x512x14x14, .f32⟩ : BufTy).Contents (Elt F) → (⟨S8x512x14x14, .f32⟩ : BufTy).Contents (Elt F)),
    nullary main_cst_258 (constant S_ .f32 0x00000000#32),
    binary main_v1083 main_cst_258 main_v1084 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1085 ((extractStridedSlice S8x512x14x14 ![0, 0, 1, 5] · slices_S8x512x22x22_S8x512x14x14_0_0_1_5) : (⟨S8x512x22x22, .f32⟩ : BufTy).Contents (Elt F) → (⟨S8x512x14x14, .f32⟩ : BufTy).Contents (Elt F)),
    binary main_arg3 main_v1085 main_v1086 (mulf : (⟨S8x512x14x14, .f32⟩ : BufTy).Contents (Elt F) → (⟨S8x512x14x14, .f32⟩ : BufTy).Contents (Elt F) → (⟨S8x512x14x14, .f32⟩ : BufTy).Contents (Elt F)),
    nullary main_cst_259 (constant S_ .f32 0x00000000#32),
    binary main_v1086 main_cst_259 main_v1087 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1088 ((extractStridedSlice S8x512x14x14 ![0, 0, 1, 6] · slices_S8x512x22x22_S8x512x14x14_0_0_1_6) : (⟨S8x512x22x22, .f32⟩ : BufTy).Contents (Elt F) → (⟨S8x512x14x14, .f32⟩ : BufTy).Contents (Elt F)),
    binary main_arg3 main_v1088 main_v1089 (mulf : (⟨S8x512x14x14, .f32⟩ : BufTy).Contents (Elt F) → (⟨S8x512x14x14, .f32⟩ : BufTy).Contents (Elt F) → (⟨S8x512x14x14, .f32⟩ : BufTy).Contents (Elt F)),
    nullary main_cst_260 (constant S_ .f32 0x00000000#32),
    binary main_v1089 main_cst_260 main_v1090 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1091 ((extractStridedSlice S8x512x14x14 ![0, 0, 1, 7] · slices_S8x512x22x22_S8x512x14x14_0_0_1_7) : (⟨S8x512x22x22, .f32⟩ : BufTy).Contents (Elt F) → (⟨S8x512x14x14, .f32⟩ : BufTy).Contents (Elt F)),
    binary main_arg3 main_v1091 main_v1092 (mulf : (⟨S8x512x14x14, .f32⟩ : BufTy).Contents (Elt F) → (⟨S8x512x14x14, .f32⟩ : BufTy).Contents (Elt F) → (⟨S8x512x14x14, .f32⟩ : BufTy).Contents (Elt F)),
    nullary main_cst_261 (constant S_ .f32 0x00000000#32),
    binary main_v1092 main_cst_261 main_v1093 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1094 ((extractStridedSlice S8x512x14x14 ![0, 0, 1, 8] · slices_S8x512x22x22_S8x512x14x14_0_0_1_8) : (⟨S8x512x22x22, .f32⟩ : BufTy).Contents (Elt F) → (⟨S8x512x14x14, .f32⟩ : BufTy).Contents (Elt F)),
    binary main_arg3 main_v1094 main_v1095 (mulf : (⟨S8x512x14x14, .f32⟩ : BufTy).Contents (Elt F) → (⟨S8x512x14x14, .f32⟩ : BufTy).Contents (Elt F) → (⟨S8x512x14x14, .f32⟩ : BufTy).Contents (Elt F)),
    nullary main_cst_262 (constant S_ .f32 0x00000000#32),
    binary main_v1095 main_cst_262 main_v1096 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1072 main_v1097 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1075 main_v1098 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1078 main_v1099 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1081 main_v1100 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1084 main_v1101 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1087 main_v1102 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1090 main_v1103 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1093 main_v1104 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1096 main_v1105 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1097, main_v1098, main_v1099, main_v1100, main_v1101, main_v1102, main_v1103, main_v1104, main_v1105] main_v1106 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR2 : List (HloOp τ sig (Elt F)) :=
  [ unary main_v1032 main_v1107 ((extractStridedSlice S8x512x14x14 ![0, 0, 2, 0] · slices_S8x512x22x22_S8x512x14x14_0_0_2_0) : (⟨S8x512x22x22, .f32⟩ : BufTy).Contents (Elt F) → (⟨S8x512x14x14, .f32⟩ : BufTy).Contents (Elt F)),
    binary main_arg3 main_v1107 main_v1108 (mulf : (⟨S8x512x14x14, .f32⟩ : BufTy).Contents (Elt F) → (⟨S8x512x14x14, .f32⟩ : BufTy).Contents (Elt F) → (⟨S8x512x14x14, .f32⟩ : BufTy).Contents (Elt F)),
    nullary main_cst_263 (constant S_ .f32 0x00000000#32),
    binary main_v1108 main_cst_263 main_v1109 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1110 ((extractStridedSlice S8x512x14x14 ![0, 0, 2, 1] · slices_S8x512x22x22_S8x512x14x14_0_0_2_1) : (⟨S8x512x22x22, .f32⟩ : BufTy).Contents (Elt F) → (⟨S8x512x14x14, .f32⟩ : BufTy).Contents (Elt F)),
    binary main_arg3 main_v1110 main_v1111 (mulf : (⟨S8x512x14x14, .f32⟩ : BufTy).Contents (Elt F) → (⟨S8x512x14x14, .f32⟩ : BufTy).Contents (Elt F) → (⟨S8x512x14x14, .f32⟩ : BufTy).Contents (Elt F)),
    nullary main_cst_264 (constant S_ .f32 0x00000000#32),
    binary main_v1111 main_cst_264 main_v1112 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1113 ((extractStridedSlice S8x512x14x14 ![0, 0, 2, 2] · slices_S8x512x22x22_S8x512x14x14_0_0_2_2) : (⟨S8x512x22x22, .f32⟩ : BufTy).Contents (Elt F) → (⟨S8x512x14x14, .f32⟩ : BufTy).Contents (Elt F)),
    binary main_arg3 main_v1113 main_v1114 (mulf : (⟨S8x512x14x14, .f32⟩ : BufTy).Contents (Elt F) → (⟨S8x512x14x14, .f32⟩ : BufTy).Contents (Elt F) → (⟨S8x512x14x14, .f32⟩ : BufTy).Contents (Elt F)),
    nullary main_cst_265 (constant S_ .f32 0x00000000#32),
    binary main_v1114 main_cst_265 main_v1115 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1116 ((extractStridedSlice S8x512x14x14 ![0, 0, 2, 3] · slices_S8x512x22x22_S8x512x14x14_0_0_2_3) : (⟨S8x512x22x22, .f32⟩ : BufTy).Contents (Elt F) → (⟨S8x512x14x14, .f32⟩ : BufTy).Contents (Elt F)),
    binary main_arg3 main_v1116 main_v1117 (mulf : (⟨S8x512x14x14, .f32⟩ : BufTy).Contents (Elt F) → (⟨S8x512x14x14, .f32⟩ : BufTy).Contents (Elt F) → (⟨S8x512x14x14, .f32⟩ : BufTy).Contents (Elt F)),
    nullary main_cst_266 (constant S_ .f32 0x00000000#32),
    binary main_v1117 main_cst_266 main_v1118 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1119 ((extractStridedSlice S8x512x14x14 ![0, 0, 2, 4] · slices_S8x512x22x22_S8x512x14x14_0_0_2_4) : (⟨S8x512x22x22, .f32⟩ : BufTy).Contents (Elt F) → (⟨S8x512x14x14, .f32⟩ : BufTy).Contents (Elt F)),
    binary main_arg3 main_v1119 main_v1120 (mulf : (⟨S8x512x14x14, .f32⟩ : BufTy).Contents (Elt F) → (⟨S8x512x14x14, .f32⟩ : BufTy).Contents (Elt F) → (⟨S8x512x14x14, .f32⟩ : BufTy).Contents (Elt F)),
    nullary main_cst_267 (constant S_ .f32 0x00000000#32),
    binary main_v1120 main_cst_267 main_v1121 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1122 ((extractStridedSlice S8x512x14x14 ![0, 0, 2, 5] · slices_S8x512x22x22_S8x512x14x14_0_0_2_5) : (⟨S8x512x22x22, .f32⟩ : BufTy).Contents (Elt F) → (⟨S8x512x14x14, .f32⟩ : BufTy).Contents (Elt F)),
    binary main_arg3 main_v1122 main_v1123 (mulf : (⟨S8x512x14x14, .f32⟩ : BufTy).Contents (Elt F) → (⟨S8x512x14x14, .f32⟩ : BufTy).Contents (Elt F) → (⟨S8x512x14x14, .f32⟩ : BufTy).Contents (Elt F)),
    nullary main_cst_268 (constant S_ .f32 0x00000000#32),
    binary main_v1123 main_cst_268 main_v1124 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1125 ((extractStridedSlice S8x512x14x14 ![0, 0, 2, 6] · slices_S8x512x22x22_S8x512x14x14_0_0_2_6) : (⟨S8x512x22x22, .f32⟩ : BufTy).Contents (Elt F) → (⟨S8x512x14x14, .f32⟩ : BufTy).Contents (Elt F)),
    binary main_arg3 main_v1125 main_v1126 (mulf : (⟨S8x512x14x14, .f32⟩ : BufTy).Contents (Elt F) → (⟨S8x512x14x14, .f32⟩ : BufTy).Contents (Elt F) → (⟨S8x512x14x14, .f32⟩ : BufTy).Contents (Elt F)),
    nullary main_cst_269 (constant S_ .f32 0x00000000#32),
    binary main_v1126 main_cst_269 main_v1127 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1128 ((extractStridedSlice S8x512x14x14 ![0, 0, 2, 7] · slices_S8x512x22x22_S8x512x14x14_0_0_2_7) : (⟨S8x512x22x22, .f32⟩ : BufTy).Contents (Elt F) → (⟨S8x512x14x14, .f32⟩ : BufTy).Contents (Elt F)),
    binary main_arg3 main_v1128 main_v1129 (mulf : (⟨S8x512x14x14, .f32⟩ : BufTy).Contents (Elt F) → (⟨S8x512x14x14, .f32⟩ : BufTy).Contents (Elt F) → (⟨S8x512x14x14, .f32⟩ : BufTy).Contents (Elt F)),
    nullary main_cst_270 (constant S_ .f32 0x00000000#32),
    binary main_v1129 main_cst_270 main_v1130 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1131 ((extractStridedSlice S8x512x14x14 ![0, 0, 2, 8] · slices_S8x512x22x22_S8x512x14x14_0_0_2_8) : (⟨S8x512x22x22, .f32⟩ : BufTy).Contents (Elt F) → (⟨S8x512x14x14, .f32⟩ : BufTy).Contents (Elt F)),
    binary main_arg3 main_v1131 main_v1132 (mulf : (⟨S8x512x14x14, .f32⟩ : BufTy).Contents (Elt F) → (⟨S8x512x14x14, .f32⟩ : BufTy).Contents (Elt F) → (⟨S8x512x14x14, .f32⟩ : BufTy).Contents (Elt F)),
    nullary main_cst_271 (constant S_ .f32 0x00000000#32),
    binary main_v1132 main_cst_271 main_v1133 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1109 main_v1134 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1112 main_v1135 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1115 main_v1136 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1118 main_v1137 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1121 main_v1138 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1124 main_v1139 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1127 main_v1140 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1130 main_v1141 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1133 main_v1142 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1134, main_v1135, main_v1136, main_v1137, main_v1138, main_v1139, main_v1140, main_v1141, main_v1142] main_v1143 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR3 : List (HloOp τ sig (Elt F)) :=
  [ unary main_v1032 main_v1144 ((extractStridedSlice S8x512x14x14 ![0, 0, 3, 0] · slices_S8x512x22x22_S8x512x14x14_0_0_3_0) : (⟨S8x512x22x22, .f32⟩ : BufTy).Contents (Elt F) → (⟨S8x512x14x14, .f32⟩ : BufTy).Contents (Elt F)),
    binary main_arg3 main_v1144 main_v1145 (mulf : (⟨S8x512x14x14, .f32⟩ : BufTy).Contents (Elt F) → (⟨S8x512x14x14, .f32⟩ : BufTy).Contents (Elt F) → (⟨S8x512x14x14, .f32⟩ : BufTy).Contents (Elt F)),
    nullary main_cst_272 (constant S_ .f32 0x00000000#32),
    binary main_v1145 main_cst_272 main_v1146 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1147 ((extractStridedSlice S8x512x14x14 ![0, 0, 3, 1] · slices_S8x512x22x22_S8x512x14x14_0_0_3_1) : (⟨S8x512x22x22, .f32⟩ : BufTy).Contents (Elt F) → (⟨S8x512x14x14, .f32⟩ : BufTy).Contents (Elt F)),
    binary main_arg3 main_v1147 main_v1148 (mulf : (⟨S8x512x14x14, .f32⟩ : BufTy).Contents (Elt F) → (⟨S8x512x14x14, .f32⟩ : BufTy).Contents (Elt F) → (⟨S8x512x14x14, .f32⟩ : BufTy).Contents (Elt F)),
    nullary main_cst_273 (constant S_ .f32 0x00000000#32),
    binary main_v1148 main_cst_273 main_v1149 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1150 ((extractStridedSlice S8x512x14x14 ![0, 0, 3, 2] · slices_S8x512x22x22_S8x512x14x14_0_0_3_2) : (⟨S8x512x22x22, .f32⟩ : BufTy).Contents (Elt F) → (⟨S8x512x14x14, .f32⟩ : BufTy).Contents (Elt F)),
    binary main_arg3 main_v1150 main_v1151 (mulf : (⟨S8x512x14x14, .f32⟩ : BufTy).Contents (Elt F) → (⟨S8x512x14x14, .f32⟩ : BufTy).Contents (Elt F) → (⟨S8x512x14x14, .f32⟩ : BufTy).Contents (Elt F)),
    nullary main_cst_274 (constant S_ .f32 0x00000000#32),
    binary main_v1151 main_cst_274 main_v1152 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1153 ((extractStridedSlice S8x512x14x14 ![0, 0, 3, 3] · slices_S8x512x22x22_S8x512x14x14_0_0_3_3) : (⟨S8x512x22x22, .f32⟩ : BufTy).Contents (Elt F) → (⟨S8x512x14x14, .f32⟩ : BufTy).Contents (Elt F)),
    binary main_arg3 main_v1153 main_v1154 (mulf : (⟨S8x512x14x14, .f32⟩ : BufTy).Contents (Elt F) → (⟨S8x512x14x14, .f32⟩ : BufTy).Contents (Elt F) → (⟨S8x512x14x14, .f32⟩ : BufTy).Contents (Elt F)),
    nullary main_cst_275 (constant S_ .f32 0x00000000#32),
    binary main_v1154 main_cst_275 main_v1155 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1156 ((extractStridedSlice S8x512x14x14 ![0, 0, 3, 4] · slices_S8x512x22x22_S8x512x14x14_0_0_3_4) : (⟨S8x512x22x22, .f32⟩ : BufTy).Contents (Elt F) → (⟨S8x512x14x14, .f32⟩ : BufTy).Contents (Elt F)),
    binary main_arg3 main_v1156 main_v1157 (mulf : (⟨S8x512x14x14, .f32⟩ : BufTy).Contents (Elt F) → (⟨S8x512x14x14, .f32⟩ : BufTy).Contents (Elt F) → (⟨S8x512x14x14, .f32⟩ : BufTy).Contents (Elt F)),
    nullary main_cst_276 (constant S_ .f32 0x00000000#32),
    binary main_v1157 main_cst_276 main_v1158 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1159 ((extractStridedSlice S8x512x14x14 ![0, 0, 3, 5] · slices_S8x512x22x22_S8x512x14x14_0_0_3_5) : (⟨S8x512x22x22, .f32⟩ : BufTy).Contents (Elt F) → (⟨S8x512x14x14, .f32⟩ : BufTy).Contents (Elt F)),
    binary main_arg3 main_v1159 main_v1160 (mulf : (⟨S8x512x14x14, .f32⟩ : BufTy).Contents (Elt F) → (⟨S8x512x14x14, .f32⟩ : BufTy).Contents (Elt F) → (⟨S8x512x14x14, .f32⟩ : BufTy).Contents (Elt F)),
    nullary main_cst_277 (constant S_ .f32 0x00000000#32),
    binary main_v1160 main_cst_277 main_v1161 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1162 ((extractStridedSlice S8x512x14x14 ![0, 0, 3, 6] · slices_S8x512x22x22_S8x512x14x14_0_0_3_6) : (⟨S8x512x22x22, .f32⟩ : BufTy).Contents (Elt F) → (⟨S8x512x14x14, .f32⟩ : BufTy).Contents (Elt F)),
    binary main_arg3 main_v1162 main_v1163 (mulf : (⟨S8x512x14x14, .f32⟩ : BufTy).Contents (Elt F) → (⟨S8x512x14x14, .f32⟩ : BufTy).Contents (Elt F) → (⟨S8x512x14x14, .f32⟩ : BufTy).Contents (Elt F)),
    nullary main_cst_278 (constant S_ .f32 0x00000000#32),
    binary main_v1163 main_cst_278 main_v1164 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1165 ((extractStridedSlice S8x512x14x14 ![0, 0, 3, 7] · slices_S8x512x22x22_S8x512x14x14_0_0_3_7) : (⟨S8x512x22x22, .f32⟩ : BufTy).Contents (Elt F) → (⟨S8x512x14x14, .f32⟩ : BufTy).Contents (Elt F)),
    binary main_arg3 main_v1165 main_v1166 (mulf : (⟨S8x512x14x14, .f32⟩ : BufTy).Contents (Elt F) → (⟨S8x512x14x14, .f32⟩ : BufTy).Contents (Elt F) → (⟨S8x512x14x14, .f32⟩ : BufTy).Contents (Elt F)),
    nullary main_cst_279 (constant S_ .f32 0x00000000#32),
    binary main_v1166 main_cst_279 main_v1167 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1168 ((extractStridedSlice S8x512x14x14 ![0, 0, 3, 8] · slices_S8x512x22x22_S8x512x14x14_0_0_3_8) : (⟨S8x512x22x22, .f32⟩ : BufTy).Contents (Elt F) → (⟨S8x512x14x14, .f32⟩ : BufTy).Contents (Elt F)),
    binary main_arg3 main_v1168 main_v1169 (mulf : (⟨S8x512x14x14, .f32⟩ : BufTy).Contents (Elt F) → (⟨S8x512x14x14, .f32⟩ : BufTy).Contents (Elt F) → (⟨S8x512x14x14, .f32⟩ : BufTy).Contents (Elt F)),
    nullary main_cst_280 (constant S_ .f32 0x00000000#32),
    binary main_v1169 main_cst_280 main_v1170 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1146 main_v1171 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1149 main_v1172 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1152 main_v1173 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1155 main_v1174 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1158 main_v1175 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1161 main_v1176 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1164 main_v1177 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1167 main_v1178 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1170 main_v1179 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1171, main_v1172, main_v1173, main_v1174, main_v1175, main_v1176, main_v1177, main_v1178, main_v1179] main_v1180 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR4 : List (HloOp τ sig (Elt F)) :=
  [ unary main_v1032 main_v1181 ((extractStridedSlice S8x512x14x14 ![0, 0, 4, 0] · slices_S8x512x22x22_S8x512x14x14_0_0_4_0) : (⟨S8x512x22x22, .f32⟩ : BufTy).Contents (Elt F) → (⟨S8x512x14x14, .f32⟩ : BufTy).Contents (Elt F)),
    binary main_arg3 main_v1181 main_v1182 (mulf : (⟨S8x512x14x14, .f32⟩ : BufTy).Contents (Elt F) → (⟨S8x512x14x14, .f32⟩ : BufTy).Contents (Elt F) → (⟨S8x512x14x14, .f32⟩ : BufTy).Contents (Elt F)),
    nullary main_cst_281 (constant S_ .f32 0x00000000#32),
    binary main_v1182 main_cst_281 main_v1183 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1184 ((extractStridedSlice S8x512x14x14 ![0, 0, 4, 1] · slices_S8x512x22x22_S8x512x14x14_0_0_4_1) : (⟨S8x512x22x22, .f32⟩ : BufTy).Contents (Elt F) → (⟨S8x512x14x14, .f32⟩ : BufTy).Contents (Elt F)),
    binary main_arg3 main_v1184 main_v1185 (mulf : (⟨S8x512x14x14, .f32⟩ : BufTy).Contents (Elt F) → (⟨S8x512x14x14, .f32⟩ : BufTy).Contents (Elt F) → (⟨S8x512x14x14, .f32⟩ : BufTy).Contents (Elt F)),
    nullary main_cst_282 (constant S_ .f32 0x00000000#32),
    binary main_v1185 main_cst_282 main_v1186 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1187 ((extractStridedSlice S8x512x14x14 ![0, 0, 4, 2] · slices_S8x512x22x22_S8x512x14x14_0_0_4_2) : (⟨S8x512x22x22, .f32⟩ : BufTy).Contents (Elt F) → (⟨S8x512x14x14, .f32⟩ : BufTy).Contents (Elt F)),
    binary main_arg3 main_v1187 main_v1188 (mulf : (⟨S8x512x14x14, .f32⟩ : BufTy).Contents (Elt F) → (⟨S8x512x14x14, .f32⟩ : BufTy).Contents (Elt F) → (⟨S8x512x14x14, .f32⟩ : BufTy).Contents (Elt F)),
    nullary main_cst_283 (constant S_ .f32 0x00000000#32),
    binary main_v1188 main_cst_283 main_v1189 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1190 ((extractStridedSlice S8x512x14x14 ![0, 0, 4, 3] · slices_S8x512x22x22_S8x512x14x14_0_0_4_3) : (⟨S8x512x22x22, .f32⟩ : BufTy).Contents (Elt F) → (⟨S8x512x14x14, .f32⟩ : BufTy).Contents (Elt F)),
    binary main_arg3 main_v1190 main_v1191 (mulf : (⟨S8x512x14x14, .f32⟩ : BufTy).Contents (Elt F) → (⟨S8x512x14x14, .f32⟩ : BufTy).Contents (Elt F) → (⟨S8x512x14x14, .f32⟩ : BufTy).Contents (Elt F)),
    nullary main_cst_284 (constant S_ .f32 0x00000000#32),
    binary main_v1191 main_cst_284 main_v1192 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1193 ((extractStridedSlice S8x512x14x14 ![0, 0, 4, 4] · slices_S8x512x22x22_S8x512x14x14_0_0_4_4) : (⟨S8x512x22x22, .f32⟩ : BufTy).Contents (Elt F) → (⟨S8x512x14x14, .f32⟩ : BufTy).Contents (Elt F)),
    binary main_arg3 main_v1193 main_v1194 (mulf : (⟨S8x512x14x14, .f32⟩ : BufTy).Contents (Elt F) → (⟨S8x512x14x14, .f32⟩ : BufTy).Contents (Elt F) → (⟨S8x512x14x14, .f32⟩ : BufTy).Contents (Elt F)),
    nullary main_cst_285 (constant S_ .f32 0x00000000#32),
    binary main_v1194 main_cst_285 main_v1195 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1196 ((extractStridedSlice S8x512x14x14 ![0, 0, 4, 5] · slices_S8x512x22x22_S8x512x14x14_0_0_4_5) : (⟨S8x512x22x22, .f32⟩ : BufTy).Contents (Elt F) → (⟨S8x512x14x14, .f32⟩ : BufTy).Contents (Elt F)),
    binary main_arg3 main_v1196 main_v1197 (mulf : (⟨S8x512x14x14, .f32⟩ : BufTy).Contents (Elt F) → (⟨S8x512x14x14, .f32⟩ : BufTy).Contents (Elt F) → (⟨S8x512x14x14, .f32⟩ : BufTy).Contents (Elt F)),
    nullary main_cst_286 (constant S_ .f32 0x00000000#32),
    binary main_v1197 main_cst_286 main_v1198 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1199 ((extractStridedSlice S8x512x14x14 ![0, 0, 4, 6] · slices_S8x512x22x22_S8x512x14x14_0_0_4_6) : (⟨S8x512x22x22, .f32⟩ : BufTy).Contents (Elt F) → (⟨S8x512x14x14, .f32⟩ : BufTy).Contents (Elt F)),
    binary main_arg3 main_v1199 main_v1200 (mulf : (⟨S8x512x14x14, .f32⟩ : BufTy).Contents (Elt F) → (⟨S8x512x14x14, .f32⟩ : BufTy).Contents (Elt F) → (⟨S8x512x14x14, .f32⟩ : BufTy).Contents (Elt F)),
    nullary main_cst_287 (constant S_ .f32 0x00000000#32),
    binary main_v1200 main_cst_287 main_v1201 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1202 ((extractStridedSlice S8x512x14x14 ![0, 0, 4, 7] · slices_S8x512x22x22_S8x512x14x14_0_0_4_7) : (⟨S8x512x22x22, .f32⟩ : BufTy).Contents (Elt F) → (⟨S8x512x14x14, .f32⟩ : BufTy).Contents (Elt F)),
    binary main_arg3 main_v1202 main_v1203 (mulf : (⟨S8x512x14x14, .f32⟩ : BufTy).Contents (Elt F) → (⟨S8x512x14x14, .f32⟩ : BufTy).Contents (Elt F) → (⟨S8x512x14x14, .f32⟩ : BufTy).Contents (Elt F)),
    nullary main_cst_288 (constant S_ .f32 0x00000000#32),
    binary main_v1203 main_cst_288 main_v1204 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1205 ((extractStridedSlice S8x512x14x14 ![0, 0, 4, 8] · slices_S8x512x22x22_S8x512x14x14_0_0_4_8) : (⟨S8x512x22x22, .f32⟩ : BufTy).Contents (Elt F) → (⟨S8x512x14x14, .f32⟩ : BufTy).Contents (Elt F)),
    binary main_arg3 main_v1205 main_v1206 (mulf : (⟨S8x512x14x14, .f32⟩ : BufTy).Contents (Elt F) → (⟨S8x512x14x14, .f32⟩ : BufTy).Contents (Elt F) → (⟨S8x512x14x14, .f32⟩ : BufTy).Contents (Elt F)),
    nullary main_cst_289 (constant S_ .f32 0x00000000#32),
    binary main_v1206 main_cst_289 main_v1207 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1183 main_v1208 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1186 main_v1209 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1189 main_v1210 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1192 main_v1211 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1195 main_v1212 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1198 main_v1213 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1201 main_v1214 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1204 main_v1215 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1207 main_v1216 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1208, main_v1209, main_v1210, main_v1211, main_v1212, main_v1213, main_v1214, main_v1215, main_v1216] main_v1217 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR5 : List (HloOp τ sig (Elt F)) :=
  [ unary main_v1032 main_v1218 ((extractStridedSlice S8x512x14x14 ![0, 0, 5, 0] · slices_S8x512x22x22_S8x512x14x14_0_0_5_0) : (⟨S8x512x22x22, .f32⟩ : BufTy).Contents (Elt F) → (⟨S8x512x14x14, .f32⟩ : BufTy).Contents (Elt F)),
    binary main_arg3 main_v1218 main_v1219 (mulf : (⟨S8x512x14x14, .f32⟩ : BufTy).Contents (Elt F) → (⟨S8x512x14x14, .f32⟩ : BufTy).Contents (Elt F) → (⟨S8x512x14x14, .f32⟩ : BufTy).Contents (Elt F)),
    nullary main_cst_290 (constant S_ .f32 0x00000000#32),
    binary main_v1219 main_cst_290 main_v1220 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1221 ((extractStridedSlice S8x512x14x14 ![0, 0, 5, 1] · slices_S8x512x22x22_S8x512x14x14_0_0_5_1) : (⟨S8x512x22x22, .f32⟩ : BufTy).Contents (Elt F) → (⟨S8x512x14x14, .f32⟩ : BufTy).Contents (Elt F)),
    binary main_arg3 main_v1221 main_v1222 (mulf : (⟨S8x512x14x14, .f32⟩ : BufTy).Contents (Elt F) → (⟨S8x512x14x14, .f32⟩ : BufTy).Contents (Elt F) → (⟨S8x512x14x14, .f32⟩ : BufTy).Contents (Elt F)),
    nullary main_cst_291 (constant S_ .f32 0x00000000#32),
    binary main_v1222 main_cst_291 main_v1223 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1224 ((extractStridedSlice S8x512x14x14 ![0, 0, 5, 2] · slices_S8x512x22x22_S8x512x14x14_0_0_5_2) : (⟨S8x512x22x22, .f32⟩ : BufTy).Contents (Elt F) → (⟨S8x512x14x14, .f32⟩ : BufTy).Contents (Elt F)),
    binary main_arg3 main_v1224 main_v1225 (mulf : (⟨S8x512x14x14, .f32⟩ : BufTy).Contents (Elt F) → (⟨S8x512x14x14, .f32⟩ : BufTy).Contents (Elt F) → (⟨S8x512x14x14, .f32⟩ : BufTy).Contents (Elt F)),
    nullary main_cst_292 (constant S_ .f32 0x00000000#32),
    binary main_v1225 main_cst_292 main_v1226 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1227 ((extractStridedSlice S8x512x14x14 ![0, 0, 5, 3] · slices_S8x512x22x22_S8x512x14x14_0_0_5_3) : (⟨S8x512x22x22, .f32⟩ : BufTy).Contents (Elt F) → (⟨S8x512x14x14, .f32⟩ : BufTy).Contents (Elt F)),
    binary main_arg3 main_v1227 main_v1228 (mulf : (⟨S8x512x14x14, .f32⟩ : BufTy).Contents (Elt F) → (⟨S8x512x14x14, .f32⟩ : BufTy).Contents (Elt F) → (⟨S8x512x14x14, .f32⟩ : BufTy).Contents (Elt F)),
    nullary main_cst_293 (constant S_ .f32 0x00000000#32),
    binary main_v1228 main_cst_293 main_v1229 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1230 ((extractStridedSlice S8x512x14x14 ![0, 0, 5, 4] · slices_S8x512x22x22_S8x512x14x14_0_0_5_4) : (⟨S8x512x22x22, .f32⟩ : BufTy).Contents (Elt F) → (⟨S8x512x14x14, .f32⟩ : BufTy).Contents (Elt F)),
    binary main_arg3 main_v1230 main_v1231 (mulf : (⟨S8x512x14x14, .f32⟩ : BufTy).Contents (Elt F) → (⟨S8x512x14x14, .f32⟩ : BufTy).Contents (Elt F) → (⟨S8x512x14x14, .f32⟩ : BufTy).Contents (Elt F)),
    nullary main_cst_294 (constant S_ .f32 0x00000000#32),
    binary main_v1231 main_cst_294 main_v1232 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1233 ((extractStridedSlice S8x512x14x14 ![0, 0, 5, 5] · slices_S8x512x22x22_S8x512x14x14_0_0_5_5) : (⟨S8x512x22x22, .f32⟩ : BufTy).Contents (Elt F) → (⟨S8x512x14x14, .f32⟩ : BufTy).Contents (Elt F)),
    binary main_arg3 main_v1233 main_v1234 (mulf : (⟨S8x512x14x14, .f32⟩ : BufTy).Contents (Elt F) → (⟨S8x512x14x14, .f32⟩ : BufTy).Contents (Elt F) → (⟨S8x512x14x14, .f32⟩ : BufTy).Contents (Elt F)),
    nullary main_cst_295 (constant S_ .f32 0x00000000#32),
    binary main_v1234 main_cst_295 main_v1235 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1236 ((extractStridedSlice S8x512x14x14 ![0, 0, 5, 6] · slices_S8x512x22x22_S8x512x14x14_0_0_5_6) : (⟨S8x512x22x22, .f32⟩ : BufTy).Contents (Elt F) → (⟨S8x512x14x14, .f32⟩ : BufTy).Contents (Elt F)),
    binary main_arg3 main_v1236 main_v1237 (mulf : (⟨S8x512x14x14, .f32⟩ : BufTy).Contents (Elt F) → (⟨S8x512x14x14, .f32⟩ : BufTy).Contents (Elt F) → (⟨S8x512x14x14, .f32⟩ : BufTy).Contents (Elt F)),
    nullary main_cst_296 (constant S_ .f32 0x00000000#32),
    binary main_v1237 main_cst_296 main_v1238 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1239 ((extractStridedSlice S8x512x14x14 ![0, 0, 5, 7] · slices_S8x512x22x22_S8x512x14x14_0_0_5_7) : (⟨S8x512x22x22, .f32⟩ : BufTy).Contents (Elt F) → (⟨S8x512x14x14, .f32⟩ : BufTy).Contents (Elt F)),
    binary main_arg3 main_v1239 main_v1240 (mulf : (⟨S8x512x14x14, .f32⟩ : BufTy).Contents (Elt F) → (⟨S8x512x14x14, .f32⟩ : BufTy).Contents (Elt F) → (⟨S8x512x14x14, .f32⟩ : BufTy).Contents (Elt F)),
    nullary main_cst_297 (constant S_ .f32 0x00000000#32),
    binary main_v1240 main_cst_297 main_v1241 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1242 ((extractStridedSlice S8x512x14x14 ![0, 0, 5, 8] · slices_S8x512x22x22_S8x512x14x14_0_0_5_8) : (⟨S8x512x22x22, .f32⟩ : BufTy).Contents (Elt F) → (⟨S8x512x14x14, .f32⟩ : BufTy).Contents (Elt F)),
    binary main_arg3 main_v1242 main_v1243 (mulf : (⟨S8x512x14x14, .f32⟩ : BufTy).Contents (Elt F) → (⟨S8x512x14x14, .f32⟩ : BufTy).Contents (Elt F) → (⟨S8x512x14x14, .f32⟩ : BufTy).Contents (Elt F)),
    nullary main_cst_298 (constant S_ .f32 0x00000000#32),
    binary main_v1243 main_cst_298 main_v1244 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1220 main_v1245 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1223 main_v1246 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1226 main_v1247 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1229 main_v1248 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1232 main_v1249 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1235 main_v1250 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1238 main_v1251 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1241 main_v1252 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1244 main_v1253 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1245, main_v1246, main_v1247, main_v1248, main_v1249, main_v1250, main_v1251, main_v1252, main_v1253] main_v1254 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR6 : List (HloOp τ sig (Elt F)) :=
  [ unary main_v1032 main_v1255 ((extractStridedSlice S8x512x14x14 ![0, 0, 6, 0] · slices_S8x512x22x22_S8x512x14x14_0_0_6_0) : (⟨S8x512x22x22, .f32⟩ : BufTy).Contents (Elt F) → (⟨S8x512x14x14, .f32⟩ : BufTy).Contents (Elt F)),
    binary main_arg3 main_v1255 main_v1256 (mulf : (⟨S8x512x14x14, .f32⟩ : BufTy).Contents (Elt F) → (⟨S8x512x14x14, .f32⟩ : BufTy).Contents (Elt F) → (⟨S8x512x14x14, .f32⟩ : BufTy).Contents (Elt F)),
    nullary main_cst_299 (constant S_ .f32 0x00000000#32),
    binary main_v1256 main_cst_299 main_v1257 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1258 ((extractStridedSlice S8x512x14x14 ![0, 0, 6, 1] · slices_S8x512x22x22_S8x512x14x14_0_0_6_1) : (⟨S8x512x22x22, .f32⟩ : BufTy).Contents (Elt F) → (⟨S8x512x14x14, .f32⟩ : BufTy).Contents (Elt F)),
    binary main_arg3 main_v1258 main_v1259 (mulf : (⟨S8x512x14x14, .f32⟩ : BufTy).Contents (Elt F) → (⟨S8x512x14x14, .f32⟩ : BufTy).Contents (Elt F) → (⟨S8x512x14x14, .f32⟩ : BufTy).Contents (Elt F)),
    nullary main_cst_300 (constant S_ .f32 0x00000000#32),
    binary main_v1259 main_cst_300 main_v1260 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1261 ((extractStridedSlice S8x512x14x14 ![0, 0, 6, 2] · slices_S8x512x22x22_S8x512x14x14_0_0_6_2) : (⟨S8x512x22x22, .f32⟩ : BufTy).Contents (Elt F) → (⟨S8x512x14x14, .f32⟩ : BufTy).Contents (Elt F)),
    binary main_arg3 main_v1261 main_v1262 (mulf : (⟨S8x512x14x14, .f32⟩ : BufTy).Contents (Elt F) → (⟨S8x512x14x14, .f32⟩ : BufTy).Contents (Elt F) → (⟨S8x512x14x14, .f32⟩ : BufTy).Contents (Elt F)),
    nullary main_cst_301 (constant S_ .f32 0x00000000#32),
    binary main_v1262 main_cst_301 main_v1263 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1264 ((extractStridedSlice S8x512x14x14 ![0, 0, 6, 3] · slices_S8x512x22x22_S8x512x14x14_0_0_6_3) : (⟨S8x512x22x22, .f32⟩ : BufTy).Contents (Elt F) → (⟨S8x512x14x14, .f32⟩ : BufTy).Contents (Elt F)),
    binary main_arg3 main_v1264 main_v1265 (mulf : (⟨S8x512x14x14, .f32⟩ : BufTy).Contents (Elt F) → (⟨S8x512x14x14, .f32⟩ : BufTy).Contents (Elt F) → (⟨S8x512x14x14, .f32⟩ : BufTy).Contents (Elt F)),
    nullary main_cst_302 (constant S_ .f32 0x00000000#32),
    binary main_v1265 main_cst_302 main_v1266 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1267 ((extractStridedSlice S8x512x14x14 ![0, 0, 6, 4] · slices_S8x512x22x22_S8x512x14x14_0_0_6_4) : (⟨S8x512x22x22, .f32⟩ : BufTy).Contents (Elt F) → (⟨S8x512x14x14, .f32⟩ : BufTy).Contents (Elt F)),
    binary main_arg3 main_v1267 main_v1268 (mulf : (⟨S8x512x14x14, .f32⟩ : BufTy).Contents (Elt F) → (⟨S8x512x14x14, .f32⟩ : BufTy).Contents (Elt F) → (⟨S8x512x14x14, .f32⟩ : BufTy).Contents (Elt F)),
    nullary main_cst_303 (constant S_ .f32 0x00000000#32),
    binary main_v1268 main_cst_303 main_v1269 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1270 ((extractStridedSlice S8x512x14x14 ![0, 0, 6, 5] · slices_S8x512x22x22_S8x512x14x14_0_0_6_5) : (⟨S8x512x22x22, .f32⟩ : BufTy).Contents (Elt F) → (⟨S8x512x14x14, .f32⟩ : BufTy).Contents (Elt F)),
    binary main_arg3 main_v1270 main_v1271 (mulf : (⟨S8x512x14x14, .f32⟩ : BufTy).Contents (Elt F) → (⟨S8x512x14x14, .f32⟩ : BufTy).Contents (Elt F) → (⟨S8x512x14x14, .f32⟩ : BufTy).Contents (Elt F)),
    nullary main_cst_304 (constant S_ .f32 0x00000000#32),
    binary main_v1271 main_cst_304 main_v1272 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1273 ((extractStridedSlice S8x512x14x14 ![0, 0, 6, 6] · slices_S8x512x22x22_S8x512x14x14_0_0_6_6) : (⟨S8x512x22x22, .f32⟩ : BufTy).Contents (Elt F) → (⟨S8x512x14x14, .f32⟩ : BufTy).Contents (Elt F)),
    binary main_arg3 main_v1273 main_v1274 (mulf : (⟨S8x512x14x14, .f32⟩ : BufTy).Contents (Elt F) → (⟨S8x512x14x14, .f32⟩ : BufTy).Contents (Elt F) → (⟨S8x512x14x14, .f32⟩ : BufTy).Contents (Elt F)),
    nullary main_cst_305 (constant S_ .f32 0x00000000#32),
    binary main_v1274 main_cst_305 main_v1275 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1276 ((extractStridedSlice S8x512x14x14 ![0, 0, 6, 7] · slices_S8x512x22x22_S8x512x14x14_0_0_6_7) : (⟨S8x512x22x22, .f32⟩ : BufTy).Contents (Elt F) → (⟨S8x512x14x14, .f32⟩ : BufTy).Contents (Elt F)),
    binary main_arg3 main_v1276 main_v1277 (mulf : (⟨S8x512x14x14, .f32⟩ : BufTy).Contents (Elt F) → (⟨S8x512x14x14, .f32⟩ : BufTy).Contents (Elt F) → (⟨S8x512x14x14, .f32⟩ : BufTy).Contents (Elt F)),
    nullary main_cst_306 (constant S_ .f32 0x00000000#32),
    binary main_v1277 main_cst_306 main_v1278 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1279 ((extractStridedSlice S8x512x14x14 ![0, 0, 6, 8] · slices_S8x512x22x22_S8x512x14x14_0_0_6_8) : (⟨S8x512x22x22, .f32⟩ : BufTy).Contents (Elt F) → (⟨S8x512x14x14, .f32⟩ : BufTy).Contents (Elt F)),
    binary main_arg3 main_v1279 main_v1280 (mulf : (⟨S8x512x14x14, .f32⟩ : BufTy).Contents (Elt F) → (⟨S8x512x14x14, .f32⟩ : BufTy).Contents (Elt F) → (⟨S8x512x14x14, .f32⟩ : BufTy).Contents (Elt F)),
    nullary main_cst_307 (constant S_ .f32 0x00000000#32),
    binary main_v1280 main_cst_307 main_v1281 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1257 main_v1282 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1260 main_v1283 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1263 main_v1284 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1266 main_v1285 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1269 main_v1286 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1272 main_v1287 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1275 main_v1288 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1278 main_v1289 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1281 main_v1290 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1282, main_v1283, main_v1284, main_v1285, main_v1286, main_v1287, main_v1288, main_v1289, main_v1290] main_v1291 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR7 : List (HloOp τ sig (Elt F)) :=
  [ unary main_v1032 main_v1292 ((extractStridedSlice S8x512x14x14 ![0, 0, 7, 0] · slices_S8x512x22x22_S8x512x14x14_0_0_7_0) : (⟨S8x512x22x22, .f32⟩ : BufTy).Contents (Elt F) → (⟨S8x512x14x14, .f32⟩ : BufTy).Contents (Elt F)),
    binary main_arg3 main_v1292 main_v1293 (mulf : (⟨S8x512x14x14, .f32⟩ : BufTy).Contents (Elt F) → (⟨S8x512x14x14, .f32⟩ : BufTy).Contents (Elt F) → (⟨S8x512x14x14, .f32⟩ : BufTy).Contents (Elt F)),
    nullary main_cst_308 (constant S_ .f32 0x00000000#32),
    binary main_v1293 main_cst_308 main_v1294 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1295 ((extractStridedSlice S8x512x14x14 ![0, 0, 7, 1] · slices_S8x512x22x22_S8x512x14x14_0_0_7_1) : (⟨S8x512x22x22, .f32⟩ : BufTy).Contents (Elt F) → (⟨S8x512x14x14, .f32⟩ : BufTy).Contents (Elt F)),
    binary main_arg3 main_v1295 main_v1296 (mulf : (⟨S8x512x14x14, .f32⟩ : BufTy).Contents (Elt F) → (⟨S8x512x14x14, .f32⟩ : BufTy).Contents (Elt F) → (⟨S8x512x14x14, .f32⟩ : BufTy).Contents (Elt F)),
    nullary main_cst_309 (constant S_ .f32 0x00000000#32),
    binary main_v1296 main_cst_309 main_v1297 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1298 ((extractStridedSlice S8x512x14x14 ![0, 0, 7, 2] · slices_S8x512x22x22_S8x512x14x14_0_0_7_2) : (⟨S8x512x22x22, .f32⟩ : BufTy).Contents (Elt F) → (⟨S8x512x14x14, .f32⟩ : BufTy).Contents (Elt F)),
    binary main_arg3 main_v1298 main_v1299 (mulf : (⟨S8x512x14x14, .f32⟩ : BufTy).Contents (Elt F) → (⟨S8x512x14x14, .f32⟩ : BufTy).Contents (Elt F) → (⟨S8x512x14x14, .f32⟩ : BufTy).Contents (Elt F)),
    nullary main_cst_310 (constant S_ .f32 0x00000000#32),
    binary main_v1299 main_cst_310 main_v1300 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1301 ((extractStridedSlice S8x512x14x14 ![0, 0, 7, 3] · slices_S8x512x22x22_S8x512x14x14_0_0_7_3) : (⟨S8x512x22x22, .f32⟩ : BufTy).Contents (Elt F) → (⟨S8x512x14x14, .f32⟩ : BufTy).Contents (Elt F)),
    binary main_arg3 main_v1301 main_v1302 (mulf : (⟨S8x512x14x14, .f32⟩ : BufTy).Contents (Elt F) → (⟨S8x512x14x14, .f32⟩ : BufTy).Contents (Elt F) → (⟨S8x512x14x14, .f32⟩ : BufTy).Contents (Elt F)),
    nullary main_cst_311 (constant S_ .f32 0x00000000#32),
    binary main_v1302 main_cst_311 main_v1303 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1304 ((extractStridedSlice S8x512x14x14 ![0, 0, 7, 4] · slices_S8x512x22x22_S8x512x14x14_0_0_7_4) : (⟨S8x512x22x22, .f32⟩ : BufTy).Contents (Elt F) → (⟨S8x512x14x14, .f32⟩ : BufTy).Contents (Elt F)),
    binary main_arg3 main_v1304 main_v1305 (mulf : (⟨S8x512x14x14, .f32⟩ : BufTy).Contents (Elt F) → (⟨S8x512x14x14, .f32⟩ : BufTy).Contents (Elt F) → (⟨S8x512x14x14, .f32⟩ : BufTy).Contents (Elt F)),
    nullary main_cst_312 (constant S_ .f32 0x00000000#32),
    binary main_v1305 main_cst_312 main_v1306 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1307 ((extractStridedSlice S8x512x14x14 ![0, 0, 7, 5] · slices_S8x512x22x22_S8x512x14x14_0_0_7_5) : (⟨S8x512x22x22, .f32⟩ : BufTy).Contents (Elt F) → (⟨S8x512x14x14, .f32⟩ : BufTy).Contents (Elt F)),
    binary main_arg3 main_v1307 main_v1308 (mulf : (⟨S8x512x14x14, .f32⟩ : BufTy).Contents (Elt F) → (⟨S8x512x14x14, .f32⟩ : BufTy).Contents (Elt F) → (⟨S8x512x14x14, .f32⟩ : BufTy).Contents (Elt F)),
    nullary main_cst_313 (constant S_ .f32 0x00000000#32),
    binary main_v1308 main_cst_313 main_v1309 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1310 ((extractStridedSlice S8x512x14x14 ![0, 0, 7, 6] · slices_S8x512x22x22_S8x512x14x14_0_0_7_6) : (⟨S8x512x22x22, .f32⟩ : BufTy).Contents (Elt F) → (⟨S8x512x14x14, .f32⟩ : BufTy).Contents (Elt F)),
    binary main_arg3 main_v1310 main_v1311 (mulf : (⟨S8x512x14x14, .f32⟩ : BufTy).Contents (Elt F) → (⟨S8x512x14x14, .f32⟩ : BufTy).Contents (Elt F) → (⟨S8x512x14x14, .f32⟩ : BufTy).Contents (Elt F)),
    nullary main_cst_314 (constant S_ .f32 0x00000000#32),
    binary main_v1311 main_cst_314 main_v1312 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1313 ((extractStridedSlice S8x512x14x14 ![0, 0, 7, 7] · slices_S8x512x22x22_S8x512x14x14_0_0_7_7) : (⟨S8x512x22x22, .f32⟩ : BufTy).Contents (Elt F) → (⟨S8x512x14x14, .f32⟩ : BufTy).Contents (Elt F)),
    binary main_arg3 main_v1313 main_v1314 (mulf : (⟨S8x512x14x14, .f32⟩ : BufTy).Contents (Elt F) → (⟨S8x512x14x14, .f32⟩ : BufTy).Contents (Elt F) → (⟨S8x512x14x14, .f32⟩ : BufTy).Contents (Elt F)),
    nullary main_cst_315 (constant S_ .f32 0x00000000#32),
    binary main_v1314 main_cst_315 main_v1315 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1316 ((extractStridedSlice S8x512x14x14 ![0, 0, 7, 8] · slices_S8x512x22x22_S8x512x14x14_0_0_7_8) : (⟨S8x512x22x22, .f32⟩ : BufTy).Contents (Elt F) → (⟨S8x512x14x14, .f32⟩ : BufTy).Contents (Elt F)),
    binary main_arg3 main_v1316 main_v1317 (mulf : (⟨S8x512x14x14, .f32⟩ : BufTy).Contents (Elt F) → (⟨S8x512x14x14, .f32⟩ : BufTy).Contents (Elt F) → (⟨S8x512x14x14, .f32⟩ : BufTy).Contents (Elt F)),
    nullary main_cst_316 (constant S_ .f32 0x00000000#32),
    binary main_v1317 main_cst_316 main_v1318 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1294 main_v1319 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1297 main_v1320 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1300 main_v1321 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1303 main_v1322 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1306 main_v1323 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1309 main_v1324 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1312 main_v1325 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1315 main_v1326 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1318 main_v1327 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1319, main_v1320, main_v1321, main_v1322, main_v1323, main_v1324, main_v1325, main_v1326, main_v1327] main_v1328 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsR8 : List (HloOp τ sig (Elt F)) :=
  [ unary main_v1032 main_v1329 ((extractStridedSlice S8x512x14x14 ![0, 0, 8, 0] · slices_S8x512x22x22_S8x512x14x14_0_0_8_0) : (⟨S8x512x22x22, .f32⟩ : BufTy).Contents (Elt F) → (⟨S8x512x14x14, .f32⟩ : BufTy).Contents (Elt F)),
    binary main_arg3 main_v1329 main_v1330 (mulf : (⟨S8x512x14x14, .f32⟩ : BufTy).Contents (Elt F) → (⟨S8x512x14x14, .f32⟩ : BufTy).Contents (Elt F) → (⟨S8x512x14x14, .f32⟩ : BufTy).Contents (Elt F)),
    nullary main_cst_317 (constant S_ .f32 0x00000000#32),
    binary main_v1330 main_cst_317 main_v1331 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1332 ((extractStridedSlice S8x512x14x14 ![0, 0, 8, 1] · slices_S8x512x22x22_S8x512x14x14_0_0_8_1) : (⟨S8x512x22x22, .f32⟩ : BufTy).Contents (Elt F) → (⟨S8x512x14x14, .f32⟩ : BufTy).Contents (Elt F)),
    binary main_arg3 main_v1332 main_v1333 (mulf : (⟨S8x512x14x14, .f32⟩ : BufTy).Contents (Elt F) → (⟨S8x512x14x14, .f32⟩ : BufTy).Contents (Elt F) → (⟨S8x512x14x14, .f32⟩ : BufTy).Contents (Elt F)),
    nullary main_cst_318 (constant S_ .f32 0x00000000#32),
    binary main_v1333 main_cst_318 main_v1334 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1335 ((extractStridedSlice S8x512x14x14 ![0, 0, 8, 2] · slices_S8x512x22x22_S8x512x14x14_0_0_8_2) : (⟨S8x512x22x22, .f32⟩ : BufTy).Contents (Elt F) → (⟨S8x512x14x14, .f32⟩ : BufTy).Contents (Elt F)),
    binary main_arg3 main_v1335 main_v1336 (mulf : (⟨S8x512x14x14, .f32⟩ : BufTy).Contents (Elt F) → (⟨S8x512x14x14, .f32⟩ : BufTy).Contents (Elt F) → (⟨S8x512x14x14, .f32⟩ : BufTy).Contents (Elt F)),
    nullary main_cst_319 (constant S_ .f32 0x00000000#32),
    binary main_v1336 main_cst_319 main_v1337 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1338 ((extractStridedSlice S8x512x14x14 ![0, 0, 8, 3] · slices_S8x512x22x22_S8x512x14x14_0_0_8_3) : (⟨S8x512x22x22, .f32⟩ : BufTy).Contents (Elt F) → (⟨S8x512x14x14, .f32⟩ : BufTy).Contents (Elt F)),
    binary main_arg3 main_v1338 main_v1339 (mulf : (⟨S8x512x14x14, .f32⟩ : BufTy).Contents (Elt F) → (⟨S8x512x14x14, .f32⟩ : BufTy).Contents (Elt F) → (⟨S8x512x14x14, .f32⟩ : BufTy).Contents (Elt F)),
    nullary main_cst_320 (constant S_ .f32 0x00000000#32),
    binary main_v1339 main_cst_320 main_v1340 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1341 ((extractStridedSlice S8x512x14x14 ![0, 0, 8, 4] · slices_S8x512x22x22_S8x512x14x14_0_0_8_4) : (⟨S8x512x22x22, .f32⟩ : BufTy).Contents (Elt F) → (⟨S8x512x14x14, .f32⟩ : BufTy).Contents (Elt F)),
    binary main_arg3 main_v1341 main_v1342 (mulf : (⟨S8x512x14x14, .f32⟩ : BufTy).Contents (Elt F) → (⟨S8x512x14x14, .f32⟩ : BufTy).Contents (Elt F) → (⟨S8x512x14x14, .f32⟩ : BufTy).Contents (Elt F)),
    nullary main_cst_321 (constant S_ .f32 0x00000000#32),
    binary main_v1342 main_cst_321 main_v1343 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1344 ((extractStridedSlice S8x512x14x14 ![0, 0, 8, 5] · slices_S8x512x22x22_S8x512x14x14_0_0_8_5) : (⟨S8x512x22x22, .f32⟩ : BufTy).Contents (Elt F) → (⟨S8x512x14x14, .f32⟩ : BufTy).Contents (Elt F)),
    binary main_arg3 main_v1344 main_v1345 (mulf : (⟨S8x512x14x14, .f32⟩ : BufTy).Contents (Elt F) → (⟨S8x512x14x14, .f32⟩ : BufTy).Contents (Elt F) → (⟨S8x512x14x14, .f32⟩ : BufTy).Contents (Elt F)),
    nullary main_cst_322 (constant S_ .f32 0x00000000#32),
    binary main_v1345 main_cst_322 main_v1346 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1347 ((extractStridedSlice S8x512x14x14 ![0, 0, 8, 6] · slices_S8x512x22x22_S8x512x14x14_0_0_8_6) : (⟨S8x512x22x22, .f32⟩ : BufTy).Contents (Elt F) → (⟨S8x512x14x14, .f32⟩ : BufTy).Contents (Elt F)),
    binary main_arg3 main_v1347 main_v1348 (mulf : (⟨S8x512x14x14, .f32⟩ : BufTy).Contents (Elt F) → (⟨S8x512x14x14, .f32⟩ : BufTy).Contents (Elt F) → (⟨S8x512x14x14, .f32⟩ : BufTy).Contents (Elt F)),
    nullary main_cst_323 (constant S_ .f32 0x00000000#32),
    binary main_v1348 main_cst_323 main_v1349 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1350 ((extractStridedSlice S8x512x14x14 ![0, 0, 8, 7] · slices_S8x512x22x22_S8x512x14x14_0_0_8_7) : (⟨S8x512x22x22, .f32⟩ : BufTy).Contents (Elt F) → (⟨S8x512x14x14, .f32⟩ : BufTy).Contents (Elt F)),
    binary main_arg3 main_v1350 main_v1351 (mulf : (⟨S8x512x14x14, .f32⟩ : BufTy).Contents (Elt F) → (⟨S8x512x14x14, .f32⟩ : BufTy).Contents (Elt F) → (⟨S8x512x14x14, .f32⟩ : BufTy).Contents (Elt F)),
    nullary main_cst_324 (constant S_ .f32 0x00000000#32),
    binary main_v1351 main_cst_324 main_v1352 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1353 ((extractStridedSlice S8x512x14x14 ![0, 0, 8, 8] · slices_S8x512x22x22_S8x512x14x14_0_0_8_8) : (⟨S8x512x22x22, .f32⟩ : BufTy).Contents (Elt F) → (⟨S8x512x14x14, .f32⟩ : BufTy).Contents (Elt F)),
    binary main_arg3 main_v1353 main_v1354 (mulf : (⟨S8x512x14x14, .f32⟩ : BufTy).Contents (Elt F) → (⟨S8x512x14x14, .f32⟩ : BufTy).Contents (Elt F) → (⟨S8x512x14x14, .f32⟩ : BufTy).Contents (Elt F)),
    nullary main_cst_325 (constant S_ .f32 0x00000000#32),
    binary main_v1354 main_cst_325 main_v1355 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1331 main_v1356 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1334 main_v1357 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1337 main_v1358 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1340 main_v1359 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1343 main_v1360 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1346 main_v1361 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1349 main_v1362 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1352 main_v1363 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1355 main_v1364 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1356, main_v1357, main_v1358, main_v1359, main_v1360, main_v1361, main_v1362, main_v1363, main_v1364] main_v1365 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1) ]

abbrev opsT : List (HloOp τ sig (Elt F)) :=
  [ unary main_v1069 main_v1366 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1106 main_v1367 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1143 main_v1368 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1180 main_v1369 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1217 main_v1370 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1254 main_v1371 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1291 main_v1372 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1328 main_v1373 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1365 main_v1374 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    nary ![main_v1366, main_v1367, main_v1368, main_v1369, main_v1370, main_v1371, main_v1372, main_v1373, main_v1374] main_v1375 (fun u => concatenate S8x9x9x14x14 1 [⟨S8x1x9x14x14, u 0⟩, ⟨S8x1x9x14x14, u 1⟩, ⟨S8x1x9x14x14, u 2⟩, ⟨S8x1x9x14x14, u 3⟩, ⟨S8x1x9x14x14, u 4⟩, ⟨S8x1x9x14x14, u 5⟩, ⟨S8x1x9x14x14, u 6⟩, ⟨S8x1x9x14x14, u 7⟩, ⟨S8x1x9x14x14, u 8⟩] concatenates_S8x1x9x14x14_S8x1x9x14x14_S8x1x9x14x14_S8x1x9x14x14_S8x1x9x14x14_S8x1x9x14x14_S8x1x9x14x14_S8x1x9x14x14_S8x1x9x14x14_S8x9x9x14x14_d1) ]

/-- The level's operations in order. -/
abbrev opsL : List (HloOp τ sig (Elt F)) :=
  opsH ++ (opsR0 ++ (opsR1 ++ (opsR2 ++ (opsR3 ++ (opsR4 ++ (opsR5 ++ (opsR6 ++ (opsR7 ++ (opsR8 ++ opsT)))))))))

noncomputable def WH : List (Ref sig .tc) := [main_c_244, main_call3_v0, main_v1032]
noncomputable def WR0 : List (Ref sig .tc) := [main_v1033, main_v1034, main_cst_245, main_v1035, main_v1036, main_v1037, main_cst_246, main_v1038, main_v1039, main_v1040, main_cst_247, main_v1041, main_v1042, main_v1043, main_cst_248, main_v1044, main_v1045, main_v1046, main_cst_249, main_v1047, main_v1048, main_v1049, main_cst_250, main_v1050, main_v1051, main_v1052, main_cst_251, main_v1053, main_v1054, main_v1055, main_cst_252, main_v1056, main_v1057, main_v1058, main_cst_253, main_v1059, main_v1060, main_v1061, main_v1062, main_v1063, main_v1064, main_v1065, main_v1066, main_v1067, main_v1068, main_v1069]
noncomputable def WR1 : List (Ref sig .tc) := [main_v1070, main_v1071, main_cst_254, main_v1072, main_v1073, main_v1074, main_cst_255, main_v1075, main_v1076, main_v1077, main_cst_256, main_v1078, main_v1079, main_v1080, main_cst_257, main_v1081, main_v1082, main_v1083, main_cst_258, main_v1084, main_v1085, main_v1086, main_cst_259, main_v1087, main_v1088, main_v1089, main_cst_260, main_v1090, main_v1091, main_v1092, main_cst_261, main_v1093, main_v1094, main_v1095, main_cst_262, main_v1096, main_v1097, main_v1098, main_v1099, main_v1100, main_v1101, main_v1102, main_v1103, main_v1104, main_v1105, main_v1106]
noncomputable def WR2 : List (Ref sig .tc) := [main_v1107, main_v1108, main_cst_263, main_v1109, main_v1110, main_v1111, main_cst_264, main_v1112, main_v1113, main_v1114, main_cst_265, main_v1115, main_v1116, main_v1117, main_cst_266, main_v1118, main_v1119, main_v1120, main_cst_267, main_v1121, main_v1122, main_v1123, main_cst_268, main_v1124, main_v1125, main_v1126, main_cst_269, main_v1127, main_v1128, main_v1129, main_cst_270, main_v1130, main_v1131, main_v1132, main_cst_271, main_v1133, main_v1134, main_v1135, main_v1136, main_v1137, main_v1138, main_v1139, main_v1140, main_v1141, main_v1142, main_v1143]
noncomputable def WR3 : List (Ref sig .tc) := [main_v1144, main_v1145, main_cst_272, main_v1146, main_v1147, main_v1148, main_cst_273, main_v1149, main_v1150, main_v1151, main_cst_274, main_v1152, main_v1153, main_v1154, main_cst_275, main_v1155, main_v1156, main_v1157, main_cst_276, main_v1158, main_v1159, main_v1160, main_cst_277, main_v1161, main_v1162, main_v1163, main_cst_278, main_v1164, main_v1165, main_v1166, main_cst_279, main_v1167, main_v1168, main_v1169, main_cst_280, main_v1170, main_v1171, main_v1172, main_v1173, main_v1174, main_v1175, main_v1176, main_v1177, main_v1178, main_v1179, main_v1180]
noncomputable def WR4 : List (Ref sig .tc) := [main_v1181, main_v1182, main_cst_281, main_v1183, main_v1184, main_v1185, main_cst_282, main_v1186, main_v1187, main_v1188, main_cst_283, main_v1189, main_v1190, main_v1191, main_cst_284, main_v1192, main_v1193, main_v1194, main_cst_285, main_v1195, main_v1196, main_v1197, main_cst_286, main_v1198, main_v1199, main_v1200, main_cst_287, main_v1201, main_v1202, main_v1203, main_cst_288, main_v1204, main_v1205, main_v1206, main_cst_289, main_v1207, main_v1208, main_v1209, main_v1210, main_v1211, main_v1212, main_v1213, main_v1214, main_v1215, main_v1216, main_v1217]
noncomputable def WR5 : List (Ref sig .tc) := [main_v1218, main_v1219, main_cst_290, main_v1220, main_v1221, main_v1222, main_cst_291, main_v1223, main_v1224, main_v1225, main_cst_292, main_v1226, main_v1227, main_v1228, main_cst_293, main_v1229, main_v1230, main_v1231, main_cst_294, main_v1232, main_v1233, main_v1234, main_cst_295, main_v1235, main_v1236, main_v1237, main_cst_296, main_v1238, main_v1239, main_v1240, main_cst_297, main_v1241, main_v1242, main_v1243, main_cst_298, main_v1244, main_v1245, main_v1246, main_v1247, main_v1248, main_v1249, main_v1250, main_v1251, main_v1252, main_v1253, main_v1254]
noncomputable def WR6 : List (Ref sig .tc) := [main_v1255, main_v1256, main_cst_299, main_v1257, main_v1258, main_v1259, main_cst_300, main_v1260, main_v1261, main_v1262, main_cst_301, main_v1263, main_v1264, main_v1265, main_cst_302, main_v1266, main_v1267, main_v1268, main_cst_303, main_v1269, main_v1270, main_v1271, main_cst_304, main_v1272, main_v1273, main_v1274, main_cst_305, main_v1275, main_v1276, main_v1277, main_cst_306, main_v1278, main_v1279, main_v1280, main_cst_307, main_v1281, main_v1282, main_v1283, main_v1284, main_v1285, main_v1286, main_v1287, main_v1288, main_v1289, main_v1290, main_v1291]
noncomputable def WR7 : List (Ref sig .tc) := [main_v1292, main_v1293, main_cst_308, main_v1294, main_v1295, main_v1296, main_cst_309, main_v1297, main_v1298, main_v1299, main_cst_310, main_v1300, main_v1301, main_v1302, main_cst_311, main_v1303, main_v1304, main_v1305, main_cst_312, main_v1306, main_v1307, main_v1308, main_cst_313, main_v1309, main_v1310, main_v1311, main_cst_314, main_v1312, main_v1313, main_v1314, main_cst_315, main_v1315, main_v1316, main_v1317, main_cst_316, main_v1318, main_v1319, main_v1320, main_v1321, main_v1322, main_v1323, main_v1324, main_v1325, main_v1326, main_v1327, main_v1328]
noncomputable def WR8 : List (Ref sig .tc) := [main_v1329, main_v1330, main_cst_317, main_v1331, main_v1332, main_v1333, main_cst_318, main_v1334, main_v1335, main_v1336, main_cst_319, main_v1337, main_v1338, main_v1339, main_cst_320, main_v1340, main_v1341, main_v1342, main_cst_321, main_v1343, main_v1344, main_v1345, main_cst_322, main_v1346, main_v1347, main_v1348, main_cst_323, main_v1349, main_v1350, main_v1351, main_cst_324, main_v1352, main_v1353, main_v1354, main_cst_325, main_v1355, main_v1356, main_v1357, main_v1358, main_v1359, main_v1360, main_v1361, main_v1362, main_v1363, main_v1364, main_v1365]
noncomputable def WT : List (Ref sig .tc) := [main_v1366, main_v1367, main_v1368, main_v1369, main_v1370, main_v1371, main_v1372, main_v1373, main_v1374, main_v1375]

theorem hWH : (opsH (F := F)).Forall fun op => op.writes ⊆ ((WH).map (Proc.devRef (τ := τ) .tc)).toFinset :=
  ⟨wsub (List.getElem_mem (n := 0) (by decide)), wsub (List.getElem_mem (n := 1) (by decide)), wsub (List.getElem_mem (n := 2) (by decide))⟩
theorem hSH : (opsH (F := F)).Forall fun op => op.bufs ⊆ tcRefs τ sig :=
  ⟨nullary_bufs_sub .., unary_bufs_sub .., binary_bufs_sub ..⟩
theorem hFH : (opsH (F := F)).Forall fun op => op.fresh = ∅ :=
  ⟨rfl, rfl, rfl⟩
theorem hWR0 : (opsR0 (F := F)).Forall fun op => op.writes ⊆ ((WR0).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR0 : (opsR0 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR0 : (opsR0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR1 : (opsR1 (F := F)).Forall fun op => op.writes ⊆ ((WR1).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR1 : (opsR1 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR1 : (opsR1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR2 : (opsR2 (F := F)).Forall fun op => op.writes ⊆ ((WR2).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR2 : (opsR2 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR2 : (opsR2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR3 : (opsR3 (F := F)).Forall fun op => op.writes ⊆ ((WR3).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR3 : (opsR3 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR3 : (opsR3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR4 : (opsR4 (F := F)).Forall fun op => op.writes ⊆ ((WR4).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR4 : (opsR4 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR4 : (opsR4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR5 : (opsR5 (F := F)).Forall fun op => op.writes ⊆ ((WR5).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR5 : (opsR5 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR5 : (opsR5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR6 : (opsR6 (F := F)).Forall fun op => op.writes ⊆ ((WR6).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR6 : (opsR6 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR6 : (opsR6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR7 : (opsR7 (F := F)).Forall fun op => op.writes ⊆ ((WR7).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR7 : (opsR7 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR7 : (opsR7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWR8 : (opsR8 (F := F)).Forall fun op => op.writes ⊆ ((WR8).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide)), wsub (List.getElem_mem (n := 10) (by decide)), wsub (List.getElem_mem (n := 11) (by decide)), wsub (List.getElem_mem (n := 12) (by decide)), wsub (List.getElem_mem (n := 13) (by decide)), wsub (List.getElem_mem (n := 14) (by decide)), wsub (List.getElem_mem (n := 15) (by decide)), wsub (List.getElem_mem (n := 16) (by decide)), wsub (List.getElem_mem (n := 17) (by decide)), wsub (List.getElem_mem (n := 18) (by decide)), wsub (List.getElem_mem (n := 19) (by decide)), wsub (List.getElem_mem (n := 20) (by decide)), wsub (List.getElem_mem (n := 21) (by decide)), wsub (List.getElem_mem (n := 22) (by decide)), wsub (List.getElem_mem (n := 23) (by decide)), wsub (List.getElem_mem (n := 24) (by decide)), wsub (List.getElem_mem (n := 25) (by decide)), wsub (List.getElem_mem (n := 26) (by decide)), wsub (List.getElem_mem (n := 27) (by decide)), wsub (List.getElem_mem (n := 28) (by decide)), wsub (List.getElem_mem (n := 29) (by decide)), wsub (List.getElem_mem (n := 30) (by decide)), wsub (List.getElem_mem (n := 31) (by decide)), wsub (List.getElem_mem (n := 32) (by decide)), wsub (List.getElem_mem (n := 33) (by decide)), wsub (List.getElem_mem (n := 34) (by decide)), wsub (List.getElem_mem (n := 35) (by decide)), wsub (List.getElem_mem (n := 36) (by decide)), wsub (List.getElem_mem (n := 37) (by decide)), wsub (List.getElem_mem (n := 38) (by decide)), wsub (List.getElem_mem (n := 39) (by decide)), wsub (List.getElem_mem (n := 40) (by decide)), wsub (List.getElem_mem (n := 41) (by decide)), wsub (List.getElem_mem (n := 42) (by decide)), wsub (List.getElem_mem (n := 43) (by decide)), wsub (List.getElem_mem (n := 44) (by decide)), wsub (List.getElem_mem (n := 45) (by decide))⟩
theorem hSR8 : (opsR8 (F := F)).Forall fun op => op.bufs ⊆ tcRefs τ sig :=
  ⟨unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩
theorem hFR8 : (opsR8 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hWT : (opsT (F := F)).Forall fun op => op.writes ⊆ ((WT).map (Proc.devRef (τ := τ) .tc)).toFinset :=
  ⟨wsub (List.getElem_mem (n := 0) (by decide)), wsub (List.getElem_mem (n := 1) (by decide)), wsub (List.getElem_mem (n := 2) (by decide)), wsub (List.getElem_mem (n := 3) (by decide)), wsub (List.getElem_mem (n := 4) (by decide)), wsub (List.getElem_mem (n := 5) (by decide)), wsub (List.getElem_mem (n := 6) (by decide)), wsub (List.getElem_mem (n := 7) (by decide)), wsub (List.getElem_mem (n := 8) (by decide)), wsub (List.getElem_mem (n := 9) (by decide))⟩
theorem hST : (opsT (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub ..⟩
theorem hFT : (opsT (F := F)).Forall fun op => op.fresh = ∅ :=
  ⟨rfl, rfl, rfl, rfl, rfl, rfl, rfl, rfl, rfl, rfl⟩

/-- Every buffer the level writes. -/
noncomputable def WL : List (Ref sig .tc) := WH ++ (WR0 ++ (WR1 ++ (WR2 ++ (WR3 ++ (WR4 ++ (WR5 ++ (WR6 ++ (WR7 ++ (WR8 ++ WT)))))))))

theorem level_sub : (opsL (F := F)).Forall fun op => op.bufs ⊆ tcRefs τ sig :=
  forall_append hSH (forall_append hSR0 (forall_append hSR1 (forall_append hSR2 (forall_append hSR3 (forall_append hSR4 (forall_append hSR5 (forall_append hSR6 (forall_append hSR7 (forall_append hSR8 hST)))))))))
theorem level_fresh : (opsL (F := F)).Forall fun op => op.fresh = ∅ :=
  forall_append hFH (forall_append hFR0 (forall_append hFR1 (forall_append hFR2 (forall_append hFR3 (forall_append hFR4 (forall_append hFR5 (forall_append hFR6 (forall_append hFR7 (forall_append hFR8 hFT)))))))))

/-- A buffer the level does not write keeps its contents. -/
theorem level_keep (V : Valuation τ sig (Elt F)) (r : Ref sig .tc) (hr : r ∉ WL) :
    after (opsL (F := F)) V (Proc.devRef .tc r) = V (Proc.devRef .tc r) := by
  have h : ∀ {l₁ l₂ : List (Ref sig .tc)}, r ∉ l₁ ++ l₂ → r ∉ l₁ ∧ r ∉ l₂ := fun h =>
    ⟨fun h1 => h (List.mem_append_left _ h1), fun h2 => h (List.mem_append_right _ h2)⟩
  obtain ⟨gH, g⟩ := h hr
  obtain ⟨g0, g⟩ := h g
  obtain ⟨g1, g⟩ := h g
  obtain ⟨g2, g⟩ := h g
  obtain ⟨g3, g⟩ := h g
  obtain ⟨g4, g⟩ := h g
  obtain ⟨g5, g⟩ := h g
  obtain ⟨g6, g⟩ := h g
  obtain ⟨g7, g⟩ := h g
  obtain ⟨g8, g⟩ := h g
  simp only [opsL, after_append]
  rw [after_of_writes_sub _ _ hWT g, after_of_writes_sub _ _ hWR8 g8, after_of_writes_sub _ _ hWR7 g7, after_of_writes_sub _ _ hWR6 g6, after_of_writes_sub _ _ hWR5 g5, after_of_writes_sub _ _ hWR4 g4, after_of_writes_sub _ _ hWR3 g3, after_of_writes_sub _ _ hWR2 g2, after_of_writes_sub _ _ hWR1 g1, after_of_writes_sub _ _ hWR0 g0, after_of_writes_sub _ _ hWH gH]

end Cert.ReferenceIdeal.Lvl3

end
-- ==== Proof.RefTerms3.lean ====
/-
  Level 3 of the reference: the composed terms of its stretches of operations.  padT is the zero pad of b; rowT k is
  row k of the patch (nine planes, one per horizontal displacement: the padded b sliced at (k, dj), times a, summed over
  the channels, with a unit axis added, joined along that axis); tailT joins the nine rows along a second new axis.
-/
import proofs.«135875_j16999480558431_2_alg».proof.Proof.Gen.ReferenceIdeal
import Idealize.ShloMosaic.Lib.StableHlo.Run
import Idealize.ShloMosaic.Lib.ValueIdx
import proofs.«135875_j16999480558431_2_alg».proof.Proof.RefLib

set_option maxRecDepth 8192

noncomputable section

namespace Cert.ReferenceIdeal.Lvl3

open Cert.ReferenceIdeal Cert.ReferenceIdeal.Gen Idealize.ShloMosaic Idealize.ShloMosaic.TcCoe Idealize.SL.Sem Idealize.ShloMosaic.StableHlo
open Idealize.ShloMosaic.ValueIdx RefLib

variable {F : FTy → Type} [FloatOps F]

/-- The zero-padded b. -/
abbrev padT (b : (⟨S8x512x14x14, .f32⟩ : BufTy).Contents (Elt F)) : (⟨S8x512x22x22, .f32⟩ : BufTy).Contents (Elt F) :=
  pad S8x512x22x22 ![0, 0, 4, 4] ![0, 0, 4, 4] ![0, 0, 0, 0] b (sitofp .f32 (constantI S_ 32 0#32)) pads_S8x512x14x14_S8x512x22x22_000_000_440_440 h_S_

/-- Row 0's operations composed. -/
def rowT0 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 0, 0] p slices_S8x512x22x22_S8x512x14x14_0_0_0_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 1] p slices_S8x512x22x22_S8x512x14x14_0_0_0_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 2] p slices_S8x512x22x22_S8x512x14x14_0_0_0_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 3] p slices_S8x512x22x22_S8x512x14x14_0_0_0_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 4] p slices_S8x512x22x22_S8x512x14x14_0_0_0_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 5] p slices_S8x512x22x22_S8x512x14x14_0_0_0_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 6] p slices_S8x512x22x22_S8x512x14x14_0_0_0_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 7] p slices_S8x512x22x22_S8x512x14x14_0_0_0_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 0, 8] p slices_S8x512x22x22_S8x512x14x14_0_0_0_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 1's operations composed. -/
def rowT1 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 1, 0] p slices_S8x512x22x22_S8x512x14x14_0_0_1_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 1] p slices_S8x512x22x22_S8x512x14x14_0_0_1_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 2] p slices_S8x512x22x22_S8x512x14x14_0_0_1_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 3] p slices_S8x512x22x22_S8x512x14x14_0_0_1_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 4] p slices_S8x512x22x22_S8x512x14x14_0_0_1_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 5] p slices_S8x512x22x22_S8x512x14x14_0_0_1_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 6] p slices_S8x512x22x22_S8x512x14x14_0_0_1_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 7] p slices_S8x512x22x22_S8x512x14x14_0_0_1_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 1, 8] p slices_S8x512x22x22_S8x512x14x14_0_0_1_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 2's operations composed. -/
def rowT2 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 2, 0] p slices_S8x512x22x22_S8x512x14x14_0_0_2_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 1] p slices_S8x512x22x22_S8x512x14x14_0_0_2_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 2] p slices_S8x512x22x22_S8x512x14x14_0_0_2_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 3] p slices_S8x512x22x22_S8x512x14x14_0_0_2_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 4] p slices_S8x512x22x22_S8x512x14x14_0_0_2_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 5] p slices_S8x512x22x22_S8x512x14x14_0_0_2_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 6] p slices_S8x512x22x22_S8x512x14x14_0_0_2_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 7] p slices_S8x512x22x22_S8x512x14x14_0_0_2_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 2, 8] p slices_S8x512x22x22_S8x512x14x14_0_0_2_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 3's operations composed. -/
def rowT3 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 3, 0] p slices_S8x512x22x22_S8x512x14x14_0_0_3_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 1] p slices_S8x512x22x22_S8x512x14x14_0_0_3_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 2] p slices_S8x512x22x22_S8x512x14x14_0_0_3_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 3] p slices_S8x512x22x22_S8x512x14x14_0_0_3_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 4] p slices_S8x512x22x22_S8x512x14x14_0_0_3_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 5] p slices_S8x512x22x22_S8x512x14x14_0_0_3_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 6] p slices_S8x512x22x22_S8x512x14x14_0_0_3_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 7] p slices_S8x512x22x22_S8x512x14x14_0_0_3_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 3, 8] p slices_S8x512x22x22_S8x512x14x14_0_0_3_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 4's operations composed. -/
def rowT4 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 4, 0] p slices_S8x512x22x22_S8x512x14x14_0_0_4_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 1] p slices_S8x512x22x22_S8x512x14x14_0_0_4_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 2] p slices_S8x512x22x22_S8x512x14x14_0_0_4_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 3] p slices_S8x512x22x22_S8x512x14x14_0_0_4_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 4] p slices_S8x512x22x22_S8x512x14x14_0_0_4_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 5] p slices_S8x512x22x22_S8x512x14x14_0_0_4_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 6] p slices_S8x512x22x22_S8x512x14x14_0_0_4_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 7] p slices_S8x512x22x22_S8x512x14x14_0_0_4_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 4, 8] p slices_S8x512x22x22_S8x512x14x14_0_0_4_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 5's operations composed. -/
def rowT5 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 5, 0] p slices_S8x512x22x22_S8x512x14x14_0_0_5_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 1] p slices_S8x512x22x22_S8x512x14x14_0_0_5_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 2] p slices_S8x512x22x22_S8x512x14x14_0_0_5_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 3] p slices_S8x512x22x22_S8x512x14x14_0_0_5_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 4] p slices_S8x512x22x22_S8x512x14x14_0_0_5_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 5] p slices_S8x512x22x22_S8x512x14x14_0_0_5_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 6] p slices_S8x512x22x22_S8x512x14x14_0_0_5_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 7] p slices_S8x512x22x22_S8x512x14x14_0_0_5_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 5, 8] p slices_S8x512x22x22_S8x512x14x14_0_0_5_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 6's operations composed. -/
def rowT6 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 6, 0] p slices_S8x512x22x22_S8x512x14x14_0_0_6_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 1] p slices_S8x512x22x22_S8x512x14x14_0_0_6_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 2] p slices_S8x512x22x22_S8x512x14x14_0_0_6_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 3] p slices_S8x512x22x22_S8x512x14x14_0_0_6_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 4] p slices_S8x512x22x22_S8x512x14x14_0_0_6_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 5] p slices_S8x512x22x22_S8x512x14x14_0_0_6_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 6] p slices_S8x512x22x22_S8x512x14x14_0_0_6_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 7] p slices_S8x512x22x22_S8x512x14x14_0_0_6_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 6, 8] p slices_S8x512x22x22_S8x512x14x14_0_0_6_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 7's operations composed. -/
def rowT7 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 7, 0] p slices_S8x512x22x22_S8x512x14x14_0_0_7_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 1] p slices_S8x512x22x22_S8x512x14x14_0_0_7_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 2] p slices_S8x512x22x22_S8x512x14x14_0_0_7_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 3] p slices_S8x512x22x22_S8x512x14x14_0_0_7_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 4] p slices_S8x512x22x22_S8x512x14x14_0_0_7_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 5] p slices_S8x512x22x22_S8x512x14x14_0_0_7_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 6] p slices_S8x512x22x22_S8x512x14x14_0_0_7_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 7] p slices_S8x512x22x22_S8x512x14x14_0_0_7_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 7, 8] p slices_S8x512x22x22_S8x512x14x14_0_0_7_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- Row 8's operations composed. -/
def rowT8 (a : (⟨S8x512x14x14, .f32⟩ : BufTy).Contents (Elt F)) (p : (⟨S8x512x22x22, .f32⟩ : BufTy).Contents (Elt F)) :
    (⟨S8x9x14x14, .f32⟩ : BufTy).Contents (Elt F) :=
  concatenate S8x9x14x14 1 [⟨S8x1x14x14, (broadcastInDim S8x1x14x14 ![0, 2, 3] bcast_S8x14x14_S8x1x14x14_0_2_3 (Host.reduceAdd (mulf a (extractStridedSlice S8x512x14x14 ![0, 0, 8, 0] p slices_S8x512x22x22_S8x512x14x14_0_0_8_0)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 1] p slices_S8x512x22x22_S8x512x14x14_0_0_8_1)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 2] p slices_S8x512x22x22_S8x512x14x14_0_0_8_2)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 3] p slices_S8x512x22x22_S8x512x14x14_0_0_8_3)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 4] p slices_S8x512x22x22_S8x512x14x14_0_0_8_4)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 5] p slices_S8x512x22x22_S8x512x14x14_0_0_8_5)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 6] p slices_S8x512x22x22_S8x512x14x14_0_0_8_6)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 7] p slices_S8x512x22x22_S8x512x14x14_0_0_8_7)) (constant S_ .f32 0x00000000#32) reducesTo_S8x512x14x14_S8x14x14_d1 h_S_))⟩, ⟨S8x1x14x14, (broadcastInDim S8x1x14x14 ![0, 2, 3] bcast_S8x14x14_S8x1x14x14_0_2_3 (Host.reduceAdd (mulf a (extractStridedSlice S8x512x14x14 ![0, 0, 8, 8] p slices_S8x512x22x22_S8x512x14x14_0_0_8_8)) (constant S_ .f32 0x00000000#32) reducesTo_S8x512x14x14_S8x14x14_d1 h_S_))⟩] concatenates_S8x1x14x14_S8x1x14x14_S8x1x14x14_S8x1x14x14_S8x1x14x14_S8x1x14x14_S8x1x14x14_S8x1x14x14_S8x1x14x14_S8x9x14x14_d1

/-- The tail's operations composed. -/
def tailT (r0 r1 r2 r3 r4 r5 r6 r7 r8 : (⟨S8x9x14x14, .f32⟩ : BufTy).Contents (Elt F)) : (⟨S8x9x9x14x14, .f32⟩ : BufTy).Contents (Elt F) :=
  concatenate S8x9x9x14x14 1 [⟨S8x1x9x14x14, (broadcastInDim S8x1x9x14x14 ![0, 2, 3, 4] bcast_S8x9x14x14_S8x1x9x14x14_0_2_3_4 r0)⟩, ⟨S8x1x9x14x14, (broadcastInDim S8x1x9x14x14 ![0, 2, 3, 4] bcast_S8x9x14x14_S8x1x9x14x14_0_2_3_4 r1)⟩, ⟨S8x1x9x14x14, (broadcastInDim S8x1x9x14x14 ![0, 2, 3, 4] bcast_S8x9x14x14_S8x1x9x14x14_0_2_3_4 r2)⟩, ⟨S8x1x9x14x14, (broadcastInDim S8x1x9x14x14 ![0, 2, 3, 4] bcast_S8x9x14x14_S8x1x9x14x14_0_2_3_4 r3)⟩, ⟨S8x1x9x14x14, (broadcastInDim S8x1x9x14x14 ![0, 2, 3, 4] bcast_S8x9x14x14_S8x1x9x14x14_0_2_3_4 r4)⟩, ⟨S8x1x9x14x14, (broadcastInDim S8x1x9x14x14 ![0, 2, 3, 4] bcast_S8x9x14x14_S8x1x9x14x14_0_2_3_4 r5)⟩, ⟨S8x1x9x14x14, (broadcastInDim S8x1x9x14x14 ![0, 2, 3, 4] bcast_S8x9x14x14_S8x1x9x14x14_0_2_3_4 r6)⟩, ⟨S8x1x9x14x14, (broadcastInDim S8x1x9x14x14 ![0, 2, 3, 4] bcast_S8x9x14x14_S8x1x9x14x14_0_2_3_4 r7)⟩, ⟨S8x1x9x14x14, (broadcastInDim S8x1x9x14x14 ![0, 2, 3, 4] bcast_S8x9x14x14_S8x1x9x14x14_0_2_3_4 r8)⟩] concatenates_S8x1x9x14x14_S8x1x9x14x14_S8x1x9x14x14_S8x1x9x14x14_S8x1x9x14x14_S8x1x9x14x14_S8x1x9x14x14_S8x1x9x14x14_S8x1x9x14x14_S8x9x9x14x14_d1

end Cert.ReferenceIdeal.Lvl3

end
-- ==== Proof.RefRead3.lean ====
/-
  Level 3 of the reference, read at an index.  A row's nine planes are corr at the row's vertical displacement and
  the planes' horizontal displacements; the nine rows joined are g5.
-/
import proofs.«135875_j16999480558431_2_alg».proof.Proof.RefTerms3
import proofs.«135875_j16999480558431_2_alg».proof.Proof.CorrSpec3
import proofs.«135875_j16999480558431_2_alg».proof.Proof.CorrJoin3

set_option maxRecDepth 8192

noncomputable section

namespace Cert.ReferenceIdeal.Lvl3

open Cert.ReferenceIdeal Cert.ReferenceIdeal.Gen Idealize.ShloMosaic Idealize.ShloMosaic.TcCoe Idealize.SL.Sem Idealize.ShloMosaic.StableHlo
open Idealize.ShloMosaic.ValueIdx RefLib Corr3 CorrJ3

variable {F : FTy → Type} [FloatOps F]

/-- Row di of the patch as a function of the index. -/
def rowF (di : ℕ) (a b : Corr3.SA.Idx → EReal) : (⟨S8x9x14x14, .f32⟩ : BufTy).Contents (Elt Ideal) :=
  fun idx => corr a b ⟨(idx 0).val, (idx 0).isLt⟩ di (idx 1).val ⟨(idx 2).val, (idx 2).isLt⟩ ⟨(idx 3).val, (idx 3).isLt⟩

/-- Row 0 read at an index: the nine planes of corr for displacements (0, 0 .. 8). -/
theorem rowRead0 (a b : Corr3.SA.Idx → EReal) : rowT0 (F := Ideal) a (padT b) = rowF 0 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 0 dj.val i j
  unfold rowT0
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 0] (padT (F := Ideal) b) slices_S8x512x22x22_S8x512x14x14_0_0_0_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 1] (padT (F := Ideal) b) slices_S8x512x22x22_S8x512x14x14_0_0_0_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 2] (padT (F := Ideal) b) slices_S8x512x22x22_S8x512x14x14_0_0_0_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 3] (padT (F := Ideal) b) slices_S8x512x22x22_S8x512x14x14_0_0_0_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 4] (padT (F := Ideal) b) slices_S8x512x22x22_S8x512x14x14_0_0_0_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 5] (padT (F := Ideal) b) slices_S8x512x22x22_S8x512x14x14_0_0_0_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 6] (padT (F := Ideal) b) slices_S8x512x22x22_S8x512x14x14_0_0_0_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 7] (padT (F := Ideal) b) slices_S8x512x22x22_S8x512x14x14_0_0_0_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 0, 8] (padT (F := Ideal) b) slices_S8x512x22x22_S8x512x14x14_0_0_0_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 0 8 a b _ _ _ _ (by decide) _ n 0 i j

/-- Row 1 read at an index: the nine planes of corr for displacements (1, 0 .. 8). -/
theorem rowRead1 (a b : Corr3.SA.Idx → EReal) : rowT1 (F := Ideal) a (padT b) = rowF 1 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 1 dj.val i j
  unfold rowT1
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 0] (padT (F := Ideal) b) slices_S8x512x22x22_S8x512x14x14_0_0_1_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 1] (padT (F := Ideal) b) slices_S8x512x22x22_S8x512x14x14_0_0_1_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 2] (padT (F := Ideal) b) slices_S8x512x22x22_S8x512x14x14_0_0_1_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 3] (padT (F := Ideal) b) slices_S8x512x22x22_S8x512x14x14_0_0_1_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 4] (padT (F := Ideal) b) slices_S8x512x22x22_S8x512x14x14_0_0_1_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 5] (padT (F := Ideal) b) slices_S8x512x22x22_S8x512x14x14_0_0_1_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 6] (padT (F := Ideal) b) slices_S8x512x22x22_S8x512x14x14_0_0_1_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 7] (padT (F := Ideal) b) slices_S8x512x22x22_S8x512x14x14_0_0_1_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 1, 8] (padT (F := Ideal) b) slices_S8x512x22x22_S8x512x14x14_0_0_1_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 1 8 a b _ _ _ _ (by decide) _ n 0 i j

/-- Row 2 read at an index: the nine planes of corr for displacements (2, 0 .. 8). -/
theorem rowRead2 (a b : Corr3.SA.Idx → EReal) : rowT2 (F := Ideal) a (padT b) = rowF 2 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 2 dj.val i j
  unfold rowT2
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 0] (padT (F := Ideal) b) slices_S8x512x22x22_S8x512x14x14_0_0_2_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 1] (padT (F := Ideal) b) slices_S8x512x22x22_S8x512x14x14_0_0_2_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 2] (padT (F := Ideal) b) slices_S8x512x22x22_S8x512x14x14_0_0_2_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 3] (padT (F := Ideal) b) slices_S8x512x22x22_S8x512x14x14_0_0_2_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 4] (padT (F := Ideal) b) slices_S8x512x22x22_S8x512x14x14_0_0_2_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 5] (padT (F := Ideal) b) slices_S8x512x22x22_S8x512x14x14_0_0_2_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 6] (padT (F := Ideal) b) slices_S8x512x22x22_S8x512x14x14_0_0_2_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 7] (padT (F := Ideal) b) slices_S8x512x22x22_S8x512x14x14_0_0_2_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 2, 8] (padT (F := Ideal) b) slices_S8x512x22x22_S8x512x14x14_0_0_2_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 2 8 a b _ _ _ _ (by decide) _ n 0 i j

/-- Row 3 read at an index: the nine planes of corr for displacements (3, 0 .. 8). -/
theorem rowRead3 (a b : Corr3.SA.Idx → EReal) : rowT3 (F := Ideal) a (padT b) = rowF 3 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 3 dj.val i j
  unfold rowT3
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 0] (padT (F := Ideal) b) slices_S8x512x22x22_S8x512x14x14_0_0_3_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 1] (padT (F := Ideal) b) slices_S8x512x22x22_S8x512x14x14_0_0_3_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 2] (padT (F := Ideal) b) slices_S8x512x22x22_S8x512x14x14_0_0_3_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 3] (padT (F := Ideal) b) slices_S8x512x22x22_S8x512x14x14_0_0_3_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 4] (padT (F := Ideal) b) slices_S8x512x22x22_S8x512x14x14_0_0_3_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 5] (padT (F := Ideal) b) slices_S8x512x22x22_S8x512x14x14_0_0_3_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 6] (padT (F := Ideal) b) slices_S8x512x22x22_S8x512x14x14_0_0_3_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 7] (padT (F := Ideal) b) slices_S8x512x22x22_S8x512x14x14_0_0_3_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 3, 8] (padT (F := Ideal) b) slices_S8x512x22x22_S8x512x14x14_0_0_3_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 3 8 a b _ _ _ _ (by decide) _ n 0 i j

/-- Row 4 read at an index: the nine planes of corr for displacements (4, 0 .. 8). -/
theorem rowRead4 (a b : Corr3.SA.Idx → EReal) : rowT4 (F := Ideal) a (padT b) = rowF 4 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 4 dj.val i j
  unfold rowT4
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 0] (padT (F := Ideal) b) slices_S8x512x22x22_S8x512x14x14_0_0_4_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 1] (padT (F := Ideal) b) slices_S8x512x22x22_S8x512x14x14_0_0_4_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 2] (padT (F := Ideal) b) slices_S8x512x22x22_S8x512x14x14_0_0_4_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 3] (padT (F := Ideal) b) slices_S8x512x22x22_S8x512x14x14_0_0_4_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 4] (padT (F := Ideal) b) slices_S8x512x22x22_S8x512x14x14_0_0_4_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 5] (padT (F := Ideal) b) slices_S8x512x22x22_S8x512x14x14_0_0_4_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 6] (padT (F := Ideal) b) slices_S8x512x22x22_S8x512x14x14_0_0_4_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 7] (padT (F := Ideal) b) slices_S8x512x22x22_S8x512x14x14_0_0_4_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 4, 8] (padT (F := Ideal) b) slices_S8x512x22x22_S8x512x14x14_0_0_4_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 4 8 a b _ _ _ _ (by decide) _ n 0 i j

/-- Row 5 read at an index: the nine planes of corr for displacements (5, 0 .. 8). -/
theorem rowRead5 (a b : Corr3.SA.Idx → EReal) : rowT5 (F := Ideal) a (padT b) = rowF 5 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 5 dj.val i j
  unfold rowT5
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 0] (padT (F := Ideal) b) slices_S8x512x22x22_S8x512x14x14_0_0_5_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 1] (padT (F := Ideal) b) slices_S8x512x22x22_S8x512x14x14_0_0_5_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 2] (padT (F := Ideal) b) slices_S8x512x22x22_S8x512x14x14_0_0_5_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 3] (padT (F := Ideal) b) slices_S8x512x22x22_S8x512x14x14_0_0_5_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 4] (padT (F := Ideal) b) slices_S8x512x22x22_S8x512x14x14_0_0_5_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 5] (padT (F := Ideal) b) slices_S8x512x22x22_S8x512x14x14_0_0_5_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 6] (padT (F := Ideal) b) slices_S8x512x22x22_S8x512x14x14_0_0_5_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 7] (padT (F := Ideal) b) slices_S8x512x22x22_S8x512x14x14_0_0_5_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 5, 8] (padT (F := Ideal) b) slices_S8x512x22x22_S8x512x14x14_0_0_5_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 5 8 a b _ _ _ _ (by decide) _ n 0 i j

/-- Row 6 read at an index: the nine planes of corr for displacements (6, 0 .. 8). -/
theorem rowRead6 (a b : Corr3.SA.Idx → EReal) : rowT6 (F := Ideal) a (padT b) = rowF 6 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 6 dj.val i j
  unfold rowT6
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 0] (padT (F := Ideal) b) slices_S8x512x22x22_S8x512x14x14_0_0_6_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 1] (padT (F := Ideal) b) slices_S8x512x22x22_S8x512x14x14_0_0_6_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 2] (padT (F := Ideal) b) slices_S8x512x22x22_S8x512x14x14_0_0_6_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 3] (padT (F := Ideal) b) slices_S8x512x22x22_S8x512x14x14_0_0_6_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 4] (padT (F := Ideal) b) slices_S8x512x22x22_S8x512x14x14_0_0_6_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 5] (padT (F := Ideal) b) slices_S8x512x22x22_S8x512x14x14_0_0_6_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 6] (padT (F := Ideal) b) slices_S8x512x22x22_S8x512x14x14_0_0_6_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 7] (padT (F := Ideal) b) slices_S8x512x22x22_S8x512x14x14_0_0_6_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 6, 8] (padT (F := Ideal) b) slices_S8x512x22x22_S8x512x14x14_0_0_6_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 6 8 a b _ _ _ _ (by decide) _ n 0 i j

/-- Row 7 read at an index: the nine planes of corr for displacements (7, 0 .. 8). -/
theorem rowRead7 (a b : Corr3.SA.Idx → EReal) : rowT7 (F := Ideal) a (padT b) = rowF 7 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 7 dj.val i j
  unfold rowT7
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 0] (padT (F := Ideal) b) slices_S8x512x22x22_S8x512x14x14_0_0_7_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 1] (padT (F := Ideal) b) slices_S8x512x22x22_S8x512x14x14_0_0_7_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 2] (padT (F := Ideal) b) slices_S8x512x22x22_S8x512x14x14_0_0_7_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 3] (padT (F := Ideal) b) slices_S8x512x22x22_S8x512x14x14_0_0_7_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 4] (padT (F := Ideal) b) slices_S8x512x22x22_S8x512x14x14_0_0_7_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 5] (padT (F := Ideal) b) slices_S8x512x22x22_S8x512x14x14_0_0_7_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 6] (padT (F := Ideal) b) slices_S8x512x22x22_S8x512x14x14_0_0_7_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 7] (padT (F := Ideal) b) slices_S8x512x22x22_S8x512x14x14_0_0_7_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 7, 8] (padT (F := Ideal) b) slices_S8x512x22x22_S8x512x14x14_0_0_7_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 7 8 a b _ _ _ _ (by decide) _ n 0 i j

/-- Row 8 read at an index: the nine planes of corr for displacements (8, 0 .. 8). -/
theorem rowRead8 (a b : Corr3.SA.Idx → EReal) : rowT8 (F := Ideal) a (padT b) = rowF 8 a b := by
  funext idx
  obtain ⟨n, dj, i, j, rfl⟩ : ∃ (n : Fin 8) (dj : Fin 9) (i : Fin 14) (j : Fin 14), idx = ix4 n dj i j :=
    ⟨idx 0, idx 1, idx 2, idx 3, eq_ix4 idx⟩
  show _ = corr a b n 8 dj.val i j
  unfold rowT8
  match dj with
  | ⟨0, hdj⟩ =>
    refine Eq.trans (concatenate_apply_piece (t := S8x9x14x14) (1 : Fin 4) _ _ (ix4 n (⟨0, hdj⟩ : Fin 9) i j) 0 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 0] (padT (F := Ideal) b) slices_S8x512x22x22_S8x512x14x14_0_0_8_0)) (constant (F := Ideal) S_ .f32 0x00000000#32) reducesTo_S8x512x14x14_S8x14x14_d1 h_S_)) ?_ rfl 0 ?_ (ix4 n (0 : Fin 1) i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 0 a b _ _ _ _ (by decide) _ n 0 i j
  | ⟨1, hdj⟩ =>
    refine Eq.trans (concatenate_apply_piece (t := S8x9x14x14) (1 : Fin 4) _ _ (ix4 n (⟨1, hdj⟩ : Fin 9) i j) 1 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 1] (padT (F := Ideal) b) slices_S8x512x22x22_S8x512x14x14_0_0_8_1)) (constant (F := Ideal) S_ .f32 0x00000000#32) reducesTo_S8x512x14x14_S8x14x14_d1 h_S_)) ?_ rfl 1 ?_ (ix4 n (0 : Fin 1) i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 1 a b _ _ _ _ (by decide) _ n 0 i j
  | ⟨2, hdj⟩ =>
    refine Eq.trans (concatenate_apply_piece (t := S8x9x14x14) (1 : Fin 4) _ _ (ix4 n (⟨2, hdj⟩ : Fin 9) i j) 2 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 2] (padT (F := Ideal) b) slices_S8x512x22x22_S8x512x14x14_0_0_8_2)) (constant (F := Ideal) S_ .f32 0x00000000#32) reducesTo_S8x512x14x14_S8x14x14_d1 h_S_)) ?_ rfl 2 ?_ (ix4 n (0 : Fin 1) i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 2 a b _ _ _ _ (by decide) _ n 0 i j
  | ⟨3, hdj⟩ =>
    refine Eq.trans (concatenate_apply_piece (t := S8x9x14x14) (1 : Fin 4) _ _ (ix4 n (⟨3, hdj⟩ : Fin 9) i j) 3 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 3] (padT (F := Ideal) b) slices_S8x512x22x22_S8x512x14x14_0_0_8_3)) (constant (F := Ideal) S_ .f32 0x00000000#32) reducesTo_S8x512x14x14_S8x14x14_d1 h_S_)) ?_ rfl 3 ?_ (ix4 n (0 : Fin 1) i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 3 a b _ _ _ _ (by decide) _ n 0 i j
  | ⟨4, hdj⟩ =>
    refine Eq.trans (concatenate_apply_piece (t := S8x9x14x14) (1 : Fin 4) _ _ (ix4 n (⟨4, hdj⟩ : Fin 9) i j) 4 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 4] (padT (F := Ideal) b) slices_S8x512x22x22_S8x512x14x14_0_0_8_4)) (constant (F := Ideal) S_ .f32 0x00000000#32) reducesTo_S8x512x14x14_S8x14x14_d1 h_S_)) ?_ rfl 4 ?_ (ix4 n (0 : Fin 1) i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 4 a b _ _ _ _ (by decide) _ n 0 i j
  | ⟨5, hdj⟩ =>
    refine Eq.trans (concatenate_apply_piece (t := S8x9x14x14) (1 : Fin 4) _ _ (ix4 n (⟨5, hdj⟩ : Fin 9) i j) 5 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 5] (padT (F := Ideal) b) slices_S8x512x22x22_S8x512x14x14_0_0_8_5)) (constant (F := Ideal) S_ .f32 0x00000000#32) reducesTo_S8x512x14x14_S8x14x14_d1 h_S_)) ?_ rfl 5 ?_ (ix4 n (0 : Fin 1) i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 5 a b _ _ _ _ (by decide) _ n 0 i j
  | ⟨6, hdj⟩ =>
    refine Eq.trans (concatenate_apply_piece (t := S8x9x14x14) (1 : Fin 4) _ _ (ix4 n (⟨6, hdj⟩ : Fin 9) i j) 6 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 6] (padT (F := Ideal) b) slices_S8x512x22x22_S8x512x14x14_0_0_8_6)) (constant (F := Ideal) S_ .f32 0x00000000#32) reducesTo_S8x512x14x14_S8x14x14_d1 h_S_)) ?_ rfl 6 ?_ (ix4 n (0 : Fin 1) i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 6 a b _ _ _ _ (by decide) _ n 0 i j
  | ⟨7, hdj⟩ =>
    refine Eq.trans (concatenate_apply_piece (t := S8x9x14x14) (1 : Fin 4) _ _ (ix4 n (⟨7, hdj⟩ : Fin 9) i j) 7 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 7] (padT (F := Ideal) b) slices_S8x512x22x22_S8x512x14x14_0_0_8_7)) (constant (F := Ideal) S_ .f32 0x00000000#32) reducesTo_S8x512x14x14_S8x14x14_d1 h_S_)) ?_ rfl 7 ?_ (ix4 n (0 : Fin 1) i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 7 a b _ _ _ _ (by decide) _ n 0 i j
  | ⟨8, hdj⟩ =>
    refine Eq.trans (concatenate_apply_piece (t := S8x9x14x14) (1 : Fin 4) _ _ (ix4 n (⟨8, hdj⟩ : Fin 9) i j) 8 ?_ S8x1x14x14 (broadcastInDim S8x1x14x14 ![0, 2, 3] bcast_S8x14x14_S8x1x14x14_0_2_3 (Host.reduceAdd (F := Ideal) (mulf (F := Ideal) (φ := .f32) a (extractStridedSlice S8x512x14x14 ![0, 0, 8, 8] (padT (F := Ideal) b) slices_S8x512x22x22_S8x512x14x14_0_0_8_8)) (constant (F := Ideal) S_ .f32 0x00000000#32) reducesTo_S8x512x14x14_S8x14x14_d1 h_S_)) ?_ rfl 8 ?_ (ix4 n (0 : Fin 1) i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
    · rfl
    · exact leaf 8 8 a b _ _ _ _ (by decide) _ n 0 i j

/-- The tail read at an index. -/
theorem tailRead (a b : Corr3.SA.Idx → EReal) :
    tailT (F := Ideal) (rowF 0 a b) (rowF 1 a b) (rowF 2 a b) (rowF 3 a b) (rowF 4 a b) (rowF 5 a b) (rowF 6 a b) (rowF 7 a b) (rowF 8 a b) = g5 a b := by
  funext idx
  obtain ⟨n, di, dj, i, j, rfl⟩ : ∃ (n : Fin 8) (di dj : Fin 9) (i : Fin 14) (j : Fin 14), idx = ix5 n di dj i j :=
    ⟨idx 0, idx 1, idx 2, idx 3, idx 4, eq_ix5 idx⟩
  rw [g5_apply]
  unfold tailT
  match di with
  | ⟨0, hdi⟩ =>
    refine Eq.trans (concatenate_apply_piece (t := S8x9x9x14x14) (1 : Fin 5) _ _ (ix5 n (⟨0, hdi⟩ : Fin 9) dj i j) 0 ?_ S8x1x9x14x14 (broadcastInDim S8x1x9x14x14 ![0, 2, 3, 4] bcast_S8x9x14x14_S8x1x9x14x14_0_2_3_4 (rowF 0 a b)) ?_ rfl 0 ?_ (ix5 n (0 : Fin 1) dj i j) ?_ ?_) ?_
    · exact (by decide : (0 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨1, hdi⟩ =>
    refine Eq.trans (concatenate_apply_piece (t := S8x9x9x14x14) (1 : Fin 5) _ _ (ix5 n (⟨1, hdi⟩ : Fin 9) dj i j) 1 ?_ S8x1x9x14x14 (broadcastInDim S8x1x9x14x14 ![0, 2, 3, 4] bcast_S8x9x14x14_S8x1x9x14x14_0_2_3_4 (rowF 1 a b)) ?_ rfl 1 ?_ (ix5 n (0 : Fin 1) dj i j) ?_ ?_) ?_
    · exact (by decide : (1 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨2, hdi⟩ =>
    refine Eq.trans (concatenate_apply_piece (t := S8x9x9x14x14) (1 : Fin 5) _ _ (ix5 n (⟨2, hdi⟩ : Fin 9) dj i j) 2 ?_ S8x1x9x14x14 (broadcastInDim S8x1x9x14x14 ![0, 2, 3, 4] bcast_S8x9x14x14_S8x1x9x14x14_0_2_3_4 (rowF 2 a b)) ?_ rfl 2 ?_ (ix5 n (0 : Fin 1) dj i j) ?_ ?_) ?_
    · exact (by decide : (2 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨3, hdi⟩ =>
    refine Eq.trans (concatenate_apply_piece (t := S8x9x9x14x14) (1 : Fin 5) _ _ (ix5 n (⟨3, hdi⟩ : Fin 9) dj i j) 3 ?_ S8x1x9x14x14 (broadcastInDim S8x1x9x14x14 ![0, 2, 3, 4] bcast_S8x9x14x14_S8x1x9x14x14_0_2_3_4 (rowF 3 a b)) ?_ rfl 3 ?_ (ix5 n (0 : Fin 1) dj i j) ?_ ?_) ?_
    · exact (by decide : (3 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨4, hdi⟩ =>
    refine Eq.trans (concatenate_apply_piece (t := S8x9x9x14x14) (1 : Fin 5) _ _ (ix5 n (⟨4, hdi⟩ : Fin 9) dj i j) 4 ?_ S8x1x9x14x14 (broadcastInDim S8x1x9x14x14 ![0, 2, 3, 4] bcast_S8x9x14x14_S8x1x9x14x14_0_2_3_4 (rowF 4 a b)) ?_ rfl 4 ?_ (ix5 n (0 : Fin 1) dj i j) ?_ ?_) ?_
    · exact (by decide : (4 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨5, hdi⟩ =>
    refine Eq.trans (concatenate_apply_piece (t := S8x9x9x14x14) (1 : Fin 5) _ _ (ix5 n (⟨5, hdi⟩ : Fin 9) dj i j) 5 ?_ S8x1x9x14x14 (broadcastInDim S8x1x9x14x14 ![0, 2, 3, 4] bcast_S8x9x14x14_S8x1x9x14x14_0_2_3_4 (rowF 5 a b)) ?_ rfl 5 ?_ (ix5 n (0 : Fin 1) dj i j) ?_ ?_) ?_
    · exact (by decide : (5 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨6, hdi⟩ =>
    refine Eq.trans (concatenate_apply_piece (t := S8x9x9x14x14) (1 : Fin 5) _ _ (ix5 n (⟨6, hdi⟩ : Fin 9) dj i j) 6 ?_ S8x1x9x14x14 (broadcastInDim S8x1x9x14x14 ![0, 2, 3, 4] bcast_S8x9x14x14_S8x1x9x14x14_0_2_3_4 (rowF 6 a b)) ?_ rfl 6 ?_ (ix5 n (0 : Fin 1) dj i j) ?_ ?_) ?_
    · exact (by decide : (6 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨7, hdi⟩ =>
    refine Eq.trans (concatenate_apply_piece (t := S8x9x9x14x14) (1 : Fin 5) _ _ (ix5 n (⟨7, hdi⟩ : Fin 9) dj i j) 7 ?_ S8x1x9x14x14 (broadcastInDim S8x1x9x14x14 ![0, 2, 3, 4] bcast_S8x9x14x14_S8x1x9x14x14_0_2_3_4 (rowF 7 a b)) ?_ rfl 7 ?_ (ix5 n (0 : Fin 1) dj i j) ?_ ?_) ?_
    · exact (by decide : (7 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl
  | ⟨8, hdi⟩ =>
    refine Eq.trans (concatenate_apply_piece (t := S8x9x9x14x14) (1 : Fin 5) _ _ (ix5 n (⟨8, hdi⟩ : Fin 9) dj i j) 8 ?_ S8x1x9x14x14 (broadcastInDim S8x1x9x14x14 ![0, 2, 3, 4] bcast_S8x9x14x14_S8x1x9x14x14_0_2_3_4 (rowF 8 a b)) ?_ rfl 8 ?_ (ix5 n (0 : Fin 1) dj i j) ?_ ?_) ?_
    · exact (by decide : (8 : ℕ) < 9)
    · rfl
    · rfl
    · intro b hb
      match b with
      | ⟨0, _⟩ => rfl
      | ⟨1, _⟩ => exact absurd rfl hb
      | ⟨2, _⟩ => rfl
      | ⟨3, _⟩ => rfl
      | ⟨4, _⟩ => rfl
    · rfl
    · refine Eq.trans (broadcastInDim_apply _ _ _ (ix5 n (0 : Fin 1) dj i j) (ix4 n dj i j) (fun a => match a with
        | ⟨0, _⟩ => by show n.val = if (8 : Nat) = 1 then 0 else n.val; rw [if_neg (by decide)]
        | ⟨1, _⟩ => by show dj.val = if (9 : Nat) = 1 then 0 else dj.val; rw [if_neg (by decide)]
        | ⟨2, _⟩ => by show i.val = if (14 : Nat) = 1 then 0 else i.val; rw [if_neg (by decide)]
        | ⟨3, _⟩ => by show j.val = if (14 : Nat) = 1 then 0 else j.val; rw [if_neg (by decide)])) ?_
      rfl

end Cert.ReferenceIdeal.Lvl3

end
-- ==== Proof.RefLevel3.lean ====
/-
  Level 3 of the reference as a run: each stretch's result is its composed term (the fold over the stretch computes
  it), a stretch's inputs are a, the padded b and the earlier rows' results, none of which a later stretch writes, and
  read at an index the level's result is g5 of the two feature maps as the level finds them.
-/
import proofs.«135875_j16999480558431_2_alg».proof.Proof.RefOps3
import proofs.«135875_j16999480558431_2_alg».proof.Proof.RefRead3

set_option maxRecDepth 8192

noncomputable section

namespace Cert.ReferenceIdeal.Lvl3

open Cert.ReferenceIdeal Cert.ReferenceIdeal.Gen Idealize.ShloMosaic Idealize.ShloMosaic.TcCoe Idealize.SL.Sem Idealize.ShloMosaic.StableHlo
open Idealize.ShloMosaic.ValueIdx RefLib Corr3 CorrJ3

variable {F : FTy → Type} [FloatOps F]

theorem evalR0 (V : Valuation τ sig (Elt F)) :
    after (opsR0 (F := F)) V (Proc.devRef .tc main_v1069) = rowT0 (V (Proc.devRef .tc main_arg3)) (V (Proc.devRef .tc main_v1032)) := rfl
theorem evalR1 (V : Valuation τ sig (Elt F)) :
    after (opsR1 (F := F)) V (Proc.devRef .tc main_v1106) = rowT1 (V (Proc.devRef .tc main_arg3)) (V (Proc.devRef .tc main_v1032)) := rfl
theorem evalR2 (V : Valuation τ sig (Elt F)) :
    after (opsR2 (F := F)) V (Proc.devRef .tc main_v1143) = rowT2 (V (Proc.devRef .tc main_arg3)) (V (Proc.devRef .tc main_v1032)) := rfl
theorem evalR3 (V : Valuation τ sig (Elt F)) :
    after (opsR3 (F := F)) V (Proc.devRef .tc main_v1180) = rowT3 (V (Proc.devRef .tc main_arg3)) (V (Proc.devRef .tc main_v1032)) := rfl
theorem evalR4 (V : Valuation τ sig (Elt F)) :
    after (opsR4 (F := F)) V (Proc.devRef .tc main_v1217) = rowT4 (V (Proc.devRef .tc main_arg3)) (V (Proc.devRef .tc main_v1032)) := rfl
theorem evalR5 (V : Valuation τ sig (Elt F)) :
    after (opsR5 (F := F)) V (Proc.devRef .tc main_v1254) = rowT5 (V (Proc.devRef .tc main_arg3)) (V (Proc.devRef .tc main_v1032)) := rfl
theorem evalR6 (V : Valuation τ sig (Elt F)) :
    after (opsR6 (F := F)) V (Proc.devRef .tc main_v1291) = rowT6 (V (Proc.devRef .tc main_arg3)) (V (Proc.devRef .tc main_v1032)) := rfl
theorem evalR7 (V : Valuation τ sig (Elt F)) :
    after (opsR7 (F := F)) V (Proc.devRef .tc main_v1328) = rowT7 (V (Proc.devRef .tc main_arg3)) (V (Proc.devRef .tc main_v1032)) := rfl
theorem evalR8 (V : Valuation τ sig (Elt F)) :
    after (opsR8 (F := F)) V (Proc.devRef .tc main_v1365) = rowT8 (V (Proc.devRef .tc main_arg3)) (V (Proc.devRef .tc main_v1032)) := rfl

theorem evalT (V : Valuation τ sig (Elt F)) :
    after (opsT (F := F)) V (Proc.devRef .tc main_v1375) = tailT (V (Proc.devRef .tc main_v1069)) (V (Proc.devRef .tc main_v1106)) (V (Proc.devRef .tc main_v1143)) (V (Proc.devRef .tc main_v1180)) (V (Proc.devRef .tc main_v1217)) (V (Proc.devRef .tc main_v1254)) (V (Proc.devRef .tc main_v1291)) (V (Proc.devRef .tc main_v1328)) (V (Proc.devRef .tc main_v1365)) := rfl

abbrev ch0 (V : Valuation τ sig (Elt F)) : Valuation τ sig (Elt F) := after opsH V
abbrev ch1 (V : Valuation τ sig (Elt F)) : Valuation τ sig (Elt F) := after opsR0 (ch0 V)
abbrev ch2 (V : Valuation τ sig (Elt F)) : Valuation τ sig (Elt F) := after opsR1 (ch1 V)
abbrev ch3 (V : Valuation τ sig (Elt F)) : Valuation τ sig (Elt F) := after opsR2 (ch2 V)
abbrev ch4 (V : Valuation τ sig (Elt F)) : Valuation τ sig (Elt F) := after opsR3 (ch3 V)
abbrev ch5 (V : Valuation τ sig (Elt F)) : Valuation τ sig (Elt F) := after opsR4 (ch4 V)
abbrev ch6 (V : Valuation τ sig (Elt F)) : Valuation τ sig (Elt F) := after opsR5 (ch5 V)
abbrev ch7 (V : Valuation τ sig (Elt F)) : Valuation τ sig (Elt F) := after opsR6 (ch6 V)
abbrev ch8 (V : Valuation τ sig (Elt F)) : Valuation τ sig (Elt F) := after opsR7 (ch7 V)
abbrev ch9 (V : Valuation τ sig (Elt F)) : Valuation τ sig (Elt F) := after opsR8 (ch8 V)

theorem chA0 (V : Valuation τ sig (Elt F)) : ch0 V (Proc.devRef .tc main_arg3) = V (Proc.devRef .tc main_arg3) :=
  after_of_writes_sub _ _ hWH (by decide)
theorem chA1 (V : Valuation τ sig (Elt F)) : ch1 V (Proc.devRef .tc main_arg3) = V (Proc.devRef .tc main_arg3) :=
  (after_of_writes_sub _ _ hWR0 (by decide)).trans (chA0 V)
theorem chA2 (V : Valuation τ sig (Elt F)) : ch2 V (Proc.devRef .tc main_arg3) = V (Proc.devRef .tc main_arg3) :=
  (after_of_writes_sub _ _ hWR1 (by decide)).trans (chA1 V)
theorem chA3 (V : Valuation τ sig (Elt F)) : ch3 V (Proc.devRef .tc main_arg3) = V (Proc.devRef .tc main_arg3) :=
  (after_of_writes_sub _ _ hWR2 (by decide)).trans (chA2 V)
theorem chA4 (V : Valuation τ sig (Elt F)) : ch4 V (Proc.devRef .tc main_arg3) = V (Proc.devRef .tc main_arg3) :=
  (after_of_writes_sub _ _ hWR3 (by decide)).trans (chA3 V)
theorem chA5 (V : Valuation τ sig (Elt F)) : ch5 V (Proc.devRef .tc main_arg3) = V (Proc.devRef .tc main_arg3) :=
  (after_of_writes_sub _ _ hWR4 (by decide)).trans (chA4 V)
theorem chA6 (V : Valuation τ sig (Elt F)) : ch6 V (Proc.devRef .tc main_arg3) = V (Proc.devRef .tc main_arg3) :=
  (after_of_writes_sub _ _ hWR5 (by decide)).trans (chA5 V)
theorem chA7 (V : Valuation τ sig (Elt F)) : ch7 V (Proc.devRef .tc main_arg3) = V (Proc.devRef .tc main_arg3) :=
  (after_of_writes_sub _ _ hWR6 (by decide)).trans (chA6 V)
theorem chA8 (V : Valuation τ sig (Elt F)) : ch8 V (Proc.devRef .tc main_arg3) = V (Proc.devRef .tc main_arg3) :=
  (after_of_writes_sub _ _ hWR7 (by decide)).trans (chA7 V)
theorem chA9 (V : Valuation τ sig (Elt F)) : ch9 V (Proc.devRef .tc main_arg3) = V (Proc.devRef .tc main_arg3) :=
  (after_of_writes_sub _ _ hWR8 (by decide)).trans (chA8 V)

theorem chP0 (V : Valuation τ sig (Elt F)) : ch0 V (Proc.devRef .tc main_v1032) = padT (V (Proc.devRef .tc main_arg7)) := rfl
theorem chP1 (V : Valuation τ sig (Elt F)) : ch1 V (Proc.devRef .tc main_v1032) = padT (V (Proc.devRef .tc main_arg7)) :=
  (after_of_writes_sub _ _ hWR0 (by decide)).trans (chP0 V)
theorem chP2 (V : Valuation τ sig (Elt F)) : ch2 V (Proc.devRef .tc main_v1032) = padT (V (Proc.devRef .tc main_arg7)) :=
  (after_of_writes_sub _ _ hWR1 (by decide)).trans (chP1 V)
theorem chP3 (V : Valuation τ sig (Elt F)) : ch3 V (Proc.devRef .tc main_v1032) = padT (V (Proc.devRef .tc main_arg7)) :=
  (after_of_writes_sub _ _ hWR2 (by decide)).trans (chP2 V)
theorem chP4 (V : Valuation τ sig (Elt F)) : ch4 V (Proc.devRef .tc main_v1032) = padT (V (Proc.devRef .tc main_arg7)) :=
  (after_of_writes_sub _ _ hWR3 (by decide)).trans (chP3 V)
theorem chP5 (V : Valuation τ sig (Elt F)) : ch5 V (Proc.devRef .tc main_v1032) = padT (V (Proc.devRef .tc main_arg7)) :=
  (after_of_writes_sub _ _ hWR4 (by decide)).trans (chP4 V)
theorem chP6 (V : Valuation τ sig (Elt F)) : ch6 V (Proc.devRef .tc main_v1032) = padT (V (Proc.devRef .tc main_arg7)) :=
  (after_of_writes_sub _ _ hWR5 (by decide)).trans (chP5 V)
theorem chP7 (V : Valuation τ sig (Elt F)) : ch7 V (Proc.devRef .tc main_v1032) = padT (V (Proc.devRef .tc main_arg7)) :=
  (after_of_writes_sub _ _ hWR6 (by decide)).trans (chP6 V)
theorem chP8 (V : Valuation τ sig (Elt F)) : ch8 V (Proc.devRef .tc main_v1032) = padT (V (Proc.devRef .tc main_arg7)) :=
  (after_of_writes_sub _ _ hWR7 (by decide)).trans (chP7 V)
theorem chP9 (V : Valuation τ sig (Elt F)) : ch9 V (Proc.devRef .tc main_v1032) = padT (V (Proc.devRef .tc main_arg7)) :=
  (after_of_writes_sub _ _ hWR8 (by decide)).trans (chP8 V)

theorem chRow0_1 (V : Valuation τ sig (Elt Ideal)) :
    ch1 V (Proc.devRef .tc main_v1069) = rowF 0 (V (Proc.devRef .tc main_arg3)) (V (Proc.devRef .tc main_arg7)) := by
  refine (evalR0 (ch0 V)).trans ?_
  rw [chA0 V, chP0 V]
  exact rowRead0 _ _
theorem chRow0_2 (V : Valuation τ sig (Elt Ideal)) :
    ch2 V (Proc.devRef .tc main_v1069) = rowF 0 (V (Proc.devRef .tc main_arg3)) (V (Proc.devRef .tc main_arg7)) :=
  (after_of_writes_sub _ _ hWR1 (by decide)).trans (chRow0_1 V)
theorem chRow0_3 (V : Valuation τ sig (Elt Ideal)) :
    ch3 V (Proc.devRef .tc main_v1069) = rowF 0 (V (Proc.devRef .tc main_arg3)) (V (Proc.devRef .tc main_arg7)) :=
  (after_of_writes_sub _ _ hWR2 (by decide)).trans (chRow0_2 V)
theorem chRow0_4 (V : Valuation τ sig (Elt Ideal)) :
    ch4 V (Proc.devRef .tc main_v1069) = rowF 0 (V (Proc.devRef .tc main_arg3)) (V (Proc.devRef .tc main_arg7)) :=
  (after_of_writes_sub _ _ hWR3 (by decide)).trans (chRow0_3 V)
theorem chRow0_5 (V : Valuation τ sig (Elt Ideal)) :
    ch5 V (Proc.devRef .tc main_v1069) = rowF 0 (V (Proc.devRef .tc main_arg3)) (V (Proc.devRef .tc main_arg7)) :=
  (after_of_writes_sub _ _ hWR4 (by decide)).trans (chRow0_4 V)
theorem chRow0_6 (V : Valuation τ sig (Elt Ideal)) :
    ch6 V (Proc.devRef .tc main_v1069) = rowF 0 (V (Proc.devRef .tc main_arg3)) (V (Proc.devRef .tc main_arg7)) :=
  (after_of_writes_sub _ _ hWR5 (by decide)).trans (chRow0_5 V)
theorem chRow0_7 (V : Valuation τ sig (Elt Ideal)) :
    ch7 V (Proc.devRef .tc main_v1069) = rowF 0 (V (Proc.devRef .tc main_arg3)) (V (Proc.devRef .tc main_arg7)) :=
  (after_of_writes_sub _ _ hWR6 (by decide)).trans (chRow0_6 V)
theorem chRow0_8 (V : Valuation τ sig (Elt Ideal)) :
    ch8 V (Proc.devRef .tc main_v1069) = rowF 0 (V (Proc.devRef .tc main_arg3)) (V (Proc.devRef .tc main_arg7)) :=
  (after_of_writes_sub _ _ hWR7 (by decide)).trans (chRow0_7 V)
theorem chRow0_9 (V : Valuation τ sig (Elt Ideal)) :
    ch9 V (Proc.devRef .tc main_v1069) = rowF 0 (V (Proc.devRef .tc main_arg3)) (V (Proc.devRef .tc main_arg7)) :=
  (after_of_writes_sub _ _ hWR8 (by decide)).trans (chRow0_8 V)
theorem chRow1_2 (V : Valuation τ sig (Elt Ideal)) :
    ch2 V (Proc.devRef .tc main_v1106) = rowF 1 (V (Proc.devRef .tc main_arg3)) (V (Proc.devRef .tc main_arg7)) := by
  refine (evalR1 (ch1 V)).trans ?_
  rw [chA1 V, chP1 V]
  exact rowRead1 _ _
theorem chRow1_3 (V : Valuation τ sig (Elt Ideal)) :
    ch3 V (Proc.devRef .tc main_v1106) = rowF 1 (V (Proc.devRef .tc main_arg3)) (V (Proc.devRef .tc main_arg7)) :=
  (after_of_writes_sub _ _ hWR2 (by decide)).trans (chRow1_2 V)
theorem chRow1_4 (V : Valuation τ sig (Elt Ideal)) :
    ch4 V (Proc.devRef .tc main_v1106) = rowF 1 (V (Proc.devRef .tc main_arg3)) (V (Proc.devRef .tc main_arg7)) :=
  (after_of_writes_sub _ _ hWR3 (by decide)).trans (chRow1_3 V)
theorem chRow1_5 (V : Valuation τ sig (Elt Ideal)) :
    ch5 V (Proc.devRef .tc main_v1106) = rowF 1 (V (Proc.devRef .tc main_arg3)) (V (Proc.devRef .tc main_arg7)) :=
  (after_of_writes_sub _ _ hWR4 (by decide)).trans (chRow1_4 V)
theorem chRow1_6 (V : Valuation τ sig (Elt Ideal)) :
    ch6 V (Proc.devRef .tc main_v1106) = rowF 1 (V (Proc.devRef .tc main_arg3)) (V (Proc.devRef .tc main_arg7)) :=
  (after_of_writes_sub _ _ hWR5 (by decide)).trans (chRow1_5 V)
theorem chRow1_7 (V : Valuation τ sig (Elt Ideal)) :
    ch7 V (Proc.devRef .tc main_v1106) = rowF 1 (V (Proc.devRef .tc main_arg3)) (V (Proc.devRef .tc main_arg7)) :=
  (after_of_writes_sub _ _ hWR6 (by decide)).trans (chRow1_6 V)
theorem chRow1_8 (V : Valuation τ sig (Elt Ideal)) :
    ch8 V (Proc.devRef .tc main_v1106) = rowF 1 (V (Proc.devRef .tc main_arg3)) (V (Proc.devRef .tc main_arg7)) :=
  (after_of_writes_sub _ _ hWR7 (by decide)).trans (chRow1_7 V)
theorem chRow1_9 (V : Valuation τ sig (Elt Ideal)) :
    ch9 V (Proc.devRef .tc main_v1106) = rowF 1 (V (Proc.devRef .tc main_arg3)) (V (Proc.devRef .tc main_arg7)) :=
  (after_of_writes_sub _ _ hWR8 (by decide)).trans (chRow1_8 V)
theorem chRow2_3 (V : Valuation τ sig (Elt Ideal)) :
    ch3 V (Proc.devRef .tc main_v1143) = rowF 2 (V (Proc.devRef .tc main_arg3)) (V (Proc.devRef .tc main_arg7)) := by
  refine (evalR2 (ch2 V)).trans ?_
  rw [chA2 V, chP2 V]
  exact rowRead2 _ _
theorem chRow2_4 (V : Valuation τ sig (Elt Ideal)) :
    ch4 V (Proc.devRef .tc main_v1143) = rowF 2 (V (Proc.devRef .tc main_arg3)) (V (Proc.devRef .tc main_arg7)) :=
  (after_of_writes_sub _ _ hWR3 (by decide)).trans (chRow2_3 V)
theorem chRow2_5 (V : Valuation τ sig (Elt Ideal)) :
    ch5 V (Proc.devRef .tc main_v1143) = rowF 2 (V (Proc.devRef .tc main_arg3)) (V (Proc.devRef .tc main_arg7)) :=
  (after_of_writes_sub _ _ hWR4 (by decide)).trans (chRow2_4 V)
theorem chRow2_6 (V : Valuation τ sig (Elt Ideal)) :
    ch6 V (Proc.devRef .tc main_v1143) = rowF 2 (V (Proc.devRef .tc main_arg3)) (V (Proc.devRef .tc main_arg7)) :=
  (after_of_writes_sub _ _ hWR5 (by decide)).trans (chRow2_5 V)
theorem chRow2_7 (V : Valuation τ sig (Elt Ideal)) :
    ch7 V (Proc.devRef .tc main_v1143) = rowF 2 (V (Proc.devRef .tc main_arg3)) (V (Proc.devRef .tc main_arg7)) :=
  (after_of_writes_sub _ _ hWR6 (by decide)).trans (chRow2_6 V)
theorem chRow2_8 (V : Valuation τ sig (Elt Ideal)) :
    ch8 V (Proc.devRef .tc main_v1143) = rowF 2 (V (Proc.devRef .tc main_arg3)) (V (Proc.devRef .tc main_arg7)) :=
  (after_of_writes_sub _ _ hWR7 (by decide)).trans (chRow2_7 V)
theorem chRow2_9 (V : Valuation τ sig (Elt Ideal)) :
    ch9 V (Proc.devRef .tc main_v1143) = rowF 2 (V (Proc.devRef .tc main_arg3)) (V (Proc.devRef .tc main_arg7)) :=
  (after_of_writes_sub _ _ hWR8 (by decide)).trans (chRow2_8 V)
theorem chRow3_4 (V : Valuation τ sig (Elt Ideal)) :
    ch4 V (Proc.devRef .tc main_v1180) = rowF 3 (V (Proc.devRef .tc main_arg3)) (V (Proc.devRef .tc main_arg7)) := by
  refine (evalR3 (ch3 V)).trans ?_
  rw [chA3 V, chP3 V]
  exact rowRead3 _ _
theorem chRow3_5 (V : Valuation τ sig (Elt Ideal)) :
    ch5 V (Proc.devRef .tc main_v1180) = rowF 3 (V (Proc.devRef .tc main_arg3)) (V (Proc.devRef .tc main_arg7)) :=
  (after_of_writes_sub _ _ hWR4 (by decide)).trans (chRow3_4 V)
theorem chRow3_6 (V : Valuation τ sig (Elt Ideal)) :
    ch6 V (Proc.devRef .tc main_v1180) = rowF 3 (V (Proc.devRef .tc main_arg3)) (V (Proc.devRef .tc main_arg7)) :=
  (after_of_writes_sub _ _ hWR5 (by decide)).trans (chRow3_5 V)
theorem chRow3_7 (V : Valuation τ sig (Elt Ideal)) :
    ch7 V (Proc.devRef .tc main_v1180) = rowF 3 (V (Proc.devRef .tc main_arg3)) (V (Proc.devRef .tc main_arg7)) :=
  (after_of_writes_sub _ _ hWR6 (by decide)).trans (chRow3_6 V)
theorem chRow3_8 (V : Valuation τ sig (Elt Ideal)) :
    ch8 V (Proc.devRef .tc main_v1180) = rowF 3 (V (Proc.devRef .tc main_arg3)) (V (Proc.devRef .tc main_arg7)) :=
  (after_of_writes_sub _ _ hWR7 (by decide)).trans (chRow3_7 V)
theorem chRow3_9 (V : Valuation τ sig (Elt Ideal)) :
    ch9 V (Proc.devRef .tc main_v1180) = rowF 3 (V (Proc.devRef .tc main_arg3)) (V (Proc.devRef .tc main_arg7)) :=
  (after_of_writes_sub _ _ hWR8 (by decide)).trans (chRow3_8 V)
theorem chRow4_5 (V : Valuation τ sig (Elt Ideal)) :
    ch5 V (Proc.devRef .tc main_v1217) = rowF 4 (V (Proc.devRef .tc main_arg3)) (V (Proc.devRef .tc main_arg7)) := by
  refine (evalR4 (ch4 V)).trans ?_
  rw [chA4 V, chP4 V]
  exact rowRead4 _ _
theorem chRow4_6 (V : Valuation τ sig (Elt Ideal)) :
    ch6 V (Proc.devRef .tc main_v1217) = rowF 4 (V (Proc.devRef .tc main_arg3)) (V (Proc.devRef .tc main_arg7)) :=
  (after_of_writes_sub _ _ hWR5 (by decide)).trans (chRow4_5 V)
theorem chRow4_7 (V : Valuation τ sig (Elt Ideal)) :
    ch7 V (Proc.devRef .tc main_v1217) = rowF 4 (V (Proc.devRef .tc main_arg3)) (V (Proc.devRef .tc main_arg7)) :=
  (after_of_writes_sub _ _ hWR6 (by decide)).trans (chRow4_6 V)
theorem chRow4_8 (V : Valuation τ sig (Elt Ideal)) :
    ch8 V (Proc.devRef .tc main_v1217) = rowF 4 (V (Proc.devRef .tc main_arg3)) (V (Proc.devRef .tc main_arg7)) :=
  (after_of_writes_sub _ _ hWR7 (by decide)).trans (chRow4_7 V)
theorem chRow4_9 (V : Valuation τ sig (Elt Ideal)) :
    ch9 V (Proc.devRef .tc main_v1217) = rowF 4 (V (Proc.devRef .tc main_arg3)) (V (Proc.devRef .tc main_arg7)) :=
  (after_of_writes_sub _ _ hWR8 (by decide)).trans (chRow4_8 V)
theorem chRow5_6 (V : Valuation τ sig (Elt Ideal)) :
    ch6 V (Proc.devRef .tc main_v1254) = rowF 5 (V (Proc.devRef .tc main_arg3)) (V (Proc.devRef .tc main_arg7)) := by
  refine (evalR5 (ch5 V)).trans ?_
  rw [chA5 V, chP5 V]
  exact rowRead5 _ _
theorem chRow5_7 (V : Valuation τ sig (Elt Ideal)) :
    ch7 V (Proc.devRef .tc main_v1254) = rowF 5 (V (Proc.devRef .tc main_arg3)) (V (Proc.devRef .tc main_arg7)) :=
  (after_of_writes_sub _ _ hWR6 (by decide)).trans (chRow5_6 V)
theorem chRow5_8 (V : Valuation τ sig (Elt Ideal)) :
    ch8 V (Proc.devRef .tc main_v1254) = rowF 5 (V (Proc.devRef .tc main_arg3)) (V (Proc.devRef .tc main_arg7)) :=
  (after_of_writes_sub _ _ hWR7 (by decide)).trans (chRow5_7 V)
theorem chRow5_9 (V : Valuation τ sig (Elt Ideal)) :
    ch9 V (Proc.devRef .tc main_v1254) = rowF 5 (V (Proc.devRef .tc main_arg3)) (V (Proc.devRef .tc main_arg7)) :=
  (after_of_writes_sub _ _ hWR8 (by decide)).trans (chRow5_8 V)
theorem chRow6_7 (V : Valuation τ sig (Elt Ideal)) :
    ch7 V (Proc.devRef .tc main_v1291) = rowF 6 (V (Proc.devRef .tc main_arg3)) (V (Proc.devRef .tc main_arg7)) := by
  refine (evalR6 (ch6 V)).trans ?_
  rw [chA6 V, chP6 V]
  exact rowRead6 _ _
theorem chRow6_8 (V : Valuation τ sig (Elt Ideal)) :
    ch8 V (Proc.devRef .tc main_v1291) = rowF 6 (V (Proc.devRef .tc main_arg3)) (V (Proc.devRef .tc main_arg7)) :=
  (after_of_writes_sub _ _ hWR7 (by decide)).trans (chRow6_7 V)
theorem chRow6_9 (V : Valuation τ sig (Elt Ideal)) :
    ch9 V (Proc.devRef .tc main_v1291) = rowF 6 (V (Proc.devRef .tc main_arg3)) (V (Proc.devRef .tc main_arg7)) :=
  (after_of_writes_sub _ _ hWR8 (by decide)).trans (chRow6_8 V)
theorem chRow7_8 (V : Valuation τ sig (Elt Ideal)) :
    ch8 V (Proc.devRef .tc main_v1328) = rowF 7 (V (Proc.devRef .tc main_arg3)) (V (Proc.devRef .tc main_arg7)) := by
  refine (evalR7 (ch7 V)).trans ?_
  rw [chA7 V, chP7 V]
  exact rowRead7 _ _
theorem chRow7_9 (V : Valuation τ sig (Elt Ideal)) :
    ch9 V (Proc.devRef .tc main_v1328) = rowF 7 (V (Proc.devRef .tc main_arg3)) (V (Proc.devRef .tc main_arg7)) :=
  (after_of_writes_sub _ _ hWR8 (by decide)).trans (chRow7_8 V)
theorem chRow8_9 (V : Valuation τ sig (Elt Ideal)) :
    ch9 V (Proc.devRef .tc main_v1365) = rowF 8 (V (Proc.devRef .tc main_arg3)) (V (Proc.devRef .tc main_arg7)) := by
  refine (evalR8 (ch8 V)).trans ?_
  rw [chA8 V, chP8 V]
  exact rowRead8 _ _

/-- The level's result after its operations: g5 of the two feature maps as the level finds them. -/
theorem level_res (V : Valuation τ sig (Elt Ideal)) :
    after (opsL (F := Ideal)) V (Proc.devRef .tc main_v1375) = g5 (V (Proc.devRef .tc main_arg3)) (V (Proc.devRef .tc main_arg7)) := by
  simp only [opsL, StableHlo.after_append]
  refine (evalT (ch9 V)).trans ?_
  rw [chRow0_9 V, chRow1_9 V, chRow2_9 V, chRow3_9 V, chRow4_9 V, chRow5_9 V, chRow6_9 V, chRow7_9 V, chRow8_9 V]
  exact tailRead _ _

end Cert.ReferenceIdeal.Lvl3

end
-- ==== Proof.RefMain.lean ====
/-
  The idealized reference's @main is printed in 29 windows of at most 61 host operations.  Each window is the straight
  line of its operations, and @main, the windows one after the other, is the straight line of all 1708.
-/
import proofs.«135875_j16999480558431_2_alg».proof.Proof.Gen.ReferenceIdeal
import Idealize.ShloMosaic.Lib.StableHlo.Run
import Idealize.ShloMosaic.Lib.Pipeline.Regions

set_option maxRecDepth 16384

noncomputable section

namespace Cert.ReferenceIdeal.RefMain

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main. -/
abbrev opsP0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x64x112x112, .f32⟩) main_arg4) (TRef.of (T := ⟨S_, .f32⟩) main_call0_v0) (TRef.of (T := ⟨S8x64x120x120, .f32⟩) main_v0) (fun x v => pad S8x64x120x120 ![0, 0, 4, 4] ![0, 0, 4, 4] ![0, 0, 0, 0] x v pads_S8x64x112x112_S8x64x120x120_000_000_440_440 h_S_),
    unary main_v0 main_v1 ((extractStridedSlice S8x64x112x112 ![0, 0, 0, 0] · slices_S8x64x120x120_S8x64x112x112_0_0_0_0) : (⟨S8x64x120x120, .f32⟩ : BufTy).Contents (Elt F) → (⟨S8x64x112x112, .f32⟩ : BufTy).Contents (Elt F)),
    binary main_arg0 main_v1 main_v2 (mulf : (⟨S8x64x112x112, .f32⟩ : BufTy).Contents (Elt F) → (⟨S8x64x112x112, .f32⟩ : BufTy).Contents (Elt F) → (⟨S8x64x112x112, .f32⟩ : BufTy).Contents (Elt F)),
    nullary main_cst (constant S_ .f32 0x00000000#32),
    binary main_v2 main_cst main_v3 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v4 ((extractStridedSlice S8x64x112x112 ![0, 0, 0, 1] · slices_S8x64x120x120_S8x64x112x112_0_0_0_1) : (⟨S8x64x120x120, .f32⟩ : BufTy).Contents (Elt F) → (⟨S8x64x112x112, .f32⟩ : BufTy).Contents (Elt F)),
    binary main_arg0 main_v4 main_v5 (mulf : (⟨S8x64x112x112, .f32⟩ : BufTy).Contents (Elt F) → (⟨S8x64x112x112, .f32⟩ : BufTy).Contents (Elt F) → (⟨S8x64x112x112, .f32⟩ : BufTy).Contents (Elt F)),
    nullary main_cst_0 (constant S_ .f32 0x00000000#32),
    binary main_v5 main_cst_0 main_v6 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v7 ((extractStridedSlice S8x64x112x112 ![0, 0, 0, 2] · slices_S8x64x120x120_S8x64x112x112_0_0_0_2) : (⟨S8x64x120x120, .f32⟩ : BufTy).Contents (Elt F) → (⟨S8x64x112x112, .f32⟩ : BufTy).Contents (Elt F)),
    binary main_arg0 main_v7 main_v8 (mulf : (⟨S8x64x112x112, .f32⟩ : BufTy).Contents (Elt F) → (⟨S8x64x112x112, .f32⟩ : BufTy).Contents (Elt F) → (⟨S8x64x112x112, .f32⟩ : BufTy).Contents (Elt F)),
    nullary main_cst_1 (constant S_ .f32 0x00000000#32),
    binary main_v8 main_cst_1 main_v9 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v10 ((extractStridedSlice S8x64x112x112 ![0, 0, 0, 3] · slices_S8x64x120x120_S8x64x112x112_0_0_0_3) : (⟨S8x64x120x120, .f32⟩ : BufTy).Contents (Elt F) → (⟨S8x64x112x112, .f32⟩ : BufTy).Contents (Elt F)),
    binary main_arg0 main_v10 main_v11 (mulf : (⟨S8x64x112x112, .f32⟩ : BufTy).Contents (Elt F) → (⟨S8x64x112x112, .f32⟩ : BufTy).Contents (Elt F) → (⟨S8x64x112x112, .f32⟩ : BufTy).Contents (Elt F)),
    nullary main_cst_2 (constant S_ .f32 0x00000000#32),
    binary main_v11 main_cst_2 main_v12 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v13 ((extractStridedSlice S8x64x112x112 ![0, 0, 0, 4] · slices_S8x64x120x120_S8x64x112x112_0_0_0_4) : (⟨S8x64x120x120, .f32⟩ : BufTy).Contents (Elt F) → (⟨S8x64x112x112, .f32⟩ : BufTy).Contents (Elt F)),
    binary main_arg0 main_v13 main_v14 (mulf : (⟨S8x64x112x112, .f32⟩ : BufTy).Contents (Elt F) → (⟨S8x64x112x112, .f32⟩ : BufTy).Contents (Elt F) → (⟨S8x64x112x112, .f32⟩ : BufTy).Contents (Elt F)),
    nullary main_cst_3 (constant S_ .f32 0x00000000#32),
    binary main_v14 main_cst_3 main_v15 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v16 ((extractStridedSlice S8x64x112x112 ![0, 0, 0, 5] · slices_S8x64x120x120_S8x64x112x112_0_0_0_5) : (⟨S8x64x120x120, .f32⟩ : BufTy).Contents (Elt F) → (⟨S8x64x112x112, .f32⟩ : BufTy).Contents (Elt F)),
    binary main_arg0 main_v16 main_v17 (mulf : (⟨S8x64x112x112, .f32⟩ : BufTy).Contents (Elt F) → (⟨S8x64x112x112, .f32⟩ : BufTy).Contents (Elt F) → (⟨S8x64x112x112, .f32⟩ : BufTy).Contents (Elt F)),
    nullary main_cst_4 (constant S_ .f32 0x00000000#32),
    binary main_v17 main_cst_4 main_v18 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v19 ((extractStridedSlice S8x64x112x112 ![0, 0, 0, 6] · slices_S8x64x120x120_S8x64x112x112_0_0_0_6) : (⟨S8x64x120x120, .f32⟩ : BufTy).Contents (Elt F) → (⟨S8x64x112x112, .f32⟩ : BufTy).Contents (Elt F)),
    binary main_arg0 main_v19 main_v20 (mulf : (⟨S8x64x112x112, .f32⟩ : BufTy).Contents (Elt F) → (⟨S8x64x112x112, .f32⟩ : BufTy).Contents (Elt F) → (⟨S8x64x112x112, .f32⟩ : BufTy).Contents (Elt F)),
    nullary main_cst_5 (constant S_ .f32 0x00000000#32),
    binary main_v20 main_cst_5 main_v21 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v22 ((extractStridedSlice S8x64x112x112 ![0, 0, 0, 7] · slices_S8x64x120x120_S8x64x112x112_0_0_0_7) : (⟨S8x64x120x120, .f32⟩ : BufTy).Contents (Elt F) → (⟨S8x64x112x112, .f32⟩ : BufTy).Contents (Elt F)),
    binary main_arg0 main_v22 main_v23 (mulf : (⟨S8x64x112x112, .f32⟩ : BufTy).Contents (Elt F) → (⟨S8x64x112x112, .f32⟩ : BufTy).Contents (Elt F) → (⟨S8x64x112x112, .f32⟩ : BufTy).Contents (Elt F)),
    nullary main_cst_6 (constant S_ .f32 0x00000000#32),
    binary main_v23 main_cst_6 main_v24 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v25 ((extractStridedSlice S8x64x112x112 ![0, 0, 0, 8] · slices_S8x64x120x120_S8x64x112x112_0_0_0_8) : (⟨S8x64x120x120, .f32⟩ : BufTy).Contents (Elt F) → (⟨S8x64x112x112, .f32⟩ : BufTy).Contents (Elt F)),
    binary main_arg0 main_v25 main_v26 (mulf : (⟨S8x64x112x112, .f32⟩ : BufTy).Contents (Elt F) → (⟨S8x64x112x112, .f32⟩ : BufTy).Contents (Elt F) → (⟨S8x64x112x112, .f32⟩ : BufTy).Contents (Elt F)),
    nullary main_cst_7 (constant S_ .f32 0x00000000#32),
    binary main_v26 main_cst_7 main_v27 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v3 main_v28 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v6 main_v29 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v9 main_v30 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v12 main_v31 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v15 main_v32 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v18 main_v33 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v21 main_v34 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v24 main_v35 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v27 main_v36 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v28, main_v29, main_v30, main_v31, main_v32, main_v33, main_v34, main_v35, main_v36] main_v37 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v38 ((extractStridedSlice S8x64x112x112 ![0, 0, 1, 0] · slices_S8x64x120x120_S8x64x112x112_0_0_1_0) : (⟨S8x64x120x120, .f32⟩ : BufTy).Contents (Elt F) → (⟨S8x64x112x112, .f32⟩ : BufTy).Contents (Elt F)),
    binary main_arg0 main_v38 main_v39 (mulf : (⟨S8x64x112x112, .f32⟩ : BufTy).Contents (Elt F) → (⟨S8x64x112x112, .f32⟩ : BufTy).Contents (Elt F) → (⟨S8x64x112x112, .f32⟩ : BufTy).Contents (Elt F)),
    nullary main_cst_8 (constant S_ .f32 0x00000000#32),
    binary main_v39 main_cst_8 main_v40 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v41 ((extractStridedSlice S8x64x112x112 ![0, 0, 1, 1] · slices_S8x64x120x120_S8x64x112x112_0_0_1_1) : (⟨S8x64x120x120, .f32⟩ : BufTy).Contents (Elt F) → (⟨S8x64x112x112, .f32⟩ : BufTy).Contents (Elt F)),
    binary main_arg0 main_v41 main_v42 (mulf : (⟨S8x64x112x112, .f32⟩ : BufTy).Contents (Elt F) → (⟨S8x64x112x112, .f32⟩ : BufTy).Contents (Elt F) → (⟨S8x64x112x112, .f32⟩ : BufTy).Contents (Elt F)),
    nullary main_cst_9 (constant S_ .f32 0x00000000#32),
    binary main_v42 main_cst_9 main_v43 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v44 ((extractStridedSlice S8x64x112x112 ![0, 0, 1, 2] · slices_S8x64x120x120_S8x64x112x112_0_0_1_2) : (⟨S8x64x120x120, .f32⟩ : BufTy).Contents (Elt F) → (⟨S8x64x112x112, .f32⟩ : BufTy).Contents (Elt F)),
    binary main_arg0 main_v44 main_v45 (mulf : (⟨S8x64x112x112, .f32⟩ : BufTy).Contents (Elt F) → (⟨S8x64x112x112, .f32⟩ : BufTy).Contents (Elt F) → (⟨S8x64x112x112, .f32⟩ : BufTy).Contents (Elt F)),
    nullary main_cst_10 (constant S_ .f32 0x00000000#32),
    binary main_v45 main_cst_10 main_v46 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)) ]

set_option maxHeartbeats 0 in
theorem part0_eq (d : Dev nD) : main_part0 (F := F) d = seq opsP0 := by chain_rfl

/-- The operations of window 1 of @main. -/
abbrev opsP1 : List (HloOp τ sig (Elt F)) :=
  [ unary main_v0 main_v47 ((extractStridedSlice S8x64x112x112 ![0, 0, 1, 3] · slices_S8x64x120x120_S8x64x112x112_0_0_1_3) : (⟨S8x64x120x120, .f32⟩ : BufTy).Contents (Elt F) → (⟨S8x64x112x112, .f32⟩ : BufTy).Contents (Elt F)),
    binary main_arg0 main_v47 main_v48 (mulf : (⟨S8x64x112x112, .f32⟩ : BufTy).Contents (Elt F) → (⟨S8x64x112x112, .f32⟩ : BufTy).Contents (Elt F) → (⟨S8x64x112x112, .f32⟩ : BufTy).Contents (Elt F)),
    nullary main_cst_11 (constant S_ .f32 0x00000000#32),
    binary main_v48 main_cst_11 main_v49 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v50 ((extractStridedSlice S8x64x112x112 ![0, 0, 1, 4] · slices_S8x64x120x120_S8x64x112x112_0_0_1_4) : (⟨S8x64x120x120, .f32⟩ : BufTy).Contents (Elt F) → (⟨S8x64x112x112, .f32⟩ : BufTy).Contents (Elt F)),
    binary main_arg0 main_v50 main_v51 (mulf : (⟨S8x64x112x112, .f32⟩ : BufTy).Contents (Elt F) → (⟨S8x64x112x112, .f32⟩ : BufTy).Contents (Elt F) → (⟨S8x64x112x112, .f32⟩ : BufTy).Contents (Elt F)),
    nullary main_cst_12 (constant S_ .f32 0x00000000#32),
    binary main_v51 main_cst_12 main_v52 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v53 ((extractStridedSlice S8x64x112x112 ![0, 0, 1, 5] · slices_S8x64x120x120_S8x64x112x112_0_0_1_5) : (⟨S8x64x120x120, .f32⟩ : BufTy).Contents (Elt F) → (⟨S8x64x112x112, .f32⟩ : BufTy).Contents (Elt F)),
    binary main_arg0 main_v53 main_v54 (mulf : (⟨S8x64x112x112, .f32⟩ : BufTy).Contents (Elt F) → (⟨S8x64x112x112, .f32⟩ : BufTy).Contents (Elt F) → (⟨S8x64x112x112, .f32⟩ : BufTy).Contents (Elt F)),
    nullary main_cst_13 (constant S_ .f32 0x00000000#32),
    binary main_v54 main_cst_13 main_v55 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v56 ((extractStridedSlice S8x64x112x112 ![0, 0, 1, 6] · slices_S8x64x120x120_S8x64x112x112_0_0_1_6) : (⟨S8x64x120x120, .f32⟩ : BufTy).Contents (Elt F) → (⟨S8x64x112x112, .f32⟩ : BufTy).Contents (Elt F)),
    binary main_arg0 main_v56 main_v57 (mulf : (⟨S8x64x112x112, .f32⟩ : BufTy).Contents (Elt F) → (⟨S8x64x112x112, .f32⟩ : BufTy).Contents (Elt F) → (⟨S8x64x112x112, .f32⟩ : BufTy).Contents (Elt F)),
    nullary main_cst_14 (constant S_ .f32 0x00000000#32),
    binary main_v57 main_cst_14 main_v58 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v59 ((extractStridedSlice S8x64x112x112 ![0, 0, 1, 7] · slices_S8x64x120x120_S8x64x112x112_0_0_1_7) : (⟨S8x64x120x120, .f32⟩ : BufTy).Contents (Elt F) → (⟨S8x64x112x112, .f32⟩ : BufTy).Contents (Elt F)),
    binary main_arg0 main_v59 main_v60 (mulf : (⟨S8x64x112x112, .f32⟩ : BufTy).Contents (Elt F) → (⟨S8x64x112x112, .f32⟩ : BufTy).Contents (Elt F) → (⟨S8x64x112x112, .f32⟩ : BufTy).Contents (Elt F)),
    nullary main_cst_15 (constant S_ .f32 0x00000000#32),
    binary main_v60 main_cst_15 main_v61 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v62 ((extractStridedSlice S8x64x112x112 ![0, 0, 1, 8] · slices_S8x64x120x120_S8x64x112x112_0_0_1_8) : (⟨S8x64x120x120, .f32⟩ : BufTy).Contents (Elt F) → (⟨S8x64x112x112, .f32⟩ : BufTy).Contents (Elt F)),
    binary main_arg0 main_v62 main_v63 (mulf : (⟨S8x64x112x112, .f32⟩ : BufTy).Contents (Elt F) → (⟨S8x64x112x112, .f32⟩ : BufTy).Contents (Elt F) → (⟨S8x64x112x112, .f32⟩ : BufTy).Contents (Elt F)),
    nullary main_cst_16 (constant S_ .f32 0x00000000#32),
    binary main_v63 main_cst_16 main_v64 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v40 main_v65 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v43 main_v66 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v46 main_v67 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v49 main_v68 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v52 main_v69 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v55 main_v70 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v58 main_v71 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v61 main_v72 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v64 main_v73 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v65, main_v66, main_v67, main_v68, main_v69, main_v70, main_v71, main_v72, main_v73] main_v74 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v75 ((extractStridedSlice S8x64x112x112 ![0, 0, 2, 0] · slices_S8x64x120x120_S8x64x112x112_0_0_2_0) : (⟨S8x64x120x120, .f32⟩ : BufTy).Contents (Elt F) → (⟨S8x64x112x112, .f32⟩ : BufTy).Contents (Elt F)),
    binary main_arg0 main_v75 main_v76 (mulf : (⟨S8x64x112x112, .f32⟩ : BufTy).Contents (Elt F) → (⟨S8x64x112x112, .f32⟩ : BufTy).Contents (Elt F) → (⟨S8x64x112x112, .f32⟩ : BufTy).Contents (Elt F)),
    nullary main_cst_17 (constant S_ .f32 0x00000000#32),
    binary main_v76 main_cst_17 main_v77 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v78 ((extractStridedSlice S8x64x112x112 ![0, 0, 2, 1] · slices_S8x64x120x120_S8x64x112x112_0_0_2_1) : (⟨S8x64x120x120, .f32⟩ : BufTy).Contents (Elt F) → (⟨S8x64x112x112, .f32⟩ : BufTy).Contents (Elt F)),
    binary main_arg0 main_v78 main_v79 (mulf : (⟨S8x64x112x112, .f32⟩ : BufTy).Contents (Elt F) → (⟨S8x64x112x112, .f32⟩ : BufTy).Contents (Elt F) → (⟨S8x64x112x112, .f32⟩ : BufTy).Contents (Elt F)),
    nullary main_cst_18 (constant S_ .f32 0x00000000#32),
    binary main_v79 main_cst_18 main_v80 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v81 ((extractStridedSlice S8x64x112x112 ![0, 0, 2, 2] · slices_S8x64x120x120_S8x64x112x112_0_0_2_2) : (⟨S8x64x120x120, .f32⟩ : BufTy).Contents (Elt F) → (⟨S8x64x112x112, .f32⟩ : BufTy).Contents (Elt F)),
    binary main_arg0 main_v81 main_v82 (mulf : (⟨S8x64x112x112, .f32⟩ : BufTy).Contents (Elt F) → (⟨S8x64x112x112, .f32⟩ : BufTy).Contents (Elt F) → (⟨S8x64x112x112, .f32⟩ : BufTy).Contents (Elt F)),
    nullary main_cst_19 (constant S_ .f32 0x00000000#32),
    binary main_v82 main_cst_19 main_v83 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v84 ((extractStridedSlice S8x64x112x112 ![0, 0, 2, 3] · slices_S8x64x120x120_S8x64x112x112_0_0_2_3) : (⟨S8x64x120x120, .f32⟩ : BufTy).Contents (Elt F) → (⟨S8x64x112x112, .f32⟩ : BufTy).Contents (Elt F)),
    binary main_arg0 main_v84 main_v85 (mulf : (⟨S8x64x112x112, .f32⟩ : BufTy).Contents (Elt F) → (⟨S8x64x112x112, .f32⟩ : BufTy).Contents (Elt F) → (⟨S8x64x112x112, .f32⟩ : BufTy).Contents (Elt F)),
    nullary main_cst_20 (constant S_ .f32 0x00000000#32),
    binary main_v85 main_cst_20 main_v86 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v87 ((extractStridedSlice S8x64x112x112 ![0, 0, 2, 4] · slices_S8x64x120x120_S8x64x112x112_0_0_2_4) : (⟨S8x64x120x120, .f32⟩ : BufTy).Contents (Elt F) → (⟨S8x64x112x112, .f32⟩ : BufTy).Contents (Elt F)),
    binary main_arg0 main_v87 main_v88 (mulf : (⟨S8x64x112x112, .f32⟩ : BufTy).Contents (Elt F) → (⟨S8x64x112x112, .f32⟩ : BufTy).Contents (Elt F) → (⟨S8x64x112x112, .f32⟩ : BufTy).Contents (Elt F)),
    nullary main_cst_21 (constant S_ .f32 0x00000000#32),
    binary main_v88 main_cst_21 main_v89 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v90 ((extractStridedSlice S8x64x112x112 ![0, 0, 2, 5] · slices_S8x64x120x120_S8x64x112x112_0_0_2_5) : (⟨S8x64x120x120, .f32⟩ : BufTy).Contents (Elt F) → (⟨S8x64x112x112, .f32⟩ : BufTy).Contents (Elt F)),
    binary main_arg0 main_v90 main_v91 (mulf : (⟨S8x64x112x112, .f32⟩ : BufTy).Contents (Elt F) → (⟨S8x64x112x112, .f32⟩ : BufTy).Contents (Elt F) → (⟨S8x64x112x112, .f32⟩ : BufTy).Contents (Elt F)),
    nullary main_cst_22 (constant S_ .f32 0x00000000#32),
    binary main_v91 main_cst_22 main_v92 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v93 ((extractStridedSlice S8x64x112x112 ![0, 0, 2, 6] · slices_S8x64x120x120_S8x64x112x112_0_0_2_6) : (⟨S8x64x120x120, .f32⟩ : BufTy).Contents (Elt F) → (⟨S8x64x112x112, .f32⟩ : BufTy).Contents (Elt F)),
    binary main_arg0 main_v93 main_v94 (mulf : (⟨S8x64x112x112, .f32⟩ : BufTy).Contents (Elt F) → (⟨S8x64x112x112, .f32⟩ : BufTy).Contents (Elt F) → (⟨S8x64x112x112, .f32⟩ : BufTy).Contents (Elt F)) ]

set_option maxHeartbeats 0 in
theorem part1_eq (d : Dev nD) : main_part1 (F := F) d = seq opsP1 := by chain_rfl

/-- The operations of window 2 of @main. -/
abbrev opsP2 : List (HloOp τ sig (Elt F)) :=
  [ nullary main_cst_23 (constant S_ .f32 0x00000000#32),
    binary main_v94 main_cst_23 main_v95 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v96 ((extractStridedSlice S8x64x112x112 ![0, 0, 2, 7] · slices_S8x64x120x120_S8x64x112x112_0_0_2_7) : (⟨S8x64x120x120, .f32⟩ : BufTy).Contents (Elt F) → (⟨S8x64x112x112, .f32⟩ : BufTy).Contents (Elt F)),
    binary main_arg0 main_v96 main_v97 (mulf : (⟨S8x64x112x112, .f32⟩ : BufTy).Contents (Elt F) → (⟨S8x64x112x112, .f32⟩ : BufTy).Contents (Elt F) → (⟨S8x64x112x112, .f32⟩ : BufTy).Contents (Elt F)),
    nullary main_cst_24 (constant S_ .f32 0x00000000#32),
    binary main_v97 main_cst_24 main_v98 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v99 ((extractStridedSlice S8x64x112x112 ![0, 0, 2, 8] · slices_S8x64x120x120_S8x64x112x112_0_0_2_8) : (⟨S8x64x120x120, .f32⟩ : BufTy).Contents (Elt F) → (⟨S8x64x112x112, .f32⟩ : BufTy).Contents (Elt F)),
    binary main_arg0 main_v99 main_v100 (mulf : (⟨S8x64x112x112, .f32⟩ : BufTy).Contents (Elt F) → (⟨S8x64x112x112, .f32⟩ : BufTy).Contents (Elt F) → (⟨S8x64x112x112, .f32⟩ : BufTy).Contents (Elt F)),
    nullary main_cst_25 (constant S_ .f32 0x00000000#32),
    binary main_v100 main_cst_25 main_v101 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v77 main_v102 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v80 main_v103 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v83 main_v104 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v86 main_v105 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v89 main_v106 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v92 main_v107 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v95 main_v108 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v98 main_v109 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v101 main_v110 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v102, main_v103, main_v104, main_v105, main_v106, main_v107, main_v108, main_v109, main_v110] main_v111 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v112 ((extractStridedSlice S8x64x112x112 ![0, 0, 3, 0] · slices_S8x64x120x120_S8x64x112x112_0_0_3_0) : (⟨S8x64x120x120, .f32⟩ : BufTy).Contents (Elt F) → (⟨S8x64x112x112, .f32⟩ : BufTy).Contents (Elt F)),
    binary main_arg0 main_v112 main_v113 (mulf : (⟨S8x64x112x112, .f32⟩ : BufTy).Contents (Elt F) → (⟨S8x64x112x112, .f32⟩ : BufTy).Contents (Elt F) → (⟨S8x64x112x112, .f32⟩ : BufTy).Contents (Elt F)),
    nullary main_cst_26 (constant S_ .f32 0x00000000#32),
    binary main_v113 main_cst_26 main_v114 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v115 ((extractStridedSlice S8x64x112x112 ![0, 0, 3, 1] · slices_S8x64x120x120_S8x64x112x112_0_0_3_1) : (⟨S8x64x120x120, .f32⟩ : BufTy).Contents (Elt F) → (⟨S8x64x112x112, .f32⟩ : BufTy).Contents (Elt F)),
    binary main_arg0 main_v115 main_v116 (mulf : (⟨S8x64x112x112, .f32⟩ : BufTy).Contents (Elt F) → (⟨S8x64x112x112, .f32⟩ : BufTy).Contents (Elt F) → (⟨S8x64x112x112, .f32⟩ : BufTy).Contents (Elt F)),
    nullary main_cst_27 (constant S_ .f32 0x00000000#32),
    binary main_v116 main_cst_27 main_v117 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v118 ((extractStridedSlice S8x64x112x112 ![0, 0, 3, 2] · slices_S8x64x120x120_S8x64x112x112_0_0_3_2) : (⟨S8x64x120x120, .f32⟩ : BufTy).Contents (Elt F) → (⟨S8x64x112x112, .f32⟩ : BufTy).Contents (Elt F)),
    binary main_arg0 main_v118 main_v119 (mulf : (⟨S8x64x112x112, .f32⟩ : BufTy).Contents (Elt F) → (⟨S8x64x112x112, .f32⟩ : BufTy).Contents (Elt F) → (⟨S8x64x112x112, .f32⟩ : BufTy).Contents (Elt F)),
    nullary main_cst_28 (constant S_ .f32 0x00000000#32),
    binary main_v119 main_cst_28 main_v120 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v121 ((extractStridedSlice S8x64x112x112 ![0, 0, 3, 3] · slices_S8x64x120x120_S8x64x112x112_0_0_3_3) : (⟨S8x64x120x120, .f32⟩ : BufTy).Contents (Elt F) → (⟨S8x64x112x112, .f32⟩ : BufTy).Contents (Elt F)),
    binary main_arg0 main_v121 main_v122 (mulf : (⟨S8x64x112x112, .f32⟩ : BufTy).Contents (Elt F) → (⟨S8x64x112x112, .f32⟩ : BufTy).Contents (Elt F) → (⟨S8x64x112x112, .f32⟩ : BufTy).Contents (Elt F)),
    nullary main_cst_29 (constant S_ .f32 0x00000000#32),
    binary main_v122 main_cst_29 main_v123 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v124 ((extractStridedSlice S8x64x112x112 ![0, 0, 3, 4] · slices_S8x64x120x120_S8x64x112x112_0_0_3_4) : (⟨S8x64x120x120, .f32⟩ : BufTy).Contents (Elt F) → (⟨S8x64x112x112, .f32⟩ : BufTy).Contents (Elt F)),
    binary main_arg0 main_v124 main_v125 (mulf : (⟨S8x64x112x112, .f32⟩ : BufTy).Contents (Elt F) → (⟨S8x64x112x112, .f32⟩ : BufTy).Contents (Elt F) → (⟨S8x64x112x112, .f32⟩ : BufTy).Contents (Elt F)),
    nullary main_cst_30 (constant S_ .f32 0x00000000#32),
    binary main_v125 main_cst_30 main_v126 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v127 ((extractStridedSlice S8x64x112x112 ![0, 0, 3, 5] · slices_S8x64x120x120_S8x64x112x112_0_0_3_5) : (⟨S8x64x120x120, .f32⟩ : BufTy).Contents (Elt F) → (⟨S8x64x112x112, .f32⟩ : BufTy).Contents (Elt F)),
    binary main_arg0 main_v127 main_v128 (mulf : (⟨S8x64x112x112, .f32⟩ : BufTy).Contents (Elt F) → (⟨S8x64x112x112, .f32⟩ : BufTy).Contents (Elt F) → (⟨S8x64x112x112, .f32⟩ : BufTy).Contents (Elt F)),
    nullary main_cst_31 (constant S_ .f32 0x00000000#32),
    binary main_v128 main_cst_31 main_v129 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v130 ((extractStridedSlice S8x64x112x112 ![0, 0, 3, 6] · slices_S8x64x120x120_S8x64x112x112_0_0_3_6) : (⟨S8x64x120x120, .f32⟩ : BufTy).Contents (Elt F) → (⟨S8x64x112x112, .f32⟩ : BufTy).Contents (Elt F)),
    binary main_arg0 main_v130 main_v131 (mulf : (⟨S8x64x112x112, .f32⟩ : BufTy).Contents (Elt F) → (⟨S8x64x112x112, .f32⟩ : BufTy).Contents (Elt F) → (⟨S8x64x112x112, .f32⟩ : BufTy).Contents (Elt F)),
    nullary main_cst_32 (constant S_ .f32 0x00000000#32),
    binary main_v131 main_cst_32 main_v132 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v133 ((extractStridedSlice S8x64x112x112 ![0, 0, 3, 7] · slices_S8x64x120x120_S8x64x112x112_0_0_3_7) : (⟨S8x64x120x120, .f32⟩ : BufTy).Contents (Elt F) → (⟨S8x64x112x112, .f32⟩ : BufTy).Contents (Elt F)),
    binary main_arg0 main_v133 main_v134 (mulf : (⟨S8x64x112x112, .f32⟩ : BufTy).Contents (Elt F) → (⟨S8x64x112x112, .f32⟩ : BufTy).Contents (Elt F) → (⟨S8x64x112x112, .f32⟩ : BufTy).Contents (Elt F)),
    nullary main_cst_33 (constant S_ .f32 0x00000000#32),
    binary main_v134 main_cst_33 main_v135 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v136 ((extractStridedSlice S8x64x112x112 ![0, 0, 3, 8] · slices_S8x64x120x120_S8x64x112x112_0_0_3_8) : (⟨S8x64x120x120, .f32⟩ : BufTy).Contents (Elt F) → (⟨S8x64x112x112, .f32⟩ : BufTy).Contents (Elt F)),
    binary main_arg0 main_v136 main_v137 (mulf : (⟨S8x64x112x112, .f32⟩ : BufTy).Contents (Elt F) → (⟨S8x64x112x112, .f32⟩ : BufTy).Contents (Elt F) → (⟨S8x64x112x112, .f32⟩ : BufTy).Contents (Elt F)),
    nullary main_cst_34 (constant S_ .f32 0x00000000#32),
    binary main_v137 main_cst_34 main_v138 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v114 main_v139 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v117 main_v140 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v120 main_v141 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v123 main_v142 (broadcastInDim S8x1x112x112 ![0, 2, 3] bcast_S8x112x112_S8x1x112x112_0_2_3 : (⟨S8x112x112, .f32⟩ : BufTy).Contents (Elt F) → (⟨S8x1x112x112, .f32⟩ : BufTy).Contents (Elt F)) ]

set_option maxHeartbeats 0 in
theorem part2_eq (d : Dev nD) : main_part2 (F := F) d = seq opsP2 := by chain_rfl

/-- The operations of window 3 of @main. -/
abbrev opsP3 : List (HloOp τ sig (Elt F)) :=
  [ unary main_v126 main_v143 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v129 main_v144 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v132 main_v145 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v135 main_v146 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v138 main_v147 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v139, main_v140, main_v141, main_v142, main_v143, main_v144, main_v145, main_v146, main_v147] main_v148 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v149 ((extractStridedSlice S8x64x112x112 ![0, 0, 4, 0] · slices_S8x64x120x120_S8x64x112x112_0_0_4_0) : (⟨S8x64x120x120, .f32⟩ : BufTy).Contents (Elt F) → (⟨S8x64x112x112, .f32⟩ : BufTy).Contents (Elt F)),
    binary main_arg0 main_v149 main_v150 (mulf : (⟨S8x64x112x112, .f32⟩ : BufTy).Contents (Elt F) → (⟨S8x64x112x112, .f32⟩ : BufTy).Contents (Elt F) → (⟨S8x64x112x112, .f32⟩ : BufTy).Contents (Elt F)),
    nullary main_cst_35 (constant S_ .f32 0x00000000#32),
    binary main_v150 main_cst_35 main_v151 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v152 ((extractStridedSlice S8x64x112x112 ![0, 0, 4, 1] · slices_S8x64x120x120_S8x64x112x112_0_0_4_1) : (⟨S8x64x120x120, .f32⟩ : BufTy).Contents (Elt F) → (⟨S8x64x112x112, .f32⟩ : BufTy).Contents (Elt F)),
    binary main_arg0 main_v152 main_v153 (mulf : (⟨S8x64x112x112, .f32⟩ : BufTy).Contents (Elt F) → (⟨S8x64x112x112, .f32⟩ : BufTy).Contents (Elt F) → (⟨S8x64x112x112, .f32⟩ : BufTy).Contents (Elt F)),
    nullary main_cst_36 (constant S_ .f32 0x00000000#32),
    binary main_v153 main_cst_36 main_v154 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v155 ((extractStridedSlice S8x64x112x112 ![0, 0, 4, 2] · slices_S8x64x120x120_S8x64x112x112_0_0_4_2) : (⟨S8x64x120x120, .f32⟩ : BufTy).Contents (Elt F) → (⟨S8x64x112x112, .f32⟩ : BufTy).Contents (Elt F)),
    binary main_arg0 main_v155 main_v156 (mulf : (⟨S8x64x112x112, .f32⟩ : BufTy).Contents (Elt F) → (⟨S8x64x112x112, .f32⟩ : BufTy).Contents (Elt F) → (⟨S8x64x112x112, .f32⟩ : BufTy).Contents (Elt F)),
    nullary main_cst_37 (constant S_ .f32 0x00000000#32),
    binary main_v156 main_cst_37 main_v157 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v158 ((extractStridedSlice S8x64x112x112 ![0, 0, 4, 3] · slices_S8x64x120x120_S8x64x112x112_0_0_4_3) : (⟨S8x64x120x120, .f32⟩ : BufTy).Contents (Elt F) → (⟨S8x64x112x112, .f32⟩ : BufTy).Contents (Elt F)),
    binary main_arg0 main_v158 main_v159 (mulf : (⟨S8x64x112x112, .f32⟩ : BufTy).Contents (Elt F) → (⟨S8x64x112x112, .f32⟩ : BufTy).Contents (Elt F) → (⟨S8x64x112x112, .f32⟩ : BufTy).Contents (Elt F)),
    nullary main_cst_38 (constant S_ .f32 0x00000000#32),
    binary main_v159 main_cst_38 main_v160 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v161 ((extractStridedSlice S8x64x112x112 ![0, 0, 4, 4] · slices_S8x64x120x120_S8x64x112x112_0_0_4_4) : (⟨S8x64x120x120, .f32⟩ : BufTy).Contents (Elt F) → (⟨S8x64x112x112, .f32⟩ : BufTy).Contents (Elt F)),
    binary main_arg0 main_v161 main_v162 (mulf : (⟨S8x64x112x112, .f32⟩ : BufTy).Contents (Elt F) → (⟨S8x64x112x112, .f32⟩ : BufTy).Contents (Elt F) → (⟨S8x64x112x112, .f32⟩ : BufTy).Contents (Elt F)),
    nullary main_cst_39 (constant S_ .f32 0x00000000#32),
    binary main_v162 main_cst_39 main_v163 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v164 ((extractStridedSlice S8x64x112x112 ![0, 0, 4, 5] · slices_S8x64x120x120_S8x64x112x112_0_0_4_5) : (⟨S8x64x120x120, .f32⟩ : BufTy).Contents (Elt F) → (⟨S8x64x112x112, .f32⟩ : BufTy).Contents (Elt F)),
    binary main_arg0 main_v164 main_v165 (mulf : (⟨S8x64x112x112, .f32⟩ : BufTy).Contents (Elt F) → (⟨S8x64x112x112, .f32⟩ : BufTy).Contents (Elt F) → (⟨S8x64x112x112, .f32⟩ : BufTy).Contents (Elt F)),
    nullary main_cst_40 (constant S_ .f32 0x00000000#32),
    binary main_v165 main_cst_40 main_v166 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v167 ((extractStridedSlice S8x64x112x112 ![0, 0, 4, 6] · slices_S8x64x120x120_S8x64x112x112_0_0_4_6) : (⟨S8x64x120x120, .f32⟩ : BufTy).Contents (Elt F) → (⟨S8x64x112x112, .f32⟩ : BufTy).Contents (Elt F)),
    binary main_arg0 main_v167 main_v168 (mulf : (⟨S8x64x112x112, .f32⟩ : BufTy).Contents (Elt F) → (⟨S8x64x112x112, .f32⟩ : BufTy).Contents (Elt F) → (⟨S8x64x112x112, .f32⟩ : BufTy).Contents (Elt F)),
    nullary main_cst_41 (constant S_ .f32 0x00000000#32),
    binary main_v168 main_cst_41 main_v169 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v170 ((extractStridedSlice S8x64x112x112 ![0, 0, 4, 7] · slices_S8x64x120x120_S8x64x112x112_0_0_4_7) : (⟨S8x64x120x120, .f32⟩ : BufTy).Contents (Elt F) → (⟨S8x64x112x112, .f32⟩ : BufTy).Contents (Elt F)),
    binary main_arg0 main_v170 main_v171 (mulf : (⟨S8x64x112x112, .f32⟩ : BufTy).Contents (Elt F) → (⟨S8x64x112x112, .f32⟩ : BufTy).Contents (Elt F) → (⟨S8x64x112x112, .f32⟩ : BufTy).Contents (Elt F)),
    nullary main_cst_42 (constant S_ .f32 0x00000000#32),
    binary main_v171 main_cst_42 main_v172 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v173 ((extractStridedSlice S8x64x112x112 ![0, 0, 4, 8] · slices_S8x64x120x120_S8x64x112x112_0_0_4_8) : (⟨S8x64x120x120, .f32⟩ : BufTy).Contents (Elt F) → (⟨S8x64x112x112, .f32⟩ : BufTy).Contents (Elt F)),
    binary main_arg0 main_v173 main_v174 (mulf : (⟨S8x64x112x112, .f32⟩ : BufTy).Contents (Elt F) → (⟨S8x64x112x112, .f32⟩ : BufTy).Contents (Elt F) → (⟨S8x64x112x112, .f32⟩ : BufTy).Contents (Elt F)),
    nullary main_cst_43 (constant S_ .f32 0x00000000#32),
    binary main_v174 main_cst_43 main_v175 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v151 main_v176 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v154 main_v177 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v157 main_v178 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v160 main_v179 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v163 main_v180 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v166 main_v181 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v169 main_v182 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v172 main_v183 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v175 main_v184 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v176, main_v177, main_v178, main_v179, main_v180, main_v181, main_v182, main_v183, main_v184] main_v185 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v186 ((extractStridedSlice S8x64x112x112 ![0, 0, 5, 0] · slices_S8x64x120x120_S8x64x112x112_0_0_5_0) : (⟨S8x64x120x120, .f32⟩ : BufTy).Contents (Elt F) → (⟨S8x64x112x112, .f32⟩ : BufTy).Contents (Elt F)),
    binary main_arg0 main_v186 main_v187 (mulf : (⟨S8x64x112x112, .f32⟩ : BufTy).Contents (Elt F) → (⟨S8x64x112x112, .f32⟩ : BufTy).Contents (Elt F) → (⟨S8x64x112x112, .f32⟩ : BufTy).Contents (Elt F)),
    nullary main_cst_44 (constant S_ .f32 0x00000000#32),
    binary main_v187 main_cst_44 main_v188 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v189 ((extractStridedSlice S8x64x112x112 ![0, 0, 5, 1] · slices_S8x64x120x120_S8x64x112x112_0_0_5_1) : (⟨S8x64x120x120, .f32⟩ : BufTy).Contents (Elt F) → (⟨S8x64x112x112, .f32⟩ : BufTy).Contents (Elt F)),
    binary main_arg0 main_v189 main_v190 (mulf : (⟨S8x64x112x112, .f32⟩ : BufTy).Contents (Elt F) → (⟨S8x64x112x112, .f32⟩ : BufTy).Contents (Elt F) → (⟨S8x64x112x112, .f32⟩ : BufTy).Contents (Elt F)),
    nullary main_cst_45 (constant S_ .f32 0x00000000#32),
    binary main_v190 main_cst_45 main_v191 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)) ]

set_option maxHeartbeats 0 in
theorem part3_eq (d : Dev nD) : main_part3 (F := F) d = seq opsP3 := by chain_rfl

/-- The operations of window 4 of @main. -/
abbrev opsP4 : List (HloOp τ sig (Elt F)) :=
  [ unary main_v0 main_v192 ((extractStridedSlice S8x64x112x112 ![0, 0, 5, 2] · slices_S8x64x120x120_S8x64x112x112_0_0_5_2) : (⟨S8x64x120x120, .f32⟩ : BufTy).Contents (Elt F) → (⟨S8x64x112x112, .f32⟩ : BufTy).Contents (Elt F)),
    binary main_arg0 main_v192 main_v193 (mulf : (⟨S8x64x112x112, .f32⟩ : BufTy).Contents (Elt F) → (⟨S8x64x112x112, .f32⟩ : BufTy).Contents (Elt F) → (⟨S8x64x112x112, .f32⟩ : BufTy).Contents (Elt F)),
    nullary main_cst_46 (constant S_ .f32 0x00000000#32),
    binary main_v193 main_cst_46 main_v194 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v195 ((extractStridedSlice S8x64x112x112 ![0, 0, 5, 3] · slices_S8x64x120x120_S8x64x112x112_0_0_5_3) : (⟨S8x64x120x120, .f32⟩ : BufTy).Contents (Elt F) → (⟨S8x64x112x112, .f32⟩ : BufTy).Contents (Elt F)),
    binary main_arg0 main_v195 main_v196 (mulf : (⟨S8x64x112x112, .f32⟩ : BufTy).Contents (Elt F) → (⟨S8x64x112x112, .f32⟩ : BufTy).Contents (Elt F) → (⟨S8x64x112x112, .f32⟩ : BufTy).Contents (Elt F)),
    nullary main_cst_47 (constant S_ .f32 0x00000000#32),
    binary main_v196 main_cst_47 main_v197 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v198 ((extractStridedSlice S8x64x112x112 ![0, 0, 5, 4] · slices_S8x64x120x120_S8x64x112x112_0_0_5_4) : (⟨S8x64x120x120, .f32⟩ : BufTy).Contents (Elt F) → (⟨S8x64x112x112, .f32⟩ : BufTy).Contents (Elt F)),
    binary main_arg0 main_v198 main_v199 (mulf : (⟨S8x64x112x112, .f32⟩ : BufTy).Contents (Elt F) → (⟨S8x64x112x112, .f32⟩ : BufTy).Contents (Elt F) → (⟨S8x64x112x112, .f32⟩ : BufTy).Contents (Elt F)),
    nullary main_cst_48 (constant S_ .f32 0x00000000#32),
    binary main_v199 main_cst_48 main_v200 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v201 ((extractStridedSlice S8x64x112x112 ![0, 0, 5, 5] · slices_S8x64x120x120_S8x64x112x112_0_0_5_5) : (⟨S8x64x120x120, .f32⟩ : BufTy).Contents (Elt F) → (⟨S8x64x112x112, .f32⟩ : BufTy).Contents (Elt F)),
    binary main_arg0 main_v201 main_v202 (mulf : (⟨S8x64x112x112, .f32⟩ : BufTy).Contents (Elt F) → (⟨S8x64x112x112, .f32⟩ : BufTy).Contents (Elt F) → (⟨S8x64x112x112, .f32⟩ : BufTy).Contents (Elt F)),
    nullary main_cst_49 (constant S_ .f32 0x00000000#32),
    binary main_v202 main_cst_49 main_v203 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v204 ((extractStridedSlice S8x64x112x112 ![0, 0, 5, 6] · slices_S8x64x120x120_S8x64x112x112_0_0_5_6) : (⟨S8x64x120x120, .f32⟩ : BufTy).Contents (Elt F) → (⟨S8x64x112x112, .f32⟩ : BufTy).Contents (Elt F)),
    binary main_arg0 main_v204 main_v205 (mulf : (⟨S8x64x112x112, .f32⟩ : BufTy).Contents (Elt F) → (⟨S8x64x112x112, .f32⟩ : BufTy).Contents (Elt F) → (⟨S8x64x112x112, .f32⟩ : BufTy).Contents (Elt F)),
    nullary main_cst_50 (constant S_ .f32 0x00000000#32),
    binary main_v205 main_cst_50 main_v206 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v207 ((extractStridedSlice S8x64x112x112 ![0, 0, 5, 7] · slices_S8x64x120x120_S8x64x112x112_0_0_5_7) : (⟨S8x64x120x120, .f32⟩ : BufTy).Contents (Elt F) → (⟨S8x64x112x112, .f32⟩ : BufTy).Contents (Elt F)),
    binary main_arg0 main_v207 main_v208 (mulf : (⟨S8x64x112x112, .f32⟩ : BufTy).Contents (Elt F) → (⟨S8x64x112x112, .f32⟩ : BufTy).Contents (Elt F) → (⟨S8x64x112x112, .f32⟩ : BufTy).Contents (Elt F)),
    nullary main_cst_51 (constant S_ .f32 0x00000000#32),
    binary main_v208 main_cst_51 main_v209 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v210 ((extractStridedSlice S8x64x112x112 ![0, 0, 5, 8] · slices_S8x64x120x120_S8x64x112x112_0_0_5_8) : (⟨S8x64x120x120, .f32⟩ : BufTy).Contents (Elt F) → (⟨S8x64x112x112, .f32⟩ : BufTy).Contents (Elt F)),
    binary main_arg0 main_v210 main_v211 (mulf : (⟨S8x64x112x112, .f32⟩ : BufTy).Contents (Elt F) → (⟨S8x64x112x112, .f32⟩ : BufTy).Contents (Elt F) → (⟨S8x64x112x112, .f32⟩ : BufTy).Contents (Elt F)),
    nullary main_cst_52 (constant S_ .f32 0x00000000#32),
    binary main_v211 main_cst_52 main_v212 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v188 main_v213 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v191 main_v214 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v194 main_v215 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v197 main_v216 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v200 main_v217 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v203 main_v218 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v206 main_v219 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v209 main_v220 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v212 main_v221 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v213, main_v214, main_v215, main_v216, main_v217, main_v218, main_v219, main_v220, main_v221] main_v222 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v223 ((extractStridedSlice S8x64x112x112 ![0, 0, 6, 0] · slices_S8x64x120x120_S8x64x112x112_0_0_6_0) : (⟨S8x64x120x120, .f32⟩ : BufTy).Contents (Elt F) → (⟨S8x64x112x112, .f32⟩ : BufTy).Contents (Elt F)),
    binary main_arg0 main_v223 main_v224 (mulf : (⟨S8x64x112x112, .f32⟩ : BufTy).Contents (Elt F) → (⟨S8x64x112x112, .f32⟩ : BufTy).Contents (Elt F) → (⟨S8x64x112x112, .f32⟩ : BufTy).Contents (Elt F)),
    nullary main_cst_53 (constant S_ .f32 0x00000000#32),
    binary main_v224 main_cst_53 main_v225 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v226 ((extractStridedSlice S8x64x112x112 ![0, 0, 6, 1] · slices_S8x64x120x120_S8x64x112x112_0_0_6_1) : (⟨S8x64x120x120, .f32⟩ : BufTy).Contents (Elt F) → (⟨S8x64x112x112, .f32⟩ : BufTy).Contents (Elt F)),
    binary main_arg0 main_v226 main_v227 (mulf : (⟨S8x64x112x112, .f32⟩ : BufTy).Contents (Elt F) → (⟨S8x64x112x112, .f32⟩ : BufTy).Contents (Elt F) → (⟨S8x64x112x112, .f32⟩ : BufTy).Contents (Elt F)),
    nullary main_cst_54 (constant S_ .f32 0x00000000#32),
    binary main_v227 main_cst_54 main_v228 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v229 ((extractStridedSlice S8x64x112x112 ![0, 0, 6, 2] · slices_S8x64x120x120_S8x64x112x112_0_0_6_2) : (⟨S8x64x120x120, .f32⟩ : BufTy).Contents (Elt F) → (⟨S8x64x112x112, .f32⟩ : BufTy).Contents (Elt F)),
    binary main_arg0 main_v229 main_v230 (mulf : (⟨S8x64x112x112, .f32⟩ : BufTy).Contents (Elt F) → (⟨S8x64x112x112, .f32⟩ : BufTy).Contents (Elt F) → (⟨S8x64x112x112, .f32⟩ : BufTy).Contents (Elt F)),
    nullary main_cst_55 (constant S_ .f32 0x00000000#32),
    binary main_v230 main_cst_55 main_v231 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v232 ((extractStridedSlice S8x64x112x112 ![0, 0, 6, 3] · slices_S8x64x120x120_S8x64x112x112_0_0_6_3) : (⟨S8x64x120x120, .f32⟩ : BufTy).Contents (Elt F) → (⟨S8x64x112x112, .f32⟩ : BufTy).Contents (Elt F)),
    binary main_arg0 main_v232 main_v233 (mulf : (⟨S8x64x112x112, .f32⟩ : BufTy).Contents (Elt F) → (⟨S8x64x112x112, .f32⟩ : BufTy).Contents (Elt F) → (⟨S8x64x112x112, .f32⟩ : BufTy).Contents (Elt F)),
    nullary main_cst_56 (constant S_ .f32 0x00000000#32),
    binary main_v233 main_cst_56 main_v234 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v235 ((extractStridedSlice S8x64x112x112 ![0, 0, 6, 4] · slices_S8x64x120x120_S8x64x112x112_0_0_6_4) : (⟨S8x64x120x120, .f32⟩ : BufTy).Contents (Elt F) → (⟨S8x64x112x112, .f32⟩ : BufTy).Contents (Elt F)),
    binary main_arg0 main_v235 main_v236 (mulf : (⟨S8x64x112x112, .f32⟩ : BufTy).Contents (Elt F) → (⟨S8x64x112x112, .f32⟩ : BufTy).Contents (Elt F) → (⟨S8x64x112x112, .f32⟩ : BufTy).Contents (Elt F)),
    nullary main_cst_57 (constant S_ .f32 0x00000000#32),
    binary main_v236 main_cst_57 main_v237 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v238 ((extractStridedSlice S8x64x112x112 ![0, 0, 6, 5] · slices_S8x64x120x120_S8x64x112x112_0_0_6_5) : (⟨S8x64x120x120, .f32⟩ : BufTy).Contents (Elt F) → (⟨S8x64x112x112, .f32⟩ : BufTy).Contents (Elt F)),
    binary main_arg0 main_v238 main_v239 (mulf : (⟨S8x64x112x112, .f32⟩ : BufTy).Contents (Elt F) → (⟨S8x64x112x112, .f32⟩ : BufTy).Contents (Elt F) → (⟨S8x64x112x112, .f32⟩ : BufTy).Contents (Elt F)) ]

set_option maxHeartbeats 0 in
theorem part4_eq (d : Dev nD) : main_part4 (F := F) d = seq opsP4 := by chain_rfl

/-- The operations of window 5 of @main. -/
abbrev opsP5 : List (HloOp τ sig (Elt F)) :=
  [ nullary main_cst_58 (constant S_ .f32 0x00000000#32),
    binary main_v239 main_cst_58 main_v240 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v241 ((extractStridedSlice S8x64x112x112 ![0, 0, 6, 6] · slices_S8x64x120x120_S8x64x112x112_0_0_6_6) : (⟨S8x64x120x120, .f32⟩ : BufTy).Contents (Elt F) → (⟨S8x64x112x112, .f32⟩ : BufTy).Contents (Elt F)),
    binary main_arg0 main_v241 main_v242 (mulf : (⟨S8x64x112x112, .f32⟩ : BufTy).Contents (Elt F) → (⟨S8x64x112x112, .f32⟩ : BufTy).Contents (Elt F) → (⟨S8x64x112x112, .f32⟩ : BufTy).Contents (Elt F)),
    nullary main_cst_59 (constant S_ .f32 0x00000000#32),
    binary main_v242 main_cst_59 main_v243 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v244 ((extractStridedSlice S8x64x112x112 ![0, 0, 6, 7] · slices_S8x64x120x120_S8x64x112x112_0_0_6_7) : (⟨S8x64x120x120, .f32⟩ : BufTy).Contents (Elt F) → (⟨S8x64x112x112, .f32⟩ : BufTy).Contents (Elt F)),
    binary main_arg0 main_v244 main_v245 (mulf : (⟨S8x64x112x112, .f32⟩ : BufTy).Contents (Elt F) → (⟨S8x64x112x112, .f32⟩ : BufTy).Contents (Elt F) → (⟨S8x64x112x112, .f32⟩ : BufTy).Contents (Elt F)),
    nullary main_cst_60 (constant S_ .f32 0x00000000#32),
    binary main_v245 main_cst_60 main_v246 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v247 ((extractStridedSlice S8x64x112x112 ![0, 0, 6, 8] · slices_S8x64x120x120_S8x64x112x112_0_0_6_8) : (⟨S8x64x120x120, .f32⟩ : BufTy).Contents (Elt F) → (⟨S8x64x112x112, .f32⟩ : BufTy).Contents (Elt F)),
    binary main_arg0 main_v247 main_v248 (mulf : (⟨S8x64x112x112, .f32⟩ : BufTy).Contents (Elt F) → (⟨S8x64x112x112, .f32⟩ : BufTy).Contents (Elt F) → (⟨S8x64x112x112, .f32⟩ : BufTy).Contents (Elt F)),
    nullary main_cst_61 (constant S_ .f32 0x00000000#32),
    binary main_v248 main_cst_61 main_v249 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v225 main_v250 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v228 main_v251 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v231 main_v252 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v234 main_v253 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v237 main_v254 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v240 main_v255 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v243 main_v256 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v246 main_v257 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v249 main_v258 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v250, main_v251, main_v252, main_v253, main_v254, main_v255, main_v256, main_v257, main_v258] main_v259 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v260 ((extractStridedSlice S8x64x112x112 ![0, 0, 7, 0] · slices_S8x64x120x120_S8x64x112x112_0_0_7_0) : (⟨S8x64x120x120, .f32⟩ : BufTy).Contents (Elt F) → (⟨S8x64x112x112, .f32⟩ : BufTy).Contents (Elt F)),
    binary main_arg0 main_v260 main_v261 (mulf : (⟨S8x64x112x112, .f32⟩ : BufTy).Contents (Elt F) → (⟨S8x64x112x112, .f32⟩ : BufTy).Contents (Elt F) → (⟨S8x64x112x112, .f32⟩ : BufTy).Contents (Elt F)),
    nullary main_cst_62 (constant S_ .f32 0x00000000#32),
    binary main_v261 main_cst_62 main_v262 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v263 ((extractStridedSlice S8x64x112x112 ![0, 0, 7, 1] · slices_S8x64x120x120_S8x64x112x112_0_0_7_1) : (⟨S8x64x120x120, .f32⟩ : BufTy).Contents (Elt F) → (⟨S8x64x112x112, .f32⟩ : BufTy).Contents (Elt F)),
    binary main_arg0 main_v263 main_v264 (mulf : (⟨S8x64x112x112, .f32⟩ : BufTy).Contents (Elt F) → (⟨S8x64x112x112, .f32⟩ : BufTy).Contents (Elt F) → (⟨S8x64x112x112, .f32⟩ : BufTy).Contents (Elt F)),
    nullary main_cst_63 (constant S_ .f32 0x00000000#32),
    binary main_v264 main_cst_63 main_v265 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v266 ((extractStridedSlice S8x64x112x112 ![0, 0, 7, 2] · slices_S8x64x120x120_S8x64x112x112_0_0_7_2) : (⟨S8x64x120x120, .f32⟩ : BufTy).Contents (Elt F) → (⟨S8x64x112x112, .f32⟩ : BufTy).Contents (Elt F)),
    binary main_arg0 main_v266 main_v267 (mulf : (⟨S8x64x112x112, .f32⟩ : BufTy).Contents (Elt F) → (⟨S8x64x112x112, .f32⟩ : BufTy).Contents (Elt F) → (⟨S8x64x112x112, .f32⟩ : BufTy).Contents (Elt F)),
    nullary main_cst_64 (constant S_ .f32 0x00000000#32),
    binary main_v267 main_cst_64 main_v268 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v269 ((extractStridedSlice S8x64x112x112 ![0, 0, 7, 3] · slices_S8x64x120x120_S8x64x112x112_0_0_7_3) : (⟨S8x64x120x120, .f32⟩ : BufTy).Contents (Elt F) → (⟨S8x64x112x112, .f32⟩ : BufTy).Contents (Elt F)),
    binary main_arg0 main_v269 main_v270 (mulf : (⟨S8x64x112x112, .f32⟩ : BufTy).Contents (Elt F) → (⟨S8x64x112x112, .f32⟩ : BufTy).Contents (Elt F) → (⟨S8x64x112x112, .f32⟩ : BufTy).Contents (Elt F)),
    nullary main_cst_65 (constant S_ .f32 0x00000000#32),
    binary main_v270 main_cst_65 main_v271 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v272 ((extractStridedSlice S8x64x112x112 ![0, 0, 7, 4] · slices_S8x64x120x120_S8x64x112x112_0_0_7_4) : (⟨S8x64x120x120, .f32⟩ : BufTy).Contents (Elt F) → (⟨S8x64x112x112, .f32⟩ : BufTy).Contents (Elt F)),
    binary main_arg0 main_v272 main_v273 (mulf : (⟨S8x64x112x112, .f32⟩ : BufTy).Contents (Elt F) → (⟨S8x64x112x112, .f32⟩ : BufTy).Contents (Elt F) → (⟨S8x64x112x112, .f32⟩ : BufTy).Contents (Elt F)),
    nullary main_cst_66 (constant S_ .f32 0x00000000#32),
    binary main_v273 main_cst_66 main_v274 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v275 ((extractStridedSlice S8x64x112x112 ![0, 0, 7, 5] · slices_S8x64x120x120_S8x64x112x112_0_0_7_5) : (⟨S8x64x120x120, .f32⟩ : BufTy).Contents (Elt F) → (⟨S8x64x112x112, .f32⟩ : BufTy).Contents (Elt F)),
    binary main_arg0 main_v275 main_v276 (mulf : (⟨S8x64x112x112, .f32⟩ : BufTy).Contents (Elt F) → (⟨S8x64x112x112, .f32⟩ : BufTy).Contents (Elt F) → (⟨S8x64x112x112, .f32⟩ : BufTy).Contents (Elt F)),
    nullary main_cst_67 (constant S_ .f32 0x00000000#32),
    binary main_v276 main_cst_67 main_v277 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v278 ((extractStridedSlice S8x64x112x112 ![0, 0, 7, 6] · slices_S8x64x120x120_S8x64x112x112_0_0_7_6) : (⟨S8x64x120x120, .f32⟩ : BufTy).Contents (Elt F) → (⟨S8x64x112x112, .f32⟩ : BufTy).Contents (Elt F)),
    binary main_arg0 main_v278 main_v279 (mulf : (⟨S8x64x112x112, .f32⟩ : BufTy).Contents (Elt F) → (⟨S8x64x112x112, .f32⟩ : BufTy).Contents (Elt F) → (⟨S8x64x112x112, .f32⟩ : BufTy).Contents (Elt F)),
    nullary main_cst_68 (constant S_ .f32 0x00000000#32),
    binary main_v279 main_cst_68 main_v280 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v281 ((extractStridedSlice S8x64x112x112 ![0, 0, 7, 7] · slices_S8x64x120x120_S8x64x112x112_0_0_7_7) : (⟨S8x64x120x120, .f32⟩ : BufTy).Contents (Elt F) → (⟨S8x64x112x112, .f32⟩ : BufTy).Contents (Elt F)),
    binary main_arg0 main_v281 main_v282 (mulf : (⟨S8x64x112x112, .f32⟩ : BufTy).Contents (Elt F) → (⟨S8x64x112x112, .f32⟩ : BufTy).Contents (Elt F) → (⟨S8x64x112x112, .f32⟩ : BufTy).Contents (Elt F)),
    nullary main_cst_69 (constant S_ .f32 0x00000000#32),
    binary main_v282 main_cst_69 main_v283 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v284 ((extractStridedSlice S8x64x112x112 ![0, 0, 7, 8] · slices_S8x64x120x120_S8x64x112x112_0_0_7_8) : (⟨S8x64x120x120, .f32⟩ : BufTy).Contents (Elt F) → (⟨S8x64x112x112, .f32⟩ : BufTy).Contents (Elt F)),
    binary main_arg0 main_v284 main_v285 (mulf : (⟨S8x64x112x112, .f32⟩ : BufTy).Contents (Elt F) → (⟨S8x64x112x112, .f32⟩ : BufTy).Contents (Elt F) → (⟨S8x64x112x112, .f32⟩ : BufTy).Contents (Elt F)),
    nullary main_cst_70 (constant S_ .f32 0x00000000#32),
    binary main_v285 main_cst_70 main_v286 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)) ]

set_option maxHeartbeats 0 in
theorem part5_eq (d : Dev nD) : main_part5 (F := F) d = seq opsP5 := by chain_rfl

/-- The operations of window 6 of @main. -/
abbrev opsP6 : List (HloOp τ sig (Elt F)) :=
  [ unary main_v262 main_v287 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v265 main_v288 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v268 main_v289 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v271 main_v290 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v274 main_v291 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v277 main_v292 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v280 main_v293 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v283 main_v294 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v286 main_v295 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v287, main_v288, main_v289, main_v290, main_v291, main_v292, main_v293, main_v294, main_v295] main_v296 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v0 main_v297 ((extractStridedSlice S8x64x112x112 ![0, 0, 8, 0] · slices_S8x64x120x120_S8x64x112x112_0_0_8_0) : (⟨S8x64x120x120, .f32⟩ : BufTy).Contents (Elt F) → (⟨S8x64x112x112, .f32⟩ : BufTy).Contents (Elt F)),
    binary main_arg0 main_v297 main_v298 (mulf : (⟨S8x64x112x112, .f32⟩ : BufTy).Contents (Elt F) → (⟨S8x64x112x112, .f32⟩ : BufTy).Contents (Elt F) → (⟨S8x64x112x112, .f32⟩ : BufTy).Contents (Elt F)),
    nullary main_cst_71 (constant S_ .f32 0x00000000#32),
    binary main_v298 main_cst_71 main_v299 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v300 ((extractStridedSlice S8x64x112x112 ![0, 0, 8, 1] · slices_S8x64x120x120_S8x64x112x112_0_0_8_1) : (⟨S8x64x120x120, .f32⟩ : BufTy).Contents (Elt F) → (⟨S8x64x112x112, .f32⟩ : BufTy).Contents (Elt F)),
    binary main_arg0 main_v300 main_v301 (mulf : (⟨S8x64x112x112, .f32⟩ : BufTy).Contents (Elt F) → (⟨S8x64x112x112, .f32⟩ : BufTy).Contents (Elt F) → (⟨S8x64x112x112, .f32⟩ : BufTy).Contents (Elt F)),
    nullary main_cst_72 (constant S_ .f32 0x00000000#32),
    binary main_v301 main_cst_72 main_v302 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v303 ((extractStridedSlice S8x64x112x112 ![0, 0, 8, 2] · slices_S8x64x120x120_S8x64x112x112_0_0_8_2) : (⟨S8x64x120x120, .f32⟩ : BufTy).Contents (Elt F) → (⟨S8x64x112x112, .f32⟩ : BufTy).Contents (Elt F)),
    binary main_arg0 main_v303 main_v304 (mulf : (⟨S8x64x112x112, .f32⟩ : BufTy).Contents (Elt F) → (⟨S8x64x112x112, .f32⟩ : BufTy).Contents (Elt F) → (⟨S8x64x112x112, .f32⟩ : BufTy).Contents (Elt F)),
    nullary main_cst_73 (constant S_ .f32 0x00000000#32),
    binary main_v304 main_cst_73 main_v305 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v306 ((extractStridedSlice S8x64x112x112 ![0, 0, 8, 3] · slices_S8x64x120x120_S8x64x112x112_0_0_8_3) : (⟨S8x64x120x120, .f32⟩ : BufTy).Contents (Elt F) → (⟨S8x64x112x112, .f32⟩ : BufTy).Contents (Elt F)),
    binary main_arg0 main_v306 main_v307 (mulf : (⟨S8x64x112x112, .f32⟩ : BufTy).Contents (Elt F) → (⟨S8x64x112x112, .f32⟩ : BufTy).Contents (Elt F) → (⟨S8x64x112x112, .f32⟩ : BufTy).Contents (Elt F)),
    nullary main_cst_74 (constant S_ .f32 0x00000000#32),
    binary main_v307 main_cst_74 main_v308 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v309 ((extractStridedSlice S8x64x112x112 ![0, 0, 8, 4] · slices_S8x64x120x120_S8x64x112x112_0_0_8_4) : (⟨S8x64x120x120, .f32⟩ : BufTy).Contents (Elt F) → (⟨S8x64x112x112, .f32⟩ : BufTy).Contents (Elt F)),
    binary main_arg0 main_v309 main_v310 (mulf : (⟨S8x64x112x112, .f32⟩ : BufTy).Contents (Elt F) → (⟨S8x64x112x112, .f32⟩ : BufTy).Contents (Elt F) → (⟨S8x64x112x112, .f32⟩ : BufTy).Contents (Elt F)),
    nullary main_cst_75 (constant S_ .f32 0x00000000#32),
    binary main_v310 main_cst_75 main_v311 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v312 ((extractStridedSlice S8x64x112x112 ![0, 0, 8, 5] · slices_S8x64x120x120_S8x64x112x112_0_0_8_5) : (⟨S8x64x120x120, .f32⟩ : BufTy).Contents (Elt F) → (⟨S8x64x112x112, .f32⟩ : BufTy).Contents (Elt F)),
    binary main_arg0 main_v312 main_v313 (mulf : (⟨S8x64x112x112, .f32⟩ : BufTy).Contents (Elt F) → (⟨S8x64x112x112, .f32⟩ : BufTy).Contents (Elt F) → (⟨S8x64x112x112, .f32⟩ : BufTy).Contents (Elt F)),
    nullary main_cst_76 (constant S_ .f32 0x00000000#32),
    binary main_v313 main_cst_76 main_v314 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v315 ((extractStridedSlice S8x64x112x112 ![0, 0, 8, 6] · slices_S8x64x120x120_S8x64x112x112_0_0_8_6) : (⟨S8x64x120x120, .f32⟩ : BufTy).Contents (Elt F) → (⟨S8x64x112x112, .f32⟩ : BufTy).Contents (Elt F)),
    binary main_arg0 main_v315 main_v316 (mulf : (⟨S8x64x112x112, .f32⟩ : BufTy).Contents (Elt F) → (⟨S8x64x112x112, .f32⟩ : BufTy).Contents (Elt F) → (⟨S8x64x112x112, .f32⟩ : BufTy).Contents (Elt F)),
    nullary main_cst_77 (constant S_ .f32 0x00000000#32),
    binary main_v316 main_cst_77 main_v317 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v318 ((extractStridedSlice S8x64x112x112 ![0, 0, 8, 7] · slices_S8x64x120x120_S8x64x112x112_0_0_8_7) : (⟨S8x64x120x120, .f32⟩ : BufTy).Contents (Elt F) → (⟨S8x64x112x112, .f32⟩ : BufTy).Contents (Elt F)),
    binary main_arg0 main_v318 main_v319 (mulf : (⟨S8x64x112x112, .f32⟩ : BufTy).Contents (Elt F) → (⟨S8x64x112x112, .f32⟩ : BufTy).Contents (Elt F) → (⟨S8x64x112x112, .f32⟩ : BufTy).Contents (Elt F)),
    nullary main_cst_78 (constant S_ .f32 0x00000000#32),
    binary main_v319 main_cst_78 main_v320 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v0 main_v321 ((extractStridedSlice S8x64x112x112 ![0, 0, 8, 8] · slices_S8x64x120x120_S8x64x112x112_0_0_8_8) : (⟨S8x64x120x120, .f32⟩ : BufTy).Contents (Elt F) → (⟨S8x64x112x112, .f32⟩ : BufTy).Contents (Elt F)),
    binary main_arg0 main_v321 main_v322 (mulf : (⟨S8x64x112x112, .f32⟩ : BufTy).Contents (Elt F) → (⟨S8x64x112x112, .f32⟩ : BufTy).Contents (Elt F) → (⟨S8x64x112x112, .f32⟩ : BufTy).Contents (Elt F)),
    nullary main_cst_79 (constant S_ .f32 0x00000000#32),
    binary main_v322 main_cst_79 main_v323 ((fun x v => Host.reduceAdd x v reducesTo_S8x64x112x112_S8x112x112_d1 h_S_) : (⟨S8x64x112x112, .f32⟩ : BufTy).Contents (Elt F) → (⟨S_, .f32⟩ : BufTy).Contents (Elt F) → (⟨S8x112x112, .f32⟩ : BufTy).Contents (Elt F)),
    unary main_v299 main_v324 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v302 main_v325 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v305 main_v326 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v308 main_v327 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v311 main_v328 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v314 main_v329 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v317 main_v330 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v320 main_v331 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    unary main_v323 main_v332 (broadcastInDim S8x1x112x112 ![0, 2, 3] bcast_S8x112x112_S8x1x112x112_0_2_3 : (⟨S8x112x112, .f32⟩ : BufTy).Contents (Elt F) → (⟨S8x1x112x112, .f32⟩ : BufTy).Contents (Elt F)),
    nary ![main_v324, main_v325, main_v326, main_v327, main_v328, main_v329, main_v330, main_v331, main_v332] main_v333 (fun u => concatenate S8x9x112x112 1 [⟨S8x1x112x112, u 0⟩, ⟨S8x1x112x112, u 1⟩, ⟨S8x1x112x112, u 2⟩, ⟨S8x1x112x112, u 3⟩, ⟨S8x1x112x112, u 4⟩, ⟨S8x1x112x112, u 5⟩, ⟨S8x1x112x112, u 6⟩, ⟨S8x1x112x112, u 7⟩, ⟨S8x1x112x112, u 8⟩] concatenates_S8x1x112x112_S8x1x112x112_S8x1x112x112_S8x1x112x112_S8x1x112x112_S8x1x112x112_S8x1x112x112_S8x1x112x112_S8x1x112x112_S8x9x112x112_d1),
    unary main_v37 main_v334 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v74 main_v335 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v111 main_v336 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v148 main_v337 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)) ]

set_option maxHeartbeats 0 in
theorem part6_eq (d : Dev nD) : main_part6 (F := F) d = seq opsP6 := by chain_rfl

/-- The operations of window 7 of @main. -/
abbrev opsP7 : List (HloOp τ sig (Elt F)) :=
  [ unary main_v185 main_v338 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v222 main_v339 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v259 main_v340 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v296 main_v341 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    unary main_v333 main_v342 (broadcastInDim S8x1x9x112x112 ![0, 2, 3, 4] bcast_S8x9x112x112_S8x1x9x112x112_0_2_3_4 : (⟨S8x9x112x112, .f32⟩ : BufTy).Contents (Elt F) → (⟨S8x1x9x112x112, .f32⟩ : BufTy).Contents (Elt F)),
    nary ![main_v334, main_v335, main_v336, main_v337, main_v338, main_v339, main_v340, main_v341, main_v342] main_v343 (fun u => concatenate S8x9x9x112x112 1 [⟨S8x1x9x112x112, u 0⟩, ⟨S8x1x9x112x112, u 1⟩, ⟨S8x1x9x112x112, u 2⟩, ⟨S8x1x9x112x112, u 3⟩, ⟨S8x1x9x112x112, u 4⟩, ⟨S8x1x9x112x112, u 5⟩, ⟨S8x1x9x112x112, u 6⟩, ⟨S8x1x9x112x112, u 7⟩, ⟨S8x1x9x112x112, u 8⟩] concatenates_S8x1x9x112x112_S8x1x9x112x112_S8x1x9x112x112_S8x1x9x112x112_S8x1x9x112x112_S8x1x9x112x112_S8x1x9x112x112_S8x1x9x112x112_S8x1x9x112x112_S8x9x9x112x112_d1),
    nullary main_c_80 (constantI S_ 32 0#32),
    TRef.unary (TRef.of (T := ⟨S_, .i32⟩) main_c_80) (TRef.of (T := ⟨S_, .f32⟩) main_call1_v0) (sitofp .f32),
    TRef.binary (TRef.of (T := ⟨S8x128x56x56, .f32⟩) main_arg5) (TRef.of (T := ⟨S_, .f32⟩) main_call1_v0) (TRef.of (T := ⟨S8x128x64x64, .f32⟩) main_v344) (fun x v => pad S8x128x64x64 ![0, 0, 4, 4] ![0, 0, 4, 4] ![0, 0, 0, 0] x v pads_S8x128x56x56_S8x128x64x64_000_000_440_440 h_S_),
    unary main_v344 main_v345 ((extractStridedSlice S8x128x56x56 ![0, 0, 0, 0] · slices_S8x128x64x64_S8x128x56x56_0_0_0_0) : (⟨S8x128x64x64, .f32⟩ : BufTy).Contents (Elt F) → (⟨S8x128x56x56, .f32⟩ : BufTy).Contents (Elt F)),
    binary main_arg1 main_v345 main_v346 (mulf : (⟨S8x128x56x56, .f32⟩ : BufTy).Contents (Elt F) → (⟨S8x128x56x56, .f32⟩ : BufTy).Contents (Elt F) → (⟨S8x128x56x56, .f32⟩ : BufTy).Contents (Elt F)),
    nullary main_cst_81 (constant S_ .f32 0x00000000#32),
    binary main_v346 main_cst_81 main_v347 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v348 ((extractStridedSlice S8x128x56x56 ![0, 0, 0, 1] · slices_S8x128x64x64_S8x128x56x56_0_0_0_1) : (⟨S8x128x64x64, .f32⟩ : BufTy).Contents (Elt F) → (⟨S8x128x56x56, .f32⟩ : BufTy).Contents (Elt F)),
    binary main_arg1 main_v348 main_v349 (mulf : (⟨S8x128x56x56, .f32⟩ : BufTy).Contents (Elt F) → (⟨S8x128x56x56, .f32⟩ : BufTy).Contents (Elt F) → (⟨S8x128x56x56, .f32⟩ : BufTy).Contents (Elt F)),
    nullary main_cst_82 (constant S_ .f32 0x00000000#32),
    binary main_v349 main_cst_82 main_v350 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v351 ((extractStridedSlice S8x128x56x56 ![0, 0, 0, 2] · slices_S8x128x64x64_S8x128x56x56_0_0_0_2) : (⟨S8x128x64x64, .f32⟩ : BufTy).Contents (Elt F) → (⟨S8x128x56x56, .f32⟩ : BufTy).Contents (Elt F)),
    binary main_arg1 main_v351 main_v352 (mulf : (⟨S8x128x56x56, .f32⟩ : BufTy).Contents (Elt F) → (⟨S8x128x56x56, .f32⟩ : BufTy).Contents (Elt F) → (⟨S8x128x56x56, .f32⟩ : BufTy).Contents (Elt F)),
    nullary main_cst_83 (constant S_ .f32 0x00000000#32),
    binary main_v352 main_cst_83 main_v353 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v354 ((extractStridedSlice S8x128x56x56 ![0, 0, 0, 3] · slices_S8x128x64x64_S8x128x56x56_0_0_0_3) : (⟨S8x128x64x64, .f32⟩ : BufTy).Contents (Elt F) → (⟨S8x128x56x56, .f32⟩ : BufTy).Contents (Elt F)),
    binary main_arg1 main_v354 main_v355 (mulf : (⟨S8x128x56x56, .f32⟩ : BufTy).Contents (Elt F) → (⟨S8x128x56x56, .f32⟩ : BufTy).Contents (Elt F) → (⟨S8x128x56x56, .f32⟩ : BufTy).Contents (Elt F)),
    nullary main_cst_84 (constant S_ .f32 0x00000000#32),
    binary main_v355 main_cst_84 main_v356 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v357 ((extractStridedSlice S8x128x56x56 ![0, 0, 0, 4] · slices_S8x128x64x64_S8x128x56x56_0_0_0_4) : (⟨S8x128x64x64, .f32⟩ : BufTy).Contents (Elt F) → (⟨S8x128x56x56, .f32⟩ : BufTy).Contents (Elt F)),
    binary main_arg1 main_v357 main_v358 (mulf : (⟨S8x128x56x56, .f32⟩ : BufTy).Contents (Elt F) → (⟨S8x128x56x56, .f32⟩ : BufTy).Contents (Elt F) → (⟨S8x128x56x56, .f32⟩ : BufTy).Contents (Elt F)),
    nullary main_cst_85 (constant S_ .f32 0x00000000#32),
    binary main_v358 main_cst_85 main_v359 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v360 ((extractStridedSlice S8x128x56x56 ![0, 0, 0, 5] · slices_S8x128x64x64_S8x128x56x56_0_0_0_5) : (⟨S8x128x64x64, .f32⟩ : BufTy).Contents (Elt F) → (⟨S8x128x56x56, .f32⟩ : BufTy).Contents (Elt F)),
    binary main_arg1 main_v360 main_v361 (mulf : (⟨S8x128x56x56, .f32⟩ : BufTy).Contents (Elt F) → (⟨S8x128x56x56, .f32⟩ : BufTy).Contents (Elt F) → (⟨S8x128x56x56, .f32⟩ : BufTy).Contents (Elt F)),
    nullary main_cst_86 (constant S_ .f32 0x00000000#32),
    binary main_v361 main_cst_86 main_v362 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v363 ((extractStridedSlice S8x128x56x56 ![0, 0, 0, 6] · slices_S8x128x64x64_S8x128x56x56_0_0_0_6) : (⟨S8x128x64x64, .f32⟩ : BufTy).Contents (Elt F) → (⟨S8x128x56x56, .f32⟩ : BufTy).Contents (Elt F)),
    binary main_arg1 main_v363 main_v364 (mulf : (⟨S8x128x56x56, .f32⟩ : BufTy).Contents (Elt F) → (⟨S8x128x56x56, .f32⟩ : BufTy).Contents (Elt F) → (⟨S8x128x56x56, .f32⟩ : BufTy).Contents (Elt F)),
    nullary main_cst_87 (constant S_ .f32 0x00000000#32),
    binary main_v364 main_cst_87 main_v365 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v366 ((extractStridedSlice S8x128x56x56 ![0, 0, 0, 7] · slices_S8x128x64x64_S8x128x56x56_0_0_0_7) : (⟨S8x128x64x64, .f32⟩ : BufTy).Contents (Elt F) → (⟨S8x128x56x56, .f32⟩ : BufTy).Contents (Elt F)),
    binary main_arg1 main_v366 main_v367 (mulf : (⟨S8x128x56x56, .f32⟩ : BufTy).Contents (Elt F) → (⟨S8x128x56x56, .f32⟩ : BufTy).Contents (Elt F) → (⟨S8x128x56x56, .f32⟩ : BufTy).Contents (Elt F)),
    nullary main_cst_88 (constant S_ .f32 0x00000000#32),
    binary main_v367 main_cst_88 main_v368 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v369 ((extractStridedSlice S8x128x56x56 ![0, 0, 0, 8] · slices_S8x128x64x64_S8x128x56x56_0_0_0_8) : (⟨S8x128x64x64, .f32⟩ : BufTy).Contents (Elt F) → (⟨S8x128x56x56, .f32⟩ : BufTy).Contents (Elt F)),
    binary main_arg1 main_v369 main_v370 (mulf : (⟨S8x128x56x56, .f32⟩ : BufTy).Contents (Elt F) → (⟨S8x128x56x56, .f32⟩ : BufTy).Contents (Elt F) → (⟨S8x128x56x56, .f32⟩ : BufTy).Contents (Elt F)),
    nullary main_cst_89 (constant S_ .f32 0x00000000#32),
    binary main_v370 main_cst_89 main_v371 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v347 main_v372 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v350 main_v373 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v353 main_v374 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v356 main_v375 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v359 main_v376 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v362 main_v377 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v365 main_v378 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v368 main_v379 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v371 main_v380 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v372, main_v373, main_v374, main_v375, main_v376, main_v377, main_v378, main_v379, main_v380] main_v381 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v382 ((extractStridedSlice S8x128x56x56 ![0, 0, 1, 0] · slices_S8x128x64x64_S8x128x56x56_0_0_1_0) : (⟨S8x128x64x64, .f32⟩ : BufTy).Contents (Elt F) → (⟨S8x128x56x56, .f32⟩ : BufTy).Contents (Elt F)),
    binary main_arg1 main_v382 main_v383 (mulf : (⟨S8x128x56x56, .f32⟩ : BufTy).Contents (Elt F) → (⟨S8x128x56x56, .f32⟩ : BufTy).Contents (Elt F) → (⟨S8x128x56x56, .f32⟩ : BufTy).Contents (Elt F)),
    nullary main_cst_90 (constant S_ .f32 0x00000000#32),
    binary main_v383 main_cst_90 main_v384 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v385 ((extractStridedSlice S8x128x56x56 ![0, 0, 1, 1] · slices_S8x128x64x64_S8x128x56x56_0_0_1_1) : (⟨S8x128x64x64, .f32⟩ : BufTy).Contents (Elt F) → (⟨S8x128x56x56, .f32⟩ : BufTy).Contents (Elt F)),
    binary main_arg1 main_v385 main_v386 (mulf : (⟨S8x128x56x56, .f32⟩ : BufTy).Contents (Elt F) → (⟨S8x128x56x56, .f32⟩ : BufTy).Contents (Elt F) → (⟨S8x128x56x56, .f32⟩ : BufTy).Contents (Elt F)) ]

set_option maxHeartbeats 0 in
theorem part7_eq (d : Dev nD) : main_part7 (F := F) d = seq opsP7 := by chain_rfl

/-- The operations of window 8 of @main. -/
abbrev opsP8 : List (HloOp τ sig (Elt F)) :=
  [ nullary main_cst_91 (constant S_ .f32 0x00000000#32),
    binary main_v386 main_cst_91 main_v387 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v388 ((extractStridedSlice S8x128x56x56 ![0, 0, 1, 2] · slices_S8x128x64x64_S8x128x56x56_0_0_1_2) : (⟨S8x128x64x64, .f32⟩ : BufTy).Contents (Elt F) → (⟨S8x128x56x56, .f32⟩ : BufTy).Contents (Elt F)),
    binary main_arg1 main_v388 main_v389 (mulf : (⟨S8x128x56x56, .f32⟩ : BufTy).Contents (Elt F) → (⟨S8x128x56x56, .f32⟩ : BufTy).Contents (Elt F) → (⟨S8x128x56x56, .f32⟩ : BufTy).Contents (Elt F)),
    nullary main_cst_92 (constant S_ .f32 0x00000000#32),
    binary main_v389 main_cst_92 main_v390 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v391 ((extractStridedSlice S8x128x56x56 ![0, 0, 1, 3] · slices_S8x128x64x64_S8x128x56x56_0_0_1_3) : (⟨S8x128x64x64, .f32⟩ : BufTy).Contents (Elt F) → (⟨S8x128x56x56, .f32⟩ : BufTy).Contents (Elt F)),
    binary main_arg1 main_v391 main_v392 (mulf : (⟨S8x128x56x56, .f32⟩ : BufTy).Contents (Elt F) → (⟨S8x128x56x56, .f32⟩ : BufTy).Contents (Elt F) → (⟨S8x128x56x56, .f32⟩ : BufTy).Contents (Elt F)),
    nullary main_cst_93 (constant S_ .f32 0x00000000#32),
    binary main_v392 main_cst_93 main_v393 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v394 ((extractStridedSlice S8x128x56x56 ![0, 0, 1, 4] · slices_S8x128x64x64_S8x128x56x56_0_0_1_4) : (⟨S8x128x64x64, .f32⟩ : BufTy).Contents (Elt F) → (⟨S8x128x56x56, .f32⟩ : BufTy).Contents (Elt F)),
    binary main_arg1 main_v394 main_v395 (mulf : (⟨S8x128x56x56, .f32⟩ : BufTy).Contents (Elt F) → (⟨S8x128x56x56, .f32⟩ : BufTy).Contents (Elt F) → (⟨S8x128x56x56, .f32⟩ : BufTy).Contents (Elt F)),
    nullary main_cst_94 (constant S_ .f32 0x00000000#32),
    binary main_v395 main_cst_94 main_v396 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v397 ((extractStridedSlice S8x128x56x56 ![0, 0, 1, 5] · slices_S8x128x64x64_S8x128x56x56_0_0_1_5) : (⟨S8x128x64x64, .f32⟩ : BufTy).Contents (Elt F) → (⟨S8x128x56x56, .f32⟩ : BufTy).Contents (Elt F)),
    binary main_arg1 main_v397 main_v398 (mulf : (⟨S8x128x56x56, .f32⟩ : BufTy).Contents (Elt F) → (⟨S8x128x56x56, .f32⟩ : BufTy).Contents (Elt F) → (⟨S8x128x56x56, .f32⟩ : BufTy).Contents (Elt F)),
    nullary main_cst_95 (constant S_ .f32 0x00000000#32),
    binary main_v398 main_cst_95 main_v399 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v400 ((extractStridedSlice S8x128x56x56 ![0, 0, 1, 6] · slices_S8x128x64x64_S8x128x56x56_0_0_1_6) : (⟨S8x128x64x64, .f32⟩ : BufTy).Contents (Elt F) → (⟨S8x128x56x56, .f32⟩ : BufTy).Contents (Elt F)),
    binary main_arg1 main_v400 main_v401 (mulf : (⟨S8x128x56x56, .f32⟩ : BufTy).Contents (Elt F) → (⟨S8x128x56x56, .f32⟩ : BufTy).Contents (Elt F) → (⟨S8x128x56x56, .f32⟩ : BufTy).Contents (Elt F)),
    nullary main_cst_96 (constant S_ .f32 0x00000000#32),
    binary main_v401 main_cst_96 main_v402 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v403 ((extractStridedSlice S8x128x56x56 ![0, 0, 1, 7] · slices_S8x128x64x64_S8x128x56x56_0_0_1_7) : (⟨S8x128x64x64, .f32⟩ : BufTy).Contents (Elt F) → (⟨S8x128x56x56, .f32⟩ : BufTy).Contents (Elt F)),
    binary main_arg1 main_v403 main_v404 (mulf : (⟨S8x128x56x56, .f32⟩ : BufTy).Contents (Elt F) → (⟨S8x128x56x56, .f32⟩ : BufTy).Contents (Elt F) → (⟨S8x128x56x56, .f32⟩ : BufTy).Contents (Elt F)),
    nullary main_cst_97 (constant S_ .f32 0x00000000#32),
    binary main_v404 main_cst_97 main_v405 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v406 ((extractStridedSlice S8x128x56x56 ![0, 0, 1, 8] · slices_S8x128x64x64_S8x128x56x56_0_0_1_8) : (⟨S8x128x64x64, .f32⟩ : BufTy).Contents (Elt F) → (⟨S8x128x56x56, .f32⟩ : BufTy).Contents (Elt F)),
    binary main_arg1 main_v406 main_v407 (mulf : (⟨S8x128x56x56, .f32⟩ : BufTy).Contents (Elt F) → (⟨S8x128x56x56, .f32⟩ : BufTy).Contents (Elt F) → (⟨S8x128x56x56, .f32⟩ : BufTy).Contents (Elt F)),
    nullary main_cst_98 (constant S_ .f32 0x00000000#32),
    binary main_v407 main_cst_98 main_v408 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v384 main_v409 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v387 main_v410 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v390 main_v411 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v393 main_v412 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v396 main_v413 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v399 main_v414 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v402 main_v415 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v405 main_v416 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v408 main_v417 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v409, main_v410, main_v411, main_v412, main_v413, main_v414, main_v415, main_v416, main_v417] main_v418 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v419 ((extractStridedSlice S8x128x56x56 ![0, 0, 2, 0] · slices_S8x128x64x64_S8x128x56x56_0_0_2_0) : (⟨S8x128x64x64, .f32⟩ : BufTy).Contents (Elt F) → (⟨S8x128x56x56, .f32⟩ : BufTy).Contents (Elt F)),
    binary main_arg1 main_v419 main_v420 (mulf : (⟨S8x128x56x56, .f32⟩ : BufTy).Contents (Elt F) → (⟨S8x128x56x56, .f32⟩ : BufTy).Contents (Elt F) → (⟨S8x128x56x56, .f32⟩ : BufTy).Contents (Elt F)),
    nullary main_cst_99 (constant S_ .f32 0x00000000#32),
    binary main_v420 main_cst_99 main_v421 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v422 ((extractStridedSlice S8x128x56x56 ![0, 0, 2, 1] · slices_S8x128x64x64_S8x128x56x56_0_0_2_1) : (⟨S8x128x64x64, .f32⟩ : BufTy).Contents (Elt F) → (⟨S8x128x56x56, .f32⟩ : BufTy).Contents (Elt F)),
    binary main_arg1 main_v422 main_v423 (mulf : (⟨S8x128x56x56, .f32⟩ : BufTy).Contents (Elt F) → (⟨S8x128x56x56, .f32⟩ : BufTy).Contents (Elt F) → (⟨S8x128x56x56, .f32⟩ : BufTy).Contents (Elt F)),
    nullary main_cst_100 (constant S_ .f32 0x00000000#32),
    binary main_v423 main_cst_100 main_v424 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v425 ((extractStridedSlice S8x128x56x56 ![0, 0, 2, 2] · slices_S8x128x64x64_S8x128x56x56_0_0_2_2) : (⟨S8x128x64x64, .f32⟩ : BufTy).Contents (Elt F) → (⟨S8x128x56x56, .f32⟩ : BufTy).Contents (Elt F)),
    binary main_arg1 main_v425 main_v426 (mulf : (⟨S8x128x56x56, .f32⟩ : BufTy).Contents (Elt F) → (⟨S8x128x56x56, .f32⟩ : BufTy).Contents (Elt F) → (⟨S8x128x56x56, .f32⟩ : BufTy).Contents (Elt F)),
    nullary main_cst_101 (constant S_ .f32 0x00000000#32),
    binary main_v426 main_cst_101 main_v427 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v428 ((extractStridedSlice S8x128x56x56 ![0, 0, 2, 3] · slices_S8x128x64x64_S8x128x56x56_0_0_2_3) : (⟨S8x128x64x64, .f32⟩ : BufTy).Contents (Elt F) → (⟨S8x128x56x56, .f32⟩ : BufTy).Contents (Elt F)),
    binary main_arg1 main_v428 main_v429 (mulf : (⟨S8x128x56x56, .f32⟩ : BufTy).Contents (Elt F) → (⟨S8x128x56x56, .f32⟩ : BufTy).Contents (Elt F) → (⟨S8x128x56x56, .f32⟩ : BufTy).Contents (Elt F)),
    nullary main_cst_102 (constant S_ .f32 0x00000000#32),
    binary main_v429 main_cst_102 main_v430 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v431 ((extractStridedSlice S8x128x56x56 ![0, 0, 2, 4] · slices_S8x128x64x64_S8x128x56x56_0_0_2_4) : (⟨S8x128x64x64, .f32⟩ : BufTy).Contents (Elt F) → (⟨S8x128x56x56, .f32⟩ : BufTy).Contents (Elt F)),
    binary main_arg1 main_v431 main_v432 (mulf : (⟨S8x128x56x56, .f32⟩ : BufTy).Contents (Elt F) → (⟨S8x128x56x56, .f32⟩ : BufTy).Contents (Elt F) → (⟨S8x128x56x56, .f32⟩ : BufTy).Contents (Elt F)),
    nullary main_cst_103 (constant S_ .f32 0x00000000#32),
    binary main_v432 main_cst_103 main_v433 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)) ]

set_option maxHeartbeats 0 in
theorem part8_eq (d : Dev nD) : main_part8 (F := F) d = seq opsP8 := by chain_rfl

/-- The operations of window 9 of @main. -/
abbrev opsP9 : List (HloOp τ sig (Elt F)) :=
  [ unary main_v344 main_v434 ((extractStridedSlice S8x128x56x56 ![0, 0, 2, 5] · slices_S8x128x64x64_S8x128x56x56_0_0_2_5) : (⟨S8x128x64x64, .f32⟩ : BufTy).Contents (Elt F) → (⟨S8x128x56x56, .f32⟩ : BufTy).Contents (Elt F)),
    binary main_arg1 main_v434 main_v435 (mulf : (⟨S8x128x56x56, .f32⟩ : BufTy).Contents (Elt F) → (⟨S8x128x56x56, .f32⟩ : BufTy).Contents (Elt F) → (⟨S8x128x56x56, .f32⟩ : BufTy).Contents (Elt F)),
    nullary main_cst_104 (constant S_ .f32 0x00000000#32),
    binary main_v435 main_cst_104 main_v436 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v437 ((extractStridedSlice S8x128x56x56 ![0, 0, 2, 6] · slices_S8x128x64x64_S8x128x56x56_0_0_2_6) : (⟨S8x128x64x64, .f32⟩ : BufTy).Contents (Elt F) → (⟨S8x128x56x56, .f32⟩ : BufTy).Contents (Elt F)),
    binary main_arg1 main_v437 main_v438 (mulf : (⟨S8x128x56x56, .f32⟩ : BufTy).Contents (Elt F) → (⟨S8x128x56x56, .f32⟩ : BufTy).Contents (Elt F) → (⟨S8x128x56x56, .f32⟩ : BufTy).Contents (Elt F)),
    nullary main_cst_105 (constant S_ .f32 0x00000000#32),
    binary main_v438 main_cst_105 main_v439 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v440 ((extractStridedSlice S8x128x56x56 ![0, 0, 2, 7] · slices_S8x128x64x64_S8x128x56x56_0_0_2_7) : (⟨S8x128x64x64, .f32⟩ : BufTy).Contents (Elt F) → (⟨S8x128x56x56, .f32⟩ : BufTy).Contents (Elt F)),
    binary main_arg1 main_v440 main_v441 (mulf : (⟨S8x128x56x56, .f32⟩ : BufTy).Contents (Elt F) → (⟨S8x128x56x56, .f32⟩ : BufTy).Contents (Elt F) → (⟨S8x128x56x56, .f32⟩ : BufTy).Contents (Elt F)),
    nullary main_cst_106 (constant S_ .f32 0x00000000#32),
    binary main_v441 main_cst_106 main_v442 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v443 ((extractStridedSlice S8x128x56x56 ![0, 0, 2, 8] · slices_S8x128x64x64_S8x128x56x56_0_0_2_8) : (⟨S8x128x64x64, .f32⟩ : BufTy).Contents (Elt F) → (⟨S8x128x56x56, .f32⟩ : BufTy).Contents (Elt F)),
    binary main_arg1 main_v443 main_v444 (mulf : (⟨S8x128x56x56, .f32⟩ : BufTy).Contents (Elt F) → (⟨S8x128x56x56, .f32⟩ : BufTy).Contents (Elt F) → (⟨S8x128x56x56, .f32⟩ : BufTy).Contents (Elt F)),
    nullary main_cst_107 (constant S_ .f32 0x00000000#32),
    binary main_v444 main_cst_107 main_v445 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v421 main_v446 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v424 main_v447 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v427 main_v448 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v430 main_v449 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v433 main_v450 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v436 main_v451 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v439 main_v452 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v442 main_v453 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v445 main_v454 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v446, main_v447, main_v448, main_v449, main_v450, main_v451, main_v452, main_v453, main_v454] main_v455 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v456 ((extractStridedSlice S8x128x56x56 ![0, 0, 3, 0] · slices_S8x128x64x64_S8x128x56x56_0_0_3_0) : (⟨S8x128x64x64, .f32⟩ : BufTy).Contents (Elt F) → (⟨S8x128x56x56, .f32⟩ : BufTy).Contents (Elt F)),
    binary main_arg1 main_v456 main_v457 (mulf : (⟨S8x128x56x56, .f32⟩ : BufTy).Contents (Elt F) → (⟨S8x128x56x56, .f32⟩ : BufTy).Contents (Elt F) → (⟨S8x128x56x56, .f32⟩ : BufTy).Contents (Elt F)),
    nullary main_cst_108 (constant S_ .f32 0x00000000#32),
    binary main_v457 main_cst_108 main_v458 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v459 ((extractStridedSlice S8x128x56x56 ![0, 0, 3, 1] · slices_S8x128x64x64_S8x128x56x56_0_0_3_1) : (⟨S8x128x64x64, .f32⟩ : BufTy).Contents (Elt F) → (⟨S8x128x56x56, .f32⟩ : BufTy).Contents (Elt F)),
    binary main_arg1 main_v459 main_v460 (mulf : (⟨S8x128x56x56, .f32⟩ : BufTy).Contents (Elt F) → (⟨S8x128x56x56, .f32⟩ : BufTy).Contents (Elt F) → (⟨S8x128x56x56, .f32⟩ : BufTy).Contents (Elt F)),
    nullary main_cst_109 (constant S_ .f32 0x00000000#32),
    binary main_v460 main_cst_109 main_v461 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v462 ((extractStridedSlice S8x128x56x56 ![0, 0, 3, 2] · slices_S8x128x64x64_S8x128x56x56_0_0_3_2) : (⟨S8x128x64x64, .f32⟩ : BufTy).Contents (Elt F) → (⟨S8x128x56x56, .f32⟩ : BufTy).Contents (Elt F)),
    binary main_arg1 main_v462 main_v463 (mulf : (⟨S8x128x56x56, .f32⟩ : BufTy).Contents (Elt F) → (⟨S8x128x56x56, .f32⟩ : BufTy).Contents (Elt F) → (⟨S8x128x56x56, .f32⟩ : BufTy).Contents (Elt F)),
    nullary main_cst_110 (constant S_ .f32 0x00000000#32),
    binary main_v463 main_cst_110 main_v464 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v465 ((extractStridedSlice S8x128x56x56 ![0, 0, 3, 3] · slices_S8x128x64x64_S8x128x56x56_0_0_3_3) : (⟨S8x128x64x64, .f32⟩ : BufTy).Contents (Elt F) → (⟨S8x128x56x56, .f32⟩ : BufTy).Contents (Elt F)),
    binary main_arg1 main_v465 main_v466 (mulf : (⟨S8x128x56x56, .f32⟩ : BufTy).Contents (Elt F) → (⟨S8x128x56x56, .f32⟩ : BufTy).Contents (Elt F) → (⟨S8x128x56x56, .f32⟩ : BufTy).Contents (Elt F)),
    nullary main_cst_111 (constant S_ .f32 0x00000000#32),
    binary main_v466 main_cst_111 main_v467 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v468 ((extractStridedSlice S8x128x56x56 ![0, 0, 3, 4] · slices_S8x128x64x64_S8x128x56x56_0_0_3_4) : (⟨S8x128x64x64, .f32⟩ : BufTy).Contents (Elt F) → (⟨S8x128x56x56, .f32⟩ : BufTy).Contents (Elt F)),
    binary main_arg1 main_v468 main_v469 (mulf : (⟨S8x128x56x56, .f32⟩ : BufTy).Contents (Elt F) → (⟨S8x128x56x56, .f32⟩ : BufTy).Contents (Elt F) → (⟨S8x128x56x56, .f32⟩ : BufTy).Contents (Elt F)),
    nullary main_cst_112 (constant S_ .f32 0x00000000#32),
    binary main_v469 main_cst_112 main_v470 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v471 ((extractStridedSlice S8x128x56x56 ![0, 0, 3, 5] · slices_S8x128x64x64_S8x128x56x56_0_0_3_5) : (⟨S8x128x64x64, .f32⟩ : BufTy).Contents (Elt F) → (⟨S8x128x56x56, .f32⟩ : BufTy).Contents (Elt F)),
    binary main_arg1 main_v471 main_v472 (mulf : (⟨S8x128x56x56, .f32⟩ : BufTy).Contents (Elt F) → (⟨S8x128x56x56, .f32⟩ : BufTy).Contents (Elt F) → (⟨S8x128x56x56, .f32⟩ : BufTy).Contents (Elt F)),
    nullary main_cst_113 (constant S_ .f32 0x00000000#32),
    binary main_v472 main_cst_113 main_v473 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v474 ((extractStridedSlice S8x128x56x56 ![0, 0, 3, 6] · slices_S8x128x64x64_S8x128x56x56_0_0_3_6) : (⟨S8x128x64x64, .f32⟩ : BufTy).Contents (Elt F) → (⟨S8x128x56x56, .f32⟩ : BufTy).Contents (Elt F)),
    binary main_arg1 main_v474 main_v475 (mulf : (⟨S8x128x56x56, .f32⟩ : BufTy).Contents (Elt F) → (⟨S8x128x56x56, .f32⟩ : BufTy).Contents (Elt F) → (⟨S8x128x56x56, .f32⟩ : BufTy).Contents (Elt F)),
    nullary main_cst_114 (constant S_ .f32 0x00000000#32),
    binary main_v475 main_cst_114 main_v476 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v477 ((extractStridedSlice S8x128x56x56 ![0, 0, 3, 7] · slices_S8x128x64x64_S8x128x56x56_0_0_3_7) : (⟨S8x128x64x64, .f32⟩ : BufTy).Contents (Elt F) → (⟨S8x128x56x56, .f32⟩ : BufTy).Contents (Elt F)),
    binary main_arg1 main_v477 main_v478 (mulf : (⟨S8x128x56x56, .f32⟩ : BufTy).Contents (Elt F) → (⟨S8x128x56x56, .f32⟩ : BufTy).Contents (Elt F) → (⟨S8x128x56x56, .f32⟩ : BufTy).Contents (Elt F)),
    nullary main_cst_115 (constant S_ .f32 0x00000000#32),
    binary main_v478 main_cst_115 main_v479 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v480 ((extractStridedSlice S8x128x56x56 ![0, 0, 3, 8] · slices_S8x128x64x64_S8x128x56x56_0_0_3_8) : (⟨S8x128x64x64, .f32⟩ : BufTy).Contents (Elt F) → (⟨S8x128x56x56, .f32⟩ : BufTy).Contents (Elt F)),
    binary main_arg1 main_v480 main_v481 (mulf : (⟨S8x128x56x56, .f32⟩ : BufTy).Contents (Elt F) → (⟨S8x128x56x56, .f32⟩ : BufTy).Contents (Elt F) → (⟨S8x128x56x56, .f32⟩ : BufTy).Contents (Elt F)) ]

set_option maxHeartbeats 0 in
theorem part9_eq (d : Dev nD) : main_part9 (F := F) d = seq opsP9 := by chain_rfl

/-- The operations of window 10 of @main. -/
abbrev opsP10 : List (HloOp τ sig (Elt F)) :=
  [ nullary main_cst_116 (constant S_ .f32 0x00000000#32),
    binary main_v481 main_cst_116 main_v482 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v458 main_v483 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v461 main_v484 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v464 main_v485 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v467 main_v486 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v470 main_v487 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v473 main_v488 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v476 main_v489 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v479 main_v490 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v482 main_v491 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v483, main_v484, main_v485, main_v486, main_v487, main_v488, main_v489, main_v490, main_v491] main_v492 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v493 ((extractStridedSlice S8x128x56x56 ![0, 0, 4, 0] · slices_S8x128x64x64_S8x128x56x56_0_0_4_0) : (⟨S8x128x64x64, .f32⟩ : BufTy).Contents (Elt F) → (⟨S8x128x56x56, .f32⟩ : BufTy).Contents (Elt F)),
    binary main_arg1 main_v493 main_v494 (mulf : (⟨S8x128x56x56, .f32⟩ : BufTy).Contents (Elt F) → (⟨S8x128x56x56, .f32⟩ : BufTy).Contents (Elt F) → (⟨S8x128x56x56, .f32⟩ : BufTy).Contents (Elt F)),
    nullary main_cst_117 (constant S_ .f32 0x00000000#32),
    binary main_v494 main_cst_117 main_v495 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v496 ((extractStridedSlice S8x128x56x56 ![0, 0, 4, 1] · slices_S8x128x64x64_S8x128x56x56_0_0_4_1) : (⟨S8x128x64x64, .f32⟩ : BufTy).Contents (Elt F) → (⟨S8x128x56x56, .f32⟩ : BufTy).Contents (Elt F)),
    binary main_arg1 main_v496 main_v497 (mulf : (⟨S8x128x56x56, .f32⟩ : BufTy).Contents (Elt F) → (⟨S8x128x56x56, .f32⟩ : BufTy).Contents (Elt F) → (⟨S8x128x56x56, .f32⟩ : BufTy).Contents (Elt F)),
    nullary main_cst_118 (constant S_ .f32 0x00000000#32),
    binary main_v497 main_cst_118 main_v498 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v499 ((extractStridedSlice S8x128x56x56 ![0, 0, 4, 2] · slices_S8x128x64x64_S8x128x56x56_0_0_4_2) : (⟨S8x128x64x64, .f32⟩ : BufTy).Contents (Elt F) → (⟨S8x128x56x56, .f32⟩ : BufTy).Contents (Elt F)),
    binary main_arg1 main_v499 main_v500 (mulf : (⟨S8x128x56x56, .f32⟩ : BufTy).Contents (Elt F) → (⟨S8x128x56x56, .f32⟩ : BufTy).Contents (Elt F) → (⟨S8x128x56x56, .f32⟩ : BufTy).Contents (Elt F)),
    nullary main_cst_119 (constant S_ .f32 0x00000000#32),
    binary main_v500 main_cst_119 main_v501 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v502 ((extractStridedSlice S8x128x56x56 ![0, 0, 4, 3] · slices_S8x128x64x64_S8x128x56x56_0_0_4_3) : (⟨S8x128x64x64, .f32⟩ : BufTy).Contents (Elt F) → (⟨S8x128x56x56, .f32⟩ : BufTy).Contents (Elt F)),
    binary main_arg1 main_v502 main_v503 (mulf : (⟨S8x128x56x56, .f32⟩ : BufTy).Contents (Elt F) → (⟨S8x128x56x56, .f32⟩ : BufTy).Contents (Elt F) → (⟨S8x128x56x56, .f32⟩ : BufTy).Contents (Elt F)),
    nullary main_cst_120 (constant S_ .f32 0x00000000#32),
    binary main_v503 main_cst_120 main_v504 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v505 ((extractStridedSlice S8x128x56x56 ![0, 0, 4, 4] · slices_S8x128x64x64_S8x128x56x56_0_0_4_4) : (⟨S8x128x64x64, .f32⟩ : BufTy).Contents (Elt F) → (⟨S8x128x56x56, .f32⟩ : BufTy).Contents (Elt F)),
    binary main_arg1 main_v505 main_v506 (mulf : (⟨S8x128x56x56, .f32⟩ : BufTy).Contents (Elt F) → (⟨S8x128x56x56, .f32⟩ : BufTy).Contents (Elt F) → (⟨S8x128x56x56, .f32⟩ : BufTy).Contents (Elt F)),
    nullary main_cst_121 (constant S_ .f32 0x00000000#32),
    binary main_v506 main_cst_121 main_v507 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v508 ((extractStridedSlice S8x128x56x56 ![0, 0, 4, 5] · slices_S8x128x64x64_S8x128x56x56_0_0_4_5) : (⟨S8x128x64x64, .f32⟩ : BufTy).Contents (Elt F) → (⟨S8x128x56x56, .f32⟩ : BufTy).Contents (Elt F)),
    binary main_arg1 main_v508 main_v509 (mulf : (⟨S8x128x56x56, .f32⟩ : BufTy).Contents (Elt F) → (⟨S8x128x56x56, .f32⟩ : BufTy).Contents (Elt F) → (⟨S8x128x56x56, .f32⟩ : BufTy).Contents (Elt F)),
    nullary main_cst_122 (constant S_ .f32 0x00000000#32),
    binary main_v509 main_cst_122 main_v510 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v511 ((extractStridedSlice S8x128x56x56 ![0, 0, 4, 6] · slices_S8x128x64x64_S8x128x56x56_0_0_4_6) : (⟨S8x128x64x64, .f32⟩ : BufTy).Contents (Elt F) → (⟨S8x128x56x56, .f32⟩ : BufTy).Contents (Elt F)),
    binary main_arg1 main_v511 main_v512 (mulf : (⟨S8x128x56x56, .f32⟩ : BufTy).Contents (Elt F) → (⟨S8x128x56x56, .f32⟩ : BufTy).Contents (Elt F) → (⟨S8x128x56x56, .f32⟩ : BufTy).Contents (Elt F)),
    nullary main_cst_123 (constant S_ .f32 0x00000000#32),
    binary main_v512 main_cst_123 main_v513 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v514 ((extractStridedSlice S8x128x56x56 ![0, 0, 4, 7] · slices_S8x128x64x64_S8x128x56x56_0_0_4_7) : (⟨S8x128x64x64, .f32⟩ : BufTy).Contents (Elt F) → (⟨S8x128x56x56, .f32⟩ : BufTy).Contents (Elt F)),
    binary main_arg1 main_v514 main_v515 (mulf : (⟨S8x128x56x56, .f32⟩ : BufTy).Contents (Elt F) → (⟨S8x128x56x56, .f32⟩ : BufTy).Contents (Elt F) → (⟨S8x128x56x56, .f32⟩ : BufTy).Contents (Elt F)),
    nullary main_cst_124 (constant S_ .f32 0x00000000#32),
    binary main_v515 main_cst_124 main_v516 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v517 ((extractStridedSlice S8x128x56x56 ![0, 0, 4, 8] · slices_S8x128x64x64_S8x128x56x56_0_0_4_8) : (⟨S8x128x64x64, .f32⟩ : BufTy).Contents (Elt F) → (⟨S8x128x56x56, .f32⟩ : BufTy).Contents (Elt F)),
    binary main_arg1 main_v517 main_v518 (mulf : (⟨S8x128x56x56, .f32⟩ : BufTy).Contents (Elt F) → (⟨S8x128x56x56, .f32⟩ : BufTy).Contents (Elt F) → (⟨S8x128x56x56, .f32⟩ : BufTy).Contents (Elt F)),
    nullary main_cst_125 (constant S_ .f32 0x00000000#32),
    binary main_v518 main_cst_125 main_v519 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v495 main_v520 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v498 main_v521 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v501 main_v522 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v504 main_v523 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v507 main_v524 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v510 main_v525 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v513 main_v526 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v516 main_v527 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v519 main_v528 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v520, main_v521, main_v522, main_v523, main_v524, main_v525, main_v526, main_v527, main_v528] main_v529 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v530 ((extractStridedSlice S8x128x56x56 ![0, 0, 5, 0] · slices_S8x128x64x64_S8x128x56x56_0_0_5_0) : (⟨S8x128x64x64, .f32⟩ : BufTy).Contents (Elt F) → (⟨S8x128x56x56, .f32⟩ : BufTy).Contents (Elt F)),
    binary main_arg1 main_v530 main_v531 (mulf : (⟨S8x128x56x56, .f32⟩ : BufTy).Contents (Elt F) → (⟨S8x128x56x56, .f32⟩ : BufTy).Contents (Elt F) → (⟨S8x128x56x56, .f32⟩ : BufTy).Contents (Elt F)) ]

set_option maxHeartbeats 0 in
theorem part10_eq (d : Dev nD) : main_part10 (F := F) d = seq opsP10 := by chain_rfl

/-- The operations of window 11 of @main. -/
abbrev opsP11 : List (HloOp τ sig (Elt F)) :=
  [ nullary main_cst_126 (constant S_ .f32 0x00000000#32),
    binary main_v531 main_cst_126 main_v532 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v533 ((extractStridedSlice S8x128x56x56 ![0, 0, 5, 1] · slices_S8x128x64x64_S8x128x56x56_0_0_5_1) : (⟨S8x128x64x64, .f32⟩ : BufTy).Contents (Elt F) → (⟨S8x128x56x56, .f32⟩ : BufTy).Contents (Elt F)),
    binary main_arg1 main_v533 main_v534 (mulf : (⟨S8x128x56x56, .f32⟩ : BufTy).Contents (Elt F) → (⟨S8x128x56x56, .f32⟩ : BufTy).Contents (Elt F) → (⟨S8x128x56x56, .f32⟩ : BufTy).Contents (Elt F)),
    nullary main_cst_127 (constant S_ .f32 0x00000000#32),
    binary main_v534 main_cst_127 main_v535 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v536 ((extractStridedSlice S8x128x56x56 ![0, 0, 5, 2] · slices_S8x128x64x64_S8x128x56x56_0_0_5_2) : (⟨S8x128x64x64, .f32⟩ : BufTy).Contents (Elt F) → (⟨S8x128x56x56, .f32⟩ : BufTy).Contents (Elt F)),
    binary main_arg1 main_v536 main_v537 (mulf : (⟨S8x128x56x56, .f32⟩ : BufTy).Contents (Elt F) → (⟨S8x128x56x56, .f32⟩ : BufTy).Contents (Elt F) → (⟨S8x128x56x56, .f32⟩ : BufTy).Contents (Elt F)),
    nullary main_cst_128 (constant S_ .f32 0x00000000#32),
    binary main_v537 main_cst_128 main_v538 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v539 ((extractStridedSlice S8x128x56x56 ![0, 0, 5, 3] · slices_S8x128x64x64_S8x128x56x56_0_0_5_3) : (⟨S8x128x64x64, .f32⟩ : BufTy).Contents (Elt F) → (⟨S8x128x56x56, .f32⟩ : BufTy).Contents (Elt F)),
    binary main_arg1 main_v539 main_v540 (mulf : (⟨S8x128x56x56, .f32⟩ : BufTy).Contents (Elt F) → (⟨S8x128x56x56, .f32⟩ : BufTy).Contents (Elt F) → (⟨S8x128x56x56, .f32⟩ : BufTy).Contents (Elt F)),
    nullary main_cst_129 (constant S_ .f32 0x00000000#32),
    binary main_v540 main_cst_129 main_v541 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v542 ((extractStridedSlice S8x128x56x56 ![0, 0, 5, 4] · slices_S8x128x64x64_S8x128x56x56_0_0_5_4) : (⟨S8x128x64x64, .f32⟩ : BufTy).Contents (Elt F) → (⟨S8x128x56x56, .f32⟩ : BufTy).Contents (Elt F)),
    binary main_arg1 main_v542 main_v543 (mulf : (⟨S8x128x56x56, .f32⟩ : BufTy).Contents (Elt F) → (⟨S8x128x56x56, .f32⟩ : BufTy).Contents (Elt F) → (⟨S8x128x56x56, .f32⟩ : BufTy).Contents (Elt F)),
    nullary main_cst_130 (constant S_ .f32 0x00000000#32),
    binary main_v543 main_cst_130 main_v544 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v545 ((extractStridedSlice S8x128x56x56 ![0, 0, 5, 5] · slices_S8x128x64x64_S8x128x56x56_0_0_5_5) : (⟨S8x128x64x64, .f32⟩ : BufTy).Contents (Elt F) → (⟨S8x128x56x56, .f32⟩ : BufTy).Contents (Elt F)),
    binary main_arg1 main_v545 main_v546 (mulf : (⟨S8x128x56x56, .f32⟩ : BufTy).Contents (Elt F) → (⟨S8x128x56x56, .f32⟩ : BufTy).Contents (Elt F) → (⟨S8x128x56x56, .f32⟩ : BufTy).Contents (Elt F)),
    nullary main_cst_131 (constant S_ .f32 0x00000000#32),
    binary main_v546 main_cst_131 main_v547 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v548 ((extractStridedSlice S8x128x56x56 ![0, 0, 5, 6] · slices_S8x128x64x64_S8x128x56x56_0_0_5_6) : (⟨S8x128x64x64, .f32⟩ : BufTy).Contents (Elt F) → (⟨S8x128x56x56, .f32⟩ : BufTy).Contents (Elt F)),
    binary main_arg1 main_v548 main_v549 (mulf : (⟨S8x128x56x56, .f32⟩ : BufTy).Contents (Elt F) → (⟨S8x128x56x56, .f32⟩ : BufTy).Contents (Elt F) → (⟨S8x128x56x56, .f32⟩ : BufTy).Contents (Elt F)),
    nullary main_cst_132 (constant S_ .f32 0x00000000#32),
    binary main_v549 main_cst_132 main_v550 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v551 ((extractStridedSlice S8x128x56x56 ![0, 0, 5, 7] · slices_S8x128x64x64_S8x128x56x56_0_0_5_7) : (⟨S8x128x64x64, .f32⟩ : BufTy).Contents (Elt F) → (⟨S8x128x56x56, .f32⟩ : BufTy).Contents (Elt F)),
    binary main_arg1 main_v551 main_v552 (mulf : (⟨S8x128x56x56, .f32⟩ : BufTy).Contents (Elt F) → (⟨S8x128x56x56, .f32⟩ : BufTy).Contents (Elt F) → (⟨S8x128x56x56, .f32⟩ : BufTy).Contents (Elt F)),
    nullary main_cst_133 (constant S_ .f32 0x00000000#32),
    binary main_v552 main_cst_133 main_v553 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v554 ((extractStridedSlice S8x128x56x56 ![0, 0, 5, 8] · slices_S8x128x64x64_S8x128x56x56_0_0_5_8) : (⟨S8x128x64x64, .f32⟩ : BufTy).Contents (Elt F) → (⟨S8x128x56x56, .f32⟩ : BufTy).Contents (Elt F)),
    binary main_arg1 main_v554 main_v555 (mulf : (⟨S8x128x56x56, .f32⟩ : BufTy).Contents (Elt F) → (⟨S8x128x56x56, .f32⟩ : BufTy).Contents (Elt F) → (⟨S8x128x56x56, .f32⟩ : BufTy).Contents (Elt F)),
    nullary main_cst_134 (constant S_ .f32 0x00000000#32),
    binary main_v555 main_cst_134 main_v556 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v532 main_v557 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v535 main_v558 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v538 main_v559 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v541 main_v560 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v544 main_v561 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v547 main_v562 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v550 main_v563 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v553 main_v564 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v556 main_v565 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v557, main_v558, main_v559, main_v560, main_v561, main_v562, main_v563, main_v564, main_v565] main_v566 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v567 ((extractStridedSlice S8x128x56x56 ![0, 0, 6, 0] · slices_S8x128x64x64_S8x128x56x56_0_0_6_0) : (⟨S8x128x64x64, .f32⟩ : BufTy).Contents (Elt F) → (⟨S8x128x56x56, .f32⟩ : BufTy).Contents (Elt F)),
    binary main_arg1 main_v567 main_v568 (mulf : (⟨S8x128x56x56, .f32⟩ : BufTy).Contents (Elt F) → (⟨S8x128x56x56, .f32⟩ : BufTy).Contents (Elt F) → (⟨S8x128x56x56, .f32⟩ : BufTy).Contents (Elt F)),
    nullary main_cst_135 (constant S_ .f32 0x00000000#32),
    binary main_v568 main_cst_135 main_v569 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v570 ((extractStridedSlice S8x128x56x56 ![0, 0, 6, 1] · slices_S8x128x64x64_S8x128x56x56_0_0_6_1) : (⟨S8x128x64x64, .f32⟩ : BufTy).Contents (Elt F) → (⟨S8x128x56x56, .f32⟩ : BufTy).Contents (Elt F)),
    binary main_arg1 main_v570 main_v571 (mulf : (⟨S8x128x56x56, .f32⟩ : BufTy).Contents (Elt F) → (⟨S8x128x56x56, .f32⟩ : BufTy).Contents (Elt F) → (⟨S8x128x56x56, .f32⟩ : BufTy).Contents (Elt F)),
    nullary main_cst_136 (constant S_ .f32 0x00000000#32),
    binary main_v571 main_cst_136 main_v572 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v573 ((extractStridedSlice S8x128x56x56 ![0, 0, 6, 2] · slices_S8x128x64x64_S8x128x56x56_0_0_6_2) : (⟨S8x128x64x64, .f32⟩ : BufTy).Contents (Elt F) → (⟨S8x128x56x56, .f32⟩ : BufTy).Contents (Elt F)),
    binary main_arg1 main_v573 main_v574 (mulf : (⟨S8x128x56x56, .f32⟩ : BufTy).Contents (Elt F) → (⟨S8x128x56x56, .f32⟩ : BufTy).Contents (Elt F) → (⟨S8x128x56x56, .f32⟩ : BufTy).Contents (Elt F)),
    nullary main_cst_137 (constant S_ .f32 0x00000000#32),
    binary main_v574 main_cst_137 main_v575 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v576 ((extractStridedSlice S8x128x56x56 ![0, 0, 6, 3] · slices_S8x128x64x64_S8x128x56x56_0_0_6_3) : (⟨S8x128x64x64, .f32⟩ : BufTy).Contents (Elt F) → (⟨S8x128x56x56, .f32⟩ : BufTy).Contents (Elt F)),
    binary main_arg1 main_v576 main_v577 (mulf : (⟨S8x128x56x56, .f32⟩ : BufTy).Contents (Elt F) → (⟨S8x128x56x56, .f32⟩ : BufTy).Contents (Elt F) → (⟨S8x128x56x56, .f32⟩ : BufTy).Contents (Elt F)),
    nullary main_cst_138 (constant S_ .f32 0x00000000#32),
    binary main_v577 main_cst_138 main_v578 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)) ]

set_option maxHeartbeats 0 in
theorem part11_eq (d : Dev nD) : main_part11 (F := F) d = seq opsP11 := by chain_rfl

/-- The operations of window 12 of @main. -/
abbrev opsP12 : List (HloOp τ sig (Elt F)) :=
  [ unary main_v344 main_v579 ((extractStridedSlice S8x128x56x56 ![0, 0, 6, 4] · slices_S8x128x64x64_S8x128x56x56_0_0_6_4) : (⟨S8x128x64x64, .f32⟩ : BufTy).Contents (Elt F) → (⟨S8x128x56x56, .f32⟩ : BufTy).Contents (Elt F)),
    binary main_arg1 main_v579 main_v580 (mulf : (⟨S8x128x56x56, .f32⟩ : BufTy).Contents (Elt F) → (⟨S8x128x56x56, .f32⟩ : BufTy).Contents (Elt F) → (⟨S8x128x56x56, .f32⟩ : BufTy).Contents (Elt F)),
    nullary main_cst_139 (constant S_ .f32 0x00000000#32),
    binary main_v580 main_cst_139 main_v581 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v582 ((extractStridedSlice S8x128x56x56 ![0, 0, 6, 5] · slices_S8x128x64x64_S8x128x56x56_0_0_6_5) : (⟨S8x128x64x64, .f32⟩ : BufTy).Contents (Elt F) → (⟨S8x128x56x56, .f32⟩ : BufTy).Contents (Elt F)),
    binary main_arg1 main_v582 main_v583 (mulf : (⟨S8x128x56x56, .f32⟩ : BufTy).Contents (Elt F) → (⟨S8x128x56x56, .f32⟩ : BufTy).Contents (Elt F) → (⟨S8x128x56x56, .f32⟩ : BufTy).Contents (Elt F)),
    nullary main_cst_140 (constant S_ .f32 0x00000000#32),
    binary main_v583 main_cst_140 main_v584 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v585 ((extractStridedSlice S8x128x56x56 ![0, 0, 6, 6] · slices_S8x128x64x64_S8x128x56x56_0_0_6_6) : (⟨S8x128x64x64, .f32⟩ : BufTy).Contents (Elt F) → (⟨S8x128x56x56, .f32⟩ : BufTy).Contents (Elt F)),
    binary main_arg1 main_v585 main_v586 (mulf : (⟨S8x128x56x56, .f32⟩ : BufTy).Contents (Elt F) → (⟨S8x128x56x56, .f32⟩ : BufTy).Contents (Elt F) → (⟨S8x128x56x56, .f32⟩ : BufTy).Contents (Elt F)),
    nullary main_cst_141 (constant S_ .f32 0x00000000#32),
    binary main_v586 main_cst_141 main_v587 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v588 ((extractStridedSlice S8x128x56x56 ![0, 0, 6, 7] · slices_S8x128x64x64_S8x128x56x56_0_0_6_7) : (⟨S8x128x64x64, .f32⟩ : BufTy).Contents (Elt F) → (⟨S8x128x56x56, .f32⟩ : BufTy).Contents (Elt F)),
    binary main_arg1 main_v588 main_v589 (mulf : (⟨S8x128x56x56, .f32⟩ : BufTy).Contents (Elt F) → (⟨S8x128x56x56, .f32⟩ : BufTy).Contents (Elt F) → (⟨S8x128x56x56, .f32⟩ : BufTy).Contents (Elt F)),
    nullary main_cst_142 (constant S_ .f32 0x00000000#32),
    binary main_v589 main_cst_142 main_v590 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v591 ((extractStridedSlice S8x128x56x56 ![0, 0, 6, 8] · slices_S8x128x64x64_S8x128x56x56_0_0_6_8) : (⟨S8x128x64x64, .f32⟩ : BufTy).Contents (Elt F) → (⟨S8x128x56x56, .f32⟩ : BufTy).Contents (Elt F)),
    binary main_arg1 main_v591 main_v592 (mulf : (⟨S8x128x56x56, .f32⟩ : BufTy).Contents (Elt F) → (⟨S8x128x56x56, .f32⟩ : BufTy).Contents (Elt F) → (⟨S8x128x56x56, .f32⟩ : BufTy).Contents (Elt F)),
    nullary main_cst_143 (constant S_ .f32 0x00000000#32),
    binary main_v592 main_cst_143 main_v593 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v569 main_v594 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v572 main_v595 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v575 main_v596 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v578 main_v597 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v581 main_v598 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v584 main_v599 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v587 main_v600 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v590 main_v601 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v593 main_v602 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v594, main_v595, main_v596, main_v597, main_v598, main_v599, main_v600, main_v601, main_v602] main_v603 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v604 ((extractStridedSlice S8x128x56x56 ![0, 0, 7, 0] · slices_S8x128x64x64_S8x128x56x56_0_0_7_0) : (⟨S8x128x64x64, .f32⟩ : BufTy).Contents (Elt F) → (⟨S8x128x56x56, .f32⟩ : BufTy).Contents (Elt F)),
    binary main_arg1 main_v604 main_v605 (mulf : (⟨S8x128x56x56, .f32⟩ : BufTy).Contents (Elt F) → (⟨S8x128x56x56, .f32⟩ : BufTy).Contents (Elt F) → (⟨S8x128x56x56, .f32⟩ : BufTy).Contents (Elt F)),
    nullary main_cst_144 (constant S_ .f32 0x00000000#32),
    binary main_v605 main_cst_144 main_v606 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v607 ((extractStridedSlice S8x128x56x56 ![0, 0, 7, 1] · slices_S8x128x64x64_S8x128x56x56_0_0_7_1) : (⟨S8x128x64x64, .f32⟩ : BufTy).Contents (Elt F) → (⟨S8x128x56x56, .f32⟩ : BufTy).Contents (Elt F)),
    binary main_arg1 main_v607 main_v608 (mulf : (⟨S8x128x56x56, .f32⟩ : BufTy).Contents (Elt F) → (⟨S8x128x56x56, .f32⟩ : BufTy).Contents (Elt F) → (⟨S8x128x56x56, .f32⟩ : BufTy).Contents (Elt F)),
    nullary main_cst_145 (constant S_ .f32 0x00000000#32),
    binary main_v608 main_cst_145 main_v609 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v610 ((extractStridedSlice S8x128x56x56 ![0, 0, 7, 2] · slices_S8x128x64x64_S8x128x56x56_0_0_7_2) : (⟨S8x128x64x64, .f32⟩ : BufTy).Contents (Elt F) → (⟨S8x128x56x56, .f32⟩ : BufTy).Contents (Elt F)),
    binary main_arg1 main_v610 main_v611 (mulf : (⟨S8x128x56x56, .f32⟩ : BufTy).Contents (Elt F) → (⟨S8x128x56x56, .f32⟩ : BufTy).Contents (Elt F) → (⟨S8x128x56x56, .f32⟩ : BufTy).Contents (Elt F)),
    nullary main_cst_146 (constant S_ .f32 0x00000000#32),
    binary main_v611 main_cst_146 main_v612 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v613 ((extractStridedSlice S8x128x56x56 ![0, 0, 7, 3] · slices_S8x128x64x64_S8x128x56x56_0_0_7_3) : (⟨S8x128x64x64, .f32⟩ : BufTy).Contents (Elt F) → (⟨S8x128x56x56, .f32⟩ : BufTy).Contents (Elt F)),
    binary main_arg1 main_v613 main_v614 (mulf : (⟨S8x128x56x56, .f32⟩ : BufTy).Contents (Elt F) → (⟨S8x128x56x56, .f32⟩ : BufTy).Contents (Elt F) → (⟨S8x128x56x56, .f32⟩ : BufTy).Contents (Elt F)),
    nullary main_cst_147 (constant S_ .f32 0x00000000#32),
    binary main_v614 main_cst_147 main_v615 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v616 ((extractStridedSlice S8x128x56x56 ![0, 0, 7, 4] · slices_S8x128x64x64_S8x128x56x56_0_0_7_4) : (⟨S8x128x64x64, .f32⟩ : BufTy).Contents (Elt F) → (⟨S8x128x56x56, .f32⟩ : BufTy).Contents (Elt F)),
    binary main_arg1 main_v616 main_v617 (mulf : (⟨S8x128x56x56, .f32⟩ : BufTy).Contents (Elt F) → (⟨S8x128x56x56, .f32⟩ : BufTy).Contents (Elt F) → (⟨S8x128x56x56, .f32⟩ : BufTy).Contents (Elt F)),
    nullary main_cst_148 (constant S_ .f32 0x00000000#32),
    binary main_v617 main_cst_148 main_v618 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v619 ((extractStridedSlice S8x128x56x56 ![0, 0, 7, 5] · slices_S8x128x64x64_S8x128x56x56_0_0_7_5) : (⟨S8x128x64x64, .f32⟩ : BufTy).Contents (Elt F) → (⟨S8x128x56x56, .f32⟩ : BufTy).Contents (Elt F)),
    binary main_arg1 main_v619 main_v620 (mulf : (⟨S8x128x56x56, .f32⟩ : BufTy).Contents (Elt F) → (⟨S8x128x56x56, .f32⟩ : BufTy).Contents (Elt F) → (⟨S8x128x56x56, .f32⟩ : BufTy).Contents (Elt F)),
    nullary main_cst_149 (constant S_ .f32 0x00000000#32),
    binary main_v620 main_cst_149 main_v621 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v622 ((extractStridedSlice S8x128x56x56 ![0, 0, 7, 6] · slices_S8x128x64x64_S8x128x56x56_0_0_7_6) : (⟨S8x128x64x64, .f32⟩ : BufTy).Contents (Elt F) → (⟨S8x128x56x56, .f32⟩ : BufTy).Contents (Elt F)),
    binary main_arg1 main_v622 main_v623 (mulf : (⟨S8x128x56x56, .f32⟩ : BufTy).Contents (Elt F) → (⟨S8x128x56x56, .f32⟩ : BufTy).Contents (Elt F) → (⟨S8x128x56x56, .f32⟩ : BufTy).Contents (Elt F)),
    nullary main_cst_150 (constant S_ .f32 0x00000000#32),
    binary main_v623 main_cst_150 main_v624 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v625 ((extractStridedSlice S8x128x56x56 ![0, 0, 7, 7] · slices_S8x128x64x64_S8x128x56x56_0_0_7_7) : (⟨S8x128x64x64, .f32⟩ : BufTy).Contents (Elt F) → (⟨S8x128x56x56, .f32⟩ : BufTy).Contents (Elt F)),
    binary main_arg1 main_v625 main_v626 (mulf : (⟨S8x128x56x56, .f32⟩ : BufTy).Contents (Elt F) → (⟨S8x128x56x56, .f32⟩ : BufTy).Contents (Elt F) → (⟨S8x128x56x56, .f32⟩ : BufTy).Contents (Elt F)) ]

set_option maxHeartbeats 0 in
theorem part12_eq (d : Dev nD) : main_part12 (F := F) d = seq opsP12 := by chain_rfl

/-- The operations of window 13 of @main. -/
abbrev opsP13 : List (HloOp τ sig (Elt F)) :=
  [ nullary main_cst_151 (constant S_ .f32 0x00000000#32),
    binary main_v626 main_cst_151 main_v627 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v628 ((extractStridedSlice S8x128x56x56 ![0, 0, 7, 8] · slices_S8x128x64x64_S8x128x56x56_0_0_7_8) : (⟨S8x128x64x64, .f32⟩ : BufTy).Contents (Elt F) → (⟨S8x128x56x56, .f32⟩ : BufTy).Contents (Elt F)),
    binary main_arg1 main_v628 main_v629 (mulf : (⟨S8x128x56x56, .f32⟩ : BufTy).Contents (Elt F) → (⟨S8x128x56x56, .f32⟩ : BufTy).Contents (Elt F) → (⟨S8x128x56x56, .f32⟩ : BufTy).Contents (Elt F)),
    nullary main_cst_152 (constant S_ .f32 0x00000000#32),
    binary main_v629 main_cst_152 main_v630 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v606 main_v631 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v609 main_v632 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v612 main_v633 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v615 main_v634 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v618 main_v635 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v621 main_v636 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v624 main_v637 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v627 main_v638 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v630 main_v639 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v631, main_v632, main_v633, main_v634, main_v635, main_v636, main_v637, main_v638, main_v639] main_v640 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v344 main_v641 ((extractStridedSlice S8x128x56x56 ![0, 0, 8, 0] · slices_S8x128x64x64_S8x128x56x56_0_0_8_0) : (⟨S8x128x64x64, .f32⟩ : BufTy).Contents (Elt F) → (⟨S8x128x56x56, .f32⟩ : BufTy).Contents (Elt F)),
    binary main_arg1 main_v641 main_v642 (mulf : (⟨S8x128x56x56, .f32⟩ : BufTy).Contents (Elt F) → (⟨S8x128x56x56, .f32⟩ : BufTy).Contents (Elt F) → (⟨S8x128x56x56, .f32⟩ : BufTy).Contents (Elt F)),
    nullary main_cst_153 (constant S_ .f32 0x00000000#32),
    binary main_v642 main_cst_153 main_v643 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v644 ((extractStridedSlice S8x128x56x56 ![0, 0, 8, 1] · slices_S8x128x64x64_S8x128x56x56_0_0_8_1) : (⟨S8x128x64x64, .f32⟩ : BufTy).Contents (Elt F) → (⟨S8x128x56x56, .f32⟩ : BufTy).Contents (Elt F)),
    binary main_arg1 main_v644 main_v645 (mulf : (⟨S8x128x56x56, .f32⟩ : BufTy).Contents (Elt F) → (⟨S8x128x56x56, .f32⟩ : BufTy).Contents (Elt F) → (⟨S8x128x56x56, .f32⟩ : BufTy).Contents (Elt F)),
    nullary main_cst_154 (constant S_ .f32 0x00000000#32),
    binary main_v645 main_cst_154 main_v646 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v647 ((extractStridedSlice S8x128x56x56 ![0, 0, 8, 2] · slices_S8x128x64x64_S8x128x56x56_0_0_8_2) : (⟨S8x128x64x64, .f32⟩ : BufTy).Contents (Elt F) → (⟨S8x128x56x56, .f32⟩ : BufTy).Contents (Elt F)),
    binary main_arg1 main_v647 main_v648 (mulf : (⟨S8x128x56x56, .f32⟩ : BufTy).Contents (Elt F) → (⟨S8x128x56x56, .f32⟩ : BufTy).Contents (Elt F) → (⟨S8x128x56x56, .f32⟩ : BufTy).Contents (Elt F)),
    nullary main_cst_155 (constant S_ .f32 0x00000000#32),
    binary main_v648 main_cst_155 main_v649 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v650 ((extractStridedSlice S8x128x56x56 ![0, 0, 8, 3] · slices_S8x128x64x64_S8x128x56x56_0_0_8_3) : (⟨S8x128x64x64, .f32⟩ : BufTy).Contents (Elt F) → (⟨S8x128x56x56, .f32⟩ : BufTy).Contents (Elt F)),
    binary main_arg1 main_v650 main_v651 (mulf : (⟨S8x128x56x56, .f32⟩ : BufTy).Contents (Elt F) → (⟨S8x128x56x56, .f32⟩ : BufTy).Contents (Elt F) → (⟨S8x128x56x56, .f32⟩ : BufTy).Contents (Elt F)),
    nullary main_cst_156 (constant S_ .f32 0x00000000#32),
    binary main_v651 main_cst_156 main_v652 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v653 ((extractStridedSlice S8x128x56x56 ![0, 0, 8, 4] · slices_S8x128x64x64_S8x128x56x56_0_0_8_4) : (⟨S8x128x64x64, .f32⟩ : BufTy).Contents (Elt F) → (⟨S8x128x56x56, .f32⟩ : BufTy).Contents (Elt F)),
    binary main_arg1 main_v653 main_v654 (mulf : (⟨S8x128x56x56, .f32⟩ : BufTy).Contents (Elt F) → (⟨S8x128x56x56, .f32⟩ : BufTy).Contents (Elt F) → (⟨S8x128x56x56, .f32⟩ : BufTy).Contents (Elt F)),
    nullary main_cst_157 (constant S_ .f32 0x00000000#32),
    binary main_v654 main_cst_157 main_v655 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v656 ((extractStridedSlice S8x128x56x56 ![0, 0, 8, 5] · slices_S8x128x64x64_S8x128x56x56_0_0_8_5) : (⟨S8x128x64x64, .f32⟩ : BufTy).Contents (Elt F) → (⟨S8x128x56x56, .f32⟩ : BufTy).Contents (Elt F)),
    binary main_arg1 main_v656 main_v657 (mulf : (⟨S8x128x56x56, .f32⟩ : BufTy).Contents (Elt F) → (⟨S8x128x56x56, .f32⟩ : BufTy).Contents (Elt F) → (⟨S8x128x56x56, .f32⟩ : BufTy).Contents (Elt F)),
    nullary main_cst_158 (constant S_ .f32 0x00000000#32),
    binary main_v657 main_cst_158 main_v658 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v659 ((extractStridedSlice S8x128x56x56 ![0, 0, 8, 6] · slices_S8x128x64x64_S8x128x56x56_0_0_8_6) : (⟨S8x128x64x64, .f32⟩ : BufTy).Contents (Elt F) → (⟨S8x128x56x56, .f32⟩ : BufTy).Contents (Elt F)),
    binary main_arg1 main_v659 main_v660 (mulf : (⟨S8x128x56x56, .f32⟩ : BufTy).Contents (Elt F) → (⟨S8x128x56x56, .f32⟩ : BufTy).Contents (Elt F) → (⟨S8x128x56x56, .f32⟩ : BufTy).Contents (Elt F)),
    nullary main_cst_159 (constant S_ .f32 0x00000000#32),
    binary main_v660 main_cst_159 main_v661 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v662 ((extractStridedSlice S8x128x56x56 ![0, 0, 8, 7] · slices_S8x128x64x64_S8x128x56x56_0_0_8_7) : (⟨S8x128x64x64, .f32⟩ : BufTy).Contents (Elt F) → (⟨S8x128x56x56, .f32⟩ : BufTy).Contents (Elt F)),
    binary main_arg1 main_v662 main_v663 (mulf : (⟨S8x128x56x56, .f32⟩ : BufTy).Contents (Elt F) → (⟨S8x128x56x56, .f32⟩ : BufTy).Contents (Elt F) → (⟨S8x128x56x56, .f32⟩ : BufTy).Contents (Elt F)),
    nullary main_cst_160 (constant S_ .f32 0x00000000#32),
    binary main_v663 main_cst_160 main_v664 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v344 main_v665 ((extractStridedSlice S8x128x56x56 ![0, 0, 8, 8] · slices_S8x128x64x64_S8x128x56x56_0_0_8_8) : (⟨S8x128x64x64, .f32⟩ : BufTy).Contents (Elt F) → (⟨S8x128x56x56, .f32⟩ : BufTy).Contents (Elt F)),
    binary main_arg1 main_v665 main_v666 (mulf : (⟨S8x128x56x56, .f32⟩ : BufTy).Contents (Elt F) → (⟨S8x128x56x56, .f32⟩ : BufTy).Contents (Elt F) → (⟨S8x128x56x56, .f32⟩ : BufTy).Contents (Elt F)),
    nullary main_cst_161 (constant S_ .f32 0x00000000#32),
    binary main_v666 main_cst_161 main_v667 ((fun x v => Host.reduceAdd x v reducesTo_S8x128x56x56_S8x56x56_d1 h_S_) : (⟨S8x128x56x56, .f32⟩ : BufTy).Contents (Elt F) → (⟨S_, .f32⟩ : BufTy).Contents (Elt F) → (⟨S8x56x56, .f32⟩ : BufTy).Contents (Elt F)),
    unary main_v643 main_v668 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v646 main_v669 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v649 main_v670 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v652 main_v671 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v655 main_v672 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v658 main_v673 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v661 main_v674 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    unary main_v664 main_v675 (broadcastInDim S8x1x56x56 ![0, 2, 3] bcast_S8x56x56_S8x1x56x56_0_2_3 : (⟨S8x56x56, .f32⟩ : BufTy).Contents (Elt F) → (⟨S8x1x56x56, .f32⟩ : BufTy).Contents (Elt F)) ]

set_option maxHeartbeats 0 in
theorem part13_eq (d : Dev nD) : main_part13 (F := F) d = seq opsP13 := by chain_rfl

/-- The operations of window 14 of @main. -/
abbrev opsP14 : List (HloOp τ sig (Elt F)) :=
  [ unary main_v667 main_v676 (broadcastInDim S8x1x56x56 ![0, 2, 3] bcast_S8x56x56_S8x1x56x56_0_2_3 : (⟨S8x56x56, .f32⟩ : BufTy).Contents (Elt F) → (⟨S8x1x56x56, .f32⟩ : BufTy).Contents (Elt F)),
    nary ![main_v668, main_v669, main_v670, main_v671, main_v672, main_v673, main_v674, main_v675, main_v676] main_v677 (fun u => concatenate S8x9x56x56 1 [⟨S8x1x56x56, u 0⟩, ⟨S8x1x56x56, u 1⟩, ⟨S8x1x56x56, u 2⟩, ⟨S8x1x56x56, u 3⟩, ⟨S8x1x56x56, u 4⟩, ⟨S8x1x56x56, u 5⟩, ⟨S8x1x56x56, u 6⟩, ⟨S8x1x56x56, u 7⟩, ⟨S8x1x56x56, u 8⟩] concatenates_S8x1x56x56_S8x1x56x56_S8x1x56x56_S8x1x56x56_S8x1x56x56_S8x1x56x56_S8x1x56x56_S8x1x56x56_S8x1x56x56_S8x9x56x56_d1),
    unary main_v381 main_v678 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v418 main_v679 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v455 main_v680 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v492 main_v681 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v529 main_v682 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v566 main_v683 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v603 main_v684 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v640 main_v685 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    unary main_v677 main_v686 (broadcastInDim S8x1x9x56x56 ![0, 2, 3, 4] bcast_S8x9x56x56_S8x1x9x56x56_0_2_3_4 : (⟨S8x9x56x56, .f32⟩ : BufTy).Contents (Elt F) → (⟨S8x1x9x56x56, .f32⟩ : BufTy).Contents (Elt F)),
    nary ![main_v678, main_v679, main_v680, main_v681, main_v682, main_v683, main_v684, main_v685, main_v686] main_v687 (fun u => concatenate S8x9x9x56x56 1 [⟨S8x1x9x56x56, u 0⟩, ⟨S8x1x9x56x56, u 1⟩, ⟨S8x1x9x56x56, u 2⟩, ⟨S8x1x9x56x56, u 3⟩, ⟨S8x1x9x56x56, u 4⟩, ⟨S8x1x9x56x56, u 5⟩, ⟨S8x1x9x56x56, u 6⟩, ⟨S8x1x9x56x56, u 7⟩, ⟨S8x1x9x56x56, u 8⟩] concatenates_S8x1x9x56x56_S8x1x9x56x56_S8x1x9x56x56_S8x1x9x56x56_S8x1x9x56x56_S8x1x9x56x56_S8x1x9x56x56_S8x1x9x56x56_S8x1x9x56x56_S8x9x9x56x56_d1),
    nullary main_c_162 (constantI S_ 32 0#32),
    TRef.unary (TRef.of (T := ⟨S_, .i32⟩) main_c_162) (TRef.of (T := ⟨S_, .f32⟩) main_call2_v0) (sitofp .f32),
    TRef.binary (TRef.of (T := ⟨S8x256x28x28, .f32⟩) main_arg6) (TRef.of (T := ⟨S_, .f32⟩) main_call2_v0) (TRef.of (T := ⟨S8x256x36x36, .f32⟩) main_v688) (fun x v => pad S8x256x36x36 ![0, 0, 4, 4] ![0, 0, 4, 4] ![0, 0, 0, 0] x v pads_S8x256x28x28_S8x256x36x36_000_000_440_440 h_S_),
    unary main_v688 main_v689 ((extractStridedSlice S8x256x28x28 ![0, 0, 0, 0] · slices_S8x256x36x36_S8x256x28x28_0_0_0_0) : (⟨S8x256x36x36, .f32⟩ : BufTy).Contents (Elt F) → (⟨S8x256x28x28, .f32⟩ : BufTy).Contents (Elt F)),
    binary main_arg2 main_v689 main_v690 (mulf : (⟨S8x256x28x28, .f32⟩ : BufTy).Contents (Elt F) → (⟨S8x256x28x28, .f32⟩ : BufTy).Contents (Elt F) → (⟨S8x256x28x28, .f32⟩ : BufTy).Contents (Elt F)),
    nullary main_cst_163 (constant S_ .f32 0x00000000#32),
    binary main_v690 main_cst_163 main_v691 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v692 ((extractStridedSlice S8x256x28x28 ![0, 0, 0, 1] · slices_S8x256x36x36_S8x256x28x28_0_0_0_1) : (⟨S8x256x36x36, .f32⟩ : BufTy).Contents (Elt F) → (⟨S8x256x28x28, .f32⟩ : BufTy).Contents (Elt F)),
    binary main_arg2 main_v692 main_v693 (mulf : (⟨S8x256x28x28, .f32⟩ : BufTy).Contents (Elt F) → (⟨S8x256x28x28, .f32⟩ : BufTy).Contents (Elt F) → (⟨S8x256x28x28, .f32⟩ : BufTy).Contents (Elt F)),
    nullary main_cst_164 (constant S_ .f32 0x00000000#32),
    binary main_v693 main_cst_164 main_v694 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v695 ((extractStridedSlice S8x256x28x28 ![0, 0, 0, 2] · slices_S8x256x36x36_S8x256x28x28_0_0_0_2) : (⟨S8x256x36x36, .f32⟩ : BufTy).Contents (Elt F) → (⟨S8x256x28x28, .f32⟩ : BufTy).Contents (Elt F)),
    binary main_arg2 main_v695 main_v696 (mulf : (⟨S8x256x28x28, .f32⟩ : BufTy).Contents (Elt F) → (⟨S8x256x28x28, .f32⟩ : BufTy).Contents (Elt F) → (⟨S8x256x28x28, .f32⟩ : BufTy).Contents (Elt F)),
    nullary main_cst_165 (constant S_ .f32 0x00000000#32),
    binary main_v696 main_cst_165 main_v697 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v698 ((extractStridedSlice S8x256x28x28 ![0, 0, 0, 3] · slices_S8x256x36x36_S8x256x28x28_0_0_0_3) : (⟨S8x256x36x36, .f32⟩ : BufTy).Contents (Elt F) → (⟨S8x256x28x28, .f32⟩ : BufTy).Contents (Elt F)),
    binary main_arg2 main_v698 main_v699 (mulf : (⟨S8x256x28x28, .f32⟩ : BufTy).Contents (Elt F) → (⟨S8x256x28x28, .f32⟩ : BufTy).Contents (Elt F) → (⟨S8x256x28x28, .f32⟩ : BufTy).Contents (Elt F)),
    nullary main_cst_166 (constant S_ .f32 0x00000000#32),
    binary main_v699 main_cst_166 main_v700 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v701 ((extractStridedSlice S8x256x28x28 ![0, 0, 0, 4] · slices_S8x256x36x36_S8x256x28x28_0_0_0_4) : (⟨S8x256x36x36, .f32⟩ : BufTy).Contents (Elt F) → (⟨S8x256x28x28, .f32⟩ : BufTy).Contents (Elt F)),
    binary main_arg2 main_v701 main_v702 (mulf : (⟨S8x256x28x28, .f32⟩ : BufTy).Contents (Elt F) → (⟨S8x256x28x28, .f32⟩ : BufTy).Contents (Elt F) → (⟨S8x256x28x28, .f32⟩ : BufTy).Contents (Elt F)),
    nullary main_cst_167 (constant S_ .f32 0x00000000#32),
    binary main_v702 main_cst_167 main_v703 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v704 ((extractStridedSlice S8x256x28x28 ![0, 0, 0, 5] · slices_S8x256x36x36_S8x256x28x28_0_0_0_5) : (⟨S8x256x36x36, .f32⟩ : BufTy).Contents (Elt F) → (⟨S8x256x28x28, .f32⟩ : BufTy).Contents (Elt F)),
    binary main_arg2 main_v704 main_v705 (mulf : (⟨S8x256x28x28, .f32⟩ : BufTy).Contents (Elt F) → (⟨S8x256x28x28, .f32⟩ : BufTy).Contents (Elt F) → (⟨S8x256x28x28, .f32⟩ : BufTy).Contents (Elt F)),
    nullary main_cst_168 (constant S_ .f32 0x00000000#32),
    binary main_v705 main_cst_168 main_v706 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v707 ((extractStridedSlice S8x256x28x28 ![0, 0, 0, 6] · slices_S8x256x36x36_S8x256x28x28_0_0_0_6) : (⟨S8x256x36x36, .f32⟩ : BufTy).Contents (Elt F) → (⟨S8x256x28x28, .f32⟩ : BufTy).Contents (Elt F)),
    binary main_arg2 main_v707 main_v708 (mulf : (⟨S8x256x28x28, .f32⟩ : BufTy).Contents (Elt F) → (⟨S8x256x28x28, .f32⟩ : BufTy).Contents (Elt F) → (⟨S8x256x28x28, .f32⟩ : BufTy).Contents (Elt F)),
    nullary main_cst_169 (constant S_ .f32 0x00000000#32),
    binary main_v708 main_cst_169 main_v709 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v710 ((extractStridedSlice S8x256x28x28 ![0, 0, 0, 7] · slices_S8x256x36x36_S8x256x28x28_0_0_0_7) : (⟨S8x256x36x36, .f32⟩ : BufTy).Contents (Elt F) → (⟨S8x256x28x28, .f32⟩ : BufTy).Contents (Elt F)),
    binary main_arg2 main_v710 main_v711 (mulf : (⟨S8x256x28x28, .f32⟩ : BufTy).Contents (Elt F) → (⟨S8x256x28x28, .f32⟩ : BufTy).Contents (Elt F) → (⟨S8x256x28x28, .f32⟩ : BufTy).Contents (Elt F)),
    nullary main_cst_170 (constant S_ .f32 0x00000000#32),
    binary main_v711 main_cst_170 main_v712 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v713 ((extractStridedSlice S8x256x28x28 ![0, 0, 0, 8] · slices_S8x256x36x36_S8x256x28x28_0_0_0_8) : (⟨S8x256x36x36, .f32⟩ : BufTy).Contents (Elt F) → (⟨S8x256x28x28, .f32⟩ : BufTy).Contents (Elt F)),
    binary main_arg2 main_v713 main_v714 (mulf : (⟨S8x256x28x28, .f32⟩ : BufTy).Contents (Elt F) → (⟨S8x256x28x28, .f32⟩ : BufTy).Contents (Elt F) → (⟨S8x256x28x28, .f32⟩ : BufTy).Contents (Elt F)),
    nullary main_cst_171 (constant S_ .f32 0x00000000#32),
    binary main_v714 main_cst_171 main_v715 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v691 main_v716 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v694 main_v717 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v697 main_v718 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v700 main_v719 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v703 main_v720 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v706 main_v721 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v709 main_v722 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v712 main_v723 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v715 main_v724 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v716, main_v717, main_v718, main_v719, main_v720, main_v721, main_v722, main_v723, main_v724] main_v725 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1) ]

set_option maxHeartbeats 0 in
theorem part14_eq (d : Dev nD) : main_part14 (F := F) d = seq opsP14 := by chain_rfl

/-- The operations of window 15 of @main. -/
abbrev opsP15 : List (HloOp τ sig (Elt F)) :=
  [ unary main_v688 main_v726 ((extractStridedSlice S8x256x28x28 ![0, 0, 1, 0] · slices_S8x256x36x36_S8x256x28x28_0_0_1_0) : (⟨S8x256x36x36, .f32⟩ : BufTy).Contents (Elt F) → (⟨S8x256x28x28, .f32⟩ : BufTy).Contents (Elt F)),
    binary main_arg2 main_v726 main_v727 (mulf : (⟨S8x256x28x28, .f32⟩ : BufTy).Contents (Elt F) → (⟨S8x256x28x28, .f32⟩ : BufTy).Contents (Elt F) → (⟨S8x256x28x28, .f32⟩ : BufTy).Contents (Elt F)),
    nullary main_cst_172 (constant S_ .f32 0x00000000#32),
    binary main_v727 main_cst_172 main_v728 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v729 ((extractStridedSlice S8x256x28x28 ![0, 0, 1, 1] · slices_S8x256x36x36_S8x256x28x28_0_0_1_1) : (⟨S8x256x36x36, .f32⟩ : BufTy).Contents (Elt F) → (⟨S8x256x28x28, .f32⟩ : BufTy).Contents (Elt F)),
    binary main_arg2 main_v729 main_v730 (mulf : (⟨S8x256x28x28, .f32⟩ : BufTy).Contents (Elt F) → (⟨S8x256x28x28, .f32⟩ : BufTy).Contents (Elt F) → (⟨S8x256x28x28, .f32⟩ : BufTy).Contents (Elt F)),
    nullary main_cst_173 (constant S_ .f32 0x00000000#32),
    binary main_v730 main_cst_173 main_v731 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v732 ((extractStridedSlice S8x256x28x28 ![0, 0, 1, 2] · slices_S8x256x36x36_S8x256x28x28_0_0_1_2) : (⟨S8x256x36x36, .f32⟩ : BufTy).Contents (Elt F) → (⟨S8x256x28x28, .f32⟩ : BufTy).Contents (Elt F)),
    binary main_arg2 main_v732 main_v733 (mulf : (⟨S8x256x28x28, .f32⟩ : BufTy).Contents (Elt F) → (⟨S8x256x28x28, .f32⟩ : BufTy).Contents (Elt F) → (⟨S8x256x28x28, .f32⟩ : BufTy).Contents (Elt F)),
    nullary main_cst_174 (constant S_ .f32 0x00000000#32),
    binary main_v733 main_cst_174 main_v734 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v735 ((extractStridedSlice S8x256x28x28 ![0, 0, 1, 3] · slices_S8x256x36x36_S8x256x28x28_0_0_1_3) : (⟨S8x256x36x36, .f32⟩ : BufTy).Contents (Elt F) → (⟨S8x256x28x28, .f32⟩ : BufTy).Contents (Elt F)),
    binary main_arg2 main_v735 main_v736 (mulf : (⟨S8x256x28x28, .f32⟩ : BufTy).Contents (Elt F) → (⟨S8x256x28x28, .f32⟩ : BufTy).Contents (Elt F) → (⟨S8x256x28x28, .f32⟩ : BufTy).Contents (Elt F)),
    nullary main_cst_175 (constant S_ .f32 0x00000000#32),
    binary main_v736 main_cst_175 main_v737 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v738 ((extractStridedSlice S8x256x28x28 ![0, 0, 1, 4] · slices_S8x256x36x36_S8x256x28x28_0_0_1_4) : (⟨S8x256x36x36, .f32⟩ : BufTy).Contents (Elt F) → (⟨S8x256x28x28, .f32⟩ : BufTy).Contents (Elt F)),
    binary main_arg2 main_v738 main_v739 (mulf : (⟨S8x256x28x28, .f32⟩ : BufTy).Contents (Elt F) → (⟨S8x256x28x28, .f32⟩ : BufTy).Contents (Elt F) → (⟨S8x256x28x28, .f32⟩ : BufTy).Contents (Elt F)),
    nullary main_cst_176 (constant S_ .f32 0x00000000#32),
    binary main_v739 main_cst_176 main_v740 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v741 ((extractStridedSlice S8x256x28x28 ![0, 0, 1, 5] · slices_S8x256x36x36_S8x256x28x28_0_0_1_5) : (⟨S8x256x36x36, .f32⟩ : BufTy).Contents (Elt F) → (⟨S8x256x28x28, .f32⟩ : BufTy).Contents (Elt F)),
    binary main_arg2 main_v741 main_v742 (mulf : (⟨S8x256x28x28, .f32⟩ : BufTy).Contents (Elt F) → (⟨S8x256x28x28, .f32⟩ : BufTy).Contents (Elt F) → (⟨S8x256x28x28, .f32⟩ : BufTy).Contents (Elt F)),
    nullary main_cst_177 (constant S_ .f32 0x00000000#32),
    binary main_v742 main_cst_177 main_v743 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v744 ((extractStridedSlice S8x256x28x28 ![0, 0, 1, 6] · slices_S8x256x36x36_S8x256x28x28_0_0_1_6) : (⟨S8x256x36x36, .f32⟩ : BufTy).Contents (Elt F) → (⟨S8x256x28x28, .f32⟩ : BufTy).Contents (Elt F)),
    binary main_arg2 main_v744 main_v745 (mulf : (⟨S8x256x28x28, .f32⟩ : BufTy).Contents (Elt F) → (⟨S8x256x28x28, .f32⟩ : BufTy).Contents (Elt F) → (⟨S8x256x28x28, .f32⟩ : BufTy).Contents (Elt F)),
    nullary main_cst_178 (constant S_ .f32 0x00000000#32),
    binary main_v745 main_cst_178 main_v746 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v747 ((extractStridedSlice S8x256x28x28 ![0, 0, 1, 7] · slices_S8x256x36x36_S8x256x28x28_0_0_1_7) : (⟨S8x256x36x36, .f32⟩ : BufTy).Contents (Elt F) → (⟨S8x256x28x28, .f32⟩ : BufTy).Contents (Elt F)),
    binary main_arg2 main_v747 main_v748 (mulf : (⟨S8x256x28x28, .f32⟩ : BufTy).Contents (Elt F) → (⟨S8x256x28x28, .f32⟩ : BufTy).Contents (Elt F) → (⟨S8x256x28x28, .f32⟩ : BufTy).Contents (Elt F)),
    nullary main_cst_179 (constant S_ .f32 0x00000000#32),
    binary main_v748 main_cst_179 main_v749 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v750 ((extractStridedSlice S8x256x28x28 ![0, 0, 1, 8] · slices_S8x256x36x36_S8x256x28x28_0_0_1_8) : (⟨S8x256x36x36, .f32⟩ : BufTy).Contents (Elt F) → (⟨S8x256x28x28, .f32⟩ : BufTy).Contents (Elt F)),
    binary main_arg2 main_v750 main_v751 (mulf : (⟨S8x256x28x28, .f32⟩ : BufTy).Contents (Elt F) → (⟨S8x256x28x28, .f32⟩ : BufTy).Contents (Elt F) → (⟨S8x256x28x28, .f32⟩ : BufTy).Contents (Elt F)),
    nullary main_cst_180 (constant S_ .f32 0x00000000#32),
    binary main_v751 main_cst_180 main_v752 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v728 main_v753 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v731 main_v754 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v734 main_v755 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v737 main_v756 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v740 main_v757 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v743 main_v758 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v746 main_v759 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v749 main_v760 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v752 main_v761 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v753, main_v754, main_v755, main_v756, main_v757, main_v758, main_v759, main_v760, main_v761] main_v762 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v763 ((extractStridedSlice S8x256x28x28 ![0, 0, 2, 0] · slices_S8x256x36x36_S8x256x28x28_0_0_2_0) : (⟨S8x256x36x36, .f32⟩ : BufTy).Contents (Elt F) → (⟨S8x256x28x28, .f32⟩ : BufTy).Contents (Elt F)),
    binary main_arg2 main_v763 main_v764 (mulf : (⟨S8x256x28x28, .f32⟩ : BufTy).Contents (Elt F) → (⟨S8x256x28x28, .f32⟩ : BufTy).Contents (Elt F) → (⟨S8x256x28x28, .f32⟩ : BufTy).Contents (Elt F)),
    nullary main_cst_181 (constant S_ .f32 0x00000000#32),
    binary main_v764 main_cst_181 main_v765 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v766 ((extractStridedSlice S8x256x28x28 ![0, 0, 2, 1] · slices_S8x256x36x36_S8x256x28x28_0_0_2_1) : (⟨S8x256x36x36, .f32⟩ : BufTy).Contents (Elt F) → (⟨S8x256x28x28, .f32⟩ : BufTy).Contents (Elt F)),
    binary main_arg2 main_v766 main_v767 (mulf : (⟨S8x256x28x28, .f32⟩ : BufTy).Contents (Elt F) → (⟨S8x256x28x28, .f32⟩ : BufTy).Contents (Elt F) → (⟨S8x256x28x28, .f32⟩ : BufTy).Contents (Elt F)),
    nullary main_cst_182 (constant S_ .f32 0x00000000#32),
    binary main_v767 main_cst_182 main_v768 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v769 ((extractStridedSlice S8x256x28x28 ![0, 0, 2, 2] · slices_S8x256x36x36_S8x256x28x28_0_0_2_2) : (⟨S8x256x36x36, .f32⟩ : BufTy).Contents (Elt F) → (⟨S8x256x28x28, .f32⟩ : BufTy).Contents (Elt F)),
    binary main_arg2 main_v769 main_v770 (mulf : (⟨S8x256x28x28, .f32⟩ : BufTy).Contents (Elt F) → (⟨S8x256x28x28, .f32⟩ : BufTy).Contents (Elt F) → (⟨S8x256x28x28, .f32⟩ : BufTy).Contents (Elt F)),
    nullary main_cst_183 (constant S_ .f32 0x00000000#32),
    binary main_v770 main_cst_183 main_v771 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v772 ((extractStridedSlice S8x256x28x28 ![0, 0, 2, 3] · slices_S8x256x36x36_S8x256x28x28_0_0_2_3) : (⟨S8x256x36x36, .f32⟩ : BufTy).Contents (Elt F) → (⟨S8x256x28x28, .f32⟩ : BufTy).Contents (Elt F)),
    binary main_arg2 main_v772 main_v773 (mulf : (⟨S8x256x28x28, .f32⟩ : BufTy).Contents (Elt F) → (⟨S8x256x28x28, .f32⟩ : BufTy).Contents (Elt F) → (⟨S8x256x28x28, .f32⟩ : BufTy).Contents (Elt F)) ]

set_option maxHeartbeats 0 in
theorem part15_eq (d : Dev nD) : main_part15 (F := F) d = seq opsP15 := by chain_rfl

/-- The operations of window 16 of @main. -/
abbrev opsP16 : List (HloOp τ sig (Elt F)) :=
  [ nullary main_cst_184 (constant S_ .f32 0x00000000#32),
    binary main_v773 main_cst_184 main_v774 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v775 ((extractStridedSlice S8x256x28x28 ![0, 0, 2, 4] · slices_S8x256x36x36_S8x256x28x28_0_0_2_4) : (⟨S8x256x36x36, .f32⟩ : BufTy).Contents (Elt F) → (⟨S8x256x28x28, .f32⟩ : BufTy).Contents (Elt F)),
    binary main_arg2 main_v775 main_v776 (mulf : (⟨S8x256x28x28, .f32⟩ : BufTy).Contents (Elt F) → (⟨S8x256x28x28, .f32⟩ : BufTy).Contents (Elt F) → (⟨S8x256x28x28, .f32⟩ : BufTy).Contents (Elt F)),
    nullary main_cst_185 (constant S_ .f32 0x00000000#32),
    binary main_v776 main_cst_185 main_v777 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v778 ((extractStridedSlice S8x256x28x28 ![0, 0, 2, 5] · slices_S8x256x36x36_S8x256x28x28_0_0_2_5) : (⟨S8x256x36x36, .f32⟩ : BufTy).Contents (Elt F) → (⟨S8x256x28x28, .f32⟩ : BufTy).Contents (Elt F)),
    binary main_arg2 main_v778 main_v779 (mulf : (⟨S8x256x28x28, .f32⟩ : BufTy).Contents (Elt F) → (⟨S8x256x28x28, .f32⟩ : BufTy).Contents (Elt F) → (⟨S8x256x28x28, .f32⟩ : BufTy).Contents (Elt F)),
    nullary main_cst_186 (constant S_ .f32 0x00000000#32),
    binary main_v779 main_cst_186 main_v780 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v781 ((extractStridedSlice S8x256x28x28 ![0, 0, 2, 6] · slices_S8x256x36x36_S8x256x28x28_0_0_2_6) : (⟨S8x256x36x36, .f32⟩ : BufTy).Contents (Elt F) → (⟨S8x256x28x28, .f32⟩ : BufTy).Contents (Elt F)),
    binary main_arg2 main_v781 main_v782 (mulf : (⟨S8x256x28x28, .f32⟩ : BufTy).Contents (Elt F) → (⟨S8x256x28x28, .f32⟩ : BufTy).Contents (Elt F) → (⟨S8x256x28x28, .f32⟩ : BufTy).Contents (Elt F)),
    nullary main_cst_187 (constant S_ .f32 0x00000000#32),
    binary main_v782 main_cst_187 main_v783 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v784 ((extractStridedSlice S8x256x28x28 ![0, 0, 2, 7] · slices_S8x256x36x36_S8x256x28x28_0_0_2_7) : (⟨S8x256x36x36, .f32⟩ : BufTy).Contents (Elt F) → (⟨S8x256x28x28, .f32⟩ : BufTy).Contents (Elt F)),
    binary main_arg2 main_v784 main_v785 (mulf : (⟨S8x256x28x28, .f32⟩ : BufTy).Contents (Elt F) → (⟨S8x256x28x28, .f32⟩ : BufTy).Contents (Elt F) → (⟨S8x256x28x28, .f32⟩ : BufTy).Contents (Elt F)),
    nullary main_cst_188 (constant S_ .f32 0x00000000#32),
    binary main_v785 main_cst_188 main_v786 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v787 ((extractStridedSlice S8x256x28x28 ![0, 0, 2, 8] · slices_S8x256x36x36_S8x256x28x28_0_0_2_8) : (⟨S8x256x36x36, .f32⟩ : BufTy).Contents (Elt F) → (⟨S8x256x28x28, .f32⟩ : BufTy).Contents (Elt F)),
    binary main_arg2 main_v787 main_v788 (mulf : (⟨S8x256x28x28, .f32⟩ : BufTy).Contents (Elt F) → (⟨S8x256x28x28, .f32⟩ : BufTy).Contents (Elt F) → (⟨S8x256x28x28, .f32⟩ : BufTy).Contents (Elt F)),
    nullary main_cst_189 (constant S_ .f32 0x00000000#32),
    binary main_v788 main_cst_189 main_v789 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v765 main_v790 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v768 main_v791 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v771 main_v792 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v774 main_v793 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v777 main_v794 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v780 main_v795 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v783 main_v796 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v786 main_v797 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v789 main_v798 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v790, main_v791, main_v792, main_v793, main_v794, main_v795, main_v796, main_v797, main_v798] main_v799 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v800 ((extractStridedSlice S8x256x28x28 ![0, 0, 3, 0] · slices_S8x256x36x36_S8x256x28x28_0_0_3_0) : (⟨S8x256x36x36, .f32⟩ : BufTy).Contents (Elt F) → (⟨S8x256x28x28, .f32⟩ : BufTy).Contents (Elt F)),
    binary main_arg2 main_v800 main_v801 (mulf : (⟨S8x256x28x28, .f32⟩ : BufTy).Contents (Elt F) → (⟨S8x256x28x28, .f32⟩ : BufTy).Contents (Elt F) → (⟨S8x256x28x28, .f32⟩ : BufTy).Contents (Elt F)),
    nullary main_cst_190 (constant S_ .f32 0x00000000#32),
    binary main_v801 main_cst_190 main_v802 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v803 ((extractStridedSlice S8x256x28x28 ![0, 0, 3, 1] · slices_S8x256x36x36_S8x256x28x28_0_0_3_1) : (⟨S8x256x36x36, .f32⟩ : BufTy).Contents (Elt F) → (⟨S8x256x28x28, .f32⟩ : BufTy).Contents (Elt F)),
    binary main_arg2 main_v803 main_v804 (mulf : (⟨S8x256x28x28, .f32⟩ : BufTy).Contents (Elt F) → (⟨S8x256x28x28, .f32⟩ : BufTy).Contents (Elt F) → (⟨S8x256x28x28, .f32⟩ : BufTy).Contents (Elt F)),
    nullary main_cst_191 (constant S_ .f32 0x00000000#32),
    binary main_v804 main_cst_191 main_v805 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v806 ((extractStridedSlice S8x256x28x28 ![0, 0, 3, 2] · slices_S8x256x36x36_S8x256x28x28_0_0_3_2) : (⟨S8x256x36x36, .f32⟩ : BufTy).Contents (Elt F) → (⟨S8x256x28x28, .f32⟩ : BufTy).Contents (Elt F)),
    binary main_arg2 main_v806 main_v807 (mulf : (⟨S8x256x28x28, .f32⟩ : BufTy).Contents (Elt F) → (⟨S8x256x28x28, .f32⟩ : BufTy).Contents (Elt F) → (⟨S8x256x28x28, .f32⟩ : BufTy).Contents (Elt F)),
    nullary main_cst_192 (constant S_ .f32 0x00000000#32),
    binary main_v807 main_cst_192 main_v808 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v809 ((extractStridedSlice S8x256x28x28 ![0, 0, 3, 3] · slices_S8x256x36x36_S8x256x28x28_0_0_3_3) : (⟨S8x256x36x36, .f32⟩ : BufTy).Contents (Elt F) → (⟨S8x256x28x28, .f32⟩ : BufTy).Contents (Elt F)),
    binary main_arg2 main_v809 main_v810 (mulf : (⟨S8x256x28x28, .f32⟩ : BufTy).Contents (Elt F) → (⟨S8x256x28x28, .f32⟩ : BufTy).Contents (Elt F) → (⟨S8x256x28x28, .f32⟩ : BufTy).Contents (Elt F)),
    nullary main_cst_193 (constant S_ .f32 0x00000000#32),
    binary main_v810 main_cst_193 main_v811 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v812 ((extractStridedSlice S8x256x28x28 ![0, 0, 3, 4] · slices_S8x256x36x36_S8x256x28x28_0_0_3_4) : (⟨S8x256x36x36, .f32⟩ : BufTy).Contents (Elt F) → (⟨S8x256x28x28, .f32⟩ : BufTy).Contents (Elt F)),
    binary main_arg2 main_v812 main_v813 (mulf : (⟨S8x256x28x28, .f32⟩ : BufTy).Contents (Elt F) → (⟨S8x256x28x28, .f32⟩ : BufTy).Contents (Elt F) → (⟨S8x256x28x28, .f32⟩ : BufTy).Contents (Elt F)),
    nullary main_cst_194 (constant S_ .f32 0x00000000#32),
    binary main_v813 main_cst_194 main_v814 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v815 ((extractStridedSlice S8x256x28x28 ![0, 0, 3, 5] · slices_S8x256x36x36_S8x256x28x28_0_0_3_5) : (⟨S8x256x36x36, .f32⟩ : BufTy).Contents (Elt F) → (⟨S8x256x28x28, .f32⟩ : BufTy).Contents (Elt F)),
    binary main_arg2 main_v815 main_v816 (mulf : (⟨S8x256x28x28, .f32⟩ : BufTy).Contents (Elt F) → (⟨S8x256x28x28, .f32⟩ : BufTy).Contents (Elt F) → (⟨S8x256x28x28, .f32⟩ : BufTy).Contents (Elt F)),
    nullary main_cst_195 (constant S_ .f32 0x00000000#32),
    binary main_v816 main_cst_195 main_v817 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v818 ((extractStridedSlice S8x256x28x28 ![0, 0, 3, 6] · slices_S8x256x36x36_S8x256x28x28_0_0_3_6) : (⟨S8x256x36x36, .f32⟩ : BufTy).Contents (Elt F) → (⟨S8x256x28x28, .f32⟩ : BufTy).Contents (Elt F)),
    binary main_arg2 main_v818 main_v819 (mulf : (⟨S8x256x28x28, .f32⟩ : BufTy).Contents (Elt F) → (⟨S8x256x28x28, .f32⟩ : BufTy).Contents (Elt F) → (⟨S8x256x28x28, .f32⟩ : BufTy).Contents (Elt F)),
    nullary main_cst_196 (constant S_ .f32 0x00000000#32),
    binary main_v819 main_cst_196 main_v820 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)) ]

set_option maxHeartbeats 0 in
theorem part16_eq (d : Dev nD) : main_part16 (F := F) d = seq opsP16 := by chain_rfl

/-- The operations of window 17 of @main. -/
abbrev opsP17 : List (HloOp τ sig (Elt F)) :=
  [ unary main_v688 main_v821 ((extractStridedSlice S8x256x28x28 ![0, 0, 3, 7] · slices_S8x256x36x36_S8x256x28x28_0_0_3_7) : (⟨S8x256x36x36, .f32⟩ : BufTy).Contents (Elt F) → (⟨S8x256x28x28, .f32⟩ : BufTy).Contents (Elt F)),
    binary main_arg2 main_v821 main_v822 (mulf : (⟨S8x256x28x28, .f32⟩ : BufTy).Contents (Elt F) → (⟨S8x256x28x28, .f32⟩ : BufTy).Contents (Elt F) → (⟨S8x256x28x28, .f32⟩ : BufTy).Contents (Elt F)),
    nullary main_cst_197 (constant S_ .f32 0x00000000#32),
    binary main_v822 main_cst_197 main_v823 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v824 ((extractStridedSlice S8x256x28x28 ![0, 0, 3, 8] · slices_S8x256x36x36_S8x256x28x28_0_0_3_8) : (⟨S8x256x36x36, .f32⟩ : BufTy).Contents (Elt F) → (⟨S8x256x28x28, .f32⟩ : BufTy).Contents (Elt F)),
    binary main_arg2 main_v824 main_v825 (mulf : (⟨S8x256x28x28, .f32⟩ : BufTy).Contents (Elt F) → (⟨S8x256x28x28, .f32⟩ : BufTy).Contents (Elt F) → (⟨S8x256x28x28, .f32⟩ : BufTy).Contents (Elt F)),
    nullary main_cst_198 (constant S_ .f32 0x00000000#32),
    binary main_v825 main_cst_198 main_v826 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v802 main_v827 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v805 main_v828 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v808 main_v829 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v811 main_v830 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v814 main_v831 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v817 main_v832 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v820 main_v833 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v823 main_v834 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v826 main_v835 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v827, main_v828, main_v829, main_v830, main_v831, main_v832, main_v833, main_v834, main_v835] main_v836 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v837 ((extractStridedSlice S8x256x28x28 ![0, 0, 4, 0] · slices_S8x256x36x36_S8x256x28x28_0_0_4_0) : (⟨S8x256x36x36, .f32⟩ : BufTy).Contents (Elt F) → (⟨S8x256x28x28, .f32⟩ : BufTy).Contents (Elt F)),
    binary main_arg2 main_v837 main_v838 (mulf : (⟨S8x256x28x28, .f32⟩ : BufTy).Contents (Elt F) → (⟨S8x256x28x28, .f32⟩ : BufTy).Contents (Elt F) → (⟨S8x256x28x28, .f32⟩ : BufTy).Contents (Elt F)),
    nullary main_cst_199 (constant S_ .f32 0x00000000#32),
    binary main_v838 main_cst_199 main_v839 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v840 ((extractStridedSlice S8x256x28x28 ![0, 0, 4, 1] · slices_S8x256x36x36_S8x256x28x28_0_0_4_1) : (⟨S8x256x36x36, .f32⟩ : BufTy).Contents (Elt F) → (⟨S8x256x28x28, .f32⟩ : BufTy).Contents (Elt F)),
    binary main_arg2 main_v840 main_v841 (mulf : (⟨S8x256x28x28, .f32⟩ : BufTy).Contents (Elt F) → (⟨S8x256x28x28, .f32⟩ : BufTy).Contents (Elt F) → (⟨S8x256x28x28, .f32⟩ : BufTy).Contents (Elt F)),
    nullary main_cst_200 (constant S_ .f32 0x00000000#32),
    binary main_v841 main_cst_200 main_v842 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v843 ((extractStridedSlice S8x256x28x28 ![0, 0, 4, 2] · slices_S8x256x36x36_S8x256x28x28_0_0_4_2) : (⟨S8x256x36x36, .f32⟩ : BufTy).Contents (Elt F) → (⟨S8x256x28x28, .f32⟩ : BufTy).Contents (Elt F)),
    binary main_arg2 main_v843 main_v844 (mulf : (⟨S8x256x28x28, .f32⟩ : BufTy).Contents (Elt F) → (⟨S8x256x28x28, .f32⟩ : BufTy).Contents (Elt F) → (⟨S8x256x28x28, .f32⟩ : BufTy).Contents (Elt F)),
    nullary main_cst_201 (constant S_ .f32 0x00000000#32),
    binary main_v844 main_cst_201 main_v845 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v846 ((extractStridedSlice S8x256x28x28 ![0, 0, 4, 3] · slices_S8x256x36x36_S8x256x28x28_0_0_4_3) : (⟨S8x256x36x36, .f32⟩ : BufTy).Contents (Elt F) → (⟨S8x256x28x28, .f32⟩ : BufTy).Contents (Elt F)),
    binary main_arg2 main_v846 main_v847 (mulf : (⟨S8x256x28x28, .f32⟩ : BufTy).Contents (Elt F) → (⟨S8x256x28x28, .f32⟩ : BufTy).Contents (Elt F) → (⟨S8x256x28x28, .f32⟩ : BufTy).Contents (Elt F)),
    nullary main_cst_202 (constant S_ .f32 0x00000000#32),
    binary main_v847 main_cst_202 main_v848 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v849 ((extractStridedSlice S8x256x28x28 ![0, 0, 4, 4] · slices_S8x256x36x36_S8x256x28x28_0_0_4_4) : (⟨S8x256x36x36, .f32⟩ : BufTy).Contents (Elt F) → (⟨S8x256x28x28, .f32⟩ : BufTy).Contents (Elt F)),
    binary main_arg2 main_v849 main_v850 (mulf : (⟨S8x256x28x28, .f32⟩ : BufTy).Contents (Elt F) → (⟨S8x256x28x28, .f32⟩ : BufTy).Contents (Elt F) → (⟨S8x256x28x28, .f32⟩ : BufTy).Contents (Elt F)),
    nullary main_cst_203 (constant S_ .f32 0x00000000#32),
    binary main_v850 main_cst_203 main_v851 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v852 ((extractStridedSlice S8x256x28x28 ![0, 0, 4, 5] · slices_S8x256x36x36_S8x256x28x28_0_0_4_5) : (⟨S8x256x36x36, .f32⟩ : BufTy).Contents (Elt F) → (⟨S8x256x28x28, .f32⟩ : BufTy).Contents (Elt F)),
    binary main_arg2 main_v852 main_v853 (mulf : (⟨S8x256x28x28, .f32⟩ : BufTy).Contents (Elt F) → (⟨S8x256x28x28, .f32⟩ : BufTy).Contents (Elt F) → (⟨S8x256x28x28, .f32⟩ : BufTy).Contents (Elt F)),
    nullary main_cst_204 (constant S_ .f32 0x00000000#32),
    binary main_v853 main_cst_204 main_v854 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v855 ((extractStridedSlice S8x256x28x28 ![0, 0, 4, 6] · slices_S8x256x36x36_S8x256x28x28_0_0_4_6) : (⟨S8x256x36x36, .f32⟩ : BufTy).Contents (Elt F) → (⟨S8x256x28x28, .f32⟩ : BufTy).Contents (Elt F)),
    binary main_arg2 main_v855 main_v856 (mulf : (⟨S8x256x28x28, .f32⟩ : BufTy).Contents (Elt F) → (⟨S8x256x28x28, .f32⟩ : BufTy).Contents (Elt F) → (⟨S8x256x28x28, .f32⟩ : BufTy).Contents (Elt F)),
    nullary main_cst_205 (constant S_ .f32 0x00000000#32),
    binary main_v856 main_cst_205 main_v857 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v858 ((extractStridedSlice S8x256x28x28 ![0, 0, 4, 7] · slices_S8x256x36x36_S8x256x28x28_0_0_4_7) : (⟨S8x256x36x36, .f32⟩ : BufTy).Contents (Elt F) → (⟨S8x256x28x28, .f32⟩ : BufTy).Contents (Elt F)),
    binary main_arg2 main_v858 main_v859 (mulf : (⟨S8x256x28x28, .f32⟩ : BufTy).Contents (Elt F) → (⟨S8x256x28x28, .f32⟩ : BufTy).Contents (Elt F) → (⟨S8x256x28x28, .f32⟩ : BufTy).Contents (Elt F)),
    nullary main_cst_206 (constant S_ .f32 0x00000000#32),
    binary main_v859 main_cst_206 main_v860 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v861 ((extractStridedSlice S8x256x28x28 ![0, 0, 4, 8] · slices_S8x256x36x36_S8x256x28x28_0_0_4_8) : (⟨S8x256x36x36, .f32⟩ : BufTy).Contents (Elt F) → (⟨S8x256x28x28, .f32⟩ : BufTy).Contents (Elt F)),
    binary main_arg2 main_v861 main_v862 (mulf : (⟨S8x256x28x28, .f32⟩ : BufTy).Contents (Elt F) → (⟨S8x256x28x28, .f32⟩ : BufTy).Contents (Elt F) → (⟨S8x256x28x28, .f32⟩ : BufTy).Contents (Elt F)),
    nullary main_cst_207 (constant S_ .f32 0x00000000#32),
    binary main_v862 main_cst_207 main_v863 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v839 main_v864 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v842 main_v865 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v845 main_v866 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v848 main_v867 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v851 main_v868 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v854 main_v869 (broadcastInDim S8x1x28x28 ![0, 2, 3] bcast_S8x28x28_S8x1x28x28_0_2_3 : (⟨S8x28x28, .f32⟩ : BufTy).Contents (Elt F) → (⟨S8x1x28x28, .f32⟩ : BufTy).Contents (Elt F)) ]

set_option maxHeartbeats 0 in
theorem part17_eq (d : Dev nD) : main_part17 (F := F) d = seq opsP17 := by chain_rfl

/-- The operations of window 18 of @main. -/
abbrev opsP18 : List (HloOp τ sig (Elt F)) :=
  [ unary main_v857 main_v870 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v860 main_v871 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v863 main_v872 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v864, main_v865, main_v866, main_v867, main_v868, main_v869, main_v870, main_v871, main_v872] main_v873 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v874 ((extractStridedSlice S8x256x28x28 ![0, 0, 5, 0] · slices_S8x256x36x36_S8x256x28x28_0_0_5_0) : (⟨S8x256x36x36, .f32⟩ : BufTy).Contents (Elt F) → (⟨S8x256x28x28, .f32⟩ : BufTy).Contents (Elt F)),
    binary main_arg2 main_v874 main_v875 (mulf : (⟨S8x256x28x28, .f32⟩ : BufTy).Contents (Elt F) → (⟨S8x256x28x28, .f32⟩ : BufTy).Contents (Elt F) → (⟨S8x256x28x28, .f32⟩ : BufTy).Contents (Elt F)),
    nullary main_cst_208 (constant S_ .f32 0x00000000#32),
    binary main_v875 main_cst_208 main_v876 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v877 ((extractStridedSlice S8x256x28x28 ![0, 0, 5, 1] · slices_S8x256x36x36_S8x256x28x28_0_0_5_1) : (⟨S8x256x36x36, .f32⟩ : BufTy).Contents (Elt F) → (⟨S8x256x28x28, .f32⟩ : BufTy).Contents (Elt F)),
    binary main_arg2 main_v877 main_v878 (mulf : (⟨S8x256x28x28, .f32⟩ : BufTy).Contents (Elt F) → (⟨S8x256x28x28, .f32⟩ : BufTy).Contents (Elt F) → (⟨S8x256x28x28, .f32⟩ : BufTy).Contents (Elt F)),
    nullary main_cst_209 (constant S_ .f32 0x00000000#32),
    binary main_v878 main_cst_209 main_v879 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v880 ((extractStridedSlice S8x256x28x28 ![0, 0, 5, 2] · slices_S8x256x36x36_S8x256x28x28_0_0_5_2) : (⟨S8x256x36x36, .f32⟩ : BufTy).Contents (Elt F) → (⟨S8x256x28x28, .f32⟩ : BufTy).Contents (Elt F)),
    binary main_arg2 main_v880 main_v881 (mulf : (⟨S8x256x28x28, .f32⟩ : BufTy).Contents (Elt F) → (⟨S8x256x28x28, .f32⟩ : BufTy).Contents (Elt F) → (⟨S8x256x28x28, .f32⟩ : BufTy).Contents (Elt F)),
    nullary main_cst_210 (constant S_ .f32 0x00000000#32),
    binary main_v881 main_cst_210 main_v882 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v883 ((extractStridedSlice S8x256x28x28 ![0, 0, 5, 3] · slices_S8x256x36x36_S8x256x28x28_0_0_5_3) : (⟨S8x256x36x36, .f32⟩ : BufTy).Contents (Elt F) → (⟨S8x256x28x28, .f32⟩ : BufTy).Contents (Elt F)),
    binary main_arg2 main_v883 main_v884 (mulf : (⟨S8x256x28x28, .f32⟩ : BufTy).Contents (Elt F) → (⟨S8x256x28x28, .f32⟩ : BufTy).Contents (Elt F) → (⟨S8x256x28x28, .f32⟩ : BufTy).Contents (Elt F)),
    nullary main_cst_211 (constant S_ .f32 0x00000000#32),
    binary main_v884 main_cst_211 main_v885 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v886 ((extractStridedSlice S8x256x28x28 ![0, 0, 5, 4] · slices_S8x256x36x36_S8x256x28x28_0_0_5_4) : (⟨S8x256x36x36, .f32⟩ : BufTy).Contents (Elt F) → (⟨S8x256x28x28, .f32⟩ : BufTy).Contents (Elt F)),
    binary main_arg2 main_v886 main_v887 (mulf : (⟨S8x256x28x28, .f32⟩ : BufTy).Contents (Elt F) → (⟨S8x256x28x28, .f32⟩ : BufTy).Contents (Elt F) → (⟨S8x256x28x28, .f32⟩ : BufTy).Contents (Elt F)),
    nullary main_cst_212 (constant S_ .f32 0x00000000#32),
    binary main_v887 main_cst_212 main_v888 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v889 ((extractStridedSlice S8x256x28x28 ![0, 0, 5, 5] · slices_S8x256x36x36_S8x256x28x28_0_0_5_5) : (⟨S8x256x36x36, .f32⟩ : BufTy).Contents (Elt F) → (⟨S8x256x28x28, .f32⟩ : BufTy).Contents (Elt F)),
    binary main_arg2 main_v889 main_v890 (mulf : (⟨S8x256x28x28, .f32⟩ : BufTy).Contents (Elt F) → (⟨S8x256x28x28, .f32⟩ : BufTy).Contents (Elt F) → (⟨S8x256x28x28, .f32⟩ : BufTy).Contents (Elt F)),
    nullary main_cst_213 (constant S_ .f32 0x00000000#32),
    binary main_v890 main_cst_213 main_v891 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v892 ((extractStridedSlice S8x256x28x28 ![0, 0, 5, 6] · slices_S8x256x36x36_S8x256x28x28_0_0_5_6) : (⟨S8x256x36x36, .f32⟩ : BufTy).Contents (Elt F) → (⟨S8x256x28x28, .f32⟩ : BufTy).Contents (Elt F)),
    binary main_arg2 main_v892 main_v893 (mulf : (⟨S8x256x28x28, .f32⟩ : BufTy).Contents (Elt F) → (⟨S8x256x28x28, .f32⟩ : BufTy).Contents (Elt F) → (⟨S8x256x28x28, .f32⟩ : BufTy).Contents (Elt F)),
    nullary main_cst_214 (constant S_ .f32 0x00000000#32),
    binary main_v893 main_cst_214 main_v894 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v895 ((extractStridedSlice S8x256x28x28 ![0, 0, 5, 7] · slices_S8x256x36x36_S8x256x28x28_0_0_5_7) : (⟨S8x256x36x36, .f32⟩ : BufTy).Contents (Elt F) → (⟨S8x256x28x28, .f32⟩ : BufTy).Contents (Elt F)),
    binary main_arg2 main_v895 main_v896 (mulf : (⟨S8x256x28x28, .f32⟩ : BufTy).Contents (Elt F) → (⟨S8x256x28x28, .f32⟩ : BufTy).Contents (Elt F) → (⟨S8x256x28x28, .f32⟩ : BufTy).Contents (Elt F)),
    nullary main_cst_215 (constant S_ .f32 0x00000000#32),
    binary main_v896 main_cst_215 main_v897 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v898 ((extractStridedSlice S8x256x28x28 ![0, 0, 5, 8] · slices_S8x256x36x36_S8x256x28x28_0_0_5_8) : (⟨S8x256x36x36, .f32⟩ : BufTy).Contents (Elt F) → (⟨S8x256x28x28, .f32⟩ : BufTy).Contents (Elt F)),
    binary main_arg2 main_v898 main_v899 (mulf : (⟨S8x256x28x28, .f32⟩ : BufTy).Contents (Elt F) → (⟨S8x256x28x28, .f32⟩ : BufTy).Contents (Elt F) → (⟨S8x256x28x28, .f32⟩ : BufTy).Contents (Elt F)),
    nullary main_cst_216 (constant S_ .f32 0x00000000#32),
    binary main_v899 main_cst_216 main_v900 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v876 main_v901 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v879 main_v902 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v882 main_v903 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v885 main_v904 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v888 main_v905 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v891 main_v906 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v894 main_v907 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v897 main_v908 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v900 main_v909 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v901, main_v902, main_v903, main_v904, main_v905, main_v906, main_v907, main_v908, main_v909] main_v910 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v911 ((extractStridedSlice S8x256x28x28 ![0, 0, 6, 0] · slices_S8x256x36x36_S8x256x28x28_0_0_6_0) : (⟨S8x256x36x36, .f32⟩ : BufTy).Contents (Elt F) → (⟨S8x256x28x28, .f32⟩ : BufTy).Contents (Elt F)),
    binary main_arg2 main_v911 main_v912 (mulf : (⟨S8x256x28x28, .f32⟩ : BufTy).Contents (Elt F) → (⟨S8x256x28x28, .f32⟩ : BufTy).Contents (Elt F) → (⟨S8x256x28x28, .f32⟩ : BufTy).Contents (Elt F)),
    nullary main_cst_217 (constant S_ .f32 0x00000000#32),
    binary main_v912 main_cst_217 main_v913 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v914 ((extractStridedSlice S8x256x28x28 ![0, 0, 6, 1] · slices_S8x256x36x36_S8x256x28x28_0_0_6_1) : (⟨S8x256x36x36, .f32⟩ : BufTy).Contents (Elt F) → (⟨S8x256x28x28, .f32⟩ : BufTy).Contents (Elt F)),
    binary main_arg2 main_v914 main_v915 (mulf : (⟨S8x256x28x28, .f32⟩ : BufTy).Contents (Elt F) → (⟨S8x256x28x28, .f32⟩ : BufTy).Contents (Elt F) → (⟨S8x256x28x28, .f32⟩ : BufTy).Contents (Elt F)),
    nullary main_cst_218 (constant S_ .f32 0x00000000#32),
    binary main_v915 main_cst_218 main_v916 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v917 ((extractStridedSlice S8x256x28x28 ![0, 0, 6, 2] · slices_S8x256x36x36_S8x256x28x28_0_0_6_2) : (⟨S8x256x36x36, .f32⟩ : BufTy).Contents (Elt F) → (⟨S8x256x28x28, .f32⟩ : BufTy).Contents (Elt F)),
    binary main_arg2 main_v917 main_v918 (mulf : (⟨S8x256x28x28, .f32⟩ : BufTy).Contents (Elt F) → (⟨S8x256x28x28, .f32⟩ : BufTy).Contents (Elt F) → (⟨S8x256x28x28, .f32⟩ : BufTy).Contents (Elt F)) ]

set_option maxHeartbeats 0 in
theorem part18_eq (d : Dev nD) : main_part18 (F := F) d = seq opsP18 := by chain_rfl

/-- The operations of window 19 of @main. -/
abbrev opsP19 : List (HloOp τ sig (Elt F)) :=
  [ nullary main_cst_219 (constant S_ .f32 0x00000000#32),
    binary main_v918 main_cst_219 main_v919 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v920 ((extractStridedSlice S8x256x28x28 ![0, 0, 6, 3] · slices_S8x256x36x36_S8x256x28x28_0_0_6_3) : (⟨S8x256x36x36, .f32⟩ : BufTy).Contents (Elt F) → (⟨S8x256x28x28, .f32⟩ : BufTy).Contents (Elt F)),
    binary main_arg2 main_v920 main_v921 (mulf : (⟨S8x256x28x28, .f32⟩ : BufTy).Contents (Elt F) → (⟨S8x256x28x28, .f32⟩ : BufTy).Contents (Elt F) → (⟨S8x256x28x28, .f32⟩ : BufTy).Contents (Elt F)),
    nullary main_cst_220 (constant S_ .f32 0x00000000#32),
    binary main_v921 main_cst_220 main_v922 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v923 ((extractStridedSlice S8x256x28x28 ![0, 0, 6, 4] · slices_S8x256x36x36_S8x256x28x28_0_0_6_4) : (⟨S8x256x36x36, .f32⟩ : BufTy).Contents (Elt F) → (⟨S8x256x28x28, .f32⟩ : BufTy).Contents (Elt F)),
    binary main_arg2 main_v923 main_v924 (mulf : (⟨S8x256x28x28, .f32⟩ : BufTy).Contents (Elt F) → (⟨S8x256x28x28, .f32⟩ : BufTy).Contents (Elt F) → (⟨S8x256x28x28, .f32⟩ : BufTy).Contents (Elt F)),
    nullary main_cst_221 (constant S_ .f32 0x00000000#32),
    binary main_v924 main_cst_221 main_v925 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v926 ((extractStridedSlice S8x256x28x28 ![0, 0, 6, 5] · slices_S8x256x36x36_S8x256x28x28_0_0_6_5) : (⟨S8x256x36x36, .f32⟩ : BufTy).Contents (Elt F) → (⟨S8x256x28x28, .f32⟩ : BufTy).Contents (Elt F)),
    binary main_arg2 main_v926 main_v927 (mulf : (⟨S8x256x28x28, .f32⟩ : BufTy).Contents (Elt F) → (⟨S8x256x28x28, .f32⟩ : BufTy).Contents (Elt F) → (⟨S8x256x28x28, .f32⟩ : BufTy).Contents (Elt F)),
    nullary main_cst_222 (constant S_ .f32 0x00000000#32),
    binary main_v927 main_cst_222 main_v928 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v929 ((extractStridedSlice S8x256x28x28 ![0, 0, 6, 6] · slices_S8x256x36x36_S8x256x28x28_0_0_6_6) : (⟨S8x256x36x36, .f32⟩ : BufTy).Contents (Elt F) → (⟨S8x256x28x28, .f32⟩ : BufTy).Contents (Elt F)),
    binary main_arg2 main_v929 main_v930 (mulf : (⟨S8x256x28x28, .f32⟩ : BufTy).Contents (Elt F) → (⟨S8x256x28x28, .f32⟩ : BufTy).Contents (Elt F) → (⟨S8x256x28x28, .f32⟩ : BufTy).Contents (Elt F)),
    nullary main_cst_223 (constant S_ .f32 0x00000000#32),
    binary main_v930 main_cst_223 main_v931 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v932 ((extractStridedSlice S8x256x28x28 ![0, 0, 6, 7] · slices_S8x256x36x36_S8x256x28x28_0_0_6_7) : (⟨S8x256x36x36, .f32⟩ : BufTy).Contents (Elt F) → (⟨S8x256x28x28, .f32⟩ : BufTy).Contents (Elt F)),
    binary main_arg2 main_v932 main_v933 (mulf : (⟨S8x256x28x28, .f32⟩ : BufTy).Contents (Elt F) → (⟨S8x256x28x28, .f32⟩ : BufTy).Contents (Elt F) → (⟨S8x256x28x28, .f32⟩ : BufTy).Contents (Elt F)),
    nullary main_cst_224 (constant S_ .f32 0x00000000#32),
    binary main_v933 main_cst_224 main_v934 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v935 ((extractStridedSlice S8x256x28x28 ![0, 0, 6, 8] · slices_S8x256x36x36_S8x256x28x28_0_0_6_8) : (⟨S8x256x36x36, .f32⟩ : BufTy).Contents (Elt F) → (⟨S8x256x28x28, .f32⟩ : BufTy).Contents (Elt F)),
    binary main_arg2 main_v935 main_v936 (mulf : (⟨S8x256x28x28, .f32⟩ : BufTy).Contents (Elt F) → (⟨S8x256x28x28, .f32⟩ : BufTy).Contents (Elt F) → (⟨S8x256x28x28, .f32⟩ : BufTy).Contents (Elt F)),
    nullary main_cst_225 (constant S_ .f32 0x00000000#32),
    binary main_v936 main_cst_225 main_v937 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v913 main_v938 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v916 main_v939 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v919 main_v940 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v922 main_v941 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v925 main_v942 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v928 main_v943 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v931 main_v944 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v934 main_v945 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v937 main_v946 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v938, main_v939, main_v940, main_v941, main_v942, main_v943, main_v944, main_v945, main_v946] main_v947 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v948 ((extractStridedSlice S8x256x28x28 ![0, 0, 7, 0] · slices_S8x256x36x36_S8x256x28x28_0_0_7_0) : (⟨S8x256x36x36, .f32⟩ : BufTy).Contents (Elt F) → (⟨S8x256x28x28, .f32⟩ : BufTy).Contents (Elt F)),
    binary main_arg2 main_v948 main_v949 (mulf : (⟨S8x256x28x28, .f32⟩ : BufTy).Contents (Elt F) → (⟨S8x256x28x28, .f32⟩ : BufTy).Contents (Elt F) → (⟨S8x256x28x28, .f32⟩ : BufTy).Contents (Elt F)),
    nullary main_cst_226 (constant S_ .f32 0x00000000#32),
    binary main_v949 main_cst_226 main_v950 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v951 ((extractStridedSlice S8x256x28x28 ![0, 0, 7, 1] · slices_S8x256x36x36_S8x256x28x28_0_0_7_1) : (⟨S8x256x36x36, .f32⟩ : BufTy).Contents (Elt F) → (⟨S8x256x28x28, .f32⟩ : BufTy).Contents (Elt F)),
    binary main_arg2 main_v951 main_v952 (mulf : (⟨S8x256x28x28, .f32⟩ : BufTy).Contents (Elt F) → (⟨S8x256x28x28, .f32⟩ : BufTy).Contents (Elt F) → (⟨S8x256x28x28, .f32⟩ : BufTy).Contents (Elt F)),
    nullary main_cst_227 (constant S_ .f32 0x00000000#32),
    binary main_v952 main_cst_227 main_v953 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v954 ((extractStridedSlice S8x256x28x28 ![0, 0, 7, 2] · slices_S8x256x36x36_S8x256x28x28_0_0_7_2) : (⟨S8x256x36x36, .f32⟩ : BufTy).Contents (Elt F) → (⟨S8x256x28x28, .f32⟩ : BufTy).Contents (Elt F)),
    binary main_arg2 main_v954 main_v955 (mulf : (⟨S8x256x28x28, .f32⟩ : BufTy).Contents (Elt F) → (⟨S8x256x28x28, .f32⟩ : BufTy).Contents (Elt F) → (⟨S8x256x28x28, .f32⟩ : BufTy).Contents (Elt F)),
    nullary main_cst_228 (constant S_ .f32 0x00000000#32),
    binary main_v955 main_cst_228 main_v956 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v957 ((extractStridedSlice S8x256x28x28 ![0, 0, 7, 3] · slices_S8x256x36x36_S8x256x28x28_0_0_7_3) : (⟨S8x256x36x36, .f32⟩ : BufTy).Contents (Elt F) → (⟨S8x256x28x28, .f32⟩ : BufTy).Contents (Elt F)),
    binary main_arg2 main_v957 main_v958 (mulf : (⟨S8x256x28x28, .f32⟩ : BufTy).Contents (Elt F) → (⟨S8x256x28x28, .f32⟩ : BufTy).Contents (Elt F) → (⟨S8x256x28x28, .f32⟩ : BufTy).Contents (Elt F)),
    nullary main_cst_229 (constant S_ .f32 0x00000000#32),
    binary main_v958 main_cst_229 main_v959 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v960 ((extractStridedSlice S8x256x28x28 ![0, 0, 7, 4] · slices_S8x256x36x36_S8x256x28x28_0_0_7_4) : (⟨S8x256x36x36, .f32⟩ : BufTy).Contents (Elt F) → (⟨S8x256x28x28, .f32⟩ : BufTy).Contents (Elt F)),
    binary main_arg2 main_v960 main_v961 (mulf : (⟨S8x256x28x28, .f32⟩ : BufTy).Contents (Elt F) → (⟨S8x256x28x28, .f32⟩ : BufTy).Contents (Elt F) → (⟨S8x256x28x28, .f32⟩ : BufTy).Contents (Elt F)),
    nullary main_cst_230 (constant S_ .f32 0x00000000#32),
    binary main_v961 main_cst_230 main_v962 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v963 ((extractStridedSlice S8x256x28x28 ![0, 0, 7, 5] · slices_S8x256x36x36_S8x256x28x28_0_0_7_5) : (⟨S8x256x36x36, .f32⟩ : BufTy).Contents (Elt F) → (⟨S8x256x28x28, .f32⟩ : BufTy).Contents (Elt F)),
    binary main_arg2 main_v963 main_v964 (mulf : (⟨S8x256x28x28, .f32⟩ : BufTy).Contents (Elt F) → (⟨S8x256x28x28, .f32⟩ : BufTy).Contents (Elt F) → (⟨S8x256x28x28, .f32⟩ : BufTy).Contents (Elt F)),
    nullary main_cst_231 (constant S_ .f32 0x00000000#32),
    binary main_v964 main_cst_231 main_v965 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)) ]

set_option maxHeartbeats 0 in
theorem part19_eq (d : Dev nD) : main_part19 (F := F) d = seq opsP19 := by chain_rfl

/-- The operations of window 20 of @main. -/
abbrev opsP20 : List (HloOp τ sig (Elt F)) :=
  [ unary main_v688 main_v966 ((extractStridedSlice S8x256x28x28 ![0, 0, 7, 6] · slices_S8x256x36x36_S8x256x28x28_0_0_7_6) : (⟨S8x256x36x36, .f32⟩ : BufTy).Contents (Elt F) → (⟨S8x256x28x28, .f32⟩ : BufTy).Contents (Elt F)),
    binary main_arg2 main_v966 main_v967 (mulf : (⟨S8x256x28x28, .f32⟩ : BufTy).Contents (Elt F) → (⟨S8x256x28x28, .f32⟩ : BufTy).Contents (Elt F) → (⟨S8x256x28x28, .f32⟩ : BufTy).Contents (Elt F)),
    nullary main_cst_232 (constant S_ .f32 0x00000000#32),
    binary main_v967 main_cst_232 main_v968 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v969 ((extractStridedSlice S8x256x28x28 ![0, 0, 7, 7] · slices_S8x256x36x36_S8x256x28x28_0_0_7_7) : (⟨S8x256x36x36, .f32⟩ : BufTy).Contents (Elt F) → (⟨S8x256x28x28, .f32⟩ : BufTy).Contents (Elt F)),
    binary main_arg2 main_v969 main_v970 (mulf : (⟨S8x256x28x28, .f32⟩ : BufTy).Contents (Elt F) → (⟨S8x256x28x28, .f32⟩ : BufTy).Contents (Elt F) → (⟨S8x256x28x28, .f32⟩ : BufTy).Contents (Elt F)),
    nullary main_cst_233 (constant S_ .f32 0x00000000#32),
    binary main_v970 main_cst_233 main_v971 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v972 ((extractStridedSlice S8x256x28x28 ![0, 0, 7, 8] · slices_S8x256x36x36_S8x256x28x28_0_0_7_8) : (⟨S8x256x36x36, .f32⟩ : BufTy).Contents (Elt F) → (⟨S8x256x28x28, .f32⟩ : BufTy).Contents (Elt F)),
    binary main_arg2 main_v972 main_v973 (mulf : (⟨S8x256x28x28, .f32⟩ : BufTy).Contents (Elt F) → (⟨S8x256x28x28, .f32⟩ : BufTy).Contents (Elt F) → (⟨S8x256x28x28, .f32⟩ : BufTy).Contents (Elt F)),
    nullary main_cst_234 (constant S_ .f32 0x00000000#32),
    binary main_v973 main_cst_234 main_v974 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v950 main_v975 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v953 main_v976 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v956 main_v977 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v959 main_v978 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v962 main_v979 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v965 main_v980 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v968 main_v981 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v971 main_v982 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v974 main_v983 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v975, main_v976, main_v977, main_v978, main_v979, main_v980, main_v981, main_v982, main_v983] main_v984 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v688 main_v985 ((extractStridedSlice S8x256x28x28 ![0, 0, 8, 0] · slices_S8x256x36x36_S8x256x28x28_0_0_8_0) : (⟨S8x256x36x36, .f32⟩ : BufTy).Contents (Elt F) → (⟨S8x256x28x28, .f32⟩ : BufTy).Contents (Elt F)),
    binary main_arg2 main_v985 main_v986 (mulf : (⟨S8x256x28x28, .f32⟩ : BufTy).Contents (Elt F) → (⟨S8x256x28x28, .f32⟩ : BufTy).Contents (Elt F) → (⟨S8x256x28x28, .f32⟩ : BufTy).Contents (Elt F)),
    nullary main_cst_235 (constant S_ .f32 0x00000000#32),
    binary main_v986 main_cst_235 main_v987 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v988 ((extractStridedSlice S8x256x28x28 ![0, 0, 8, 1] · slices_S8x256x36x36_S8x256x28x28_0_0_8_1) : (⟨S8x256x36x36, .f32⟩ : BufTy).Contents (Elt F) → (⟨S8x256x28x28, .f32⟩ : BufTy).Contents (Elt F)),
    binary main_arg2 main_v988 main_v989 (mulf : (⟨S8x256x28x28, .f32⟩ : BufTy).Contents (Elt F) → (⟨S8x256x28x28, .f32⟩ : BufTy).Contents (Elt F) → (⟨S8x256x28x28, .f32⟩ : BufTy).Contents (Elt F)),
    nullary main_cst_236 (constant S_ .f32 0x00000000#32),
    binary main_v989 main_cst_236 main_v990 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v991 ((extractStridedSlice S8x256x28x28 ![0, 0, 8, 2] · slices_S8x256x36x36_S8x256x28x28_0_0_8_2) : (⟨S8x256x36x36, .f32⟩ : BufTy).Contents (Elt F) → (⟨S8x256x28x28, .f32⟩ : BufTy).Contents (Elt F)),
    binary main_arg2 main_v991 main_v992 (mulf : (⟨S8x256x28x28, .f32⟩ : BufTy).Contents (Elt F) → (⟨S8x256x28x28, .f32⟩ : BufTy).Contents (Elt F) → (⟨S8x256x28x28, .f32⟩ : BufTy).Contents (Elt F)),
    nullary main_cst_237 (constant S_ .f32 0x00000000#32),
    binary main_v992 main_cst_237 main_v993 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v994 ((extractStridedSlice S8x256x28x28 ![0, 0, 8, 3] · slices_S8x256x36x36_S8x256x28x28_0_0_8_3) : (⟨S8x256x36x36, .f32⟩ : BufTy).Contents (Elt F) → (⟨S8x256x28x28, .f32⟩ : BufTy).Contents (Elt F)),
    binary main_arg2 main_v994 main_v995 (mulf : (⟨S8x256x28x28, .f32⟩ : BufTy).Contents (Elt F) → (⟨S8x256x28x28, .f32⟩ : BufTy).Contents (Elt F) → (⟨S8x256x28x28, .f32⟩ : BufTy).Contents (Elt F)),
    nullary main_cst_238 (constant S_ .f32 0x00000000#32),
    binary main_v995 main_cst_238 main_v996 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v997 ((extractStridedSlice S8x256x28x28 ![0, 0, 8, 4] · slices_S8x256x36x36_S8x256x28x28_0_0_8_4) : (⟨S8x256x36x36, .f32⟩ : BufTy).Contents (Elt F) → (⟨S8x256x28x28, .f32⟩ : BufTy).Contents (Elt F)),
    binary main_arg2 main_v997 main_v998 (mulf : (⟨S8x256x28x28, .f32⟩ : BufTy).Contents (Elt F) → (⟨S8x256x28x28, .f32⟩ : BufTy).Contents (Elt F) → (⟨S8x256x28x28, .f32⟩ : BufTy).Contents (Elt F)),
    nullary main_cst_239 (constant S_ .f32 0x00000000#32),
    binary main_v998 main_cst_239 main_v999 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1000 ((extractStridedSlice S8x256x28x28 ![0, 0, 8, 5] · slices_S8x256x36x36_S8x256x28x28_0_0_8_5) : (⟨S8x256x36x36, .f32⟩ : BufTy).Contents (Elt F) → (⟨S8x256x28x28, .f32⟩ : BufTy).Contents (Elt F)),
    binary main_arg2 main_v1000 main_v1001 (mulf : (⟨S8x256x28x28, .f32⟩ : BufTy).Contents (Elt F) → (⟨S8x256x28x28, .f32⟩ : BufTy).Contents (Elt F) → (⟨S8x256x28x28, .f32⟩ : BufTy).Contents (Elt F)),
    nullary main_cst_240 (constant S_ .f32 0x00000000#32),
    binary main_v1001 main_cst_240 main_v1002 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1003 ((extractStridedSlice S8x256x28x28 ![0, 0, 8, 6] · slices_S8x256x36x36_S8x256x28x28_0_0_8_6) : (⟨S8x256x36x36, .f32⟩ : BufTy).Contents (Elt F) → (⟨S8x256x28x28, .f32⟩ : BufTy).Contents (Elt F)),
    binary main_arg2 main_v1003 main_v1004 (mulf : (⟨S8x256x28x28, .f32⟩ : BufTy).Contents (Elt F) → (⟨S8x256x28x28, .f32⟩ : BufTy).Contents (Elt F) → (⟨S8x256x28x28, .f32⟩ : BufTy).Contents (Elt F)),
    nullary main_cst_241 (constant S_ .f32 0x00000000#32),
    binary main_v1004 main_cst_241 main_v1005 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1006 ((extractStridedSlice S8x256x28x28 ![0, 0, 8, 7] · slices_S8x256x36x36_S8x256x28x28_0_0_8_7) : (⟨S8x256x36x36, .f32⟩ : BufTy).Contents (Elt F) → (⟨S8x256x28x28, .f32⟩ : BufTy).Contents (Elt F)),
    binary main_arg2 main_v1006 main_v1007 (mulf : (⟨S8x256x28x28, .f32⟩ : BufTy).Contents (Elt F) → (⟨S8x256x28x28, .f32⟩ : BufTy).Contents (Elt F) → (⟨S8x256x28x28, .f32⟩ : BufTy).Contents (Elt F)),
    nullary main_cst_242 (constant S_ .f32 0x00000000#32),
    binary main_v1007 main_cst_242 main_v1008 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v688 main_v1009 ((extractStridedSlice S8x256x28x28 ![0, 0, 8, 8] · slices_S8x256x36x36_S8x256x28x28_0_0_8_8) : (⟨S8x256x36x36, .f32⟩ : BufTy).Contents (Elt F) → (⟨S8x256x28x28, .f32⟩ : BufTy).Contents (Elt F)),
    binary main_arg2 main_v1009 main_v1010 (mulf : (⟨S8x256x28x28, .f32⟩ : BufTy).Contents (Elt F) → (⟨S8x256x28x28, .f32⟩ : BufTy).Contents (Elt F) → (⟨S8x256x28x28, .f32⟩ : BufTy).Contents (Elt F)),
    nullary main_cst_243 (constant S_ .f32 0x00000000#32),
    binary main_v1010 main_cst_243 main_v1011 ((fun x v => Host.reduceAdd x v reducesTo_S8x256x28x28_S8x28x28_d1 h_S_) : (⟨S8x256x28x28, .f32⟩ : BufTy).Contents (Elt F) → (⟨S_, .f32⟩ : BufTy).Contents (Elt F) → (⟨S8x28x28, .f32⟩ : BufTy).Contents (Elt F)),
    unary main_v987 main_v1012 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v990 main_v1013 (broadcastInDim S8x1x28x28 ![0, 2, 3] bcast_S8x28x28_S8x1x28x28_0_2_3 : (⟨S8x28x28, .f32⟩ : BufTy).Contents (Elt F) → (⟨S8x1x28x28, .f32⟩ : BufTy).Contents (Elt F)) ]

set_option maxHeartbeats 0 in
theorem part20_eq (d : Dev nD) : main_part20 (F := F) d = seq opsP20 := by chain_rfl

/-- The operations of window 21 of @main. -/
abbrev opsP21 : List (HloOp τ sig (Elt F)) :=
  [ unary main_v993 main_v1014 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v996 main_v1015 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v999 main_v1016 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1002 main_v1017 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1005 main_v1018 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1008 main_v1019 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    unary main_v1011 main_v1020 (broadcastInDim S8x1x28x28 ![0, 2, 3] bcast_S8x28x28_S8x1x28x28_0_2_3 : (⟨S8x28x28, .f32⟩ : BufTy).Contents (Elt F) → (⟨S8x1x28x28, .f32⟩ : BufTy).Contents (Elt F)),
    nary ![main_v1012, main_v1013, main_v1014, main_v1015, main_v1016, main_v1017, main_v1018, main_v1019, main_v1020] main_v1021 (fun u => concatenate S8x9x28x28 1 [⟨S8x1x28x28, u 0⟩, ⟨S8x1x28x28, u 1⟩, ⟨S8x1x28x28, u 2⟩, ⟨S8x1x28x28, u 3⟩, ⟨S8x1x28x28, u 4⟩, ⟨S8x1x28x28, u 5⟩, ⟨S8x1x28x28, u 6⟩, ⟨S8x1x28x28, u 7⟩, ⟨S8x1x28x28, u 8⟩] concatenates_S8x1x28x28_S8x1x28x28_S8x1x28x28_S8x1x28x28_S8x1x28x28_S8x1x28x28_S8x1x28x28_S8x1x28x28_S8x1x28x28_S8x9x28x28_d1),
    unary main_v725 main_v1022 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v762 main_v1023 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v799 main_v1024 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v836 main_v1025 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v873 main_v1026 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v910 main_v1027 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v947 main_v1028 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v984 main_v1029 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    unary main_v1021 main_v1030 (broadcastInDim S8x1x9x28x28 ![0, 2, 3, 4] bcast_S8x9x28x28_S8x1x9x28x28_0_2_3_4 : (⟨S8x9x28x28, .f32⟩ : BufTy).Contents (Elt F) → (⟨S8x1x9x28x28, .f32⟩ : BufTy).Contents (Elt F)),
    nary ![main_v1022, main_v1023, main_v1024, main_v1025, main_v1026, main_v1027, main_v1028, main_v1029, main_v1030] main_v1031 (fun u => concatenate S8x9x9x28x28 1 [⟨S8x1x9x28x28, u 0⟩, ⟨S8x1x9x28x28, u 1⟩, ⟨S8x1x9x28x28, u 2⟩, ⟨S8x1x9x28x28, u 3⟩, ⟨S8x1x9x28x28, u 4⟩, ⟨S8x1x9x28x28, u 5⟩, ⟨S8x1x9x28x28, u 6⟩, ⟨S8x1x9x28x28, u 7⟩, ⟨S8x1x9x28x28, u 8⟩] concatenates_S8x1x9x28x28_S8x1x9x28x28_S8x1x9x28x28_S8x1x9x28x28_S8x1x9x28x28_S8x1x9x28x28_S8x1x9x28x28_S8x1x9x28x28_S8x1x9x28x28_S8x9x9x28x28_d1),
    nullary main_c_244 (constantI S_ 32 0#32),
    TRef.unary (TRef.of (T := ⟨S_, .i32⟩) main_c_244) (TRef.of (T := ⟨S_, .f32⟩) main_call3_v0) (sitofp .f32),
    TRef.binary (TRef.of (T := ⟨S8x512x14x14, .f32⟩) main_arg7) (TRef.of (T := ⟨S_, .f32⟩) main_call3_v0) (TRef.of (T := ⟨S8x512x22x22, .f32⟩) main_v1032) (fun x v => pad S8x512x22x22 ![0, 0, 4, 4] ![0, 0, 4, 4] ![0, 0, 0, 0] x v pads_S8x512x14x14_S8x512x22x22_000_000_440_440 h_S_),
    unary main_v1032 main_v1033 ((extractStridedSlice S8x512x14x14 ![0, 0, 0, 0] · slices_S8x512x22x22_S8x512x14x14_0_0_0_0) : (⟨S8x512x22x22, .f32⟩ : BufTy).Contents (Elt F) → (⟨S8x512x14x14, .f32⟩ : BufTy).Contents (Elt F)),
    binary main_arg3 main_v1033 main_v1034 (mulf : (⟨S8x512x14x14, .f32⟩ : BufTy).Contents (Elt F) → (⟨S8x512x14x14, .f32⟩ : BufTy).Contents (Elt F) → (⟨S8x512x14x14, .f32⟩ : BufTy).Contents (Elt F)),
    nullary main_cst_245 (constant S_ .f32 0x00000000#32),
    binary main_v1034 main_cst_245 main_v1035 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1036 ((extractStridedSlice S8x512x14x14 ![0, 0, 0, 1] · slices_S8x512x22x22_S8x512x14x14_0_0_0_1) : (⟨S8x512x22x22, .f32⟩ : BufTy).Contents (Elt F) → (⟨S8x512x14x14, .f32⟩ : BufTy).Contents (Elt F)),
    binary main_arg3 main_v1036 main_v1037 (mulf : (⟨S8x512x14x14, .f32⟩ : BufTy).Contents (Elt F) → (⟨S8x512x14x14, .f32⟩ : BufTy).Contents (Elt F) → (⟨S8x512x14x14, .f32⟩ : BufTy).Contents (Elt F)),
    nullary main_cst_246 (constant S_ .f32 0x00000000#32),
    binary main_v1037 main_cst_246 main_v1038 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1039 ((extractStridedSlice S8x512x14x14 ![0, 0, 0, 2] · slices_S8x512x22x22_S8x512x14x14_0_0_0_2) : (⟨S8x512x22x22, .f32⟩ : BufTy).Contents (Elt F) → (⟨S8x512x14x14, .f32⟩ : BufTy).Contents (Elt F)),
    binary main_arg3 main_v1039 main_v1040 (mulf : (⟨S8x512x14x14, .f32⟩ : BufTy).Contents (Elt F) → (⟨S8x512x14x14, .f32⟩ : BufTy).Contents (Elt F) → (⟨S8x512x14x14, .f32⟩ : BufTy).Contents (Elt F)),
    nullary main_cst_247 (constant S_ .f32 0x00000000#32),
    binary main_v1040 main_cst_247 main_v1041 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1042 ((extractStridedSlice S8x512x14x14 ![0, 0, 0, 3] · slices_S8x512x22x22_S8x512x14x14_0_0_0_3) : (⟨S8x512x22x22, .f32⟩ : BufTy).Contents (Elt F) → (⟨S8x512x14x14, .f32⟩ : BufTy).Contents (Elt F)),
    binary main_arg3 main_v1042 main_v1043 (mulf : (⟨S8x512x14x14, .f32⟩ : BufTy).Contents (Elt F) → (⟨S8x512x14x14, .f32⟩ : BufTy).Contents (Elt F) → (⟨S8x512x14x14, .f32⟩ : BufTy).Contents (Elt F)),
    nullary main_cst_248 (constant S_ .f32 0x00000000#32),
    binary main_v1043 main_cst_248 main_v1044 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1045 ((extractStridedSlice S8x512x14x14 ![0, 0, 0, 4] · slices_S8x512x22x22_S8x512x14x14_0_0_0_4) : (⟨S8x512x22x22, .f32⟩ : BufTy).Contents (Elt F) → (⟨S8x512x14x14, .f32⟩ : BufTy).Contents (Elt F)),
    binary main_arg3 main_v1045 main_v1046 (mulf : (⟨S8x512x14x14, .f32⟩ : BufTy).Contents (Elt F) → (⟨S8x512x14x14, .f32⟩ : BufTy).Contents (Elt F) → (⟨S8x512x14x14, .f32⟩ : BufTy).Contents (Elt F)),
    nullary main_cst_249 (constant S_ .f32 0x00000000#32),
    binary main_v1046 main_cst_249 main_v1047 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1048 ((extractStridedSlice S8x512x14x14 ![0, 0, 0, 5] · slices_S8x512x22x22_S8x512x14x14_0_0_0_5) : (⟨S8x512x22x22, .f32⟩ : BufTy).Contents (Elt F) → (⟨S8x512x14x14, .f32⟩ : BufTy).Contents (Elt F)),
    binary main_arg3 main_v1048 main_v1049 (mulf : (⟨S8x512x14x14, .f32⟩ : BufTy).Contents (Elt F) → (⟨S8x512x14x14, .f32⟩ : BufTy).Contents (Elt F) → (⟨S8x512x14x14, .f32⟩ : BufTy).Contents (Elt F)),
    nullary main_cst_250 (constant S_ .f32 0x00000000#32),
    binary main_v1049 main_cst_250 main_v1050 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1051 ((extractStridedSlice S8x512x14x14 ![0, 0, 0, 6] · slices_S8x512x22x22_S8x512x14x14_0_0_0_6) : (⟨S8x512x22x22, .f32⟩ : BufTy).Contents (Elt F) → (⟨S8x512x14x14, .f32⟩ : BufTy).Contents (Elt F)),
    binary main_arg3 main_v1051 main_v1052 (mulf : (⟨S8x512x14x14, .f32⟩ : BufTy).Contents (Elt F) → (⟨S8x512x14x14, .f32⟩ : BufTy).Contents (Elt F) → (⟨S8x512x14x14, .f32⟩ : BufTy).Contents (Elt F)),
    nullary main_cst_251 (constant S_ .f32 0x00000000#32),
    binary main_v1052 main_cst_251 main_v1053 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1054 ((extractStridedSlice S8x512x14x14 ![0, 0, 0, 7] · slices_S8x512x22x22_S8x512x14x14_0_0_0_7) : (⟨S8x512x22x22, .f32⟩ : BufTy).Contents (Elt F) → (⟨S8x512x14x14, .f32⟩ : BufTy).Contents (Elt F)),
    binary main_arg3 main_v1054 main_v1055 (mulf : (⟨S8x512x14x14, .f32⟩ : BufTy).Contents (Elt F) → (⟨S8x512x14x14, .f32⟩ : BufTy).Contents (Elt F) → (⟨S8x512x14x14, .f32⟩ : BufTy).Contents (Elt F)),
    nullary main_cst_252 (constant S_ .f32 0x00000000#32),
    binary main_v1055 main_cst_252 main_v1056 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1057 ((extractStridedSlice S8x512x14x14 ![0, 0, 0, 8] · slices_S8x512x22x22_S8x512x14x14_0_0_0_8) : (⟨S8x512x22x22, .f32⟩ : BufTy).Contents (Elt F) → (⟨S8x512x14x14, .f32⟩ : BufTy).Contents (Elt F)),
    binary main_arg3 main_v1057 main_v1058 (mulf : (⟨S8x512x14x14, .f32⟩ : BufTy).Contents (Elt F) → (⟨S8x512x14x14, .f32⟩ : BufTy).Contents (Elt F) → (⟨S8x512x14x14, .f32⟩ : BufTy).Contents (Elt F)),
    nullary main_cst_253 (constant S_ .f32 0x00000000#32),
    binary main_v1058 main_cst_253 main_v1059 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1035 main_v1060 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1038 main_v1061 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1041 main_v1062 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1044 main_v1063 (broadcastInDim S8x1x14x14 ![0, 2, 3] bcast_S8x14x14_S8x1x14x14_0_2_3 : (⟨S8x14x14, .f32⟩ : BufTy).Contents (Elt F) → (⟨S8x1x14x14, .f32⟩ : BufTy).Contents (Elt F)) ]

set_option maxHeartbeats 0 in
theorem part21_eq (d : Dev nD) : main_part21 (F := F) d = seq opsP21 := by chain_rfl

/-- The operations of window 22 of @main. -/
abbrev opsP22 : List (HloOp τ sig (Elt F)) :=
  [ unary main_v1047 main_v1064 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1050 main_v1065 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1053 main_v1066 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1056 main_v1067 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1059 main_v1068 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1060, main_v1061, main_v1062, main_v1063, main_v1064, main_v1065, main_v1066, main_v1067, main_v1068] main_v1069 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1070 ((extractStridedSlice S8x512x14x14 ![0, 0, 1, 0] · slices_S8x512x22x22_S8x512x14x14_0_0_1_0) : (⟨S8x512x22x22, .f32⟩ : BufTy).Contents (Elt F) → (⟨S8x512x14x14, .f32⟩ : BufTy).Contents (Elt F)),
    binary main_arg3 main_v1070 main_v1071 (mulf : (⟨S8x512x14x14, .f32⟩ : BufTy).Contents (Elt F) → (⟨S8x512x14x14, .f32⟩ : BufTy).Contents (Elt F) → (⟨S8x512x14x14, .f32⟩ : BufTy).Contents (Elt F)),
    nullary main_cst_254 (constant S_ .f32 0x00000000#32),
    binary main_v1071 main_cst_254 main_v1072 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1073 ((extractStridedSlice S8x512x14x14 ![0, 0, 1, 1] · slices_S8x512x22x22_S8x512x14x14_0_0_1_1) : (⟨S8x512x22x22, .f32⟩ : BufTy).Contents (Elt F) → (⟨S8x512x14x14, .f32⟩ : BufTy).Contents (Elt F)),
    binary main_arg3 main_v1073 main_v1074 (mulf : (⟨S8x512x14x14, .f32⟩ : BufTy).Contents (Elt F) → (⟨S8x512x14x14, .f32⟩ : BufTy).Contents (Elt F) → (⟨S8x512x14x14, .f32⟩ : BufTy).Contents (Elt F)),
    nullary main_cst_255 (constant S_ .f32 0x00000000#32),
    binary main_v1074 main_cst_255 main_v1075 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1076 ((extractStridedSlice S8x512x14x14 ![0, 0, 1, 2] · slices_S8x512x22x22_S8x512x14x14_0_0_1_2) : (⟨S8x512x22x22, .f32⟩ : BufTy).Contents (Elt F) → (⟨S8x512x14x14, .f32⟩ : BufTy).Contents (Elt F)),
    binary main_arg3 main_v1076 main_v1077 (mulf : (⟨S8x512x14x14, .f32⟩ : BufTy).Contents (Elt F) → (⟨S8x512x14x14, .f32⟩ : BufTy).Contents (Elt F) → (⟨S8x512x14x14, .f32⟩ : BufTy).Contents (Elt F)),
    nullary main_cst_256 (constant S_ .f32 0x00000000#32),
    binary main_v1077 main_cst_256 main_v1078 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1079 ((extractStridedSlice S8x512x14x14 ![0, 0, 1, 3] · slices_S8x512x22x22_S8x512x14x14_0_0_1_3) : (⟨S8x512x22x22, .f32⟩ : BufTy).Contents (Elt F) → (⟨S8x512x14x14, .f32⟩ : BufTy).Contents (Elt F)),
    binary main_arg3 main_v1079 main_v1080 (mulf : (⟨S8x512x14x14, .f32⟩ : BufTy).Contents (Elt F) → (⟨S8x512x14x14, .f32⟩ : BufTy).Contents (Elt F) → (⟨S8x512x14x14, .f32⟩ : BufTy).Contents (Elt F)),
    nullary main_cst_257 (constant S_ .f32 0x00000000#32),
    binary main_v1080 main_cst_257 main_v1081 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1082 ((extractStridedSlice S8x512x14x14 ![0, 0, 1, 4] · slices_S8x512x22x22_S8x512x14x14_0_0_1_4) : (⟨S8x512x22x22, .f32⟩ : BufTy).Contents (Elt F) → (⟨S8x512x14x14, .f32⟩ : BufTy).Contents (Elt F)),
    binary main_arg3 main_v1082 main_v1083 (mulf : (⟨S8x512x14x14, .f32⟩ : BufTy).Contents (Elt F) → (⟨S8x512x14x14, .f32⟩ : BufTy).Contents (Elt F) → (⟨S8x512x14x14, .f32⟩ : BufTy).Contents (Elt F)),
    nullary main_cst_258 (constant S_ .f32 0x00000000#32),
    binary main_v1083 main_cst_258 main_v1084 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1085 ((extractStridedSlice S8x512x14x14 ![0, 0, 1, 5] · slices_S8x512x22x22_S8x512x14x14_0_0_1_5) : (⟨S8x512x22x22, .f32⟩ : BufTy).Contents (Elt F) → (⟨S8x512x14x14, .f32⟩ : BufTy).Contents (Elt F)),
    binary main_arg3 main_v1085 main_v1086 (mulf : (⟨S8x512x14x14, .f32⟩ : BufTy).Contents (Elt F) → (⟨S8x512x14x14, .f32⟩ : BufTy).Contents (Elt F) → (⟨S8x512x14x14, .f32⟩ : BufTy).Contents (Elt F)),
    nullary main_cst_259 (constant S_ .f32 0x00000000#32),
    binary main_v1086 main_cst_259 main_v1087 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1088 ((extractStridedSlice S8x512x14x14 ![0, 0, 1, 6] · slices_S8x512x22x22_S8x512x14x14_0_0_1_6) : (⟨S8x512x22x22, .f32⟩ : BufTy).Contents (Elt F) → (⟨S8x512x14x14, .f32⟩ : BufTy).Contents (Elt F)),
    binary main_arg3 main_v1088 main_v1089 (mulf : (⟨S8x512x14x14, .f32⟩ : BufTy).Contents (Elt F) → (⟨S8x512x14x14, .f32⟩ : BufTy).Contents (Elt F) → (⟨S8x512x14x14, .f32⟩ : BufTy).Contents (Elt F)),
    nullary main_cst_260 (constant S_ .f32 0x00000000#32),
    binary main_v1089 main_cst_260 main_v1090 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1091 ((extractStridedSlice S8x512x14x14 ![0, 0, 1, 7] · slices_S8x512x22x22_S8x512x14x14_0_0_1_7) : (⟨S8x512x22x22, .f32⟩ : BufTy).Contents (Elt F) → (⟨S8x512x14x14, .f32⟩ : BufTy).Contents (Elt F)),
    binary main_arg3 main_v1091 main_v1092 (mulf : (⟨S8x512x14x14, .f32⟩ : BufTy).Contents (Elt F) → (⟨S8x512x14x14, .f32⟩ : BufTy).Contents (Elt F) → (⟨S8x512x14x14, .f32⟩ : BufTy).Contents (Elt F)),
    nullary main_cst_261 (constant S_ .f32 0x00000000#32),
    binary main_v1092 main_cst_261 main_v1093 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1094 ((extractStridedSlice S8x512x14x14 ![0, 0, 1, 8] · slices_S8x512x22x22_S8x512x14x14_0_0_1_8) : (⟨S8x512x22x22, .f32⟩ : BufTy).Contents (Elt F) → (⟨S8x512x14x14, .f32⟩ : BufTy).Contents (Elt F)),
    binary main_arg3 main_v1094 main_v1095 (mulf : (⟨S8x512x14x14, .f32⟩ : BufTy).Contents (Elt F) → (⟨S8x512x14x14, .f32⟩ : BufTy).Contents (Elt F) → (⟨S8x512x14x14, .f32⟩ : BufTy).Contents (Elt F)),
    nullary main_cst_262 (constant S_ .f32 0x00000000#32),
    binary main_v1095 main_cst_262 main_v1096 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1072 main_v1097 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1075 main_v1098 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1078 main_v1099 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1081 main_v1100 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1084 main_v1101 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1087 main_v1102 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1090 main_v1103 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1093 main_v1104 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1096 main_v1105 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1097, main_v1098, main_v1099, main_v1100, main_v1101, main_v1102, main_v1103, main_v1104, main_v1105] main_v1106 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1107 ((extractStridedSlice S8x512x14x14 ![0, 0, 2, 0] · slices_S8x512x22x22_S8x512x14x14_0_0_2_0) : (⟨S8x512x22x22, .f32⟩ : BufTy).Contents (Elt F) → (⟨S8x512x14x14, .f32⟩ : BufTy).Contents (Elt F)),
    binary main_arg3 main_v1107 main_v1108 (mulf : (⟨S8x512x14x14, .f32⟩ : BufTy).Contents (Elt F) → (⟨S8x512x14x14, .f32⟩ : BufTy).Contents (Elt F) → (⟨S8x512x14x14, .f32⟩ : BufTy).Contents (Elt F)),
    nullary main_cst_263 (constant S_ .f32 0x00000000#32),
    binary main_v1108 main_cst_263 main_v1109 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1110 ((extractStridedSlice S8x512x14x14 ![0, 0, 2, 1] · slices_S8x512x22x22_S8x512x14x14_0_0_2_1) : (⟨S8x512x22x22, .f32⟩ : BufTy).Contents (Elt F) → (⟨S8x512x14x14, .f32⟩ : BufTy).Contents (Elt F)),
    binary main_arg3 main_v1110 main_v1111 (mulf : (⟨S8x512x14x14, .f32⟩ : BufTy).Contents (Elt F) → (⟨S8x512x14x14, .f32⟩ : BufTy).Contents (Elt F) → (⟨S8x512x14x14, .f32⟩ : BufTy).Contents (Elt F)),
    nullary main_cst_264 (constant S_ .f32 0x00000000#32),
    binary main_v1111 main_cst_264 main_v1112 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)) ]

set_option maxHeartbeats 0 in
theorem part22_eq (d : Dev nD) : main_part22 (F := F) d = seq opsP22 := by chain_rfl

/-- The operations of window 23 of @main. -/
abbrev opsP23 : List (HloOp τ sig (Elt F)) :=
  [ unary main_v1032 main_v1113 ((extractStridedSlice S8x512x14x14 ![0, 0, 2, 2] · slices_S8x512x22x22_S8x512x14x14_0_0_2_2) : (⟨S8x512x22x22, .f32⟩ : BufTy).Contents (Elt F) → (⟨S8x512x14x14, .f32⟩ : BufTy).Contents (Elt F)),
    binary main_arg3 main_v1113 main_v1114 (mulf : (⟨S8x512x14x14, .f32⟩ : BufTy).Contents (Elt F) → (⟨S8x512x14x14, .f32⟩ : BufTy).Contents (Elt F) → (⟨S8x512x14x14, .f32⟩ : BufTy).Contents (Elt F)),
    nullary main_cst_265 (constant S_ .f32 0x00000000#32),
    binary main_v1114 main_cst_265 main_v1115 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1116 ((extractStridedSlice S8x512x14x14 ![0, 0, 2, 3] · slices_S8x512x22x22_S8x512x14x14_0_0_2_3) : (⟨S8x512x22x22, .f32⟩ : BufTy).Contents (Elt F) → (⟨S8x512x14x14, .f32⟩ : BufTy).Contents (Elt F)),
    binary main_arg3 main_v1116 main_v1117 (mulf : (⟨S8x512x14x14, .f32⟩ : BufTy).Contents (Elt F) → (⟨S8x512x14x14, .f32⟩ : BufTy).Contents (Elt F) → (⟨S8x512x14x14, .f32⟩ : BufTy).Contents (Elt F)),
    nullary main_cst_266 (constant S_ .f32 0x00000000#32),
    binary main_v1117 main_cst_266 main_v1118 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1119 ((extractStridedSlice S8x512x14x14 ![0, 0, 2, 4] · slices_S8x512x22x22_S8x512x14x14_0_0_2_4) : (⟨S8x512x22x22, .f32⟩ : BufTy).Contents (Elt F) → (⟨S8x512x14x14, .f32⟩ : BufTy).Contents (Elt F)),
    binary main_arg3 main_v1119 main_v1120 (mulf : (⟨S8x512x14x14, .f32⟩ : BufTy).Contents (Elt F) → (⟨S8x512x14x14, .f32⟩ : BufTy).Contents (Elt F) → (⟨S8x512x14x14, .f32⟩ : BufTy).Contents (Elt F)),
    nullary main_cst_267 (constant S_ .f32 0x00000000#32),
    binary main_v1120 main_cst_267 main_v1121 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1122 ((extractStridedSlice S8x512x14x14 ![0, 0, 2, 5] · slices_S8x512x22x22_S8x512x14x14_0_0_2_5) : (⟨S8x512x22x22, .f32⟩ : BufTy).Contents (Elt F) → (⟨S8x512x14x14, .f32⟩ : BufTy).Contents (Elt F)),
    binary main_arg3 main_v1122 main_v1123 (mulf : (⟨S8x512x14x14, .f32⟩ : BufTy).Contents (Elt F) → (⟨S8x512x14x14, .f32⟩ : BufTy).Contents (Elt F) → (⟨S8x512x14x14, .f32⟩ : BufTy).Contents (Elt F)),
    nullary main_cst_268 (constant S_ .f32 0x00000000#32),
    binary main_v1123 main_cst_268 main_v1124 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1125 ((extractStridedSlice S8x512x14x14 ![0, 0, 2, 6] · slices_S8x512x22x22_S8x512x14x14_0_0_2_6) : (⟨S8x512x22x22, .f32⟩ : BufTy).Contents (Elt F) → (⟨S8x512x14x14, .f32⟩ : BufTy).Contents (Elt F)),
    binary main_arg3 main_v1125 main_v1126 (mulf : (⟨S8x512x14x14, .f32⟩ : BufTy).Contents (Elt F) → (⟨S8x512x14x14, .f32⟩ : BufTy).Contents (Elt F) → (⟨S8x512x14x14, .f32⟩ : BufTy).Contents (Elt F)),
    nullary main_cst_269 (constant S_ .f32 0x00000000#32),
    binary main_v1126 main_cst_269 main_v1127 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1128 ((extractStridedSlice S8x512x14x14 ![0, 0, 2, 7] · slices_S8x512x22x22_S8x512x14x14_0_0_2_7) : (⟨S8x512x22x22, .f32⟩ : BufTy).Contents (Elt F) → (⟨S8x512x14x14, .f32⟩ : BufTy).Contents (Elt F)),
    binary main_arg3 main_v1128 main_v1129 (mulf : (⟨S8x512x14x14, .f32⟩ : BufTy).Contents (Elt F) → (⟨S8x512x14x14, .f32⟩ : BufTy).Contents (Elt F) → (⟨S8x512x14x14, .f32⟩ : BufTy).Contents (Elt F)),
    nullary main_cst_270 (constant S_ .f32 0x00000000#32),
    binary main_v1129 main_cst_270 main_v1130 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1131 ((extractStridedSlice S8x512x14x14 ![0, 0, 2, 8] · slices_S8x512x22x22_S8x512x14x14_0_0_2_8) : (⟨S8x512x22x22, .f32⟩ : BufTy).Contents (Elt F) → (⟨S8x512x14x14, .f32⟩ : BufTy).Contents (Elt F)),
    binary main_arg3 main_v1131 main_v1132 (mulf : (⟨S8x512x14x14, .f32⟩ : BufTy).Contents (Elt F) → (⟨S8x512x14x14, .f32⟩ : BufTy).Contents (Elt F) → (⟨S8x512x14x14, .f32⟩ : BufTy).Contents (Elt F)),
    nullary main_cst_271 (constant S_ .f32 0x00000000#32),
    binary main_v1132 main_cst_271 main_v1133 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1109 main_v1134 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1112 main_v1135 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1115 main_v1136 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1118 main_v1137 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1121 main_v1138 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1124 main_v1139 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1127 main_v1140 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1130 main_v1141 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1133 main_v1142 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1134, main_v1135, main_v1136, main_v1137, main_v1138, main_v1139, main_v1140, main_v1141, main_v1142] main_v1143 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1144 ((extractStridedSlice S8x512x14x14 ![0, 0, 3, 0] · slices_S8x512x22x22_S8x512x14x14_0_0_3_0) : (⟨S8x512x22x22, .f32⟩ : BufTy).Contents (Elt F) → (⟨S8x512x14x14, .f32⟩ : BufTy).Contents (Elt F)),
    binary main_arg3 main_v1144 main_v1145 (mulf : (⟨S8x512x14x14, .f32⟩ : BufTy).Contents (Elt F) → (⟨S8x512x14x14, .f32⟩ : BufTy).Contents (Elt F) → (⟨S8x512x14x14, .f32⟩ : BufTy).Contents (Elt F)),
    nullary main_cst_272 (constant S_ .f32 0x00000000#32),
    binary main_v1145 main_cst_272 main_v1146 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1147 ((extractStridedSlice S8x512x14x14 ![0, 0, 3, 1] · slices_S8x512x22x22_S8x512x14x14_0_0_3_1) : (⟨S8x512x22x22, .f32⟩ : BufTy).Contents (Elt F) → (⟨S8x512x14x14, .f32⟩ : BufTy).Contents (Elt F)),
    binary main_arg3 main_v1147 main_v1148 (mulf : (⟨S8x512x14x14, .f32⟩ : BufTy).Contents (Elt F) → (⟨S8x512x14x14, .f32⟩ : BufTy).Contents (Elt F) → (⟨S8x512x14x14, .f32⟩ : BufTy).Contents (Elt F)),
    nullary main_cst_273 (constant S_ .f32 0x00000000#32),
    binary main_v1148 main_cst_273 main_v1149 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1150 ((extractStridedSlice S8x512x14x14 ![0, 0, 3, 2] · slices_S8x512x22x22_S8x512x14x14_0_0_3_2) : (⟨S8x512x22x22, .f32⟩ : BufTy).Contents (Elt F) → (⟨S8x512x14x14, .f32⟩ : BufTy).Contents (Elt F)),
    binary main_arg3 main_v1150 main_v1151 (mulf : (⟨S8x512x14x14, .f32⟩ : BufTy).Contents (Elt F) → (⟨S8x512x14x14, .f32⟩ : BufTy).Contents (Elt F) → (⟨S8x512x14x14, .f32⟩ : BufTy).Contents (Elt F)),
    nullary main_cst_274 (constant S_ .f32 0x00000000#32),
    binary main_v1151 main_cst_274 main_v1152 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1153 ((extractStridedSlice S8x512x14x14 ![0, 0, 3, 3] · slices_S8x512x22x22_S8x512x14x14_0_0_3_3) : (⟨S8x512x22x22, .f32⟩ : BufTy).Contents (Elt F) → (⟨S8x512x14x14, .f32⟩ : BufTy).Contents (Elt F)),
    binary main_arg3 main_v1153 main_v1154 (mulf : (⟨S8x512x14x14, .f32⟩ : BufTy).Contents (Elt F) → (⟨S8x512x14x14, .f32⟩ : BufTy).Contents (Elt F) → (⟨S8x512x14x14, .f32⟩ : BufTy).Contents (Elt F)),
    nullary main_cst_275 (constant S_ .f32 0x00000000#32),
    binary main_v1154 main_cst_275 main_v1155 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1156 ((extractStridedSlice S8x512x14x14 ![0, 0, 3, 4] · slices_S8x512x22x22_S8x512x14x14_0_0_3_4) : (⟨S8x512x22x22, .f32⟩ : BufTy).Contents (Elt F) → (⟨S8x512x14x14, .f32⟩ : BufTy).Contents (Elt F)),
    binary main_arg3 main_v1156 main_v1157 (mulf : (⟨S8x512x14x14, .f32⟩ : BufTy).Contents (Elt F) → (⟨S8x512x14x14, .f32⟩ : BufTy).Contents (Elt F) → (⟨S8x512x14x14, .f32⟩ : BufTy).Contents (Elt F)),
    nullary main_cst_276 (constant S_ .f32 0x00000000#32),
    binary main_v1157 main_cst_276 main_v1158 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1159 ((extractStridedSlice S8x512x14x14 ![0, 0, 3, 5] · slices_S8x512x22x22_S8x512x14x14_0_0_3_5) : (⟨S8x512x22x22, .f32⟩ : BufTy).Contents (Elt F) → (⟨S8x512x14x14, .f32⟩ : BufTy).Contents (Elt F)),
    binary main_arg3 main_v1159 main_v1160 (mulf : (⟨S8x512x14x14, .f32⟩ : BufTy).Contents (Elt F) → (⟨S8x512x14x14, .f32⟩ : BufTy).Contents (Elt F) → (⟨S8x512x14x14, .f32⟩ : BufTy).Contents (Elt F)) ]

set_option maxHeartbeats 0 in
theorem part23_eq (d : Dev nD) : main_part23 (F := F) d = seq opsP23 := by chain_rfl

/-- The operations of window 24 of @main. -/
abbrev opsP24 : List (HloOp τ sig (Elt F)) :=
  [ nullary main_cst_277 (constant S_ .f32 0x00000000#32),
    binary main_v1160 main_cst_277 main_v1161 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1162 ((extractStridedSlice S8x512x14x14 ![0, 0, 3, 6] · slices_S8x512x22x22_S8x512x14x14_0_0_3_6) : (⟨S8x512x22x22, .f32⟩ : BufTy).Contents (Elt F) → (⟨S8x512x14x14, .f32⟩ : BufTy).Contents (Elt F)),
    binary main_arg3 main_v1162 main_v1163 (mulf : (⟨S8x512x14x14, .f32⟩ : BufTy).Contents (Elt F) → (⟨S8x512x14x14, .f32⟩ : BufTy).Contents (Elt F) → (⟨S8x512x14x14, .f32⟩ : BufTy).Contents (Elt F)),
    nullary main_cst_278 (constant S_ .f32 0x00000000#32),
    binary main_v1163 main_cst_278 main_v1164 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1165 ((extractStridedSlice S8x512x14x14 ![0, 0, 3, 7] · slices_S8x512x22x22_S8x512x14x14_0_0_3_7) : (⟨S8x512x22x22, .f32⟩ : BufTy).Contents (Elt F) → (⟨S8x512x14x14, .f32⟩ : BufTy).Contents (Elt F)),
    binary main_arg3 main_v1165 main_v1166 (mulf : (⟨S8x512x14x14, .f32⟩ : BufTy).Contents (Elt F) → (⟨S8x512x14x14, .f32⟩ : BufTy).Contents (Elt F) → (⟨S8x512x14x14, .f32⟩ : BufTy).Contents (Elt F)),
    nullary main_cst_279 (constant S_ .f32 0x00000000#32),
    binary main_v1166 main_cst_279 main_v1167 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1168 ((extractStridedSlice S8x512x14x14 ![0, 0, 3, 8] · slices_S8x512x22x22_S8x512x14x14_0_0_3_8) : (⟨S8x512x22x22, .f32⟩ : BufTy).Contents (Elt F) → (⟨S8x512x14x14, .f32⟩ : BufTy).Contents (Elt F)),
    binary main_arg3 main_v1168 main_v1169 (mulf : (⟨S8x512x14x14, .f32⟩ : BufTy).Contents (Elt F) → (⟨S8x512x14x14, .f32⟩ : BufTy).Contents (Elt F) → (⟨S8x512x14x14, .f32⟩ : BufTy).Contents (Elt F)),
    nullary main_cst_280 (constant S_ .f32 0x00000000#32),
    binary main_v1169 main_cst_280 main_v1170 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1146 main_v1171 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1149 main_v1172 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1152 main_v1173 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1155 main_v1174 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1158 main_v1175 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1161 main_v1176 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1164 main_v1177 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1167 main_v1178 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1170 main_v1179 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1171, main_v1172, main_v1173, main_v1174, main_v1175, main_v1176, main_v1177, main_v1178, main_v1179] main_v1180 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1181 ((extractStridedSlice S8x512x14x14 ![0, 0, 4, 0] · slices_S8x512x22x22_S8x512x14x14_0_0_4_0) : (⟨S8x512x22x22, .f32⟩ : BufTy).Contents (Elt F) → (⟨S8x512x14x14, .f32⟩ : BufTy).Contents (Elt F)),
    binary main_arg3 main_v1181 main_v1182 (mulf : (⟨S8x512x14x14, .f32⟩ : BufTy).Contents (Elt F) → (⟨S8x512x14x14, .f32⟩ : BufTy).Contents (Elt F) → (⟨S8x512x14x14, .f32⟩ : BufTy).Contents (Elt F)),
    nullary main_cst_281 (constant S_ .f32 0x00000000#32),
    binary main_v1182 main_cst_281 main_v1183 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1184 ((extractStridedSlice S8x512x14x14 ![0, 0, 4, 1] · slices_S8x512x22x22_S8x512x14x14_0_0_4_1) : (⟨S8x512x22x22, .f32⟩ : BufTy).Contents (Elt F) → (⟨S8x512x14x14, .f32⟩ : BufTy).Contents (Elt F)),
    binary main_arg3 main_v1184 main_v1185 (mulf : (⟨S8x512x14x14, .f32⟩ : BufTy).Contents (Elt F) → (⟨S8x512x14x14, .f32⟩ : BufTy).Contents (Elt F) → (⟨S8x512x14x14, .f32⟩ : BufTy).Contents (Elt F)),
    nullary main_cst_282 (constant S_ .f32 0x00000000#32),
    binary main_v1185 main_cst_282 main_v1186 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1187 ((extractStridedSlice S8x512x14x14 ![0, 0, 4, 2] · slices_S8x512x22x22_S8x512x14x14_0_0_4_2) : (⟨S8x512x22x22, .f32⟩ : BufTy).Contents (Elt F) → (⟨S8x512x14x14, .f32⟩ : BufTy).Contents (Elt F)),
    binary main_arg3 main_v1187 main_v1188 (mulf : (⟨S8x512x14x14, .f32⟩ : BufTy).Contents (Elt F) → (⟨S8x512x14x14, .f32⟩ : BufTy).Contents (Elt F) → (⟨S8x512x14x14, .f32⟩ : BufTy).Contents (Elt F)),
    nullary main_cst_283 (constant S_ .f32 0x00000000#32),
    binary main_v1188 main_cst_283 main_v1189 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1190 ((extractStridedSlice S8x512x14x14 ![0, 0, 4, 3] · slices_S8x512x22x22_S8x512x14x14_0_0_4_3) : (⟨S8x512x22x22, .f32⟩ : BufTy).Contents (Elt F) → (⟨S8x512x14x14, .f32⟩ : BufTy).Contents (Elt F)),
    binary main_arg3 main_v1190 main_v1191 (mulf : (⟨S8x512x14x14, .f32⟩ : BufTy).Contents (Elt F) → (⟨S8x512x14x14, .f32⟩ : BufTy).Contents (Elt F) → (⟨S8x512x14x14, .f32⟩ : BufTy).Contents (Elt F)),
    nullary main_cst_284 (constant S_ .f32 0x00000000#32),
    binary main_v1191 main_cst_284 main_v1192 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1193 ((extractStridedSlice S8x512x14x14 ![0, 0, 4, 4] · slices_S8x512x22x22_S8x512x14x14_0_0_4_4) : (⟨S8x512x22x22, .f32⟩ : BufTy).Contents (Elt F) → (⟨S8x512x14x14, .f32⟩ : BufTy).Contents (Elt F)),
    binary main_arg3 main_v1193 main_v1194 (mulf : (⟨S8x512x14x14, .f32⟩ : BufTy).Contents (Elt F) → (⟨S8x512x14x14, .f32⟩ : BufTy).Contents (Elt F) → (⟨S8x512x14x14, .f32⟩ : BufTy).Contents (Elt F)),
    nullary main_cst_285 (constant S_ .f32 0x00000000#32),
    binary main_v1194 main_cst_285 main_v1195 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1196 ((extractStridedSlice S8x512x14x14 ![0, 0, 4, 5] · slices_S8x512x22x22_S8x512x14x14_0_0_4_5) : (⟨S8x512x22x22, .f32⟩ : BufTy).Contents (Elt F) → (⟨S8x512x14x14, .f32⟩ : BufTy).Contents (Elt F)),
    binary main_arg3 main_v1196 main_v1197 (mulf : (⟨S8x512x14x14, .f32⟩ : BufTy).Contents (Elt F) → (⟨S8x512x14x14, .f32⟩ : BufTy).Contents (Elt F) → (⟨S8x512x14x14, .f32⟩ : BufTy).Contents (Elt F)),
    nullary main_cst_286 (constant S_ .f32 0x00000000#32),
    binary main_v1197 main_cst_286 main_v1198 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1199 ((extractStridedSlice S8x512x14x14 ![0, 0, 4, 6] · slices_S8x512x22x22_S8x512x14x14_0_0_4_6) : (⟨S8x512x22x22, .f32⟩ : BufTy).Contents (Elt F) → (⟨S8x512x14x14, .f32⟩ : BufTy).Contents (Elt F)),
    binary main_arg3 main_v1199 main_v1200 (mulf : (⟨S8x512x14x14, .f32⟩ : BufTy).Contents (Elt F) → (⟨S8x512x14x14, .f32⟩ : BufTy).Contents (Elt F) → (⟨S8x512x14x14, .f32⟩ : BufTy).Contents (Elt F)),
    nullary main_cst_287 (constant S_ .f32 0x00000000#32),
    binary main_v1200 main_cst_287 main_v1201 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1202 ((extractStridedSlice S8x512x14x14 ![0, 0, 4, 7] · slices_S8x512x22x22_S8x512x14x14_0_0_4_7) : (⟨S8x512x22x22, .f32⟩ : BufTy).Contents (Elt F) → (⟨S8x512x14x14, .f32⟩ : BufTy).Contents (Elt F)),
    binary main_arg3 main_v1202 main_v1203 (mulf : (⟨S8x512x14x14, .f32⟩ : BufTy).Contents (Elt F) → (⟨S8x512x14x14, .f32⟩ : BufTy).Contents (Elt F) → (⟨S8x512x14x14, .f32⟩ : BufTy).Contents (Elt F)),
    nullary main_cst_288 (constant S_ .f32 0x00000000#32),
    binary main_v1203 main_cst_288 main_v1204 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1205 ((extractStridedSlice S8x512x14x14 ![0, 0, 4, 8] · slices_S8x512x22x22_S8x512x14x14_0_0_4_8) : (⟨S8x512x22x22, .f32⟩ : BufTy).Contents (Elt F) → (⟨S8x512x14x14, .f32⟩ : BufTy).Contents (Elt F)),
    binary main_arg3 main_v1205 main_v1206 (mulf : (⟨S8x512x14x14, .f32⟩ : BufTy).Contents (Elt F) → (⟨S8x512x14x14, .f32⟩ : BufTy).Contents (Elt F) → (⟨S8x512x14x14, .f32⟩ : BufTy).Contents (Elt F)),
    nullary main_cst_289 (constant S_ .f32 0x00000000#32),
    binary main_v1206 main_cst_289 main_v1207 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)) ]

set_option maxHeartbeats 0 in
theorem part24_eq (d : Dev nD) : main_part24 (F := F) d = seq opsP24 := by chain_rfl

/-- The operations of window 25 of @main. -/
abbrev opsP25 : List (HloOp τ sig (Elt F)) :=
  [ unary main_v1183 main_v1208 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1186 main_v1209 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1189 main_v1210 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1192 main_v1211 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1195 main_v1212 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1198 main_v1213 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1201 main_v1214 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1204 main_v1215 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1207 main_v1216 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1208, main_v1209, main_v1210, main_v1211, main_v1212, main_v1213, main_v1214, main_v1215, main_v1216] main_v1217 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1218 ((extractStridedSlice S8x512x14x14 ![0, 0, 5, 0] · slices_S8x512x22x22_S8x512x14x14_0_0_5_0) : (⟨S8x512x22x22, .f32⟩ : BufTy).Contents (Elt F) → (⟨S8x512x14x14, .f32⟩ : BufTy).Contents (Elt F)),
    binary main_arg3 main_v1218 main_v1219 (mulf : (⟨S8x512x14x14, .f32⟩ : BufTy).Contents (Elt F) → (⟨S8x512x14x14, .f32⟩ : BufTy).Contents (Elt F) → (⟨S8x512x14x14, .f32⟩ : BufTy).Contents (Elt F)),
    nullary main_cst_290 (constant S_ .f32 0x00000000#32),
    binary main_v1219 main_cst_290 main_v1220 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1221 ((extractStridedSlice S8x512x14x14 ![0, 0, 5, 1] · slices_S8x512x22x22_S8x512x14x14_0_0_5_1) : (⟨S8x512x22x22, .f32⟩ : BufTy).Contents (Elt F) → (⟨S8x512x14x14, .f32⟩ : BufTy).Contents (Elt F)),
    binary main_arg3 main_v1221 main_v1222 (mulf : (⟨S8x512x14x14, .f32⟩ : BufTy).Contents (Elt F) → (⟨S8x512x14x14, .f32⟩ : BufTy).Contents (Elt F) → (⟨S8x512x14x14, .f32⟩ : BufTy).Contents (Elt F)),
    nullary main_cst_291 (constant S_ .f32 0x00000000#32),
    binary main_v1222 main_cst_291 main_v1223 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1224 ((extractStridedSlice S8x512x14x14 ![0, 0, 5, 2] · slices_S8x512x22x22_S8x512x14x14_0_0_5_2) : (⟨S8x512x22x22, .f32⟩ : BufTy).Contents (Elt F) → (⟨S8x512x14x14, .f32⟩ : BufTy).Contents (Elt F)),
    binary main_arg3 main_v1224 main_v1225 (mulf : (⟨S8x512x14x14, .f32⟩ : BufTy).Contents (Elt F) → (⟨S8x512x14x14, .f32⟩ : BufTy).Contents (Elt F) → (⟨S8x512x14x14, .f32⟩ : BufTy).Contents (Elt F)),
    nullary main_cst_292 (constant S_ .f32 0x00000000#32),
    binary main_v1225 main_cst_292 main_v1226 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1227 ((extractStridedSlice S8x512x14x14 ![0, 0, 5, 3] · slices_S8x512x22x22_S8x512x14x14_0_0_5_3) : (⟨S8x512x22x22, .f32⟩ : BufTy).Contents (Elt F) → (⟨S8x512x14x14, .f32⟩ : BufTy).Contents (Elt F)),
    binary main_arg3 main_v1227 main_v1228 (mulf : (⟨S8x512x14x14, .f32⟩ : BufTy).Contents (Elt F) → (⟨S8x512x14x14, .f32⟩ : BufTy).Contents (Elt F) → (⟨S8x512x14x14, .f32⟩ : BufTy).Contents (Elt F)),
    nullary main_cst_293 (constant S_ .f32 0x00000000#32),
    binary main_v1228 main_cst_293 main_v1229 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1230 ((extractStridedSlice S8x512x14x14 ![0, 0, 5, 4] · slices_S8x512x22x22_S8x512x14x14_0_0_5_4) : (⟨S8x512x22x22, .f32⟩ : BufTy).Contents (Elt F) → (⟨S8x512x14x14, .f32⟩ : BufTy).Contents (Elt F)),
    binary main_arg3 main_v1230 main_v1231 (mulf : (⟨S8x512x14x14, .f32⟩ : BufTy).Contents (Elt F) → (⟨S8x512x14x14, .f32⟩ : BufTy).Contents (Elt F) → (⟨S8x512x14x14, .f32⟩ : BufTy).Contents (Elt F)),
    nullary main_cst_294 (constant S_ .f32 0x00000000#32),
    binary main_v1231 main_cst_294 main_v1232 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1233 ((extractStridedSlice S8x512x14x14 ![0, 0, 5, 5] · slices_S8x512x22x22_S8x512x14x14_0_0_5_5) : (⟨S8x512x22x22, .f32⟩ : BufTy).Contents (Elt F) → (⟨S8x512x14x14, .f32⟩ : BufTy).Contents (Elt F)),
    binary main_arg3 main_v1233 main_v1234 (mulf : (⟨S8x512x14x14, .f32⟩ : BufTy).Contents (Elt F) → (⟨S8x512x14x14, .f32⟩ : BufTy).Contents (Elt F) → (⟨S8x512x14x14, .f32⟩ : BufTy).Contents (Elt F)),
    nullary main_cst_295 (constant S_ .f32 0x00000000#32),
    binary main_v1234 main_cst_295 main_v1235 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1236 ((extractStridedSlice S8x512x14x14 ![0, 0, 5, 6] · slices_S8x512x22x22_S8x512x14x14_0_0_5_6) : (⟨S8x512x22x22, .f32⟩ : BufTy).Contents (Elt F) → (⟨S8x512x14x14, .f32⟩ : BufTy).Contents (Elt F)),
    binary main_arg3 main_v1236 main_v1237 (mulf : (⟨S8x512x14x14, .f32⟩ : BufTy).Contents (Elt F) → (⟨S8x512x14x14, .f32⟩ : BufTy).Contents (Elt F) → (⟨S8x512x14x14, .f32⟩ : BufTy).Contents (Elt F)),
    nullary main_cst_296 (constant S_ .f32 0x00000000#32),
    binary main_v1237 main_cst_296 main_v1238 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1239 ((extractStridedSlice S8x512x14x14 ![0, 0, 5, 7] · slices_S8x512x22x22_S8x512x14x14_0_0_5_7) : (⟨S8x512x22x22, .f32⟩ : BufTy).Contents (Elt F) → (⟨S8x512x14x14, .f32⟩ : BufTy).Contents (Elt F)),
    binary main_arg3 main_v1239 main_v1240 (mulf : (⟨S8x512x14x14, .f32⟩ : BufTy).Contents (Elt F) → (⟨S8x512x14x14, .f32⟩ : BufTy).Contents (Elt F) → (⟨S8x512x14x14, .f32⟩ : BufTy).Contents (Elt F)),
    nullary main_cst_297 (constant S_ .f32 0x00000000#32),
    binary main_v1240 main_cst_297 main_v1241 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1242 ((extractStridedSlice S8x512x14x14 ![0, 0, 5, 8] · slices_S8x512x22x22_S8x512x14x14_0_0_5_8) : (⟨S8x512x22x22, .f32⟩ : BufTy).Contents (Elt F) → (⟨S8x512x14x14, .f32⟩ : BufTy).Contents (Elt F)),
    binary main_arg3 main_v1242 main_v1243 (mulf : (⟨S8x512x14x14, .f32⟩ : BufTy).Contents (Elt F) → (⟨S8x512x14x14, .f32⟩ : BufTy).Contents (Elt F) → (⟨S8x512x14x14, .f32⟩ : BufTy).Contents (Elt F)),
    nullary main_cst_298 (constant S_ .f32 0x00000000#32),
    binary main_v1243 main_cst_298 main_v1244 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1220 main_v1245 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1223 main_v1246 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1226 main_v1247 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1229 main_v1248 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1232 main_v1249 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1235 main_v1250 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1238 main_v1251 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1241 main_v1252 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1244 main_v1253 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1245, main_v1246, main_v1247, main_v1248, main_v1249, main_v1250, main_v1251, main_v1252, main_v1253] main_v1254 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1255 ((extractStridedSlice S8x512x14x14 ![0, 0, 6, 0] · slices_S8x512x22x22_S8x512x14x14_0_0_6_0) : (⟨S8x512x22x22, .f32⟩ : BufTy).Contents (Elt F) → (⟨S8x512x14x14, .f32⟩ : BufTy).Contents (Elt F)),
    binary main_arg3 main_v1255 main_v1256 (mulf : (⟨S8x512x14x14, .f32⟩ : BufTy).Contents (Elt F) → (⟨S8x512x14x14, .f32⟩ : BufTy).Contents (Elt F) → (⟨S8x512x14x14, .f32⟩ : BufTy).Contents (Elt F)),
    nullary main_cst_299 (constant S_ .f32 0x00000000#32),
    binary main_v1256 main_cst_299 main_v1257 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)) ]

set_option maxHeartbeats 0 in
theorem part25_eq (d : Dev nD) : main_part25 (F := F) d = seq opsP25 := by chain_rfl

/-- The operations of window 26 of @main. -/
abbrev opsP26 : List (HloOp τ sig (Elt F)) :=
  [ unary main_v1032 main_v1258 ((extractStridedSlice S8x512x14x14 ![0, 0, 6, 1] · slices_S8x512x22x22_S8x512x14x14_0_0_6_1) : (⟨S8x512x22x22, .f32⟩ : BufTy).Contents (Elt F) → (⟨S8x512x14x14, .f32⟩ : BufTy).Contents (Elt F)),
    binary main_arg3 main_v1258 main_v1259 (mulf : (⟨S8x512x14x14, .f32⟩ : BufTy).Contents (Elt F) → (⟨S8x512x14x14, .f32⟩ : BufTy).Contents (Elt F) → (⟨S8x512x14x14, .f32⟩ : BufTy).Contents (Elt F)),
    nullary main_cst_300 (constant S_ .f32 0x00000000#32),
    binary main_v1259 main_cst_300 main_v1260 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1261 ((extractStridedSlice S8x512x14x14 ![0, 0, 6, 2] · slices_S8x512x22x22_S8x512x14x14_0_0_6_2) : (⟨S8x512x22x22, .f32⟩ : BufTy).Contents (Elt F) → (⟨S8x512x14x14, .f32⟩ : BufTy).Contents (Elt F)),
    binary main_arg3 main_v1261 main_v1262 (mulf : (⟨S8x512x14x14, .f32⟩ : BufTy).Contents (Elt F) → (⟨S8x512x14x14, .f32⟩ : BufTy).Contents (Elt F) → (⟨S8x512x14x14, .f32⟩ : BufTy).Contents (Elt F)),
    nullary main_cst_301 (constant S_ .f32 0x00000000#32),
    binary main_v1262 main_cst_301 main_v1263 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1264 ((extractStridedSlice S8x512x14x14 ![0, 0, 6, 3] · slices_S8x512x22x22_S8x512x14x14_0_0_6_3) : (⟨S8x512x22x22, .f32⟩ : BufTy).Contents (Elt F) → (⟨S8x512x14x14, .f32⟩ : BufTy).Contents (Elt F)),
    binary main_arg3 main_v1264 main_v1265 (mulf : (⟨S8x512x14x14, .f32⟩ : BufTy).Contents (Elt F) → (⟨S8x512x14x14, .f32⟩ : BufTy).Contents (Elt F) → (⟨S8x512x14x14, .f32⟩ : BufTy).Contents (Elt F)),
    nullary main_cst_302 (constant S_ .f32 0x00000000#32),
    binary main_v1265 main_cst_302 main_v1266 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1267 ((extractStridedSlice S8x512x14x14 ![0, 0, 6, 4] · slices_S8x512x22x22_S8x512x14x14_0_0_6_4) : (⟨S8x512x22x22, .f32⟩ : BufTy).Contents (Elt F) → (⟨S8x512x14x14, .f32⟩ : BufTy).Contents (Elt F)),
    binary main_arg3 main_v1267 main_v1268 (mulf : (⟨S8x512x14x14, .f32⟩ : BufTy).Contents (Elt F) → (⟨S8x512x14x14, .f32⟩ : BufTy).Contents (Elt F) → (⟨S8x512x14x14, .f32⟩ : BufTy).Contents (Elt F)),
    nullary main_cst_303 (constant S_ .f32 0x00000000#32),
    binary main_v1268 main_cst_303 main_v1269 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1270 ((extractStridedSlice S8x512x14x14 ![0, 0, 6, 5] · slices_S8x512x22x22_S8x512x14x14_0_0_6_5) : (⟨S8x512x22x22, .f32⟩ : BufTy).Contents (Elt F) → (⟨S8x512x14x14, .f32⟩ : BufTy).Contents (Elt F)),
    binary main_arg3 main_v1270 main_v1271 (mulf : (⟨S8x512x14x14, .f32⟩ : BufTy).Contents (Elt F) → (⟨S8x512x14x14, .f32⟩ : BufTy).Contents (Elt F) → (⟨S8x512x14x14, .f32⟩ : BufTy).Contents (Elt F)),
    nullary main_cst_304 (constant S_ .f32 0x00000000#32),
    binary main_v1271 main_cst_304 main_v1272 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1273 ((extractStridedSlice S8x512x14x14 ![0, 0, 6, 6] · slices_S8x512x22x22_S8x512x14x14_0_0_6_6) : (⟨S8x512x22x22, .f32⟩ : BufTy).Contents (Elt F) → (⟨S8x512x14x14, .f32⟩ : BufTy).Contents (Elt F)),
    binary main_arg3 main_v1273 main_v1274 (mulf : (⟨S8x512x14x14, .f32⟩ : BufTy).Contents (Elt F) → (⟨S8x512x14x14, .f32⟩ : BufTy).Contents (Elt F) → (⟨S8x512x14x14, .f32⟩ : BufTy).Contents (Elt F)),
    nullary main_cst_305 (constant S_ .f32 0x00000000#32),
    binary main_v1274 main_cst_305 main_v1275 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1276 ((extractStridedSlice S8x512x14x14 ![0, 0, 6, 7] · slices_S8x512x22x22_S8x512x14x14_0_0_6_7) : (⟨S8x512x22x22, .f32⟩ : BufTy).Contents (Elt F) → (⟨S8x512x14x14, .f32⟩ : BufTy).Contents (Elt F)),
    binary main_arg3 main_v1276 main_v1277 (mulf : (⟨S8x512x14x14, .f32⟩ : BufTy).Contents (Elt F) → (⟨S8x512x14x14, .f32⟩ : BufTy).Contents (Elt F) → (⟨S8x512x14x14, .f32⟩ : BufTy).Contents (Elt F)),
    nullary main_cst_306 (constant S_ .f32 0x00000000#32),
    binary main_v1277 main_cst_306 main_v1278 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1279 ((extractStridedSlice S8x512x14x14 ![0, 0, 6, 8] · slices_S8x512x22x22_S8x512x14x14_0_0_6_8) : (⟨S8x512x22x22, .f32⟩ : BufTy).Contents (Elt F) → (⟨S8x512x14x14, .f32⟩ : BufTy).Contents (Elt F)),
    binary main_arg3 main_v1279 main_v1280 (mulf : (⟨S8x512x14x14, .f32⟩ : BufTy).Contents (Elt F) → (⟨S8x512x14x14, .f32⟩ : BufTy).Contents (Elt F) → (⟨S8x512x14x14, .f32⟩ : BufTy).Contents (Elt F)),
    nullary main_cst_307 (constant S_ .f32 0x00000000#32),
    binary main_v1280 main_cst_307 main_v1281 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1257 main_v1282 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1260 main_v1283 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1263 main_v1284 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1266 main_v1285 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1269 main_v1286 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1272 main_v1287 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1275 main_v1288 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1278 main_v1289 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1281 main_v1290 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1282, main_v1283, main_v1284, main_v1285, main_v1286, main_v1287, main_v1288, main_v1289, main_v1290] main_v1291 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1292 ((extractStridedSlice S8x512x14x14 ![0, 0, 7, 0] · slices_S8x512x22x22_S8x512x14x14_0_0_7_0) : (⟨S8x512x22x22, .f32⟩ : BufTy).Contents (Elt F) → (⟨S8x512x14x14, .f32⟩ : BufTy).Contents (Elt F)),
    binary main_arg3 main_v1292 main_v1293 (mulf : (⟨S8x512x14x14, .f32⟩ : BufTy).Contents (Elt F) → (⟨S8x512x14x14, .f32⟩ : BufTy).Contents (Elt F) → (⟨S8x512x14x14, .f32⟩ : BufTy).Contents (Elt F)),
    nullary main_cst_308 (constant S_ .f32 0x00000000#32),
    binary main_v1293 main_cst_308 main_v1294 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1295 ((extractStridedSlice S8x512x14x14 ![0, 0, 7, 1] · slices_S8x512x22x22_S8x512x14x14_0_0_7_1) : (⟨S8x512x22x22, .f32⟩ : BufTy).Contents (Elt F) → (⟨S8x512x14x14, .f32⟩ : BufTy).Contents (Elt F)),
    binary main_arg3 main_v1295 main_v1296 (mulf : (⟨S8x512x14x14, .f32⟩ : BufTy).Contents (Elt F) → (⟨S8x512x14x14, .f32⟩ : BufTy).Contents (Elt F) → (⟨S8x512x14x14, .f32⟩ : BufTy).Contents (Elt F)),
    nullary main_cst_309 (constant S_ .f32 0x00000000#32),
    binary main_v1296 main_cst_309 main_v1297 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1298 ((extractStridedSlice S8x512x14x14 ![0, 0, 7, 2] · slices_S8x512x22x22_S8x512x14x14_0_0_7_2) : (⟨S8x512x22x22, .f32⟩ : BufTy).Contents (Elt F) → (⟨S8x512x14x14, .f32⟩ : BufTy).Contents (Elt F)),
    binary main_arg3 main_v1298 main_v1299 (mulf : (⟨S8x512x14x14, .f32⟩ : BufTy).Contents (Elt F) → (⟨S8x512x14x14, .f32⟩ : BufTy).Contents (Elt F) → (⟨S8x512x14x14, .f32⟩ : BufTy).Contents (Elt F)),
    nullary main_cst_310 (constant S_ .f32 0x00000000#32),
    binary main_v1299 main_cst_310 main_v1300 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1301 ((extractStridedSlice S8x512x14x14 ![0, 0, 7, 3] · slices_S8x512x22x22_S8x512x14x14_0_0_7_3) : (⟨S8x512x22x22, .f32⟩ : BufTy).Contents (Elt F) → (⟨S8x512x14x14, .f32⟩ : BufTy).Contents (Elt F)),
    binary main_arg3 main_v1301 main_v1302 (mulf : (⟨S8x512x14x14, .f32⟩ : BufTy).Contents (Elt F) → (⟨S8x512x14x14, .f32⟩ : BufTy).Contents (Elt F) → (⟨S8x512x14x14, .f32⟩ : BufTy).Contents (Elt F)),
    nullary main_cst_311 (constant S_ .f32 0x00000000#32),
    binary main_v1302 main_cst_311 main_v1303 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1304 ((extractStridedSlice S8x512x14x14 ![0, 0, 7, 4] · slices_S8x512x22x22_S8x512x14x14_0_0_7_4) : (⟨S8x512x22x22, .f32⟩ : BufTy).Contents (Elt F) → (⟨S8x512x14x14, .f32⟩ : BufTy).Contents (Elt F)),
    binary main_arg3 main_v1304 main_v1305 (mulf : (⟨S8x512x14x14, .f32⟩ : BufTy).Contents (Elt F) → (⟨S8x512x14x14, .f32⟩ : BufTy).Contents (Elt F) → (⟨S8x512x14x14, .f32⟩ : BufTy).Contents (Elt F)) ]

set_option maxHeartbeats 0 in
theorem part26_eq (d : Dev nD) : main_part26 (F := F) d = seq opsP26 := by chain_rfl

/-- The operations of window 27 of @main. -/
abbrev opsP27 : List (HloOp τ sig (Elt F)) :=
  [ nullary main_cst_312 (constant S_ .f32 0x00000000#32),
    binary main_v1305 main_cst_312 main_v1306 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1307 ((extractStridedSlice S8x512x14x14 ![0, 0, 7, 5] · slices_S8x512x22x22_S8x512x14x14_0_0_7_5) : (⟨S8x512x22x22, .f32⟩ : BufTy).Contents (Elt F) → (⟨S8x512x14x14, .f32⟩ : BufTy).Contents (Elt F)),
    binary main_arg3 main_v1307 main_v1308 (mulf : (⟨S8x512x14x14, .f32⟩ : BufTy).Contents (Elt F) → (⟨S8x512x14x14, .f32⟩ : BufTy).Contents (Elt F) → (⟨S8x512x14x14, .f32⟩ : BufTy).Contents (Elt F)),
    nullary main_cst_313 (constant S_ .f32 0x00000000#32),
    binary main_v1308 main_cst_313 main_v1309 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1310 ((extractStridedSlice S8x512x14x14 ![0, 0, 7, 6] · slices_S8x512x22x22_S8x512x14x14_0_0_7_6) : (⟨S8x512x22x22, .f32⟩ : BufTy).Contents (Elt F) → (⟨S8x512x14x14, .f32⟩ : BufTy).Contents (Elt F)),
    binary main_arg3 main_v1310 main_v1311 (mulf : (⟨S8x512x14x14, .f32⟩ : BufTy).Contents (Elt F) → (⟨S8x512x14x14, .f32⟩ : BufTy).Contents (Elt F) → (⟨S8x512x14x14, .f32⟩ : BufTy).Contents (Elt F)),
    nullary main_cst_314 (constant S_ .f32 0x00000000#32),
    binary main_v1311 main_cst_314 main_v1312 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1313 ((extractStridedSlice S8x512x14x14 ![0, 0, 7, 7] · slices_S8x512x22x22_S8x512x14x14_0_0_7_7) : (⟨S8x512x22x22, .f32⟩ : BufTy).Contents (Elt F) → (⟨S8x512x14x14, .f32⟩ : BufTy).Contents (Elt F)),
    binary main_arg3 main_v1313 main_v1314 (mulf : (⟨S8x512x14x14, .f32⟩ : BufTy).Contents (Elt F) → (⟨S8x512x14x14, .f32⟩ : BufTy).Contents (Elt F) → (⟨S8x512x14x14, .f32⟩ : BufTy).Contents (Elt F)),
    nullary main_cst_315 (constant S_ .f32 0x00000000#32),
    binary main_v1314 main_cst_315 main_v1315 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1316 ((extractStridedSlice S8x512x14x14 ![0, 0, 7, 8] · slices_S8x512x22x22_S8x512x14x14_0_0_7_8) : (⟨S8x512x22x22, .f32⟩ : BufTy).Contents (Elt F) → (⟨S8x512x14x14, .f32⟩ : BufTy).Contents (Elt F)),
    binary main_arg3 main_v1316 main_v1317 (mulf : (⟨S8x512x14x14, .f32⟩ : BufTy).Contents (Elt F) → (⟨S8x512x14x14, .f32⟩ : BufTy).Contents (Elt F) → (⟨S8x512x14x14, .f32⟩ : BufTy).Contents (Elt F)),
    nullary main_cst_316 (constant S_ .f32 0x00000000#32),
    binary main_v1317 main_cst_316 main_v1318 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1294 main_v1319 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1297 main_v1320 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1300 main_v1321 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1303 main_v1322 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1306 main_v1323 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1309 main_v1324 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1312 main_v1325 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1315 main_v1326 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1318 main_v1327 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1319, main_v1320, main_v1321, main_v1322, main_v1323, main_v1324, main_v1325, main_v1326, main_v1327] main_v1328 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1032 main_v1329 ((extractStridedSlice S8x512x14x14 ![0, 0, 8, 0] · slices_S8x512x22x22_S8x512x14x14_0_0_8_0) : (⟨S8x512x22x22, .f32⟩ : BufTy).Contents (Elt F) → (⟨S8x512x14x14, .f32⟩ : BufTy).Contents (Elt F)),
    binary main_arg3 main_v1329 main_v1330 (mulf : (⟨S8x512x14x14, .f32⟩ : BufTy).Contents (Elt F) → (⟨S8x512x14x14, .f32⟩ : BufTy).Contents (Elt F) → (⟨S8x512x14x14, .f32⟩ : BufTy).Contents (Elt F)),
    nullary main_cst_317 (constant S_ .f32 0x00000000#32),
    binary main_v1330 main_cst_317 main_v1331 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1332 ((extractStridedSlice S8x512x14x14 ![0, 0, 8, 1] · slices_S8x512x22x22_S8x512x14x14_0_0_8_1) : (⟨S8x512x22x22, .f32⟩ : BufTy).Contents (Elt F) → (⟨S8x512x14x14, .f32⟩ : BufTy).Contents (Elt F)),
    binary main_arg3 main_v1332 main_v1333 (mulf : (⟨S8x512x14x14, .f32⟩ : BufTy).Contents (Elt F) → (⟨S8x512x14x14, .f32⟩ : BufTy).Contents (Elt F) → (⟨S8x512x14x14, .f32⟩ : BufTy).Contents (Elt F)),
    nullary main_cst_318 (constant S_ .f32 0x00000000#32),
    binary main_v1333 main_cst_318 main_v1334 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1335 ((extractStridedSlice S8x512x14x14 ![0, 0, 8, 2] · slices_S8x512x22x22_S8x512x14x14_0_0_8_2) : (⟨S8x512x22x22, .f32⟩ : BufTy).Contents (Elt F) → (⟨S8x512x14x14, .f32⟩ : BufTy).Contents (Elt F)),
    binary main_arg3 main_v1335 main_v1336 (mulf : (⟨S8x512x14x14, .f32⟩ : BufTy).Contents (Elt F) → (⟨S8x512x14x14, .f32⟩ : BufTy).Contents (Elt F) → (⟨S8x512x14x14, .f32⟩ : BufTy).Contents (Elt F)),
    nullary main_cst_319 (constant S_ .f32 0x00000000#32),
    binary main_v1336 main_cst_319 main_v1337 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1338 ((extractStridedSlice S8x512x14x14 ![0, 0, 8, 3] · slices_S8x512x22x22_S8x512x14x14_0_0_8_3) : (⟨S8x512x22x22, .f32⟩ : BufTy).Contents (Elt F) → (⟨S8x512x14x14, .f32⟩ : BufTy).Contents (Elt F)),
    binary main_arg3 main_v1338 main_v1339 (mulf : (⟨S8x512x14x14, .f32⟩ : BufTy).Contents (Elt F) → (⟨S8x512x14x14, .f32⟩ : BufTy).Contents (Elt F) → (⟨S8x512x14x14, .f32⟩ : BufTy).Contents (Elt F)),
    nullary main_cst_320 (constant S_ .f32 0x00000000#32),
    binary main_v1339 main_cst_320 main_v1340 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1341 ((extractStridedSlice S8x512x14x14 ![0, 0, 8, 4] · slices_S8x512x22x22_S8x512x14x14_0_0_8_4) : (⟨S8x512x22x22, .f32⟩ : BufTy).Contents (Elt F) → (⟨S8x512x14x14, .f32⟩ : BufTy).Contents (Elt F)),
    binary main_arg3 main_v1341 main_v1342 (mulf : (⟨S8x512x14x14, .f32⟩ : BufTy).Contents (Elt F) → (⟨S8x512x14x14, .f32⟩ : BufTy).Contents (Elt F) → (⟨S8x512x14x14, .f32⟩ : BufTy).Contents (Elt F)),
    nullary main_cst_321 (constant S_ .f32 0x00000000#32),
    binary main_v1342 main_cst_321 main_v1343 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1344 ((extractStridedSlice S8x512x14x14 ![0, 0, 8, 5] · slices_S8x512x22x22_S8x512x14x14_0_0_8_5) : (⟨S8x512x22x22, .f32⟩ : BufTy).Contents (Elt F) → (⟨S8x512x14x14, .f32⟩ : BufTy).Contents (Elt F)),
    binary main_arg3 main_v1344 main_v1345 (mulf : (⟨S8x512x14x14, .f32⟩ : BufTy).Contents (Elt F) → (⟨S8x512x14x14, .f32⟩ : BufTy).Contents (Elt F) → (⟨S8x512x14x14, .f32⟩ : BufTy).Contents (Elt F)),
    nullary main_cst_322 (constant S_ .f32 0x00000000#32),
    binary main_v1345 main_cst_322 main_v1346 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1347 ((extractStridedSlice S8x512x14x14 ![0, 0, 8, 6] · slices_S8x512x22x22_S8x512x14x14_0_0_8_6) : (⟨S8x512x22x22, .f32⟩ : BufTy).Contents (Elt F) → (⟨S8x512x14x14, .f32⟩ : BufTy).Contents (Elt F)),
    binary main_arg3 main_v1347 main_v1348 (mulf : (⟨S8x512x14x14, .f32⟩ : BufTy).Contents (Elt F) → (⟨S8x512x14x14, .f32⟩ : BufTy).Contents (Elt F) → (⟨S8x512x14x14, .f32⟩ : BufTy).Contents (Elt F)),
    nullary main_cst_323 (constant S_ .f32 0x00000000#32),
    binary main_v1348 main_cst_323 main_v1349 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1032 main_v1350 ((extractStridedSlice S8x512x14x14 ![0, 0, 8, 7] · slices_S8x512x22x22_S8x512x14x14_0_0_8_7) : (⟨S8x512x22x22, .f32⟩ : BufTy).Contents (Elt F) → (⟨S8x512x14x14, .f32⟩ : BufTy).Contents (Elt F)),
    binary main_arg3 main_v1350 main_v1351 (mulf : (⟨S8x512x14x14, .f32⟩ : BufTy).Contents (Elt F) → (⟨S8x512x14x14, .f32⟩ : BufTy).Contents (Elt F) → (⟨S8x512x14x14, .f32⟩ : BufTy).Contents (Elt F)),
    nullary main_cst_324 (constant S_ .f32 0x00000000#32),
    binary main_v1351 main_cst_324 main_v1352 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)) ]

set_option maxHeartbeats 0 in
theorem part27_eq (d : Dev nD) : main_part27 (F := F) d = seq opsP27 := by chain_rfl

/-- The operations of window 28 of @main. -/
abbrev opsP28 : List (HloOp τ sig (Elt F)) :=
  [ unary main_v1032 main_v1353 ((extractStridedSlice S8x512x14x14 ![0, 0, 8, 8] · slices_S8x512x22x22_S8x512x14x14_0_0_8_8) : (⟨S8x512x22x22, .f32⟩ : BufTy).Contents (Elt F) → (⟨S8x512x14x14, .f32⟩ : BufTy).Contents (Elt F)),
    binary main_arg3 main_v1353 main_v1354 (mulf : (⟨S8x512x14x14, .f32⟩ : BufTy).Contents (Elt F) → (⟨S8x512x14x14, .f32⟩ : BufTy).Contents (Elt F) → (⟨S8x512x14x14, .f32⟩ : BufTy).Contents (Elt F)),
    nullary main_cst_325 (constant S_ .f32 0x00000000#32),
    binary main_v1354 main_cst_325 main_v1355 ((fun x v => Host.reduceAdd x v reducesTo_S8x512x14x14_S8x14x14_d1 h_S_) : (⟨S8x512x14x14, .f32⟩ : BufTy).Contents (Elt F) → (⟨S_, .f32⟩ : BufTy).Contents (Elt F) → (⟨S8x14x14, .f32⟩ : BufTy).Contents (Elt F)),
    unary main_v1331 main_v1356 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1334 main_v1357 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1337 main_v1358 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1340 main_v1359 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1343 main_v1360 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1346 main_v1361 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1349 main_v1362 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1352 main_v1363 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    unary main_v1355 main_v1364 (broadcastInDim S8x1x14x14 ![0, 2, 3] bcast_S8x14x14_S8x1x14x14_0_2_3 : (⟨S8x14x14, .f32⟩ : BufTy).Contents (Elt F) → (⟨S8x1x14x14, .f32⟩ : BufTy).Contents (Elt F)),
    nary ![main_v1356, main_v1357, main_v1358, main_v1359, main_v1360, main_v1361, main_v1362, main_v1363, main_v1364] main_v1365 (fun u => concatenate S8x9x14x14 1 [⟨S8x1x14x14, u 0⟩, ⟨S8x1x14x14, u 1⟩, ⟨S8x1x14x14, u 2⟩, ⟨S8x1x14x14, u 3⟩, ⟨S8x1x14x14, u 4⟩, ⟨S8x1x14x14, u 5⟩, ⟨S8x1x14x14, u 6⟩, ⟨S8x1x14x14, u 7⟩, ⟨S8x1x14x14, u 8⟩] concatenates_S8x1x14x14_S8x1x14x14_S8x1x14x14_S8x1x14x14_S8x1x14x14_S8x1x14x14_S8x1x14x14_S8x1x14x14_S8x1x14x14_S8x9x14x14_d1),
    unary main_v1069 main_v1366 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1106 main_v1367 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1143 main_v1368 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1180 main_v1369 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1217 main_v1370 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1254 main_v1371 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1291 main_v1372 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1328 main_v1373 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    unary main_v1365 main_v1374 (broadcastInDim S8x1x9x14x14 ![0, 2, 3, 4] bcast_S8x9x14x14_S8x1x9x14x14_0_2_3_4 : (⟨S8x9x14x14, .f32⟩ : BufTy).Contents (Elt F) → (⟨S8x1x9x14x14, .f32⟩ : BufTy).Contents (Elt F)),
    nary ![main_v1366, main_v1367, main_v1368, main_v1369, main_v1370, main_v1371, main_v1372, main_v1373, main_v1374] main_v1375 (fun u => concatenate S8x9x9x14x14 1 [⟨S8x1x9x14x14, u 0⟩, ⟨S8x1x9x14x14, u 1⟩, ⟨S8x1x9x14x14, u 2⟩, ⟨S8x1x9x14x14, u 3⟩, ⟨S8x1x9x14x14, u 4⟩, ⟨S8x1x9x14x14, u 5⟩, ⟨S8x1x9x14x14, u 6⟩, ⟨S8x1x9x14x14, u 7⟩, ⟨S8x1x9x14x14, u 8⟩] concatenates_S8x1x9x14x14_S8x1x9x14x14_S8x1x9x14x14_S8x1x9x14x14_S8x1x9x14x14_S8x1x9x14x14_S8x1x9x14x14_S8x1x9x14x14_S8x1x9x14x14_S8x9x9x14x14_d1) ]

set_option maxHeartbeats 0 in
theorem part28_eq (d : Dev nD) : main_part28 (F := F) d = seq opsP28 := by chain_rfl

/-- @main's operations, window by window. -/
abbrev opsParts : List (HloOp τ sig (Elt F)) :=
  opsP0 ++ (opsP1 ++ (opsP2 ++ (opsP3 ++ (opsP4 ++ (opsP5 ++ (opsP6 ++ (opsP7 ++ (opsP8 ++ (opsP9 ++ (opsP10 ++ (opsP11 ++ (opsP12 ++ (opsP13 ++ (opsP14 ++ (opsP15 ++ (opsP16 ++ (opsP17 ++ (opsP18 ++ (opsP19 ++ (opsP20 ++ (opsP21 ++ (opsP22 ++ (opsP23 ++ (opsP24 ++ (opsP25 ++ (opsP26 ++ (opsP27 ++ (opsP28))))))))))))))))))))))))))))

/-- @main is the straight line of its operations. -/
theorem main_eq_parts (d : Dev nD) : main (F := F) d = seq opsParts := by
  unfold opsParts
  rw [seq_append, seq_append, seq_append, seq_append, seq_append, seq_append, seq_append, seq_append, seq_append, seq_append, seq_append, seq_append, seq_append, seq_append, seq_append, seq_append, seq_append, seq_append, seq_append, seq_append, seq_append, seq_append, seq_append, seq_append, seq_append, seq_append, seq_append, seq_append]
  simp only [main, part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq]

end Cert.ReferenceIdeal.RefMain

end
-- ==== Proof.RefRun.lean ====
/-
  The idealized reference's run.  @main is a straight line of 1708 host operations, four levels of 427; every weakly
  fair execution terminates with each buffer at the fold of the operations over the launch memory.  Read level by
  level (a level writes no argument and no other level's buffers), each result is g5 of its two feature maps and
  every argument is as launched.
-/
import proofs.«135875_j16999480558431_2_alg».proof.Proof.RefLevel0
import proofs.«135875_j16999480558431_2_alg».proof.Proof.RefLevel1
import proofs.«135875_j16999480558431_2_alg».proof.Proof.RefLevel2
import proofs.«135875_j16999480558431_2_alg».proof.Proof.RefLevel3
import proofs.«135875_j16999480558431_2_alg».proof.Proof.RefMain
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open RefLib

variable {F : FTy → Type} [FloatOps F]

/-- @main's operations, level by level. -/
abbrev ops : List (HloOp τ sig (Elt F)) := Lvl0.opsL ++ (Lvl1.opsL ++ (Lvl2.opsL ++ Lvl3.opsL))

set_option maxHeartbeats 0 in
/-- The windows' operations in order are the levels' operations in order. -/
theorem ops_eq : (RefMain.opsParts : List (HloOp τ sig (Elt F))) = ops := by chain_rfl

theorem main_eq (c : Dev nD) : main (F := F) c = seq ops := (RefMain.main_eq_parts c).trans (congrArg seq ops_eq)
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append Lvl0.level_sub (forall_append Lvl1.level_sub (forall_append Lvl2.level_sub Lvl3.level_sub))
theorem ops_fresh : (ops : List (HloOp τ sig (Elt F))).Forall fun op => op.fresh = ∅ :=
  forall_append Lvl0.level_fresh (forall_append Lvl1.level_fresh (forall_append Lvl2.level_fresh Lvl3.level_fresh))

/-- The fold over the whole program is the fold level by level. -/
theorem after_ops (V : Valuation τ sig (Elt F)) :
    after (ops (F := F)) V = after Lvl3.opsL (after Lvl2.opsL (after Lvl1.opsL (after Lvl0.opsL V))) := by
  unfold ops; rw [StableHlo.after_append, StableHlo.after_append, StableHlo.after_append]

theorem res0 (V : Valuation τ sig (Elt Ideal)) :
    after (ops (F := Ideal)) V (Proc.devRef .tc main_v343) = CorrJ0.g5 (V (Proc.devRef .tc main_arg0)) (V (Proc.devRef .tc main_arg4)) := by
  rw [after_ops]
  rw [Lvl3.level_keep _ main_v343 (by decide)]
  rw [Lvl2.level_keep _ main_v343 (by decide)]
  rw [Lvl1.level_keep _ main_v343 (by decide)]
  rw [Lvl0.level_res]

theorem res1 (V : Valuation τ sig (Elt Ideal)) :
    after (ops (F := Ideal)) V (Proc.devRef .tc main_v687) = CorrJ1.g5 (V (Proc.devRef .tc main_arg1)) (V (Proc.devRef .tc main_arg5)) := by
  rw [after_ops]
  rw [Lvl3.level_keep _ main_v687 (by decide)]
  rw [Lvl2.level_keep _ main_v687 (by decide)]
  rw [Lvl1.level_res]
  rw [Lvl0.level_keep _ main_arg1 (by decide)]
  rw [Lvl0.level_keep _ main_arg5 (by decide)]

theorem res2 (V : Valuation τ sig (Elt Ideal)) :
    after (ops (F := Ideal)) V (Proc.devRef .tc main_v1031) = CorrJ2.g5 (V (Proc.devRef .tc main_arg2)) (V (Proc.devRef .tc main_arg6)) := by
  rw [after_ops]
  rw [Lvl3.level_keep _ main_v1031 (by decide)]
  rw [Lvl2.level_res]
  rw [Lvl1.level_keep _ main_arg2 (by decide)]
  rw [Lvl0.level_keep _ main_arg2 (by decide)]
  rw [Lvl1.level_keep _ main_arg6 (by decide)]
  rw [Lvl0.level_keep _ main_arg6 (by decide)]

theorem res3 (V : Valuation τ sig (Elt Ideal)) :
    after (ops (F := Ideal)) V (Proc.devRef .tc main_v1375) = CorrJ3.g5 (V (Proc.devRef .tc main_arg3)) (V (Proc.devRef .tc main_arg7)) := by
  rw [after_ops]
  rw [Lvl3.level_res]
  rw [Lvl2.level_keep _ main_arg3 (by decide)]
  rw [Lvl1.level_keep _ main_arg3 (by decide)]
  rw [Lvl0.level_keep _ main_arg3 (by decide)]
  rw [Lvl2.level_keep _ main_arg7 (by decide)]
  rw [Lvl1.level_keep _ main_arg7 (by decide)]
  rw [Lvl0.level_keep _ main_arg7 (by decide)]

theorem keep_main_arg0 (V : Valuation τ sig (Elt F)) : after (ops (F := F)) V (Proc.devRef .tc main_arg0) = V (Proc.devRef .tc main_arg0) := by
  rw [after_ops]
  rw [Lvl3.level_keep _ main_arg0 (by decide)]
  rw [Lvl2.level_keep _ main_arg0 (by decide)]
  rw [Lvl1.level_keep _ main_arg0 (by decide)]
  rw [Lvl0.level_keep _ main_arg0 (by decide)]

theorem keep_main_arg1 (V : Valuation τ sig (Elt F)) : after (ops (F := F)) V (Proc.devRef .tc main_arg1) = V (Proc.devRef .tc main_arg1) := by
  rw [after_ops]
  rw [Lvl3.level_keep _ main_arg1 (by decide)]
  rw [Lvl2.level_keep _ main_arg1 (by decide)]
  rw [Lvl1.level_keep _ main_arg1 (by decide)]
  rw [Lvl0.level_keep _ main_arg1 (by decide)]

theorem keep_main_arg2 (V : Valuation τ sig (Elt F)) : after (ops (F := F)) V (Proc.devRef .tc main_arg2) = V (Proc.devRef .tc main_arg2) := by
  rw [after_ops]
  rw [Lvl3.level_keep _ main_arg2 (by decide)]
  rw [Lvl2.level_keep _ main_arg2 (by decide)]
  rw [Lvl1.level_keep _ main_arg2 (by decide)]
  rw [Lvl0.level_keep _ main_arg2 (by decide)]

theorem keep_main_arg3 (V : Valuation τ sig (Elt F)) : after (ops (F := F)) V (Proc.devRef .tc main_arg3) = V (Proc.devRef .tc main_arg3) := by
  rw [after_ops]
  rw [Lvl3.level_keep _ main_arg3 (by decide)]
  rw [Lvl2.level_keep _ main_arg3 (by decide)]
  rw [Lvl1.level_keep _ main_arg3 (by decide)]
  rw [Lvl0.level_keep _ main_arg3 (by decide)]

theorem keep_main_arg4 (V : Valuation τ sig (Elt F)) : after (ops (F := F)) V (Proc.devRef .tc main_arg4) = V (Proc.devRef .tc main_arg4) := by
  rw [after_ops]
  rw [Lvl3.level_keep _ main_arg4 (by decide)]
  rw [Lvl2.level_keep _ main_arg4 (by decide)]
  rw [Lvl1.level_keep _ main_arg4 (by decide)]
  rw [Lvl0.level_keep _ main_arg4 (by decide)]

theorem keep_main_arg5 (V : Valuation τ sig (Elt F)) : after (ops (F := F)) V (Proc.devRef .tc main_arg5) = V (Proc.devRef .tc main_arg5) := by
  rw [after_ops]
  rw [Lvl3.level_keep _ main_arg5 (by decide)]
  rw [Lvl2.level_keep _ main_arg5 (by decide)]
  rw [Lvl1.level_keep _ main_arg5 (by decide)]
  rw [Lvl0.level_keep _ main_arg5 (by decide)]

theorem keep_main_arg6 (V : Valuation τ sig (Elt F)) : after (ops (F := F)) V (Proc.devRef .tc main_arg6) = V (Proc.devRef .tc main_arg6) := by
  rw [after_ops]
  rw [Lvl3.level_keep _ main_arg6 (by decide)]
  rw [Lvl2.level_keep _ main_arg6 (by decide)]
  rw [Lvl1.level_keep _ main_arg6 (by decide)]
  rw [Lvl0.level_keep _ main_arg6 (by decide)]

theorem keep_main_arg7 (V : Valuation τ sig (Elt F)) : after (ops (F := F)) V (Proc.devRef .tc main_arg7) = V (Proc.devRef .tc main_arg7) := by
  rw [after_ops]
  rw [Lvl3.level_keep _ main_arg7 (by decide)]
  rw [Lvl2.level_keep _ main_arg7 (by decide)]
  rw [Lvl1.level_keep _ main_arg7 (by decide)]
  rw [Lvl0.level_keep _ main_arg7 (by decide)]

/-- Every weakly fair execution of the reference terminates with each result at g5 of its two feature maps and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1375) = CorrJ3.g5 (m ((c.tc : Thread nD τ).loc main_arg3)) (m ((c.tc : Thread nD τ).loc main_arg7))
      ∧ r.2.mem ((c.tc : Thread nD τ).loc main_v1031) = CorrJ2.g5 (m ((c.tc : Thread nD τ).loc main_arg2)) (m ((c.tc : Thread nD τ).loc main_arg6))
      ∧ r.2.mem ((c.tc : Thread nD τ).loc main_v687) = CorrJ1.g5 (m ((c.tc : Thread nD τ).loc main_arg1)) (m ((c.tc : Thread nD τ).loc main_arg5))
      ∧ r.2.mem ((c.tc : Thread nD τ).loc main_v343) = CorrJ0.g5 (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v1375).trans (res3 _), (h c main_v1031).trans (res2 _), (h c main_v687).trans (res1 _),
      (h c main_v343).trans (res0 _),
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/-
  The claim: a four-level pyramid of 9 x 9 patch correlations.  For each level, with feature maps a, b of shape
  [8, C, H, W], both programs compute

      out[n, di, dj, i, j] = sum over channels c of a[n, c, i, j] * bpad[n, c, i + di, j + dj],

  bpad being b with a border of four zeros.  The kernel zero-pads inside a scratch buffer, one batch entry per grid
  point, and stores the 81 planes of a point side by side; the reference pads the whole array and stacks 81 sums.  The
  two are the same sum term by term (on the border both multiply a by the same zero), so nothing depends on the inputs
  being finite.  The frames of the two kernel programs are the generated ones; the reference's frame is its run
  with the results dropped; the ideal pass rewrote nothing, so the preservation claim is empty.
-/
import proofs.«135875_j16999480558431_2_alg».proof.Defs
import proofs.«135875_j16999480558431_2_alg».proof.Proof.Gen.Kernel
import proofs.«135875_j16999480558431_2_alg».proof.Proof.Gen.Kernel.Frame
import proofs.«135875_j16999480558431_2_alg».proof.Proof.Gen.KernelIdeal
import proofs.«135875_j16999480558431_2_alg».proof.Proof.Gen.KernelIdeal.Frame
import proofs.«135875_j16999480558431_2_alg».proof.Proof.Gen.ReferenceIdeal
import proofs.«135875_j16999480558431_2_alg».proof.Proof.Gen.Pre_finite_inputs
import proofs.«135875_j16999480558431_2_alg».proof.Proof.KerResults
import proofs.«135875_j16999480558431_2_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference's run with its results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.RefRun.run m ρ)

/-- Both runs end with the four results at g5 of the arguments' launch contents, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => CorrJ3.g5 (m ((c.tc : Thread Cert.KernelIdeal.nD Cert.KernelIdeal.τ).loc Cert.KernelIdeal.main_arg3)) (m ((c.tc : Thread Cert.KernelIdeal.nD Cert.KernelIdeal.τ).loc Cert.KernelIdeal.main_arg7)),
    fun c => CorrJ2.g5 (m ((c.tc : Thread Cert.KernelIdeal.nD Cert.KernelIdeal.τ).loc Cert.KernelIdeal.main_arg2)) (m ((c.tc : Thread Cert.KernelIdeal.nD Cert.KernelIdeal.τ).loc Cert.KernelIdeal.main_arg6)),
    fun c => CorrJ1.g5 (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => CorrJ0.g5 (m ((c.tc : Thread Cert.KernelIdeal.nD Cert.KernelIdeal.τ).loc Cert.KernelIdeal.main_arg0)) (m ((c.tc : Thread Cert.KernelIdeal.nD Cert.KernelIdeal.τ).loc Cert.KernelIdeal.main_arg4)),
    ?_, ?_⟩
  · exact (θ_run Cert.KernelIdeal.defs _ _).mono (fun r h c =>
      ⟨(h c).1.trans (Cert.KernelIdeal.Out.res3 m ρ c), (h c).2.1.trans (Cert.KernelIdeal.Out.res2 m ρ c),
       (h c).2.2.1.trans (Cert.KernelIdeal.Out.res1 m ρ c), (h c).2.2.2.1.trans (Cert.KernelIdeal.Out.res0 m ρ c),
       (h c).2.2.2.2⟩) (Cert.KernelIdeal.Out.run_out m ρ)
  · refine (θ_run Cert.ReferenceIdeal.defs _ _).mono (fun r h c => ?_) (Cert.ReferenceIdeal.RefRun.run m' ρ')
    obtain ⟨g0, g1, g2, g3, g4, g5', g6, g7⟩ := hagree c
    obtain ⟨r3, r2, r1, r0, rest⟩ := h c
    rw [g3, g7] at r3
    rw [g2, g6] at r2
    rw [g1, g5'] at r1
    rw [g0, g4] at r0
    exact ⟨r3, r2, r1, r0, rest⟩

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
